-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v302) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4096 : Shape := ⟨2, ![128, 4096]⟩
abbrev S4096 : Shape := ⟨1, ![4096]⟩
abbrev S_ : Shape := ⟨0, ![]⟩

class Facts : Prop where
  bcast_S_S128x4096 : S_.BroadcastsInDim S128x4096 (![] : Fin 0 → Fin S128x4096.rank)
  reducesTo_S128x4096_S_d0_1 : S128x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S128x4096 .f32) (main_arg1 : FVec F S4096 .f32) : IVec S_ 1 :=
  let main_v0 : FVec F S128x4096 .f32 := Host.absf main_arg0
  let main_cst : FVec F S_ .f32 := constant S_ .f32 0x7F800000#32
  let main_v1 : FVec F S128x4096 .f32 := broadcastInDim S128x4096 ![] bcast_S_S128x4096 main_cst
  let main_v2 : IVec S128x4096 1 := cmpf .olt main_v0 main_v1
  let main_c : IVec S_ 1 := constantI S_ 1 1#1
  let main_v3 : IVec S_ 1 := (fun x v => Host.reduce IntOp.andi x v reducesTo_S128x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S128x4096 : Shape := ⟨2, ![128, 4096]⟩
abbrev S4096 : Shape := ⟨1, ![4096]⟩
abbrev S128x16 : Shape := ⟨2, ![128, 16]⟩
abbrev S16 : Shape := ⟨1, ![16]⟩
abbrev S1x16 : Shape := ⟨2, ![1, 16]⟩
abbrev S4x4096 : Shape := ⟨2, ![4, 4096]⟩
abbrev S4x16 : Shape := ⟨2, ![4, 16]⟩
abbrev S_ : Shape := ⟨0, ![]⟩

abbrev nBuf : Table → Nat
  | .hbm => 6
  | .local .scVector .vmem => 3
  | _ => 0

abbrev bufTy : (tb : Table) → Fin (nBuf tb) → BufTy
  | .hbm, ⟨0, _⟩ => ⟨S128x4096, .f32⟩
  | .hbm, ⟨1, _⟩ => ⟨S4096, .f32⟩
  | .hbm, ⟨2, _⟩ => ⟨S128x16, .f32⟩
  | .hbm, ⟨3, _⟩ => ⟨S16, .f32⟩
  | .hbm, ⟨4, _⟩ => ⟨S1x16, .f32⟩
  | .hbm, ⟨5, _⟩ => ⟨S128x4096, .f32⟩
  | .local .scVector .vmem, ⟨0, _⟩ => ⟨S4x4096, .f32⟩
  | .local .scVector .vmem, ⟨1, _⟩ => ⟨S4x16, .f32⟩
  | .local .scVector .vmem, ⟨2, _⟩ => ⟨S1x16, .f32⟩
  | _, _ => ⟨S128x4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0_scv : Ref sig .scVector := ⟨.hbm, 0, rfl⟩
abbrev main_v1_scv : Ref sig .scVector := ⟨.hbm, 4, rfl⟩
abbrev main_cst_scv : Ref sig .scVector := ⟨.hbm, 2, rfl⟩
abbrev main_v2_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32_49_r0 : BitVec 32 := 0#32
  ![v2.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32_49_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S4096_S16_0 : S4096.Slices ![0] S16
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S16 : S1x16.ShapeCasts S16
  inb_S4x4096_S1x16_0_0 : ∀ a, (![0, 0] : Fin 2 → Nat) a + S1x16.size a ≤ S4x4096.size a
  inb_S4x16_S1x16_0_0 : ∀ a, (![0, 0] : Fin 2 → Nat) a + S1x16.size a ≤ S4x16.size a
  inb_S4x4096_S1x16_1_0 : ∀ a, (![1, 0] : Fin 2 → Nat) a + S1x16.size a ≤ S4x4096.size a
  inb_S4x16_S1x16_1_0 : ∀ a, (![1, 0] : Fin 2 → Nat) a + S1x16.size a ≤ S4x16.size a
  inb_S4x4096_S1x16_2_0 : ∀ a, (![2, 0] : Fin 2 → Nat) a + S1x16.size a ≤ S4x4096.size a
  inb_S4x16_S1x16_2_0 : ∀ a, (![2, 0] : Fin 2 → Nat) a + S1x16.size a ≤ S4x16.size a
  inb_S4x4096_S1x16_3_0 : ∀ a, (![3, 0] : Fin 2 → Nat) a + S1x16.size a ≤ S4x4096.size a
  inb_S4x16_S1x16_3_0 : ∀ a, (![3, 0] : Fin 2 → Nat) a + S1x16.size a ≤ S4x16.size a
  hcc0_scoped0 : 0 + S_.numel ≤ 4
  hcc0_scoped1 : 1 + S_.numel ≤ 4
  hcc0_scoped2 : 2 + S_.numel ≤ 4
  hcc0_scoped3 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S4x4096.size a ≤ S128x4096.size a
  k0_off2_inb : ∀ i : grid0.Coords, ∀ a, (k0_off2 i) a + S4x16.size a ≤ S128x16.size a

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped3 : DmaSems sig S_ := SemArray.consecutive 3 S_ hcc0_scoped3

class Facts : Prop extends Facts₀ where

variable [Facts]
-- ==== ReferenceIdeal.lean ====
abbrev S128x4096 : Shape := ⟨2, ![128, 4096]⟩
abbrev S4096 : Shape := ⟨1, ![4096]⟩
abbrev S_ : Shape := ⟨0, ![]⟩
abbrev S1 : Shape := ⟨1, ![1]⟩
abbrev S2 : Shape := ⟨1, ![2]⟩
abbrev S128 : Shape := ⟨1, ![128]⟩
abbrev S2x1 : Shape := ⟨2, ![2, 1]⟩
abbrev S2x2 : Shape := ⟨2, ![2, 2]⟩
abbrev S1x2 : Shape := ⟨2, ![1, 2]⟩
abbrev S128x1 : Shape := ⟨2, ![128, 1]⟩

abbrev nBuf : Space → Nat
  | .hbm => 4332
  | .vmem => 0
  | .smem => 0
  | _ => 0

abbrev hbmTy0_0 (i : Nat) : BufTy := match i % 128 with
  | 0 => ⟨S128x4096, .f32⟩
  | 1 => ⟨S4096, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S128, .f32⟩
  | 13 => ⟨S_, .f32⟩
  | 14 => ⟨S128x4096, .f32⟩
  | 15 => ⟨S_, .i32⟩
  | 16 => ⟨S1, .i32⟩
  | 17 => ⟨S_, .f32⟩
  | 18 => ⟨S128, .f32⟩
  | 19 => ⟨S128x4096, .f32⟩
  | 20 => ⟨S_, .f32⟩
  | 21 => ⟨S128x4096, .f32⟩
  | 22 => ⟨S128x4096, .f32⟩
  | 23 => ⟨S128x4096, .f32⟩
  | 24 => ⟨S_, .f32⟩
  | 25 => ⟨S128x4096, .f32⟩
  | 26 => ⟨S128x4096, .f32⟩
  | 27 => ⟨S128x4096, .f32⟩
  | 28 => ⟨S128x4096, .f32⟩
  | 29 => ⟨S128, .f32⟩
  | 30 => ⟨S128, .f32⟩
  | 31 => ⟨S1, .i32⟩
  | 32 => ⟨S_, .i32⟩
  | 33 => ⟨S1, .i32⟩
  | 34 => ⟨S_, .i32⟩
  | 35 => ⟨S2, .i64⟩
  | 36 => ⟨S_, .i64⟩
  | 37 => ⟨S2, .i64⟩
  | 38 => ⟨S2, .i64⟩
  | 39 => ⟨S_, .i64⟩
  | 40 => ⟨S2, .i64⟩
  | 41 => ⟨S2, .i64⟩
  | 42 => ⟨S2, .i32⟩
  | 43 => ⟨S2, .i32⟩
  | 44 => ⟨S_, .i32⟩
  | 45 => ⟨S_, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S_, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S2, .i32⟩
  | 121 => ⟨S2, .i32⟩
  | 122 => ⟨S_, .i32⟩
  | 123 => ⟨S2, .i32⟩
  | 124 => ⟨S2, .i32⟩
  | 125 => ⟨S_, .i32⟩
  | 126 => ⟨S2, .i32⟩
  | 127 => ⟨S2, .i32⟩
  | _ => ⟨S128x4096, .f32⟩

abbrev hbmTy0_1 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S2, .i32⟩
  | 6 => ⟨S_, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S_, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S2, .i32⟩
  | 36 => ⟨S2, .i32⟩
  | 37 => ⟨S_, .i32⟩
  | 38 => ⟨S2, .i32⟩
  | 39 => ⟨S2, .i32⟩
  | 40 => ⟨S_, .i32⟩
  | 41 => ⟨S2, .i32⟩
  | 42 => ⟨S2, .i32⟩
  | 43 => ⟨S2, .i32⟩
  | 44 => ⟨S2, .i32⟩
  | 45 => ⟨S2, .i32⟩
  | 46 => ⟨S2, .i32⟩
  | 47 => ⟨S2, .i32⟩
  | 48 => ⟨S2, .i32⟩
  | 49 => ⟨S_, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S2, .i32⟩
  | 88 => ⟨S2, .i32⟩
  | 89 => ⟨S2, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S_, .i32⟩
  | 127 => ⟨S2, .i32⟩
  | _ => ⟨S128x4096, .f32⟩

abbrev hbmTy0_2 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S2, .i32⟩
  | 6 => ⟨S2, .i32⟩
  | 7 => ⟨S_, .i32⟩
  | 8 => ⟨S2, .i32⟩
  | 9 => ⟨S2, .i32⟩
  | 10 => ⟨S2x1, .i32⟩
  | 11 => ⟨S2x1, .i32⟩
  | 12 => ⟨S2x2, .i32⟩
  | 13 => ⟨S1x2, .i32⟩
  | 14 => ⟨S2, .i32⟩
  | 15 => ⟨S1x2, .i32⟩
  | 16 => ⟨S2, .i32⟩
  | 17 => ⟨S_, .f32⟩
  | 18 => ⟨S_, .f32⟩
  | 19 => ⟨S_, .f32⟩
  | 20 => ⟨S_, .f32⟩
  | 21 => ⟨S1, .f32⟩
  | 22 => ⟨S1, .f32⟩
  | 23 => ⟨S1, .i32⟩
  | 24 => ⟨S_, .i32⟩
  | 25 => ⟨S1, .i32⟩
  | 26 => ⟨S_, .i32⟩
  | 27 => ⟨S128, .i64⟩
  | 28 => ⟨S_, .i64⟩
  | 29 => ⟨S128, .i64⟩
  | 30 => ⟨S128, .i64⟩
  | 31 => ⟨S_, .i64⟩
  | 32 => ⟨S128, .i64⟩
  | 33 => ⟨S128, .i64⟩
  | 34 => ⟨S128, .i32⟩
  | 35 => ⟨S128, .i32⟩
  | 36 => ⟨S_, .i32⟩
  | 37 => ⟨S_, .i32⟩
  | 38 => ⟨S_, .i32⟩
  | 39 => ⟨S128, .i32⟩
  | 40 => ⟨S128, .i32⟩
  | 41 => ⟨S128, .i32⟩
  | 42 => ⟨S128, .i32⟩
  | 43 => ⟨S128, .i32⟩
  | 44 => ⟨S_, .i32⟩
  | 45 => ⟨S128, .i32⟩
  | 46 => ⟨S128, .i32⟩
  | 47 => ⟨S_, .i32⟩
  | 48 => ⟨S128, .i32⟩
  | 49 => ⟨S128, .i32⟩
  | 50 => ⟨S128, .i32⟩
  | 51 => ⟨S128, .i32⟩
  | 52 => ⟨S128, .i32⟩
  | 53 => ⟨S_, .i32⟩
  | 54 => ⟨S128, .i32⟩
  | 55 => ⟨S128, .i32⟩
  | 56 => ⟨S_, .i32⟩
  | 57 => ⟨S128, .i32⟩
  | 58 => ⟨S128, .i32⟩
  | 59 => ⟨S128, .i32⟩
  | 60 => ⟨S128, .i32⟩
  | 61 => ⟨S128, .i32⟩
  | 62 => ⟨S_, .i32⟩
  | 63 => ⟨S128, .i32⟩
  | 64 => ⟨S128, .i32⟩
  | 65 => ⟨S_, .i32⟩
  | 66 => ⟨S128, .i32⟩
  | 67 => ⟨S128, .i32⟩
  | 68 => ⟨S128, .i32⟩
  | 69 => ⟨S128, .i32⟩
  | 70 => ⟨S128, .i32⟩
  | 71 => ⟨S_, .i32⟩
  | 72 => ⟨S128, .i32⟩
  | 73 => ⟨S128, .i32⟩
  | 74 => ⟨S_, .i32⟩
  | 75 => ⟨S128, .i32⟩
  | 76 => ⟨S128, .i32⟩
  | 77 => ⟨S128, .i32⟩
  | 78 => ⟨S128, .i32⟩
  | 79 => ⟨S128, .i32⟩
  | 80 => ⟨S128, .i32⟩
  | 81 => ⟨S128, .i32⟩
  | 82 => ⟨S128, .i32⟩
  | 83 => ⟨S_, .i32⟩
  | 84 => ⟨S128, .i32⟩
  | 85 => ⟨S128, .i32⟩
  | 86 => ⟨S128, .i32⟩
  | 87 => ⟨S_, .i32⟩
  | 88 => ⟨S128, .i32⟩
  | 89 => ⟨S128, .i32⟩
  | 90 => ⟨S_, .i32⟩
  | 91 => ⟨S128, .i32⟩
  | 92 => ⟨S128, .i32⟩
  | 93 => ⟨S128, .i32⟩
  | 94 => ⟨S128, .i32⟩
  | 95 => ⟨S128, .i32⟩
  | 96 => ⟨S_, .i32⟩
  | 97 => ⟨S128, .i32⟩
  | 98 => ⟨S128, .i32⟩
  | 99 => ⟨S_, .i32⟩
  | 100 => ⟨S128, .i32⟩
  | 101 => ⟨S128, .i32⟩
  | 102 => ⟨S128, .i32⟩
  | 103 => ⟨S128, .i32⟩
  | 104 => ⟨S128, .i32⟩
  | 105 => ⟨S_, .i32⟩
  | 106 => ⟨S128, .i32⟩
  | 107 => ⟨S128, .i32⟩
  | 108 => ⟨S_, .i32⟩
  | 109 => ⟨S128, .i32⟩
  | 110 => ⟨S128, .i32⟩
  | 111 => ⟨S128, .i32⟩
  | 112 => ⟨S128, .i32⟩
  | 113 => ⟨S128, .i32⟩
  | 114 => ⟨S_, .i32⟩
  | 115 => ⟨S128, .i32⟩
  | 116 => ⟨S128, .i32⟩
  | 117 => ⟨S_, .i32⟩
  | 118 => ⟨S128, .i32⟩
  | 119 => ⟨S128, .i32⟩
  | 120 => ⟨S128, .i32⟩
  | 121 => ⟨S128, .i32⟩
  | 122 => ⟨S128, .i32⟩
  | 123 => ⟨S128, .i32⟩
  | 124 => ⟨S128, .i32⟩
  | 125 => ⟨S128, .i32⟩
  | 126 => ⟨S_, .i32⟩
  | 127 => ⟨S128, .i32⟩
  | _ => ⟨S128x4096, .f32⟩

abbrev hbmTy0_3 (i : Nat) : BufTy := match i % 128 with
  | 0 => ⟨S128, .i32⟩
  | 1 => ⟨S128, .i32⟩
  | 2 => ⟨S_, .i32⟩
  | 3 => ⟨S128, .i32⟩
  | 4 => ⟨S128, .i32⟩
  | 5 => ⟨S_, .i32⟩
  | 6 => ⟨S128, .i32⟩
  | 7 => ⟨S128, .i32⟩
  | 8 => ⟨S128, .i32⟩
  | 9 => ⟨S128, .i32⟩
  | 10 => ⟨S128, .i32⟩
  | 11 => ⟨S_, .i32⟩
  | 12 => ⟨S128, .i32⟩
  | 13 => ⟨S128, .i32⟩
  | 14 => ⟨S_, .i32⟩
  | 15 => ⟨S128, .i32⟩
  | 16 => ⟨S128, .i32⟩
  | 17 => ⟨S128, .i32⟩
  | 18 => ⟨S128, .i32⟩
  | 19 => ⟨S128, .i32⟩
  | 20 => ⟨S_, .i32⟩
  | 21 => ⟨S128, .i32⟩
  | 22 => ⟨S128, .i32⟩
  | 23 => ⟨S_, .i32⟩
  | 24 => ⟨S128, .i32⟩
  | 25 => ⟨S128, .i32⟩
  | 26 => ⟨S128, .i32⟩
  | 27 => ⟨S128, .i32⟩
  | 28 => ⟨S128, .i32⟩
  | 29 => ⟨S_, .i32⟩
  | 30 => ⟨S128, .i32⟩
  | 31 => ⟨S128, .i32⟩
  | 32 => ⟨S_, .i32⟩
  | 33 => ⟨S128, .i32⟩
  | 34 => ⟨S128, .i32⟩
  | 35 => ⟨S128, .i32⟩
  | 36 => ⟨S128, .i32⟩
  | 37 => ⟨S128, .i32⟩
  | 38 => ⟨S128, .i32⟩
  | 39 => ⟨S128, .i32⟩
  | 40 => ⟨S128, .i32⟩
  | 41 => ⟨S_, .i32⟩
  | 42 => ⟨S128, .i32⟩
  | 43 => ⟨S128, .i32⟩
  | 44 => ⟨S128, .i32⟩
  | 45 => ⟨S_, .i32⟩
  | 46 => ⟨S128, .i32⟩
  | 47 => ⟨S128, .i32⟩
  | 48 => ⟨S_, .i32⟩
  | 49 => ⟨S128, .i32⟩
  | 50 => ⟨S128, .i32⟩
  | 51 => ⟨S128, .i32⟩
  | 52 => ⟨S128, .i32⟩
  | 53 => ⟨S128, .i32⟩
  | 54 => ⟨S_, .i32⟩
  | 55 => ⟨S128, .i32⟩
  | 56 => ⟨S128, .i32⟩
  | 57 => ⟨S_, .i32⟩
  | 58 => ⟨S128, .i32⟩
  | 59 => ⟨S128, .i32⟩
  | 60 => ⟨S128, .i32⟩
  | 61 => ⟨S128, .i32⟩
  | 62 => ⟨S128, .i32⟩
  | 63 => ⟨S_, .i32⟩
  | 64 => ⟨S128, .i32⟩
  | 65 => ⟨S128, .i32⟩
  | 66 => ⟨S_, .i32⟩
  | 67 => ⟨S128, .i32⟩
  | 68 => ⟨S128, .i32⟩
  | 69 => ⟨S128, .i32⟩
  | 70 => ⟨S128, .i32⟩
  | 71 => ⟨S128, .i32⟩
  | 72 => ⟨S_, .i32⟩
  | 73 => ⟨S128, .i32⟩
  | 74 => ⟨S128, .i32⟩
  | 75 => ⟨S_, .i32⟩
  | 76 => ⟨S128, .i32⟩
  | 77 => ⟨S128, .i32⟩
  | 78 => ⟨S128, .i32⟩
  | 79 => ⟨S128, .i32⟩
  | 80 => ⟨S128, .i32⟩
  | 81 => ⟨S128, .i32⟩
  | 82 => ⟨S128, .i32⟩
  | 83 => ⟨S128, .i32⟩
  | 84 => ⟨S_, .i32⟩
  | 85 => ⟨S128, .i32⟩
  | 86 => ⟨S128, .i32⟩
  | 87 => ⟨S128, .i32⟩
  | 88 => ⟨S_, .i32⟩
  | 89 => ⟨S128, .i32⟩
  | 90 => ⟨S128, .i32⟩
  | 91 => ⟨S_, .i32⟩
  | 92 => ⟨S128, .i32⟩
  | 93 => ⟨S128, .i32⟩
  | 94 => ⟨S128, .i32⟩
  | 95 => ⟨S128, .i32⟩
  | 96 => ⟨S128, .i32⟩
  | 97 => ⟨S_, .i32⟩
  | 98 => ⟨S128, .i32⟩
  | 99 => ⟨S128, .i32⟩
  | 100 => ⟨S_, .i32⟩
  | 101 => ⟨S128, .i32⟩
  | 102 => ⟨S128, .i32⟩
  | 103 => ⟨S128, .i32⟩
  | 104 => ⟨S128, .i32⟩
  | 105 => ⟨S128, .i32⟩
  | 106 => ⟨S_, .i32⟩
  | 107 => ⟨S128, .i32⟩
  | 108 => ⟨S128, .i32⟩
  | 109 => ⟨S_, .i32⟩
  | 110 => ⟨S128, .i32⟩
  | 111 => ⟨S128, .i32⟩
  | 112 => ⟨S128, .i32⟩
  | 113 => ⟨S128, .i32⟩
  | 114 => ⟨S128, .i32⟩
  | 115 => ⟨S_, .i32⟩
  | 116 => ⟨S128, .i32⟩
  | 117 => ⟨S128, .i32⟩
  | 118 => ⟨S_, .i32⟩
  | 119 => ⟨S128, .i32⟩
  | 120 => ⟨S128, .i32⟩
  | 121 => ⟨S128, .i32⟩
  | 122 => ⟨S128, .i32⟩
  | 123 => ⟨S128, .i32⟩
  | 124 => ⟨S128, .i32⟩
  | 125 => ⟨S128, .i32⟩
  | 126 => ⟨S128, .i32⟩
  | 127 => ⟨S_, .i32⟩
  | _ => ⟨S128x4096, .f32⟩

abbrev hbmTy0_4 (i : Nat) : BufTy := match i % 128 with
  | 0 => ⟨S128, .i32⟩
  | 1 => ⟨S128, .i32⟩
  | 2 => ⟨S128, .i32⟩
  | 3 => ⟨S_, .i32⟩
  | 4 => ⟨S128, .i32⟩
  | 5 => ⟨S128, .i32⟩
  | 6 => ⟨S_, .i32⟩
  | 7 => ⟨S128, .i32⟩
  | 8 => ⟨S128, .i32⟩
  | 9 => ⟨S128, .f32⟩
  | 10 => ⟨S_, .f32⟩
  | 11 => ⟨S128, .f32⟩
  | 12 => ⟨S128, .f32⟩
  | 13 => ⟨S1, .f32⟩
  | 14 => ⟨S128, .f32⟩
  | 15 => ⟨S128, .f32⟩
  | 16 => ⟨S128, .f32⟩
  | 17 => ⟨S128, .f32⟩
  | 18 => ⟨S128, .f32⟩
  | 19 => ⟨S128, .f32⟩
  | 20 => ⟨S128, .f32⟩
  | 21 => ⟨S128, .f32⟩
  | 22 => ⟨S_, .f32⟩
  | 23 => ⟨S128, .f32⟩
  | 24 => ⟨S128, .f32⟩
  | 25 => ⟨S_, .f32⟩
  | 26 => ⟨S128, .f32⟩
  | 27 => ⟨S128, .f32⟩
  | 28 => ⟨S128, .i1⟩
  | 29 => ⟨S128, .f32⟩
  | 30 => ⟨S128x1, .f32⟩
  | 31 => ⟨S128x4096, .f32⟩
  | 32 => ⟨S128x4096, .f32⟩
  | 33 => ⟨S128x1, .f32⟩
  | 34 => ⟨S_, .f32⟩
  | 35 => ⟨S128x1, .f32⟩
  | 36 => ⟨S128x1, .f32⟩
  | 37 => ⟨S128x4096, .f32⟩
  | 38 => ⟨S128x4096, .f32⟩
  | 39 => ⟨S128x4096, .f32⟩
  | 40 => ⟨S128, .f32⟩
  | 41 => ⟨S_, .f32⟩
  | 42 => ⟨S128x4096, .f32⟩
  | 43 => ⟨S_, .i32⟩
  | 44 => ⟨S1, .i32⟩
  | 45 => ⟨S_, .f32⟩
  | 46 => ⟨S128, .f32⟩
  | 47 => ⟨S128x4096, .f32⟩
  | 48 => ⟨S_, .f32⟩
  | 49 => ⟨S128x4096, .f32⟩
  | 50 => ⟨S128x4096, .f32⟩
  | 51 => ⟨S128x4096, .f32⟩
  | 52 => ⟨S_, .f32⟩
  | 53 => ⟨S128x4096, .f32⟩
  | 54 => ⟨S128x4096, .f32⟩
  | 55 => ⟨S128x4096, .f32⟩
  | 56 => ⟨S128x4096, .f32⟩
  | 57 => ⟨S128, .f32⟩
  | 58 => ⟨S128, .f32⟩
  | 59 => ⟨S1, .i32⟩
  | 60 => ⟨S_, .i32⟩
  | 61 => ⟨S1, .i32⟩
  | 62 => ⟨S_, .i32⟩
  | 63 => ⟨S2, .i64⟩
  | 64 => ⟨S_, .i64⟩
  | 65 => ⟨S2, .i64⟩
  | 66 => ⟨S2, .i64⟩
  | 67 => ⟨S_, .i64⟩
  | 68 => ⟨S2, .i64⟩
  | 69 => ⟨S2, .i64⟩
  | 70 => ⟨S2, .i32⟩
  | 71 => ⟨S2, .i32⟩
  | 72 => ⟨S_, .i32⟩
  | 73 => ⟨S_, .i32⟩
  | 74 => ⟨S_, .i32⟩
  | 75 => ⟨S2, .i32⟩
  | 76 => ⟨S2, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S2, .i32⟩
  | 88 => ⟨S2, .i32⟩
  | 89 => ⟨S_, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S_, .i32⟩
  | 127 => ⟨S2, .i32⟩
  | _ => ⟨S128x4096, .f32⟩

abbrev hbmTy0_5 (i : Nat) : BufTy := match i % 128 with
  | 0 => ⟨S2, .i32⟩
  | 1 => ⟨S2, .i32⟩
  | 2 => ⟨S2, .i32⟩
  | 3 => ⟨S2, .i32⟩
  | 4 => ⟨S_, .i32⟩
  | 5 => ⟨S2, .i32⟩
  | 6 => ⟨S2, .i32⟩
  | 7 => ⟨S_, .i32⟩
  | 8 => ⟨S2, .i32⟩
  | 9 => ⟨S2, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S_, .i32⟩
  | 17 => ⟨S2, .i32⟩
  | 18 => ⟨S2, .i32⟩
  | 19 => ⟨S2, .i32⟩
  | 20 => ⟨S2, .i32⟩
  | 21 => ⟨S2, .i32⟩
  | 22 => ⟨S_, .i32⟩
  | 23 => ⟨S2, .i32⟩
  | 24 => ⟨S2, .i32⟩
  | 25 => ⟨S_, .i32⟩
  | 26 => ⟨S2, .i32⟩
  | 27 => ⟨S2, .i32⟩
  | 28 => ⟨S2, .i32⟩
  | 29 => ⟨S2, .i32⟩
  | 30 => ⟨S2, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S_, .i32⟩
  | _ => ⟨S128x4096, .f32⟩

abbrev hbmTy0_6 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S_, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S2, .i32⟩
  | 22 => ⟨S2, .i32⟩
  | 23 => ⟨S_, .i32⟩
  | 24 => ⟨S2, .i32⟩
  | 25 => ⟨S2, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S2x1, .i32⟩
  | 39 => ⟨S2x1, .i32⟩
  | 40 => ⟨S2x2, .i32⟩
  | 41 => ⟨S1x2, .i32⟩
  | 42 => ⟨S2, .i32⟩
  | 43 => ⟨S1x2, .i32⟩
  | 44 => ⟨S2, .i32⟩
  | 45 => ⟨S_, .f32⟩
  | 46 => ⟨S_, .f32⟩
  | 47 => ⟨S_, .f32⟩
  | 48 => ⟨S_, .f32⟩
  | 49 => ⟨S1, .f32⟩
  | 50 => ⟨S1, .f32⟩
  | 51 => ⟨S1, .i32⟩
  | 52 => ⟨S_, .i32⟩
  | 53 => ⟨S1, .i32⟩
  | 54 => ⟨S_, .i32⟩
  | 55 => ⟨S128, .i64⟩
  | 56 => ⟨S_, .i64⟩
  | 57 => ⟨S128, .i64⟩
  | 58 => ⟨S128, .i64⟩
  | 59 => ⟨S_, .i64⟩
  | 60 => ⟨S128, .i64⟩
  | 61 => ⟨S128, .i64⟩
  | 62 => ⟨S128, .i32⟩
  | 63 => ⟨S128, .i32⟩
  | 64 => ⟨S_, .i32⟩
  | 65 => ⟨S_, .i32⟩
  | 66 => ⟨S_, .i32⟩
  | 67 => ⟨S128, .i32⟩
  | 68 => ⟨S128, .i32⟩
  | 69 => ⟨S128, .i32⟩
  | 70 => ⟨S128, .i32⟩
  | 71 => ⟨S128, .i32⟩
  | 72 => ⟨S_, .i32⟩
  | 73 => ⟨S128, .i32⟩
  | 74 => ⟨S128, .i32⟩
  | 75 => ⟨S_, .i32⟩
  | 76 => ⟨S128, .i32⟩
  | 77 => ⟨S128, .i32⟩
  | 78 => ⟨S128, .i32⟩
  | 79 => ⟨S128, .i32⟩
  | 80 => ⟨S128, .i32⟩
  | 81 => ⟨S_, .i32⟩
  | 82 => ⟨S128, .i32⟩
  | 83 => ⟨S128, .i32⟩
  | 84 => ⟨S_, .i32⟩
  | 85 => ⟨S128, .i32⟩
  | 86 => ⟨S128, .i32⟩
  | 87 => ⟨S128, .i32⟩
  | 88 => ⟨S128, .i32⟩
  | 89 => ⟨S128, .i32⟩
  | 90 => ⟨S_, .i32⟩
  | 91 => ⟨S128, .i32⟩
  | 92 => ⟨S128, .i32⟩
  | 93 => ⟨S_, .i32⟩
  | 94 => ⟨S128, .i32⟩
  | 95 => ⟨S128, .i32⟩
  | 96 => ⟨S128, .i32⟩
  | 97 => ⟨S128, .i32⟩
  | 98 => ⟨S128, .i32⟩
  | 99 => ⟨S_, .i32⟩
  | 100 => ⟨S128, .i32⟩
  | 101 => ⟨S128, .i32⟩
  | 102 => ⟨S_, .i32⟩
  | 103 => ⟨S128, .i32⟩
  | 104 => ⟨S128, .i32⟩
  | 105 => ⟨S128, .i32⟩
  | 106 => ⟨S128, .i32⟩
  | 107 => ⟨S128, .i32⟩
  | 108 => ⟨S128, .i32⟩
  | 109 => ⟨S128, .i32⟩
  | 110 => ⟨S128, .i32⟩
  | 111 => ⟨S_, .i32⟩
  | 112 => ⟨S128, .i32⟩
  | 113 => ⟨S128, .i32⟩
  | 114 => ⟨S128, .i32⟩
  | 115 => ⟨S_, .i32⟩
  | 116 => ⟨S128, .i32⟩
  | 117 => ⟨S128, .i32⟩
  | 118 => ⟨S_, .i32⟩
  | 119 => ⟨S128, .i32⟩
  | 120 => ⟨S128, .i32⟩
  | 121 => ⟨S128, .i32⟩
  | 122 => ⟨S128, .i32⟩
  | 123 => ⟨S128, .i32⟩
  | 124 => ⟨S_, .i32⟩
  | 125 => ⟨S128, .i32⟩
  | 126 => ⟨S128, .i32⟩
  | 127 => ⟨S_, .i32⟩
  | _ => ⟨S128x4096, .f32⟩

abbrev hbmTy0_7 (i : Nat) : BufTy := match i % 128 with
  | 0 => ⟨S128, .i32⟩
  | 1 => ⟨S128, .i32⟩
  | 2 => ⟨S128, .i32⟩
  | 3 => ⟨S128, .i32⟩
  | 4 => ⟨S128, .i32⟩
  | 5 => ⟨S_, .i32⟩
  | 6 => ⟨S128, .i32⟩
  | 7 => ⟨S128, .i32⟩
  | 8 => ⟨S_, .i32⟩
  | 9 => ⟨S128, .i32⟩
  | 10 => ⟨S128, .i32⟩
  | 11 => ⟨S128, .i32⟩
  | 12 => ⟨S128, .i32⟩
  | 13 => ⟨S128, .i32⟩
  | 14 => ⟨S_, .i32⟩
  | 15 => ⟨S128, .i32⟩
  | 16 => ⟨S128, .i32⟩
  | 17 => ⟨S_, .i32⟩
  | 18 => ⟨S128, .i32⟩
  | 19 => ⟨S128, .i32⟩
  | 20 => ⟨S128, .i32⟩
  | 21 => ⟨S128, .i32⟩
  | 22 => ⟨S128, .i32⟩
  | 23 => ⟨S128, .i32⟩
  | 24 => ⟨S128, .i32⟩
  | 25 => ⟨S128, .i32⟩
  | 26 => ⟨S_, .i32⟩
  | 27 => ⟨S128, .i32⟩
  | 28 => ⟨S128, .i32⟩
  | 29 => ⟨S128, .i32⟩
  | 30 => ⟨S_, .i32⟩
  | 31 => ⟨S128, .i32⟩
  | 32 => ⟨S128, .i32⟩
  | 33 => ⟨S_, .i32⟩
  | 34 => ⟨S128, .i32⟩
  | 35 => ⟨S128, .i32⟩
  | 36 => ⟨S128, .i32⟩
  | 37 => ⟨S128, .i32⟩
  | 38 => ⟨S128, .i32⟩
  | 39 => ⟨S_, .i32⟩
  | 40 => ⟨S128, .i32⟩
  | 41 => ⟨S128, .i32⟩
  | 42 => ⟨S_, .i32⟩
  | 43 => ⟨S128, .i32⟩
  | 44 => ⟨S128, .i32⟩
  | 45 => ⟨S128, .i32⟩
  | 46 => ⟨S128, .i32⟩
  | 47 => ⟨S128, .i32⟩
  | 48 => ⟨S_, .i32⟩
  | 49 => ⟨S128, .i32⟩
  | 50 => ⟨S128, .i32⟩
  | 51 => ⟨S_, .i32⟩
  | 52 => ⟨S128, .i32⟩
  | 53 => ⟨S128, .i32⟩
  | 54 => ⟨S128, .i32⟩
  | 55 => ⟨S128, .i32⟩
  | 56 => ⟨S128, .i32⟩
  | 57 => ⟨S_, .i32⟩
  | 58 => ⟨S128, .i32⟩
  | 59 => ⟨S128, .i32⟩
  | 60 => ⟨S_, .i32⟩
  | 61 => ⟨S128, .i32⟩
  | 62 => ⟨S128, .i32⟩
  | 63 => ⟨S128, .i32⟩
  | 64 => ⟨S128, .i32⟩
  | 65 => ⟨S128, .i32⟩
  | 66 => ⟨S128, .i32⟩
  | 67 => ⟨S128, .i32⟩
  | 68 => ⟨S128, .i32⟩
  | 69 => ⟨S_, .i32⟩
  | 70 => ⟨S128, .i32⟩
  | 71 => ⟨S128, .i32⟩
  | 72 => ⟨S128, .i32⟩
  | 73 => ⟨S_, .i32⟩
  | 74 => ⟨S128, .i32⟩
  | 75 => ⟨S128, .i32⟩
  | 76 => ⟨S_, .i32⟩
  | 77 => ⟨S128, .i32⟩
  | 78 => ⟨S128, .i32⟩
  | 79 => ⟨S128, .i32⟩
  | 80 => ⟨S128, .i32⟩
  | 81 => ⟨S128, .i32⟩
  | 82 => ⟨S_, .i32⟩
  | 83 => ⟨S128, .i32⟩
  | 84 => ⟨S128, .i32⟩
  | 85 => ⟨S_, .i32⟩
  | 86 => ⟨S128, .i32⟩
  | 87 => ⟨S128, .i32⟩
  | 88 => ⟨S128, .i32⟩
  | 89 => ⟨S128, .i32⟩
  | 90 => ⟨S128, .i32⟩
  | 91 => ⟨S_, .i32⟩
  | 92 => ⟨S128, .i32⟩
  | 93 => ⟨S128, .i32⟩
  | 94 => ⟨S_, .i32⟩
  | 95 => ⟨S128, .i32⟩
  | 96 => ⟨S128, .i32⟩
  | 97 => ⟨S128, .i32⟩
  | 98 => ⟨S128, .i32⟩
  | 99 => ⟨S128, .i32⟩
  | 100 => ⟨S_, .i32⟩
  | 101 => ⟨S128, .i32⟩
  | 102 => ⟨S128, .i32⟩
  | 103 => ⟨S_, .i32⟩
  | 104 => ⟨S128, .i32⟩
  | 105 => ⟨S128, .i32⟩
  | 106 => ⟨S128, .i32⟩
  | 107 => ⟨S128, .i32⟩
  | 108 => ⟨S128, .i32⟩
  | 109 => ⟨S128, .i32⟩
  | 110 => ⟨S128, .i32⟩
  | 111 => ⟨S128, .i32⟩
  | 112 => ⟨S_, .i32⟩
  | 113 => ⟨S128, .i32⟩
  | 114 => ⟨S128, .i32⟩
  | 115 => ⟨S128, .i32⟩
  | 116 => ⟨S_, .i32⟩
  | 117 => ⟨S128, .i32⟩
  | 118 => ⟨S128, .i32⟩
  | 119 => ⟨S_, .i32⟩
  | 120 => ⟨S128, .i32⟩
  | 121 => ⟨S128, .i32⟩
  | 122 => ⟨S128, .i32⟩
  | 123 => ⟨S128, .i32⟩
  | 124 => ⟨S128, .i32⟩
  | 125 => ⟨S_, .i32⟩
  | 126 => ⟨S128, .i32⟩
  | 127 => ⟨S128, .i32⟩
  | _ => ⟨S128x4096, .f32⟩

abbrev hbmTy0_8 (i : Nat) : BufTy := match i % 128 with
  | 0 => ⟨S_, .i32⟩
  | 1 => ⟨S128, .i32⟩
  | 2 => ⟨S128, .i32⟩
  | 3 => ⟨S128, .i32⟩
  | 4 => ⟨S128, .i32⟩
  | 5 => ⟨S128, .i32⟩
  | 6 => ⟨S_, .i32⟩
  | 7 => ⟨S128, .i32⟩
  | 8 => ⟨S128, .i32⟩
  | 9 => ⟨S_, .i32⟩
  | 10 => ⟨S128, .i32⟩
  | 11 => ⟨S128, .i32⟩
  | 12 => ⟨S128, .i32⟩
  | 13 => ⟨S128, .i32⟩
  | 14 => ⟨S128, .i32⟩
  | 15 => ⟨S_, .i32⟩
  | 16 => ⟨S128, .i32⟩
  | 17 => ⟨S128, .i32⟩
  | 18 => ⟨S_, .i32⟩
  | 19 => ⟨S128, .i32⟩
  | 20 => ⟨S128, .i32⟩
  | 21 => ⟨S128, .i32⟩
  | 22 => ⟨S128, .i32⟩
  | 23 => ⟨S128, .i32⟩
  | 24 => ⟨S128, .i32⟩
  | 25 => ⟨S128, .i32⟩
  | 26 => ⟨S128, .i32⟩
  | 27 => ⟨S_, .i32⟩
  | 28 => ⟨S128, .i32⟩
  | 29 => ⟨S128, .i32⟩
  | 30 => ⟨S128, .i32⟩
  | 31 => ⟨S_, .i32⟩
  | 32 => ⟨S128, .i32⟩
  | 33 => ⟨S128, .i32⟩
  | 34 => ⟨S_, .i32⟩
  | 35 => ⟨S128, .i32⟩
  | 36 => ⟨S128, .i32⟩
  | 37 => ⟨S128, .f32⟩
  | 38 => ⟨S_, .f32⟩
  | 39 => ⟨S128, .f32⟩
  | 40 => ⟨S128, .f32⟩
  | 41 => ⟨S1, .f32⟩
  | 42 => ⟨S128, .f32⟩
  | 43 => ⟨S128, .f32⟩
  | 44 => ⟨S128, .f32⟩
  | 45 => ⟨S128, .f32⟩
  | 46 => ⟨S128, .f32⟩
  | 47 => ⟨S128, .f32⟩
  | 48 => ⟨S128, .f32⟩
  | 49 => ⟨S128, .f32⟩
  | 50 => ⟨S_, .f32⟩
  | 51 => ⟨S128, .f32⟩
  | 52 => ⟨S128, .f32⟩
  | 53 => ⟨S_, .f32⟩
  | 54 => ⟨S128, .f32⟩
  | 55 => ⟨S128, .f32⟩
  | 56 => ⟨S128, .i1⟩
  | 57 => ⟨S128, .f32⟩
  | 58 => ⟨S128x1, .f32⟩
  | 59 => ⟨S128x4096, .f32⟩
  | 60 => ⟨S128x4096, .f32⟩
  | 61 => ⟨S128x1, .f32⟩
  | 62 => ⟨S_, .f32⟩
  | 63 => ⟨S128x1, .f32⟩
  | 64 => ⟨S128x1, .f32⟩
  | 65 => ⟨S128x4096, .f32⟩
  | 66 => ⟨S128x4096, .f32⟩
  | 67 => ⟨S128x4096, .f32⟩
  | 68 => ⟨S128, .f32⟩
  | 69 => ⟨S_, .f32⟩
  | 70 => ⟨S128x4096, .f32⟩
  | 71 => ⟨S_, .i32⟩
  | 72 => ⟨S1, .i32⟩
  | 73 => ⟨S_, .f32⟩
  | 74 => ⟨S128, .f32⟩
  | 75 => ⟨S128x4096, .f32⟩
  | 76 => ⟨S_, .f32⟩
  | 77 => ⟨S128x4096, .f32⟩
  | 78 => ⟨S128x4096, .f32⟩
  | 79 => ⟨S128x4096, .f32⟩
  | 80 => ⟨S_, .f32⟩
  | 81 => ⟨S128x4096, .f32⟩
  | 82 => ⟨S128x4096, .f32⟩
  | 83 => ⟨S128x4096, .f32⟩
  | 84 => ⟨S128x4096, .f32⟩
  | 85 => ⟨S128, .f32⟩
  | 86 => ⟨S128, .f32⟩
  | 87 => ⟨S1, .i32⟩
  | 88 => ⟨S_, .i32⟩
  | 89 => ⟨S1, .i32⟩
  | 90 => ⟨S_, .i32⟩
  | 91 => ⟨S2, .i64⟩
  | 92 => ⟨S_, .i64⟩
  | 93 => ⟨S2, .i64⟩
  | 94 => ⟨S2, .i64⟩
  | 95 => ⟨S_, .i64⟩
  | 96 => ⟨S2, .i64⟩
  | 97 => ⟨S2, .i64⟩
  | 98 => ⟨S2, .i32⟩
  | 99 => ⟨S2, .i32⟩
  | 100 => ⟨S_, .i32⟩
  | 101 => ⟨S_, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S2, .i32⟩
  | 125 => ⟨S2, .i32⟩
  | 126 => ⟨S_, .i32⟩
  | 127 => ⟨S2, .i32⟩
  | _ => ⟨S128x4096, .f32⟩

abbrev hbmTy0_9 (i : Nat) : BufTy := match i % 128 with
  | 0 => ⟨S2, .i32⟩
  | 1 => ⟨S_, .i32⟩
  | 2 => ⟨S2, .i32⟩
  | 3 => ⟨S2, .i32⟩
  | 4 => ⟨S2, .i32⟩
  | 5 => ⟨S2, .i32⟩
  | 6 => ⟨S2, .i32⟩
  | 7 => ⟨S_, .i32⟩
  | 8 => ⟨S2, .i32⟩
  | 9 => ⟨S2, .i32⟩
  | 10 => ⟨S_, .i32⟩
  | 11 => ⟨S2, .i32⟩
  | 12 => ⟨S2, .i32⟩
  | 13 => ⟨S2, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S2, .i32⟩
  | 23 => ⟨S_, .i32⟩
  | 24 => ⟨S2, .i32⟩
  | 25 => ⟨S2, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S128x4096, .f32⟩

abbrev hbmTy0_10 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S2, .i32⟩
  | 16 => ⟨S2, .i32⟩
  | 17 => ⟨S2, .i32⟩
  | 18 => ⟨S2, .i32⟩
  | 19 => ⟨S2, .i32⟩
  | 20 => ⟨S_, .i32⟩
  | 21 => ⟨S2, .i32⟩
  | 22 => ⟨S2, .i32⟩
  | 23 => ⟨S2, .i32⟩
  | 24 => ⟨S_, .i32⟩
  | 25 => ⟨S2, .i32⟩
  | 26 => ⟨S2, .i32⟩
  | 27 => ⟨S_, .i32⟩
  | 28 => ⟨S2, .i32⟩
  | 29 => ⟨S2, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S2x1, .i32⟩
  | 67 => ⟨S2x1, .i32⟩
  | 68 => ⟨S2x2, .i32⟩
  | 69 => ⟨S1x2, .i32⟩
  | 70 => ⟨S2, .i32⟩
  | 71 => ⟨S1x2, .i32⟩
  | 72 => ⟨S2, .i32⟩
  | 73 => ⟨S_, .f32⟩
  | 74 => ⟨S_, .f32⟩
  | 75 => ⟨S_, .f32⟩
  | 76 => ⟨S_, .f32⟩
  | 77 => ⟨S1, .f32⟩
  | 78 => ⟨S1, .f32⟩
  | 79 => ⟨S1, .i32⟩
  | 80 => ⟨S_, .i32⟩
  | 81 => ⟨S1, .i32⟩
  | 82 => ⟨S_, .i32⟩
  | 83 => ⟨S128, .i64⟩
  | 84 => ⟨S_, .i64⟩
  | 85 => ⟨S128, .i64⟩
  | 86 => ⟨S128, .i64⟩
  | 87 => ⟨S_, .i64⟩
  | 88 => ⟨S128, .i64⟩
  | 89 => ⟨S128, .i64⟩
  | 90 => ⟨S128, .i32⟩
  | 91 => ⟨S128, .i32⟩
  | 92 => ⟨S_, .i32⟩
  | 93 => ⟨S_, .i32⟩
  | 94 => ⟨S_, .i32⟩
  | 95 => ⟨S128, .i32⟩
  | 96 => ⟨S128, .i32⟩
  | 97 => ⟨S128, .i32⟩
  | 98 => ⟨S128, .i32⟩
  | 99 => ⟨S128, .i32⟩
  | 100 => ⟨S_, .i32⟩
  | 101 => ⟨S128, .i32⟩
  | 102 => ⟨S128, .i32⟩
  | 103 => ⟨S_, .i32⟩
  | 104 => ⟨S128, .i32⟩
  | 105 => ⟨S128, .i32⟩
  | 106 => ⟨S128, .i32⟩
  | 107 => ⟨S128, .i32⟩
  | 108 => ⟨S128, .i32⟩
  | 109 => ⟨S_, .i32⟩
  | 110 => ⟨S128, .i32⟩
  | 111 => ⟨S128, .i32⟩
  | 112 => ⟨S_, .i32⟩
  | 113 => ⟨S128, .i32⟩
  | 114 => ⟨S128, .i32⟩
  | 115 => ⟨S128, .i32⟩
  | 116 => ⟨S128, .i32⟩
  | 117 => ⟨S128, .i32⟩
  | 118 => ⟨S_, .i32⟩
  | 119 => ⟨S128, .i32⟩
  | 120 => ⟨S128, .i32⟩
  | 121 => ⟨S_, .i32⟩
  | 122 => ⟨S128, .i32⟩
  | 123 => ⟨S128, .i32⟩
  | 124 => ⟨S128, .i32⟩
  | 125 => ⟨S128, .i32⟩
  | 126 => ⟨S128, .i32⟩
  | 127 => ⟨S_, .i32⟩
  | _ => ⟨S128x4096, .f32⟩

abbrev hbmTy0_11 (i : Nat) : BufTy := match i % 128 with
  | 0 => ⟨S128, .i32⟩
  | 1 => ⟨S128, .i32⟩
  | 2 => ⟨S_, .i32⟩
  | 3 => ⟨S128, .i32⟩
  | 4 => ⟨S128, .i32⟩
  | 5 => ⟨S128, .i32⟩
  | 6 => ⟨S128, .i32⟩
  | 7 => ⟨S128, .i32⟩
  | 8 => ⟨S128, .i32⟩
  | 9 => ⟨S128, .i32⟩
  | 10 => ⟨S128, .i32⟩
  | 11 => ⟨S_, .i32⟩
  | 12 => ⟨S128, .i32⟩
  | 13 => ⟨S128, .i32⟩
  | 14 => ⟨S128, .i32⟩
  | 15 => ⟨S_, .i32⟩
  | 16 => ⟨S128, .i32⟩
  | 17 => ⟨S128, .i32⟩
  | 18 => ⟨S_, .i32⟩
  | 19 => ⟨S128, .i32⟩
  | 20 => ⟨S128, .i32⟩
  | 21 => ⟨S128, .i32⟩
  | 22 => ⟨S128, .i32⟩
  | 23 => ⟨S128, .i32⟩
  | 24 => ⟨S_, .i32⟩
  | 25 => ⟨S128, .i32⟩
  | 26 => ⟨S128, .i32⟩
  | 27 => ⟨S_, .i32⟩
  | 28 => ⟨S128, .i32⟩
  | 29 => ⟨S128, .i32⟩
  | 30 => ⟨S128, .i32⟩
  | 31 => ⟨S128, .i32⟩
  | 32 => ⟨S128, .i32⟩
  | 33 => ⟨S_, .i32⟩
  | 34 => ⟨S128, .i32⟩
  | 35 => ⟨S128, .i32⟩
  | 36 => ⟨S_, .i32⟩
  | 37 => ⟨S128, .i32⟩
  | 38 => ⟨S128, .i32⟩
  | 39 => ⟨S128, .i32⟩
  | 40 => ⟨S128, .i32⟩
  | 41 => ⟨S128, .i32⟩
  | 42 => ⟨S_, .i32⟩
  | 43 => ⟨S128, .i32⟩
  | 44 => ⟨S128, .i32⟩
  | 45 => ⟨S_, .i32⟩
  | 46 => ⟨S128, .i32⟩
  | 47 => ⟨S128, .i32⟩
  | 48 => ⟨S128, .i32⟩
  | 49 => ⟨S128, .i32⟩
  | 50 => ⟨S128, .i32⟩
  | 51 => ⟨S128, .i32⟩
  | 52 => ⟨S128, .i32⟩
  | 53 => ⟨S128, .i32⟩
  | 54 => ⟨S_, .i32⟩
  | 55 => ⟨S128, .i32⟩
  | 56 => ⟨S128, .i32⟩
  | 57 => ⟨S128, .i32⟩
  | 58 => ⟨S_, .i32⟩
  | 59 => ⟨S128, .i32⟩
  | 60 => ⟨S128, .i32⟩
  | 61 => ⟨S_, .i32⟩
  | 62 => ⟨S128, .i32⟩
  | 63 => ⟨S128, .i32⟩
  | 64 => ⟨S128, .i32⟩
  | 65 => ⟨S128, .i32⟩
  | 66 => ⟨S128, .i32⟩
  | 67 => ⟨S_, .i32⟩
  | 68 => ⟨S128, .i32⟩
  | 69 => ⟨S128, .i32⟩
  | 70 => ⟨S_, .i32⟩
  | 71 => ⟨S128, .i32⟩
  | 72 => ⟨S128, .i32⟩
  | 73 => ⟨S128, .i32⟩
  | 74 => ⟨S128, .i32⟩
  | 75 => ⟨S128, .i32⟩
  | 76 => ⟨S_, .i32⟩
  | 77 => ⟨S128, .i32⟩
  | 78 => ⟨S128, .i32⟩
  | 79 => ⟨S_, .i32⟩
  | 80 => ⟨S128, .i32⟩
  | 81 => ⟨S128, .i32⟩
  | 82 => ⟨S128, .i32⟩
  | 83 => ⟨S128, .i32⟩
  | 84 => ⟨S128, .i32⟩
  | 85 => ⟨S_, .i32⟩
  | 86 => ⟨S128, .i32⟩
  | 87 => ⟨S128, .i32⟩
  | 88 => ⟨S_, .i32⟩
  | 89 => ⟨S128, .i32⟩
  | 90 => ⟨S128, .i32⟩
  | 91 => ⟨S128, .i32⟩
  | 92 => ⟨S128, .i32⟩
  | 93 => ⟨S128, .i32⟩
  | 94 => ⟨S128, .i32⟩
  | 95 => ⟨S128, .i32⟩
  | 96 => ⟨S128, .i32⟩
  | 97 => ⟨S_, .i32⟩
  | 98 => ⟨S128, .i32⟩
  | 99 => ⟨S128, .i32⟩
  | 100 => ⟨S128, .i32⟩
  | 101 => ⟨S_, .i32⟩
  | 102 => ⟨S128, .i32⟩
  | 103 => ⟨S128, .i32⟩
  | 104 => ⟨S_, .i32⟩
  | 105 => ⟨S128, .i32⟩
  | 106 => ⟨S128, .i32⟩
  | 107 => ⟨S128, .i32⟩
  | 108 => ⟨S128, .i32⟩
  | 109 => ⟨S128, .i32⟩
  | 110 => ⟨S_, .i32⟩
  | 111 => ⟨S128, .i32⟩
  | 112 => ⟨S128, .i32⟩
  | 113 => ⟨S_, .i32⟩
  | 114 => ⟨S128, .i32⟩
  | 115 => ⟨S128, .i32⟩
  | 116 => ⟨S128, .i32⟩
  | 117 => ⟨S128, .i32⟩
  | 118 => ⟨S128, .i32⟩
  | 119 => ⟨S_, .i32⟩
  | 120 => ⟨S128, .i32⟩
  | 121 => ⟨S128, .i32⟩
  | 122 => ⟨S_, .i32⟩
  | 123 => ⟨S128, .i32⟩
  | 124 => ⟨S128, .i32⟩
  | 125 => ⟨S128, .i32⟩
  | 126 => ⟨S128, .i32⟩
  | 127 => ⟨S128, .i32⟩
  | _ => ⟨S128x4096, .f32⟩

abbrev hbmTy0_12 (i : Nat) : BufTy := match i % 128 with
  | 0 => ⟨S_, .i32⟩
  | 1 => ⟨S128, .i32⟩
  | 2 => ⟨S128, .i32⟩
  | 3 => ⟨S_, .i32⟩
  | 4 => ⟨S128, .i32⟩
  | 5 => ⟨S128, .i32⟩
  | 6 => ⟨S128, .i32⟩
  | 7 => ⟨S128, .i32⟩
  | 8 => ⟨S128, .i32⟩
  | 9 => ⟨S128, .i32⟩
  | 10 => ⟨S128, .i32⟩
  | 11 => ⟨S128, .i32⟩
  | 12 => ⟨S_, .i32⟩
  | 13 => ⟨S128, .i32⟩
  | 14 => ⟨S128, .i32⟩
  | 15 => ⟨S128, .i32⟩
  | 16 => ⟨S_, .i32⟩
  | 17 => ⟨S128, .i32⟩
  | 18 => ⟨S128, .i32⟩
  | 19 => ⟨S_, .i32⟩
  | 20 => ⟨S128, .i32⟩
  | 21 => ⟨S128, .i32⟩
  | 22 => ⟨S128, .i32⟩
  | 23 => ⟨S128, .i32⟩
  | 24 => ⟨S128, .i32⟩
  | 25 => ⟨S_, .i32⟩
  | 26 => ⟨S128, .i32⟩
  | 27 => ⟨S128, .i32⟩
  | 28 => ⟨S_, .i32⟩
  | 29 => ⟨S128, .i32⟩
  | 30 => ⟨S128, .i32⟩
  | 31 => ⟨S128, .i32⟩
  | 32 => ⟨S128, .i32⟩
  | 33 => ⟨S128, .i32⟩
  | 34 => ⟨S_, .i32⟩
  | 35 => ⟨S128, .i32⟩
  | 36 => ⟨S128, .i32⟩
  | 37 => ⟨S_, .i32⟩
  | 38 => ⟨S128, .i32⟩
  | 39 => ⟨S128, .i32⟩
  | 40 => ⟨S128, .i32⟩
  | 41 => ⟨S128, .i32⟩
  | 42 => ⟨S128, .i32⟩
  | 43 => ⟨S_, .i32⟩
  | 44 => ⟨S128, .i32⟩
  | 45 => ⟨S128, .i32⟩
  | 46 => ⟨S_, .i32⟩
  | 47 => ⟨S128, .i32⟩
  | 48 => ⟨S128, .i32⟩
  | 49 => ⟨S128, .i32⟩
  | 50 => ⟨S128, .i32⟩
  | 51 => ⟨S128, .i32⟩
  | 52 => ⟨S128, .i32⟩
  | 53 => ⟨S128, .i32⟩
  | 54 => ⟨S128, .i32⟩
  | 55 => ⟨S_, .i32⟩
  | 56 => ⟨S128, .i32⟩
  | 57 => ⟨S128, .i32⟩
  | 58 => ⟨S128, .i32⟩
  | 59 => ⟨S_, .i32⟩
  | 60 => ⟨S128, .i32⟩
  | 61 => ⟨S128, .i32⟩
  | 62 => ⟨S_, .i32⟩
  | 63 => ⟨S128, .i32⟩
  | 64 => ⟨S128, .i32⟩
  | 65 => ⟨S128, .f32⟩
  | 66 => ⟨S_, .f32⟩
  | 67 => ⟨S128, .f32⟩
  | 68 => ⟨S128, .f32⟩
  | 69 => ⟨S1, .f32⟩
  | 70 => ⟨S128, .f32⟩
  | 71 => ⟨S128, .f32⟩
  | 72 => ⟨S128, .f32⟩
  | 73 => ⟨S128, .f32⟩
  | 74 => ⟨S128, .f32⟩
  | 75 => ⟨S128, .f32⟩
  | 76 => ⟨S128, .f32⟩
  | 77 => ⟨S128, .f32⟩
  | 78 => ⟨S_, .f32⟩
  | 79 => ⟨S128, .f32⟩
  | 80 => ⟨S128, .f32⟩
  | 81 => ⟨S_, .f32⟩
  | 82 => ⟨S128, .f32⟩
  | 83 => ⟨S128, .f32⟩
  | 84 => ⟨S128, .i1⟩
  | 85 => ⟨S128, .f32⟩
  | 86 => ⟨S128x1, .f32⟩
  | 87 => ⟨S128x4096, .f32⟩
  | 88 => ⟨S128x4096, .f32⟩
  | 89 => ⟨S128x1, .f32⟩
  | 90 => ⟨S_, .f32⟩
  | 91 => ⟨S128x1, .f32⟩
  | 92 => ⟨S128x1, .f32⟩
  | 93 => ⟨S128x4096, .f32⟩
  | 94 => ⟨S128x4096, .f32⟩
  | 95 => ⟨S128x4096, .f32⟩
  | 96 => ⟨S128, .f32⟩
  | 97 => ⟨S_, .f32⟩
  | 98 => ⟨S128x4096, .f32⟩
  | 99 => ⟨S_, .i32⟩
  | 100 => ⟨S1, .i32⟩
  | 101 => ⟨S_, .f32⟩
  | 102 => ⟨S128, .f32⟩
  | 103 => ⟨S128x4096, .f32⟩
  | 104 => ⟨S_, .f32⟩
  | 105 => ⟨S128x4096, .f32⟩
  | 106 => ⟨S128x4096, .f32⟩
  | 107 => ⟨S128x4096, .f32⟩
  | 108 => ⟨S_, .f32⟩
  | 109 => ⟨S128x4096, .f32⟩
  | 110 => ⟨S128x4096, .f32⟩
  | 111 => ⟨S128x4096, .f32⟩
  | 112 => ⟨S128x4096, .f32⟩
  | 113 => ⟨S128, .f32⟩
  | 114 => ⟨S128, .f32⟩
  | 115 => ⟨S1, .i32⟩
  | 116 => ⟨S_, .i32⟩
  | 117 => ⟨S1, .i32⟩
  | 118 => ⟨S_, .i32⟩
  | 119 => ⟨S2, .i64⟩
  | 120 => ⟨S_, .i64⟩
  | 121 => ⟨S2, .i64⟩
  | 122 => ⟨S2, .i64⟩
  | 123 => ⟨S_, .i64⟩
  | 124 => ⟨S2, .i64⟩
  | 125 => ⟨S2, .i64⟩
  | 126 => ⟨S2, .i32⟩
  | 127 => ⟨S2, .i32⟩
  | _ => ⟨S128x4096, .f32⟩

abbrev hbmTy0_13 (i : Nat) : BufTy := match i % 128 with
  | 0 => ⟨S_, .i32⟩
  | 1 => ⟨S_, .i32⟩
  | 2 => ⟨S_, .i32⟩
  | 3 => ⟨S2, .i32⟩
  | 4 => ⟨S2, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S_, .i32⟩
  | 21 => ⟨S2, .i32⟩
  | 22 => ⟨S2, .i32⟩
  | 23 => ⟨S2, .i32⟩
  | 24 => ⟨S2, .i32⟩
  | 25 => ⟨S2, .i32⟩
  | 26 => ⟨S_, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S_, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S_, .i32⟩
  | 113 => ⟨S2, .i32⟩
  | 114 => ⟨S2, .i32⟩
  | 115 => ⟨S_, .i32⟩
  | 116 => ⟨S2, .i32⟩
  | 117 => ⟨S2, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S_, .i32⟩
  | 125 => ⟨S2, .i32⟩
  | 126 => ⟨S2, .i32⟩
  | 127 => ⟨S2, .i32⟩
  | _ => ⟨S128x4096, .f32⟩

abbrev hbmTy0_14 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S_, .i32⟩
  | 6 => ⟨S2, .i32⟩
  | 7 => ⟨S2, .i32⟩
  | 8 => ⟨S2, .i32⟩
  | 9 => ⟨S_, .i32⟩
  | 10 => ⟨S2, .i32⟩
  | 11 => ⟨S2, .i32⟩
  | 12 => ⟨S_, .i32⟩
  | 13 => ⟨S2, .i32⟩
  | 14 => ⟨S2, .i32⟩
  | 15 => ⟨S2, .i32⟩
  | 16 => ⟨S2, .i32⟩
  | 17 => ⟨S2, .i32⟩
  | 18 => ⟨S_, .i32⟩
  | 19 => ⟨S2, .i32⟩
  | 20 => ⟨S2, .i32⟩
  | 21 => ⟨S_, .i32⟩
  | 22 => ⟨S2, .i32⟩
  | 23 => ⟨S2, .i32⟩
  | 24 => ⟨S2, .i32⟩
  | 25 => ⟨S2, .i32⟩
  | 26 => ⟨S2, .i32⟩
  | 27 => ⟨S_, .i32⟩
  | 28 => ⟨S2, .i32⟩
  | 29 => ⟨S2, .i32⟩
  | 30 => ⟨S_, .i32⟩
  | 31 => ⟨S2, .i32⟩
  | 32 => ⟨S2, .i32⟩
  | 33 => ⟨S2, .i32⟩
  | 34 => ⟨S2, .i32⟩
  | 35 => ⟨S2, .i32⟩
  | 36 => ⟨S_, .i32⟩
  | 37 => ⟨S2, .i32⟩
  | 38 => ⟨S2, .i32⟩
  | 39 => ⟨S_, .i32⟩
  | 40 => ⟨S2, .i32⟩
  | 41 => ⟨S2, .i32⟩
  | 42 => ⟨S2, .i32⟩
  | 43 => ⟨S2, .i32⟩
  | 44 => ⟨S2, .i32⟩
  | 45 => ⟨S2, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S2x1, .i32⟩
  | 95 => ⟨S2x1, .i32⟩
  | 96 => ⟨S2x2, .i32⟩
  | 97 => ⟨S1x2, .i32⟩
  | 98 => ⟨S2, .i32⟩
  | 99 => ⟨S1x2, .i32⟩
  | 100 => ⟨S2, .i32⟩
  | 101 => ⟨S_, .f32⟩
  | 102 => ⟨S_, .f32⟩
  | 103 => ⟨S_, .f32⟩
  | 104 => ⟨S_, .f32⟩
  | 105 => ⟨S1, .f32⟩
  | 106 => ⟨S1, .f32⟩
  | 107 => ⟨S1, .i32⟩
  | 108 => ⟨S_, .i32⟩
  | 109 => ⟨S1, .i32⟩
  | 110 => ⟨S_, .i32⟩
  | 111 => ⟨S128, .i64⟩
  | 112 => ⟨S_, .i64⟩
  | 113 => ⟨S128, .i64⟩
  | 114 => ⟨S128, .i64⟩
  | 115 => ⟨S_, .i64⟩
  | 116 => ⟨S128, .i64⟩
  | 117 => ⟨S128, .i64⟩
  | 118 => ⟨S128, .i32⟩
  | 119 => ⟨S128, .i32⟩
  | 120 => ⟨S_, .i32⟩
  | 121 => ⟨S_, .i32⟩
  | 122 => ⟨S_, .i32⟩
  | 123 => ⟨S128, .i32⟩
  | 124 => ⟨S128, .i32⟩
  | 125 => ⟨S128, .i32⟩
  | 126 => ⟨S128, .i32⟩
  | 127 => ⟨S128, .i32⟩
  | _ => ⟨S128x4096, .f32⟩

abbrev hbmTy0_15 (i : Nat) : BufTy := match i % 128 with
  | 0 => ⟨S_, .i32⟩
  | 1 => ⟨S128, .i32⟩
  | 2 => ⟨S128, .i32⟩
  | 3 => ⟨S_, .i32⟩
  | 4 => ⟨S128, .i32⟩
  | 5 => ⟨S128, .i32⟩
  | 6 => ⟨S128, .i32⟩
  | 7 => ⟨S128, .i32⟩
  | 8 => ⟨S128, .i32⟩
  | 9 => ⟨S_, .i32⟩
  | 10 => ⟨S128, .i32⟩
  | 11 => ⟨S128, .i32⟩
  | 12 => ⟨S_, .i32⟩
  | 13 => ⟨S128, .i32⟩
  | 14 => ⟨S128, .i32⟩
  | 15 => ⟨S128, .i32⟩
  | 16 => ⟨S128, .i32⟩
  | 17 => ⟨S128, .i32⟩
  | 18 => ⟨S_, .i32⟩
  | 19 => ⟨S128, .i32⟩
  | 20 => ⟨S128, .i32⟩
  | 21 => ⟨S_, .i32⟩
  | 22 => ⟨S128, .i32⟩
  | 23 => ⟨S128, .i32⟩
  | 24 => ⟨S128, .i32⟩
  | 25 => ⟨S128, .i32⟩
  | 26 => ⟨S128, .i32⟩
  | 27 => ⟨S_, .i32⟩
  | 28 => ⟨S128, .i32⟩
  | 29 => ⟨S128, .i32⟩
  | 30 => ⟨S_, .i32⟩
  | 31 => ⟨S128, .i32⟩
  | 32 => ⟨S128, .i32⟩
  | 33 => ⟨S128, .i32⟩
  | 34 => ⟨S128, .i32⟩
  | 35 => ⟨S128, .i32⟩
  | 36 => ⟨S128, .i32⟩
  | 37 => ⟨S128, .i32⟩
  | 38 => ⟨S128, .i32⟩
  | 39 => ⟨S_, .i32⟩
  | 40 => ⟨S128, .i32⟩
  | 41 => ⟨S128, .i32⟩
  | 42 => ⟨S128, .i32⟩
  | 43 => ⟨S_, .i32⟩
  | 44 => ⟨S128, .i32⟩
  | 45 => ⟨S128, .i32⟩
  | 46 => ⟨S_, .i32⟩
  | 47 => ⟨S128, .i32⟩
  | 48 => ⟨S128, .i32⟩
  | 49 => ⟨S128, .i32⟩
  | 50 => ⟨S128, .i32⟩
  | 51 => ⟨S128, .i32⟩
  | 52 => ⟨S_, .i32⟩
  | 53 => ⟨S128, .i32⟩
  | 54 => ⟨S128, .i32⟩
  | 55 => ⟨S_, .i32⟩
  | 56 => ⟨S128, .i32⟩
  | 57 => ⟨S128, .i32⟩
  | 58 => ⟨S128, .i32⟩
  | 59 => ⟨S128, .i32⟩
  | 60 => ⟨S128, .i32⟩
  | 61 => ⟨S_, .i32⟩
  | 62 => ⟨S128, .i32⟩
  | 63 => ⟨S128, .i32⟩
  | 64 => ⟨S_, .i32⟩
  | 65 => ⟨S128, .i32⟩
  | 66 => ⟨S128, .i32⟩
  | 67 => ⟨S128, .i32⟩
  | 68 => ⟨S128, .i32⟩
  | 69 => ⟨S128, .i32⟩
  | 70 => ⟨S_, .i32⟩
  | 71 => ⟨S128, .i32⟩
  | 72 => ⟨S128, .i32⟩
  | 73 => ⟨S_, .i32⟩
  | 74 => ⟨S128, .i32⟩
  | 75 => ⟨S128, .i32⟩
  | 76 => ⟨S128, .i32⟩
  | 77 => ⟨S128, .i32⟩
  | 78 => ⟨S128, .i32⟩
  | 79 => ⟨S128, .i32⟩
  | 80 => ⟨S128, .i32⟩
  | 81 => ⟨S128, .i32⟩
  | 82 => ⟨S_, .i32⟩
  | 83 => ⟨S128, .i32⟩
  | 84 => ⟨S128, .i32⟩
  | 85 => ⟨S128, .i32⟩
  | 86 => ⟨S_, .i32⟩
  | 87 => ⟨S128, .i32⟩
  | 88 => ⟨S128, .i32⟩
  | 89 => ⟨S_, .i32⟩
  | 90 => ⟨S128, .i32⟩
  | 91 => ⟨S128, .i32⟩
  | 92 => ⟨S128, .i32⟩
  | 93 => ⟨S128, .i32⟩
  | 94 => ⟨S128, .i32⟩
  | 95 => ⟨S_, .i32⟩
  | 96 => ⟨S128, .i32⟩
  | 97 => ⟨S128, .i32⟩
  | 98 => ⟨S_, .i32⟩
  | 99 => ⟨S128, .i32⟩
  | 100 => ⟨S128, .i32⟩
  | 101 => ⟨S128, .i32⟩
  | 102 => ⟨S128, .i32⟩
  | 103 => ⟨S128, .i32⟩
  | 104 => ⟨S_, .i32⟩
  | 105 => ⟨S128, .i32⟩
  | 106 => ⟨S128, .i32⟩
  | 107 => ⟨S_, .i32⟩
  | 108 => ⟨S128, .i32⟩
  | 109 => ⟨S128, .i32⟩
  | 110 => ⟨S128, .i32⟩
  | 111 => ⟨S128, .i32⟩
  | 112 => ⟨S128, .i32⟩
  | 113 => ⟨S_, .i32⟩
  | 114 => ⟨S128, .i32⟩
  | 115 => ⟨S128, .i32⟩
  | 116 => ⟨S_, .i32⟩
  | 117 => ⟨S128, .i32⟩
  | 118 => ⟨S128, .i32⟩
  | 119 => ⟨S128, .i32⟩
  | 120 => ⟨S128, .i32⟩
  | 121 => ⟨S128, .i32⟩
  | 122 => ⟨S128, .i32⟩
  | 123 => ⟨S128, .i32⟩
  | 124 => ⟨S128, .i32⟩
  | 125 => ⟨S_, .i32⟩
  | 126 => ⟨S128, .i32⟩
  | 127 => ⟨S128, .i32⟩
  | _ => ⟨S128x4096, .f32⟩

abbrev hbmTy0_16 (i : Nat) : BufTy := match i % 128 with
  | 0 => ⟨S128, .i32⟩
  | 1 => ⟨S_, .i32⟩
  | 2 => ⟨S128, .i32⟩
  | 3 => ⟨S128, .i32⟩
  | 4 => ⟨S_, .i32⟩
  | 5 => ⟨S128, .i32⟩
  | 6 => ⟨S128, .i32⟩
  | 7 => ⟨S128, .i32⟩
  | 8 => ⟨S128, .i32⟩
  | 9 => ⟨S128, .i32⟩
  | 10 => ⟨S_, .i32⟩
  | 11 => ⟨S128, .i32⟩
  | 12 => ⟨S128, .i32⟩
  | 13 => ⟨S_, .i32⟩
  | 14 => ⟨S128, .i32⟩
  | 15 => ⟨S128, .i32⟩
  | 16 => ⟨S128, .i32⟩
  | 17 => ⟨S128, .i32⟩
  | 18 => ⟨S128, .i32⟩
  | 19 => ⟨S_, .i32⟩
  | 20 => ⟨S128, .i32⟩
  | 21 => ⟨S128, .i32⟩
  | 22 => ⟨S_, .i32⟩
  | 23 => ⟨S128, .i32⟩
  | 24 => ⟨S128, .i32⟩
  | 25 => ⟨S128, .i32⟩
  | 26 => ⟨S128, .i32⟩
  | 27 => ⟨S128, .i32⟩
  | 28 => ⟨S_, .i32⟩
  | 29 => ⟨S128, .i32⟩
  | 30 => ⟨S128, .i32⟩
  | 31 => ⟨S_, .i32⟩
  | 32 => ⟨S128, .i32⟩
  | 33 => ⟨S128, .i32⟩
  | 34 => ⟨S128, .i32⟩
  | 35 => ⟨S128, .i32⟩
  | 36 => ⟨S128, .i32⟩
  | 37 => ⟨S128, .i32⟩
  | 38 => ⟨S128, .i32⟩
  | 39 => ⟨S128, .i32⟩
  | 40 => ⟨S_, .i32⟩
  | 41 => ⟨S128, .i32⟩
  | 42 => ⟨S128, .i32⟩
  | 43 => ⟨S128, .i32⟩
  | 44 => ⟨S_, .i32⟩
  | 45 => ⟨S128, .i32⟩
  | 46 => ⟨S128, .i32⟩
  | 47 => ⟨S_, .i32⟩
  | 48 => ⟨S128, .i32⟩
  | 49 => ⟨S128, .i32⟩
  | 50 => ⟨S128, .i32⟩
  | 51 => ⟨S128, .i32⟩
  | 52 => ⟨S128, .i32⟩
  | 53 => ⟨S_, .i32⟩
  | 54 => ⟨S128, .i32⟩
  | 55 => ⟨S128, .i32⟩
  | 56 => ⟨S_, .i32⟩
  | 57 => ⟨S128, .i32⟩
  | 58 => ⟨S128, .i32⟩
  | 59 => ⟨S128, .i32⟩
  | 60 => ⟨S128, .i32⟩
  | 61 => ⟨S128, .i32⟩
  | 62 => ⟨S_, .i32⟩
  | 63 => ⟨S128, .i32⟩
  | 64 => ⟨S128, .i32⟩
  | 65 => ⟨S_, .i32⟩
  | 66 => ⟨S128, .i32⟩
  | 67 => ⟨S128, .i32⟩
  | 68 => ⟨S128, .i32⟩
  | 69 => ⟨S128, .i32⟩
  | 70 => ⟨S128, .i32⟩
  | 71 => ⟨S_, .i32⟩
  | 72 => ⟨S128, .i32⟩
  | 73 => ⟨S128, .i32⟩
  | 74 => ⟨S_, .i32⟩
  | 75 => ⟨S128, .i32⟩
  | 76 => ⟨S128, .i32⟩
  | 77 => ⟨S128, .i32⟩
  | 78 => ⟨S128, .i32⟩
  | 79 => ⟨S128, .i32⟩
  | 80 => ⟨S128, .i32⟩
  | 81 => ⟨S128, .i32⟩
  | 82 => ⟨S128, .i32⟩
  | 83 => ⟨S_, .i32⟩
  | 84 => ⟨S128, .i32⟩
  | 85 => ⟨S128, .i32⟩
  | 86 => ⟨S128, .i32⟩
  | 87 => ⟨S_, .i32⟩
  | 88 => ⟨S128, .i32⟩
  | 89 => ⟨S128, .i32⟩
  | 90 => ⟨S_, .i32⟩
  | 91 => ⟨S128, .i32⟩
  | 92 => ⟨S128, .i32⟩
  | 93 => ⟨S128, .f32⟩
  | 94 => ⟨S_, .f32⟩
  | 95 => ⟨S128, .f32⟩
  | 96 => ⟨S128, .f32⟩
  | 97 => ⟨S1, .f32⟩
  | 98 => ⟨S128, .f32⟩
  | 99 => ⟨S128, .f32⟩
  | 100 => ⟨S128, .f32⟩
  | 101 => ⟨S128, .f32⟩
  | 102 => ⟨S128, .f32⟩
  | 103 => ⟨S128, .f32⟩
  | 104 => ⟨S128, .f32⟩
  | 105 => ⟨S128, .f32⟩
  | 106 => ⟨S_, .f32⟩
  | 107 => ⟨S128, .f32⟩
  | 108 => ⟨S128, .f32⟩
  | 109 => ⟨S_, .f32⟩
  | 110 => ⟨S128, .f32⟩
  | 111 => ⟨S128, .f32⟩
  | 112 => ⟨S128, .i1⟩
  | 113 => ⟨S128, .f32⟩
  | 114 => ⟨S128x1, .f32⟩
  | 115 => ⟨S128x4096, .f32⟩
  | 116 => ⟨S128x4096, .f32⟩
  | 117 => ⟨S128x1, .f32⟩
  | 118 => ⟨S_, .f32⟩
  | 119 => ⟨S128x1, .f32⟩
  | 120 => ⟨S128x1, .f32⟩
  | 121 => ⟨S128x4096, .f32⟩
  | 122 => ⟨S128x4096, .f32⟩
  | 123 => ⟨S128x4096, .f32⟩
  | 124 => ⟨S128, .f32⟩
  | 125 => ⟨S_, .f32⟩
  | 126 => ⟨S128x4096, .f32⟩
  | 127 => ⟨S_, .i32⟩
  | _ => ⟨S128x4096, .f32⟩

abbrev hbmTy0_17 (i : Nat) : BufTy := match i % 128 with
  | 0 => ⟨S1, .i32⟩
  | 1 => ⟨S_, .f32⟩
  | 2 => ⟨S128, .f32⟩
  | 3 => ⟨S128x4096, .f32⟩
  | 4 => ⟨S_, .f32⟩
  | 5 => ⟨S128x4096, .f32⟩
  | 6 => ⟨S128x4096, .f32⟩
  | 7 => ⟨S128x4096, .f32⟩
  | 8 => ⟨S_, .f32⟩
  | 9 => ⟨S128x4096, .f32⟩
  | 10 => ⟨S128x4096, .f32⟩
  | 11 => ⟨S128x4096, .f32⟩
  | 12 => ⟨S128x4096, .f32⟩
  | 13 => ⟨S128, .f32⟩
  | 14 => ⟨S128, .f32⟩
  | 15 => ⟨S1, .i32⟩
  | 16 => ⟨S_, .i32⟩
  | 17 => ⟨S1, .i32⟩
  | 18 => ⟨S_, .i32⟩
  | 19 => ⟨S2, .i64⟩
  | 20 => ⟨S_, .i64⟩
  | 21 => ⟨S2, .i64⟩
  | 22 => ⟨S2, .i64⟩
  | 23 => ⟨S_, .i64⟩
  | 24 => ⟨S2, .i64⟩
  | 25 => ⟨S2, .i64⟩
  | 26 => ⟨S2, .i32⟩
  | 27 => ⟨S2, .i32⟩
  | 28 => ⟨S_, .i32⟩
  | 29 => ⟨S_, .i32⟩
  | 30 => ⟨S_, .i32⟩
  | 31 => ⟨S2, .i32⟩
  | 32 => ⟨S2, .i32⟩
  | 33 => ⟨S2, .i32⟩
  | 34 => ⟨S2, .i32⟩
  | 35 => ⟨S2, .i32⟩
  | 36 => ⟨S_, .i32⟩
  | 37 => ⟨S2, .i32⟩
  | 38 => ⟨S2, .i32⟩
  | 39 => ⟨S_, .i32⟩
  | 40 => ⟨S2, .i32⟩
  | 41 => ⟨S2, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S2, .i32⟩
  | 122 => ⟨S_, .i32⟩
  | 123 => ⟨S2, .i32⟩
  | 124 => ⟨S2, .i32⟩
  | 125 => ⟨S_, .i32⟩
  | 126 => ⟨S2, .i32⟩
  | 127 => ⟨S2, .i32⟩
  | _ => ⟨S128x4096, .f32⟩

abbrev hbmTy0_18 (i : Nat) : BufTy := match i % 128 with
  | 0 => ⟨S2, .i32⟩
  | 1 => ⟨S2, .i32⟩
  | 2 => ⟨S2, .i32⟩
  | 3 => ⟨S_, .i32⟩
  | 4 => ⟨S2, .i32⟩
  | 5 => ⟨S2, .i32⟩
  | 6 => ⟨S_, .i32⟩
  | 7 => ⟨S2, .i32⟩
  | 8 => ⟨S2, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S_, .i32⟩
  | 16 => ⟨S2, .i32⟩
  | 17 => ⟨S2, .i32⟩
  | 18 => ⟨S2, .i32⟩
  | 19 => ⟨S2, .i32⟩
  | 20 => ⟨S2, .i32⟩
  | 21 => ⟨S_, .i32⟩
  | 22 => ⟨S2, .i32⟩
  | 23 => ⟨S2, .i32⟩
  | 24 => ⟨S_, .i32⟩
  | 25 => ⟨S2, .i32⟩
  | 26 => ⟨S2, .i32⟩
  | 27 => ⟨S2, .i32⟩
  | 28 => ⟨S2, .i32⟩
  | 29 => ⟨S2, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S2, .i32⟩
  | 37 => ⟨S_, .i32⟩
  | 38 => ⟨S2, .i32⟩
  | 39 => ⟨S2, .i32⟩
  | 40 => ⟨S_, .i32⟩
  | 41 => ⟨S2, .i32⟩
  | 42 => ⟨S2, .i32⟩
  | 43 => ⟨S2, .i32⟩
  | 44 => ⟨S2, .i32⟩
  | 45 => ⟨S2, .i32⟩
  | 46 => ⟨S_, .i32⟩
  | 47 => ⟨S2, .i32⟩
  | 48 => ⟨S2, .i32⟩
  | 49 => ⟨S_, .i32⟩
  | 50 => ⟨S2, .i32⟩
  | 51 => ⟨S2, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S2, .i32⟩
  | 88 => ⟨S2, .i32⟩
  | 89 => ⟨S_, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S2x1, .i32⟩
  | 123 => ⟨S2x1, .i32⟩
  | 124 => ⟨S2x2, .i32⟩
  | 125 => ⟨S1x2, .i32⟩
  | 126 => ⟨S2, .i32⟩
  | 127 => ⟨S1x2, .i32⟩
  | _ => ⟨S128x4096, .f32⟩

abbrev hbmTy0_19 (i : Nat) : BufTy := match i % 128 with
  | 0 => ⟨S2, .i32⟩
  | 1 => ⟨S_, .f32⟩
  | 2 => ⟨S_, .f32⟩
  | 3 => ⟨S_, .f32⟩
  | 4 => ⟨S_, .f32⟩
  | 5 => ⟨S1, .f32⟩
  | 6 => ⟨S1, .f32⟩
  | 7 => ⟨S1, .i32⟩
  | 8 => ⟨S_, .i32⟩
  | 9 => ⟨S1, .i32⟩
  | 10 => ⟨S_, .i32⟩
  | 11 => ⟨S128, .i64⟩
  | 12 => ⟨S_, .i64⟩
  | 13 => ⟨S128, .i64⟩
  | 14 => ⟨S128, .i64⟩
  | 15 => ⟨S_, .i64⟩
  | 16 => ⟨S128, .i64⟩
  | 17 => ⟨S128, .i64⟩
  | 18 => ⟨S128, .i32⟩
  | 19 => ⟨S128, .i32⟩
  | 20 => ⟨S_, .i32⟩
  | 21 => ⟨S_, .i32⟩
  | 22 => ⟨S_, .i32⟩
  | 23 => ⟨S128, .i32⟩
  | 24 => ⟨S128, .i32⟩
  | 25 => ⟨S128, .i32⟩
  | 26 => ⟨S128, .i32⟩
  | 27 => ⟨S128, .i32⟩
  | 28 => ⟨S_, .i32⟩
  | 29 => ⟨S128, .i32⟩
  | 30 => ⟨S128, .i32⟩
  | 31 => ⟨S_, .i32⟩
  | 32 => ⟨S128, .i32⟩
  | 33 => ⟨S128, .i32⟩
  | 34 => ⟨S128, .i32⟩
  | 35 => ⟨S128, .i32⟩
  | 36 => ⟨S128, .i32⟩
  | 37 => ⟨S_, .i32⟩
  | 38 => ⟨S128, .i32⟩
  | 39 => ⟨S128, .i32⟩
  | 40 => ⟨S_, .i32⟩
  | 41 => ⟨S128, .i32⟩
  | 42 => ⟨S128, .i32⟩
  | 43 => ⟨S128, .i32⟩
  | 44 => ⟨S128, .i32⟩
  | 45 => ⟨S128, .i32⟩
  | 46 => ⟨S_, .i32⟩
  | 47 => ⟨S128, .i32⟩
  | 48 => ⟨S128, .i32⟩
  | 49 => ⟨S_, .i32⟩
  | 50 => ⟨S128, .i32⟩
  | 51 => ⟨S128, .i32⟩
  | 52 => ⟨S128, .i32⟩
  | 53 => ⟨S128, .i32⟩
  | 54 => ⟨S128, .i32⟩
  | 55 => ⟨S_, .i32⟩
  | 56 => ⟨S128, .i32⟩
  | 57 => ⟨S128, .i32⟩
  | 58 => ⟨S_, .i32⟩
  | 59 => ⟨S128, .i32⟩
  | 60 => ⟨S128, .i32⟩
  | 61 => ⟨S128, .i32⟩
  | 62 => ⟨S128, .i32⟩
  | 63 => ⟨S128, .i32⟩
  | 64 => ⟨S128, .i32⟩
  | 65 => ⟨S128, .i32⟩
  | 66 => ⟨S128, .i32⟩
  | 67 => ⟨S_, .i32⟩
  | 68 => ⟨S128, .i32⟩
  | 69 => ⟨S128, .i32⟩
  | 70 => ⟨S128, .i32⟩
  | 71 => ⟨S_, .i32⟩
  | 72 => ⟨S128, .i32⟩
  | 73 => ⟨S128, .i32⟩
  | 74 => ⟨S_, .i32⟩
  | 75 => ⟨S128, .i32⟩
  | 76 => ⟨S128, .i32⟩
  | 77 => ⟨S128, .i32⟩
  | 78 => ⟨S128, .i32⟩
  | 79 => ⟨S128, .i32⟩
  | 80 => ⟨S_, .i32⟩
  | 81 => ⟨S128, .i32⟩
  | 82 => ⟨S128, .i32⟩
  | 83 => ⟨S_, .i32⟩
  | 84 => ⟨S128, .i32⟩
  | 85 => ⟨S128, .i32⟩
  | 86 => ⟨S128, .i32⟩
  | 87 => ⟨S128, .i32⟩
  | 88 => ⟨S128, .i32⟩
  | 89 => ⟨S_, .i32⟩
  | 90 => ⟨S128, .i32⟩
  | 91 => ⟨S128, .i32⟩
  | 92 => ⟨S_, .i32⟩
  | 93 => ⟨S128, .i32⟩
  | 94 => ⟨S128, .i32⟩
  | 95 => ⟨S128, .i32⟩
  | 96 => ⟨S128, .i32⟩
  | 97 => ⟨S128, .i32⟩
  | 98 => ⟨S_, .i32⟩
  | 99 => ⟨S128, .i32⟩
  | 100 => ⟨S128, .i32⟩
  | 101 => ⟨S_, .i32⟩
  | 102 => ⟨S128, .i32⟩
  | 103 => ⟨S128, .i32⟩
  | 104 => ⟨S128, .i32⟩
  | 105 => ⟨S128, .i32⟩
  | 106 => ⟨S128, .i32⟩
  | 107 => ⟨S128, .i32⟩
  | 108 => ⟨S128, .i32⟩
  | 109 => ⟨S128, .i32⟩
  | 110 => ⟨S_, .i32⟩
  | 111 => ⟨S128, .i32⟩
  | 112 => ⟨S128, .i32⟩
  | 113 => ⟨S128, .i32⟩
  | 114 => ⟨S_, .i32⟩
  | 115 => ⟨S128, .i32⟩
  | 116 => ⟨S128, .i32⟩
  | 117 => ⟨S_, .i32⟩
  | 118 => ⟨S128, .i32⟩
  | 119 => ⟨S128, .i32⟩
  | 120 => ⟨S128, .i32⟩
  | 121 => ⟨S128, .i32⟩
  | 122 => ⟨S128, .i32⟩
  | 123 => ⟨S_, .i32⟩
  | 124 => ⟨S128, .i32⟩
  | 125 => ⟨S128, .i32⟩
  | 126 => ⟨S_, .i32⟩
  | 127 => ⟨S128, .i32⟩
  | _ => ⟨S128x4096, .f32⟩

abbrev hbmTy0_20 (i : Nat) : BufTy := match i % 128 with
  | 0 => ⟨S128, .i32⟩
  | 1 => ⟨S128, .i32⟩
  | 2 => ⟨S128, .i32⟩
  | 3 => ⟨S128, .i32⟩
  | 4 => ⟨S_, .i32⟩
  | 5 => ⟨S128, .i32⟩
  | 6 => ⟨S128, .i32⟩
  | 7 => ⟨S_, .i32⟩
  | 8 => ⟨S128, .i32⟩
  | 9 => ⟨S128, .i32⟩
  | 10 => ⟨S128, .i32⟩
  | 11 => ⟨S128, .i32⟩
  | 12 => ⟨S128, .i32⟩
  | 13 => ⟨S_, .i32⟩
  | 14 => ⟨S128, .i32⟩
  | 15 => ⟨S128, .i32⟩
  | 16 => ⟨S_, .i32⟩
  | 17 => ⟨S128, .i32⟩
  | 18 => ⟨S128, .i32⟩
  | 19 => ⟨S128, .i32⟩
  | 20 => ⟨S128, .i32⟩
  | 21 => ⟨S128, .i32⟩
  | 22 => ⟨S128, .i32⟩
  | 23 => ⟨S128, .i32⟩
  | 24 => ⟨S128, .i32⟩
  | 25 => ⟨S_, .i32⟩
  | 26 => ⟨S128, .i32⟩
  | 27 => ⟨S128, .i32⟩
  | 28 => ⟨S128, .i32⟩
  | 29 => ⟨S_, .i32⟩
  | 30 => ⟨S128, .i32⟩
  | 31 => ⟨S128, .i32⟩
  | 32 => ⟨S_, .i32⟩
  | 33 => ⟨S128, .i32⟩
  | 34 => ⟨S128, .i32⟩
  | 35 => ⟨S128, .i32⟩
  | 36 => ⟨S128, .i32⟩
  | 37 => ⟨S128, .i32⟩
  | 38 => ⟨S_, .i32⟩
  | 39 => ⟨S128, .i32⟩
  | 40 => ⟨S128, .i32⟩
  | 41 => ⟨S_, .i32⟩
  | 42 => ⟨S128, .i32⟩
  | 43 => ⟨S128, .i32⟩
  | 44 => ⟨S128, .i32⟩
  | 45 => ⟨S128, .i32⟩
  | 46 => ⟨S128, .i32⟩
  | 47 => ⟨S_, .i32⟩
  | 48 => ⟨S128, .i32⟩
  | 49 => ⟨S128, .i32⟩
  | 50 => ⟨S_, .i32⟩
  | 51 => ⟨S128, .i32⟩
  | 52 => ⟨S128, .i32⟩
  | 53 => ⟨S128, .i32⟩
  | 54 => ⟨S128, .i32⟩
  | 55 => ⟨S128, .i32⟩
  | 56 => ⟨S_, .i32⟩
  | 57 => ⟨S128, .i32⟩
  | 58 => ⟨S128, .i32⟩
  | 59 => ⟨S_, .i32⟩
  | 60 => ⟨S128, .i32⟩
  | 61 => ⟨S128, .i32⟩
  | 62 => ⟨S128, .i32⟩
  | 63 => ⟨S128, .i32⟩
  | 64 => ⟨S128, .i32⟩
  | 65 => ⟨S128, .i32⟩
  | 66 => ⟨S128, .i32⟩
  | 67 => ⟨S128, .i32⟩
  | 68 => ⟨S_, .i32⟩
  | 69 => ⟨S128, .i32⟩
  | 70 => ⟨S128, .i32⟩
  | 71 => ⟨S128, .i32⟩
  | 72 => ⟨S_, .i32⟩
  | 73 => ⟨S128, .i32⟩
  | 74 => ⟨S128, .i32⟩
  | 75 => ⟨S_, .i32⟩
  | 76 => ⟨S128, .i32⟩
  | 77 => ⟨S128, .i32⟩
  | 78 => ⟨S128, .i32⟩
  | 79 => ⟨S128, .i32⟩
  | 80 => ⟨S128, .i32⟩
  | 81 => ⟨S_, .i32⟩
  | 82 => ⟨S128, .i32⟩
  | 83 => ⟨S128, .i32⟩
  | 84 => ⟨S_, .i32⟩
  | 85 => ⟨S128, .i32⟩
  | 86 => ⟨S128, .i32⟩
  | 87 => ⟨S128, .i32⟩
  | 88 => ⟨S128, .i32⟩
  | 89 => ⟨S128, .i32⟩
  | 90 => ⟨S_, .i32⟩
  | 91 => ⟨S128, .i32⟩
  | 92 => ⟨S128, .i32⟩
  | 93 => ⟨S_, .i32⟩
  | 94 => ⟨S128, .i32⟩
  | 95 => ⟨S128, .i32⟩
  | 96 => ⟨S128, .i32⟩
  | 97 => ⟨S128, .i32⟩
  | 98 => ⟨S128, .i32⟩
  | 99 => ⟨S_, .i32⟩
  | 100 => ⟨S128, .i32⟩
  | 101 => ⟨S128, .i32⟩
  | 102 => ⟨S_, .i32⟩
  | 103 => ⟨S128, .i32⟩
  | 104 => ⟨S128, .i32⟩
  | 105 => ⟨S128, .i32⟩
  | 106 => ⟨S128, .i32⟩
  | 107 => ⟨S128, .i32⟩
  | 108 => ⟨S128, .i32⟩
  | 109 => ⟨S128, .i32⟩
  | 110 => ⟨S128, .i32⟩
  | 111 => ⟨S_, .i32⟩
  | 112 => ⟨S128, .i32⟩
  | 113 => ⟨S128, .i32⟩
  | 114 => ⟨S128, .i32⟩
  | 115 => ⟨S_, .i32⟩
  | 116 => ⟨S128, .i32⟩
  | 117 => ⟨S128, .i32⟩
  | 118 => ⟨S_, .i32⟩
  | 119 => ⟨S128, .i32⟩
  | 120 => ⟨S128, .i32⟩
  | 121 => ⟨S128, .f32⟩
  | 122 => ⟨S_, .f32⟩
  | 123 => ⟨S128, .f32⟩
  | 124 => ⟨S128, .f32⟩
  | 125 => ⟨S1, .f32⟩
  | 126 => ⟨S128, .f32⟩
  | 127 => ⟨S128, .f32⟩
  | _ => ⟨S128x4096, .f32⟩

abbrev hbmTy0_21 (i : Nat) : BufTy := match i % 128 with
  | 0 => ⟨S128, .f32⟩
  | 1 => ⟨S128, .f32⟩
  | 2 => ⟨S128, .f32⟩
  | 3 => ⟨S128, .f32⟩
  | 4 => ⟨S128, .f32⟩
  | 5 => ⟨S128, .f32⟩
  | 6 => ⟨S_, .f32⟩
  | 7 => ⟨S128, .f32⟩
  | 8 => ⟨S128, .f32⟩
  | 9 => ⟨S_, .f32⟩
  | 10 => ⟨S128, .f32⟩
  | 11 => ⟨S128, .f32⟩
  | 12 => ⟨S128, .i1⟩
  | 13 => ⟨S128, .f32⟩
  | 14 => ⟨S128x1, .f32⟩
  | 15 => ⟨S128x4096, .f32⟩
  | 16 => ⟨S128x4096, .f32⟩
  | 17 => ⟨S128x1, .f32⟩
  | 18 => ⟨S_, .f32⟩
  | 19 => ⟨S128x1, .f32⟩
  | 20 => ⟨S128x1, .f32⟩
  | 21 => ⟨S128x4096, .f32⟩
  | 22 => ⟨S128x4096, .f32⟩
  | 23 => ⟨S128x4096, .f32⟩
  | 24 => ⟨S128, .f32⟩
  | 25 => ⟨S_, .f32⟩
  | 26 => ⟨S128x4096, .f32⟩
  | 27 => ⟨S_, .i32⟩
  | 28 => ⟨S1, .i32⟩
  | 29 => ⟨S_, .f32⟩
  | 30 => ⟨S128, .f32⟩
  | 31 => ⟨S128x4096, .f32⟩
  | 32 => ⟨S_, .f32⟩
  | 33 => ⟨S128x4096, .f32⟩
  | 34 => ⟨S128x4096, .f32⟩
  | 35 => ⟨S128x4096, .f32⟩
  | 36 => ⟨S_, .f32⟩
  | 37 => ⟨S128x4096, .f32⟩
  | 38 => ⟨S128x4096, .f32⟩
  | 39 => ⟨S128x4096, .f32⟩
  | 40 => ⟨S128x4096, .f32⟩
  | 41 => ⟨S128, .f32⟩
  | 42 => ⟨S128, .f32⟩
  | 43 => ⟨S1, .i32⟩
  | 44 => ⟨S_, .i32⟩
  | 45 => ⟨S1, .i32⟩
  | 46 => ⟨S_, .i32⟩
  | 47 => ⟨S2, .i64⟩
  | 48 => ⟨S_, .i64⟩
  | 49 => ⟨S2, .i64⟩
  | 50 => ⟨S2, .i64⟩
  | 51 => ⟨S_, .i64⟩
  | 52 => ⟨S2, .i64⟩
  | 53 => ⟨S2, .i64⟩
  | 54 => ⟨S2, .i32⟩
  | 55 => ⟨S2, .i32⟩
  | 56 => ⟨S_, .i32⟩
  | 57 => ⟨S_, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S_, .i32⟩
  | 120 => ⟨S2, .i32⟩
  | 121 => ⟨S2, .i32⟩
  | 122 => ⟨S2, .i32⟩
  | 123 => ⟨S2, .i32⟩
  | 124 => ⟨S2, .i32⟩
  | 125 => ⟨S_, .i32⟩
  | 126 => ⟨S2, .i32⟩
  | 127 => ⟨S2, .i32⟩
  | _ => ⟨S128x4096, .f32⟩

abbrev hbmTy0_22 (i : Nat) : BufTy := match i % 128 with
  | 0 => ⟨S_, .i32⟩
  | 1 => ⟨S2, .i32⟩
  | 2 => ⟨S2, .i32⟩
  | 3 => ⟨S2, .i32⟩
  | 4 => ⟨S2, .i32⟩
  | 5 => ⟨S2, .i32⟩
  | 6 => ⟨S_, .i32⟩
  | 7 => ⟨S2, .i32⟩
  | 8 => ⟨S2, .i32⟩
  | 9 => ⟨S_, .i32⟩
  | 10 => ⟨S2, .i32⟩
  | 11 => ⟨S2, .i32⟩
  | 12 => ⟨S2, .i32⟩
  | 13 => ⟨S2, .i32⟩
  | 14 => ⟨S2, .i32⟩
  | 15 => ⟨S2, .i32⟩
  | 16 => ⟨S2, .i32⟩
  | 17 => ⟨S2, .i32⟩
  | 18 => ⟨S_, .i32⟩
  | 19 => ⟨S2, .i32⟩
  | 20 => ⟨S2, .i32⟩
  | 21 => ⟨S2, .i32⟩
  | 22 => ⟨S_, .i32⟩
  | 23 => ⟨S2, .i32⟩
  | 24 => ⟨S2, .i32⟩
  | 25 => ⟨S_, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S_, .i32⟩
  | 35 => ⟨S2, .i32⟩
  | 36 => ⟨S2, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S_, .i32⟩
  | 44 => ⟨S2, .i32⟩
  | 45 => ⟨S2, .i32⟩
  | 46 => ⟨S2, .i32⟩
  | 47 => ⟨S2, .i32⟩
  | 48 => ⟨S2, .i32⟩
  | 49 => ⟨S_, .i32⟩
  | 50 => ⟨S2, .i32⟩
  | 51 => ⟨S2, .i32⟩
  | 52 => ⟨S_, .i32⟩
  | 53 => ⟨S2, .i32⟩
  | 54 => ⟨S2, .i32⟩
  | 55 => ⟨S2, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S_, .i32⟩
  | 87 => ⟨S2, .i32⟩
  | 88 => ⟨S2, .i32⟩
  | 89 => ⟨S2, .i32⟩
  | 90 => ⟨S2, .i32⟩
  | 91 => ⟨S2, .i32⟩
  | 92 => ⟨S_, .i32⟩
  | 93 => ⟨S2, .i32⟩
  | 94 => ⟨S2, .i32⟩
  | 95 => ⟨S_, .i32⟩
  | 96 => ⟨S2, .i32⟩
  | 97 => ⟨S2, .i32⟩
  | 98 => ⟨S2, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S2, .i32⟩
  | 125 => ⟨S2, .i32⟩
  | 126 => ⟨S_, .i32⟩
  | 127 => ⟨S2, .i32⟩
  | _ => ⟨S128x4096, .f32⟩

abbrev hbmTy0_23 (i : Nat) : BufTy := match i % 128 with
  | 0 => ⟨S2, .i32⟩
  | 1 => ⟨S_, .i32⟩
  | 2 => ⟨S2, .i32⟩
  | 3 => ⟨S2, .i32⟩
  | 4 => ⟨S2, .i32⟩
  | 5 => ⟨S2, .i32⟩
  | 6 => ⟨S2, .i32⟩
  | 7 => ⟨S_, .i32⟩
  | 8 => ⟨S2, .i32⟩
  | 9 => ⟨S2, .i32⟩
  | 10 => ⟨S_, .i32⟩
  | 11 => ⟨S2, .i32⟩
  | 12 => ⟨S2, .i32⟩
  | 13 => ⟨S2, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S2x1, .i32⟩
  | 23 => ⟨S2x1, .i32⟩
  | 24 => ⟨S2x2, .i32⟩
  | 25 => ⟨S1x2, .i32⟩
  | 26 => ⟨S2, .i32⟩
  | 27 => ⟨S1x2, .i32⟩
  | 28 => ⟨S2, .i32⟩
  | 29 => ⟨S_, .f32⟩
  | 30 => ⟨S_, .f32⟩
  | 31 => ⟨S_, .f32⟩
  | 32 => ⟨S_, .f32⟩
  | 33 => ⟨S1, .f32⟩
  | 34 => ⟨S1, .f32⟩
  | 35 => ⟨S1, .i32⟩
  | 36 => ⟨S_, .i32⟩
  | 37 => ⟨S1, .i32⟩
  | 38 => ⟨S_, .i32⟩
  | 39 => ⟨S128, .i64⟩
  | 40 => ⟨S_, .i64⟩
  | 41 => ⟨S128, .i64⟩
  | 42 => ⟨S128, .i64⟩
  | 43 => ⟨S_, .i64⟩
  | 44 => ⟨S128, .i64⟩
  | 45 => ⟨S128, .i64⟩
  | 46 => ⟨S128, .i32⟩
  | 47 => ⟨S128, .i32⟩
  | 48 => ⟨S_, .i32⟩
  | 49 => ⟨S_, .i32⟩
  | 50 => ⟨S_, .i32⟩
  | 51 => ⟨S128, .i32⟩
  | 52 => ⟨S128, .i32⟩
  | 53 => ⟨S128, .i32⟩
  | 54 => ⟨S128, .i32⟩
  | 55 => ⟨S128, .i32⟩
  | 56 => ⟨S_, .i32⟩
  | 57 => ⟨S128, .i32⟩
  | 58 => ⟨S128, .i32⟩
  | 59 => ⟨S_, .i32⟩
  | 60 => ⟨S128, .i32⟩
  | 61 => ⟨S128, .i32⟩
  | 62 => ⟨S128, .i32⟩
  | 63 => ⟨S128, .i32⟩
  | 64 => ⟨S128, .i32⟩
  | 65 => ⟨S_, .i32⟩
  | 66 => ⟨S128, .i32⟩
  | 67 => ⟨S128, .i32⟩
  | 68 => ⟨S_, .i32⟩
  | 69 => ⟨S128, .i32⟩
  | 70 => ⟨S128, .i32⟩
  | 71 => ⟨S128, .i32⟩
  | 72 => ⟨S128, .i32⟩
  | 73 => ⟨S128, .i32⟩
  | 74 => ⟨S_, .i32⟩
  | 75 => ⟨S128, .i32⟩
  | 76 => ⟨S128, .i32⟩
  | 77 => ⟨S_, .i32⟩
  | 78 => ⟨S128, .i32⟩
  | 79 => ⟨S128, .i32⟩
  | 80 => ⟨S128, .i32⟩
  | 81 => ⟨S128, .i32⟩
  | 82 => ⟨S128, .i32⟩
  | 83 => ⟨S_, .i32⟩
  | 84 => ⟨S128, .i32⟩
  | 85 => ⟨S128, .i32⟩
  | 86 => ⟨S_, .i32⟩
  | 87 => ⟨S128, .i32⟩
  | 88 => ⟨S128, .i32⟩
  | 89 => ⟨S128, .i32⟩
  | 90 => ⟨S128, .i32⟩
  | 91 => ⟨S128, .i32⟩
  | 92 => ⟨S128, .i32⟩
  | 93 => ⟨S128, .i32⟩
  | 94 => ⟨S128, .i32⟩
  | 95 => ⟨S_, .i32⟩
  | 96 => ⟨S128, .i32⟩
  | 97 => ⟨S128, .i32⟩
  | 98 => ⟨S128, .i32⟩
  | 99 => ⟨S_, .i32⟩
  | 100 => ⟨S128, .i32⟩
  | 101 => ⟨S128, .i32⟩
  | 102 => ⟨S_, .i32⟩
  | 103 => ⟨S128, .i32⟩
  | 104 => ⟨S128, .i32⟩
  | 105 => ⟨S128, .i32⟩
  | 106 => ⟨S128, .i32⟩
  | 107 => ⟨S128, .i32⟩
  | 108 => ⟨S_, .i32⟩
  | 109 => ⟨S128, .i32⟩
  | 110 => ⟨S128, .i32⟩
  | 111 => ⟨S_, .i32⟩
  | 112 => ⟨S128, .i32⟩
  | 113 => ⟨S128, .i32⟩
  | 114 => ⟨S128, .i32⟩
  | 115 => ⟨S128, .i32⟩
  | 116 => ⟨S128, .i32⟩
  | 117 => ⟨S_, .i32⟩
  | 118 => ⟨S128, .i32⟩
  | 119 => ⟨S128, .i32⟩
  | 120 => ⟨S_, .i32⟩
  | 121 => ⟨S128, .i32⟩
  | 122 => ⟨S128, .i32⟩
  | 123 => ⟨S128, .i32⟩
  | 124 => ⟨S128, .i32⟩
  | 125 => ⟨S128, .i32⟩
  | 126 => ⟨S_, .i32⟩
  | 127 => ⟨S128, .i32⟩
  | _ => ⟨S128x4096, .f32⟩

abbrev hbmTy0_24 (i : Nat) : BufTy := match i % 128 with
  | 0 => ⟨S128, .i32⟩
  | 1 => ⟨S_, .i32⟩
  | 2 => ⟨S128, .i32⟩
  | 3 => ⟨S128, .i32⟩
  | 4 => ⟨S128, .i32⟩
  | 5 => ⟨S128, .i32⟩
  | 6 => ⟨S128, .i32⟩
  | 7 => ⟨S128, .i32⟩
  | 8 => ⟨S128, .i32⟩
  | 9 => ⟨S128, .i32⟩
  | 10 => ⟨S_, .i32⟩
  | 11 => ⟨S128, .i32⟩
  | 12 => ⟨S128, .i32⟩
  | 13 => ⟨S128, .i32⟩
  | 14 => ⟨S_, .i32⟩
  | 15 => ⟨S128, .i32⟩
  | 16 => ⟨S128, .i32⟩
  | 17 => ⟨S_, .i32⟩
  | 18 => ⟨S128, .i32⟩
  | 19 => ⟨S128, .i32⟩
  | 20 => ⟨S128, .i32⟩
  | 21 => ⟨S128, .i32⟩
  | 22 => ⟨S128, .i32⟩
  | 23 => ⟨S_, .i32⟩
  | 24 => ⟨S128, .i32⟩
  | 25 => ⟨S128, .i32⟩
  | 26 => ⟨S_, .i32⟩
  | 27 => ⟨S128, .i32⟩
  | 28 => ⟨S128, .i32⟩
  | 29 => ⟨S128, .i32⟩
  | 30 => ⟨S128, .i32⟩
  | 31 => ⟨S128, .i32⟩
  | 32 => ⟨S_, .i32⟩
  | 33 => ⟨S128, .i32⟩
  | 34 => ⟨S128, .i32⟩
  | 35 => ⟨S_, .i32⟩
  | 36 => ⟨S128, .i32⟩
  | 37 => ⟨S128, .i32⟩
  | 38 => ⟨S128, .i32⟩
  | 39 => ⟨S128, .i32⟩
  | 40 => ⟨S128, .i32⟩
  | 41 => ⟨S_, .i32⟩
  | 42 => ⟨S128, .i32⟩
  | 43 => ⟨S128, .i32⟩
  | 44 => ⟨S_, .i32⟩
  | 45 => ⟨S128, .i32⟩
  | 46 => ⟨S128, .i32⟩
  | 47 => ⟨S128, .i32⟩
  | 48 => ⟨S128, .i32⟩
  | 49 => ⟨S128, .i32⟩
  | 50 => ⟨S128, .i32⟩
  | 51 => ⟨S128, .i32⟩
  | 52 => ⟨S128, .i32⟩
  | 53 => ⟨S_, .i32⟩
  | 54 => ⟨S128, .i32⟩
  | 55 => ⟨S128, .i32⟩
  | 56 => ⟨S128, .i32⟩
  | 57 => ⟨S_, .i32⟩
  | 58 => ⟨S128, .i32⟩
  | 59 => ⟨S128, .i32⟩
  | 60 => ⟨S_, .i32⟩
  | 61 => ⟨S128, .i32⟩
  | 62 => ⟨S128, .i32⟩
  | 63 => ⟨S128, .i32⟩
  | 64 => ⟨S128, .i32⟩
  | 65 => ⟨S128, .i32⟩
  | 66 => ⟨S_, .i32⟩
  | 67 => ⟨S128, .i32⟩
  | 68 => ⟨S128, .i32⟩
  | 69 => ⟨S_, .i32⟩
  | 70 => ⟨S128, .i32⟩
  | 71 => ⟨S128, .i32⟩
  | 72 => ⟨S128, .i32⟩
  | 73 => ⟨S128, .i32⟩
  | 74 => ⟨S128, .i32⟩
  | 75 => ⟨S_, .i32⟩
  | 76 => ⟨S128, .i32⟩
  | 77 => ⟨S128, .i32⟩
  | 78 => ⟨S_, .i32⟩
  | 79 => ⟨S128, .i32⟩
  | 80 => ⟨S128, .i32⟩
  | 81 => ⟨S128, .i32⟩
  | 82 => ⟨S128, .i32⟩
  | 83 => ⟨S128, .i32⟩
  | 84 => ⟨S_, .i32⟩
  | 85 => ⟨S128, .i32⟩
  | 86 => ⟨S128, .i32⟩
  | 87 => ⟨S_, .i32⟩
  | 88 => ⟨S128, .i32⟩
  | 89 => ⟨S128, .i32⟩
  | 90 => ⟨S128, .i32⟩
  | 91 => ⟨S128, .i32⟩
  | 92 => ⟨S128, .i32⟩
  | 93 => ⟨S128, .i32⟩
  | 94 => ⟨S128, .i32⟩
  | 95 => ⟨S128, .i32⟩
  | 96 => ⟨S_, .i32⟩
  | 97 => ⟨S128, .i32⟩
  | 98 => ⟨S128, .i32⟩
  | 99 => ⟨S128, .i32⟩
  | 100 => ⟨S_, .i32⟩
  | 101 => ⟨S128, .i32⟩
  | 102 => ⟨S128, .i32⟩
  | 103 => ⟨S_, .i32⟩
  | 104 => ⟨S128, .i32⟩
  | 105 => ⟨S128, .i32⟩
  | 106 => ⟨S128, .i32⟩
  | 107 => ⟨S128, .i32⟩
  | 108 => ⟨S128, .i32⟩
  | 109 => ⟨S_, .i32⟩
  | 110 => ⟨S128, .i32⟩
  | 111 => ⟨S128, .i32⟩
  | 112 => ⟨S_, .i32⟩
  | 113 => ⟨S128, .i32⟩
  | 114 => ⟨S128, .i32⟩
  | 115 => ⟨S128, .i32⟩
  | 116 => ⟨S128, .i32⟩
  | 117 => ⟨S128, .i32⟩
  | 118 => ⟨S_, .i32⟩
  | 119 => ⟨S128, .i32⟩
  | 120 => ⟨S128, .i32⟩
  | 121 => ⟨S_, .i32⟩
  | 122 => ⟨S128, .i32⟩
  | 123 => ⟨S128, .i32⟩
  | 124 => ⟨S128, .i32⟩
  | 125 => ⟨S128, .i32⟩
  | 126 => ⟨S128, .i32⟩
  | 127 => ⟨S_, .i32⟩
  | _ => ⟨S128x4096, .f32⟩

abbrev hbmTy0_25 (i : Nat) : BufTy := match i % 128 with
  | 0 => ⟨S128, .i32⟩
  | 1 => ⟨S128, .i32⟩
  | 2 => ⟨S_, .i32⟩
  | 3 => ⟨S128, .i32⟩
  | 4 => ⟨S128, .i32⟩
  | 5 => ⟨S128, .i32⟩
  | 6 => ⟨S128, .i32⟩
  | 7 => ⟨S128, .i32⟩
  | 8 => ⟨S128, .i32⟩
  | 9 => ⟨S128, .i32⟩
  | 10 => ⟨S128, .i32⟩
  | 11 => ⟨S_, .i32⟩
  | 12 => ⟨S128, .i32⟩
  | 13 => ⟨S128, .i32⟩
  | 14 => ⟨S128, .i32⟩
  | 15 => ⟨S_, .i32⟩
  | 16 => ⟨S128, .i32⟩
  | 17 => ⟨S128, .i32⟩
  | 18 => ⟨S_, .i32⟩
  | 19 => ⟨S128, .i32⟩
  | 20 => ⟨S128, .i32⟩
  | 21 => ⟨S128, .f32⟩
  | 22 => ⟨S_, .f32⟩
  | 23 => ⟨S128, .f32⟩
  | 24 => ⟨S128, .f32⟩
  | 25 => ⟨S1, .f32⟩
  | 26 => ⟨S128, .f32⟩
  | 27 => ⟨S128, .f32⟩
  | 28 => ⟨S128, .f32⟩
  | 29 => ⟨S128, .f32⟩
  | 30 => ⟨S128, .f32⟩
  | 31 => ⟨S128, .f32⟩
  | 32 => ⟨S128, .f32⟩
  | 33 => ⟨S128, .f32⟩
  | 34 => ⟨S_, .f32⟩
  | 35 => ⟨S128, .f32⟩
  | 36 => ⟨S128, .f32⟩
  | 37 => ⟨S_, .f32⟩
  | 38 => ⟨S128, .f32⟩
  | 39 => ⟨S128, .f32⟩
  | 40 => ⟨S128, .i1⟩
  | 41 => ⟨S128, .f32⟩
  | 42 => ⟨S128x1, .f32⟩
  | 43 => ⟨S128x4096, .f32⟩
  | 44 => ⟨S128x4096, .f32⟩
  | 45 => ⟨S128x1, .f32⟩
  | 46 => ⟨S_, .f32⟩
  | 47 => ⟨S128x1, .f32⟩
  | 48 => ⟨S128x1, .f32⟩
  | 49 => ⟨S128x4096, .f32⟩
  | 50 => ⟨S128x4096, .f32⟩
  | 51 => ⟨S128x4096, .f32⟩
  | 52 => ⟨S128, .f32⟩
  | 53 => ⟨S_, .f32⟩
  | 54 => ⟨S128x4096, .f32⟩
  | 55 => ⟨S_, .i32⟩
  | 56 => ⟨S1, .i32⟩
  | 57 => ⟨S_, .f32⟩
  | 58 => ⟨S128, .f32⟩
  | 59 => ⟨S128x4096, .f32⟩
  | 60 => ⟨S_, .f32⟩
  | 61 => ⟨S128x4096, .f32⟩
  | 62 => ⟨S128x4096, .f32⟩
  | 63 => ⟨S128x4096, .f32⟩
  | 64 => ⟨S_, .f32⟩
  | 65 => ⟨S128x4096, .f32⟩
  | 66 => ⟨S128x4096, .f32⟩
  | 67 => ⟨S128x4096, .f32⟩
  | 68 => ⟨S128x4096, .f32⟩
  | 69 => ⟨S128, .f32⟩
  | 70 => ⟨S128, .f32⟩
  | 71 => ⟨S1, .i32⟩
  | 72 => ⟨S_, .i32⟩
  | 73 => ⟨S1, .i32⟩
  | 74 => ⟨S_, .i32⟩
  | 75 => ⟨S2, .i64⟩
  | 76 => ⟨S_, .i64⟩
  | 77 => ⟨S2, .i64⟩
  | 78 => ⟨S2, .i64⟩
  | 79 => ⟨S_, .i64⟩
  | 80 => ⟨S2, .i64⟩
  | 81 => ⟨S2, .i64⟩
  | 82 => ⟨S2, .i32⟩
  | 83 => ⟨S2, .i32⟩
  | 84 => ⟨S_, .i32⟩
  | 85 => ⟨S_, .i32⟩
  | 86 => ⟨S_, .i32⟩
  | 87 => ⟨S2, .i32⟩
  | 88 => ⟨S2, .i32⟩
  | 89 => ⟨S2, .i32⟩
  | 90 => ⟨S2, .i32⟩
  | 91 => ⟨S2, .i32⟩
  | 92 => ⟨S_, .i32⟩
  | 93 => ⟨S2, .i32⟩
  | 94 => ⟨S2, .i32⟩
  | 95 => ⟨S_, .i32⟩
  | 96 => ⟨S2, .i32⟩
  | 97 => ⟨S2, .i32⟩
  | 98 => ⟨S2, .i32⟩
  | 99 => ⟨S2, .i32⟩
  | 100 => ⟨S2, .i32⟩
  | 101 => ⟨S_, .i32⟩
  | 102 => ⟨S2, .i32⟩
  | 103 => ⟨S2, .i32⟩
  | 104 => ⟨S_, .i32⟩
  | 105 => ⟨S2, .i32⟩
  | 106 => ⟨S2, .i32⟩
  | 107 => ⟨S2, .i32⟩
  | 108 => ⟨S2, .i32⟩
  | 109 => ⟨S2, .i32⟩
  | 110 => ⟨S_, .i32⟩
  | 111 => ⟨S2, .i32⟩
  | 112 => ⟨S2, .i32⟩
  | 113 => ⟨S_, .i32⟩
  | 114 => ⟨S2, .i32⟩
  | 115 => ⟨S2, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S_, .i32⟩
  | 123 => ⟨S2, .i32⟩
  | 124 => ⟨S2, .i32⟩
  | 125 => ⟨S2, .i32⟩
  | 126 => ⟨S2, .i32⟩
  | 127 => ⟨S2, .i32⟩
  | _ => ⟨S128x4096, .f32⟩

abbrev hbmTy0_26 (i : Nat) : BufTy := match i % 128 with
  | 0 => ⟨S2, .i32⟩
  | 1 => ⟨S2, .i32⟩
  | 2 => ⟨S2, .i32⟩
  | 3 => ⟨S_, .i32⟩
  | 4 => ⟨S2, .i32⟩
  | 5 => ⟨S2, .i32⟩
  | 6 => ⟨S2, .i32⟩
  | 7 => ⟨S_, .i32⟩
  | 8 => ⟨S2, .i32⟩
  | 9 => ⟨S2, .i32⟩
  | 10 => ⟨S_, .i32⟩
  | 11 => ⟨S2, .i32⟩
  | 12 => ⟨S2, .i32⟩
  | 13 => ⟨S2, .i32⟩
  | 14 => ⟨S2, .i32⟩
  | 15 => ⟨S2, .i32⟩
  | 16 => ⟨S_, .i32⟩
  | 17 => ⟨S2, .i32⟩
  | 18 => ⟨S2, .i32⟩
  | 19 => ⟨S_, .i32⟩
  | 20 => ⟨S2, .i32⟩
  | 21 => ⟨S2, .i32⟩
  | 22 => ⟨S2, .i32⟩
  | 23 => ⟨S2, .i32⟩
  | 24 => ⟨S2, .i32⟩
  | 25 => ⟨S_, .i32⟩
  | 26 => ⟨S2, .i32⟩
  | 27 => ⟨S2, .i32⟩
  | 28 => ⟨S_, .i32⟩
  | 29 => ⟨S2, .i32⟩
  | 30 => ⟨S2, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S2, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S2, .i32⟩
  | 68 => ⟨S_, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S2, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S_, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S_, .i32⟩
  | 124 => ⟨S2, .i32⟩
  | 125 => ⟨S2, .i32⟩
  | 126 => ⟨S2, .i32⟩
  | 127 => ⟨S2, .i32⟩
  | _ => ⟨S128x4096, .f32⟩

abbrev hbmTy0_27 (i : Nat) : BufTy := match i % 128 with
  | 0 => ⟨S2, .i32⟩
  | 1 => ⟨S2, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S_, .i32⟩
  | 21 => ⟨S2, .i32⟩
  | 22 => ⟨S2, .i32⟩
  | 23 => ⟨S2, .i32⟩
  | 24 => ⟨S2, .i32⟩
  | 25 => ⟨S2, .i32⟩
  | 26 => ⟨S_, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S2x1, .i32⟩
  | 51 => ⟨S2x1, .i32⟩
  | 52 => ⟨S2x2, .i32⟩
  | 53 => ⟨S1x2, .i32⟩
  | 54 => ⟨S2, .i32⟩
  | 55 => ⟨S1x2, .i32⟩
  | 56 => ⟨S2, .i32⟩
  | 57 => ⟨S_, .f32⟩
  | 58 => ⟨S_, .f32⟩
  | 59 => ⟨S_, .f32⟩
  | 60 => ⟨S_, .f32⟩
  | 61 => ⟨S1, .f32⟩
  | 62 => ⟨S1, .f32⟩
  | 63 => ⟨S1, .i32⟩
  | 64 => ⟨S_, .i32⟩
  | 65 => ⟨S1, .i32⟩
  | 66 => ⟨S_, .i32⟩
  | 67 => ⟨S128, .i64⟩
  | 68 => ⟨S_, .i64⟩
  | 69 => ⟨S128, .i64⟩
  | 70 => ⟨S128, .i64⟩
  | 71 => ⟨S_, .i64⟩
  | 72 => ⟨S128, .i64⟩
  | 73 => ⟨S128, .i64⟩
  | 74 => ⟨S128, .i32⟩
  | 75 => ⟨S128, .i32⟩
  | 76 => ⟨S_, .i32⟩
  | 77 => ⟨S_, .i32⟩
  | 78 => ⟨S_, .i32⟩
  | 79 => ⟨S128, .i32⟩
  | 80 => ⟨S128, .i32⟩
  | 81 => ⟨S128, .i32⟩
  | 82 => ⟨S128, .i32⟩
  | 83 => ⟨S128, .i32⟩
  | 84 => ⟨S_, .i32⟩
  | 85 => ⟨S128, .i32⟩
  | 86 => ⟨S128, .i32⟩
  | 87 => ⟨S_, .i32⟩
  | 88 => ⟨S128, .i32⟩
  | 89 => ⟨S128, .i32⟩
  | 90 => ⟨S128, .i32⟩
  | 91 => ⟨S128, .i32⟩
  | 92 => ⟨S128, .i32⟩
  | 93 => ⟨S_, .i32⟩
  | 94 => ⟨S128, .i32⟩
  | 95 => ⟨S128, .i32⟩
  | 96 => ⟨S_, .i32⟩
  | 97 => ⟨S128, .i32⟩
  | 98 => ⟨S128, .i32⟩
  | 99 => ⟨S128, .i32⟩
  | 100 => ⟨S128, .i32⟩
  | 101 => ⟨S128, .i32⟩
  | 102 => ⟨S_, .i32⟩
  | 103 => ⟨S128, .i32⟩
  | 104 => ⟨S128, .i32⟩
  | 105 => ⟨S_, .i32⟩
  | 106 => ⟨S128, .i32⟩
  | 107 => ⟨S128, .i32⟩
  | 108 => ⟨S128, .i32⟩
  | 109 => ⟨S128, .i32⟩
  | 110 => ⟨S128, .i32⟩
  | 111 => ⟨S_, .i32⟩
  | 112 => ⟨S128, .i32⟩
  | 113 => ⟨S128, .i32⟩
  | 114 => ⟨S_, .i32⟩
  | 115 => ⟨S128, .i32⟩
  | 116 => ⟨S128, .i32⟩
  | 117 => ⟨S128, .i32⟩
  | 118 => ⟨S128, .i32⟩
  | 119 => ⟨S128, .i32⟩
  | 120 => ⟨S128, .i32⟩
  | 121 => ⟨S128, .i32⟩
  | 122 => ⟨S128, .i32⟩
  | 123 => ⟨S_, .i32⟩
  | 124 => ⟨S128, .i32⟩
  | 125 => ⟨S128, .i32⟩
  | 126 => ⟨S128, .i32⟩
  | 127 => ⟨S_, .i32⟩
  | _ => ⟨S128x4096, .f32⟩

abbrev hbmTy0_28 (i : Nat) : BufTy := match i % 128 with
  | 0 => ⟨S128, .i32⟩
  | 1 => ⟨S128, .i32⟩
  | 2 => ⟨S_, .i32⟩
  | 3 => ⟨S128, .i32⟩
  | 4 => ⟨S128, .i32⟩
  | 5 => ⟨S128, .i32⟩
  | 6 => ⟨S128, .i32⟩
  | 7 => ⟨S128, .i32⟩
  | 8 => ⟨S_, .i32⟩
  | 9 => ⟨S128, .i32⟩
  | 10 => ⟨S128, .i32⟩
  | 11 => ⟨S_, .i32⟩
  | 12 => ⟨S128, .i32⟩
  | 13 => ⟨S128, .i32⟩
  | 14 => ⟨S128, .i32⟩
  | 15 => ⟨S128, .i32⟩
  | 16 => ⟨S128, .i32⟩
  | 17 => ⟨S_, .i32⟩
  | 18 => ⟨S128, .i32⟩
  | 19 => ⟨S128, .i32⟩
  | 20 => ⟨S_, .i32⟩
  | 21 => ⟨S128, .i32⟩
  | 22 => ⟨S128, .i32⟩
  | 23 => ⟨S128, .i32⟩
  | 24 => ⟨S128, .i32⟩
  | 25 => ⟨S128, .i32⟩
  | 26 => ⟨S_, .i32⟩
  | 27 => ⟨S128, .i32⟩
  | 28 => ⟨S128, .i32⟩
  | 29 => ⟨S_, .i32⟩
  | 30 => ⟨S128, .i32⟩
  | 31 => ⟨S128, .i32⟩
  | 32 => ⟨S128, .i32⟩
  | 33 => ⟨S128, .i32⟩
  | 34 => ⟨S128, .i32⟩
  | 35 => ⟨S128, .i32⟩
  | 36 => ⟨S128, .i32⟩
  | 37 => ⟨S128, .i32⟩
  | 38 => ⟨S_, .i32⟩
  | 39 => ⟨S128, .i32⟩
  | 40 => ⟨S128, .i32⟩
  | 41 => ⟨S128, .i32⟩
  | 42 => ⟨S_, .i32⟩
  | 43 => ⟨S128, .i32⟩
  | 44 => ⟨S128, .i32⟩
  | 45 => ⟨S_, .i32⟩
  | 46 => ⟨S128, .i32⟩
  | 47 => ⟨S128, .i32⟩
  | 48 => ⟨S128, .i32⟩
  | 49 => ⟨S128, .i32⟩
  | 50 => ⟨S128, .i32⟩
  | 51 => ⟨S_, .i32⟩
  | 52 => ⟨S128, .i32⟩
  | 53 => ⟨S128, .i32⟩
  | 54 => ⟨S_, .i32⟩
  | 55 => ⟨S128, .i32⟩
  | 56 => ⟨S128, .i32⟩
  | 57 => ⟨S128, .i32⟩
  | 58 => ⟨S128, .i32⟩
  | 59 => ⟨S128, .i32⟩
  | 60 => ⟨S_, .i32⟩
  | 61 => ⟨S128, .i32⟩
  | 62 => ⟨S128, .i32⟩
  | 63 => ⟨S_, .i32⟩
  | 64 => ⟨S128, .i32⟩
  | 65 => ⟨S128, .i32⟩
  | 66 => ⟨S128, .i32⟩
  | 67 => ⟨S128, .i32⟩
  | 68 => ⟨S128, .i32⟩
  | 69 => ⟨S_, .i32⟩
  | 70 => ⟨S128, .i32⟩
  | 71 => ⟨S128, .i32⟩
  | 72 => ⟨S_, .i32⟩
  | 73 => ⟨S128, .i32⟩
  | 74 => ⟨S128, .i32⟩
  | 75 => ⟨S128, .i32⟩
  | 76 => ⟨S128, .i32⟩
  | 77 => ⟨S128, .i32⟩
  | 78 => ⟨S128, .i32⟩
  | 79 => ⟨S128, .i32⟩
  | 80 => ⟨S128, .i32⟩
  | 81 => ⟨S_, .i32⟩
  | 82 => ⟨S128, .i32⟩
  | 83 => ⟨S128, .i32⟩
  | 84 => ⟨S128, .i32⟩
  | 85 => ⟨S_, .i32⟩
  | 86 => ⟨S128, .i32⟩
  | 87 => ⟨S128, .i32⟩
  | 88 => ⟨S_, .i32⟩
  | 89 => ⟨S128, .i32⟩
  | 90 => ⟨S128, .i32⟩
  | 91 => ⟨S128, .i32⟩
  | 92 => ⟨S128, .i32⟩
  | 93 => ⟨S128, .i32⟩
  | 94 => ⟨S_, .i32⟩
  | 95 => ⟨S128, .i32⟩
  | 96 => ⟨S128, .i32⟩
  | 97 => ⟨S_, .i32⟩
  | 98 => ⟨S128, .i32⟩
  | 99 => ⟨S128, .i32⟩
  | 100 => ⟨S128, .i32⟩
  | 101 => ⟨S128, .i32⟩
  | 102 => ⟨S128, .i32⟩
  | 103 => ⟨S_, .i32⟩
  | 104 => ⟨S128, .i32⟩
  | 105 => ⟨S128, .i32⟩
  | 106 => ⟨S_, .i32⟩
  | 107 => ⟨S128, .i32⟩
  | 108 => ⟨S128, .i32⟩
  | 109 => ⟨S128, .i32⟩
  | 110 => ⟨S128, .i32⟩
  | 111 => ⟨S128, .i32⟩
  | 112 => ⟨S_, .i32⟩
  | 113 => ⟨S128, .i32⟩
  | 114 => ⟨S128, .i32⟩
  | 115 => ⟨S_, .i32⟩
  | 116 => ⟨S128, .i32⟩
  | 117 => ⟨S128, .i32⟩
  | 118 => ⟨S128, .i32⟩
  | 119 => ⟨S128, .i32⟩
  | 120 => ⟨S128, .i32⟩
  | 121 => ⟨S128, .i32⟩
  | 122 => ⟨S128, .i32⟩
  | 123 => ⟨S128, .i32⟩
  | 124 => ⟨S_, .i32⟩
  | 125 => ⟨S128, .i32⟩
  | 126 => ⟨S128, .i32⟩
  | 127 => ⟨S128, .i32⟩
  | _ => ⟨S128x4096, .f32⟩

abbrev hbmTy0_29 (i : Nat) : BufTy := match i % 128 with
  | 0 => ⟨S_, .i32⟩
  | 1 => ⟨S128, .i32⟩
  | 2 => ⟨S128, .i32⟩
  | 3 => ⟨S_, .i32⟩
  | 4 => ⟨S128, .i32⟩
  | 5 => ⟨S128, .i32⟩
  | 6 => ⟨S128, .i32⟩
  | 7 => ⟨S128, .i32⟩
  | 8 => ⟨S128, .i32⟩
  | 9 => ⟨S_, .i32⟩
  | 10 => ⟨S128, .i32⟩
  | 11 => ⟨S128, .i32⟩
  | 12 => ⟨S_, .i32⟩
  | 13 => ⟨S128, .i32⟩
  | 14 => ⟨S128, .i32⟩
  | 15 => ⟨S128, .i32⟩
  | 16 => ⟨S128, .i32⟩
  | 17 => ⟨S128, .i32⟩
  | 18 => ⟨S_, .i32⟩
  | 19 => ⟨S128, .i32⟩
  | 20 => ⟨S128, .i32⟩
  | 21 => ⟨S_, .i32⟩
  | 22 => ⟨S128, .i32⟩
  | 23 => ⟨S128, .i32⟩
  | 24 => ⟨S128, .i32⟩
  | 25 => ⟨S128, .i32⟩
  | 26 => ⟨S128, .i32⟩
  | 27 => ⟨S_, .i32⟩
  | 28 => ⟨S128, .i32⟩
  | 29 => ⟨S128, .i32⟩
  | 30 => ⟨S_, .i32⟩
  | 31 => ⟨S128, .i32⟩
  | 32 => ⟨S128, .i32⟩
  | 33 => ⟨S128, .i32⟩
  | 34 => ⟨S128, .i32⟩
  | 35 => ⟨S128, .i32⟩
  | 36 => ⟨S128, .i32⟩
  | 37 => ⟨S128, .i32⟩
  | 38 => ⟨S128, .i32⟩
  | 39 => ⟨S_, .i32⟩
  | 40 => ⟨S128, .i32⟩
  | 41 => ⟨S128, .i32⟩
  | 42 => ⟨S128, .i32⟩
  | 43 => ⟨S_, .i32⟩
  | 44 => ⟨S128, .i32⟩
  | 45 => ⟨S128, .i32⟩
  | 46 => ⟨S_, .i32⟩
  | 47 => ⟨S128, .i32⟩
  | 48 => ⟨S128, .i32⟩
  | 49 => ⟨S128, .f32⟩
  | 50 => ⟨S_, .f32⟩
  | 51 => ⟨S128, .f32⟩
  | 52 => ⟨S128, .f32⟩
  | 53 => ⟨S1, .f32⟩
  | 54 => ⟨S128, .f32⟩
  | 55 => ⟨S128, .f32⟩
  | 56 => ⟨S128, .f32⟩
  | 57 => ⟨S128, .f32⟩
  | 58 => ⟨S128, .f32⟩
  | 59 => ⟨S128, .f32⟩
  | 60 => ⟨S128, .f32⟩
  | 61 => ⟨S128, .f32⟩
  | 62 => ⟨S_, .f32⟩
  | 63 => ⟨S128, .f32⟩
  | 64 => ⟨S128, .f32⟩
  | 65 => ⟨S_, .f32⟩
  | 66 => ⟨S128, .f32⟩
  | 67 => ⟨S128, .f32⟩
  | 68 => ⟨S128, .i1⟩
  | 69 => ⟨S128, .f32⟩
  | 70 => ⟨S128x1, .f32⟩
  | 71 => ⟨S128x4096, .f32⟩
  | 72 => ⟨S128x4096, .f32⟩
  | 73 => ⟨S128x1, .f32⟩
  | 74 => ⟨S_, .f32⟩
  | 75 => ⟨S128x1, .f32⟩
  | 76 => ⟨S128x1, .f32⟩
  | 77 => ⟨S128x4096, .f32⟩
  | 78 => ⟨S128x4096, .f32⟩
  | 79 => ⟨S128x4096, .f32⟩
  | 80 => ⟨S128, .f32⟩
  | 81 => ⟨S_, .f32⟩
  | 82 => ⟨S128x4096, .f32⟩
  | 83 => ⟨S_, .i32⟩
  | 84 => ⟨S1, .i32⟩
  | 85 => ⟨S_, .f32⟩
  | 86 => ⟨S128, .f32⟩
  | 87 => ⟨S128x4096, .f32⟩
  | 88 => ⟨S_, .f32⟩
  | 89 => ⟨S128x4096, .f32⟩
  | 90 => ⟨S128x4096, .f32⟩
  | 91 => ⟨S128x4096, .f32⟩
  | 92 => ⟨S_, .f32⟩
  | 93 => ⟨S128x4096, .f32⟩
  | 94 => ⟨S128x4096, .f32⟩
  | 95 => ⟨S128x4096, .f32⟩
  | 96 => ⟨S128x4096, .f32⟩
  | 97 => ⟨S128, .f32⟩
  | 98 => ⟨S128, .f32⟩
  | 99 => ⟨S1, .i32⟩
  | 100 => ⟨S_, .i32⟩
  | 101 => ⟨S1, .i32⟩
  | 102 => ⟨S_, .i32⟩
  | 103 => ⟨S2, .i64⟩
  | 104 => ⟨S_, .i64⟩
  | 105 => ⟨S2, .i64⟩
  | 106 => ⟨S2, .i64⟩
  | 107 => ⟨S_, .i64⟩
  | 108 => ⟨S2, .i64⟩
  | 109 => ⟨S2, .i64⟩
  | 110 => ⟨S2, .i32⟩
  | 111 => ⟨S2, .i32⟩
  | 112 => ⟨S_, .i32⟩
  | 113 => ⟨S_, .i32⟩
  | 114 => ⟨S_, .i32⟩
  | 115 => ⟨S2, .i32⟩
  | 116 => ⟨S2, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S_, .i32⟩
  | 124 => ⟨S2, .i32⟩
  | 125 => ⟨S2, .i32⟩
  | 126 => ⟨S2, .i32⟩
  | 127 => ⟨S2, .i32⟩
  | _ => ⟨S128x4096, .f32⟩

abbrev hbmTy0_30 (i : Nat) : BufTy := match i % 128 with
  | 0 => ⟨S2, .i32⟩
  | 1 => ⟨S_, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S_, .i32⟩
  | 125 => ⟨S2, .i32⟩
  | 126 => ⟨S2, .i32⟩
  | 127 => ⟨S2, .i32⟩
  | _ => ⟨S128x4096, .f32⟩

abbrev hbmTy0_31 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S_, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S2, .i32⟩
  | 19 => ⟨S2, .i32⟩
  | 20 => ⟨S_, .i32⟩
  | 21 => ⟨S2, .i32⟩
  | 22 => ⟨S2, .i32⟩
  | 23 => ⟨S_, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S2, .i32⟩
  | 36 => ⟨S_, .i32⟩
  | 37 => ⟨S2, .i32⟩
  | 38 => ⟨S2, .i32⟩
  | 39 => ⟨S_, .i32⟩
  | 40 => ⟨S2, .i32⟩
  | 41 => ⟨S2, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S2x1, .i32⟩
  | 79 => ⟨S2x1, .i32⟩
  | 80 => ⟨S2x2, .i32⟩
  | 81 => ⟨S1x2, .i32⟩
  | 82 => ⟨S2, .i32⟩
  | 83 => ⟨S1x2, .i32⟩
  | 84 => ⟨S2, .i32⟩
  | 85 => ⟨S_, .f32⟩
  | 86 => ⟨S_, .f32⟩
  | 87 => ⟨S_, .f32⟩
  | 88 => ⟨S_, .f32⟩
  | 89 => ⟨S1, .f32⟩
  | 90 => ⟨S1, .f32⟩
  | 91 => ⟨S1, .i32⟩
  | 92 => ⟨S_, .i32⟩
  | 93 => ⟨S1, .i32⟩
  | 94 => ⟨S_, .i32⟩
  | 95 => ⟨S128, .i64⟩
  | 96 => ⟨S_, .i64⟩
  | 97 => ⟨S128, .i64⟩
  | 98 => ⟨S128, .i64⟩
  | 99 => ⟨S_, .i64⟩
  | 100 => ⟨S128, .i64⟩
  | 101 => ⟨S128, .i64⟩
  | 102 => ⟨S128, .i32⟩
  | 103 => ⟨S128, .i32⟩
  | 104 => ⟨S_, .i32⟩
  | 105 => ⟨S_, .i32⟩
  | 106 => ⟨S_, .i32⟩
  | 107 => ⟨S128, .i32⟩
  | 108 => ⟨S128, .i32⟩
  | 109 => ⟨S128, .i32⟩
  | 110 => ⟨S128, .i32⟩
  | 111 => ⟨S128, .i32⟩
  | 112 => ⟨S_, .i32⟩
  | 113 => ⟨S128, .i32⟩
  | 114 => ⟨S128, .i32⟩
  | 115 => ⟨S_, .i32⟩
  | 116 => ⟨S128, .i32⟩
  | 117 => ⟨S128, .i32⟩
  | 118 => ⟨S128, .i32⟩
  | 119 => ⟨S128, .i32⟩
  | 120 => ⟨S128, .i32⟩
  | 121 => ⟨S_, .i32⟩
  | 122 => ⟨S128, .i32⟩
  | 123 => ⟨S128, .i32⟩
  | 124 => ⟨S_, .i32⟩
  | 125 => ⟨S128, .i32⟩
  | 126 => ⟨S128, .i32⟩
  | 127 => ⟨S128, .i32⟩
  | _ => ⟨S128x4096, .f32⟩

abbrev hbmTy0_32 (i : Nat) : BufTy := match i % 128 with
  | 0 => ⟨S128, .i32⟩
  | 1 => ⟨S128, .i32⟩
  | 2 => ⟨S_, .i32⟩
  | 3 => ⟨S128, .i32⟩
  | 4 => ⟨S128, .i32⟩
  | 5 => ⟨S_, .i32⟩
  | 6 => ⟨S128, .i32⟩
  | 7 => ⟨S128, .i32⟩
  | 8 => ⟨S128, .i32⟩
  | 9 => ⟨S128, .i32⟩
  | 10 => ⟨S128, .i32⟩
  | 11 => ⟨S_, .i32⟩
  | 12 => ⟨S128, .i32⟩
  | 13 => ⟨S128, .i32⟩
  | 14 => ⟨S_, .i32⟩
  | 15 => ⟨S128, .i32⟩
  | 16 => ⟨S128, .i32⟩
  | 17 => ⟨S128, .i32⟩
  | 18 => ⟨S128, .i32⟩
  | 19 => ⟨S128, .i32⟩
  | 20 => ⟨S128, .i32⟩
  | 21 => ⟨S128, .i32⟩
  | 22 => ⟨S128, .i32⟩
  | 23 => ⟨S_, .i32⟩
  | 24 => ⟨S128, .i32⟩
  | 25 => ⟨S128, .i32⟩
  | 26 => ⟨S128, .i32⟩
  | 27 => ⟨S_, .i32⟩
  | 28 => ⟨S128, .i32⟩
  | 29 => ⟨S128, .i32⟩
  | 30 => ⟨S_, .i32⟩
  | 31 => ⟨S128, .i32⟩
  | 32 => ⟨S128, .i32⟩
  | 33 => ⟨S128, .i32⟩
  | 34 => ⟨S128, .i32⟩
  | 35 => ⟨S128, .i32⟩
  | 36 => ⟨S_, .i32⟩
  | 37 => ⟨S128, .i32⟩
  | 38 => ⟨S128, .i32⟩
  | 39 => ⟨S_, .i32⟩
  | 40 => ⟨S128, .i32⟩
  | 41 => ⟨S128, .i32⟩
  | 42 => ⟨S128, .i32⟩
  | 43 => ⟨S128, .i32⟩
  | 44 => ⟨S128, .i32⟩
  | 45 => ⟨S_, .i32⟩
  | 46 => ⟨S128, .i32⟩
  | 47 => ⟨S128, .i32⟩
  | 48 => ⟨S_, .i32⟩
  | 49 => ⟨S128, .i32⟩
  | 50 => ⟨S128, .i32⟩
  | 51 => ⟨S128, .i32⟩
  | 52 => ⟨S128, .i32⟩
  | 53 => ⟨S128, .i32⟩
  | 54 => ⟨S_, .i32⟩
  | 55 => ⟨S128, .i32⟩
  | 56 => ⟨S128, .i32⟩
  | 57 => ⟨S_, .i32⟩
  | 58 => ⟨S128, .i32⟩
  | 59 => ⟨S128, .i32⟩
  | 60 => ⟨S128, .i32⟩
  | 61 => ⟨S128, .i32⟩
  | 62 => ⟨S128, .i32⟩
  | 63 => ⟨S128, .i32⟩
  | 64 => ⟨S128, .i32⟩
  | 65 => ⟨S128, .i32⟩
  | 66 => ⟨S_, .i32⟩
  | 67 => ⟨S128, .i32⟩
  | 68 => ⟨S128, .i32⟩
  | 69 => ⟨S128, .i32⟩
  | 70 => ⟨S_, .i32⟩
  | 71 => ⟨S128, .i32⟩
  | 72 => ⟨S128, .i32⟩
  | 73 => ⟨S_, .i32⟩
  | 74 => ⟨S128, .i32⟩
  | 75 => ⟨S128, .i32⟩
  | 76 => ⟨S128, .i32⟩
  | 77 => ⟨S128, .i32⟩
  | 78 => ⟨S128, .i32⟩
  | 79 => ⟨S_, .i32⟩
  | 80 => ⟨S128, .i32⟩
  | 81 => ⟨S128, .i32⟩
  | 82 => ⟨S_, .i32⟩
  | 83 => ⟨S128, .i32⟩
  | 84 => ⟨S128, .i32⟩
  | 85 => ⟨S128, .i32⟩
  | 86 => ⟨S128, .i32⟩
  | 87 => ⟨S128, .i32⟩
  | 88 => ⟨S_, .i32⟩
  | 89 => ⟨S128, .i32⟩
  | 90 => ⟨S128, .i32⟩
  | 91 => ⟨S_, .i32⟩
  | 92 => ⟨S128, .i32⟩
  | 93 => ⟨S128, .i32⟩
  | 94 => ⟨S128, .i32⟩
  | 95 => ⟨S128, .i32⟩
  | 96 => ⟨S128, .i32⟩
  | 97 => ⟨S_, .i32⟩
  | 98 => ⟨S128, .i32⟩
  | 99 => ⟨S128, .i32⟩
  | 100 => ⟨S_, .i32⟩
  | 101 => ⟨S128, .i32⟩
  | 102 => ⟨S128, .i32⟩
  | 103 => ⟨S128, .i32⟩
  | 104 => ⟨S128, .i32⟩
  | 105 => ⟨S128, .i32⟩
  | 106 => ⟨S128, .i32⟩
  | 107 => ⟨S128, .i32⟩
  | 108 => ⟨S128, .i32⟩
  | 109 => ⟨S_, .i32⟩
  | 110 => ⟨S128, .i32⟩
  | 111 => ⟨S128, .i32⟩
  | 112 => ⟨S128, .i32⟩
  | 113 => ⟨S_, .i32⟩
  | 114 => ⟨S128, .i32⟩
  | 115 => ⟨S128, .i32⟩
  | 116 => ⟨S_, .i32⟩
  | 117 => ⟨S128, .i32⟩
  | 118 => ⟨S128, .i32⟩
  | 119 => ⟨S128, .i32⟩
  | 120 => ⟨S128, .i32⟩
  | 121 => ⟨S128, .i32⟩
  | 122 => ⟨S_, .i32⟩
  | 123 => ⟨S128, .i32⟩
  | 124 => ⟨S128, .i32⟩
  | 125 => ⟨S_, .i32⟩
  | 126 => ⟨S128, .i32⟩
  | 127 => ⟨S128, .i32⟩
  | _ => ⟨S128x4096, .f32⟩

abbrev hbmTy0_33 (i : Nat) : BufTy := match i % 128 with
  | 0 => ⟨S128, .i32⟩
  | 1 => ⟨S128, .i32⟩
  | 2 => ⟨S128, .i32⟩
  | 3 => ⟨S_, .i32⟩
  | 4 => ⟨S128, .i32⟩
  | 5 => ⟨S128, .i32⟩
  | 6 => ⟨S_, .i32⟩
  | 7 => ⟨S128, .i32⟩
  | 8 => ⟨S128, .i32⟩
  | 9 => ⟨S128, .i32⟩
  | 10 => ⟨S128, .i32⟩
  | 11 => ⟨S128, .i32⟩
  | 12 => ⟨S_, .i32⟩
  | 13 => ⟨S128, .i32⟩
  | 14 => ⟨S128, .i32⟩
  | 15 => ⟨S_, .i32⟩
  | 16 => ⟨S128, .i32⟩
  | 17 => ⟨S128, .i32⟩
  | 18 => ⟨S128, .i32⟩
  | 19 => ⟨S128, .i32⟩
  | 20 => ⟨S128, .i32⟩
  | 21 => ⟨S128, .i32⟩
  | 22 => ⟨S128, .i32⟩
  | 23 => ⟨S128, .i32⟩
  | 24 => ⟨S_, .i32⟩
  | 25 => ⟨S128, .i32⟩
  | 26 => ⟨S128, .i32⟩
  | 27 => ⟨S128, .i32⟩
  | 28 => ⟨S_, .i32⟩
  | 29 => ⟨S128, .i32⟩
  | 30 => ⟨S128, .i32⟩
  | 31 => ⟨S_, .i32⟩
  | 32 => ⟨S128, .i32⟩
  | 33 => ⟨S128, .i32⟩
  | 34 => ⟨S128, .i32⟩
  | 35 => ⟨S128, .i32⟩
  | 36 => ⟨S128, .i32⟩
  | 37 => ⟨S_, .i32⟩
  | 38 => ⟨S128, .i32⟩
  | 39 => ⟨S128, .i32⟩
  | 40 => ⟨S_, .i32⟩
  | 41 => ⟨S128, .i32⟩
  | 42 => ⟨S128, .i32⟩
  | 43 => ⟨S128, .i32⟩
  | 44 => ⟨S128, .i32⟩
  | 45 => ⟨S128, .i32⟩
  | 46 => ⟨S_, .i32⟩
  | 47 => ⟨S128, .i32⟩
  | 48 => ⟨S128, .i32⟩
  | 49 => ⟨S_, .i32⟩
  | 50 => ⟨S128, .i32⟩
  | 51 => ⟨S128, .i32⟩
  | 52 => ⟨S128, .i32⟩
  | 53 => ⟨S128, .i32⟩
  | 54 => ⟨S128, .i32⟩
  | 55 => ⟨S_, .i32⟩
  | 56 => ⟨S128, .i32⟩
  | 57 => ⟨S128, .i32⟩
  | 58 => ⟨S_, .i32⟩
  | 59 => ⟨S128, .i32⟩
  | 60 => ⟨S128, .i32⟩
  | 61 => ⟨S128, .i32⟩
  | 62 => ⟨S128, .i32⟩
  | 63 => ⟨S128, .i32⟩
  | 64 => ⟨S128, .i32⟩
  | 65 => ⟨S128, .i32⟩
  | 66 => ⟨S128, .i32⟩
  | 67 => ⟨S_, .i32⟩
  | 68 => ⟨S128, .i32⟩
  | 69 => ⟨S128, .i32⟩
  | 70 => ⟨S128, .i32⟩
  | 71 => ⟨S_, .i32⟩
  | 72 => ⟨S128, .i32⟩
  | 73 => ⟨S128, .i32⟩
  | 74 => ⟨S_, .i32⟩
  | 75 => ⟨S128, .i32⟩
  | 76 => ⟨S128, .i32⟩
  | 77 => ⟨S128, .f32⟩
  | 78 => ⟨S_, .f32⟩
  | 79 => ⟨S128, .f32⟩
  | 80 => ⟨S128, .f32⟩
  | 81 => ⟨S1, .f32⟩
  | 82 => ⟨S128, .f32⟩
  | 83 => ⟨S128, .f32⟩
  | 84 => ⟨S128, .f32⟩
  | 85 => ⟨S128, .f32⟩
  | 86 => ⟨S128, .f32⟩
  | 87 => ⟨S128, .f32⟩
  | 88 => ⟨S128, .f32⟩
  | 89 => ⟨S128, .f32⟩
  | 90 => ⟨S_, .f32⟩
  | 91 => ⟨S128, .f32⟩
  | 92 => ⟨S128, .f32⟩
  | 93 => ⟨S_, .f32⟩
  | 94 => ⟨S128, .f32⟩
  | 95 => ⟨S128, .f32⟩
  | 96 => ⟨S128, .i1⟩
  | 97 => ⟨S128, .f32⟩
  | 98 => ⟨S128x1, .f32⟩
  | 99 => ⟨S128x4096, .f32⟩
  | 100 => ⟨S128x4096, .f32⟩
  | 101 => ⟨S128x1, .f32⟩
  | 102 => ⟨S_, .f32⟩
  | 103 => ⟨S128x1, .f32⟩
  | 104 => ⟨S128x1, .f32⟩
  | 105 => ⟨S128x4096, .f32⟩
  | 106 => ⟨S128x4096, .f32⟩
  | 107 => ⟨S128x4096, .f32⟩
  | _ => ⟨S128x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | 21 => hbmTy0_21 i
  | 22 => hbmTy0_22 i
  | 23 => hbmTy0_23 i
  | 24 => hbmTy0_24 i
  | 25 => hbmTy0_25 i
  | 26 => hbmTy0_26 i
  | 27 => hbmTy0_27 i
  | 28 => hbmTy0_28 i
  | 29 => hbmTy0_29 i
  | 30 => hbmTy0_30 i
  | 31 => hbmTy0_31 i
  | 32 => hbmTy0_32 i
  | 33 => hbmTy0_33 i
  | _ => ⟨S128x4096, .f32⟩

abbrev bufTy : (tb : Table) → Fin (tcTables nBuf tb) → BufTy
  | .hbm, ⟨i, _⟩ => hbmTy i
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_5 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_c : Ref sig .tc := ⟨.hbm, 36, rfl⟩
abbrev main_call0_v5 : Ref sig .tc := ⟨.hbm, 37, rfl⟩
abbrev main_call0_v6 : Ref sig .tc := ⟨.hbm, 38, rfl⟩
abbrev main_call0_c_0 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_call0_v0 : Ref sig .tc := ⟨.hbm, 44, rfl⟩
abbrev main_call0_call0_c : Ref sig .tc := ⟨.hbm, 45, rfl⟩
abbrev main_call0_call0_v1 : Ref sig .tc := ⟨.hbm, 46, rfl⟩
abbrev main_call0_call0_v2 : Ref sig .tc := ⟨.hbm, 47, rfl⟩
abbrev main_call0_call0_v3 : Ref sig .tc := ⟨.hbm, 48, rfl⟩
abbrev main_call0_call0_v4 : Ref sig .tc := ⟨.hbm, 49, rfl⟩
abbrev main_call0_call0_v5 : Ref sig .tc := ⟨.hbm, 50, rfl⟩
abbrev main_call0_call0_v6 : Ref sig .tc := ⟨.hbm, 51, rfl⟩
abbrev main_call0_call0_c_0 : Ref sig .tc := ⟨.hbm, 52, rfl⟩
abbrev main_call0_call0_v7 : Ref sig .tc := ⟨.hbm, 53, rfl⟩
abbrev main_call0_call0_v8 : Ref sig .tc := ⟨.hbm, 54, rfl⟩
abbrev main_call0_call0_c_1 : Ref sig .tc := ⟨.hbm, 55, rfl⟩
abbrev main_call0_call0_v9 : Ref sig .tc := ⟨.hbm, 56, rfl⟩
abbrev main_call0_call0_v10 : Ref sig .tc := ⟨.hbm, 57, rfl⟩
abbrev main_call0_call0_v11 : Ref sig .tc := ⟨.hbm, 58, rfl⟩
abbrev main_call0_call0_v12 : Ref sig .tc := ⟨.hbm, 59, rfl⟩
abbrev main_call0_call0_v13 : Ref sig .tc := ⟨.hbm, 60, rfl⟩
abbrev main_call0_call0_c_2 : Ref sig .tc := ⟨.hbm, 61, rfl⟩
abbrev main_call0_call0_v14 : Ref sig .tc := ⟨.hbm, 62, rfl⟩
abbrev main_call0_call0_v15 : Ref sig .tc := ⟨.hbm, 63, rfl⟩
abbrev main_call0_call0_c_3 : Ref sig .tc := ⟨.hbm, 64, rfl⟩
abbrev main_call0_call0_v16 : Ref sig .tc := ⟨.hbm, 65, rfl⟩
abbrev main_call0_call0_v17 : Ref sig .tc := ⟨.hbm, 66, rfl⟩
abbrev main_call0_call0_v18 : Ref sig .tc := ⟨.hbm, 67, rfl⟩
abbrev main_call0_call0_v19 : Ref sig .tc := ⟨.hbm, 68, rfl⟩
abbrev main_call0_call0_v20 : Ref sig .tc := ⟨.hbm, 69, rfl⟩
abbrev main_call0_call0_c_4 : Ref sig .tc := ⟨.hbm, 70, rfl⟩
abbrev main_call0_call0_v21 : Ref sig .tc := ⟨.hbm, 71, rfl⟩
abbrev main_call0_call0_v22 : Ref sig .tc := ⟨.hbm, 72, rfl⟩
abbrev main_call0_call0_c_5 : Ref sig .tc := ⟨.hbm, 73, rfl⟩
abbrev main_call0_call0_v23 : Ref sig .tc := ⟨.hbm, 74, rfl⟩
abbrev main_call0_call0_v24 : Ref sig .tc := ⟨.hbm, 75, rfl⟩
abbrev main_call0_call0_v25 : Ref sig .tc := ⟨.hbm, 76, rfl⟩
abbrev main_call0_call0_v26 : Ref sig .tc := ⟨.hbm, 77, rfl⟩
abbrev main_call0_call0_v27 : Ref sig .tc := ⟨.hbm, 78, rfl⟩
abbrev main_call0_call0_c_6 : Ref sig .tc := ⟨.hbm, 79, rfl⟩
abbrev main_call0_call0_v28 : Ref sig .tc := ⟨.hbm, 80, rfl⟩
abbrev main_call0_call0_v29 : Ref sig .tc := ⟨.hbm, 81, rfl⟩
abbrev main_call0_call0_c_7 : Ref sig .tc := ⟨.hbm, 82, rfl⟩
abbrev main_call0_call0_v30 : Ref sig .tc := ⟨.hbm, 83, rfl⟩
abbrev main_call0_call0_v31 : Ref sig .tc := ⟨.hbm, 84, rfl⟩
abbrev main_call0_call0_v32 : Ref sig .tc := ⟨.hbm, 85, rfl⟩
abbrev main_call0_call0_v33 : Ref sig .tc := ⟨.hbm, 86, rfl⟩
abbrev main_call0_call0_v34 : Ref sig .tc := ⟨.hbm, 87, rfl⟩
abbrev main_call0_call0_v35 : Ref sig .tc := ⟨.hbm, 88, rfl⟩
abbrev main_call0_call0_v36 : Ref sig .tc := ⟨.hbm, 89, rfl⟩
abbrev main_call0_call0_v37 : Ref sig .tc := ⟨.hbm, 90, rfl⟩
abbrev main_call0_call0_c_8 : Ref sig .tc := ⟨.hbm, 91, rfl⟩
abbrev main_call0_call0_v38 : Ref sig .tc := ⟨.hbm, 92, rfl⟩
abbrev main_call0_call0_v39 : Ref sig .tc := ⟨.hbm, 93, rfl⟩
abbrev main_call0_call0_v40 : Ref sig .tc := ⟨.hbm, 94, rfl⟩
abbrev main_call0_call0_c_9 : Ref sig .tc := ⟨.hbm, 95, rfl⟩
abbrev main_call0_call0_v41 : Ref sig .tc := ⟨.hbm, 96, rfl⟩
abbrev main_call0_call0_v42 : Ref sig .tc := ⟨.hbm, 97, rfl⟩
abbrev main_call0_call0_c_10 : Ref sig .tc := ⟨.hbm, 98, rfl⟩
abbrev main_call0_call0_v43 : Ref sig .tc := ⟨.hbm, 99, rfl⟩
abbrev main_call0_call0_v44 : Ref sig .tc := ⟨.hbm, 100, rfl⟩
abbrev main_call0_call0_v45 : Ref sig .tc := ⟨.hbm, 101, rfl⟩
abbrev main_call0_call0_v46 : Ref sig .tc := ⟨.hbm, 102, rfl⟩
abbrev main_call0_call0_v47 : Ref sig .tc := ⟨.hbm, 103, rfl⟩
abbrev main_call0_call0_c_11 : Ref sig .tc := ⟨.hbm, 104, rfl⟩
abbrev main_call0_call0_v48 : Ref sig .tc := ⟨.hbm, 105, rfl⟩
abbrev main_call0_call0_v49 : Ref sig .tc := ⟨.hbm, 106, rfl⟩
abbrev main_call0_call0_c_12 : Ref sig .tc := ⟨.hbm, 107, rfl⟩
abbrev main_call0_call0_v50 : Ref sig .tc := ⟨.hbm, 108, rfl⟩
abbrev main_call0_call0_v51 : Ref sig .tc := ⟨.hbm, 109, rfl⟩
abbrev main_call0_call0_v52 : Ref sig .tc := ⟨.hbm, 110, rfl⟩
abbrev main_call0_call0_v53 : Ref sig .tc := ⟨.hbm, 111, rfl⟩
abbrev main_call0_call0_v54 : Ref sig .tc := ⟨.hbm, 112, rfl⟩
abbrev main_call0_call0_c_13 : Ref sig .tc := ⟨.hbm, 113, rfl⟩
abbrev main_call0_call0_v55 : Ref sig .tc := ⟨.hbm, 114, rfl⟩
abbrev main_call0_call0_v56 : Ref sig .tc := ⟨.hbm, 115, rfl⟩
abbrev main_call0_call0_c_14 : Ref sig .tc := ⟨.hbm, 116, rfl⟩
abbrev main_call0_call0_v57 : Ref sig .tc := ⟨.hbm, 117, rfl⟩
abbrev main_call0_call0_v58 : Ref sig .tc := ⟨.hbm, 118, rfl⟩
abbrev main_call0_call0_v59 : Ref sig .tc := ⟨.hbm, 119, rfl⟩
abbrev main_call0_call0_v60 : Ref sig .tc := ⟨.hbm, 120, rfl⟩
abbrev main_call0_call0_v61 : Ref sig .tc := ⟨.hbm, 121, rfl⟩
abbrev main_call0_call0_c_15 : Ref sig .tc := ⟨.hbm, 122, rfl⟩
abbrev main_call0_call0_v62 : Ref sig .tc := ⟨.hbm, 123, rfl⟩
abbrev main_call0_call0_v63 : Ref sig .tc := ⟨.hbm, 124, rfl⟩
abbrev main_call0_call0_c_16 : Ref sig .tc := ⟨.hbm, 125, rfl⟩
abbrev main_call0_call0_v64 : Ref sig .tc := ⟨.hbm, 126, rfl⟩
abbrev main_call0_call0_v65 : Ref sig .tc := ⟨.hbm, 127, rfl⟩
abbrev main_call0_call0_v66 : Ref sig .tc := ⟨.hbm, 128, rfl⟩
abbrev main_call0_call0_v67 : Ref sig .tc := ⟨.hbm, 129, rfl⟩
abbrev main_call0_call0_v68 : Ref sig .tc := ⟨.hbm, 130, rfl⟩
abbrev main_call0_call0_v69 : Ref sig .tc := ⟨.hbm, 131, rfl⟩
abbrev main_call0_call0_v70 : Ref sig .tc := ⟨.hbm, 132, rfl⟩
abbrev main_call0_call0_v71 : Ref sig .tc := ⟨.hbm, 133, rfl⟩
abbrev main_call0_call0_c_17 : Ref sig .tc := ⟨.hbm, 134, rfl⟩
abbrev main_call0_call0_v72 : Ref sig .tc := ⟨.hbm, 135, rfl⟩
abbrev main_call0_call0_v73 : Ref sig .tc := ⟨.hbm, 136, rfl⟩
abbrev main_call0_call0_v74 : Ref sig .tc := ⟨.hbm, 137, rfl⟩
abbrev main_call0_call0_c_18 : Ref sig .tc := ⟨.hbm, 138, rfl⟩
abbrev main_call0_call0_v75 : Ref sig .tc := ⟨.hbm, 139, rfl⟩
abbrev main_call0_call0_v76 : Ref sig .tc := ⟨.hbm, 140, rfl⟩
abbrev main_call0_call0_c_19 : Ref sig .tc := ⟨.hbm, 141, rfl⟩
abbrev main_call0_call0_v77 : Ref sig .tc := ⟨.hbm, 142, rfl⟩
abbrev main_call0_call0_v78 : Ref sig .tc := ⟨.hbm, 143, rfl⟩
abbrev main_call0_call0_v79 : Ref sig .tc := ⟨.hbm, 144, rfl⟩
abbrev main_call0_call0_v80 : Ref sig .tc := ⟨.hbm, 145, rfl⟩
abbrev main_call0_call0_v81 : Ref sig .tc := ⟨.hbm, 146, rfl⟩
abbrev main_call0_call0_c_20 : Ref sig .tc := ⟨.hbm, 147, rfl⟩
abbrev main_call0_call0_v82 : Ref sig .tc := ⟨.hbm, 148, rfl⟩
abbrev main_call0_call0_v83 : Ref sig .tc := ⟨.hbm, 149, rfl⟩
abbrev main_call0_call0_c_21 : Ref sig .tc := ⟨.hbm, 150, rfl⟩
abbrev main_call0_call0_v84 : Ref sig .tc := ⟨.hbm, 151, rfl⟩
abbrev main_call0_call0_v85 : Ref sig .tc := ⟨.hbm, 152, rfl⟩
abbrev main_call0_call0_v86 : Ref sig .tc := ⟨.hbm, 153, rfl⟩
abbrev main_call0_call0_v87 : Ref sig .tc := ⟨.hbm, 154, rfl⟩
abbrev main_call0_call0_v88 : Ref sig .tc := ⟨.hbm, 155, rfl⟩
abbrev main_call0_call0_c_22 : Ref sig .tc := ⟨.hbm, 156, rfl⟩
abbrev main_call0_call0_v89 : Ref sig .tc := ⟨.hbm, 157, rfl⟩
abbrev main_call0_call0_v90 : Ref sig .tc := ⟨.hbm, 158, rfl⟩
abbrev main_call0_call0_c_23 : Ref sig .tc := ⟨.hbm, 159, rfl⟩
abbrev main_call0_call0_v91 : Ref sig .tc := ⟨.hbm, 160, rfl⟩
abbrev main_call0_call0_v92 : Ref sig .tc := ⟨.hbm, 161, rfl⟩
abbrev main_call0_call0_v93 : Ref sig .tc := ⟨.hbm, 162, rfl⟩
abbrev main_call0_call0_v94 : Ref sig .tc := ⟨.hbm, 163, rfl⟩
abbrev main_call0_call0_v95 : Ref sig .tc := ⟨.hbm, 164, rfl⟩
abbrev main_call0_call0_c_24 : Ref sig .tc := ⟨.hbm, 165, rfl⟩
abbrev main_call0_call0_v96 : Ref sig .tc := ⟨.hbm, 166, rfl⟩
abbrev main_call0_call0_v97 : Ref sig .tc := ⟨.hbm, 167, rfl⟩
abbrev main_call0_call0_c_25 : Ref sig .tc := ⟨.hbm, 168, rfl⟩
abbrev main_call0_call0_v98 : Ref sig .tc := ⟨.hbm, 169, rfl⟩
abbrev main_call0_call0_v99 : Ref sig .tc := ⟨.hbm, 170, rfl⟩
abbrev main_call0_call0_v100 : Ref sig .tc := ⟨.hbm, 171, rfl⟩
abbrev main_call0_call0_v101 : Ref sig .tc := ⟨.hbm, 172, rfl⟩
abbrev main_call0_call0_v102 : Ref sig .tc := ⟨.hbm, 173, rfl⟩
abbrev main_call0_call0_v103 : Ref sig .tc := ⟨.hbm, 174, rfl⟩
abbrev main_call0_call0_v104 : Ref sig .tc := ⟨.hbm, 175, rfl⟩
abbrev main_call0_call0_v105 : Ref sig .tc := ⟨.hbm, 176, rfl⟩
abbrev main_call0_call0_c_26 : Ref sig .tc := ⟨.hbm, 177, rfl⟩
abbrev main_call0_call0_v106 : Ref sig .tc := ⟨.hbm, 178, rfl⟩
abbrev main_call0_call0_v107 : Ref sig .tc := ⟨.hbm, 179, rfl⟩
abbrev main_call0_call0_v108 : Ref sig .tc := ⟨.hbm, 180, rfl⟩
abbrev main_call0_call0_c_27 : Ref sig .tc := ⟨.hbm, 181, rfl⟩
abbrev main_call0_call0_v109 : Ref sig .tc := ⟨.hbm, 182, rfl⟩
abbrev main_call0_call0_v110 : Ref sig .tc := ⟨.hbm, 183, rfl⟩
abbrev main_call0_call0_c_28 : Ref sig .tc := ⟨.hbm, 184, rfl⟩
abbrev main_call0_call0_v111 : Ref sig .tc := ⟨.hbm, 185, rfl⟩
abbrev main_call0_call0_v112 : Ref sig .tc := ⟨.hbm, 186, rfl⟩
abbrev main_call0_call0_v113 : Ref sig .tc := ⟨.hbm, 187, rfl⟩
abbrev main_call0_call0_v114 : Ref sig .tc := ⟨.hbm, 188, rfl⟩
abbrev main_call0_call0_v115 : Ref sig .tc := ⟨.hbm, 189, rfl⟩
abbrev main_call0_call0_c_29 : Ref sig .tc := ⟨.hbm, 190, rfl⟩
abbrev main_call0_call0_v116 : Ref sig .tc := ⟨.hbm, 191, rfl⟩
abbrev main_call0_call0_v117 : Ref sig .tc := ⟨.hbm, 192, rfl⟩
abbrev main_call0_call0_c_30 : Ref sig .tc := ⟨.hbm, 193, rfl⟩
abbrev main_call0_call0_v118 : Ref sig .tc := ⟨.hbm, 194, rfl⟩
abbrev main_call0_call0_v119 : Ref sig .tc := ⟨.hbm, 195, rfl⟩
abbrev main_call0_call0_v120 : Ref sig .tc := ⟨.hbm, 196, rfl⟩
abbrev main_call0_call0_v121 : Ref sig .tc := ⟨.hbm, 197, rfl⟩
abbrev main_call0_call0_v122 : Ref sig .tc := ⟨.hbm, 198, rfl⟩
abbrev main_call0_call0_c_31 : Ref sig .tc := ⟨.hbm, 199, rfl⟩
abbrev main_call0_call0_v123 : Ref sig .tc := ⟨.hbm, 200, rfl⟩
abbrev main_call0_call0_v124 : Ref sig .tc := ⟨.hbm, 201, rfl⟩
abbrev main_call0_call0_c_32 : Ref sig .tc := ⟨.hbm, 202, rfl⟩
abbrev main_call0_call0_v125 : Ref sig .tc := ⟨.hbm, 203, rfl⟩
abbrev main_call0_call0_v126 : Ref sig .tc := ⟨.hbm, 204, rfl⟩
abbrev main_call0_call0_v127 : Ref sig .tc := ⟨.hbm, 205, rfl⟩
abbrev main_call0_call0_v128 : Ref sig .tc := ⟨.hbm, 206, rfl⟩
abbrev main_call0_call0_v129 : Ref sig .tc := ⟨.hbm, 207, rfl⟩
abbrev main_call0_call0_c_33 : Ref sig .tc := ⟨.hbm, 208, rfl⟩
abbrev main_call0_call0_v130 : Ref sig .tc := ⟨.hbm, 209, rfl⟩
abbrev main_call0_call0_v131 : Ref sig .tc := ⟨.hbm, 210, rfl⟩
abbrev main_call0_call0_c_34 : Ref sig .tc := ⟨.hbm, 211, rfl⟩
abbrev main_call0_call0_v132 : Ref sig .tc := ⟨.hbm, 212, rfl⟩
abbrev main_call0_call0_v133 : Ref sig .tc := ⟨.hbm, 213, rfl⟩
abbrev main_call0_call0_v134 : Ref sig .tc := ⟨.hbm, 214, rfl⟩
abbrev main_call0_call0_v135 : Ref sig .tc := ⟨.hbm, 215, rfl⟩
abbrev main_call0_call0_v136 : Ref sig .tc := ⟨.hbm, 216, rfl⟩
abbrev main_call0_call0_v137 : Ref sig .tc := ⟨.hbm, 217, rfl⟩
abbrev main_call0_call0_v138 : Ref sig .tc := ⟨.hbm, 218, rfl⟩
abbrev main_call0_call0_v139 : Ref sig .tc := ⟨.hbm, 219, rfl⟩
abbrev main_call0_call0_c_35 : Ref sig .tc := ⟨.hbm, 220, rfl⟩
abbrev main_call0_call0_v140 : Ref sig .tc := ⟨.hbm, 221, rfl⟩
abbrev main_call0_call0_v141 : Ref sig .tc := ⟨.hbm, 222, rfl⟩
abbrev main_call0_call0_v142 : Ref sig .tc := ⟨.hbm, 223, rfl⟩
abbrev main_call0_call0_c_36 : Ref sig .tc := ⟨.hbm, 224, rfl⟩
abbrev main_call0_call0_v143 : Ref sig .tc := ⟨.hbm, 225, rfl⟩
abbrev main_call0_call0_v144 : Ref sig .tc := ⟨.hbm, 226, rfl⟩
abbrev main_call0_call0_c_37 : Ref sig .tc := ⟨.hbm, 227, rfl⟩
abbrev main_call0_call0_v145 : Ref sig .tc := ⟨.hbm, 228, rfl⟩
abbrev main_call0_call0_v146 : Ref sig .tc := ⟨.hbm, 229, rfl⟩
abbrev main_call0_call0_v147 : Ref sig .tc := ⟨.hbm, 230, rfl⟩
abbrev main_call0_call0_v148 : Ref sig .tc := ⟨.hbm, 231, rfl⟩
abbrev main_call0_call0_v149 : Ref sig .tc := ⟨.hbm, 232, rfl⟩
abbrev main_call0_call0_c_38 : Ref sig .tc := ⟨.hbm, 233, rfl⟩
abbrev main_call0_call0_v150 : Ref sig .tc := ⟨.hbm, 234, rfl⟩
abbrev main_call0_call0_v151 : Ref sig .tc := ⟨.hbm, 235, rfl⟩
abbrev main_call0_call0_c_39 : Ref sig .tc := ⟨.hbm, 236, rfl⟩
abbrev main_call0_call0_v152 : Ref sig .tc := ⟨.hbm, 237, rfl⟩
abbrev main_call0_call0_v153 : Ref sig .tc := ⟨.hbm, 238, rfl⟩
abbrev main_call0_call0_v154 : Ref sig .tc := ⟨.hbm, 239, rfl⟩
abbrev main_call0_call0_v155 : Ref sig .tc := ⟨.hbm, 240, rfl⟩
abbrev main_call0_call0_v156 : Ref sig .tc := ⟨.hbm, 241, rfl⟩
abbrev main_call0_call0_c_40 : Ref sig .tc := ⟨.hbm, 242, rfl⟩
abbrev main_call0_call0_v157 : Ref sig .tc := ⟨.hbm, 243, rfl⟩
abbrev main_call0_call0_v158 : Ref sig .tc := ⟨.hbm, 244, rfl⟩
abbrev main_call0_call0_c_41 : Ref sig .tc := ⟨.hbm, 245, rfl⟩
abbrev main_call0_call0_v159 : Ref sig .tc := ⟨.hbm, 246, rfl⟩
abbrev main_call0_call0_v160 : Ref sig .tc := ⟨.hbm, 247, rfl⟩
abbrev main_call0_call0_v161 : Ref sig .tc := ⟨.hbm, 248, rfl⟩
abbrev main_call0_call0_v162 : Ref sig .tc := ⟨.hbm, 249, rfl⟩
abbrev main_call0_call0_v163 : Ref sig .tc := ⟨.hbm, 250, rfl⟩
abbrev main_call0_call0_c_42 : Ref sig .tc := ⟨.hbm, 251, rfl⟩
abbrev main_call0_call0_v164 : Ref sig .tc := ⟨.hbm, 252, rfl⟩
abbrev main_call0_call0_v165 : Ref sig .tc := ⟨.hbm, 253, rfl⟩
abbrev main_call0_call0_c_43 : Ref sig .tc := ⟨.hbm, 254, rfl⟩
abbrev main_call0_call0_v166 : Ref sig .tc := ⟨.hbm, 255, rfl⟩
abbrev main_call0_call0_v167 : Ref sig .tc := ⟨.hbm, 256, rfl⟩
abbrev main_call0_call0_v168 : Ref sig .tc := ⟨.hbm, 257, rfl⟩
abbrev main_call0_call0_v169 : Ref sig .tc := ⟨.hbm, 258, rfl⟩
abbrev main_call0_call0_v170 : Ref sig .tc := ⟨.hbm, 259, rfl⟩
abbrev main_call0_v11_0 : Ref sig .tc := ⟨.hbm, 260, rfl⟩
abbrev main_call0_call0_v172 : Ref sig .tc := ⟨.hbm, 261, rfl⟩
abbrev main_call0_call0_v173 : Ref sig .tc := ⟨.hbm, 262, rfl⟩
abbrev main_call0_call0_c_44 : Ref sig .tc := ⟨.hbm, 263, rfl⟩
abbrev main_call0_call0_v174 : Ref sig .tc := ⟨.hbm, 264, rfl⟩
abbrev main_call0_v11_1 : Ref sig .tc := ⟨.hbm, 265, rfl⟩
abbrev main_call0_v12 : Ref sig .tc := ⟨.hbm, 266, rfl⟩
abbrev main_call0_v13 : Ref sig .tc := ⟨.hbm, 267, rfl⟩
abbrev main_v21 : Ref sig .tc := ⟨.hbm, 268, rfl⟩
abbrev main_v22 : Ref sig .tc := ⟨.hbm, 269, rfl⟩
abbrev main_v23 : Ref sig .tc := ⟨.hbm, 270, rfl⟩
abbrev main_v24 : Ref sig .tc := ⟨.hbm, 271, rfl⟩
abbrev main_v25 : Ref sig .tc := ⟨.hbm, 272, rfl⟩
abbrev main_cst_6 : Ref sig .tc := ⟨.hbm, 273, rfl⟩
abbrev main_cst_7 : Ref sig .tc := ⟨.hbm, 274, rfl⟩
abbrev main_call1_v0 : Ref sig .tc := ⟨.hbm, 275, rfl⟩
abbrev main_call1_v1 : Ref sig .tc := ⟨.hbm, 276, rfl⟩
abbrev main_call1_v2 : Ref sig .tc := ⟨.hbm, 277, rfl⟩
abbrev main_call1_v3 : Ref sig .tc := ⟨.hbm, 278, rfl⟩
abbrev main_call1_v4 : Ref sig .tc := ⟨.hbm, 279, rfl⟩
abbrev main_call1_v5 : Ref sig .tc := ⟨.hbm, 280, rfl⟩
abbrev main_call1_v6 : Ref sig .tc := ⟨.hbm, 281, rfl⟩
abbrev main_call1_v7 : Ref sig .tc := ⟨.hbm, 282, rfl⟩
abbrev main_call1_v8 : Ref sig .tc := ⟨.hbm, 283, rfl⟩
abbrev main_call1_c : Ref sig .tc := ⟨.hbm, 284, rfl⟩
abbrev main_call1_v9 : Ref sig .tc := ⟨.hbm, 285, rfl⟩
abbrev main_call1_v10 : Ref sig .tc := ⟨.hbm, 286, rfl⟩
abbrev main_call1_c_0 : Ref sig .tc := ⟨.hbm, 287, rfl⟩
abbrev main_call1_v11 : Ref sig .tc := ⟨.hbm, 288, rfl⟩
abbrev main_call1_v12 : Ref sig .tc := ⟨.hbm, 289, rfl⟩
abbrev main_call1_v13 : Ref sig .tc := ⟨.hbm, 290, rfl⟩
abbrev main_call1_v14 : Ref sig .tc := ⟨.hbm, 291, rfl⟩
abbrev main_call1_call0_v0 : Ref sig .tc := ⟨.hbm, 292, rfl⟩
abbrev main_call1_call0_c : Ref sig .tc := ⟨.hbm, 293, rfl⟩
abbrev main_call1_call0_v1 : Ref sig .tc := ⟨.hbm, 294, rfl⟩
abbrev main_call1_call0_v2 : Ref sig .tc := ⟨.hbm, 295, rfl⟩
abbrev main_call1_call0_v3 : Ref sig .tc := ⟨.hbm, 296, rfl⟩
abbrev main_call1_call0_v4 : Ref sig .tc := ⟨.hbm, 297, rfl⟩
abbrev main_call1_call0_v5 : Ref sig .tc := ⟨.hbm, 298, rfl⟩
abbrev main_call1_call0_v6 : Ref sig .tc := ⟨.hbm, 299, rfl⟩
abbrev main_call1_call0_c_0 : Ref sig .tc := ⟨.hbm, 300, rfl⟩
abbrev main_call1_call0_v7 : Ref sig .tc := ⟨.hbm, 301, rfl⟩
abbrev main_call1_call0_v8 : Ref sig .tc := ⟨.hbm, 302, rfl⟩
abbrev main_call1_call0_c_1 : Ref sig .tc := ⟨.hbm, 303, rfl⟩
abbrev main_call1_call0_v9 : Ref sig .tc := ⟨.hbm, 304, rfl⟩
abbrev main_call1_call0_v10 : Ref sig .tc := ⟨.hbm, 305, rfl⟩
abbrev main_call1_call0_v11 : Ref sig .tc := ⟨.hbm, 306, rfl⟩
abbrev main_call1_call0_v12 : Ref sig .tc := ⟨.hbm, 307, rfl⟩
abbrev main_call1_call0_v13 : Ref sig .tc := ⟨.hbm, 308, rfl⟩
abbrev main_call1_call0_c_2 : Ref sig .tc := ⟨.hbm, 309, rfl⟩
abbrev main_call1_call0_v14 : Ref sig .tc := ⟨.hbm, 310, rfl⟩
abbrev main_call1_call0_v15 : Ref sig .tc := ⟨.hbm, 311, rfl⟩
abbrev main_call1_call0_c_3 : Ref sig .tc := ⟨.hbm, 312, rfl⟩
abbrev main_call1_call0_v16 : Ref sig .tc := ⟨.hbm, 313, rfl⟩
abbrev main_call1_call0_v17 : Ref sig .tc := ⟨.hbm, 314, rfl⟩
abbrev main_call1_call0_v18 : Ref sig .tc := ⟨.hbm, 315, rfl⟩
abbrev main_call1_call0_v19 : Ref sig .tc := ⟨.hbm, 316, rfl⟩
abbrev main_call1_call0_v20 : Ref sig .tc := ⟨.hbm, 317, rfl⟩
abbrev main_call1_call0_c_4 : Ref sig .tc := ⟨.hbm, 318, rfl⟩
abbrev main_call1_call0_v21 : Ref sig .tc := ⟨.hbm, 319, rfl⟩
abbrev main_call1_call0_v22 : Ref sig .tc := ⟨.hbm, 320, rfl⟩
abbrev main_call1_call0_c_5 : Ref sig .tc := ⟨.hbm, 321, rfl⟩
abbrev main_call1_call0_v23 : Ref sig .tc := ⟨.hbm, 322, rfl⟩
abbrev main_call1_call0_v24 : Ref sig .tc := ⟨.hbm, 323, rfl⟩
abbrev main_call1_call0_v25 : Ref sig .tc := ⟨.hbm, 324, rfl⟩
abbrev main_call1_call0_v26 : Ref sig .tc := ⟨.hbm, 325, rfl⟩
abbrev main_call1_call0_v27 : Ref sig .tc := ⟨.hbm, 326, rfl⟩
abbrev main_call1_call0_c_6 : Ref sig .tc := ⟨.hbm, 327, rfl⟩
abbrev main_call1_call0_v28 : Ref sig .tc := ⟨.hbm, 328, rfl⟩
abbrev main_call1_call0_v29 : Ref sig .tc := ⟨.hbm, 329, rfl⟩
abbrev main_call1_call0_c_7 : Ref sig .tc := ⟨.hbm, 330, rfl⟩
abbrev main_call1_call0_v30 : Ref sig .tc := ⟨.hbm, 331, rfl⟩
abbrev main_call1_call0_v31 : Ref sig .tc := ⟨.hbm, 332, rfl⟩
abbrev main_call1_call0_v32 : Ref sig .tc := ⟨.hbm, 333, rfl⟩
abbrev main_call1_call0_v33 : Ref sig .tc := ⟨.hbm, 334, rfl⟩
abbrev main_call1_call0_v34 : Ref sig .tc := ⟨.hbm, 335, rfl⟩
abbrev main_call1_call0_v35 : Ref sig .tc := ⟨.hbm, 336, rfl⟩
abbrev main_call1_call0_v36 : Ref sig .tc := ⟨.hbm, 337, rfl⟩
abbrev main_call1_call0_v37 : Ref sig .tc := ⟨.hbm, 338, rfl⟩
abbrev main_call1_call0_c_8 : Ref sig .tc := ⟨.hbm, 339, rfl⟩
abbrev main_call1_call0_v38 : Ref sig .tc := ⟨.hbm, 340, rfl⟩
abbrev main_call1_call0_v39 : Ref sig .tc := ⟨.hbm, 341, rfl⟩
abbrev main_call1_call0_v40 : Ref sig .tc := ⟨.hbm, 342, rfl⟩
abbrev main_call1_call0_c_9 : Ref sig .tc := ⟨.hbm, 343, rfl⟩
abbrev main_call1_call0_v41 : Ref sig .tc := ⟨.hbm, 344, rfl⟩
abbrev main_call1_call0_v42 : Ref sig .tc := ⟨.hbm, 345, rfl⟩
abbrev main_call1_call0_c_10 : Ref sig .tc := ⟨.hbm, 346, rfl⟩
abbrev main_call1_call0_v43 : Ref sig .tc := ⟨.hbm, 347, rfl⟩
abbrev main_call1_call0_v44 : Ref sig .tc := ⟨.hbm, 348, rfl⟩
abbrev main_call1_call0_v45 : Ref sig .tc := ⟨.hbm, 349, rfl⟩
abbrev main_call1_call0_v46 : Ref sig .tc := ⟨.hbm, 350, rfl⟩
abbrev main_call1_call0_v47 : Ref sig .tc := ⟨.hbm, 351, rfl⟩
abbrev main_call1_call0_c_11 : Ref sig .tc := ⟨.hbm, 352, rfl⟩
abbrev main_call1_call0_v48 : Ref sig .tc := ⟨.hbm, 353, rfl⟩
abbrev main_call1_call0_v49 : Ref sig .tc := ⟨.hbm, 354, rfl⟩
abbrev main_call1_call0_c_12 : Ref sig .tc := ⟨.hbm, 355, rfl⟩
abbrev main_call1_call0_v50 : Ref sig .tc := ⟨.hbm, 356, rfl⟩
abbrev main_call1_call0_v51 : Ref sig .tc := ⟨.hbm, 357, rfl⟩
abbrev main_call1_call0_v52 : Ref sig .tc := ⟨.hbm, 358, rfl⟩
abbrev main_call1_call0_v53 : Ref sig .tc := ⟨.hbm, 359, rfl⟩
abbrev main_call1_call0_v54 : Ref sig .tc := ⟨.hbm, 360, rfl⟩
abbrev main_call1_call0_c_13 : Ref sig .tc := ⟨.hbm, 361, rfl⟩
abbrev main_call1_call0_v55 : Ref sig .tc := ⟨.hbm, 362, rfl⟩
abbrev main_call1_call0_v56 : Ref sig .tc := ⟨.hbm, 363, rfl⟩
abbrev main_call1_call0_c_14 : Ref sig .tc := ⟨.hbm, 364, rfl⟩
abbrev main_call1_call0_v57 : Ref sig .tc := ⟨.hbm, 365, rfl⟩
abbrev main_call1_call0_v58 : Ref sig .tc := ⟨.hbm, 366, rfl⟩
abbrev main_call1_call0_v59 : Ref sig .tc := ⟨.hbm, 367, rfl⟩
abbrev main_call1_call0_v60 : Ref sig .tc := ⟨.hbm, 368, rfl⟩
abbrev main_call1_call0_v61 : Ref sig .tc := ⟨.hbm, 369, rfl⟩
abbrev main_call1_call0_c_15 : Ref sig .tc := ⟨.hbm, 370, rfl⟩
abbrev main_call1_call0_v62 : Ref sig .tc := ⟨.hbm, 371, rfl⟩
abbrev main_call1_call0_v63 : Ref sig .tc := ⟨.hbm, 372, rfl⟩
abbrev main_call1_call0_c_16 : Ref sig .tc := ⟨.hbm, 373, rfl⟩
abbrev main_call1_call0_v64 : Ref sig .tc := ⟨.hbm, 374, rfl⟩
abbrev main_call1_call0_v65 : Ref sig .tc := ⟨.hbm, 375, rfl⟩
abbrev main_call1_call0_v66 : Ref sig .tc := ⟨.hbm, 376, rfl⟩
abbrev main_call1_call0_v67 : Ref sig .tc := ⟨.hbm, 377, rfl⟩
abbrev main_call1_call0_v68 : Ref sig .tc := ⟨.hbm, 378, rfl⟩
abbrev main_call1_call0_v69 : Ref sig .tc := ⟨.hbm, 379, rfl⟩
abbrev main_call1_call0_v70 : Ref sig .tc := ⟨.hbm, 380, rfl⟩
abbrev main_call1_call0_v71 : Ref sig .tc := ⟨.hbm, 381, rfl⟩
abbrev main_call1_call0_c_17 : Ref sig .tc := ⟨.hbm, 382, rfl⟩
abbrev main_call1_call0_v72 : Ref sig .tc := ⟨.hbm, 383, rfl⟩
abbrev main_call1_call0_v73 : Ref sig .tc := ⟨.hbm, 384, rfl⟩
abbrev main_call1_call0_v74 : Ref sig .tc := ⟨.hbm, 385, rfl⟩
abbrev main_call1_call0_c_18 : Ref sig .tc := ⟨.hbm, 386, rfl⟩
abbrev main_call1_call0_v75 : Ref sig .tc := ⟨.hbm, 387, rfl⟩
abbrev main_call1_call0_v76 : Ref sig .tc := ⟨.hbm, 388, rfl⟩
abbrev main_call1_call0_c_19 : Ref sig .tc := ⟨.hbm, 389, rfl⟩
abbrev main_call1_call0_v77 : Ref sig .tc := ⟨.hbm, 390, rfl⟩
abbrev main_call1_call0_v78 : Ref sig .tc := ⟨.hbm, 391, rfl⟩
abbrev main_call1_call0_v79 : Ref sig .tc := ⟨.hbm, 392, rfl⟩
abbrev main_call1_call0_v80 : Ref sig .tc := ⟨.hbm, 393, rfl⟩
abbrev main_call1_call0_v81 : Ref sig .tc := ⟨.hbm, 394, rfl⟩
abbrev main_call1_call0_c_20 : Ref sig .tc := ⟨.hbm, 395, rfl⟩
abbrev main_call1_call0_v82 : Ref sig .tc := ⟨.hbm, 396, rfl⟩
abbrev main_call1_call0_v83 : Ref sig .tc := ⟨.hbm, 397, rfl⟩
abbrev main_call1_call0_c_21 : Ref sig .tc := ⟨.hbm, 398, rfl⟩
abbrev main_call1_call0_v84 : Ref sig .tc := ⟨.hbm, 399, rfl⟩
abbrev main_call1_call0_v85 : Ref sig .tc := ⟨.hbm, 400, rfl⟩
abbrev main_call1_call0_v86 : Ref sig .tc := ⟨.hbm, 401, rfl⟩
abbrev main_call1_call0_v87 : Ref sig .tc := ⟨.hbm, 402, rfl⟩
abbrev main_call1_call0_v88 : Ref sig .tc := ⟨.hbm, 403, rfl⟩
abbrev main_call1_call0_c_22 : Ref sig .tc := ⟨.hbm, 404, rfl⟩
abbrev main_call1_call0_v89 : Ref sig .tc := ⟨.hbm, 405, rfl⟩
abbrev main_call1_call0_v90 : Ref sig .tc := ⟨.hbm, 406, rfl⟩
abbrev main_call1_call0_c_23 : Ref sig .tc := ⟨.hbm, 407, rfl⟩
abbrev main_call1_call0_v91 : Ref sig .tc := ⟨.hbm, 408, rfl⟩
abbrev main_call1_call0_v92 : Ref sig .tc := ⟨.hbm, 409, rfl⟩
abbrev main_call1_call0_v93 : Ref sig .tc := ⟨.hbm, 410, rfl⟩
abbrev main_call1_call0_v94 : Ref sig .tc := ⟨.hbm, 411, rfl⟩
abbrev main_call1_call0_v95 : Ref sig .tc := ⟨.hbm, 412, rfl⟩
abbrev main_call1_call0_c_24 : Ref sig .tc := ⟨.hbm, 413, rfl⟩
abbrev main_call1_call0_v96 : Ref sig .tc := ⟨.hbm, 414, rfl⟩
abbrev main_call1_call0_v97 : Ref sig .tc := ⟨.hbm, 415, rfl⟩
abbrev main_call1_call0_c_25 : Ref sig .tc := ⟨.hbm, 416, rfl⟩
abbrev main_call1_call0_v98 : Ref sig .tc := ⟨.hbm, 417, rfl⟩
abbrev main_call1_call0_v99 : Ref sig .tc := ⟨.hbm, 418, rfl⟩
abbrev main_call1_call0_v100 : Ref sig .tc := ⟨.hbm, 419, rfl⟩
abbrev main_call1_call0_v101 : Ref sig .tc := ⟨.hbm, 420, rfl⟩
abbrev main_call1_call0_v102 : Ref sig .tc := ⟨.hbm, 421, rfl⟩
abbrev main_call1_call0_v103 : Ref sig .tc := ⟨.hbm, 422, rfl⟩
abbrev main_call1_call0_v104 : Ref sig .tc := ⟨.hbm, 423, rfl⟩
abbrev main_call1_call0_v105 : Ref sig .tc := ⟨.hbm, 424, rfl⟩
abbrev main_call1_call0_c_26 : Ref sig .tc := ⟨.hbm, 425, rfl⟩
abbrev main_call1_call0_v106 : Ref sig .tc := ⟨.hbm, 426, rfl⟩
abbrev main_call1_call0_v107 : Ref sig .tc := ⟨.hbm, 427, rfl⟩
abbrev main_call1_call0_v108 : Ref sig .tc := ⟨.hbm, 428, rfl⟩
abbrev main_call1_call0_c_27 : Ref sig .tc := ⟨.hbm, 429, rfl⟩
abbrev main_call1_call0_v109 : Ref sig .tc := ⟨.hbm, 430, rfl⟩
abbrev main_call1_call0_v110 : Ref sig .tc := ⟨.hbm, 431, rfl⟩
abbrev main_call1_call0_c_28 : Ref sig .tc := ⟨.hbm, 432, rfl⟩
abbrev main_call1_call0_v111 : Ref sig .tc := ⟨.hbm, 433, rfl⟩
abbrev main_call1_call0_v112 : Ref sig .tc := ⟨.hbm, 434, rfl⟩
abbrev main_call1_call0_v113 : Ref sig .tc := ⟨.hbm, 435, rfl⟩
abbrev main_call1_call0_v114 : Ref sig .tc := ⟨.hbm, 436, rfl⟩
abbrev main_call1_call0_v115 : Ref sig .tc := ⟨.hbm, 437, rfl⟩
abbrev main_call1_call0_c_29 : Ref sig .tc := ⟨.hbm, 438, rfl⟩
abbrev main_call1_call0_v116 : Ref sig .tc := ⟨.hbm, 439, rfl⟩
abbrev main_call1_call0_v117 : Ref sig .tc := ⟨.hbm, 440, rfl⟩
abbrev main_call1_call0_c_30 : Ref sig .tc := ⟨.hbm, 441, rfl⟩
abbrev main_call1_call0_v118 : Ref sig .tc := ⟨.hbm, 442, rfl⟩
abbrev main_call1_call0_v119 : Ref sig .tc := ⟨.hbm, 443, rfl⟩
abbrev main_call1_call0_v120 : Ref sig .tc := ⟨.hbm, 444, rfl⟩
abbrev main_call1_call0_v121 : Ref sig .tc := ⟨.hbm, 445, rfl⟩
abbrev main_call1_call0_v122 : Ref sig .tc := ⟨.hbm, 446, rfl⟩
abbrev main_call1_call0_c_31 : Ref sig .tc := ⟨.hbm, 447, rfl⟩
abbrev main_call1_call0_v123 : Ref sig .tc := ⟨.hbm, 448, rfl⟩
abbrev main_call1_call0_v124 : Ref sig .tc := ⟨.hbm, 449, rfl⟩
abbrev main_call1_call0_c_32 : Ref sig .tc := ⟨.hbm, 450, rfl⟩
abbrev main_call1_call0_v125 : Ref sig .tc := ⟨.hbm, 451, rfl⟩
abbrev main_call1_call0_v126 : Ref sig .tc := ⟨.hbm, 452, rfl⟩
abbrev main_call1_call0_v127 : Ref sig .tc := ⟨.hbm, 453, rfl⟩
abbrev main_call1_call0_v128 : Ref sig .tc := ⟨.hbm, 454, rfl⟩
abbrev main_call1_call0_v129 : Ref sig .tc := ⟨.hbm, 455, rfl⟩
abbrev main_call1_call0_c_33 : Ref sig .tc := ⟨.hbm, 456, rfl⟩
abbrev main_call1_call0_v130 : Ref sig .tc := ⟨.hbm, 457, rfl⟩
abbrev main_call1_call0_v131 : Ref sig .tc := ⟨.hbm, 458, rfl⟩
abbrev main_call1_call0_c_34 : Ref sig .tc := ⟨.hbm, 459, rfl⟩
abbrev main_call1_call0_v132 : Ref sig .tc := ⟨.hbm, 460, rfl⟩
abbrev main_call1_call0_v133 : Ref sig .tc := ⟨.hbm, 461, rfl⟩
abbrev main_call1_call0_v134 : Ref sig .tc := ⟨.hbm, 462, rfl⟩
abbrev main_call1_call0_v135 : Ref sig .tc := ⟨.hbm, 463, rfl⟩
abbrev main_call1_call0_v136 : Ref sig .tc := ⟨.hbm, 464, rfl⟩
abbrev main_call1_call0_v137 : Ref sig .tc := ⟨.hbm, 465, rfl⟩
abbrev main_call1_call0_v138 : Ref sig .tc := ⟨.hbm, 466, rfl⟩
abbrev main_call1_call0_v139 : Ref sig .tc := ⟨.hbm, 467, rfl⟩
abbrev main_call1_call0_c_35 : Ref sig .tc := ⟨.hbm, 468, rfl⟩
abbrev main_call1_call0_v140 : Ref sig .tc := ⟨.hbm, 469, rfl⟩
abbrev main_call1_call0_v141 : Ref sig .tc := ⟨.hbm, 470, rfl⟩
abbrev main_call1_call0_v142 : Ref sig .tc := ⟨.hbm, 471, rfl⟩
abbrev main_call1_call0_c_36 : Ref sig .tc := ⟨.hbm, 472, rfl⟩
abbrev main_call1_call0_v143 : Ref sig .tc := ⟨.hbm, 473, rfl⟩
abbrev main_call1_call0_v144 : Ref sig .tc := ⟨.hbm, 474, rfl⟩
abbrev main_call1_call0_c_37 : Ref sig .tc := ⟨.hbm, 475, rfl⟩
abbrev main_call1_call0_v145 : Ref sig .tc := ⟨.hbm, 476, rfl⟩
abbrev main_call1_call0_v146 : Ref sig .tc := ⟨.hbm, 477, rfl⟩
abbrev main_call1_call0_v147 : Ref sig .tc := ⟨.hbm, 478, rfl⟩
abbrev main_call1_call0_v148 : Ref sig .tc := ⟨.hbm, 479, rfl⟩
abbrev main_call1_call0_v149 : Ref sig .tc := ⟨.hbm, 480, rfl⟩
abbrev main_call1_call0_c_38 : Ref sig .tc := ⟨.hbm, 481, rfl⟩
abbrev main_call1_call0_v150 : Ref sig .tc := ⟨.hbm, 482, rfl⟩
abbrev main_call1_call0_v151 : Ref sig .tc := ⟨.hbm, 483, rfl⟩
abbrev main_call1_call0_c_39 : Ref sig .tc := ⟨.hbm, 484, rfl⟩
abbrev main_call1_call0_v152 : Ref sig .tc := ⟨.hbm, 485, rfl⟩
abbrev main_call1_call0_v153 : Ref sig .tc := ⟨.hbm, 486, rfl⟩
abbrev main_call1_call0_v154 : Ref sig .tc := ⟨.hbm, 487, rfl⟩
abbrev main_call1_call0_v155 : Ref sig .tc := ⟨.hbm, 488, rfl⟩
abbrev main_call1_call0_v156 : Ref sig .tc := ⟨.hbm, 489, rfl⟩
abbrev main_call1_call0_c_40 : Ref sig .tc := ⟨.hbm, 490, rfl⟩
abbrev main_call1_call0_v157 : Ref sig .tc := ⟨.hbm, 491, rfl⟩
abbrev main_call1_call0_v158 : Ref sig .tc := ⟨.hbm, 492, rfl⟩
abbrev main_call1_call0_c_41 : Ref sig .tc := ⟨.hbm, 493, rfl⟩
abbrev main_call1_call0_v159 : Ref sig .tc := ⟨.hbm, 494, rfl⟩
abbrev main_call1_call0_v160 : Ref sig .tc := ⟨.hbm, 495, rfl⟩
abbrev main_call1_call0_v161 : Ref sig .tc := ⟨.hbm, 496, rfl⟩
abbrev main_call1_call0_v162 : Ref sig .tc := ⟨.hbm, 497, rfl⟩
abbrev main_call1_call0_v163 : Ref sig .tc := ⟨.hbm, 498, rfl⟩
abbrev main_call1_call0_c_42 : Ref sig .tc := ⟨.hbm, 499, rfl⟩
abbrev main_call1_call0_v164 : Ref sig .tc := ⟨.hbm, 500, rfl⟩
abbrev main_call1_call0_v165 : Ref sig .tc := ⟨.hbm, 501, rfl⟩
abbrev main_call1_call0_c_43 : Ref sig .tc := ⟨.hbm, 502, rfl⟩
abbrev main_call1_call0_v166 : Ref sig .tc := ⟨.hbm, 503, rfl⟩
abbrev main_call1_call0_v167 : Ref sig .tc := ⟨.hbm, 504, rfl⟩
abbrev main_call1_call0_v168 : Ref sig .tc := ⟨.hbm, 505, rfl⟩
abbrev main_call1_call0_v169 : Ref sig .tc := ⟨.hbm, 506, rfl⟩
abbrev main_call1_call0_v170 : Ref sig .tc := ⟨.hbm, 507, rfl⟩
abbrev main_call1_v15_0 : Ref sig .tc := ⟨.hbm, 508, rfl⟩
abbrev main_call1_call0_v172 : Ref sig .tc := ⟨.hbm, 509, rfl⟩
abbrev main_call1_call0_v173 : Ref sig .tc := ⟨.hbm, 510, rfl⟩
abbrev main_call1_call0_c_44 : Ref sig .tc := ⟨.hbm, 511, rfl⟩
abbrev main_call1_call0_v174 : Ref sig .tc := ⟨.hbm, 512, rfl⟩
abbrev main_call1_v15_1 : Ref sig .tc := ⟨.hbm, 513, rfl⟩
abbrev main_call1_v16 : Ref sig .tc := ⟨.hbm, 514, rfl⟩
abbrev main_call1_c_1 : Ref sig .tc := ⟨.hbm, 515, rfl⟩
abbrev main_call1_v17 : Ref sig .tc := ⟨.hbm, 516, rfl⟩
abbrev main_call1_v18 : Ref sig .tc := ⟨.hbm, 517, rfl⟩
abbrev main_call1_c_2 : Ref sig .tc := ⟨.hbm, 518, rfl⟩
abbrev main_call1_v19 : Ref sig .tc := ⟨.hbm, 519, rfl⟩
abbrev main_call1_v20 : Ref sig .tc := ⟨.hbm, 520, rfl⟩
abbrev main_call1_v21 : Ref sig .tc := ⟨.hbm, 521, rfl⟩
abbrev main_call1_cst : Ref sig .tc := ⟨.hbm, 522, rfl⟩
abbrev main_call1_v22 : Ref sig .tc := ⟨.hbm, 523, rfl⟩
abbrev main_call1_v23 : Ref sig .tc := ⟨.hbm, 524, rfl⟩
abbrev main_call1_v24 : Ref sig .tc := ⟨.hbm, 525, rfl⟩
abbrev main_call1_v25 : Ref sig .tc := ⟨.hbm, 526, rfl⟩
abbrev main_call1_v26 : Ref sig .tc := ⟨.hbm, 527, rfl⟩
abbrev main_call1_v27 : Ref sig .tc := ⟨.hbm, 528, rfl⟩
abbrev main_call1_v28 : Ref sig .tc := ⟨.hbm, 529, rfl⟩
abbrev main_call1_v29 : Ref sig .tc := ⟨.hbm, 530, rfl⟩
abbrev main_v26 : Ref sig .tc := ⟨.hbm, 531, rfl⟩
abbrev main_v27 : Ref sig .tc := ⟨.hbm, 532, rfl⟩
abbrev main_v28 : Ref sig .tc := ⟨.hbm, 533, rfl⟩
abbrev main_cst_8 : Ref sig .tc := ⟨.hbm, 534, rfl⟩
abbrev main_v29 : Ref sig .tc := ⟨.hbm, 535, rfl⟩
abbrev main_v30 : Ref sig .tc := ⟨.hbm, 536, rfl⟩
abbrev main_cst_9 : Ref sig .tc := ⟨.hbm, 537, rfl⟩
abbrev main_v31 : Ref sig .tc := ⟨.hbm, 538, rfl⟩
abbrev main_v32 : Ref sig .tc := ⟨.hbm, 539, rfl⟩
abbrev main_v33 : Ref sig .tc := ⟨.hbm, 540, rfl⟩
abbrev main_v34 : Ref sig .tc := ⟨.hbm, 541, rfl⟩
abbrev main_v35 : Ref sig .tc := ⟨.hbm, 542, rfl⟩
abbrev main_v36 : Ref sig .tc := ⟨.hbm, 543, rfl⟩
abbrev main_v37 : Ref sig .tc := ⟨.hbm, 544, rfl⟩
abbrev main_v38 : Ref sig .tc := ⟨.hbm, 545, rfl⟩
abbrev main_cst_10 : Ref sig .tc := ⟨.hbm, 546, rfl⟩
abbrev main_v39 : Ref sig .tc := ⟨.hbm, 547, rfl⟩
abbrev main_v40 : Ref sig .tc := ⟨.hbm, 548, rfl⟩
abbrev main_v41 : Ref sig .tc := ⟨.hbm, 549, rfl⟩
abbrev main_v42 : Ref sig .tc := ⟨.hbm, 550, rfl⟩
abbrev main_v43 : Ref sig .tc := ⟨.hbm, 551, rfl⟩
abbrev main_v44 : Ref sig .tc := ⟨.hbm, 552, rfl⟩
abbrev main_cst_11 : Ref sig .tc := ⟨.hbm, 553, rfl⟩
abbrev main_v45 : Ref sig .tc := ⟨.hbm, 554, rfl⟩
abbrev main_c_12 : Ref sig .tc := ⟨.hbm, 555, rfl⟩
abbrev main_v46 : Ref sig .tc := ⟨.hbm, 556, rfl⟩
abbrev main_cst_13 : Ref sig .tc := ⟨.hbm, 557, rfl⟩
abbrev main_v47 : Ref sig .tc := ⟨.hbm, 558, rfl⟩
abbrev main_v48 : Ref sig .tc := ⟨.hbm, 559, rfl⟩
abbrev main_cst_14 : Ref sig .tc := ⟨.hbm, 560, rfl⟩
abbrev main_v49 : Ref sig .tc := ⟨.hbm, 561, rfl⟩
abbrev main_v50 : Ref sig .tc := ⟨.hbm, 562, rfl⟩
abbrev main_v51 : Ref sig .tc := ⟨.hbm, 563, rfl⟩
abbrev main_cst_15 : Ref sig .tc := ⟨.hbm, 564, rfl⟩
abbrev main_v52 : Ref sig .tc := ⟨.hbm, 565, rfl⟩
abbrev main_v53 : Ref sig .tc := ⟨.hbm, 566, rfl⟩
abbrev main_v54 : Ref sig .tc := ⟨.hbm, 567, rfl⟩
abbrev main_v55 : Ref sig .tc := ⟨.hbm, 568, rfl⟩
abbrev main_v56 : Ref sig .tc := ⟨.hbm, 569, rfl⟩
abbrev main_v57 : Ref sig .tc := ⟨.hbm, 570, rfl⟩
abbrev main_call2_v0 : Ref sig .tc := ⟨.hbm, 571, rfl⟩
abbrev main_call2_v1 : Ref sig .tc := ⟨.hbm, 572, rfl⟩
abbrev main_call2_v2 : Ref sig .tc := ⟨.hbm, 573, rfl⟩
abbrev main_call2_v3 : Ref sig .tc := ⟨.hbm, 574, rfl⟩
abbrev main_call2_v4 : Ref sig .tc := ⟨.hbm, 575, rfl⟩
abbrev main_call2_c : Ref sig .tc := ⟨.hbm, 576, rfl⟩
abbrev main_call2_v5 : Ref sig .tc := ⟨.hbm, 577, rfl⟩
abbrev main_call2_v6 : Ref sig .tc := ⟨.hbm, 578, rfl⟩
abbrev main_call2_c_0 : Ref sig .tc := ⟨.hbm, 579, rfl⟩
abbrev main_call2_v7 : Ref sig .tc := ⟨.hbm, 580, rfl⟩
abbrev main_call2_v8 : Ref sig .tc := ⟨.hbm, 581, rfl⟩
abbrev main_call2_v9 : Ref sig .tc := ⟨.hbm, 582, rfl⟩
abbrev main_call2_v10 : Ref sig .tc := ⟨.hbm, 583, rfl⟩
abbrev main_call2_call0_v0 : Ref sig .tc := ⟨.hbm, 584, rfl⟩
abbrev main_call2_call0_c : Ref sig .tc := ⟨.hbm, 585, rfl⟩
abbrev main_call2_call0_v1 : Ref sig .tc := ⟨.hbm, 586, rfl⟩
abbrev main_call2_call0_v2 : Ref sig .tc := ⟨.hbm, 587, rfl⟩
abbrev main_call2_call0_v3 : Ref sig .tc := ⟨.hbm, 588, rfl⟩
abbrev main_call2_call0_v4 : Ref sig .tc := ⟨.hbm, 589, rfl⟩
abbrev main_call2_call0_v5 : Ref sig .tc := ⟨.hbm, 590, rfl⟩
abbrev main_call2_call0_v6 : Ref sig .tc := ⟨.hbm, 591, rfl⟩
abbrev main_call2_call0_c_0 : Ref sig .tc := ⟨.hbm, 592, rfl⟩
abbrev main_call2_call0_v7 : Ref sig .tc := ⟨.hbm, 593, rfl⟩
abbrev main_call2_call0_v8 : Ref sig .tc := ⟨.hbm, 594, rfl⟩
abbrev main_call2_call0_c_1 : Ref sig .tc := ⟨.hbm, 595, rfl⟩
abbrev main_call2_call0_v9 : Ref sig .tc := ⟨.hbm, 596, rfl⟩
abbrev main_call2_call0_v10 : Ref sig .tc := ⟨.hbm, 597, rfl⟩
abbrev main_call2_call0_v11 : Ref sig .tc := ⟨.hbm, 598, rfl⟩
abbrev main_call2_call0_v12 : Ref sig .tc := ⟨.hbm, 599, rfl⟩
abbrev main_call2_call0_v13 : Ref sig .tc := ⟨.hbm, 600, rfl⟩
abbrev main_call2_call0_c_2 : Ref sig .tc := ⟨.hbm, 601, rfl⟩
abbrev main_call2_call0_v14 : Ref sig .tc := ⟨.hbm, 602, rfl⟩
abbrev main_call2_call0_v15 : Ref sig .tc := ⟨.hbm, 603, rfl⟩
abbrev main_call2_call0_c_3 : Ref sig .tc := ⟨.hbm, 604, rfl⟩
abbrev main_call2_call0_v16 : Ref sig .tc := ⟨.hbm, 605, rfl⟩
abbrev main_call2_call0_v17 : Ref sig .tc := ⟨.hbm, 606, rfl⟩
abbrev main_call2_call0_v18 : Ref sig .tc := ⟨.hbm, 607, rfl⟩
abbrev main_call2_call0_v19 : Ref sig .tc := ⟨.hbm, 608, rfl⟩
abbrev main_call2_call0_v20 : Ref sig .tc := ⟨.hbm, 609, rfl⟩
abbrev main_call2_call0_c_4 : Ref sig .tc := ⟨.hbm, 610, rfl⟩
abbrev main_call2_call0_v21 : Ref sig .tc := ⟨.hbm, 611, rfl⟩
abbrev main_call2_call0_v22 : Ref sig .tc := ⟨.hbm, 612, rfl⟩
abbrev main_call2_call0_c_5 : Ref sig .tc := ⟨.hbm, 613, rfl⟩
abbrev main_call2_call0_v23 : Ref sig .tc := ⟨.hbm, 614, rfl⟩
abbrev main_call2_call0_v24 : Ref sig .tc := ⟨.hbm, 615, rfl⟩
abbrev main_call2_call0_v25 : Ref sig .tc := ⟨.hbm, 616, rfl⟩
abbrev main_call2_call0_v26 : Ref sig .tc := ⟨.hbm, 617, rfl⟩
abbrev main_call2_call0_v27 : Ref sig .tc := ⟨.hbm, 618, rfl⟩
abbrev main_call2_call0_c_6 : Ref sig .tc := ⟨.hbm, 619, rfl⟩
abbrev main_call2_call0_v28 : Ref sig .tc := ⟨.hbm, 620, rfl⟩
abbrev main_call2_call0_v29 : Ref sig .tc := ⟨.hbm, 621, rfl⟩
abbrev main_call2_call0_c_7 : Ref sig .tc := ⟨.hbm, 622, rfl⟩
abbrev main_call2_call0_v30 : Ref sig .tc := ⟨.hbm, 623, rfl⟩
abbrev main_call2_call0_v31 : Ref sig .tc := ⟨.hbm, 624, rfl⟩
abbrev main_call2_call0_v32 : Ref sig .tc := ⟨.hbm, 625, rfl⟩
abbrev main_call2_call0_v33 : Ref sig .tc := ⟨.hbm, 626, rfl⟩
abbrev main_call2_call0_v34 : Ref sig .tc := ⟨.hbm, 627, rfl⟩
abbrev main_call2_call0_v35 : Ref sig .tc := ⟨.hbm, 628, rfl⟩
abbrev main_call2_call0_v36 : Ref sig .tc := ⟨.hbm, 629, rfl⟩
abbrev main_call2_call0_v37 : Ref sig .tc := ⟨.hbm, 630, rfl⟩
abbrev main_call2_call0_c_8 : Ref sig .tc := ⟨.hbm, 631, rfl⟩
abbrev main_call2_call0_v38 : Ref sig .tc := ⟨.hbm, 632, rfl⟩
abbrev main_call2_call0_v39 : Ref sig .tc := ⟨.hbm, 633, rfl⟩
abbrev main_call2_call0_v40 : Ref sig .tc := ⟨.hbm, 634, rfl⟩
abbrev main_call2_call0_c_9 : Ref sig .tc := ⟨.hbm, 635, rfl⟩
abbrev main_call2_call0_v41 : Ref sig .tc := ⟨.hbm, 636, rfl⟩
abbrev main_call2_call0_v42 : Ref sig .tc := ⟨.hbm, 637, rfl⟩
abbrev main_call2_call0_c_10 : Ref sig .tc := ⟨.hbm, 638, rfl⟩
abbrev main_call2_call0_v43 : Ref sig .tc := ⟨.hbm, 639, rfl⟩
abbrev main_call2_call0_v44 : Ref sig .tc := ⟨.hbm, 640, rfl⟩
abbrev main_call2_call0_v45 : Ref sig .tc := ⟨.hbm, 641, rfl⟩
abbrev main_call2_call0_v46 : Ref sig .tc := ⟨.hbm, 642, rfl⟩
abbrev main_call2_call0_v47 : Ref sig .tc := ⟨.hbm, 643, rfl⟩
abbrev main_call2_call0_c_11 : Ref sig .tc := ⟨.hbm, 644, rfl⟩
abbrev main_call2_call0_v48 : Ref sig .tc := ⟨.hbm, 645, rfl⟩
abbrev main_call2_call0_v49 : Ref sig .tc := ⟨.hbm, 646, rfl⟩
abbrev main_call2_call0_c_12 : Ref sig .tc := ⟨.hbm, 647, rfl⟩
abbrev main_call2_call0_v50 : Ref sig .tc := ⟨.hbm, 648, rfl⟩
abbrev main_call2_call0_v51 : Ref sig .tc := ⟨.hbm, 649, rfl⟩
abbrev main_call2_call0_v52 : Ref sig .tc := ⟨.hbm, 650, rfl⟩
abbrev main_call2_call0_v53 : Ref sig .tc := ⟨.hbm, 651, rfl⟩
abbrev main_call2_call0_v54 : Ref sig .tc := ⟨.hbm, 652, rfl⟩
abbrev main_call2_call0_c_13 : Ref sig .tc := ⟨.hbm, 653, rfl⟩
abbrev main_call2_call0_v55 : Ref sig .tc := ⟨.hbm, 654, rfl⟩
abbrev main_call2_call0_v56 : Ref sig .tc := ⟨.hbm, 655, rfl⟩
abbrev main_call2_call0_c_14 : Ref sig .tc := ⟨.hbm, 656, rfl⟩
abbrev main_call2_call0_v57 : Ref sig .tc := ⟨.hbm, 657, rfl⟩
abbrev main_call2_call0_v58 : Ref sig .tc := ⟨.hbm, 658, rfl⟩
abbrev main_call2_call0_v59 : Ref sig .tc := ⟨.hbm, 659, rfl⟩
abbrev main_call2_call0_v60 : Ref sig .tc := ⟨.hbm, 660, rfl⟩
abbrev main_call2_call0_v61 : Ref sig .tc := ⟨.hbm, 661, rfl⟩
abbrev main_call2_call0_c_15 : Ref sig .tc := ⟨.hbm, 662, rfl⟩
abbrev main_call2_call0_v62 : Ref sig .tc := ⟨.hbm, 663, rfl⟩
abbrev main_call2_call0_v63 : Ref sig .tc := ⟨.hbm, 664, rfl⟩
abbrev main_call2_call0_c_16 : Ref sig .tc := ⟨.hbm, 665, rfl⟩
abbrev main_call2_call0_v64 : Ref sig .tc := ⟨.hbm, 666, rfl⟩
abbrev main_call2_call0_v65 : Ref sig .tc := ⟨.hbm, 667, rfl⟩
abbrev main_call2_call0_v66 : Ref sig .tc := ⟨.hbm, 668, rfl⟩
abbrev main_call2_call0_v67 : Ref sig .tc := ⟨.hbm, 669, rfl⟩
abbrev main_call2_call0_v68 : Ref sig .tc := ⟨.hbm, 670, rfl⟩
abbrev main_call2_call0_v69 : Ref sig .tc := ⟨.hbm, 671, rfl⟩
abbrev main_call2_call0_v70 : Ref sig .tc := ⟨.hbm, 672, rfl⟩
abbrev main_call2_call0_v71 : Ref sig .tc := ⟨.hbm, 673, rfl⟩
abbrev main_call2_call0_c_17 : Ref sig .tc := ⟨.hbm, 674, rfl⟩
abbrev main_call2_call0_v72 : Ref sig .tc := ⟨.hbm, 675, rfl⟩
abbrev main_call2_call0_v73 : Ref sig .tc := ⟨.hbm, 676, rfl⟩
abbrev main_call2_call0_v74 : Ref sig .tc := ⟨.hbm, 677, rfl⟩
abbrev main_call2_call0_c_18 : Ref sig .tc := ⟨.hbm, 678, rfl⟩
abbrev main_call2_call0_v75 : Ref sig .tc := ⟨.hbm, 679, rfl⟩
abbrev main_call2_call0_v76 : Ref sig .tc := ⟨.hbm, 680, rfl⟩
abbrev main_call2_call0_c_19 : Ref sig .tc := ⟨.hbm, 681, rfl⟩
abbrev main_call2_call0_v77 : Ref sig .tc := ⟨.hbm, 682, rfl⟩
abbrev main_call2_call0_v78 : Ref sig .tc := ⟨.hbm, 683, rfl⟩
abbrev main_call2_call0_v79 : Ref sig .tc := ⟨.hbm, 684, rfl⟩
abbrev main_call2_call0_v80 : Ref sig .tc := ⟨.hbm, 685, rfl⟩
abbrev main_call2_call0_v81 : Ref sig .tc := ⟨.hbm, 686, rfl⟩
abbrev main_call2_call0_c_20 : Ref sig .tc := ⟨.hbm, 687, rfl⟩
abbrev main_call2_call0_v82 : Ref sig .tc := ⟨.hbm, 688, rfl⟩
abbrev main_call2_call0_v83 : Ref sig .tc := ⟨.hbm, 689, rfl⟩
abbrev main_call2_call0_c_21 : Ref sig .tc := ⟨.hbm, 690, rfl⟩
abbrev main_call2_call0_v84 : Ref sig .tc := ⟨.hbm, 691, rfl⟩
abbrev main_call2_call0_v85 : Ref sig .tc := ⟨.hbm, 692, rfl⟩
abbrev main_call2_call0_v86 : Ref sig .tc := ⟨.hbm, 693, rfl⟩
abbrev main_call2_call0_v87 : Ref sig .tc := ⟨.hbm, 694, rfl⟩
abbrev main_call2_call0_v88 : Ref sig .tc := ⟨.hbm, 695, rfl⟩
abbrev main_call2_call0_c_22 : Ref sig .tc := ⟨.hbm, 696, rfl⟩
abbrev main_call2_call0_v89 : Ref sig .tc := ⟨.hbm, 697, rfl⟩
abbrev main_call2_call0_v90 : Ref sig .tc := ⟨.hbm, 698, rfl⟩
abbrev main_call2_call0_c_23 : Ref sig .tc := ⟨.hbm, 699, rfl⟩
abbrev main_call2_call0_v91 : Ref sig .tc := ⟨.hbm, 700, rfl⟩
abbrev main_call2_call0_v92 : Ref sig .tc := ⟨.hbm, 701, rfl⟩
abbrev main_call2_call0_v93 : Ref sig .tc := ⟨.hbm, 702, rfl⟩
abbrev main_call2_call0_v94 : Ref sig .tc := ⟨.hbm, 703, rfl⟩
abbrev main_call2_call0_v95 : Ref sig .tc := ⟨.hbm, 704, rfl⟩
abbrev main_call2_call0_c_24 : Ref sig .tc := ⟨.hbm, 705, rfl⟩
abbrev main_call2_call0_v96 : Ref sig .tc := ⟨.hbm, 706, rfl⟩
abbrev main_call2_call0_v97 : Ref sig .tc := ⟨.hbm, 707, rfl⟩
abbrev main_call2_call0_c_25 : Ref sig .tc := ⟨.hbm, 708, rfl⟩
abbrev main_call2_call0_v98 : Ref sig .tc := ⟨.hbm, 709, rfl⟩
abbrev main_call2_call0_v99 : Ref sig .tc := ⟨.hbm, 710, rfl⟩
abbrev main_call2_call0_v100 : Ref sig .tc := ⟨.hbm, 711, rfl⟩
abbrev main_call2_call0_v101 : Ref sig .tc := ⟨.hbm, 712, rfl⟩
abbrev main_call2_call0_v102 : Ref sig .tc := ⟨.hbm, 713, rfl⟩
abbrev main_call2_call0_v103 : Ref sig .tc := ⟨.hbm, 714, rfl⟩
abbrev main_call2_call0_v104 : Ref sig .tc := ⟨.hbm, 715, rfl⟩
abbrev main_call2_call0_v105 : Ref sig .tc := ⟨.hbm, 716, rfl⟩
abbrev main_call2_call0_c_26 : Ref sig .tc := ⟨.hbm, 717, rfl⟩
abbrev main_call2_call0_v106 : Ref sig .tc := ⟨.hbm, 718, rfl⟩
abbrev main_call2_call0_v107 : Ref sig .tc := ⟨.hbm, 719, rfl⟩
abbrev main_call2_call0_v108 : Ref sig .tc := ⟨.hbm, 720, rfl⟩
abbrev main_call2_call0_c_27 : Ref sig .tc := ⟨.hbm, 721, rfl⟩
abbrev main_call2_call0_v109 : Ref sig .tc := ⟨.hbm, 722, rfl⟩
abbrev main_call2_call0_v110 : Ref sig .tc := ⟨.hbm, 723, rfl⟩
abbrev main_call2_call0_c_28 : Ref sig .tc := ⟨.hbm, 724, rfl⟩
abbrev main_call2_call0_v111 : Ref sig .tc := ⟨.hbm, 725, rfl⟩
abbrev main_call2_call0_v112 : Ref sig .tc := ⟨.hbm, 726, rfl⟩
abbrev main_call2_call0_v113 : Ref sig .tc := ⟨.hbm, 727, rfl⟩
abbrev main_call2_call0_v114 : Ref sig .tc := ⟨.hbm, 728, rfl⟩
abbrev main_call2_call0_v115 : Ref sig .tc := ⟨.hbm, 729, rfl⟩
abbrev main_call2_call0_c_29 : Ref sig .tc := ⟨.hbm, 730, rfl⟩
abbrev main_call2_call0_v116 : Ref sig .tc := ⟨.hbm, 731, rfl⟩
abbrev main_call2_call0_v117 : Ref sig .tc := ⟨.hbm, 732, rfl⟩
abbrev main_call2_call0_c_30 : Ref sig .tc := ⟨.hbm, 733, rfl⟩
abbrev main_call2_call0_v118 : Ref sig .tc := ⟨.hbm, 734, rfl⟩
abbrev main_call2_call0_v119 : Ref sig .tc := ⟨.hbm, 735, rfl⟩
abbrev main_call2_call0_v120 : Ref sig .tc := ⟨.hbm, 736, rfl⟩
abbrev main_call2_call0_v121 : Ref sig .tc := ⟨.hbm, 737, rfl⟩
abbrev main_call2_call0_v122 : Ref sig .tc := ⟨.hbm, 738, rfl⟩
abbrev main_call2_call0_c_31 : Ref sig .tc := ⟨.hbm, 739, rfl⟩
abbrev main_call2_call0_v123 : Ref sig .tc := ⟨.hbm, 740, rfl⟩
abbrev main_call2_call0_v124 : Ref sig .tc := ⟨.hbm, 741, rfl⟩
abbrev main_call2_call0_c_32 : Ref sig .tc := ⟨.hbm, 742, rfl⟩
abbrev main_call2_call0_v125 : Ref sig .tc := ⟨.hbm, 743, rfl⟩
abbrev main_call2_call0_v126 : Ref sig .tc := ⟨.hbm, 744, rfl⟩
abbrev main_call2_call0_v127 : Ref sig .tc := ⟨.hbm, 745, rfl⟩
abbrev main_call2_call0_v128 : Ref sig .tc := ⟨.hbm, 746, rfl⟩
abbrev main_call2_call0_v129 : Ref sig .tc := ⟨.hbm, 747, rfl⟩
abbrev main_call2_call0_c_33 : Ref sig .tc := ⟨.hbm, 748, rfl⟩
abbrev main_call2_call0_v130 : Ref sig .tc := ⟨.hbm, 749, rfl⟩
abbrev main_call2_call0_v131 : Ref sig .tc := ⟨.hbm, 750, rfl⟩
abbrev main_call2_call0_c_34 : Ref sig .tc := ⟨.hbm, 751, rfl⟩
abbrev main_call2_call0_v132 : Ref sig .tc := ⟨.hbm, 752, rfl⟩
abbrev main_call2_call0_v133 : Ref sig .tc := ⟨.hbm, 753, rfl⟩
abbrev main_call2_call0_v134 : Ref sig .tc := ⟨.hbm, 754, rfl⟩
abbrev main_call2_call0_v135 : Ref sig .tc := ⟨.hbm, 755, rfl⟩
abbrev main_call2_call0_v136 : Ref sig .tc := ⟨.hbm, 756, rfl⟩
abbrev main_call2_call0_v137 : Ref sig .tc := ⟨.hbm, 757, rfl⟩
abbrev main_call2_call0_v138 : Ref sig .tc := ⟨.hbm, 758, rfl⟩
abbrev main_call2_call0_v139 : Ref sig .tc := ⟨.hbm, 759, rfl⟩
abbrev main_call2_call0_c_35 : Ref sig .tc := ⟨.hbm, 760, rfl⟩
abbrev main_call2_call0_v140 : Ref sig .tc := ⟨.hbm, 761, rfl⟩
abbrev main_call2_call0_v141 : Ref sig .tc := ⟨.hbm, 762, rfl⟩
abbrev main_call2_call0_v142 : Ref sig .tc := ⟨.hbm, 763, rfl⟩
abbrev main_call2_call0_c_36 : Ref sig .tc := ⟨.hbm, 764, rfl⟩
abbrev main_call2_call0_v143 : Ref sig .tc := ⟨.hbm, 765, rfl⟩
abbrev main_call2_call0_v144 : Ref sig .tc := ⟨.hbm, 766, rfl⟩
abbrev main_call2_call0_c_37 : Ref sig .tc := ⟨.hbm, 767, rfl⟩
abbrev main_call2_call0_v145 : Ref sig .tc := ⟨.hbm, 768, rfl⟩
abbrev main_call2_call0_v146 : Ref sig .tc := ⟨.hbm, 769, rfl⟩
abbrev main_call2_call0_v147 : Ref sig .tc := ⟨.hbm, 770, rfl⟩
abbrev main_call2_call0_v148 : Ref sig .tc := ⟨.hbm, 771, rfl⟩
abbrev main_call2_call0_v149 : Ref sig .tc := ⟨.hbm, 772, rfl⟩
abbrev main_call2_call0_c_38 : Ref sig .tc := ⟨.hbm, 773, rfl⟩
abbrev main_call2_call0_v150 : Ref sig .tc := ⟨.hbm, 774, rfl⟩
abbrev main_call2_call0_v151 : Ref sig .tc := ⟨.hbm, 775, rfl⟩
abbrev main_call2_call0_c_39 : Ref sig .tc := ⟨.hbm, 776, rfl⟩
abbrev main_call2_call0_v152 : Ref sig .tc := ⟨.hbm, 777, rfl⟩
abbrev main_call2_call0_v153 : Ref sig .tc := ⟨.hbm, 778, rfl⟩
abbrev main_call2_call0_v154 : Ref sig .tc := ⟨.hbm, 779, rfl⟩
abbrev main_call2_call0_v155 : Ref sig .tc := ⟨.hbm, 780, rfl⟩
abbrev main_call2_call0_v156 : Ref sig .tc := ⟨.hbm, 781, rfl⟩
abbrev main_call2_call0_c_40 : Ref sig .tc := ⟨.hbm, 782, rfl⟩
abbrev main_call2_call0_v157 : Ref sig .tc := ⟨.hbm, 783, rfl⟩
abbrev main_call2_call0_v158 : Ref sig .tc := ⟨.hbm, 784, rfl⟩
abbrev main_call2_call0_c_41 : Ref sig .tc := ⟨.hbm, 785, rfl⟩
abbrev main_call2_call0_v159 : Ref sig .tc := ⟨.hbm, 786, rfl⟩
abbrev main_call2_call0_v160 : Ref sig .tc := ⟨.hbm, 787, rfl⟩
abbrev main_call2_call0_v161 : Ref sig .tc := ⟨.hbm, 788, rfl⟩
abbrev main_call2_call0_v162 : Ref sig .tc := ⟨.hbm, 789, rfl⟩
abbrev main_call2_call0_v163 : Ref sig .tc := ⟨.hbm, 790, rfl⟩
abbrev main_call2_call0_c_42 : Ref sig .tc := ⟨.hbm, 791, rfl⟩
abbrev main_call2_call0_v164 : Ref sig .tc := ⟨.hbm, 792, rfl⟩
abbrev main_call2_call0_v165 : Ref sig .tc := ⟨.hbm, 793, rfl⟩
abbrev main_call2_call0_c_43 : Ref sig .tc := ⟨.hbm, 794, rfl⟩
abbrev main_call2_call0_v166 : Ref sig .tc := ⟨.hbm, 795, rfl⟩
abbrev main_call2_call0_v167 : Ref sig .tc := ⟨.hbm, 796, rfl⟩
abbrev main_call2_call0_v168 : Ref sig .tc := ⟨.hbm, 797, rfl⟩
abbrev main_call2_call0_v169 : Ref sig .tc := ⟨.hbm, 798, rfl⟩
abbrev main_call2_call0_v170 : Ref sig .tc := ⟨.hbm, 799, rfl⟩
abbrev main_call2_v11_0 : Ref sig .tc := ⟨.hbm, 800, rfl⟩
abbrev main_call2_call0_v172 : Ref sig .tc := ⟨.hbm, 801, rfl⟩
abbrev main_call2_call0_v173 : Ref sig .tc := ⟨.hbm, 802, rfl⟩
abbrev main_call2_call0_c_44 : Ref sig .tc := ⟨.hbm, 803, rfl⟩
abbrev main_call2_call0_v174 : Ref sig .tc := ⟨.hbm, 804, rfl⟩
abbrev main_call2_v11_1 : Ref sig .tc := ⟨.hbm, 805, rfl⟩
abbrev main_call2_v12 : Ref sig .tc := ⟨.hbm, 806, rfl⟩
abbrev main_call2_v13 : Ref sig .tc := ⟨.hbm, 807, rfl⟩
abbrev main_v58 : Ref sig .tc := ⟨.hbm, 808, rfl⟩
abbrev main_v59 : Ref sig .tc := ⟨.hbm, 809, rfl⟩
abbrev main_v60 : Ref sig .tc := ⟨.hbm, 810, rfl⟩
abbrev main_v61 : Ref sig .tc := ⟨.hbm, 811, rfl⟩
abbrev main_v62 : Ref sig .tc := ⟨.hbm, 812, rfl⟩
abbrev main_cst_16 : Ref sig .tc := ⟨.hbm, 813, rfl⟩
abbrev main_cst_17 : Ref sig .tc := ⟨.hbm, 814, rfl⟩
abbrev main_call3_v0 : Ref sig .tc := ⟨.hbm, 815, rfl⟩
abbrev main_call3_v1 : Ref sig .tc := ⟨.hbm, 816, rfl⟩
abbrev main_call3_v2 : Ref sig .tc := ⟨.hbm, 817, rfl⟩
abbrev main_call3_v3 : Ref sig .tc := ⟨.hbm, 818, rfl⟩
abbrev main_call3_v4 : Ref sig .tc := ⟨.hbm, 819, rfl⟩
abbrev main_call3_v5 : Ref sig .tc := ⟨.hbm, 820, rfl⟩
abbrev main_call3_v6 : Ref sig .tc := ⟨.hbm, 821, rfl⟩
abbrev main_call3_v7 : Ref sig .tc := ⟨.hbm, 822, rfl⟩
abbrev main_call3_v8 : Ref sig .tc := ⟨.hbm, 823, rfl⟩
abbrev main_call3_c : Ref sig .tc := ⟨.hbm, 824, rfl⟩
abbrev main_call3_v9 : Ref sig .tc := ⟨.hbm, 825, rfl⟩
abbrev main_call3_v10 : Ref sig .tc := ⟨.hbm, 826, rfl⟩
abbrev main_call3_c_0 : Ref sig .tc := ⟨.hbm, 827, rfl⟩
abbrev main_call3_v11 : Ref sig .tc := ⟨.hbm, 828, rfl⟩
abbrev main_call3_v12 : Ref sig .tc := ⟨.hbm, 829, rfl⟩
abbrev main_call3_v13 : Ref sig .tc := ⟨.hbm, 830, rfl⟩
abbrev main_call3_v14 : Ref sig .tc := ⟨.hbm, 831, rfl⟩
abbrev main_call3_call0_v0 : Ref sig .tc := ⟨.hbm, 832, rfl⟩
abbrev main_call3_call0_c : Ref sig .tc := ⟨.hbm, 833, rfl⟩
abbrev main_call3_call0_v1 : Ref sig .tc := ⟨.hbm, 834, rfl⟩
abbrev main_call3_call0_v2 : Ref sig .tc := ⟨.hbm, 835, rfl⟩
abbrev main_call3_call0_v3 : Ref sig .tc := ⟨.hbm, 836, rfl⟩
abbrev main_call3_call0_v4 : Ref sig .tc := ⟨.hbm, 837, rfl⟩
abbrev main_call3_call0_v5 : Ref sig .tc := ⟨.hbm, 838, rfl⟩
abbrev main_call3_call0_v6 : Ref sig .tc := ⟨.hbm, 839, rfl⟩
abbrev main_call3_call0_c_0 : Ref sig .tc := ⟨.hbm, 840, rfl⟩
abbrev main_call3_call0_v7 : Ref sig .tc := ⟨.hbm, 841, rfl⟩
abbrev main_call3_call0_v8 : Ref sig .tc := ⟨.hbm, 842, rfl⟩
abbrev main_call3_call0_c_1 : Ref sig .tc := ⟨.hbm, 843, rfl⟩
abbrev main_call3_call0_v9 : Ref sig .tc := ⟨.hbm, 844, rfl⟩
abbrev main_call3_call0_v10 : Ref sig .tc := ⟨.hbm, 845, rfl⟩
abbrev main_call3_call0_v11 : Ref sig .tc := ⟨.hbm, 846, rfl⟩
abbrev main_call3_call0_v12 : Ref sig .tc := ⟨.hbm, 847, rfl⟩
abbrev main_call3_call0_v13 : Ref sig .tc := ⟨.hbm, 848, rfl⟩
abbrev main_call3_call0_c_2 : Ref sig .tc := ⟨.hbm, 849, rfl⟩
abbrev main_call3_call0_v14 : Ref sig .tc := ⟨.hbm, 850, rfl⟩
abbrev main_call3_call0_v15 : Ref sig .tc := ⟨.hbm, 851, rfl⟩
abbrev main_call3_call0_c_3 : Ref sig .tc := ⟨.hbm, 852, rfl⟩
abbrev main_call3_call0_v16 : Ref sig .tc := ⟨.hbm, 853, rfl⟩
abbrev main_call3_call0_v17 : Ref sig .tc := ⟨.hbm, 854, rfl⟩
abbrev main_call3_call0_v18 : Ref sig .tc := ⟨.hbm, 855, rfl⟩
abbrev main_call3_call0_v19 : Ref sig .tc := ⟨.hbm, 856, rfl⟩
abbrev main_call3_call0_v20 : Ref sig .tc := ⟨.hbm, 857, rfl⟩
abbrev main_call3_call0_c_4 : Ref sig .tc := ⟨.hbm, 858, rfl⟩
abbrev main_call3_call0_v21 : Ref sig .tc := ⟨.hbm, 859, rfl⟩
abbrev main_call3_call0_v22 : Ref sig .tc := ⟨.hbm, 860, rfl⟩
abbrev main_call3_call0_c_5 : Ref sig .tc := ⟨.hbm, 861, rfl⟩
abbrev main_call3_call0_v23 : Ref sig .tc := ⟨.hbm, 862, rfl⟩
abbrev main_call3_call0_v24 : Ref sig .tc := ⟨.hbm, 863, rfl⟩
abbrev main_call3_call0_v25 : Ref sig .tc := ⟨.hbm, 864, rfl⟩
abbrev main_call3_call0_v26 : Ref sig .tc := ⟨.hbm, 865, rfl⟩
abbrev main_call3_call0_v27 : Ref sig .tc := ⟨.hbm, 866, rfl⟩
abbrev main_call3_call0_c_6 : Ref sig .tc := ⟨.hbm, 867, rfl⟩
abbrev main_call3_call0_v28 : Ref sig .tc := ⟨.hbm, 868, rfl⟩
abbrev main_call3_call0_v29 : Ref sig .tc := ⟨.hbm, 869, rfl⟩
abbrev main_call3_call0_c_7 : Ref sig .tc := ⟨.hbm, 870, rfl⟩
abbrev main_call3_call0_v30 : Ref sig .tc := ⟨.hbm, 871, rfl⟩
abbrev main_call3_call0_v31 : Ref sig .tc := ⟨.hbm, 872, rfl⟩
abbrev main_call3_call0_v32 : Ref sig .tc := ⟨.hbm, 873, rfl⟩
abbrev main_call3_call0_v33 : Ref sig .tc := ⟨.hbm, 874, rfl⟩
abbrev main_call3_call0_v34 : Ref sig .tc := ⟨.hbm, 875, rfl⟩
abbrev main_call3_call0_v35 : Ref sig .tc := ⟨.hbm, 876, rfl⟩
abbrev main_call3_call0_v36 : Ref sig .tc := ⟨.hbm, 877, rfl⟩
abbrev main_call3_call0_v37 : Ref sig .tc := ⟨.hbm, 878, rfl⟩
abbrev main_call3_call0_c_8 : Ref sig .tc := ⟨.hbm, 879, rfl⟩
abbrev main_call3_call0_v38 : Ref sig .tc := ⟨.hbm, 880, rfl⟩
abbrev main_call3_call0_v39 : Ref sig .tc := ⟨.hbm, 881, rfl⟩
abbrev main_call3_call0_v40 : Ref sig .tc := ⟨.hbm, 882, rfl⟩
abbrev main_call3_call0_c_9 : Ref sig .tc := ⟨.hbm, 883, rfl⟩
abbrev main_call3_call0_v41 : Ref sig .tc := ⟨.hbm, 884, rfl⟩
abbrev main_call3_call0_v42 : Ref sig .tc := ⟨.hbm, 885, rfl⟩
abbrev main_call3_call0_c_10 : Ref sig .tc := ⟨.hbm, 886, rfl⟩
abbrev main_call3_call0_v43 : Ref sig .tc := ⟨.hbm, 887, rfl⟩
abbrev main_call3_call0_v44 : Ref sig .tc := ⟨.hbm, 888, rfl⟩
abbrev main_call3_call0_v45 : Ref sig .tc := ⟨.hbm, 889, rfl⟩
abbrev main_call3_call0_v46 : Ref sig .tc := ⟨.hbm, 890, rfl⟩
abbrev main_call3_call0_v47 : Ref sig .tc := ⟨.hbm, 891, rfl⟩
abbrev main_call3_call0_c_11 : Ref sig .tc := ⟨.hbm, 892, rfl⟩
abbrev main_call3_call0_v48 : Ref sig .tc := ⟨.hbm, 893, rfl⟩
abbrev main_call3_call0_v49 : Ref sig .tc := ⟨.hbm, 894, rfl⟩
abbrev main_call3_call0_c_12 : Ref sig .tc := ⟨.hbm, 895, rfl⟩
abbrev main_call3_call0_v50 : Ref sig .tc := ⟨.hbm, 896, rfl⟩
abbrev main_call3_call0_v51 : Ref sig .tc := ⟨.hbm, 897, rfl⟩
abbrev main_call3_call0_v52 : Ref sig .tc := ⟨.hbm, 898, rfl⟩
abbrev main_call3_call0_v53 : Ref sig .tc := ⟨.hbm, 899, rfl⟩
abbrev main_call3_call0_v54 : Ref sig .tc := ⟨.hbm, 900, rfl⟩
abbrev main_call3_call0_c_13 : Ref sig .tc := ⟨.hbm, 901, rfl⟩
abbrev main_call3_call0_v55 : Ref sig .tc := ⟨.hbm, 902, rfl⟩
abbrev main_call3_call0_v56 : Ref sig .tc := ⟨.hbm, 903, rfl⟩
abbrev main_call3_call0_c_14 : Ref sig .tc := ⟨.hbm, 904, rfl⟩
abbrev main_call3_call0_v57 : Ref sig .tc := ⟨.hbm, 905, rfl⟩
abbrev main_call3_call0_v58 : Ref sig .tc := ⟨.hbm, 906, rfl⟩
abbrev main_call3_call0_v59 : Ref sig .tc := ⟨.hbm, 907, rfl⟩
abbrev main_call3_call0_v60 : Ref sig .tc := ⟨.hbm, 908, rfl⟩
abbrev main_call3_call0_v61 : Ref sig .tc := ⟨.hbm, 909, rfl⟩
abbrev main_call3_call0_c_15 : Ref sig .tc := ⟨.hbm, 910, rfl⟩
abbrev main_call3_call0_v62 : Ref sig .tc := ⟨.hbm, 911, rfl⟩
abbrev main_call3_call0_v63 : Ref sig .tc := ⟨.hbm, 912, rfl⟩
abbrev main_call3_call0_c_16 : Ref sig .tc := ⟨.hbm, 913, rfl⟩
abbrev main_call3_call0_v64 : Ref sig .tc := ⟨.hbm, 914, rfl⟩
abbrev main_call3_call0_v65 : Ref sig .tc := ⟨.hbm, 915, rfl⟩
abbrev main_call3_call0_v66 : Ref sig .tc := ⟨.hbm, 916, rfl⟩
abbrev main_call3_call0_v67 : Ref sig .tc := ⟨.hbm, 917, rfl⟩
abbrev main_call3_call0_v68 : Ref sig .tc := ⟨.hbm, 918, rfl⟩
abbrev main_call3_call0_v69 : Ref sig .tc := ⟨.hbm, 919, rfl⟩
abbrev main_call3_call0_v70 : Ref sig .tc := ⟨.hbm, 920, rfl⟩
abbrev main_call3_call0_v71 : Ref sig .tc := ⟨.hbm, 921, rfl⟩
abbrev main_call3_call0_c_17 : Ref sig .tc := ⟨.hbm, 922, rfl⟩
abbrev main_call3_call0_v72 : Ref sig .tc := ⟨.hbm, 923, rfl⟩
abbrev main_call3_call0_v73 : Ref sig .tc := ⟨.hbm, 924, rfl⟩
abbrev main_call3_call0_v74 : Ref sig .tc := ⟨.hbm, 925, rfl⟩
abbrev main_call3_call0_c_18 : Ref sig .tc := ⟨.hbm, 926, rfl⟩
abbrev main_call3_call0_v75 : Ref sig .tc := ⟨.hbm, 927, rfl⟩
abbrev main_call3_call0_v76 : Ref sig .tc := ⟨.hbm, 928, rfl⟩
abbrev main_call3_call0_c_19 : Ref sig .tc := ⟨.hbm, 929, rfl⟩
abbrev main_call3_call0_v77 : Ref sig .tc := ⟨.hbm, 930, rfl⟩
abbrev main_call3_call0_v78 : Ref sig .tc := ⟨.hbm, 931, rfl⟩
abbrev main_call3_call0_v79 : Ref sig .tc := ⟨.hbm, 932, rfl⟩
abbrev main_call3_call0_v80 : Ref sig .tc := ⟨.hbm, 933, rfl⟩
abbrev main_call3_call0_v81 : Ref sig .tc := ⟨.hbm, 934, rfl⟩
abbrev main_call3_call0_c_20 : Ref sig .tc := ⟨.hbm, 935, rfl⟩
abbrev main_call3_call0_v82 : Ref sig .tc := ⟨.hbm, 936, rfl⟩
abbrev main_call3_call0_v83 : Ref sig .tc := ⟨.hbm, 937, rfl⟩
abbrev main_call3_call0_c_21 : Ref sig .tc := ⟨.hbm, 938, rfl⟩
abbrev main_call3_call0_v84 : Ref sig .tc := ⟨.hbm, 939, rfl⟩
abbrev main_call3_call0_v85 : Ref sig .tc := ⟨.hbm, 940, rfl⟩
abbrev main_call3_call0_v86 : Ref sig .tc := ⟨.hbm, 941, rfl⟩
abbrev main_call3_call0_v87 : Ref sig .tc := ⟨.hbm, 942, rfl⟩
abbrev main_call3_call0_v88 : Ref sig .tc := ⟨.hbm, 943, rfl⟩
abbrev main_call3_call0_c_22 : Ref sig .tc := ⟨.hbm, 944, rfl⟩
abbrev main_call3_call0_v89 : Ref sig .tc := ⟨.hbm, 945, rfl⟩
abbrev main_call3_call0_v90 : Ref sig .tc := ⟨.hbm, 946, rfl⟩
abbrev main_call3_call0_c_23 : Ref sig .tc := ⟨.hbm, 947, rfl⟩
abbrev main_call3_call0_v91 : Ref sig .tc := ⟨.hbm, 948, rfl⟩
abbrev main_call3_call0_v92 : Ref sig .tc := ⟨.hbm, 949, rfl⟩
abbrev main_call3_call0_v93 : Ref sig .tc := ⟨.hbm, 950, rfl⟩
abbrev main_call3_call0_v94 : Ref sig .tc := ⟨.hbm, 951, rfl⟩
abbrev main_call3_call0_v95 : Ref sig .tc := ⟨.hbm, 952, rfl⟩
abbrev main_call3_call0_c_24 : Ref sig .tc := ⟨.hbm, 953, rfl⟩
abbrev main_call3_call0_v96 : Ref sig .tc := ⟨.hbm, 954, rfl⟩
abbrev main_call3_call0_v97 : Ref sig .tc := ⟨.hbm, 955, rfl⟩
abbrev main_call3_call0_c_25 : Ref sig .tc := ⟨.hbm, 956, rfl⟩
abbrev main_call3_call0_v98 : Ref sig .tc := ⟨.hbm, 957, rfl⟩
abbrev main_call3_call0_v99 : Ref sig .tc := ⟨.hbm, 958, rfl⟩
abbrev main_call3_call0_v100 : Ref sig .tc := ⟨.hbm, 959, rfl⟩
abbrev main_call3_call0_v101 : Ref sig .tc := ⟨.hbm, 960, rfl⟩
abbrev main_call3_call0_v102 : Ref sig .tc := ⟨.hbm, 961, rfl⟩
abbrev main_call3_call0_v103 : Ref sig .tc := ⟨.hbm, 962, rfl⟩
abbrev main_call3_call0_v104 : Ref sig .tc := ⟨.hbm, 963, rfl⟩
abbrev main_call3_call0_v105 : Ref sig .tc := ⟨.hbm, 964, rfl⟩
abbrev main_call3_call0_c_26 : Ref sig .tc := ⟨.hbm, 965, rfl⟩
abbrev main_call3_call0_v106 : Ref sig .tc := ⟨.hbm, 966, rfl⟩
abbrev main_call3_call0_v107 : Ref sig .tc := ⟨.hbm, 967, rfl⟩
abbrev main_call3_call0_v108 : Ref sig .tc := ⟨.hbm, 968, rfl⟩
abbrev main_call3_call0_c_27 : Ref sig .tc := ⟨.hbm, 969, rfl⟩
abbrev main_call3_call0_v109 : Ref sig .tc := ⟨.hbm, 970, rfl⟩
abbrev main_call3_call0_v110 : Ref sig .tc := ⟨.hbm, 971, rfl⟩
abbrev main_call3_call0_c_28 : Ref sig .tc := ⟨.hbm, 972, rfl⟩
abbrev main_call3_call0_v111 : Ref sig .tc := ⟨.hbm, 973, rfl⟩
abbrev main_call3_call0_v112 : Ref sig .tc := ⟨.hbm, 974, rfl⟩
abbrev main_call3_call0_v113 : Ref sig .tc := ⟨.hbm, 975, rfl⟩
abbrev main_call3_call0_v114 : Ref sig .tc := ⟨.hbm, 976, rfl⟩
abbrev main_call3_call0_v115 : Ref sig .tc := ⟨.hbm, 977, rfl⟩
abbrev main_call3_call0_c_29 : Ref sig .tc := ⟨.hbm, 978, rfl⟩
abbrev main_call3_call0_v116 : Ref sig .tc := ⟨.hbm, 979, rfl⟩
abbrev main_call3_call0_v117 : Ref sig .tc := ⟨.hbm, 980, rfl⟩
abbrev main_call3_call0_c_30 : Ref sig .tc := ⟨.hbm, 981, rfl⟩
abbrev main_call3_call0_v118 : Ref sig .tc := ⟨.hbm, 982, rfl⟩
abbrev main_call3_call0_v119 : Ref sig .tc := ⟨.hbm, 983, rfl⟩
abbrev main_call3_call0_v120 : Ref sig .tc := ⟨.hbm, 984, rfl⟩
abbrev main_call3_call0_v121 : Ref sig .tc := ⟨.hbm, 985, rfl⟩
abbrev main_call3_call0_v122 : Ref sig .tc := ⟨.hbm, 986, rfl⟩
abbrev main_call3_call0_c_31 : Ref sig .tc := ⟨.hbm, 987, rfl⟩
abbrev main_call3_call0_v123 : Ref sig .tc := ⟨.hbm, 988, rfl⟩
abbrev main_call3_call0_v124 : Ref sig .tc := ⟨.hbm, 989, rfl⟩
abbrev main_call3_call0_c_32 : Ref sig .tc := ⟨.hbm, 990, rfl⟩
abbrev main_call3_call0_v125 : Ref sig .tc := ⟨.hbm, 991, rfl⟩
abbrev main_call3_call0_v126 : Ref sig .tc := ⟨.hbm, 992, rfl⟩
abbrev main_call3_call0_v127 : Ref sig .tc := ⟨.hbm, 993, rfl⟩
abbrev main_call3_call0_v128 : Ref sig .tc := ⟨.hbm, 994, rfl⟩
abbrev main_call3_call0_v129 : Ref sig .tc := ⟨.hbm, 995, rfl⟩
abbrev main_call3_call0_c_33 : Ref sig .tc := ⟨.hbm, 996, rfl⟩
abbrev main_call3_call0_v130 : Ref sig .tc := ⟨.hbm, 997, rfl⟩
abbrev main_call3_call0_v131 : Ref sig .tc := ⟨.hbm, 998, rfl⟩
abbrev main_call3_call0_c_34 : Ref sig .tc := ⟨.hbm, 999, rfl⟩
abbrev main_call3_call0_v132 : Ref sig .tc := ⟨.hbm, 1000, rfl⟩
abbrev main_call3_call0_v133 : Ref sig .tc := ⟨.hbm, 1001, rfl⟩
abbrev main_call3_call0_v134 : Ref sig .tc := ⟨.hbm, 1002, rfl⟩
abbrev main_call3_call0_v135 : Ref sig .tc := ⟨.hbm, 1003, rfl⟩
abbrev main_call3_call0_v136 : Ref sig .tc := ⟨.hbm, 1004, rfl⟩
abbrev main_call3_call0_v137 : Ref sig .tc := ⟨.hbm, 1005, rfl⟩
abbrev main_call3_call0_v138 : Ref sig .tc := ⟨.hbm, 1006, rfl⟩
abbrev main_call3_call0_v139 : Ref sig .tc := ⟨.hbm, 1007, rfl⟩
abbrev main_call3_call0_c_35 : Ref sig .tc := ⟨.hbm, 1008, rfl⟩
abbrev main_call3_call0_v140 : Ref sig .tc := ⟨.hbm, 1009, rfl⟩
abbrev main_call3_call0_v141 : Ref sig .tc := ⟨.hbm, 1010, rfl⟩
abbrev main_call3_call0_v142 : Ref sig .tc := ⟨.hbm, 1011, rfl⟩
abbrev main_call3_call0_c_36 : Ref sig .tc := ⟨.hbm, 1012, rfl⟩
abbrev main_call3_call0_v143 : Ref sig .tc := ⟨.hbm, 1013, rfl⟩
abbrev main_call3_call0_v144 : Ref sig .tc := ⟨.hbm, 1014, rfl⟩
abbrev main_call3_call0_c_37 : Ref sig .tc := ⟨.hbm, 1015, rfl⟩
abbrev main_call3_call0_v145 : Ref sig .tc := ⟨.hbm, 1016, rfl⟩
abbrev main_call3_call0_v146 : Ref sig .tc := ⟨.hbm, 1017, rfl⟩
abbrev main_call3_call0_v147 : Ref sig .tc := ⟨.hbm, 1018, rfl⟩
abbrev main_call3_call0_v148 : Ref sig .tc := ⟨.hbm, 1019, rfl⟩
abbrev main_call3_call0_v149 : Ref sig .tc := ⟨.hbm, 1020, rfl⟩
abbrev main_call3_call0_c_38 : Ref sig .tc := ⟨.hbm, 1021, rfl⟩
abbrev main_call3_call0_v150 : Ref sig .tc := ⟨.hbm, 1022, rfl⟩
abbrev main_call3_call0_v151 : Ref sig .tc := ⟨.hbm, 1023, rfl⟩
abbrev main_call3_call0_c_39 : Ref sig .tc := ⟨.hbm, 1024, rfl⟩
abbrev main_call3_call0_v152 : Ref sig .tc := ⟨.hbm, 1025, rfl⟩
abbrev main_call3_call0_v153 : Ref sig .tc := ⟨.hbm, 1026, rfl⟩
abbrev main_call3_call0_v154 : Ref sig .tc := ⟨.hbm, 1027, rfl⟩
abbrev main_call3_call0_v155 : Ref sig .tc := ⟨.hbm, 1028, rfl⟩
abbrev main_call3_call0_v156 : Ref sig .tc := ⟨.hbm, 1029, rfl⟩
abbrev main_call3_call0_c_40 : Ref sig .tc := ⟨.hbm, 1030, rfl⟩
abbrev main_call3_call0_v157 : Ref sig .tc := ⟨.hbm, 1031, rfl⟩
abbrev main_call3_call0_v158 : Ref sig .tc := ⟨.hbm, 1032, rfl⟩
abbrev main_call3_call0_c_41 : Ref sig .tc := ⟨.hbm, 1033, rfl⟩
abbrev main_call3_call0_v159 : Ref sig .tc := ⟨.hbm, 1034, rfl⟩
abbrev main_call3_call0_v160 : Ref sig .tc := ⟨.hbm, 1035, rfl⟩
abbrev main_call3_call0_v161 : Ref sig .tc := ⟨.hbm, 1036, rfl⟩
abbrev main_call3_call0_v162 : Ref sig .tc := ⟨.hbm, 1037, rfl⟩
abbrev main_call3_call0_v163 : Ref sig .tc := ⟨.hbm, 1038, rfl⟩
abbrev main_call3_call0_c_42 : Ref sig .tc := ⟨.hbm, 1039, rfl⟩
abbrev main_call3_call0_v164 : Ref sig .tc := ⟨.hbm, 1040, rfl⟩
abbrev main_call3_call0_v165 : Ref sig .tc := ⟨.hbm, 1041, rfl⟩
abbrev main_call3_call0_c_43 : Ref sig .tc := ⟨.hbm, 1042, rfl⟩
abbrev main_call3_call0_v166 : Ref sig .tc := ⟨.hbm, 1043, rfl⟩
abbrev main_call3_call0_v167 : Ref sig .tc := ⟨.hbm, 1044, rfl⟩
abbrev main_call3_call0_v168 : Ref sig .tc := ⟨.hbm, 1045, rfl⟩
abbrev main_call3_call0_v169 : Ref sig .tc := ⟨.hbm, 1046, rfl⟩
abbrev main_call3_call0_v170 : Ref sig .tc := ⟨.hbm, 1047, rfl⟩
abbrev main_call3_v15_0 : Ref sig .tc := ⟨.hbm, 1048, rfl⟩
abbrev main_call3_call0_v172 : Ref sig .tc := ⟨.hbm, 1049, rfl⟩
abbrev main_call3_call0_v173 : Ref sig .tc := ⟨.hbm, 1050, rfl⟩
abbrev main_call3_call0_c_44 : Ref sig .tc := ⟨.hbm, 1051, rfl⟩
abbrev main_call3_call0_v174 : Ref sig .tc := ⟨.hbm, 1052, rfl⟩
abbrev main_call3_v15_1 : Ref sig .tc := ⟨.hbm, 1053, rfl⟩
abbrev main_call3_v16 : Ref sig .tc := ⟨.hbm, 1054, rfl⟩
abbrev main_call3_c_1 : Ref sig .tc := ⟨.hbm, 1055, rfl⟩
abbrev main_call3_v17 : Ref sig .tc := ⟨.hbm, 1056, rfl⟩
abbrev main_call3_v18 : Ref sig .tc := ⟨.hbm, 1057, rfl⟩
abbrev main_call3_c_2 : Ref sig .tc := ⟨.hbm, 1058, rfl⟩
abbrev main_call3_v19 : Ref sig .tc := ⟨.hbm, 1059, rfl⟩
abbrev main_call3_v20 : Ref sig .tc := ⟨.hbm, 1060, rfl⟩
abbrev main_call3_v21 : Ref sig .tc := ⟨.hbm, 1061, rfl⟩
abbrev main_call3_cst : Ref sig .tc := ⟨.hbm, 1062, rfl⟩
abbrev main_call3_v22 : Ref sig .tc := ⟨.hbm, 1063, rfl⟩
abbrev main_call3_v23 : Ref sig .tc := ⟨.hbm, 1064, rfl⟩
abbrev main_call3_v24 : Ref sig .tc := ⟨.hbm, 1065, rfl⟩
abbrev main_call3_v25 : Ref sig .tc := ⟨.hbm, 1066, rfl⟩
abbrev main_call3_v26 : Ref sig .tc := ⟨.hbm, 1067, rfl⟩
abbrev main_call3_v27 : Ref sig .tc := ⟨.hbm, 1068, rfl⟩
abbrev main_call3_v28 : Ref sig .tc := ⟨.hbm, 1069, rfl⟩
abbrev main_call3_v29 : Ref sig .tc := ⟨.hbm, 1070, rfl⟩
abbrev main_v63 : Ref sig .tc := ⟨.hbm, 1071, rfl⟩
abbrev main_v64 : Ref sig .tc := ⟨.hbm, 1072, rfl⟩
abbrev main_v65 : Ref sig .tc := ⟨.hbm, 1073, rfl⟩
abbrev main_cst_18 : Ref sig .tc := ⟨.hbm, 1074, rfl⟩
abbrev main_v66 : Ref sig .tc := ⟨.hbm, 1075, rfl⟩
abbrev main_v67 : Ref sig .tc := ⟨.hbm, 1076, rfl⟩
abbrev main_cst_19 : Ref sig .tc := ⟨.hbm, 1077, rfl⟩
abbrev main_v68 : Ref sig .tc := ⟨.hbm, 1078, rfl⟩
abbrev main_v69 : Ref sig .tc := ⟨.hbm, 1079, rfl⟩
abbrev main_v70 : Ref sig .tc := ⟨.hbm, 1080, rfl⟩
abbrev main_v71 : Ref sig .tc := ⟨.hbm, 1081, rfl⟩
abbrev main_v72 : Ref sig .tc := ⟨.hbm, 1082, rfl⟩
abbrev main_v73 : Ref sig .tc := ⟨.hbm, 1083, rfl⟩
abbrev main_v74 : Ref sig .tc := ⟨.hbm, 1084, rfl⟩
abbrev main_v75 : Ref sig .tc := ⟨.hbm, 1085, rfl⟩
abbrev main_cst_20 : Ref sig .tc := ⟨.hbm, 1086, rfl⟩
abbrev main_v76 : Ref sig .tc := ⟨.hbm, 1087, rfl⟩
abbrev main_v77 : Ref sig .tc := ⟨.hbm, 1088, rfl⟩
abbrev main_v78 : Ref sig .tc := ⟨.hbm, 1089, rfl⟩
abbrev main_v79 : Ref sig .tc := ⟨.hbm, 1090, rfl⟩
abbrev main_v80 : Ref sig .tc := ⟨.hbm, 1091, rfl⟩
abbrev main_v81 : Ref sig .tc := ⟨.hbm, 1092, rfl⟩
abbrev main_cst_21 : Ref sig .tc := ⟨.hbm, 1093, rfl⟩
abbrev main_v82 : Ref sig .tc := ⟨.hbm, 1094, rfl⟩
abbrev main_c_22 : Ref sig .tc := ⟨.hbm, 1095, rfl⟩
abbrev main_v83 : Ref sig .tc := ⟨.hbm, 1096, rfl⟩
abbrev main_cst_23 : Ref sig .tc := ⟨.hbm, 1097, rfl⟩
abbrev main_v84 : Ref sig .tc := ⟨.hbm, 1098, rfl⟩
abbrev main_v85 : Ref sig .tc := ⟨.hbm, 1099, rfl⟩
abbrev main_cst_24 : Ref sig .tc := ⟨.hbm, 1100, rfl⟩
abbrev main_v86 : Ref sig .tc := ⟨.hbm, 1101, rfl⟩
abbrev main_v87 : Ref sig .tc := ⟨.hbm, 1102, rfl⟩
abbrev main_v88 : Ref sig .tc := ⟨.hbm, 1103, rfl⟩
abbrev main_cst_25 : Ref sig .tc := ⟨.hbm, 1104, rfl⟩
abbrev main_v89 : Ref sig .tc := ⟨.hbm, 1105, rfl⟩
abbrev main_v90 : Ref sig .tc := ⟨.hbm, 1106, rfl⟩
abbrev main_v91 : Ref sig .tc := ⟨.hbm, 1107, rfl⟩
abbrev main_v92 : Ref sig .tc := ⟨.hbm, 1108, rfl⟩
abbrev main_v93 : Ref sig .tc := ⟨.hbm, 1109, rfl⟩
abbrev main_v94 : Ref sig .tc := ⟨.hbm, 1110, rfl⟩
abbrev main_call4_v0 : Ref sig .tc := ⟨.hbm, 1111, rfl⟩
abbrev main_call4_v1 : Ref sig .tc := ⟨.hbm, 1112, rfl⟩
abbrev main_call4_v2 : Ref sig .tc := ⟨.hbm, 1113, rfl⟩
abbrev main_call4_v3 : Ref sig .tc := ⟨.hbm, 1114, rfl⟩
abbrev main_call4_v4 : Ref sig .tc := ⟨.hbm, 1115, rfl⟩
abbrev main_call4_c : Ref sig .tc := ⟨.hbm, 1116, rfl⟩
abbrev main_call4_v5 : Ref sig .tc := ⟨.hbm, 1117, rfl⟩
abbrev main_call4_v6 : Ref sig .tc := ⟨.hbm, 1118, rfl⟩
abbrev main_call4_c_0 : Ref sig .tc := ⟨.hbm, 1119, rfl⟩
abbrev main_call4_v7 : Ref sig .tc := ⟨.hbm, 1120, rfl⟩
abbrev main_call4_v8 : Ref sig .tc := ⟨.hbm, 1121, rfl⟩
abbrev main_call4_v9 : Ref sig .tc := ⟨.hbm, 1122, rfl⟩
abbrev main_call4_v10 : Ref sig .tc := ⟨.hbm, 1123, rfl⟩
abbrev main_call4_call0_v0 : Ref sig .tc := ⟨.hbm, 1124, rfl⟩
abbrev main_call4_call0_c : Ref sig .tc := ⟨.hbm, 1125, rfl⟩
abbrev main_call4_call0_v1 : Ref sig .tc := ⟨.hbm, 1126, rfl⟩
abbrev main_call4_call0_v2 : Ref sig .tc := ⟨.hbm, 1127, rfl⟩
abbrev main_call4_call0_v3 : Ref sig .tc := ⟨.hbm, 1128, rfl⟩
abbrev main_call4_call0_v4 : Ref sig .tc := ⟨.hbm, 1129, rfl⟩
abbrev main_call4_call0_v5 : Ref sig .tc := ⟨.hbm, 1130, rfl⟩
abbrev main_call4_call0_v6 : Ref sig .tc := ⟨.hbm, 1131, rfl⟩
abbrev main_call4_call0_c_0 : Ref sig .tc := ⟨.hbm, 1132, rfl⟩
abbrev main_call4_call0_v7 : Ref sig .tc := ⟨.hbm, 1133, rfl⟩
abbrev main_call4_call0_v8 : Ref sig .tc := ⟨.hbm, 1134, rfl⟩
abbrev main_call4_call0_c_1 : Ref sig .tc := ⟨.hbm, 1135, rfl⟩
abbrev main_call4_call0_v9 : Ref sig .tc := ⟨.hbm, 1136, rfl⟩
abbrev main_call4_call0_v10 : Ref sig .tc := ⟨.hbm, 1137, rfl⟩
abbrev main_call4_call0_v11 : Ref sig .tc := ⟨.hbm, 1138, rfl⟩
abbrev main_call4_call0_v12 : Ref sig .tc := ⟨.hbm, 1139, rfl⟩
abbrev main_call4_call0_v13 : Ref sig .tc := ⟨.hbm, 1140, rfl⟩
abbrev main_call4_call0_c_2 : Ref sig .tc := ⟨.hbm, 1141, rfl⟩
abbrev main_call4_call0_v14 : Ref sig .tc := ⟨.hbm, 1142, rfl⟩
abbrev main_call4_call0_v15 : Ref sig .tc := ⟨.hbm, 1143, rfl⟩
abbrev main_call4_call0_c_3 : Ref sig .tc := ⟨.hbm, 1144, rfl⟩
abbrev main_call4_call0_v16 : Ref sig .tc := ⟨.hbm, 1145, rfl⟩
abbrev main_call4_call0_v17 : Ref sig .tc := ⟨.hbm, 1146, rfl⟩
abbrev main_call4_call0_v18 : Ref sig .tc := ⟨.hbm, 1147, rfl⟩
abbrev main_call4_call0_v19 : Ref sig .tc := ⟨.hbm, 1148, rfl⟩
abbrev main_call4_call0_v20 : Ref sig .tc := ⟨.hbm, 1149, rfl⟩
abbrev main_call4_call0_c_4 : Ref sig .tc := ⟨.hbm, 1150, rfl⟩
abbrev main_call4_call0_v21 : Ref sig .tc := ⟨.hbm, 1151, rfl⟩
abbrev main_call4_call0_v22 : Ref sig .tc := ⟨.hbm, 1152, rfl⟩
abbrev main_call4_call0_c_5 : Ref sig .tc := ⟨.hbm, 1153, rfl⟩
abbrev main_call4_call0_v23 : Ref sig .tc := ⟨.hbm, 1154, rfl⟩
abbrev main_call4_call0_v24 : Ref sig .tc := ⟨.hbm, 1155, rfl⟩
abbrev main_call4_call0_v25 : Ref sig .tc := ⟨.hbm, 1156, rfl⟩
abbrev main_call4_call0_v26 : Ref sig .tc := ⟨.hbm, 1157, rfl⟩
abbrev main_call4_call0_v27 : Ref sig .tc := ⟨.hbm, 1158, rfl⟩
abbrev main_call4_call0_c_6 : Ref sig .tc := ⟨.hbm, 1159, rfl⟩
abbrev main_call4_call0_v28 : Ref sig .tc := ⟨.hbm, 1160, rfl⟩
abbrev main_call4_call0_v29 : Ref sig .tc := ⟨.hbm, 1161, rfl⟩
abbrev main_call4_call0_c_7 : Ref sig .tc := ⟨.hbm, 1162, rfl⟩
abbrev main_call4_call0_v30 : Ref sig .tc := ⟨.hbm, 1163, rfl⟩
abbrev main_call4_call0_v31 : Ref sig .tc := ⟨.hbm, 1164, rfl⟩
abbrev main_call4_call0_v32 : Ref sig .tc := ⟨.hbm, 1165, rfl⟩
abbrev main_call4_call0_v33 : Ref sig .tc := ⟨.hbm, 1166, rfl⟩
abbrev main_call4_call0_v34 : Ref sig .tc := ⟨.hbm, 1167, rfl⟩
abbrev main_call4_call0_v35 : Ref sig .tc := ⟨.hbm, 1168, rfl⟩
abbrev main_call4_call0_v36 : Ref sig .tc := ⟨.hbm, 1169, rfl⟩
abbrev main_call4_call0_v37 : Ref sig .tc := ⟨.hbm, 1170, rfl⟩
abbrev main_call4_call0_c_8 : Ref sig .tc := ⟨.hbm, 1171, rfl⟩
abbrev main_call4_call0_v38 : Ref sig .tc := ⟨.hbm, 1172, rfl⟩
abbrev main_call4_call0_v39 : Ref sig .tc := ⟨.hbm, 1173, rfl⟩
abbrev main_call4_call0_v40 : Ref sig .tc := ⟨.hbm, 1174, rfl⟩
abbrev main_call4_call0_c_9 : Ref sig .tc := ⟨.hbm, 1175, rfl⟩
abbrev main_call4_call0_v41 : Ref sig .tc := ⟨.hbm, 1176, rfl⟩
abbrev main_call4_call0_v42 : Ref sig .tc := ⟨.hbm, 1177, rfl⟩
abbrev main_call4_call0_c_10 : Ref sig .tc := ⟨.hbm, 1178, rfl⟩
abbrev main_call4_call0_v43 : Ref sig .tc := ⟨.hbm, 1179, rfl⟩
abbrev main_call4_call0_v44 : Ref sig .tc := ⟨.hbm, 1180, rfl⟩
abbrev main_call4_call0_v45 : Ref sig .tc := ⟨.hbm, 1181, rfl⟩
abbrev main_call4_call0_v46 : Ref sig .tc := ⟨.hbm, 1182, rfl⟩
abbrev main_call4_call0_v47 : Ref sig .tc := ⟨.hbm, 1183, rfl⟩
abbrev main_call4_call0_c_11 : Ref sig .tc := ⟨.hbm, 1184, rfl⟩
abbrev main_call4_call0_v48 : Ref sig .tc := ⟨.hbm, 1185, rfl⟩
abbrev main_call4_call0_v49 : Ref sig .tc := ⟨.hbm, 1186, rfl⟩
abbrev main_call4_call0_c_12 : Ref sig .tc := ⟨.hbm, 1187, rfl⟩
abbrev main_call4_call0_v50 : Ref sig .tc := ⟨.hbm, 1188, rfl⟩
abbrev main_call4_call0_v51 : Ref sig .tc := ⟨.hbm, 1189, rfl⟩
abbrev main_call4_call0_v52 : Ref sig .tc := ⟨.hbm, 1190, rfl⟩
abbrev main_call4_call0_v53 : Ref sig .tc := ⟨.hbm, 1191, rfl⟩
abbrev main_call4_call0_v54 : Ref sig .tc := ⟨.hbm, 1192, rfl⟩
abbrev main_call4_call0_c_13 : Ref sig .tc := ⟨.hbm, 1193, rfl⟩
abbrev main_call4_call0_v55 : Ref sig .tc := ⟨.hbm, 1194, rfl⟩
abbrev main_call4_call0_v56 : Ref sig .tc := ⟨.hbm, 1195, rfl⟩
abbrev main_call4_call0_c_14 : Ref sig .tc := ⟨.hbm, 1196, rfl⟩
abbrev main_call4_call0_v57 : Ref sig .tc := ⟨.hbm, 1197, rfl⟩
abbrev main_call4_call0_v58 : Ref sig .tc := ⟨.hbm, 1198, rfl⟩
abbrev main_call4_call0_v59 : Ref sig .tc := ⟨.hbm, 1199, rfl⟩
abbrev main_call4_call0_v60 : Ref sig .tc := ⟨.hbm, 1200, rfl⟩
abbrev main_call4_call0_v61 : Ref sig .tc := ⟨.hbm, 1201, rfl⟩
abbrev main_call4_call0_c_15 : Ref sig .tc := ⟨.hbm, 1202, rfl⟩
abbrev main_call4_call0_v62 : Ref sig .tc := ⟨.hbm, 1203, rfl⟩
abbrev main_call4_call0_v63 : Ref sig .tc := ⟨.hbm, 1204, rfl⟩
abbrev main_call4_call0_c_16 : Ref sig .tc := ⟨.hbm, 1205, rfl⟩
abbrev main_call4_call0_v64 : Ref sig .tc := ⟨.hbm, 1206, rfl⟩
abbrev main_call4_call0_v65 : Ref sig .tc := ⟨.hbm, 1207, rfl⟩
abbrev main_call4_call0_v66 : Ref sig .tc := ⟨.hbm, 1208, rfl⟩
abbrev main_call4_call0_v67 : Ref sig .tc := ⟨.hbm, 1209, rfl⟩
abbrev main_call4_call0_v68 : Ref sig .tc := ⟨.hbm, 1210, rfl⟩
abbrev main_call4_call0_v69 : Ref sig .tc := ⟨.hbm, 1211, rfl⟩
abbrev main_call4_call0_v70 : Ref sig .tc := ⟨.hbm, 1212, rfl⟩
abbrev main_call4_call0_v71 : Ref sig .tc := ⟨.hbm, 1213, rfl⟩
abbrev main_call4_call0_c_17 : Ref sig .tc := ⟨.hbm, 1214, rfl⟩
abbrev main_call4_call0_v72 : Ref sig .tc := ⟨.hbm, 1215, rfl⟩
abbrev main_call4_call0_v73 : Ref sig .tc := ⟨.hbm, 1216, rfl⟩
abbrev main_call4_call0_v74 : Ref sig .tc := ⟨.hbm, 1217, rfl⟩
abbrev main_call4_call0_c_18 : Ref sig .tc := ⟨.hbm, 1218, rfl⟩
abbrev main_call4_call0_v75 : Ref sig .tc := ⟨.hbm, 1219, rfl⟩
abbrev main_call4_call0_v76 : Ref sig .tc := ⟨.hbm, 1220, rfl⟩
abbrev main_call4_call0_c_19 : Ref sig .tc := ⟨.hbm, 1221, rfl⟩
abbrev main_call4_call0_v77 : Ref sig .tc := ⟨.hbm, 1222, rfl⟩
abbrev main_call4_call0_v78 : Ref sig .tc := ⟨.hbm, 1223, rfl⟩
abbrev main_call4_call0_v79 : Ref sig .tc := ⟨.hbm, 1224, rfl⟩
abbrev main_call4_call0_v80 : Ref sig .tc := ⟨.hbm, 1225, rfl⟩
abbrev main_call4_call0_v81 : Ref sig .tc := ⟨.hbm, 1226, rfl⟩
abbrev main_call4_call0_c_20 : Ref sig .tc := ⟨.hbm, 1227, rfl⟩
abbrev main_call4_call0_v82 : Ref sig .tc := ⟨.hbm, 1228, rfl⟩
abbrev main_call4_call0_v83 : Ref sig .tc := ⟨.hbm, 1229, rfl⟩
abbrev main_call4_call0_c_21 : Ref sig .tc := ⟨.hbm, 1230, rfl⟩
abbrev main_call4_call0_v84 : Ref sig .tc := ⟨.hbm, 1231, rfl⟩
abbrev main_call4_call0_v85 : Ref sig .tc := ⟨.hbm, 1232, rfl⟩
abbrev main_call4_call0_v86 : Ref sig .tc := ⟨.hbm, 1233, rfl⟩
abbrev main_call4_call0_v87 : Ref sig .tc := ⟨.hbm, 1234, rfl⟩
abbrev main_call4_call0_v88 : Ref sig .tc := ⟨.hbm, 1235, rfl⟩
abbrev main_call4_call0_c_22 : Ref sig .tc := ⟨.hbm, 1236, rfl⟩
abbrev main_call4_call0_v89 : Ref sig .tc := ⟨.hbm, 1237, rfl⟩
abbrev main_call4_call0_v90 : Ref sig .tc := ⟨.hbm, 1238, rfl⟩
abbrev main_call4_call0_c_23 : Ref sig .tc := ⟨.hbm, 1239, rfl⟩
abbrev main_call4_call0_v91 : Ref sig .tc := ⟨.hbm, 1240, rfl⟩
abbrev main_call4_call0_v92 : Ref sig .tc := ⟨.hbm, 1241, rfl⟩
abbrev main_call4_call0_v93 : Ref sig .tc := ⟨.hbm, 1242, rfl⟩
abbrev main_call4_call0_v94 : Ref sig .tc := ⟨.hbm, 1243, rfl⟩
abbrev main_call4_call0_v95 : Ref sig .tc := ⟨.hbm, 1244, rfl⟩
abbrev main_call4_call0_c_24 : Ref sig .tc := ⟨.hbm, 1245, rfl⟩
abbrev main_call4_call0_v96 : Ref sig .tc := ⟨.hbm, 1246, rfl⟩
abbrev main_call4_call0_v97 : Ref sig .tc := ⟨.hbm, 1247, rfl⟩
abbrev main_call4_call0_c_25 : Ref sig .tc := ⟨.hbm, 1248, rfl⟩
abbrev main_call4_call0_v98 : Ref sig .tc := ⟨.hbm, 1249, rfl⟩
abbrev main_call4_call0_v99 : Ref sig .tc := ⟨.hbm, 1250, rfl⟩
abbrev main_call4_call0_v100 : Ref sig .tc := ⟨.hbm, 1251, rfl⟩
abbrev main_call4_call0_v101 : Ref sig .tc := ⟨.hbm, 1252, rfl⟩
abbrev main_call4_call0_v102 : Ref sig .tc := ⟨.hbm, 1253, rfl⟩
abbrev main_call4_call0_v103 : Ref sig .tc := ⟨.hbm, 1254, rfl⟩
abbrev main_call4_call0_v104 : Ref sig .tc := ⟨.hbm, 1255, rfl⟩
abbrev main_call4_call0_v105 : Ref sig .tc := ⟨.hbm, 1256, rfl⟩
abbrev main_call4_call0_c_26 : Ref sig .tc := ⟨.hbm, 1257, rfl⟩
abbrev main_call4_call0_v106 : Ref sig .tc := ⟨.hbm, 1258, rfl⟩
abbrev main_call4_call0_v107 : Ref sig .tc := ⟨.hbm, 1259, rfl⟩
abbrev main_call4_call0_v108 : Ref sig .tc := ⟨.hbm, 1260, rfl⟩
abbrev main_call4_call0_c_27 : Ref sig .tc := ⟨.hbm, 1261, rfl⟩
abbrev main_call4_call0_v109 : Ref sig .tc := ⟨.hbm, 1262, rfl⟩
abbrev main_call4_call0_v110 : Ref sig .tc := ⟨.hbm, 1263, rfl⟩
abbrev main_call4_call0_c_28 : Ref sig .tc := ⟨.hbm, 1264, rfl⟩
abbrev main_call4_call0_v111 : Ref sig .tc := ⟨.hbm, 1265, rfl⟩
abbrev main_call4_call0_v112 : Ref sig .tc := ⟨.hbm, 1266, rfl⟩
abbrev main_call4_call0_v113 : Ref sig .tc := ⟨.hbm, 1267, rfl⟩
abbrev main_call4_call0_v114 : Ref sig .tc := ⟨.hbm, 1268, rfl⟩
abbrev main_call4_call0_v115 : Ref sig .tc := ⟨.hbm, 1269, rfl⟩
abbrev main_call4_call0_c_29 : Ref sig .tc := ⟨.hbm, 1270, rfl⟩
abbrev main_call4_call0_v116 : Ref sig .tc := ⟨.hbm, 1271, rfl⟩
abbrev main_call4_call0_v117 : Ref sig .tc := ⟨.hbm, 1272, rfl⟩
abbrev main_call4_call0_c_30 : Ref sig .tc := ⟨.hbm, 1273, rfl⟩
abbrev main_call4_call0_v118 : Ref sig .tc := ⟨.hbm, 1274, rfl⟩
abbrev main_call4_call0_v119 : Ref sig .tc := ⟨.hbm, 1275, rfl⟩
abbrev main_call4_call0_v120 : Ref sig .tc := ⟨.hbm, 1276, rfl⟩
abbrev main_call4_call0_v121 : Ref sig .tc := ⟨.hbm, 1277, rfl⟩
abbrev main_call4_call0_v122 : Ref sig .tc := ⟨.hbm, 1278, rfl⟩
abbrev main_call4_call0_c_31 : Ref sig .tc := ⟨.hbm, 1279, rfl⟩
abbrev main_call4_call0_v123 : Ref sig .tc := ⟨.hbm, 1280, rfl⟩
abbrev main_call4_call0_v124 : Ref sig .tc := ⟨.hbm, 1281, rfl⟩
abbrev main_call4_call0_c_32 : Ref sig .tc := ⟨.hbm, 1282, rfl⟩
abbrev main_call4_call0_v125 : Ref sig .tc := ⟨.hbm, 1283, rfl⟩
abbrev main_call4_call0_v126 : Ref sig .tc := ⟨.hbm, 1284, rfl⟩
abbrev main_call4_call0_v127 : Ref sig .tc := ⟨.hbm, 1285, rfl⟩
abbrev main_call4_call0_v128 : Ref sig .tc := ⟨.hbm, 1286, rfl⟩
abbrev main_call4_call0_v129 : Ref sig .tc := ⟨.hbm, 1287, rfl⟩
abbrev main_call4_call0_c_33 : Ref sig .tc := ⟨.hbm, 1288, rfl⟩
abbrev main_call4_call0_v130 : Ref sig .tc := ⟨.hbm, 1289, rfl⟩
abbrev main_call4_call0_v131 : Ref sig .tc := ⟨.hbm, 1290, rfl⟩
abbrev main_call4_call0_c_34 : Ref sig .tc := ⟨.hbm, 1291, rfl⟩
abbrev main_call4_call0_v132 : Ref sig .tc := ⟨.hbm, 1292, rfl⟩
abbrev main_call4_call0_v133 : Ref sig .tc := ⟨.hbm, 1293, rfl⟩
abbrev main_call4_call0_v134 : Ref sig .tc := ⟨.hbm, 1294, rfl⟩
abbrev main_call4_call0_v135 : Ref sig .tc := ⟨.hbm, 1295, rfl⟩
abbrev main_call4_call0_v136 : Ref sig .tc := ⟨.hbm, 1296, rfl⟩
abbrev main_call4_call0_v137 : Ref sig .tc := ⟨.hbm, 1297, rfl⟩
abbrev main_call4_call0_v138 : Ref sig .tc := ⟨.hbm, 1298, rfl⟩
abbrev main_call4_call0_v139 : Ref sig .tc := ⟨.hbm, 1299, rfl⟩
abbrev main_call4_call0_c_35 : Ref sig .tc := ⟨.hbm, 1300, rfl⟩
abbrev main_call4_call0_v140 : Ref sig .tc := ⟨.hbm, 1301, rfl⟩
abbrev main_call4_call0_v141 : Ref sig .tc := ⟨.hbm, 1302, rfl⟩
abbrev main_call4_call0_v142 : Ref sig .tc := ⟨.hbm, 1303, rfl⟩
abbrev main_call4_call0_c_36 : Ref sig .tc := ⟨.hbm, 1304, rfl⟩
abbrev main_call4_call0_v143 : Ref sig .tc := ⟨.hbm, 1305, rfl⟩
abbrev main_call4_call0_v144 : Ref sig .tc := ⟨.hbm, 1306, rfl⟩
abbrev main_call4_call0_c_37 : Ref sig .tc := ⟨.hbm, 1307, rfl⟩
abbrev main_call4_call0_v145 : Ref sig .tc := ⟨.hbm, 1308, rfl⟩
abbrev main_call4_call0_v146 : Ref sig .tc := ⟨.hbm, 1309, rfl⟩
abbrev main_call4_call0_v147 : Ref sig .tc := ⟨.hbm, 1310, rfl⟩
abbrev main_call4_call0_v148 : Ref sig .tc := ⟨.hbm, 1311, rfl⟩
abbrev main_call4_call0_v149 : Ref sig .tc := ⟨.hbm, 1312, rfl⟩
abbrev main_call4_call0_c_38 : Ref sig .tc := ⟨.hbm, 1313, rfl⟩
abbrev main_call4_call0_v150 : Ref sig .tc := ⟨.hbm, 1314, rfl⟩
abbrev main_call4_call0_v151 : Ref sig .tc := ⟨.hbm, 1315, rfl⟩
abbrev main_call4_call0_c_39 : Ref sig .tc := ⟨.hbm, 1316, rfl⟩
abbrev main_call4_call0_v152 : Ref sig .tc := ⟨.hbm, 1317, rfl⟩
abbrev main_call4_call0_v153 : Ref sig .tc := ⟨.hbm, 1318, rfl⟩
abbrev main_call4_call0_v154 : Ref sig .tc := ⟨.hbm, 1319, rfl⟩
abbrev main_call4_call0_v155 : Ref sig .tc := ⟨.hbm, 1320, rfl⟩
abbrev main_call4_call0_v156 : Ref sig .tc := ⟨.hbm, 1321, rfl⟩
abbrev main_call4_call0_c_40 : Ref sig .tc := ⟨.hbm, 1322, rfl⟩
abbrev main_call4_call0_v157 : Ref sig .tc := ⟨.hbm, 1323, rfl⟩
abbrev main_call4_call0_v158 : Ref sig .tc := ⟨.hbm, 1324, rfl⟩
abbrev main_call4_call0_c_41 : Ref sig .tc := ⟨.hbm, 1325, rfl⟩
abbrev main_call4_call0_v159 : Ref sig .tc := ⟨.hbm, 1326, rfl⟩
abbrev main_call4_call0_v160 : Ref sig .tc := ⟨.hbm, 1327, rfl⟩
abbrev main_call4_call0_v161 : Ref sig .tc := ⟨.hbm, 1328, rfl⟩
abbrev main_call4_call0_v162 : Ref sig .tc := ⟨.hbm, 1329, rfl⟩
abbrev main_call4_call0_v163 : Ref sig .tc := ⟨.hbm, 1330, rfl⟩
abbrev main_call4_call0_c_42 : Ref sig .tc := ⟨.hbm, 1331, rfl⟩
abbrev main_call4_call0_v164 : Ref sig .tc := ⟨.hbm, 1332, rfl⟩
abbrev main_call4_call0_v165 : Ref sig .tc := ⟨.hbm, 1333, rfl⟩
abbrev main_call4_call0_c_43 : Ref sig .tc := ⟨.hbm, 1334, rfl⟩
abbrev main_call4_call0_v166 : Ref sig .tc := ⟨.hbm, 1335, rfl⟩
abbrev main_call4_call0_v167 : Ref sig .tc := ⟨.hbm, 1336, rfl⟩
abbrev main_call4_call0_v168 : Ref sig .tc := ⟨.hbm, 1337, rfl⟩
abbrev main_call4_call0_v169 : Ref sig .tc := ⟨.hbm, 1338, rfl⟩
abbrev main_call4_call0_v170 : Ref sig .tc := ⟨.hbm, 1339, rfl⟩
abbrev main_call4_v11_0 : Ref sig .tc := ⟨.hbm, 1340, rfl⟩
abbrev main_call4_call0_v172 : Ref sig .tc := ⟨.hbm, 1341, rfl⟩
abbrev main_call4_call0_v173 : Ref sig .tc := ⟨.hbm, 1342, rfl⟩
abbrev main_call4_call0_c_44 : Ref sig .tc := ⟨.hbm, 1343, rfl⟩
abbrev main_call4_call0_v174 : Ref sig .tc := ⟨.hbm, 1344, rfl⟩
abbrev main_call4_v11_1 : Ref sig .tc := ⟨.hbm, 1345, rfl⟩
abbrev main_call4_v12 : Ref sig .tc := ⟨.hbm, 1346, rfl⟩
abbrev main_call4_v13 : Ref sig .tc := ⟨.hbm, 1347, rfl⟩
abbrev main_v95 : Ref sig .tc := ⟨.hbm, 1348, rfl⟩
abbrev main_v96 : Ref sig .tc := ⟨.hbm, 1349, rfl⟩
abbrev main_v97 : Ref sig .tc := ⟨.hbm, 1350, rfl⟩
abbrev main_v98 : Ref sig .tc := ⟨.hbm, 1351, rfl⟩
abbrev main_v99 : Ref sig .tc := ⟨.hbm, 1352, rfl⟩
abbrev main_cst_26 : Ref sig .tc := ⟨.hbm, 1353, rfl⟩
abbrev main_cst_27 : Ref sig .tc := ⟨.hbm, 1354, rfl⟩
abbrev main_call5_v0 : Ref sig .tc := ⟨.hbm, 1355, rfl⟩
abbrev main_call5_v1 : Ref sig .tc := ⟨.hbm, 1356, rfl⟩
abbrev main_call5_v2 : Ref sig .tc := ⟨.hbm, 1357, rfl⟩
abbrev main_call5_v3 : Ref sig .tc := ⟨.hbm, 1358, rfl⟩
abbrev main_call5_v4 : Ref sig .tc := ⟨.hbm, 1359, rfl⟩
abbrev main_call5_v5 : Ref sig .tc := ⟨.hbm, 1360, rfl⟩
abbrev main_call5_v6 : Ref sig .tc := ⟨.hbm, 1361, rfl⟩
abbrev main_call5_v7 : Ref sig .tc := ⟨.hbm, 1362, rfl⟩
abbrev main_call5_v8 : Ref sig .tc := ⟨.hbm, 1363, rfl⟩
abbrev main_call5_c : Ref sig .tc := ⟨.hbm, 1364, rfl⟩
abbrev main_call5_v9 : Ref sig .tc := ⟨.hbm, 1365, rfl⟩
abbrev main_call5_v10 : Ref sig .tc := ⟨.hbm, 1366, rfl⟩
abbrev main_call5_c_0 : Ref sig .tc := ⟨.hbm, 1367, rfl⟩
abbrev main_call5_v11 : Ref sig .tc := ⟨.hbm, 1368, rfl⟩
abbrev main_call5_v12 : Ref sig .tc := ⟨.hbm, 1369, rfl⟩
abbrev main_call5_v13 : Ref sig .tc := ⟨.hbm, 1370, rfl⟩
abbrev main_call5_v14 : Ref sig .tc := ⟨.hbm, 1371, rfl⟩
abbrev main_call5_call0_v0 : Ref sig .tc := ⟨.hbm, 1372, rfl⟩
abbrev main_call5_call0_c : Ref sig .tc := ⟨.hbm, 1373, rfl⟩
abbrev main_call5_call0_v1 : Ref sig .tc := ⟨.hbm, 1374, rfl⟩
abbrev main_call5_call0_v2 : Ref sig .tc := ⟨.hbm, 1375, rfl⟩
abbrev main_call5_call0_v3 : Ref sig .tc := ⟨.hbm, 1376, rfl⟩
abbrev main_call5_call0_v4 : Ref sig .tc := ⟨.hbm, 1377, rfl⟩
abbrev main_call5_call0_v5 : Ref sig .tc := ⟨.hbm, 1378, rfl⟩
abbrev main_call5_call0_v6 : Ref sig .tc := ⟨.hbm, 1379, rfl⟩
abbrev main_call5_call0_c_0 : Ref sig .tc := ⟨.hbm, 1380, rfl⟩
abbrev main_call5_call0_v7 : Ref sig .tc := ⟨.hbm, 1381, rfl⟩
abbrev main_call5_call0_v8 : Ref sig .tc := ⟨.hbm, 1382, rfl⟩
abbrev main_call5_call0_c_1 : Ref sig .tc := ⟨.hbm, 1383, rfl⟩
abbrev main_call5_call0_v9 : Ref sig .tc := ⟨.hbm, 1384, rfl⟩
abbrev main_call5_call0_v10 : Ref sig .tc := ⟨.hbm, 1385, rfl⟩
abbrev main_call5_call0_v11 : Ref sig .tc := ⟨.hbm, 1386, rfl⟩
abbrev main_call5_call0_v12 : Ref sig .tc := ⟨.hbm, 1387, rfl⟩
abbrev main_call5_call0_v13 : Ref sig .tc := ⟨.hbm, 1388, rfl⟩
abbrev main_call5_call0_c_2 : Ref sig .tc := ⟨.hbm, 1389, rfl⟩
abbrev main_call5_call0_v14 : Ref sig .tc := ⟨.hbm, 1390, rfl⟩
abbrev main_call5_call0_v15 : Ref sig .tc := ⟨.hbm, 1391, rfl⟩
abbrev main_call5_call0_c_3 : Ref sig .tc := ⟨.hbm, 1392, rfl⟩
abbrev main_call5_call0_v16 : Ref sig .tc := ⟨.hbm, 1393, rfl⟩
abbrev main_call5_call0_v17 : Ref sig .tc := ⟨.hbm, 1394, rfl⟩
abbrev main_call5_call0_v18 : Ref sig .tc := ⟨.hbm, 1395, rfl⟩
abbrev main_call5_call0_v19 : Ref sig .tc := ⟨.hbm, 1396, rfl⟩
abbrev main_call5_call0_v20 : Ref sig .tc := ⟨.hbm, 1397, rfl⟩
abbrev main_call5_call0_c_4 : Ref sig .tc := ⟨.hbm, 1398, rfl⟩
abbrev main_call5_call0_v21 : Ref sig .tc := ⟨.hbm, 1399, rfl⟩
abbrev main_call5_call0_v22 : Ref sig .tc := ⟨.hbm, 1400, rfl⟩
abbrev main_call5_call0_c_5 : Ref sig .tc := ⟨.hbm, 1401, rfl⟩
abbrev main_call5_call0_v23 : Ref sig .tc := ⟨.hbm, 1402, rfl⟩
abbrev main_call5_call0_v24 : Ref sig .tc := ⟨.hbm, 1403, rfl⟩
abbrev main_call5_call0_v25 : Ref sig .tc := ⟨.hbm, 1404, rfl⟩
abbrev main_call5_call0_v26 : Ref sig .tc := ⟨.hbm, 1405, rfl⟩
abbrev main_call5_call0_v27 : Ref sig .tc := ⟨.hbm, 1406, rfl⟩
abbrev main_call5_call0_c_6 : Ref sig .tc := ⟨.hbm, 1407, rfl⟩
abbrev main_call5_call0_v28 : Ref sig .tc := ⟨.hbm, 1408, rfl⟩
abbrev main_call5_call0_v29 : Ref sig .tc := ⟨.hbm, 1409, rfl⟩
abbrev main_call5_call0_c_7 : Ref sig .tc := ⟨.hbm, 1410, rfl⟩
abbrev main_call5_call0_v30 : Ref sig .tc := ⟨.hbm, 1411, rfl⟩
abbrev main_call5_call0_v31 : Ref sig .tc := ⟨.hbm, 1412, rfl⟩
abbrev main_call5_call0_v32 : Ref sig .tc := ⟨.hbm, 1413, rfl⟩
abbrev main_call5_call0_v33 : Ref sig .tc := ⟨.hbm, 1414, rfl⟩
abbrev main_call5_call0_v34 : Ref sig .tc := ⟨.hbm, 1415, rfl⟩
abbrev main_call5_call0_v35 : Ref sig .tc := ⟨.hbm, 1416, rfl⟩
abbrev main_call5_call0_v36 : Ref sig .tc := ⟨.hbm, 1417, rfl⟩
abbrev main_call5_call0_v37 : Ref sig .tc := ⟨.hbm, 1418, rfl⟩
abbrev main_call5_call0_c_8 : Ref sig .tc := ⟨.hbm, 1419, rfl⟩
abbrev main_call5_call0_v38 : Ref sig .tc := ⟨.hbm, 1420, rfl⟩
abbrev main_call5_call0_v39 : Ref sig .tc := ⟨.hbm, 1421, rfl⟩
abbrev main_call5_call0_v40 : Ref sig .tc := ⟨.hbm, 1422, rfl⟩
abbrev main_call5_call0_c_9 : Ref sig .tc := ⟨.hbm, 1423, rfl⟩
abbrev main_call5_call0_v41 : Ref sig .tc := ⟨.hbm, 1424, rfl⟩
abbrev main_call5_call0_v42 : Ref sig .tc := ⟨.hbm, 1425, rfl⟩
abbrev main_call5_call0_c_10 : Ref sig .tc := ⟨.hbm, 1426, rfl⟩
abbrev main_call5_call0_v43 : Ref sig .tc := ⟨.hbm, 1427, rfl⟩
abbrev main_call5_call0_v44 : Ref sig .tc := ⟨.hbm, 1428, rfl⟩
abbrev main_call5_call0_v45 : Ref sig .tc := ⟨.hbm, 1429, rfl⟩
abbrev main_call5_call0_v46 : Ref sig .tc := ⟨.hbm, 1430, rfl⟩
abbrev main_call5_call0_v47 : Ref sig .tc := ⟨.hbm, 1431, rfl⟩
abbrev main_call5_call0_c_11 : Ref sig .tc := ⟨.hbm, 1432, rfl⟩
abbrev main_call5_call0_v48 : Ref sig .tc := ⟨.hbm, 1433, rfl⟩
abbrev main_call5_call0_v49 : Ref sig .tc := ⟨.hbm, 1434, rfl⟩
abbrev main_call5_call0_c_12 : Ref sig .tc := ⟨.hbm, 1435, rfl⟩
abbrev main_call5_call0_v50 : Ref sig .tc := ⟨.hbm, 1436, rfl⟩
abbrev main_call5_call0_v51 : Ref sig .tc := ⟨.hbm, 1437, rfl⟩
abbrev main_call5_call0_v52 : Ref sig .tc := ⟨.hbm, 1438, rfl⟩
abbrev main_call5_call0_v53 : Ref sig .tc := ⟨.hbm, 1439, rfl⟩
abbrev main_call5_call0_v54 : Ref sig .tc := ⟨.hbm, 1440, rfl⟩
abbrev main_call5_call0_c_13 : Ref sig .tc := ⟨.hbm, 1441, rfl⟩
abbrev main_call5_call0_v55 : Ref sig .tc := ⟨.hbm, 1442, rfl⟩
abbrev main_call5_call0_v56 : Ref sig .tc := ⟨.hbm, 1443, rfl⟩
abbrev main_call5_call0_c_14 : Ref sig .tc := ⟨.hbm, 1444, rfl⟩
abbrev main_call5_call0_v57 : Ref sig .tc := ⟨.hbm, 1445, rfl⟩
abbrev main_call5_call0_v58 : Ref sig .tc := ⟨.hbm, 1446, rfl⟩
abbrev main_call5_call0_v59 : Ref sig .tc := ⟨.hbm, 1447, rfl⟩
abbrev main_call5_call0_v60 : Ref sig .tc := ⟨.hbm, 1448, rfl⟩
abbrev main_call5_call0_v61 : Ref sig .tc := ⟨.hbm, 1449, rfl⟩
abbrev main_call5_call0_c_15 : Ref sig .tc := ⟨.hbm, 1450, rfl⟩
abbrev main_call5_call0_v62 : Ref sig .tc := ⟨.hbm, 1451, rfl⟩
abbrev main_call5_call0_v63 : Ref sig .tc := ⟨.hbm, 1452, rfl⟩
abbrev main_call5_call0_c_16 : Ref sig .tc := ⟨.hbm, 1453, rfl⟩
abbrev main_call5_call0_v64 : Ref sig .tc := ⟨.hbm, 1454, rfl⟩
abbrev main_call5_call0_v65 : Ref sig .tc := ⟨.hbm, 1455, rfl⟩
abbrev main_call5_call0_v66 : Ref sig .tc := ⟨.hbm, 1456, rfl⟩
abbrev main_call5_call0_v67 : Ref sig .tc := ⟨.hbm, 1457, rfl⟩
abbrev main_call5_call0_v68 : Ref sig .tc := ⟨.hbm, 1458, rfl⟩
abbrev main_call5_call0_v69 : Ref sig .tc := ⟨.hbm, 1459, rfl⟩
abbrev main_call5_call0_v70 : Ref sig .tc := ⟨.hbm, 1460, rfl⟩
abbrev main_call5_call0_v71 : Ref sig .tc := ⟨.hbm, 1461, rfl⟩
abbrev main_call5_call0_c_17 : Ref sig .tc := ⟨.hbm, 1462, rfl⟩
abbrev main_call5_call0_v72 : Ref sig .tc := ⟨.hbm, 1463, rfl⟩
abbrev main_call5_call0_v73 : Ref sig .tc := ⟨.hbm, 1464, rfl⟩
abbrev main_call5_call0_v74 : Ref sig .tc := ⟨.hbm, 1465, rfl⟩
abbrev main_call5_call0_c_18 : Ref sig .tc := ⟨.hbm, 1466, rfl⟩
abbrev main_call5_call0_v75 : Ref sig .tc := ⟨.hbm, 1467, rfl⟩
abbrev main_call5_call0_v76 : Ref sig .tc := ⟨.hbm, 1468, rfl⟩
abbrev main_call5_call0_c_19 : Ref sig .tc := ⟨.hbm, 1469, rfl⟩
abbrev main_call5_call0_v77 : Ref sig .tc := ⟨.hbm, 1470, rfl⟩
abbrev main_call5_call0_v78 : Ref sig .tc := ⟨.hbm, 1471, rfl⟩
abbrev main_call5_call0_v79 : Ref sig .tc := ⟨.hbm, 1472, rfl⟩
abbrev main_call5_call0_v80 : Ref sig .tc := ⟨.hbm, 1473, rfl⟩
abbrev main_call5_call0_v81 : Ref sig .tc := ⟨.hbm, 1474, rfl⟩
abbrev main_call5_call0_c_20 : Ref sig .tc := ⟨.hbm, 1475, rfl⟩
abbrev main_call5_call0_v82 : Ref sig .tc := ⟨.hbm, 1476, rfl⟩
abbrev main_call5_call0_v83 : Ref sig .tc := ⟨.hbm, 1477, rfl⟩
abbrev main_call5_call0_c_21 : Ref sig .tc := ⟨.hbm, 1478, rfl⟩
abbrev main_call5_call0_v84 : Ref sig .tc := ⟨.hbm, 1479, rfl⟩
abbrev main_call5_call0_v85 : Ref sig .tc := ⟨.hbm, 1480, rfl⟩
abbrev main_call5_call0_v86 : Ref sig .tc := ⟨.hbm, 1481, rfl⟩
abbrev main_call5_call0_v87 : Ref sig .tc := ⟨.hbm, 1482, rfl⟩
abbrev main_call5_call0_v88 : Ref sig .tc := ⟨.hbm, 1483, rfl⟩
abbrev main_call5_call0_c_22 : Ref sig .tc := ⟨.hbm, 1484, rfl⟩
abbrev main_call5_call0_v89 : Ref sig .tc := ⟨.hbm, 1485, rfl⟩
abbrev main_call5_call0_v90 : Ref sig .tc := ⟨.hbm, 1486, rfl⟩
abbrev main_call5_call0_c_23 : Ref sig .tc := ⟨.hbm, 1487, rfl⟩
abbrev main_call5_call0_v91 : Ref sig .tc := ⟨.hbm, 1488, rfl⟩
abbrev main_call5_call0_v92 : Ref sig .tc := ⟨.hbm, 1489, rfl⟩
abbrev main_call5_call0_v93 : Ref sig .tc := ⟨.hbm, 1490, rfl⟩
abbrev main_call5_call0_v94 : Ref sig .tc := ⟨.hbm, 1491, rfl⟩
abbrev main_call5_call0_v95 : Ref sig .tc := ⟨.hbm, 1492, rfl⟩
abbrev main_call5_call0_c_24 : Ref sig .tc := ⟨.hbm, 1493, rfl⟩
abbrev main_call5_call0_v96 : Ref sig .tc := ⟨.hbm, 1494, rfl⟩
abbrev main_call5_call0_v97 : Ref sig .tc := ⟨.hbm, 1495, rfl⟩
abbrev main_call5_call0_c_25 : Ref sig .tc := ⟨.hbm, 1496, rfl⟩
abbrev main_call5_call0_v98 : Ref sig .tc := ⟨.hbm, 1497, rfl⟩
abbrev main_call5_call0_v99 : Ref sig .tc := ⟨.hbm, 1498, rfl⟩
abbrev main_call5_call0_v100 : Ref sig .tc := ⟨.hbm, 1499, rfl⟩
abbrev main_call5_call0_v101 : Ref sig .tc := ⟨.hbm, 1500, rfl⟩
abbrev main_call5_call0_v102 : Ref sig .tc := ⟨.hbm, 1501, rfl⟩
abbrev main_call5_call0_v103 : Ref sig .tc := ⟨.hbm, 1502, rfl⟩
abbrev main_call5_call0_v104 : Ref sig .tc := ⟨.hbm, 1503, rfl⟩
abbrev main_call5_call0_v105 : Ref sig .tc := ⟨.hbm, 1504, rfl⟩
abbrev main_call5_call0_c_26 : Ref sig .tc := ⟨.hbm, 1505, rfl⟩
abbrev main_call5_call0_v106 : Ref sig .tc := ⟨.hbm, 1506, rfl⟩
abbrev main_call5_call0_v107 : Ref sig .tc := ⟨.hbm, 1507, rfl⟩
abbrev main_call5_call0_v108 : Ref sig .tc := ⟨.hbm, 1508, rfl⟩
abbrev main_call5_call0_c_27 : Ref sig .tc := ⟨.hbm, 1509, rfl⟩
abbrev main_call5_call0_v109 : Ref sig .tc := ⟨.hbm, 1510, rfl⟩
abbrev main_call5_call0_v110 : Ref sig .tc := ⟨.hbm, 1511, rfl⟩
abbrev main_call5_call0_c_28 : Ref sig .tc := ⟨.hbm, 1512, rfl⟩
abbrev main_call5_call0_v111 : Ref sig .tc := ⟨.hbm, 1513, rfl⟩
abbrev main_call5_call0_v112 : Ref sig .tc := ⟨.hbm, 1514, rfl⟩
abbrev main_call5_call0_v113 : Ref sig .tc := ⟨.hbm, 1515, rfl⟩
abbrev main_call5_call0_v114 : Ref sig .tc := ⟨.hbm, 1516, rfl⟩
abbrev main_call5_call0_v115 : Ref sig .tc := ⟨.hbm, 1517, rfl⟩
abbrev main_call5_call0_c_29 : Ref sig .tc := ⟨.hbm, 1518, rfl⟩
abbrev main_call5_call0_v116 : Ref sig .tc := ⟨.hbm, 1519, rfl⟩
abbrev main_call5_call0_v117 : Ref sig .tc := ⟨.hbm, 1520, rfl⟩
abbrev main_call5_call0_c_30 : Ref sig .tc := ⟨.hbm, 1521, rfl⟩
abbrev main_call5_call0_v118 : Ref sig .tc := ⟨.hbm, 1522, rfl⟩
abbrev main_call5_call0_v119 : Ref sig .tc := ⟨.hbm, 1523, rfl⟩
abbrev main_call5_call0_v120 : Ref sig .tc := ⟨.hbm, 1524, rfl⟩
abbrev main_call5_call0_v121 : Ref sig .tc := ⟨.hbm, 1525, rfl⟩
abbrev main_call5_call0_v122 : Ref sig .tc := ⟨.hbm, 1526, rfl⟩
abbrev main_call5_call0_c_31 : Ref sig .tc := ⟨.hbm, 1527, rfl⟩
abbrev main_call5_call0_v123 : Ref sig .tc := ⟨.hbm, 1528, rfl⟩
abbrev main_call5_call0_v124 : Ref sig .tc := ⟨.hbm, 1529, rfl⟩
abbrev main_call5_call0_c_32 : Ref sig .tc := ⟨.hbm, 1530, rfl⟩
abbrev main_call5_call0_v125 : Ref sig .tc := ⟨.hbm, 1531, rfl⟩
abbrev main_call5_call0_v126 : Ref sig .tc := ⟨.hbm, 1532, rfl⟩
abbrev main_call5_call0_v127 : Ref sig .tc := ⟨.hbm, 1533, rfl⟩
abbrev main_call5_call0_v128 : Ref sig .tc := ⟨.hbm, 1534, rfl⟩
abbrev main_call5_call0_v129 : Ref sig .tc := ⟨.hbm, 1535, rfl⟩
abbrev main_call5_call0_c_33 : Ref sig .tc := ⟨.hbm, 1536, rfl⟩
abbrev main_call5_call0_v130 : Ref sig .tc := ⟨.hbm, 1537, rfl⟩
abbrev main_call5_call0_v131 : Ref sig .tc := ⟨.hbm, 1538, rfl⟩
abbrev main_call5_call0_c_34 : Ref sig .tc := ⟨.hbm, 1539, rfl⟩
abbrev main_call5_call0_v132 : Ref sig .tc := ⟨.hbm, 1540, rfl⟩
abbrev main_call5_call0_v133 : Ref sig .tc := ⟨.hbm, 1541, rfl⟩
abbrev main_call5_call0_v134 : Ref sig .tc := ⟨.hbm, 1542, rfl⟩
abbrev main_call5_call0_v135 : Ref sig .tc := ⟨.hbm, 1543, rfl⟩
abbrev main_call5_call0_v136 : Ref sig .tc := ⟨.hbm, 1544, rfl⟩
abbrev main_call5_call0_v137 : Ref sig .tc := ⟨.hbm, 1545, rfl⟩
abbrev main_call5_call0_v138 : Ref sig .tc := ⟨.hbm, 1546, rfl⟩
abbrev main_call5_call0_v139 : Ref sig .tc := ⟨.hbm, 1547, rfl⟩
abbrev main_call5_call0_c_35 : Ref sig .tc := ⟨.hbm, 1548, rfl⟩
abbrev main_call5_call0_v140 : Ref sig .tc := ⟨.hbm, 1549, rfl⟩
abbrev main_call5_call0_v141 : Ref sig .tc := ⟨.hbm, 1550, rfl⟩
abbrev main_call5_call0_v142 : Ref sig .tc := ⟨.hbm, 1551, rfl⟩
abbrev main_call5_call0_c_36 : Ref sig .tc := ⟨.hbm, 1552, rfl⟩
abbrev main_call5_call0_v143 : Ref sig .tc := ⟨.hbm, 1553, rfl⟩
abbrev main_call5_call0_v144 : Ref sig .tc := ⟨.hbm, 1554, rfl⟩
abbrev main_call5_call0_c_37 : Ref sig .tc := ⟨.hbm, 1555, rfl⟩
abbrev main_call5_call0_v145 : Ref sig .tc := ⟨.hbm, 1556, rfl⟩
abbrev main_call5_call0_v146 : Ref sig .tc := ⟨.hbm, 1557, rfl⟩
abbrev main_call5_call0_v147 : Ref sig .tc := ⟨.hbm, 1558, rfl⟩
abbrev main_call5_call0_v148 : Ref sig .tc := ⟨.hbm, 1559, rfl⟩
abbrev main_call5_call0_v149 : Ref sig .tc := ⟨.hbm, 1560, rfl⟩
abbrev main_call5_call0_c_38 : Ref sig .tc := ⟨.hbm, 1561, rfl⟩
abbrev main_call5_call0_v150 : Ref sig .tc := ⟨.hbm, 1562, rfl⟩
abbrev main_call5_call0_v151 : Ref sig .tc := ⟨.hbm, 1563, rfl⟩
abbrev main_call5_call0_c_39 : Ref sig .tc := ⟨.hbm, 1564, rfl⟩
abbrev main_call5_call0_v152 : Ref sig .tc := ⟨.hbm, 1565, rfl⟩
abbrev main_call5_call0_v153 : Ref sig .tc := ⟨.hbm, 1566, rfl⟩
abbrev main_call5_call0_v154 : Ref sig .tc := ⟨.hbm, 1567, rfl⟩
abbrev main_call5_call0_v155 : Ref sig .tc := ⟨.hbm, 1568, rfl⟩
abbrev main_call5_call0_v156 : Ref sig .tc := ⟨.hbm, 1569, rfl⟩
abbrev main_call5_call0_c_40 : Ref sig .tc := ⟨.hbm, 1570, rfl⟩
abbrev main_call5_call0_v157 : Ref sig .tc := ⟨.hbm, 1571, rfl⟩
abbrev main_call5_call0_v158 : Ref sig .tc := ⟨.hbm, 1572, rfl⟩
abbrev main_call5_call0_c_41 : Ref sig .tc := ⟨.hbm, 1573, rfl⟩
abbrev main_call5_call0_v159 : Ref sig .tc := ⟨.hbm, 1574, rfl⟩
abbrev main_call5_call0_v160 : Ref sig .tc := ⟨.hbm, 1575, rfl⟩
abbrev main_call5_call0_v161 : Ref sig .tc := ⟨.hbm, 1576, rfl⟩
abbrev main_call5_call0_v162 : Ref sig .tc := ⟨.hbm, 1577, rfl⟩
abbrev main_call5_call0_v163 : Ref sig .tc := ⟨.hbm, 1578, rfl⟩
abbrev main_call5_call0_c_42 : Ref sig .tc := ⟨.hbm, 1579, rfl⟩
abbrev main_call5_call0_v164 : Ref sig .tc := ⟨.hbm, 1580, rfl⟩
abbrev main_call5_call0_v165 : Ref sig .tc := ⟨.hbm, 1581, rfl⟩
abbrev main_call5_call0_c_43 : Ref sig .tc := ⟨.hbm, 1582, rfl⟩
abbrev main_call5_call0_v166 : Ref sig .tc := ⟨.hbm, 1583, rfl⟩
abbrev main_call5_call0_v167 : Ref sig .tc := ⟨.hbm, 1584, rfl⟩
abbrev main_call5_call0_v168 : Ref sig .tc := ⟨.hbm, 1585, rfl⟩
abbrev main_call5_call0_v169 : Ref sig .tc := ⟨.hbm, 1586, rfl⟩
abbrev main_call5_call0_v170 : Ref sig .tc := ⟨.hbm, 1587, rfl⟩
abbrev main_call5_v15_0 : Ref sig .tc := ⟨.hbm, 1588, rfl⟩
abbrev main_call5_call0_v172 : Ref sig .tc := ⟨.hbm, 1589, rfl⟩
abbrev main_call5_call0_v173 : Ref sig .tc := ⟨.hbm, 1590, rfl⟩
abbrev main_call5_call0_c_44 : Ref sig .tc := ⟨.hbm, 1591, rfl⟩
abbrev main_call5_call0_v174 : Ref sig .tc := ⟨.hbm, 1592, rfl⟩
abbrev main_call5_v15_1 : Ref sig .tc := ⟨.hbm, 1593, rfl⟩
abbrev main_call5_v16 : Ref sig .tc := ⟨.hbm, 1594, rfl⟩
abbrev main_call5_c_1 : Ref sig .tc := ⟨.hbm, 1595, rfl⟩
abbrev main_call5_v17 : Ref sig .tc := ⟨.hbm, 1596, rfl⟩
abbrev main_call5_v18 : Ref sig .tc := ⟨.hbm, 1597, rfl⟩
abbrev main_call5_c_2 : Ref sig .tc := ⟨.hbm, 1598, rfl⟩
abbrev main_call5_v19 : Ref sig .tc := ⟨.hbm, 1599, rfl⟩
abbrev main_call5_v20 : Ref sig .tc := ⟨.hbm, 1600, rfl⟩
abbrev main_call5_v21 : Ref sig .tc := ⟨.hbm, 1601, rfl⟩
abbrev main_call5_cst : Ref sig .tc := ⟨.hbm, 1602, rfl⟩
abbrev main_call5_v22 : Ref sig .tc := ⟨.hbm, 1603, rfl⟩
abbrev main_call5_v23 : Ref sig .tc := ⟨.hbm, 1604, rfl⟩
abbrev main_call5_v24 : Ref sig .tc := ⟨.hbm, 1605, rfl⟩
abbrev main_call5_v25 : Ref sig .tc := ⟨.hbm, 1606, rfl⟩
abbrev main_call5_v26 : Ref sig .tc := ⟨.hbm, 1607, rfl⟩
abbrev main_call5_v27 : Ref sig .tc := ⟨.hbm, 1608, rfl⟩
abbrev main_call5_v28 : Ref sig .tc := ⟨.hbm, 1609, rfl⟩
abbrev main_call5_v29 : Ref sig .tc := ⟨.hbm, 1610, rfl⟩
abbrev main_v100 : Ref sig .tc := ⟨.hbm, 1611, rfl⟩
abbrev main_v101 : Ref sig .tc := ⟨.hbm, 1612, rfl⟩
abbrev main_v102 : Ref sig .tc := ⟨.hbm, 1613, rfl⟩
abbrev main_cst_28 : Ref sig .tc := ⟨.hbm, 1614, rfl⟩
abbrev main_v103 : Ref sig .tc := ⟨.hbm, 1615, rfl⟩
abbrev main_v104 : Ref sig .tc := ⟨.hbm, 1616, rfl⟩
abbrev main_cst_29 : Ref sig .tc := ⟨.hbm, 1617, rfl⟩
abbrev main_v105 : Ref sig .tc := ⟨.hbm, 1618, rfl⟩
abbrev main_v106 : Ref sig .tc := ⟨.hbm, 1619, rfl⟩
abbrev main_v107 : Ref sig .tc := ⟨.hbm, 1620, rfl⟩
abbrev main_v108 : Ref sig .tc := ⟨.hbm, 1621, rfl⟩
abbrev main_v109 : Ref sig .tc := ⟨.hbm, 1622, rfl⟩
abbrev main_v110 : Ref sig .tc := ⟨.hbm, 1623, rfl⟩
abbrev main_v111 : Ref sig .tc := ⟨.hbm, 1624, rfl⟩
abbrev main_v112 : Ref sig .tc := ⟨.hbm, 1625, rfl⟩
abbrev main_cst_30 : Ref sig .tc := ⟨.hbm, 1626, rfl⟩
abbrev main_v113 : Ref sig .tc := ⟨.hbm, 1627, rfl⟩
abbrev main_v114 : Ref sig .tc := ⟨.hbm, 1628, rfl⟩
abbrev main_v115 : Ref sig .tc := ⟨.hbm, 1629, rfl⟩
abbrev main_v116 : Ref sig .tc := ⟨.hbm, 1630, rfl⟩
abbrev main_v117 : Ref sig .tc := ⟨.hbm, 1631, rfl⟩
abbrev main_v118 : Ref sig .tc := ⟨.hbm, 1632, rfl⟩
abbrev main_cst_31 : Ref sig .tc := ⟨.hbm, 1633, rfl⟩
abbrev main_v119 : Ref sig .tc := ⟨.hbm, 1634, rfl⟩
abbrev main_c_32 : Ref sig .tc := ⟨.hbm, 1635, rfl⟩
abbrev main_v120 : Ref sig .tc := ⟨.hbm, 1636, rfl⟩
abbrev main_cst_33 : Ref sig .tc := ⟨.hbm, 1637, rfl⟩
abbrev main_v121 : Ref sig .tc := ⟨.hbm, 1638, rfl⟩
abbrev main_v122 : Ref sig .tc := ⟨.hbm, 1639, rfl⟩
abbrev main_cst_34 : Ref sig .tc := ⟨.hbm, 1640, rfl⟩
abbrev main_v123 : Ref sig .tc := ⟨.hbm, 1641, rfl⟩
abbrev main_v124 : Ref sig .tc := ⟨.hbm, 1642, rfl⟩
abbrev main_v125 : Ref sig .tc := ⟨.hbm, 1643, rfl⟩
abbrev main_cst_35 : Ref sig .tc := ⟨.hbm, 1644, rfl⟩
abbrev main_v126 : Ref sig .tc := ⟨.hbm, 1645, rfl⟩
abbrev main_v127 : Ref sig .tc := ⟨.hbm, 1646, rfl⟩
abbrev main_v128 : Ref sig .tc := ⟨.hbm, 1647, rfl⟩
abbrev main_v129 : Ref sig .tc := ⟨.hbm, 1648, rfl⟩
abbrev main_v130 : Ref sig .tc := ⟨.hbm, 1649, rfl⟩
abbrev main_v131 : Ref sig .tc := ⟨.hbm, 1650, rfl⟩
abbrev main_call6_v0 : Ref sig .tc := ⟨.hbm, 1651, rfl⟩
abbrev main_call6_v1 : Ref sig .tc := ⟨.hbm, 1652, rfl⟩
abbrev main_call6_v2 : Ref sig .tc := ⟨.hbm, 1653, rfl⟩
abbrev main_call6_v3 : Ref sig .tc := ⟨.hbm, 1654, rfl⟩
abbrev main_call6_v4 : Ref sig .tc := ⟨.hbm, 1655, rfl⟩
abbrev main_call6_c : Ref sig .tc := ⟨.hbm, 1656, rfl⟩
abbrev main_call6_v5 : Ref sig .tc := ⟨.hbm, 1657, rfl⟩
abbrev main_call6_v6 : Ref sig .tc := ⟨.hbm, 1658, rfl⟩
abbrev main_call6_c_0 : Ref sig .tc := ⟨.hbm, 1659, rfl⟩
abbrev main_call6_v7 : Ref sig .tc := ⟨.hbm, 1660, rfl⟩
abbrev main_call6_v8 : Ref sig .tc := ⟨.hbm, 1661, rfl⟩
abbrev main_call6_v9 : Ref sig .tc := ⟨.hbm, 1662, rfl⟩
abbrev main_call6_v10 : Ref sig .tc := ⟨.hbm, 1663, rfl⟩
abbrev main_call6_call0_v0 : Ref sig .tc := ⟨.hbm, 1664, rfl⟩
abbrev main_call6_call0_c : Ref sig .tc := ⟨.hbm, 1665, rfl⟩
abbrev main_call6_call0_v1 : Ref sig .tc := ⟨.hbm, 1666, rfl⟩
abbrev main_call6_call0_v2 : Ref sig .tc := ⟨.hbm, 1667, rfl⟩
abbrev main_call6_call0_v3 : Ref sig .tc := ⟨.hbm, 1668, rfl⟩
abbrev main_call6_call0_v4 : Ref sig .tc := ⟨.hbm, 1669, rfl⟩
abbrev main_call6_call0_v5 : Ref sig .tc := ⟨.hbm, 1670, rfl⟩
abbrev main_call6_call0_v6 : Ref sig .tc := ⟨.hbm, 1671, rfl⟩
abbrev main_call6_call0_c_0 : Ref sig .tc := ⟨.hbm, 1672, rfl⟩
abbrev main_call6_call0_v7 : Ref sig .tc := ⟨.hbm, 1673, rfl⟩
abbrev main_call6_call0_v8 : Ref sig .tc := ⟨.hbm, 1674, rfl⟩
abbrev main_call6_call0_c_1 : Ref sig .tc := ⟨.hbm, 1675, rfl⟩
abbrev main_call6_call0_v9 : Ref sig .tc := ⟨.hbm, 1676, rfl⟩
abbrev main_call6_call0_v10 : Ref sig .tc := ⟨.hbm, 1677, rfl⟩
abbrev main_call6_call0_v11 : Ref sig .tc := ⟨.hbm, 1678, rfl⟩
abbrev main_call6_call0_v12 : Ref sig .tc := ⟨.hbm, 1679, rfl⟩
abbrev main_call6_call0_v13 : Ref sig .tc := ⟨.hbm, 1680, rfl⟩
abbrev main_call6_call0_c_2 : Ref sig .tc := ⟨.hbm, 1681, rfl⟩
abbrev main_call6_call0_v14 : Ref sig .tc := ⟨.hbm, 1682, rfl⟩
abbrev main_call6_call0_v15 : Ref sig .tc := ⟨.hbm, 1683, rfl⟩
abbrev main_call6_call0_c_3 : Ref sig .tc := ⟨.hbm, 1684, rfl⟩
abbrev main_call6_call0_v16 : Ref sig .tc := ⟨.hbm, 1685, rfl⟩
abbrev main_call6_call0_v17 : Ref sig .tc := ⟨.hbm, 1686, rfl⟩
abbrev main_call6_call0_v18 : Ref sig .tc := ⟨.hbm, 1687, rfl⟩
abbrev main_call6_call0_v19 : Ref sig .tc := ⟨.hbm, 1688, rfl⟩
abbrev main_call6_call0_v20 : Ref sig .tc := ⟨.hbm, 1689, rfl⟩
abbrev main_call6_call0_c_4 : Ref sig .tc := ⟨.hbm, 1690, rfl⟩
abbrev main_call6_call0_v21 : Ref sig .tc := ⟨.hbm, 1691, rfl⟩
abbrev main_call6_call0_v22 : Ref sig .tc := ⟨.hbm, 1692, rfl⟩
abbrev main_call6_call0_c_5 : Ref sig .tc := ⟨.hbm, 1693, rfl⟩
abbrev main_call6_call0_v23 : Ref sig .tc := ⟨.hbm, 1694, rfl⟩
abbrev main_call6_call0_v24 : Ref sig .tc := ⟨.hbm, 1695, rfl⟩
abbrev main_call6_call0_v25 : Ref sig .tc := ⟨.hbm, 1696, rfl⟩
abbrev main_call6_call0_v26 : Ref sig .tc := ⟨.hbm, 1697, rfl⟩
abbrev main_call6_call0_v27 : Ref sig .tc := ⟨.hbm, 1698, rfl⟩
abbrev main_call6_call0_c_6 : Ref sig .tc := ⟨.hbm, 1699, rfl⟩
abbrev main_call6_call0_v28 : Ref sig .tc := ⟨.hbm, 1700, rfl⟩
abbrev main_call6_call0_v29 : Ref sig .tc := ⟨.hbm, 1701, rfl⟩
abbrev main_call6_call0_c_7 : Ref sig .tc := ⟨.hbm, 1702, rfl⟩
abbrev main_call6_call0_v30 : Ref sig .tc := ⟨.hbm, 1703, rfl⟩
abbrev main_call6_call0_v31 : Ref sig .tc := ⟨.hbm, 1704, rfl⟩
abbrev main_call6_call0_v32 : Ref sig .tc := ⟨.hbm, 1705, rfl⟩
abbrev main_call6_call0_v33 : Ref sig .tc := ⟨.hbm, 1706, rfl⟩
abbrev main_call6_call0_v34 : Ref sig .tc := ⟨.hbm, 1707, rfl⟩
abbrev main_call6_call0_v35 : Ref sig .tc := ⟨.hbm, 1708, rfl⟩
abbrev main_call6_call0_v36 : Ref sig .tc := ⟨.hbm, 1709, rfl⟩
abbrev main_call6_call0_v37 : Ref sig .tc := ⟨.hbm, 1710, rfl⟩
abbrev main_call6_call0_c_8 : Ref sig .tc := ⟨.hbm, 1711, rfl⟩
abbrev main_call6_call0_v38 : Ref sig .tc := ⟨.hbm, 1712, rfl⟩
abbrev main_call6_call0_v39 : Ref sig .tc := ⟨.hbm, 1713, rfl⟩
abbrev main_call6_call0_v40 : Ref sig .tc := ⟨.hbm, 1714, rfl⟩
abbrev main_call6_call0_c_9 : Ref sig .tc := ⟨.hbm, 1715, rfl⟩
abbrev main_call6_call0_v41 : Ref sig .tc := ⟨.hbm, 1716, rfl⟩
abbrev main_call6_call0_v42 : Ref sig .tc := ⟨.hbm, 1717, rfl⟩
abbrev main_call6_call0_c_10 : Ref sig .tc := ⟨.hbm, 1718, rfl⟩
abbrev main_call6_call0_v43 : Ref sig .tc := ⟨.hbm, 1719, rfl⟩
abbrev main_call6_call0_v44 : Ref sig .tc := ⟨.hbm, 1720, rfl⟩
abbrev main_call6_call0_v45 : Ref sig .tc := ⟨.hbm, 1721, rfl⟩
abbrev main_call6_call0_v46 : Ref sig .tc := ⟨.hbm, 1722, rfl⟩
abbrev main_call6_call0_v47 : Ref sig .tc := ⟨.hbm, 1723, rfl⟩
abbrev main_call6_call0_c_11 : Ref sig .tc := ⟨.hbm, 1724, rfl⟩
abbrev main_call6_call0_v48 : Ref sig .tc := ⟨.hbm, 1725, rfl⟩
abbrev main_call6_call0_v49 : Ref sig .tc := ⟨.hbm, 1726, rfl⟩
abbrev main_call6_call0_c_12 : Ref sig .tc := ⟨.hbm, 1727, rfl⟩
abbrev main_call6_call0_v50 : Ref sig .tc := ⟨.hbm, 1728, rfl⟩
abbrev main_call6_call0_v51 : Ref sig .tc := ⟨.hbm, 1729, rfl⟩
abbrev main_call6_call0_v52 : Ref sig .tc := ⟨.hbm, 1730, rfl⟩
abbrev main_call6_call0_v53 : Ref sig .tc := ⟨.hbm, 1731, rfl⟩
abbrev main_call6_call0_v54 : Ref sig .tc := ⟨.hbm, 1732, rfl⟩
abbrev main_call6_call0_c_13 : Ref sig .tc := ⟨.hbm, 1733, rfl⟩
abbrev main_call6_call0_v55 : Ref sig .tc := ⟨.hbm, 1734, rfl⟩
abbrev main_call6_call0_v56 : Ref sig .tc := ⟨.hbm, 1735, rfl⟩
abbrev main_call6_call0_c_14 : Ref sig .tc := ⟨.hbm, 1736, rfl⟩
abbrev main_call6_call0_v57 : Ref sig .tc := ⟨.hbm, 1737, rfl⟩
abbrev main_call6_call0_v58 : Ref sig .tc := ⟨.hbm, 1738, rfl⟩
abbrev main_call6_call0_v59 : Ref sig .tc := ⟨.hbm, 1739, rfl⟩
abbrev main_call6_call0_v60 : Ref sig .tc := ⟨.hbm, 1740, rfl⟩
abbrev main_call6_call0_v61 : Ref sig .tc := ⟨.hbm, 1741, rfl⟩
abbrev main_call6_call0_c_15 : Ref sig .tc := ⟨.hbm, 1742, rfl⟩
abbrev main_call6_call0_v62 : Ref sig .tc := ⟨.hbm, 1743, rfl⟩
abbrev main_call6_call0_v63 : Ref sig .tc := ⟨.hbm, 1744, rfl⟩
abbrev main_call6_call0_c_16 : Ref sig .tc := ⟨.hbm, 1745, rfl⟩
abbrev main_call6_call0_v64 : Ref sig .tc := ⟨.hbm, 1746, rfl⟩
abbrev main_call6_call0_v65 : Ref sig .tc := ⟨.hbm, 1747, rfl⟩
abbrev main_call6_call0_v66 : Ref sig .tc := ⟨.hbm, 1748, rfl⟩
abbrev main_call6_call0_v67 : Ref sig .tc := ⟨.hbm, 1749, rfl⟩
abbrev main_call6_call0_v68 : Ref sig .tc := ⟨.hbm, 1750, rfl⟩
abbrev main_call6_call0_v69 : Ref sig .tc := ⟨.hbm, 1751, rfl⟩
abbrev main_call6_call0_v70 : Ref sig .tc := ⟨.hbm, 1752, rfl⟩
abbrev main_call6_call0_v71 : Ref sig .tc := ⟨.hbm, 1753, rfl⟩
abbrev main_call6_call0_c_17 : Ref sig .tc := ⟨.hbm, 1754, rfl⟩
abbrev main_call6_call0_v72 : Ref sig .tc := ⟨.hbm, 1755, rfl⟩
abbrev main_call6_call0_v73 : Ref sig .tc := ⟨.hbm, 1756, rfl⟩
abbrev main_call6_call0_v74 : Ref sig .tc := ⟨.hbm, 1757, rfl⟩
abbrev main_call6_call0_c_18 : Ref sig .tc := ⟨.hbm, 1758, rfl⟩
abbrev main_call6_call0_v75 : Ref sig .tc := ⟨.hbm, 1759, rfl⟩
abbrev main_call6_call0_v76 : Ref sig .tc := ⟨.hbm, 1760, rfl⟩
abbrev main_call6_call0_c_19 : Ref sig .tc := ⟨.hbm, 1761, rfl⟩
abbrev main_call6_call0_v77 : Ref sig .tc := ⟨.hbm, 1762, rfl⟩
abbrev main_call6_call0_v78 : Ref sig .tc := ⟨.hbm, 1763, rfl⟩
abbrev main_call6_call0_v79 : Ref sig .tc := ⟨.hbm, 1764, rfl⟩
abbrev main_call6_call0_v80 : Ref sig .tc := ⟨.hbm, 1765, rfl⟩
abbrev main_call6_call0_v81 : Ref sig .tc := ⟨.hbm, 1766, rfl⟩
abbrev main_call6_call0_c_20 : Ref sig .tc := ⟨.hbm, 1767, rfl⟩
abbrev main_call6_call0_v82 : Ref sig .tc := ⟨.hbm, 1768, rfl⟩
abbrev main_call6_call0_v83 : Ref sig .tc := ⟨.hbm, 1769, rfl⟩
abbrev main_call6_call0_c_21 : Ref sig .tc := ⟨.hbm, 1770, rfl⟩
abbrev main_call6_call0_v84 : Ref sig .tc := ⟨.hbm, 1771, rfl⟩
abbrev main_call6_call0_v85 : Ref sig .tc := ⟨.hbm, 1772, rfl⟩
abbrev main_call6_call0_v86 : Ref sig .tc := ⟨.hbm, 1773, rfl⟩
abbrev main_call6_call0_v87 : Ref sig .tc := ⟨.hbm, 1774, rfl⟩
abbrev main_call6_call0_v88 : Ref sig .tc := ⟨.hbm, 1775, rfl⟩
abbrev main_call6_call0_c_22 : Ref sig .tc := ⟨.hbm, 1776, rfl⟩
abbrev main_call6_call0_v89 : Ref sig .tc := ⟨.hbm, 1777, rfl⟩
abbrev main_call6_call0_v90 : Ref sig .tc := ⟨.hbm, 1778, rfl⟩
abbrev main_call6_call0_c_23 : Ref sig .tc := ⟨.hbm, 1779, rfl⟩
abbrev main_call6_call0_v91 : Ref sig .tc := ⟨.hbm, 1780, rfl⟩
abbrev main_call6_call0_v92 : Ref sig .tc := ⟨.hbm, 1781, rfl⟩
abbrev main_call6_call0_v93 : Ref sig .tc := ⟨.hbm, 1782, rfl⟩
abbrev main_call6_call0_v94 : Ref sig .tc := ⟨.hbm, 1783, rfl⟩
abbrev main_call6_call0_v95 : Ref sig .tc := ⟨.hbm, 1784, rfl⟩
abbrev main_call6_call0_c_24 : Ref sig .tc := ⟨.hbm, 1785, rfl⟩
abbrev main_call6_call0_v96 : Ref sig .tc := ⟨.hbm, 1786, rfl⟩
abbrev main_call6_call0_v97 : Ref sig .tc := ⟨.hbm, 1787, rfl⟩
abbrev main_call6_call0_c_25 : Ref sig .tc := ⟨.hbm, 1788, rfl⟩
abbrev main_call6_call0_v98 : Ref sig .tc := ⟨.hbm, 1789, rfl⟩
abbrev main_call6_call0_v99 : Ref sig .tc := ⟨.hbm, 1790, rfl⟩
abbrev main_call6_call0_v100 : Ref sig .tc := ⟨.hbm, 1791, rfl⟩
abbrev main_call6_call0_v101 : Ref sig .tc := ⟨.hbm, 1792, rfl⟩
abbrev main_call6_call0_v102 : Ref sig .tc := ⟨.hbm, 1793, rfl⟩
abbrev main_call6_call0_v103 : Ref sig .tc := ⟨.hbm, 1794, rfl⟩
abbrev main_call6_call0_v104 : Ref sig .tc := ⟨.hbm, 1795, rfl⟩
abbrev main_call6_call0_v105 : Ref sig .tc := ⟨.hbm, 1796, rfl⟩
abbrev main_call6_call0_c_26 : Ref sig .tc := ⟨.hbm, 1797, rfl⟩
abbrev main_call6_call0_v106 : Ref sig .tc := ⟨.hbm, 1798, rfl⟩
abbrev main_call6_call0_v107 : Ref sig .tc := ⟨.hbm, 1799, rfl⟩
abbrev main_call6_call0_v108 : Ref sig .tc := ⟨.hbm, 1800, rfl⟩
abbrev main_call6_call0_c_27 : Ref sig .tc := ⟨.hbm, 1801, rfl⟩
abbrev main_call6_call0_v109 : Ref sig .tc := ⟨.hbm, 1802, rfl⟩
abbrev main_call6_call0_v110 : Ref sig .tc := ⟨.hbm, 1803, rfl⟩
abbrev main_call6_call0_c_28 : Ref sig .tc := ⟨.hbm, 1804, rfl⟩
abbrev main_call6_call0_v111 : Ref sig .tc := ⟨.hbm, 1805, rfl⟩
abbrev main_call6_call0_v112 : Ref sig .tc := ⟨.hbm, 1806, rfl⟩
abbrev main_call6_call0_v113 : Ref sig .tc := ⟨.hbm, 1807, rfl⟩
abbrev main_call6_call0_v114 : Ref sig .tc := ⟨.hbm, 1808, rfl⟩
abbrev main_call6_call0_v115 : Ref sig .tc := ⟨.hbm, 1809, rfl⟩
abbrev main_call6_call0_c_29 : Ref sig .tc := ⟨.hbm, 1810, rfl⟩
abbrev main_call6_call0_v116 : Ref sig .tc := ⟨.hbm, 1811, rfl⟩
abbrev main_call6_call0_v117 : Ref sig .tc := ⟨.hbm, 1812, rfl⟩
abbrev main_call6_call0_c_30 : Ref sig .tc := ⟨.hbm, 1813, rfl⟩
abbrev main_call6_call0_v118 : Ref sig .tc := ⟨.hbm, 1814, rfl⟩
abbrev main_call6_call0_v119 : Ref sig .tc := ⟨.hbm, 1815, rfl⟩
abbrev main_call6_call0_v120 : Ref sig .tc := ⟨.hbm, 1816, rfl⟩
abbrev main_call6_call0_v121 : Ref sig .tc := ⟨.hbm, 1817, rfl⟩
abbrev main_call6_call0_v122 : Ref sig .tc := ⟨.hbm, 1818, rfl⟩
abbrev main_call6_call0_c_31 : Ref sig .tc := ⟨.hbm, 1819, rfl⟩
abbrev main_call6_call0_v123 : Ref sig .tc := ⟨.hbm, 1820, rfl⟩
abbrev main_call6_call0_v124 : Ref sig .tc := ⟨.hbm, 1821, rfl⟩
abbrev main_call6_call0_c_32 : Ref sig .tc := ⟨.hbm, 1822, rfl⟩
abbrev main_call6_call0_v125 : Ref sig .tc := ⟨.hbm, 1823, rfl⟩
abbrev main_call6_call0_v126 : Ref sig .tc := ⟨.hbm, 1824, rfl⟩
abbrev main_call6_call0_v127 : Ref sig .tc := ⟨.hbm, 1825, rfl⟩
abbrev main_call6_call0_v128 : Ref sig .tc := ⟨.hbm, 1826, rfl⟩
abbrev main_call6_call0_v129 : Ref sig .tc := ⟨.hbm, 1827, rfl⟩
abbrev main_call6_call0_c_33 : Ref sig .tc := ⟨.hbm, 1828, rfl⟩
abbrev main_call6_call0_v130 : Ref sig .tc := ⟨.hbm, 1829, rfl⟩
abbrev main_call6_call0_v131 : Ref sig .tc := ⟨.hbm, 1830, rfl⟩
abbrev main_call6_call0_c_34 : Ref sig .tc := ⟨.hbm, 1831, rfl⟩
abbrev main_call6_call0_v132 : Ref sig .tc := ⟨.hbm, 1832, rfl⟩
abbrev main_call6_call0_v133 : Ref sig .tc := ⟨.hbm, 1833, rfl⟩
abbrev main_call6_call0_v134 : Ref sig .tc := ⟨.hbm, 1834, rfl⟩
abbrev main_call6_call0_v135 : Ref sig .tc := ⟨.hbm, 1835, rfl⟩
abbrev main_call6_call0_v136 : Ref sig .tc := ⟨.hbm, 1836, rfl⟩
abbrev main_call6_call0_v137 : Ref sig .tc := ⟨.hbm, 1837, rfl⟩
abbrev main_call6_call0_v138 : Ref sig .tc := ⟨.hbm, 1838, rfl⟩
abbrev main_call6_call0_v139 : Ref sig .tc := ⟨.hbm, 1839, rfl⟩
abbrev main_call6_call0_c_35 : Ref sig .tc := ⟨.hbm, 1840, rfl⟩
abbrev main_call6_call0_v140 : Ref sig .tc := ⟨.hbm, 1841, rfl⟩
abbrev main_call6_call0_v141 : Ref sig .tc := ⟨.hbm, 1842, rfl⟩
abbrev main_call6_call0_v142 : Ref sig .tc := ⟨.hbm, 1843, rfl⟩
abbrev main_call6_call0_c_36 : Ref sig .tc := ⟨.hbm, 1844, rfl⟩
abbrev main_call6_call0_v143 : Ref sig .tc := ⟨.hbm, 1845, rfl⟩
abbrev main_call6_call0_v144 : Ref sig .tc := ⟨.hbm, 1846, rfl⟩
abbrev main_call6_call0_c_37 : Ref sig .tc := ⟨.hbm, 1847, rfl⟩
abbrev main_call6_call0_v145 : Ref sig .tc := ⟨.hbm, 1848, rfl⟩
abbrev main_call6_call0_v146 : Ref sig .tc := ⟨.hbm, 1849, rfl⟩
abbrev main_call6_call0_v147 : Ref sig .tc := ⟨.hbm, 1850, rfl⟩
abbrev main_call6_call0_v148 : Ref sig .tc := ⟨.hbm, 1851, rfl⟩
abbrev main_call6_call0_v149 : Ref sig .tc := ⟨.hbm, 1852, rfl⟩
abbrev main_call6_call0_c_38 : Ref sig .tc := ⟨.hbm, 1853, rfl⟩
abbrev main_call6_call0_v150 : Ref sig .tc := ⟨.hbm, 1854, rfl⟩
abbrev main_call6_call0_v151 : Ref sig .tc := ⟨.hbm, 1855, rfl⟩
abbrev main_call6_call0_c_39 : Ref sig .tc := ⟨.hbm, 1856, rfl⟩
abbrev main_call6_call0_v152 : Ref sig .tc := ⟨.hbm, 1857, rfl⟩
abbrev main_call6_call0_v153 : Ref sig .tc := ⟨.hbm, 1858, rfl⟩
abbrev main_call6_call0_v154 : Ref sig .tc := ⟨.hbm, 1859, rfl⟩
abbrev main_call6_call0_v155 : Ref sig .tc := ⟨.hbm, 1860, rfl⟩
abbrev main_call6_call0_v156 : Ref sig .tc := ⟨.hbm, 1861, rfl⟩
abbrev main_call6_call0_c_40 : Ref sig .tc := ⟨.hbm, 1862, rfl⟩
abbrev main_call6_call0_v157 : Ref sig .tc := ⟨.hbm, 1863, rfl⟩
abbrev main_call6_call0_v158 : Ref sig .tc := ⟨.hbm, 1864, rfl⟩
abbrev main_call6_call0_c_41 : Ref sig .tc := ⟨.hbm, 1865, rfl⟩
abbrev main_call6_call0_v159 : Ref sig .tc := ⟨.hbm, 1866, rfl⟩
abbrev main_call6_call0_v160 : Ref sig .tc := ⟨.hbm, 1867, rfl⟩
abbrev main_call6_call0_v161 : Ref sig .tc := ⟨.hbm, 1868, rfl⟩
abbrev main_call6_call0_v162 : Ref sig .tc := ⟨.hbm, 1869, rfl⟩
abbrev main_call6_call0_v163 : Ref sig .tc := ⟨.hbm, 1870, rfl⟩
abbrev main_call6_call0_c_42 : Ref sig .tc := ⟨.hbm, 1871, rfl⟩
abbrev main_call6_call0_v164 : Ref sig .tc := ⟨.hbm, 1872, rfl⟩
abbrev main_call6_call0_v165 : Ref sig .tc := ⟨.hbm, 1873, rfl⟩
abbrev main_call6_call0_c_43 : Ref sig .tc := ⟨.hbm, 1874, rfl⟩
abbrev main_call6_call0_v166 : Ref sig .tc := ⟨.hbm, 1875, rfl⟩
abbrev main_call6_call0_v167 : Ref sig .tc := ⟨.hbm, 1876, rfl⟩
abbrev main_call6_call0_v168 : Ref sig .tc := ⟨.hbm, 1877, rfl⟩
abbrev main_call6_call0_v169 : Ref sig .tc := ⟨.hbm, 1878, rfl⟩
abbrev main_call6_call0_v170 : Ref sig .tc := ⟨.hbm, 1879, rfl⟩
abbrev main_call6_v11_0 : Ref sig .tc := ⟨.hbm, 1880, rfl⟩
abbrev main_call6_call0_v172 : Ref sig .tc := ⟨.hbm, 1881, rfl⟩
abbrev main_call6_call0_v173 : Ref sig .tc := ⟨.hbm, 1882, rfl⟩
abbrev main_call6_call0_c_44 : Ref sig .tc := ⟨.hbm, 1883, rfl⟩
abbrev main_call6_call0_v174 : Ref sig .tc := ⟨.hbm, 1884, rfl⟩
abbrev main_call6_v11_1 : Ref sig .tc := ⟨.hbm, 1885, rfl⟩
abbrev main_call6_v12 : Ref sig .tc := ⟨.hbm, 1886, rfl⟩
abbrev main_call6_v13 : Ref sig .tc := ⟨.hbm, 1887, rfl⟩
abbrev main_v132 : Ref sig .tc := ⟨.hbm, 1888, rfl⟩
abbrev main_v133 : Ref sig .tc := ⟨.hbm, 1889, rfl⟩
abbrev main_v134 : Ref sig .tc := ⟨.hbm, 1890, rfl⟩
abbrev main_v135 : Ref sig .tc := ⟨.hbm, 1891, rfl⟩
abbrev main_v136 : Ref sig .tc := ⟨.hbm, 1892, rfl⟩
abbrev main_cst_36 : Ref sig .tc := ⟨.hbm, 1893, rfl⟩
abbrev main_cst_37 : Ref sig .tc := ⟨.hbm, 1894, rfl⟩
abbrev main_call7_v0 : Ref sig .tc := ⟨.hbm, 1895, rfl⟩
abbrev main_call7_v1 : Ref sig .tc := ⟨.hbm, 1896, rfl⟩
abbrev main_call7_v2 : Ref sig .tc := ⟨.hbm, 1897, rfl⟩
abbrev main_call7_v3 : Ref sig .tc := ⟨.hbm, 1898, rfl⟩
abbrev main_call7_v4 : Ref sig .tc := ⟨.hbm, 1899, rfl⟩
abbrev main_call7_v5 : Ref sig .tc := ⟨.hbm, 1900, rfl⟩
abbrev main_call7_v6 : Ref sig .tc := ⟨.hbm, 1901, rfl⟩
abbrev main_call7_v7 : Ref sig .tc := ⟨.hbm, 1902, rfl⟩
abbrev main_call7_v8 : Ref sig .tc := ⟨.hbm, 1903, rfl⟩
abbrev main_call7_c : Ref sig .tc := ⟨.hbm, 1904, rfl⟩
abbrev main_call7_v9 : Ref sig .tc := ⟨.hbm, 1905, rfl⟩
abbrev main_call7_v10 : Ref sig .tc := ⟨.hbm, 1906, rfl⟩
abbrev main_call7_c_0 : Ref sig .tc := ⟨.hbm, 1907, rfl⟩
abbrev main_call7_v11 : Ref sig .tc := ⟨.hbm, 1908, rfl⟩
abbrev main_call7_v12 : Ref sig .tc := ⟨.hbm, 1909, rfl⟩
abbrev main_call7_v13 : Ref sig .tc := ⟨.hbm, 1910, rfl⟩
abbrev main_call7_v14 : Ref sig .tc := ⟨.hbm, 1911, rfl⟩
abbrev main_call7_call0_v0 : Ref sig .tc := ⟨.hbm, 1912, rfl⟩
abbrev main_call7_call0_c : Ref sig .tc := ⟨.hbm, 1913, rfl⟩
abbrev main_call7_call0_v1 : Ref sig .tc := ⟨.hbm, 1914, rfl⟩
abbrev main_call7_call0_v2 : Ref sig .tc := ⟨.hbm, 1915, rfl⟩
abbrev main_call7_call0_v3 : Ref sig .tc := ⟨.hbm, 1916, rfl⟩
abbrev main_call7_call0_v4 : Ref sig .tc := ⟨.hbm, 1917, rfl⟩
abbrev main_call7_call0_v5 : Ref sig .tc := ⟨.hbm, 1918, rfl⟩
abbrev main_call7_call0_v6 : Ref sig .tc := ⟨.hbm, 1919, rfl⟩
abbrev main_call7_call0_c_0 : Ref sig .tc := ⟨.hbm, 1920, rfl⟩
abbrev main_call7_call0_v7 : Ref sig .tc := ⟨.hbm, 1921, rfl⟩
abbrev main_call7_call0_v8 : Ref sig .tc := ⟨.hbm, 1922, rfl⟩
abbrev main_call7_call0_c_1 : Ref sig .tc := ⟨.hbm, 1923, rfl⟩
abbrev main_call7_call0_v9 : Ref sig .tc := ⟨.hbm, 1924, rfl⟩
abbrev main_call7_call0_v10 : Ref sig .tc := ⟨.hbm, 1925, rfl⟩
abbrev main_call7_call0_v11 : Ref sig .tc := ⟨.hbm, 1926, rfl⟩
abbrev main_call7_call0_v12 : Ref sig .tc := ⟨.hbm, 1927, rfl⟩
abbrev main_call7_call0_v13 : Ref sig .tc := ⟨.hbm, 1928, rfl⟩
abbrev main_call7_call0_c_2 : Ref sig .tc := ⟨.hbm, 1929, rfl⟩
abbrev main_call7_call0_v14 : Ref sig .tc := ⟨.hbm, 1930, rfl⟩
abbrev main_call7_call0_v15 : Ref sig .tc := ⟨.hbm, 1931, rfl⟩
abbrev main_call7_call0_c_3 : Ref sig .tc := ⟨.hbm, 1932, rfl⟩
abbrev main_call7_call0_v16 : Ref sig .tc := ⟨.hbm, 1933, rfl⟩
abbrev main_call7_call0_v17 : Ref sig .tc := ⟨.hbm, 1934, rfl⟩
abbrev main_call7_call0_v18 : Ref sig .tc := ⟨.hbm, 1935, rfl⟩
abbrev main_call7_call0_v19 : Ref sig .tc := ⟨.hbm, 1936, rfl⟩
abbrev main_call7_call0_v20 : Ref sig .tc := ⟨.hbm, 1937, rfl⟩
abbrev main_call7_call0_c_4 : Ref sig .tc := ⟨.hbm, 1938, rfl⟩
abbrev main_call7_call0_v21 : Ref sig .tc := ⟨.hbm, 1939, rfl⟩
abbrev main_call7_call0_v22 : Ref sig .tc := ⟨.hbm, 1940, rfl⟩
abbrev main_call7_call0_c_5 : Ref sig .tc := ⟨.hbm, 1941, rfl⟩
abbrev main_call7_call0_v23 : Ref sig .tc := ⟨.hbm, 1942, rfl⟩
abbrev main_call7_call0_v24 : Ref sig .tc := ⟨.hbm, 1943, rfl⟩
abbrev main_call7_call0_v25 : Ref sig .tc := ⟨.hbm, 1944, rfl⟩
abbrev main_call7_call0_v26 : Ref sig .tc := ⟨.hbm, 1945, rfl⟩
abbrev main_call7_call0_v27 : Ref sig .tc := ⟨.hbm, 1946, rfl⟩
abbrev main_call7_call0_c_6 : Ref sig .tc := ⟨.hbm, 1947, rfl⟩
abbrev main_call7_call0_v28 : Ref sig .tc := ⟨.hbm, 1948, rfl⟩
abbrev main_call7_call0_v29 : Ref sig .tc := ⟨.hbm, 1949, rfl⟩
abbrev main_call7_call0_c_7 : Ref sig .tc := ⟨.hbm, 1950, rfl⟩
abbrev main_call7_call0_v30 : Ref sig .tc := ⟨.hbm, 1951, rfl⟩
abbrev main_call7_call0_v31 : Ref sig .tc := ⟨.hbm, 1952, rfl⟩
abbrev main_call7_call0_v32 : Ref sig .tc := ⟨.hbm, 1953, rfl⟩
abbrev main_call7_call0_v33 : Ref sig .tc := ⟨.hbm, 1954, rfl⟩
abbrev main_call7_call0_v34 : Ref sig .tc := ⟨.hbm, 1955, rfl⟩
abbrev main_call7_call0_v35 : Ref sig .tc := ⟨.hbm, 1956, rfl⟩
abbrev main_call7_call0_v36 : Ref sig .tc := ⟨.hbm, 1957, rfl⟩
abbrev main_call7_call0_v37 : Ref sig .tc := ⟨.hbm, 1958, rfl⟩
abbrev main_call7_call0_c_8 : Ref sig .tc := ⟨.hbm, 1959, rfl⟩
abbrev main_call7_call0_v38 : Ref sig .tc := ⟨.hbm, 1960, rfl⟩
abbrev main_call7_call0_v39 : Ref sig .tc := ⟨.hbm, 1961, rfl⟩
abbrev main_call7_call0_v40 : Ref sig .tc := ⟨.hbm, 1962, rfl⟩
abbrev main_call7_call0_c_9 : Ref sig .tc := ⟨.hbm, 1963, rfl⟩
abbrev main_call7_call0_v41 : Ref sig .tc := ⟨.hbm, 1964, rfl⟩
abbrev main_call7_call0_v42 : Ref sig .tc := ⟨.hbm, 1965, rfl⟩
abbrev main_call7_call0_c_10 : Ref sig .tc := ⟨.hbm, 1966, rfl⟩
abbrev main_call7_call0_v43 : Ref sig .tc := ⟨.hbm, 1967, rfl⟩
abbrev main_call7_call0_v44 : Ref sig .tc := ⟨.hbm, 1968, rfl⟩
abbrev main_call7_call0_v45 : Ref sig .tc := ⟨.hbm, 1969, rfl⟩
abbrev main_call7_call0_v46 : Ref sig .tc := ⟨.hbm, 1970, rfl⟩
abbrev main_call7_call0_v47 : Ref sig .tc := ⟨.hbm, 1971, rfl⟩
abbrev main_call7_call0_c_11 : Ref sig .tc := ⟨.hbm, 1972, rfl⟩
abbrev main_call7_call0_v48 : Ref sig .tc := ⟨.hbm, 1973, rfl⟩
abbrev main_call7_call0_v49 : Ref sig .tc := ⟨.hbm, 1974, rfl⟩
abbrev main_call7_call0_c_12 : Ref sig .tc := ⟨.hbm, 1975, rfl⟩
abbrev main_call7_call0_v50 : Ref sig .tc := ⟨.hbm, 1976, rfl⟩
abbrev main_call7_call0_v51 : Ref sig .tc := ⟨.hbm, 1977, rfl⟩
abbrev main_call7_call0_v52 : Ref sig .tc := ⟨.hbm, 1978, rfl⟩
abbrev main_call7_call0_v53 : Ref sig .tc := ⟨.hbm, 1979, rfl⟩
abbrev main_call7_call0_v54 : Ref sig .tc := ⟨.hbm, 1980, rfl⟩
abbrev main_call7_call0_c_13 : Ref sig .tc := ⟨.hbm, 1981, rfl⟩
abbrev main_call7_call0_v55 : Ref sig .tc := ⟨.hbm, 1982, rfl⟩
abbrev main_call7_call0_v56 : Ref sig .tc := ⟨.hbm, 1983, rfl⟩
abbrev main_call7_call0_c_14 : Ref sig .tc := ⟨.hbm, 1984, rfl⟩
abbrev main_call7_call0_v57 : Ref sig .tc := ⟨.hbm, 1985, rfl⟩
abbrev main_call7_call0_v58 : Ref sig .tc := ⟨.hbm, 1986, rfl⟩
abbrev main_call7_call0_v59 : Ref sig .tc := ⟨.hbm, 1987, rfl⟩
abbrev main_call7_call0_v60 : Ref sig .tc := ⟨.hbm, 1988, rfl⟩
abbrev main_call7_call0_v61 : Ref sig .tc := ⟨.hbm, 1989, rfl⟩
abbrev main_call7_call0_c_15 : Ref sig .tc := ⟨.hbm, 1990, rfl⟩
abbrev main_call7_call0_v62 : Ref sig .tc := ⟨.hbm, 1991, rfl⟩
abbrev main_call7_call0_v63 : Ref sig .tc := ⟨.hbm, 1992, rfl⟩
abbrev main_call7_call0_c_16 : Ref sig .tc := ⟨.hbm, 1993, rfl⟩
abbrev main_call7_call0_v64 : Ref sig .tc := ⟨.hbm, 1994, rfl⟩
abbrev main_call7_call0_v65 : Ref sig .tc := ⟨.hbm, 1995, rfl⟩
abbrev main_call7_call0_v66 : Ref sig .tc := ⟨.hbm, 1996, rfl⟩
abbrev main_call7_call0_v67 : Ref sig .tc := ⟨.hbm, 1997, rfl⟩
abbrev main_call7_call0_v68 : Ref sig .tc := ⟨.hbm, 1998, rfl⟩
abbrev main_call7_call0_v69 : Ref sig .tc := ⟨.hbm, 1999, rfl⟩
abbrev main_call7_call0_v70 : Ref sig .tc := ⟨.hbm, 2000, rfl⟩
abbrev main_call7_call0_v71 : Ref sig .tc := ⟨.hbm, 2001, rfl⟩
abbrev main_call7_call0_c_17 : Ref sig .tc := ⟨.hbm, 2002, rfl⟩
abbrev main_call7_call0_v72 : Ref sig .tc := ⟨.hbm, 2003, rfl⟩
abbrev main_call7_call0_v73 : Ref sig .tc := ⟨.hbm, 2004, rfl⟩
abbrev main_call7_call0_v74 : Ref sig .tc := ⟨.hbm, 2005, rfl⟩
abbrev main_call7_call0_c_18 : Ref sig .tc := ⟨.hbm, 2006, rfl⟩
abbrev main_call7_call0_v75 : Ref sig .tc := ⟨.hbm, 2007, rfl⟩
abbrev main_call7_call0_v76 : Ref sig .tc := ⟨.hbm, 2008, rfl⟩
abbrev main_call7_call0_c_19 : Ref sig .tc := ⟨.hbm, 2009, rfl⟩
abbrev main_call7_call0_v77 : Ref sig .tc := ⟨.hbm, 2010, rfl⟩
abbrev main_call7_call0_v78 : Ref sig .tc := ⟨.hbm, 2011, rfl⟩
abbrev main_call7_call0_v79 : Ref sig .tc := ⟨.hbm, 2012, rfl⟩
abbrev main_call7_call0_v80 : Ref sig .tc := ⟨.hbm, 2013, rfl⟩
abbrev main_call7_call0_v81 : Ref sig .tc := ⟨.hbm, 2014, rfl⟩
abbrev main_call7_call0_c_20 : Ref sig .tc := ⟨.hbm, 2015, rfl⟩
abbrev main_call7_call0_v82 : Ref sig .tc := ⟨.hbm, 2016, rfl⟩
abbrev main_call7_call0_v83 : Ref sig .tc := ⟨.hbm, 2017, rfl⟩
abbrev main_call7_call0_c_21 : Ref sig .tc := ⟨.hbm, 2018, rfl⟩
abbrev main_call7_call0_v84 : Ref sig .tc := ⟨.hbm, 2019, rfl⟩
abbrev main_call7_call0_v85 : Ref sig .tc := ⟨.hbm, 2020, rfl⟩
abbrev main_call7_call0_v86 : Ref sig .tc := ⟨.hbm, 2021, rfl⟩
abbrev main_call7_call0_v87 : Ref sig .tc := ⟨.hbm, 2022, rfl⟩
abbrev main_call7_call0_v88 : Ref sig .tc := ⟨.hbm, 2023, rfl⟩
abbrev main_call7_call0_c_22 : Ref sig .tc := ⟨.hbm, 2024, rfl⟩
abbrev main_call7_call0_v89 : Ref sig .tc := ⟨.hbm, 2025, rfl⟩
abbrev main_call7_call0_v90 : Ref sig .tc := ⟨.hbm, 2026, rfl⟩
abbrev main_call7_call0_c_23 : Ref sig .tc := ⟨.hbm, 2027, rfl⟩
abbrev main_call7_call0_v91 : Ref sig .tc := ⟨.hbm, 2028, rfl⟩
abbrev main_call7_call0_v92 : Ref sig .tc := ⟨.hbm, 2029, rfl⟩
abbrev main_call7_call0_v93 : Ref sig .tc := ⟨.hbm, 2030, rfl⟩
abbrev main_call7_call0_v94 : Ref sig .tc := ⟨.hbm, 2031, rfl⟩
abbrev main_call7_call0_v95 : Ref sig .tc := ⟨.hbm, 2032, rfl⟩
abbrev main_call7_call0_c_24 : Ref sig .tc := ⟨.hbm, 2033, rfl⟩
abbrev main_call7_call0_v96 : Ref sig .tc := ⟨.hbm, 2034, rfl⟩
abbrev main_call7_call0_v97 : Ref sig .tc := ⟨.hbm, 2035, rfl⟩
abbrev main_call7_call0_c_25 : Ref sig .tc := ⟨.hbm, 2036, rfl⟩
abbrev main_call7_call0_v98 : Ref sig .tc := ⟨.hbm, 2037, rfl⟩
abbrev main_call7_call0_v99 : Ref sig .tc := ⟨.hbm, 2038, rfl⟩
abbrev main_call7_call0_v100 : Ref sig .tc := ⟨.hbm, 2039, rfl⟩
abbrev main_call7_call0_v101 : Ref sig .tc := ⟨.hbm, 2040, rfl⟩
abbrev main_call7_call0_v102 : Ref sig .tc := ⟨.hbm, 2041, rfl⟩
abbrev main_call7_call0_v103 : Ref sig .tc := ⟨.hbm, 2042, rfl⟩
abbrev main_call7_call0_v104 : Ref sig .tc := ⟨.hbm, 2043, rfl⟩
abbrev main_call7_call0_v105 : Ref sig .tc := ⟨.hbm, 2044, rfl⟩
abbrev main_call7_call0_c_26 : Ref sig .tc := ⟨.hbm, 2045, rfl⟩
abbrev main_call7_call0_v106 : Ref sig .tc := ⟨.hbm, 2046, rfl⟩
abbrev main_call7_call0_v107 : Ref sig .tc := ⟨.hbm, 2047, rfl⟩
abbrev main_call7_call0_v108 : Ref sig .tc := ⟨.hbm, 2048, rfl⟩
abbrev main_call7_call0_c_27 : Ref sig .tc := ⟨.hbm, 2049, rfl⟩
abbrev main_call7_call0_v109 : Ref sig .tc := ⟨.hbm, 2050, rfl⟩
abbrev main_call7_call0_v110 : Ref sig .tc := ⟨.hbm, 2051, rfl⟩
abbrev main_call7_call0_c_28 : Ref sig .tc := ⟨.hbm, 2052, rfl⟩
abbrev main_call7_call0_v111 : Ref sig .tc := ⟨.hbm, 2053, rfl⟩
abbrev main_call7_call0_v112 : Ref sig .tc := ⟨.hbm, 2054, rfl⟩
abbrev main_call7_call0_v113 : Ref sig .tc := ⟨.hbm, 2055, rfl⟩
abbrev main_call7_call0_v114 : Ref sig .tc := ⟨.hbm, 2056, rfl⟩
abbrev main_call7_call0_v115 : Ref sig .tc := ⟨.hbm, 2057, rfl⟩
abbrev main_call7_call0_c_29 : Ref sig .tc := ⟨.hbm, 2058, rfl⟩
abbrev main_call7_call0_v116 : Ref sig .tc := ⟨.hbm, 2059, rfl⟩
abbrev main_call7_call0_v117 : Ref sig .tc := ⟨.hbm, 2060, rfl⟩
abbrev main_call7_call0_c_30 : Ref sig .tc := ⟨.hbm, 2061, rfl⟩
abbrev main_call7_call0_v118 : Ref sig .tc := ⟨.hbm, 2062, rfl⟩
abbrev main_call7_call0_v119 : Ref sig .tc := ⟨.hbm, 2063, rfl⟩
abbrev main_call7_call0_v120 : Ref sig .tc := ⟨.hbm, 2064, rfl⟩
abbrev main_call7_call0_v121 : Ref sig .tc := ⟨.hbm, 2065, rfl⟩
abbrev main_call7_call0_v122 : Ref sig .tc := ⟨.hbm, 2066, rfl⟩
abbrev main_call7_call0_c_31 : Ref sig .tc := ⟨.hbm, 2067, rfl⟩
abbrev main_call7_call0_v123 : Ref sig .tc := ⟨.hbm, 2068, rfl⟩
abbrev main_call7_call0_v124 : Ref sig .tc := ⟨.hbm, 2069, rfl⟩
abbrev main_call7_call0_c_32 : Ref sig .tc := ⟨.hbm, 2070, rfl⟩
abbrev main_call7_call0_v125 : Ref sig .tc := ⟨.hbm, 2071, rfl⟩
abbrev main_call7_call0_v126 : Ref sig .tc := ⟨.hbm, 2072, rfl⟩
abbrev main_call7_call0_v127 : Ref sig .tc := ⟨.hbm, 2073, rfl⟩
abbrev main_call7_call0_v128 : Ref sig .tc := ⟨.hbm, 2074, rfl⟩
abbrev main_call7_call0_v129 : Ref sig .tc := ⟨.hbm, 2075, rfl⟩
abbrev main_call7_call0_c_33 : Ref sig .tc := ⟨.hbm, 2076, rfl⟩
abbrev main_call7_call0_v130 : Ref sig .tc := ⟨.hbm, 2077, rfl⟩
abbrev main_call7_call0_v131 : Ref sig .tc := ⟨.hbm, 2078, rfl⟩
abbrev main_call7_call0_c_34 : Ref sig .tc := ⟨.hbm, 2079, rfl⟩
abbrev main_call7_call0_v132 : Ref sig .tc := ⟨.hbm, 2080, rfl⟩
abbrev main_call7_call0_v133 : Ref sig .tc := ⟨.hbm, 2081, rfl⟩
abbrev main_call7_call0_v134 : Ref sig .tc := ⟨.hbm, 2082, rfl⟩
abbrev main_call7_call0_v135 : Ref sig .tc := ⟨.hbm, 2083, rfl⟩
abbrev main_call7_call0_v136 : Ref sig .tc := ⟨.hbm, 2084, rfl⟩
abbrev main_call7_call0_v137 : Ref sig .tc := ⟨.hbm, 2085, rfl⟩
abbrev main_call7_call0_v138 : Ref sig .tc := ⟨.hbm, 2086, rfl⟩
abbrev main_call7_call0_v139 : Ref sig .tc := ⟨.hbm, 2087, rfl⟩
abbrev main_call7_call0_c_35 : Ref sig .tc := ⟨.hbm, 2088, rfl⟩
abbrev main_call7_call0_v140 : Ref sig .tc := ⟨.hbm, 2089, rfl⟩
abbrev main_call7_call0_v141 : Ref sig .tc := ⟨.hbm, 2090, rfl⟩
abbrev main_call7_call0_v142 : Ref sig .tc := ⟨.hbm, 2091, rfl⟩
abbrev main_call7_call0_c_36 : Ref sig .tc := ⟨.hbm, 2092, rfl⟩
abbrev main_call7_call0_v143 : Ref sig .tc := ⟨.hbm, 2093, rfl⟩
abbrev main_call7_call0_v144 : Ref sig .tc := ⟨.hbm, 2094, rfl⟩
abbrev main_call7_call0_c_37 : Ref sig .tc := ⟨.hbm, 2095, rfl⟩
abbrev main_call7_call0_v145 : Ref sig .tc := ⟨.hbm, 2096, rfl⟩
abbrev main_call7_call0_v146 : Ref sig .tc := ⟨.hbm, 2097, rfl⟩
abbrev main_call7_call0_v147 : Ref sig .tc := ⟨.hbm, 2098, rfl⟩
abbrev main_call7_call0_v148 : Ref sig .tc := ⟨.hbm, 2099, rfl⟩
abbrev main_call7_call0_v149 : Ref sig .tc := ⟨.hbm, 2100, rfl⟩
abbrev main_call7_call0_c_38 : Ref sig .tc := ⟨.hbm, 2101, rfl⟩
abbrev main_call7_call0_v150 : Ref sig .tc := ⟨.hbm, 2102, rfl⟩
abbrev main_call7_call0_v151 : Ref sig .tc := ⟨.hbm, 2103, rfl⟩
abbrev main_call7_call0_c_39 : Ref sig .tc := ⟨.hbm, 2104, rfl⟩
abbrev main_call7_call0_v152 : Ref sig .tc := ⟨.hbm, 2105, rfl⟩
abbrev main_call7_call0_v153 : Ref sig .tc := ⟨.hbm, 2106, rfl⟩
abbrev main_call7_call0_v154 : Ref sig .tc := ⟨.hbm, 2107, rfl⟩
abbrev main_call7_call0_v155 : Ref sig .tc := ⟨.hbm, 2108, rfl⟩
abbrev main_call7_call0_v156 : Ref sig .tc := ⟨.hbm, 2109, rfl⟩
abbrev main_call7_call0_c_40 : Ref sig .tc := ⟨.hbm, 2110, rfl⟩
abbrev main_call7_call0_v157 : Ref sig .tc := ⟨.hbm, 2111, rfl⟩
abbrev main_call7_call0_v158 : Ref sig .tc := ⟨.hbm, 2112, rfl⟩
abbrev main_call7_call0_c_41 : Ref sig .tc := ⟨.hbm, 2113, rfl⟩
abbrev main_call7_call0_v159 : Ref sig .tc := ⟨.hbm, 2114, rfl⟩
abbrev main_call7_call0_v160 : Ref sig .tc := ⟨.hbm, 2115, rfl⟩
abbrev main_call7_call0_v161 : Ref sig .tc := ⟨.hbm, 2116, rfl⟩
abbrev main_call7_call0_v162 : Ref sig .tc := ⟨.hbm, 2117, rfl⟩
abbrev main_call7_call0_v163 : Ref sig .tc := ⟨.hbm, 2118, rfl⟩
abbrev main_call7_call0_c_42 : Ref sig .tc := ⟨.hbm, 2119, rfl⟩
abbrev main_call7_call0_v164 : Ref sig .tc := ⟨.hbm, 2120, rfl⟩
abbrev main_call7_call0_v165 : Ref sig .tc := ⟨.hbm, 2121, rfl⟩
abbrev main_call7_call0_c_43 : Ref sig .tc := ⟨.hbm, 2122, rfl⟩
abbrev main_call7_call0_v166 : Ref sig .tc := ⟨.hbm, 2123, rfl⟩
abbrev main_call7_call0_v167 : Ref sig .tc := ⟨.hbm, 2124, rfl⟩
abbrev main_call7_call0_v168 : Ref sig .tc := ⟨.hbm, 2125, rfl⟩
abbrev main_call7_call0_v169 : Ref sig .tc := ⟨.hbm, 2126, rfl⟩
abbrev main_call7_call0_v170 : Ref sig .tc := ⟨.hbm, 2127, rfl⟩
abbrev main_call7_v15_0 : Ref sig .tc := ⟨.hbm, 2128, rfl⟩
abbrev main_call7_call0_v172 : Ref sig .tc := ⟨.hbm, 2129, rfl⟩
abbrev main_call7_call0_v173 : Ref sig .tc := ⟨.hbm, 2130, rfl⟩
abbrev main_call7_call0_c_44 : Ref sig .tc := ⟨.hbm, 2131, rfl⟩
abbrev main_call7_call0_v174 : Ref sig .tc := ⟨.hbm, 2132, rfl⟩
abbrev main_call7_v15_1 : Ref sig .tc := ⟨.hbm, 2133, rfl⟩
abbrev main_call7_v16 : Ref sig .tc := ⟨.hbm, 2134, rfl⟩
abbrev main_call7_c_1 : Ref sig .tc := ⟨.hbm, 2135, rfl⟩
abbrev main_call7_v17 : Ref sig .tc := ⟨.hbm, 2136, rfl⟩
abbrev main_call7_v18 : Ref sig .tc := ⟨.hbm, 2137, rfl⟩
abbrev main_call7_c_2 : Ref sig .tc := ⟨.hbm, 2138, rfl⟩
abbrev main_call7_v19 : Ref sig .tc := ⟨.hbm, 2139, rfl⟩
abbrev main_call7_v20 : Ref sig .tc := ⟨.hbm, 2140, rfl⟩
abbrev main_call7_v21 : Ref sig .tc := ⟨.hbm, 2141, rfl⟩
abbrev main_call7_cst : Ref sig .tc := ⟨.hbm, 2142, rfl⟩
abbrev main_call7_v22 : Ref sig .tc := ⟨.hbm, 2143, rfl⟩
abbrev main_call7_v23 : Ref sig .tc := ⟨.hbm, 2144, rfl⟩
abbrev main_call7_v24 : Ref sig .tc := ⟨.hbm, 2145, rfl⟩
abbrev main_call7_v25 : Ref sig .tc := ⟨.hbm, 2146, rfl⟩
abbrev main_call7_v26 : Ref sig .tc := ⟨.hbm, 2147, rfl⟩
abbrev main_call7_v27 : Ref sig .tc := ⟨.hbm, 2148, rfl⟩
abbrev main_call7_v28 : Ref sig .tc := ⟨.hbm, 2149, rfl⟩
abbrev main_call7_v29 : Ref sig .tc := ⟨.hbm, 2150, rfl⟩
abbrev main_v137 : Ref sig .tc := ⟨.hbm, 2151, rfl⟩
abbrev main_v138 : Ref sig .tc := ⟨.hbm, 2152, rfl⟩
abbrev main_v139 : Ref sig .tc := ⟨.hbm, 2153, rfl⟩
abbrev main_cst_38 : Ref sig .tc := ⟨.hbm, 2154, rfl⟩
abbrev main_v140 : Ref sig .tc := ⟨.hbm, 2155, rfl⟩
abbrev main_v141 : Ref sig .tc := ⟨.hbm, 2156, rfl⟩
abbrev main_cst_39 : Ref sig .tc := ⟨.hbm, 2157, rfl⟩
abbrev main_v142 : Ref sig .tc := ⟨.hbm, 2158, rfl⟩
abbrev main_v143 : Ref sig .tc := ⟨.hbm, 2159, rfl⟩
abbrev main_v144 : Ref sig .tc := ⟨.hbm, 2160, rfl⟩
abbrev main_v145 : Ref sig .tc := ⟨.hbm, 2161, rfl⟩
abbrev main_v146 : Ref sig .tc := ⟨.hbm, 2162, rfl⟩
abbrev main_v147 : Ref sig .tc := ⟨.hbm, 2163, rfl⟩
abbrev main_v148 : Ref sig .tc := ⟨.hbm, 2164, rfl⟩
abbrev main_v149 : Ref sig .tc := ⟨.hbm, 2165, rfl⟩
abbrev main_cst_40 : Ref sig .tc := ⟨.hbm, 2166, rfl⟩
abbrev main_v150 : Ref sig .tc := ⟨.hbm, 2167, rfl⟩
abbrev main_v151 : Ref sig .tc := ⟨.hbm, 2168, rfl⟩
abbrev main_v152 : Ref sig .tc := ⟨.hbm, 2169, rfl⟩
abbrev main_v153 : Ref sig .tc := ⟨.hbm, 2170, rfl⟩
abbrev main_v154 : Ref sig .tc := ⟨.hbm, 2171, rfl⟩
abbrev main_v155 : Ref sig .tc := ⟨.hbm, 2172, rfl⟩
abbrev main_cst_41 : Ref sig .tc := ⟨.hbm, 2173, rfl⟩
abbrev main_v156 : Ref sig .tc := ⟨.hbm, 2174, rfl⟩
abbrev main_c_42 : Ref sig .tc := ⟨.hbm, 2175, rfl⟩
abbrev main_v157 : Ref sig .tc := ⟨.hbm, 2176, rfl⟩
abbrev main_cst_43 : Ref sig .tc := ⟨.hbm, 2177, rfl⟩
abbrev main_v158 : Ref sig .tc := ⟨.hbm, 2178, rfl⟩
abbrev main_v159 : Ref sig .tc := ⟨.hbm, 2179, rfl⟩
abbrev main_cst_44 : Ref sig .tc := ⟨.hbm, 2180, rfl⟩
abbrev main_v160 : Ref sig .tc := ⟨.hbm, 2181, rfl⟩
abbrev main_v161 : Ref sig .tc := ⟨.hbm, 2182, rfl⟩
abbrev main_v162 : Ref sig .tc := ⟨.hbm, 2183, rfl⟩
abbrev main_cst_45 : Ref sig .tc := ⟨.hbm, 2184, rfl⟩
abbrev main_v163 : Ref sig .tc := ⟨.hbm, 2185, rfl⟩
abbrev main_v164 : Ref sig .tc := ⟨.hbm, 2186, rfl⟩
abbrev main_v165 : Ref sig .tc := ⟨.hbm, 2187, rfl⟩
abbrev main_v166 : Ref sig .tc := ⟨.hbm, 2188, rfl⟩
abbrev main_v167 : Ref sig .tc := ⟨.hbm, 2189, rfl⟩
abbrev main_v168 : Ref sig .tc := ⟨.hbm, 2190, rfl⟩
abbrev main_call8_v0 : Ref sig .tc := ⟨.hbm, 2191, rfl⟩
abbrev main_call8_v1 : Ref sig .tc := ⟨.hbm, 2192, rfl⟩
abbrev main_call8_v2 : Ref sig .tc := ⟨.hbm, 2193, rfl⟩
abbrev main_call8_v3 : Ref sig .tc := ⟨.hbm, 2194, rfl⟩
abbrev main_call8_v4 : Ref sig .tc := ⟨.hbm, 2195, rfl⟩
abbrev main_call8_c : Ref sig .tc := ⟨.hbm, 2196, rfl⟩
abbrev main_call8_v5 : Ref sig .tc := ⟨.hbm, 2197, rfl⟩
abbrev main_call8_v6 : Ref sig .tc := ⟨.hbm, 2198, rfl⟩
abbrev main_call8_c_0 : Ref sig .tc := ⟨.hbm, 2199, rfl⟩
abbrev main_call8_v7 : Ref sig .tc := ⟨.hbm, 2200, rfl⟩
abbrev main_call8_v8 : Ref sig .tc := ⟨.hbm, 2201, rfl⟩
abbrev main_call8_v9 : Ref sig .tc := ⟨.hbm, 2202, rfl⟩
abbrev main_call8_v10 : Ref sig .tc := ⟨.hbm, 2203, rfl⟩
abbrev main_call8_call0_v0 : Ref sig .tc := ⟨.hbm, 2204, rfl⟩
abbrev main_call8_call0_c : Ref sig .tc := ⟨.hbm, 2205, rfl⟩
abbrev main_call8_call0_v1 : Ref sig .tc := ⟨.hbm, 2206, rfl⟩
abbrev main_call8_call0_v2 : Ref sig .tc := ⟨.hbm, 2207, rfl⟩
abbrev main_call8_call0_v3 : Ref sig .tc := ⟨.hbm, 2208, rfl⟩
abbrev main_call8_call0_v4 : Ref sig .tc := ⟨.hbm, 2209, rfl⟩
abbrev main_call8_call0_v5 : Ref sig .tc := ⟨.hbm, 2210, rfl⟩
abbrev main_call8_call0_v6 : Ref sig .tc := ⟨.hbm, 2211, rfl⟩
abbrev main_call8_call0_c_0 : Ref sig .tc := ⟨.hbm, 2212, rfl⟩
abbrev main_call8_call0_v7 : Ref sig .tc := ⟨.hbm, 2213, rfl⟩
abbrev main_call8_call0_v8 : Ref sig .tc := ⟨.hbm, 2214, rfl⟩
abbrev main_call8_call0_c_1 : Ref sig .tc := ⟨.hbm, 2215, rfl⟩
abbrev main_call8_call0_v9 : Ref sig .tc := ⟨.hbm, 2216, rfl⟩
abbrev main_call8_call0_v10 : Ref sig .tc := ⟨.hbm, 2217, rfl⟩
abbrev main_call8_call0_v11 : Ref sig .tc := ⟨.hbm, 2218, rfl⟩
abbrev main_call8_call0_v12 : Ref sig .tc := ⟨.hbm, 2219, rfl⟩
abbrev main_call8_call0_v13 : Ref sig .tc := ⟨.hbm, 2220, rfl⟩
abbrev main_call8_call0_c_2 : Ref sig .tc := ⟨.hbm, 2221, rfl⟩
abbrev main_call8_call0_v14 : Ref sig .tc := ⟨.hbm, 2222, rfl⟩
abbrev main_call8_call0_v15 : Ref sig .tc := ⟨.hbm, 2223, rfl⟩
abbrev main_call8_call0_c_3 : Ref sig .tc := ⟨.hbm, 2224, rfl⟩
abbrev main_call8_call0_v16 : Ref sig .tc := ⟨.hbm, 2225, rfl⟩
abbrev main_call8_call0_v17 : Ref sig .tc := ⟨.hbm, 2226, rfl⟩
abbrev main_call8_call0_v18 : Ref sig .tc := ⟨.hbm, 2227, rfl⟩
abbrev main_call8_call0_v19 : Ref sig .tc := ⟨.hbm, 2228, rfl⟩
abbrev main_call8_call0_v20 : Ref sig .tc := ⟨.hbm, 2229, rfl⟩
abbrev main_call8_call0_c_4 : Ref sig .tc := ⟨.hbm, 2230, rfl⟩
abbrev main_call8_call0_v21 : Ref sig .tc := ⟨.hbm, 2231, rfl⟩
abbrev main_call8_call0_v22 : Ref sig .tc := ⟨.hbm, 2232, rfl⟩
abbrev main_call8_call0_c_5 : Ref sig .tc := ⟨.hbm, 2233, rfl⟩
abbrev main_call8_call0_v23 : Ref sig .tc := ⟨.hbm, 2234, rfl⟩
abbrev main_call8_call0_v24 : Ref sig .tc := ⟨.hbm, 2235, rfl⟩
abbrev main_call8_call0_v25 : Ref sig .tc := ⟨.hbm, 2236, rfl⟩
abbrev main_call8_call0_v26 : Ref sig .tc := ⟨.hbm, 2237, rfl⟩
abbrev main_call8_call0_v27 : Ref sig .tc := ⟨.hbm, 2238, rfl⟩
abbrev main_call8_call0_c_6 : Ref sig .tc := ⟨.hbm, 2239, rfl⟩
abbrev main_call8_call0_v28 : Ref sig .tc := ⟨.hbm, 2240, rfl⟩
abbrev main_call8_call0_v29 : Ref sig .tc := ⟨.hbm, 2241, rfl⟩
abbrev main_call8_call0_c_7 : Ref sig .tc := ⟨.hbm, 2242, rfl⟩
abbrev main_call8_call0_v30 : Ref sig .tc := ⟨.hbm, 2243, rfl⟩
abbrev main_call8_call0_v31 : Ref sig .tc := ⟨.hbm, 2244, rfl⟩
abbrev main_call8_call0_v32 : Ref sig .tc := ⟨.hbm, 2245, rfl⟩
abbrev main_call8_call0_v33 : Ref sig .tc := ⟨.hbm, 2246, rfl⟩
abbrev main_call8_call0_v34 : Ref sig .tc := ⟨.hbm, 2247, rfl⟩
abbrev main_call8_call0_v35 : Ref sig .tc := ⟨.hbm, 2248, rfl⟩
abbrev main_call8_call0_v36 : Ref sig .tc := ⟨.hbm, 2249, rfl⟩
abbrev main_call8_call0_v37 : Ref sig .tc := ⟨.hbm, 2250, rfl⟩
abbrev main_call8_call0_c_8 : Ref sig .tc := ⟨.hbm, 2251, rfl⟩
abbrev main_call8_call0_v38 : Ref sig .tc := ⟨.hbm, 2252, rfl⟩
abbrev main_call8_call0_v39 : Ref sig .tc := ⟨.hbm, 2253, rfl⟩
abbrev main_call8_call0_v40 : Ref sig .tc := ⟨.hbm, 2254, rfl⟩
abbrev main_call8_call0_c_9 : Ref sig .tc := ⟨.hbm, 2255, rfl⟩
abbrev main_call8_call0_v41 : Ref sig .tc := ⟨.hbm, 2256, rfl⟩
abbrev main_call8_call0_v42 : Ref sig .tc := ⟨.hbm, 2257, rfl⟩
abbrev main_call8_call0_c_10 : Ref sig .tc := ⟨.hbm, 2258, rfl⟩
abbrev main_call8_call0_v43 : Ref sig .tc := ⟨.hbm, 2259, rfl⟩
abbrev main_call8_call0_v44 : Ref sig .tc := ⟨.hbm, 2260, rfl⟩
abbrev main_call8_call0_v45 : Ref sig .tc := ⟨.hbm, 2261, rfl⟩
abbrev main_call8_call0_v46 : Ref sig .tc := ⟨.hbm, 2262, rfl⟩
abbrev main_call8_call0_v47 : Ref sig .tc := ⟨.hbm, 2263, rfl⟩
abbrev main_call8_call0_c_11 : Ref sig .tc := ⟨.hbm, 2264, rfl⟩
abbrev main_call8_call0_v48 : Ref sig .tc := ⟨.hbm, 2265, rfl⟩
abbrev main_call8_call0_v49 : Ref sig .tc := ⟨.hbm, 2266, rfl⟩
abbrev main_call8_call0_c_12 : Ref sig .tc := ⟨.hbm, 2267, rfl⟩
abbrev main_call8_call0_v50 : Ref sig .tc := ⟨.hbm, 2268, rfl⟩
abbrev main_call8_call0_v51 : Ref sig .tc := ⟨.hbm, 2269, rfl⟩
abbrev main_call8_call0_v52 : Ref sig .tc := ⟨.hbm, 2270, rfl⟩
abbrev main_call8_call0_v53 : Ref sig .tc := ⟨.hbm, 2271, rfl⟩
abbrev main_call8_call0_v54 : Ref sig .tc := ⟨.hbm, 2272, rfl⟩
abbrev main_call8_call0_c_13 : Ref sig .tc := ⟨.hbm, 2273, rfl⟩
abbrev main_call8_call0_v55 : Ref sig .tc := ⟨.hbm, 2274, rfl⟩
abbrev main_call8_call0_v56 : Ref sig .tc := ⟨.hbm, 2275, rfl⟩
abbrev main_call8_call0_c_14 : Ref sig .tc := ⟨.hbm, 2276, rfl⟩
abbrev main_call8_call0_v57 : Ref sig .tc := ⟨.hbm, 2277, rfl⟩
abbrev main_call8_call0_v58 : Ref sig .tc := ⟨.hbm, 2278, rfl⟩
abbrev main_call8_call0_v59 : Ref sig .tc := ⟨.hbm, 2279, rfl⟩
abbrev main_call8_call0_v60 : Ref sig .tc := ⟨.hbm, 2280, rfl⟩
abbrev main_call8_call0_v61 : Ref sig .tc := ⟨.hbm, 2281, rfl⟩
abbrev main_call8_call0_c_15 : Ref sig .tc := ⟨.hbm, 2282, rfl⟩
abbrev main_call8_call0_v62 : Ref sig .tc := ⟨.hbm, 2283, rfl⟩
abbrev main_call8_call0_v63 : Ref sig .tc := ⟨.hbm, 2284, rfl⟩
abbrev main_call8_call0_c_16 : Ref sig .tc := ⟨.hbm, 2285, rfl⟩
abbrev main_call8_call0_v64 : Ref sig .tc := ⟨.hbm, 2286, rfl⟩
abbrev main_call8_call0_v65 : Ref sig .tc := ⟨.hbm, 2287, rfl⟩
abbrev main_call8_call0_v66 : Ref sig .tc := ⟨.hbm, 2288, rfl⟩
abbrev main_call8_call0_v67 : Ref sig .tc := ⟨.hbm, 2289, rfl⟩
abbrev main_call8_call0_v68 : Ref sig .tc := ⟨.hbm, 2290, rfl⟩
abbrev main_call8_call0_v69 : Ref sig .tc := ⟨.hbm, 2291, rfl⟩
abbrev main_call8_call0_v70 : Ref sig .tc := ⟨.hbm, 2292, rfl⟩
abbrev main_call8_call0_v71 : Ref sig .tc := ⟨.hbm, 2293, rfl⟩
abbrev main_call8_call0_c_17 : Ref sig .tc := ⟨.hbm, 2294, rfl⟩
abbrev main_call8_call0_v72 : Ref sig .tc := ⟨.hbm, 2295, rfl⟩
abbrev main_call8_call0_v73 : Ref sig .tc := ⟨.hbm, 2296, rfl⟩
abbrev main_call8_call0_v74 : Ref sig .tc := ⟨.hbm, 2297, rfl⟩
abbrev main_call8_call0_c_18 : Ref sig .tc := ⟨.hbm, 2298, rfl⟩
abbrev main_call8_call0_v75 : Ref sig .tc := ⟨.hbm, 2299, rfl⟩
abbrev main_call8_call0_v76 : Ref sig .tc := ⟨.hbm, 2300, rfl⟩
abbrev main_call8_call0_c_19 : Ref sig .tc := ⟨.hbm, 2301, rfl⟩
abbrev main_call8_call0_v77 : Ref sig .tc := ⟨.hbm, 2302, rfl⟩
abbrev main_call8_call0_v78 : Ref sig .tc := ⟨.hbm, 2303, rfl⟩
abbrev main_call8_call0_v79 : Ref sig .tc := ⟨.hbm, 2304, rfl⟩
abbrev main_call8_call0_v80 : Ref sig .tc := ⟨.hbm, 2305, rfl⟩
abbrev main_call8_call0_v81 : Ref sig .tc := ⟨.hbm, 2306, rfl⟩
abbrev main_call8_call0_c_20 : Ref sig .tc := ⟨.hbm, 2307, rfl⟩
abbrev main_call8_call0_v82 : Ref sig .tc := ⟨.hbm, 2308, rfl⟩
abbrev main_call8_call0_v83 : Ref sig .tc := ⟨.hbm, 2309, rfl⟩
abbrev main_call8_call0_c_21 : Ref sig .tc := ⟨.hbm, 2310, rfl⟩
abbrev main_call8_call0_v84 : Ref sig .tc := ⟨.hbm, 2311, rfl⟩
abbrev main_call8_call0_v85 : Ref sig .tc := ⟨.hbm, 2312, rfl⟩
abbrev main_call8_call0_v86 : Ref sig .tc := ⟨.hbm, 2313, rfl⟩
abbrev main_call8_call0_v87 : Ref sig .tc := ⟨.hbm, 2314, rfl⟩
abbrev main_call8_call0_v88 : Ref sig .tc := ⟨.hbm, 2315, rfl⟩
abbrev main_call8_call0_c_22 : Ref sig .tc := ⟨.hbm, 2316, rfl⟩
abbrev main_call8_call0_v89 : Ref sig .tc := ⟨.hbm, 2317, rfl⟩
abbrev main_call8_call0_v90 : Ref sig .tc := ⟨.hbm, 2318, rfl⟩
abbrev main_call8_call0_c_23 : Ref sig .tc := ⟨.hbm, 2319, rfl⟩
abbrev main_call8_call0_v91 : Ref sig .tc := ⟨.hbm, 2320, rfl⟩
abbrev main_call8_call0_v92 : Ref sig .tc := ⟨.hbm, 2321, rfl⟩
abbrev main_call8_call0_v93 : Ref sig .tc := ⟨.hbm, 2322, rfl⟩
abbrev main_call8_call0_v94 : Ref sig .tc := ⟨.hbm, 2323, rfl⟩
abbrev main_call8_call0_v95 : Ref sig .tc := ⟨.hbm, 2324, rfl⟩
abbrev main_call8_call0_c_24 : Ref sig .tc := ⟨.hbm, 2325, rfl⟩
abbrev main_call8_call0_v96 : Ref sig .tc := ⟨.hbm, 2326, rfl⟩
abbrev main_call8_call0_v97 : Ref sig .tc := ⟨.hbm, 2327, rfl⟩
abbrev main_call8_call0_c_25 : Ref sig .tc := ⟨.hbm, 2328, rfl⟩
abbrev main_call8_call0_v98 : Ref sig .tc := ⟨.hbm, 2329, rfl⟩
abbrev main_call8_call0_v99 : Ref sig .tc := ⟨.hbm, 2330, rfl⟩
abbrev main_call8_call0_v100 : Ref sig .tc := ⟨.hbm, 2331, rfl⟩
abbrev main_call8_call0_v101 : Ref sig .tc := ⟨.hbm, 2332, rfl⟩
abbrev main_call8_call0_v102 : Ref sig .tc := ⟨.hbm, 2333, rfl⟩
abbrev main_call8_call0_v103 : Ref sig .tc := ⟨.hbm, 2334, rfl⟩
abbrev main_call8_call0_v104 : Ref sig .tc := ⟨.hbm, 2335, rfl⟩
abbrev main_call8_call0_v105 : Ref sig .tc := ⟨.hbm, 2336, rfl⟩
abbrev main_call8_call0_c_26 : Ref sig .tc := ⟨.hbm, 2337, rfl⟩
abbrev main_call8_call0_v106 : Ref sig .tc := ⟨.hbm, 2338, rfl⟩
abbrev main_call8_call0_v107 : Ref sig .tc := ⟨.hbm, 2339, rfl⟩
abbrev main_call8_call0_v108 : Ref sig .tc := ⟨.hbm, 2340, rfl⟩
abbrev main_call8_call0_c_27 : Ref sig .tc := ⟨.hbm, 2341, rfl⟩
abbrev main_call8_call0_v109 : Ref sig .tc := ⟨.hbm, 2342, rfl⟩
abbrev main_call8_call0_v110 : Ref sig .tc := ⟨.hbm, 2343, rfl⟩
abbrev main_call8_call0_c_28 : Ref sig .tc := ⟨.hbm, 2344, rfl⟩
abbrev main_call8_call0_v111 : Ref sig .tc := ⟨.hbm, 2345, rfl⟩
abbrev main_call8_call0_v112 : Ref sig .tc := ⟨.hbm, 2346, rfl⟩
abbrev main_call8_call0_v113 : Ref sig .tc := ⟨.hbm, 2347, rfl⟩
abbrev main_call8_call0_v114 : Ref sig .tc := ⟨.hbm, 2348, rfl⟩
abbrev main_call8_call0_v115 : Ref sig .tc := ⟨.hbm, 2349, rfl⟩
abbrev main_call8_call0_c_29 : Ref sig .tc := ⟨.hbm, 2350, rfl⟩
abbrev main_call8_call0_v116 : Ref sig .tc := ⟨.hbm, 2351, rfl⟩
abbrev main_call8_call0_v117 : Ref sig .tc := ⟨.hbm, 2352, rfl⟩
abbrev main_call8_call0_c_30 : Ref sig .tc := ⟨.hbm, 2353, rfl⟩
abbrev main_call8_call0_v118 : Ref sig .tc := ⟨.hbm, 2354, rfl⟩
abbrev main_call8_call0_v119 : Ref sig .tc := ⟨.hbm, 2355, rfl⟩
abbrev main_call8_call0_v120 : Ref sig .tc := ⟨.hbm, 2356, rfl⟩
abbrev main_call8_call0_v121 : Ref sig .tc := ⟨.hbm, 2357, rfl⟩
abbrev main_call8_call0_v122 : Ref sig .tc := ⟨.hbm, 2358, rfl⟩
abbrev main_call8_call0_c_31 : Ref sig .tc := ⟨.hbm, 2359, rfl⟩
abbrev main_call8_call0_v123 : Ref sig .tc := ⟨.hbm, 2360, rfl⟩
abbrev main_call8_call0_v124 : Ref sig .tc := ⟨.hbm, 2361, rfl⟩
abbrev main_call8_call0_c_32 : Ref sig .tc := ⟨.hbm, 2362, rfl⟩
abbrev main_call8_call0_v125 : Ref sig .tc := ⟨.hbm, 2363, rfl⟩
abbrev main_call8_call0_v126 : Ref sig .tc := ⟨.hbm, 2364, rfl⟩
abbrev main_call8_call0_v127 : Ref sig .tc := ⟨.hbm, 2365, rfl⟩
abbrev main_call8_call0_v128 : Ref sig .tc := ⟨.hbm, 2366, rfl⟩
abbrev main_call8_call0_v129 : Ref sig .tc := ⟨.hbm, 2367, rfl⟩
abbrev main_call8_call0_c_33 : Ref sig .tc := ⟨.hbm, 2368, rfl⟩
abbrev main_call8_call0_v130 : Ref sig .tc := ⟨.hbm, 2369, rfl⟩
abbrev main_call8_call0_v131 : Ref sig .tc := ⟨.hbm, 2370, rfl⟩
abbrev main_call8_call0_c_34 : Ref sig .tc := ⟨.hbm, 2371, rfl⟩
abbrev main_call8_call0_v132 : Ref sig .tc := ⟨.hbm, 2372, rfl⟩
abbrev main_call8_call0_v133 : Ref sig .tc := ⟨.hbm, 2373, rfl⟩
abbrev main_call8_call0_v134 : Ref sig .tc := ⟨.hbm, 2374, rfl⟩
abbrev main_call8_call0_v135 : Ref sig .tc := ⟨.hbm, 2375, rfl⟩
abbrev main_call8_call0_v136 : Ref sig .tc := ⟨.hbm, 2376, rfl⟩
abbrev main_call8_call0_v137 : Ref sig .tc := ⟨.hbm, 2377, rfl⟩
abbrev main_call8_call0_v138 : Ref sig .tc := ⟨.hbm, 2378, rfl⟩
abbrev main_call8_call0_v139 : Ref sig .tc := ⟨.hbm, 2379, rfl⟩
abbrev main_call8_call0_c_35 : Ref sig .tc := ⟨.hbm, 2380, rfl⟩
abbrev main_call8_call0_v140 : Ref sig .tc := ⟨.hbm, 2381, rfl⟩
abbrev main_call8_call0_v141 : Ref sig .tc := ⟨.hbm, 2382, rfl⟩
abbrev main_call8_call0_v142 : Ref sig .tc := ⟨.hbm, 2383, rfl⟩
abbrev main_call8_call0_c_36 : Ref sig .tc := ⟨.hbm, 2384, rfl⟩
abbrev main_call8_call0_v143 : Ref sig .tc := ⟨.hbm, 2385, rfl⟩
abbrev main_call8_call0_v144 : Ref sig .tc := ⟨.hbm, 2386, rfl⟩
abbrev main_call8_call0_c_37 : Ref sig .tc := ⟨.hbm, 2387, rfl⟩
abbrev main_call8_call0_v145 : Ref sig .tc := ⟨.hbm, 2388, rfl⟩
abbrev main_call8_call0_v146 : Ref sig .tc := ⟨.hbm, 2389, rfl⟩
abbrev main_call8_call0_v147 : Ref sig .tc := ⟨.hbm, 2390, rfl⟩
abbrev main_call8_call0_v148 : Ref sig .tc := ⟨.hbm, 2391, rfl⟩
abbrev main_call8_call0_v149 : Ref sig .tc := ⟨.hbm, 2392, rfl⟩
abbrev main_call8_call0_c_38 : Ref sig .tc := ⟨.hbm, 2393, rfl⟩
abbrev main_call8_call0_v150 : Ref sig .tc := ⟨.hbm, 2394, rfl⟩
abbrev main_call8_call0_v151 : Ref sig .tc := ⟨.hbm, 2395, rfl⟩
abbrev main_call8_call0_c_39 : Ref sig .tc := ⟨.hbm, 2396, rfl⟩
abbrev main_call8_call0_v152 : Ref sig .tc := ⟨.hbm, 2397, rfl⟩
abbrev main_call8_call0_v153 : Ref sig .tc := ⟨.hbm, 2398, rfl⟩
abbrev main_call8_call0_v154 : Ref sig .tc := ⟨.hbm, 2399, rfl⟩
abbrev main_call8_call0_v155 : Ref sig .tc := ⟨.hbm, 2400, rfl⟩
abbrev main_call8_call0_v156 : Ref sig .tc := ⟨.hbm, 2401, rfl⟩
abbrev main_call8_call0_c_40 : Ref sig .tc := ⟨.hbm, 2402, rfl⟩
abbrev main_call8_call0_v157 : Ref sig .tc := ⟨.hbm, 2403, rfl⟩
abbrev main_call8_call0_v158 : Ref sig .tc := ⟨.hbm, 2404, rfl⟩
abbrev main_call8_call0_c_41 : Ref sig .tc := ⟨.hbm, 2405, rfl⟩
abbrev main_call8_call0_v159 : Ref sig .tc := ⟨.hbm, 2406, rfl⟩
abbrev main_call8_call0_v160 : Ref sig .tc := ⟨.hbm, 2407, rfl⟩
abbrev main_call8_call0_v161 : Ref sig .tc := ⟨.hbm, 2408, rfl⟩
abbrev main_call8_call0_v162 : Ref sig .tc := ⟨.hbm, 2409, rfl⟩
abbrev main_call8_call0_v163 : Ref sig .tc := ⟨.hbm, 2410, rfl⟩
abbrev main_call8_call0_c_42 : Ref sig .tc := ⟨.hbm, 2411, rfl⟩
abbrev main_call8_call0_v164 : Ref sig .tc := ⟨.hbm, 2412, rfl⟩
abbrev main_call8_call0_v165 : Ref sig .tc := ⟨.hbm, 2413, rfl⟩
abbrev main_call8_call0_c_43 : Ref sig .tc := ⟨.hbm, 2414, rfl⟩
abbrev main_call8_call0_v166 : Ref sig .tc := ⟨.hbm, 2415, rfl⟩
abbrev main_call8_call0_v167 : Ref sig .tc := ⟨.hbm, 2416, rfl⟩
abbrev main_call8_call0_v168 : Ref sig .tc := ⟨.hbm, 2417, rfl⟩
abbrev main_call8_call0_v169 : Ref sig .tc := ⟨.hbm, 2418, rfl⟩
abbrev main_call8_call0_v170 : Ref sig .tc := ⟨.hbm, 2419, rfl⟩
abbrev main_call8_v11_0 : Ref sig .tc := ⟨.hbm, 2420, rfl⟩
abbrev main_call8_call0_v172 : Ref sig .tc := ⟨.hbm, 2421, rfl⟩
abbrev main_call8_call0_v173 : Ref sig .tc := ⟨.hbm, 2422, rfl⟩
abbrev main_call8_call0_c_44 : Ref sig .tc := ⟨.hbm, 2423, rfl⟩
abbrev main_call8_call0_v174 : Ref sig .tc := ⟨.hbm, 2424, rfl⟩
abbrev main_call8_v11_1 : Ref sig .tc := ⟨.hbm, 2425, rfl⟩
abbrev main_call8_v12 : Ref sig .tc := ⟨.hbm, 2426, rfl⟩
abbrev main_call8_v13 : Ref sig .tc := ⟨.hbm, 2427, rfl⟩
abbrev main_v169 : Ref sig .tc := ⟨.hbm, 2428, rfl⟩
abbrev main_v170 : Ref sig .tc := ⟨.hbm, 2429, rfl⟩
abbrev main_v171 : Ref sig .tc := ⟨.hbm, 2430, rfl⟩
abbrev main_v172 : Ref sig .tc := ⟨.hbm, 2431, rfl⟩
abbrev main_v173 : Ref sig .tc := ⟨.hbm, 2432, rfl⟩
abbrev main_cst_46 : Ref sig .tc := ⟨.hbm, 2433, rfl⟩
abbrev main_cst_47 : Ref sig .tc := ⟨.hbm, 2434, rfl⟩
abbrev main_call9_v0 : Ref sig .tc := ⟨.hbm, 2435, rfl⟩
abbrev main_call9_v1 : Ref sig .tc := ⟨.hbm, 2436, rfl⟩
abbrev main_call9_v2 : Ref sig .tc := ⟨.hbm, 2437, rfl⟩
abbrev main_call9_v3 : Ref sig .tc := ⟨.hbm, 2438, rfl⟩
abbrev main_call9_v4 : Ref sig .tc := ⟨.hbm, 2439, rfl⟩
abbrev main_call9_v5 : Ref sig .tc := ⟨.hbm, 2440, rfl⟩
abbrev main_call9_v6 : Ref sig .tc := ⟨.hbm, 2441, rfl⟩
abbrev main_call9_v7 : Ref sig .tc := ⟨.hbm, 2442, rfl⟩
abbrev main_call9_v8 : Ref sig .tc := ⟨.hbm, 2443, rfl⟩
abbrev main_call9_c : Ref sig .tc := ⟨.hbm, 2444, rfl⟩
abbrev main_call9_v9 : Ref sig .tc := ⟨.hbm, 2445, rfl⟩
abbrev main_call9_v10 : Ref sig .tc := ⟨.hbm, 2446, rfl⟩
abbrev main_call9_c_0 : Ref sig .tc := ⟨.hbm, 2447, rfl⟩
abbrev main_call9_v11 : Ref sig .tc := ⟨.hbm, 2448, rfl⟩
abbrev main_call9_v12 : Ref sig .tc := ⟨.hbm, 2449, rfl⟩
abbrev main_call9_v13 : Ref sig .tc := ⟨.hbm, 2450, rfl⟩
abbrev main_call9_v14 : Ref sig .tc := ⟨.hbm, 2451, rfl⟩
abbrev main_call9_call0_v0 : Ref sig .tc := ⟨.hbm, 2452, rfl⟩
abbrev main_call9_call0_c : Ref sig .tc := ⟨.hbm, 2453, rfl⟩
abbrev main_call9_call0_v1 : Ref sig .tc := ⟨.hbm, 2454, rfl⟩
abbrev main_call9_call0_v2 : Ref sig .tc := ⟨.hbm, 2455, rfl⟩
abbrev main_call9_call0_v3 : Ref sig .tc := ⟨.hbm, 2456, rfl⟩
abbrev main_call9_call0_v4 : Ref sig .tc := ⟨.hbm, 2457, rfl⟩
abbrev main_call9_call0_v5 : Ref sig .tc := ⟨.hbm, 2458, rfl⟩
abbrev main_call9_call0_v6 : Ref sig .tc := ⟨.hbm, 2459, rfl⟩
abbrev main_call9_call0_c_0 : Ref sig .tc := ⟨.hbm, 2460, rfl⟩
abbrev main_call9_call0_v7 : Ref sig .tc := ⟨.hbm, 2461, rfl⟩
abbrev main_call9_call0_v8 : Ref sig .tc := ⟨.hbm, 2462, rfl⟩
abbrev main_call9_call0_c_1 : Ref sig .tc := ⟨.hbm, 2463, rfl⟩
abbrev main_call9_call0_v9 : Ref sig .tc := ⟨.hbm, 2464, rfl⟩
abbrev main_call9_call0_v10 : Ref sig .tc := ⟨.hbm, 2465, rfl⟩
abbrev main_call9_call0_v11 : Ref sig .tc := ⟨.hbm, 2466, rfl⟩
abbrev main_call9_call0_v12 : Ref sig .tc := ⟨.hbm, 2467, rfl⟩
abbrev main_call9_call0_v13 : Ref sig .tc := ⟨.hbm, 2468, rfl⟩
abbrev main_call9_call0_c_2 : Ref sig .tc := ⟨.hbm, 2469, rfl⟩
abbrev main_call9_call0_v14 : Ref sig .tc := ⟨.hbm, 2470, rfl⟩
abbrev main_call9_call0_v15 : Ref sig .tc := ⟨.hbm, 2471, rfl⟩
abbrev main_call9_call0_c_3 : Ref sig .tc := ⟨.hbm, 2472, rfl⟩
abbrev main_call9_call0_v16 : Ref sig .tc := ⟨.hbm, 2473, rfl⟩
abbrev main_call9_call0_v17 : Ref sig .tc := ⟨.hbm, 2474, rfl⟩
abbrev main_call9_call0_v18 : Ref sig .tc := ⟨.hbm, 2475, rfl⟩
abbrev main_call9_call0_v19 : Ref sig .tc := ⟨.hbm, 2476, rfl⟩
abbrev main_call9_call0_v20 : Ref sig .tc := ⟨.hbm, 2477, rfl⟩
abbrev main_call9_call0_c_4 : Ref sig .tc := ⟨.hbm, 2478, rfl⟩
abbrev main_call9_call0_v21 : Ref sig .tc := ⟨.hbm, 2479, rfl⟩
abbrev main_call9_call0_v22 : Ref sig .tc := ⟨.hbm, 2480, rfl⟩
abbrev main_call9_call0_c_5 : Ref sig .tc := ⟨.hbm, 2481, rfl⟩
abbrev main_call9_call0_v23 : Ref sig .tc := ⟨.hbm, 2482, rfl⟩
abbrev main_call9_call0_v24 : Ref sig .tc := ⟨.hbm, 2483, rfl⟩
abbrev main_call9_call0_v25 : Ref sig .tc := ⟨.hbm, 2484, rfl⟩
abbrev main_call9_call0_v26 : Ref sig .tc := ⟨.hbm, 2485, rfl⟩
abbrev main_call9_call0_v27 : Ref sig .tc := ⟨.hbm, 2486, rfl⟩
abbrev main_call9_call0_c_6 : Ref sig .tc := ⟨.hbm, 2487, rfl⟩
abbrev main_call9_call0_v28 : Ref sig .tc := ⟨.hbm, 2488, rfl⟩
abbrev main_call9_call0_v29 : Ref sig .tc := ⟨.hbm, 2489, rfl⟩
abbrev main_call9_call0_c_7 : Ref sig .tc := ⟨.hbm, 2490, rfl⟩
abbrev main_call9_call0_v30 : Ref sig .tc := ⟨.hbm, 2491, rfl⟩
abbrev main_call9_call0_v31 : Ref sig .tc := ⟨.hbm, 2492, rfl⟩
abbrev main_call9_call0_v32 : Ref sig .tc := ⟨.hbm, 2493, rfl⟩
abbrev main_call9_call0_v33 : Ref sig .tc := ⟨.hbm, 2494, rfl⟩
abbrev main_call9_call0_v34 : Ref sig .tc := ⟨.hbm, 2495, rfl⟩
abbrev main_call9_call0_v35 : Ref sig .tc := ⟨.hbm, 2496, rfl⟩
abbrev main_call9_call0_v36 : Ref sig .tc := ⟨.hbm, 2497, rfl⟩
abbrev main_call9_call0_v37 : Ref sig .tc := ⟨.hbm, 2498, rfl⟩
abbrev main_call9_call0_c_8 : Ref sig .tc := ⟨.hbm, 2499, rfl⟩
abbrev main_call9_call0_v38 : Ref sig .tc := ⟨.hbm, 2500, rfl⟩
abbrev main_call9_call0_v39 : Ref sig .tc := ⟨.hbm, 2501, rfl⟩
abbrev main_call9_call0_v40 : Ref sig .tc := ⟨.hbm, 2502, rfl⟩
abbrev main_call9_call0_c_9 : Ref sig .tc := ⟨.hbm, 2503, rfl⟩
abbrev main_call9_call0_v41 : Ref sig .tc := ⟨.hbm, 2504, rfl⟩
abbrev main_call9_call0_v42 : Ref sig .tc := ⟨.hbm, 2505, rfl⟩
abbrev main_call9_call0_c_10 : Ref sig .tc := ⟨.hbm, 2506, rfl⟩
abbrev main_call9_call0_v43 : Ref sig .tc := ⟨.hbm, 2507, rfl⟩
abbrev main_call9_call0_v44 : Ref sig .tc := ⟨.hbm, 2508, rfl⟩
abbrev main_call9_call0_v45 : Ref sig .tc := ⟨.hbm, 2509, rfl⟩
abbrev main_call9_call0_v46 : Ref sig .tc := ⟨.hbm, 2510, rfl⟩
abbrev main_call9_call0_v47 : Ref sig .tc := ⟨.hbm, 2511, rfl⟩
abbrev main_call9_call0_c_11 : Ref sig .tc := ⟨.hbm, 2512, rfl⟩
abbrev main_call9_call0_v48 : Ref sig .tc := ⟨.hbm, 2513, rfl⟩
abbrev main_call9_call0_v49 : Ref sig .tc := ⟨.hbm, 2514, rfl⟩
abbrev main_call9_call0_c_12 : Ref sig .tc := ⟨.hbm, 2515, rfl⟩
abbrev main_call9_call0_v50 : Ref sig .tc := ⟨.hbm, 2516, rfl⟩
abbrev main_call9_call0_v51 : Ref sig .tc := ⟨.hbm, 2517, rfl⟩
abbrev main_call9_call0_v52 : Ref sig .tc := ⟨.hbm, 2518, rfl⟩
abbrev main_call9_call0_v53 : Ref sig .tc := ⟨.hbm, 2519, rfl⟩
abbrev main_call9_call0_v54 : Ref sig .tc := ⟨.hbm, 2520, rfl⟩
abbrev main_call9_call0_c_13 : Ref sig .tc := ⟨.hbm, 2521, rfl⟩
abbrev main_call9_call0_v55 : Ref sig .tc := ⟨.hbm, 2522, rfl⟩
abbrev main_call9_call0_v56 : Ref sig .tc := ⟨.hbm, 2523, rfl⟩
abbrev main_call9_call0_c_14 : Ref sig .tc := ⟨.hbm, 2524, rfl⟩
abbrev main_call9_call0_v57 : Ref sig .tc := ⟨.hbm, 2525, rfl⟩
abbrev main_call9_call0_v58 : Ref sig .tc := ⟨.hbm, 2526, rfl⟩
abbrev main_call9_call0_v59 : Ref sig .tc := ⟨.hbm, 2527, rfl⟩
abbrev main_call9_call0_v60 : Ref sig .tc := ⟨.hbm, 2528, rfl⟩
abbrev main_call9_call0_v61 : Ref sig .tc := ⟨.hbm, 2529, rfl⟩
abbrev main_call9_call0_c_15 : Ref sig .tc := ⟨.hbm, 2530, rfl⟩
abbrev main_call9_call0_v62 : Ref sig .tc := ⟨.hbm, 2531, rfl⟩
abbrev main_call9_call0_v63 : Ref sig .tc := ⟨.hbm, 2532, rfl⟩
abbrev main_call9_call0_c_16 : Ref sig .tc := ⟨.hbm, 2533, rfl⟩
abbrev main_call9_call0_v64 : Ref sig .tc := ⟨.hbm, 2534, rfl⟩
abbrev main_call9_call0_v65 : Ref sig .tc := ⟨.hbm, 2535, rfl⟩
abbrev main_call9_call0_v66 : Ref sig .tc := ⟨.hbm, 2536, rfl⟩
abbrev main_call9_call0_v67 : Ref sig .tc := ⟨.hbm, 2537, rfl⟩
abbrev main_call9_call0_v68 : Ref sig .tc := ⟨.hbm, 2538, rfl⟩
abbrev main_call9_call0_v69 : Ref sig .tc := ⟨.hbm, 2539, rfl⟩
abbrev main_call9_call0_v70 : Ref sig .tc := ⟨.hbm, 2540, rfl⟩
abbrev main_call9_call0_v71 : Ref sig .tc := ⟨.hbm, 2541, rfl⟩
abbrev main_call9_call0_c_17 : Ref sig .tc := ⟨.hbm, 2542, rfl⟩
abbrev main_call9_call0_v72 : Ref sig .tc := ⟨.hbm, 2543, rfl⟩
abbrev main_call9_call0_v73 : Ref sig .tc := ⟨.hbm, 2544, rfl⟩
abbrev main_call9_call0_v74 : Ref sig .tc := ⟨.hbm, 2545, rfl⟩
abbrev main_call9_call0_c_18 : Ref sig .tc := ⟨.hbm, 2546, rfl⟩
abbrev main_call9_call0_v75 : Ref sig .tc := ⟨.hbm, 2547, rfl⟩
abbrev main_call9_call0_v76 : Ref sig .tc := ⟨.hbm, 2548, rfl⟩
abbrev main_call9_call0_c_19 : Ref sig .tc := ⟨.hbm, 2549, rfl⟩
abbrev main_call9_call0_v77 : Ref sig .tc := ⟨.hbm, 2550, rfl⟩
abbrev main_call9_call0_v78 : Ref sig .tc := ⟨.hbm, 2551, rfl⟩
abbrev main_call9_call0_v79 : Ref sig .tc := ⟨.hbm, 2552, rfl⟩
abbrev main_call9_call0_v80 : Ref sig .tc := ⟨.hbm, 2553, rfl⟩
abbrev main_call9_call0_v81 : Ref sig .tc := ⟨.hbm, 2554, rfl⟩
abbrev main_call9_call0_c_20 : Ref sig .tc := ⟨.hbm, 2555, rfl⟩
abbrev main_call9_call0_v82 : Ref sig .tc := ⟨.hbm, 2556, rfl⟩
abbrev main_call9_call0_v83 : Ref sig .tc := ⟨.hbm, 2557, rfl⟩
abbrev main_call9_call0_c_21 : Ref sig .tc := ⟨.hbm, 2558, rfl⟩
abbrev main_call9_call0_v84 : Ref sig .tc := ⟨.hbm, 2559, rfl⟩
abbrev main_call9_call0_v85 : Ref sig .tc := ⟨.hbm, 2560, rfl⟩
abbrev main_call9_call0_v86 : Ref sig .tc := ⟨.hbm, 2561, rfl⟩
abbrev main_call9_call0_v87 : Ref sig .tc := ⟨.hbm, 2562, rfl⟩
abbrev main_call9_call0_v88 : Ref sig .tc := ⟨.hbm, 2563, rfl⟩
abbrev main_call9_call0_c_22 : Ref sig .tc := ⟨.hbm, 2564, rfl⟩
abbrev main_call9_call0_v89 : Ref sig .tc := ⟨.hbm, 2565, rfl⟩
abbrev main_call9_call0_v90 : Ref sig .tc := ⟨.hbm, 2566, rfl⟩
abbrev main_call9_call0_c_23 : Ref sig .tc := ⟨.hbm, 2567, rfl⟩
abbrev main_call9_call0_v91 : Ref sig .tc := ⟨.hbm, 2568, rfl⟩
abbrev main_call9_call0_v92 : Ref sig .tc := ⟨.hbm, 2569, rfl⟩
abbrev main_call9_call0_v93 : Ref sig .tc := ⟨.hbm, 2570, rfl⟩
abbrev main_call9_call0_v94 : Ref sig .tc := ⟨.hbm, 2571, rfl⟩
abbrev main_call9_call0_v95 : Ref sig .tc := ⟨.hbm, 2572, rfl⟩
abbrev main_call9_call0_c_24 : Ref sig .tc := ⟨.hbm, 2573, rfl⟩
abbrev main_call9_call0_v96 : Ref sig .tc := ⟨.hbm, 2574, rfl⟩
abbrev main_call9_call0_v97 : Ref sig .tc := ⟨.hbm, 2575, rfl⟩
abbrev main_call9_call0_c_25 : Ref sig .tc := ⟨.hbm, 2576, rfl⟩
abbrev main_call9_call0_v98 : Ref sig .tc := ⟨.hbm, 2577, rfl⟩
abbrev main_call9_call0_v99 : Ref sig .tc := ⟨.hbm, 2578, rfl⟩
abbrev main_call9_call0_v100 : Ref sig .tc := ⟨.hbm, 2579, rfl⟩
abbrev main_call9_call0_v101 : Ref sig .tc := ⟨.hbm, 2580, rfl⟩
abbrev main_call9_call0_v102 : Ref sig .tc := ⟨.hbm, 2581, rfl⟩
abbrev main_call9_call0_v103 : Ref sig .tc := ⟨.hbm, 2582, rfl⟩
abbrev main_call9_call0_v104 : Ref sig .tc := ⟨.hbm, 2583, rfl⟩
abbrev main_call9_call0_v105 : Ref sig .tc := ⟨.hbm, 2584, rfl⟩
abbrev main_call9_call0_c_26 : Ref sig .tc := ⟨.hbm, 2585, rfl⟩
abbrev main_call9_call0_v106 : Ref sig .tc := ⟨.hbm, 2586, rfl⟩
abbrev main_call9_call0_v107 : Ref sig .tc := ⟨.hbm, 2587, rfl⟩
abbrev main_call9_call0_v108 : Ref sig .tc := ⟨.hbm, 2588, rfl⟩
abbrev main_call9_call0_c_27 : Ref sig .tc := ⟨.hbm, 2589, rfl⟩
abbrev main_call9_call0_v109 : Ref sig .tc := ⟨.hbm, 2590, rfl⟩
abbrev main_call9_call0_v110 : Ref sig .tc := ⟨.hbm, 2591, rfl⟩
abbrev main_call9_call0_c_28 : Ref sig .tc := ⟨.hbm, 2592, rfl⟩
abbrev main_call9_call0_v111 : Ref sig .tc := ⟨.hbm, 2593, rfl⟩
abbrev main_call9_call0_v112 : Ref sig .tc := ⟨.hbm, 2594, rfl⟩
abbrev main_call9_call0_v113 : Ref sig .tc := ⟨.hbm, 2595, rfl⟩
abbrev main_call9_call0_v114 : Ref sig .tc := ⟨.hbm, 2596, rfl⟩
abbrev main_call9_call0_v115 : Ref sig .tc := ⟨.hbm, 2597, rfl⟩
abbrev main_call9_call0_c_29 : Ref sig .tc := ⟨.hbm, 2598, rfl⟩
abbrev main_call9_call0_v116 : Ref sig .tc := ⟨.hbm, 2599, rfl⟩
abbrev main_call9_call0_v117 : Ref sig .tc := ⟨.hbm, 2600, rfl⟩
abbrev main_call9_call0_c_30 : Ref sig .tc := ⟨.hbm, 2601, rfl⟩
abbrev main_call9_call0_v118 : Ref sig .tc := ⟨.hbm, 2602, rfl⟩
abbrev main_call9_call0_v119 : Ref sig .tc := ⟨.hbm, 2603, rfl⟩
abbrev main_call9_call0_v120 : Ref sig .tc := ⟨.hbm, 2604, rfl⟩
abbrev main_call9_call0_v121 : Ref sig .tc := ⟨.hbm, 2605, rfl⟩
abbrev main_call9_call0_v122 : Ref sig .tc := ⟨.hbm, 2606, rfl⟩
abbrev main_call9_call0_c_31 : Ref sig .tc := ⟨.hbm, 2607, rfl⟩
abbrev main_call9_call0_v123 : Ref sig .tc := ⟨.hbm, 2608, rfl⟩
abbrev main_call9_call0_v124 : Ref sig .tc := ⟨.hbm, 2609, rfl⟩
abbrev main_call9_call0_c_32 : Ref sig .tc := ⟨.hbm, 2610, rfl⟩
abbrev main_call9_call0_v125 : Ref sig .tc := ⟨.hbm, 2611, rfl⟩
abbrev main_call9_call0_v126 : Ref sig .tc := ⟨.hbm, 2612, rfl⟩
abbrev main_call9_call0_v127 : Ref sig .tc := ⟨.hbm, 2613, rfl⟩
abbrev main_call9_call0_v128 : Ref sig .tc := ⟨.hbm, 2614, rfl⟩
abbrev main_call9_call0_v129 : Ref sig .tc := ⟨.hbm, 2615, rfl⟩
abbrev main_call9_call0_c_33 : Ref sig .tc := ⟨.hbm, 2616, rfl⟩
abbrev main_call9_call0_v130 : Ref sig .tc := ⟨.hbm, 2617, rfl⟩
abbrev main_call9_call0_v131 : Ref sig .tc := ⟨.hbm, 2618, rfl⟩
abbrev main_call9_call0_c_34 : Ref sig .tc := ⟨.hbm, 2619, rfl⟩
abbrev main_call9_call0_v132 : Ref sig .tc := ⟨.hbm, 2620, rfl⟩
abbrev main_call9_call0_v133 : Ref sig .tc := ⟨.hbm, 2621, rfl⟩
abbrev main_call9_call0_v134 : Ref sig .tc := ⟨.hbm, 2622, rfl⟩
abbrev main_call9_call0_v135 : Ref sig .tc := ⟨.hbm, 2623, rfl⟩
abbrev main_call9_call0_v136 : Ref sig .tc := ⟨.hbm, 2624, rfl⟩
abbrev main_call9_call0_v137 : Ref sig .tc := ⟨.hbm, 2625, rfl⟩
abbrev main_call9_call0_v138 : Ref sig .tc := ⟨.hbm, 2626, rfl⟩
abbrev main_call9_call0_v139 : Ref sig .tc := ⟨.hbm, 2627, rfl⟩
abbrev main_call9_call0_c_35 : Ref sig .tc := ⟨.hbm, 2628, rfl⟩
abbrev main_call9_call0_v140 : Ref sig .tc := ⟨.hbm, 2629, rfl⟩
abbrev main_call9_call0_v141 : Ref sig .tc := ⟨.hbm, 2630, rfl⟩
abbrev main_call9_call0_v142 : Ref sig .tc := ⟨.hbm, 2631, rfl⟩
abbrev main_call9_call0_c_36 : Ref sig .tc := ⟨.hbm, 2632, rfl⟩
abbrev main_call9_call0_v143 : Ref sig .tc := ⟨.hbm, 2633, rfl⟩
abbrev main_call9_call0_v144 : Ref sig .tc := ⟨.hbm, 2634, rfl⟩
abbrev main_call9_call0_c_37 : Ref sig .tc := ⟨.hbm, 2635, rfl⟩
abbrev main_call9_call0_v145 : Ref sig .tc := ⟨.hbm, 2636, rfl⟩
abbrev main_call9_call0_v146 : Ref sig .tc := ⟨.hbm, 2637, rfl⟩
abbrev main_call9_call0_v147 : Ref sig .tc := ⟨.hbm, 2638, rfl⟩
abbrev main_call9_call0_v148 : Ref sig .tc := ⟨.hbm, 2639, rfl⟩
abbrev main_call9_call0_v149 : Ref sig .tc := ⟨.hbm, 2640, rfl⟩
abbrev main_call9_call0_c_38 : Ref sig .tc := ⟨.hbm, 2641, rfl⟩
abbrev main_call9_call0_v150 : Ref sig .tc := ⟨.hbm, 2642, rfl⟩
abbrev main_call9_call0_v151 : Ref sig .tc := ⟨.hbm, 2643, rfl⟩
abbrev main_call9_call0_c_39 : Ref sig .tc := ⟨.hbm, 2644, rfl⟩
abbrev main_call9_call0_v152 : Ref sig .tc := ⟨.hbm, 2645, rfl⟩
abbrev main_call9_call0_v153 : Ref sig .tc := ⟨.hbm, 2646, rfl⟩
abbrev main_call9_call0_v154 : Ref sig .tc := ⟨.hbm, 2647, rfl⟩
abbrev main_call9_call0_v155 : Ref sig .tc := ⟨.hbm, 2648, rfl⟩
abbrev main_call9_call0_v156 : Ref sig .tc := ⟨.hbm, 2649, rfl⟩
abbrev main_call9_call0_c_40 : Ref sig .tc := ⟨.hbm, 2650, rfl⟩
abbrev main_call9_call0_v157 : Ref sig .tc := ⟨.hbm, 2651, rfl⟩
abbrev main_call9_call0_v158 : Ref sig .tc := ⟨.hbm, 2652, rfl⟩
abbrev main_call9_call0_c_41 : Ref sig .tc := ⟨.hbm, 2653, rfl⟩
abbrev main_call9_call0_v159 : Ref sig .tc := ⟨.hbm, 2654, rfl⟩
abbrev main_call9_call0_v160 : Ref sig .tc := ⟨.hbm, 2655, rfl⟩
abbrev main_call9_call0_v161 : Ref sig .tc := ⟨.hbm, 2656, rfl⟩
abbrev main_call9_call0_v162 : Ref sig .tc := ⟨.hbm, 2657, rfl⟩
abbrev main_call9_call0_v163 : Ref sig .tc := ⟨.hbm, 2658, rfl⟩
abbrev main_call9_call0_c_42 : Ref sig .tc := ⟨.hbm, 2659, rfl⟩
abbrev main_call9_call0_v164 : Ref sig .tc := ⟨.hbm, 2660, rfl⟩
abbrev main_call9_call0_v165 : Ref sig .tc := ⟨.hbm, 2661, rfl⟩
abbrev main_call9_call0_c_43 : Ref sig .tc := ⟨.hbm, 2662, rfl⟩
abbrev main_call9_call0_v166 : Ref sig .tc := ⟨.hbm, 2663, rfl⟩
abbrev main_call9_call0_v167 : Ref sig .tc := ⟨.hbm, 2664, rfl⟩
abbrev main_call9_call0_v168 : Ref sig .tc := ⟨.hbm, 2665, rfl⟩
abbrev main_call9_call0_v169 : Ref sig .tc := ⟨.hbm, 2666, rfl⟩
abbrev main_call9_call0_v170 : Ref sig .tc := ⟨.hbm, 2667, rfl⟩
abbrev main_call9_v15_0 : Ref sig .tc := ⟨.hbm, 2668, rfl⟩
abbrev main_call9_call0_v172 : Ref sig .tc := ⟨.hbm, 2669, rfl⟩
abbrev main_call9_call0_v173 : Ref sig .tc := ⟨.hbm, 2670, rfl⟩
abbrev main_call9_call0_c_44 : Ref sig .tc := ⟨.hbm, 2671, rfl⟩
abbrev main_call9_call0_v174 : Ref sig .tc := ⟨.hbm, 2672, rfl⟩
abbrev main_call9_v15_1 : Ref sig .tc := ⟨.hbm, 2673, rfl⟩
abbrev main_call9_v16 : Ref sig .tc := ⟨.hbm, 2674, rfl⟩
abbrev main_call9_c_1 : Ref sig .tc := ⟨.hbm, 2675, rfl⟩
abbrev main_call9_v17 : Ref sig .tc := ⟨.hbm, 2676, rfl⟩
abbrev main_call9_v18 : Ref sig .tc := ⟨.hbm, 2677, rfl⟩
abbrev main_call9_c_2 : Ref sig .tc := ⟨.hbm, 2678, rfl⟩
abbrev main_call9_v19 : Ref sig .tc := ⟨.hbm, 2679, rfl⟩
abbrev main_call9_v20 : Ref sig .tc := ⟨.hbm, 2680, rfl⟩
abbrev main_call9_v21 : Ref sig .tc := ⟨.hbm, 2681, rfl⟩
abbrev main_call9_cst : Ref sig .tc := ⟨.hbm, 2682, rfl⟩
abbrev main_call9_v22 : Ref sig .tc := ⟨.hbm, 2683, rfl⟩
abbrev main_call9_v23 : Ref sig .tc := ⟨.hbm, 2684, rfl⟩
abbrev main_call9_v24 : Ref sig .tc := ⟨.hbm, 2685, rfl⟩
abbrev main_call9_v25 : Ref sig .tc := ⟨.hbm, 2686, rfl⟩
abbrev main_call9_v26 : Ref sig .tc := ⟨.hbm, 2687, rfl⟩
abbrev main_call9_v27 : Ref sig .tc := ⟨.hbm, 2688, rfl⟩
abbrev main_call9_v28 : Ref sig .tc := ⟨.hbm, 2689, rfl⟩
abbrev main_call9_v29 : Ref sig .tc := ⟨.hbm, 2690, rfl⟩
abbrev main_v174 : Ref sig .tc := ⟨.hbm, 2691, rfl⟩
abbrev main_v175 : Ref sig .tc := ⟨.hbm, 2692, rfl⟩
abbrev main_v176 : Ref sig .tc := ⟨.hbm, 2693, rfl⟩
abbrev main_cst_48 : Ref sig .tc := ⟨.hbm, 2694, rfl⟩
abbrev main_v177 : Ref sig .tc := ⟨.hbm, 2695, rfl⟩
abbrev main_v178 : Ref sig .tc := ⟨.hbm, 2696, rfl⟩
abbrev main_cst_49 : Ref sig .tc := ⟨.hbm, 2697, rfl⟩
abbrev main_v179 : Ref sig .tc := ⟨.hbm, 2698, rfl⟩
abbrev main_v180 : Ref sig .tc := ⟨.hbm, 2699, rfl⟩
abbrev main_v181 : Ref sig .tc := ⟨.hbm, 2700, rfl⟩
abbrev main_v182 : Ref sig .tc := ⟨.hbm, 2701, rfl⟩
abbrev main_v183 : Ref sig .tc := ⟨.hbm, 2702, rfl⟩
abbrev main_v184 : Ref sig .tc := ⟨.hbm, 2703, rfl⟩
abbrev main_v185 : Ref sig .tc := ⟨.hbm, 2704, rfl⟩
abbrev main_v186 : Ref sig .tc := ⟨.hbm, 2705, rfl⟩
abbrev main_cst_50 : Ref sig .tc := ⟨.hbm, 2706, rfl⟩
abbrev main_v187 : Ref sig .tc := ⟨.hbm, 2707, rfl⟩
abbrev main_v188 : Ref sig .tc := ⟨.hbm, 2708, rfl⟩
abbrev main_v189 : Ref sig .tc := ⟨.hbm, 2709, rfl⟩
abbrev main_v190 : Ref sig .tc := ⟨.hbm, 2710, rfl⟩
abbrev main_v191 : Ref sig .tc := ⟨.hbm, 2711, rfl⟩
abbrev main_v192 : Ref sig .tc := ⟨.hbm, 2712, rfl⟩
abbrev main_cst_51 : Ref sig .tc := ⟨.hbm, 2713, rfl⟩
abbrev main_v193 : Ref sig .tc := ⟨.hbm, 2714, rfl⟩
abbrev main_c_52 : Ref sig .tc := ⟨.hbm, 2715, rfl⟩
abbrev main_v194 : Ref sig .tc := ⟨.hbm, 2716, rfl⟩
abbrev main_cst_53 : Ref sig .tc := ⟨.hbm, 2717, rfl⟩
abbrev main_v195 : Ref sig .tc := ⟨.hbm, 2718, rfl⟩
abbrev main_v196 : Ref sig .tc := ⟨.hbm, 2719, rfl⟩
abbrev main_cst_54 : Ref sig .tc := ⟨.hbm, 2720, rfl⟩
abbrev main_v197 : Ref sig .tc := ⟨.hbm, 2721, rfl⟩
abbrev main_v198 : Ref sig .tc := ⟨.hbm, 2722, rfl⟩
abbrev main_v199 : Ref sig .tc := ⟨.hbm, 2723, rfl⟩
abbrev main_cst_55 : Ref sig .tc := ⟨.hbm, 2724, rfl⟩
abbrev main_v200 : Ref sig .tc := ⟨.hbm, 2725, rfl⟩
abbrev main_v201 : Ref sig .tc := ⟨.hbm, 2726, rfl⟩
abbrev main_v202 : Ref sig .tc := ⟨.hbm, 2727, rfl⟩
abbrev main_v203 : Ref sig .tc := ⟨.hbm, 2728, rfl⟩
abbrev main_v204 : Ref sig .tc := ⟨.hbm, 2729, rfl⟩
abbrev main_v205 : Ref sig .tc := ⟨.hbm, 2730, rfl⟩
abbrev main_call10_v0 : Ref sig .tc := ⟨.hbm, 2731, rfl⟩
abbrev main_call10_v1 : Ref sig .tc := ⟨.hbm, 2732, rfl⟩
abbrev main_call10_v2 : Ref sig .tc := ⟨.hbm, 2733, rfl⟩
abbrev main_call10_v3 : Ref sig .tc := ⟨.hbm, 2734, rfl⟩
abbrev main_call10_v4 : Ref sig .tc := ⟨.hbm, 2735, rfl⟩
abbrev main_call10_c : Ref sig .tc := ⟨.hbm, 2736, rfl⟩
abbrev main_call10_v5 : Ref sig .tc := ⟨.hbm, 2737, rfl⟩
abbrev main_call10_v6 : Ref sig .tc := ⟨.hbm, 2738, rfl⟩
abbrev main_call10_c_0 : Ref sig .tc := ⟨.hbm, 2739, rfl⟩
abbrev main_call10_v7 : Ref sig .tc := ⟨.hbm, 2740, rfl⟩
abbrev main_call10_v8 : Ref sig .tc := ⟨.hbm, 2741, rfl⟩
abbrev main_call10_v9 : Ref sig .tc := ⟨.hbm, 2742, rfl⟩
abbrev main_call10_v10 : Ref sig .tc := ⟨.hbm, 2743, rfl⟩
abbrev main_call10_call0_v0 : Ref sig .tc := ⟨.hbm, 2744, rfl⟩
abbrev main_call10_call0_c : Ref sig .tc := ⟨.hbm, 2745, rfl⟩
abbrev main_call10_call0_v1 : Ref sig .tc := ⟨.hbm, 2746, rfl⟩
abbrev main_call10_call0_v2 : Ref sig .tc := ⟨.hbm, 2747, rfl⟩
abbrev main_call10_call0_v3 : Ref sig .tc := ⟨.hbm, 2748, rfl⟩
abbrev main_call10_call0_v4 : Ref sig .tc := ⟨.hbm, 2749, rfl⟩
abbrev main_call10_call0_v5 : Ref sig .tc := ⟨.hbm, 2750, rfl⟩
abbrev main_call10_call0_v6 : Ref sig .tc := ⟨.hbm, 2751, rfl⟩
abbrev main_call10_call0_c_0 : Ref sig .tc := ⟨.hbm, 2752, rfl⟩
abbrev main_call10_call0_v7 : Ref sig .tc := ⟨.hbm, 2753, rfl⟩
abbrev main_call10_call0_v8 : Ref sig .tc := ⟨.hbm, 2754, rfl⟩
abbrev main_call10_call0_c_1 : Ref sig .tc := ⟨.hbm, 2755, rfl⟩
abbrev main_call10_call0_v9 : Ref sig .tc := ⟨.hbm, 2756, rfl⟩
abbrev main_call10_call0_v10 : Ref sig .tc := ⟨.hbm, 2757, rfl⟩
abbrev main_call10_call0_v11 : Ref sig .tc := ⟨.hbm, 2758, rfl⟩
abbrev main_call10_call0_v12 : Ref sig .tc := ⟨.hbm, 2759, rfl⟩
abbrev main_call10_call0_v13 : Ref sig .tc := ⟨.hbm, 2760, rfl⟩
abbrev main_call10_call0_c_2 : Ref sig .tc := ⟨.hbm, 2761, rfl⟩
abbrev main_call10_call0_v14 : Ref sig .tc := ⟨.hbm, 2762, rfl⟩
abbrev main_call10_call0_v15 : Ref sig .tc := ⟨.hbm, 2763, rfl⟩
abbrev main_call10_call0_c_3 : Ref sig .tc := ⟨.hbm, 2764, rfl⟩
abbrev main_call10_call0_v16 : Ref sig .tc := ⟨.hbm, 2765, rfl⟩
abbrev main_call10_call0_v17 : Ref sig .tc := ⟨.hbm, 2766, rfl⟩
abbrev main_call10_call0_v18 : Ref sig .tc := ⟨.hbm, 2767, rfl⟩
abbrev main_call10_call0_v19 : Ref sig .tc := ⟨.hbm, 2768, rfl⟩
abbrev main_call10_call0_v20 : Ref sig .tc := ⟨.hbm, 2769, rfl⟩
abbrev main_call10_call0_c_4 : Ref sig .tc := ⟨.hbm, 2770, rfl⟩
abbrev main_call10_call0_v21 : Ref sig .tc := ⟨.hbm, 2771, rfl⟩
abbrev main_call10_call0_v22 : Ref sig .tc := ⟨.hbm, 2772, rfl⟩
abbrev main_call10_call0_c_5 : Ref sig .tc := ⟨.hbm, 2773, rfl⟩
abbrev main_call10_call0_v23 : Ref sig .tc := ⟨.hbm, 2774, rfl⟩
abbrev main_call10_call0_v24 : Ref sig .tc := ⟨.hbm, 2775, rfl⟩
abbrev main_call10_call0_v25 : Ref sig .tc := ⟨.hbm, 2776, rfl⟩
abbrev main_call10_call0_v26 : Ref sig .tc := ⟨.hbm, 2777, rfl⟩
abbrev main_call10_call0_v27 : Ref sig .tc := ⟨.hbm, 2778, rfl⟩
abbrev main_call10_call0_c_6 : Ref sig .tc := ⟨.hbm, 2779, rfl⟩
abbrev main_call10_call0_v28 : Ref sig .tc := ⟨.hbm, 2780, rfl⟩
abbrev main_call10_call0_v29 : Ref sig .tc := ⟨.hbm, 2781, rfl⟩
abbrev main_call10_call0_c_7 : Ref sig .tc := ⟨.hbm, 2782, rfl⟩
abbrev main_call10_call0_v30 : Ref sig .tc := ⟨.hbm, 2783, rfl⟩
abbrev main_call10_call0_v31 : Ref sig .tc := ⟨.hbm, 2784, rfl⟩
abbrev main_call10_call0_v32 : Ref sig .tc := ⟨.hbm, 2785, rfl⟩
abbrev main_call10_call0_v33 : Ref sig .tc := ⟨.hbm, 2786, rfl⟩
abbrev main_call10_call0_v34 : Ref sig .tc := ⟨.hbm, 2787, rfl⟩
abbrev main_call10_call0_v35 : Ref sig .tc := ⟨.hbm, 2788, rfl⟩
abbrev main_call10_call0_v36 : Ref sig .tc := ⟨.hbm, 2789, rfl⟩
abbrev main_call10_call0_v37 : Ref sig .tc := ⟨.hbm, 2790, rfl⟩
abbrev main_call10_call0_c_8 : Ref sig .tc := ⟨.hbm, 2791, rfl⟩
abbrev main_call10_call0_v38 : Ref sig .tc := ⟨.hbm, 2792, rfl⟩
abbrev main_call10_call0_v39 : Ref sig .tc := ⟨.hbm, 2793, rfl⟩
abbrev main_call10_call0_v40 : Ref sig .tc := ⟨.hbm, 2794, rfl⟩
abbrev main_call10_call0_c_9 : Ref sig .tc := ⟨.hbm, 2795, rfl⟩
abbrev main_call10_call0_v41 : Ref sig .tc := ⟨.hbm, 2796, rfl⟩
abbrev main_call10_call0_v42 : Ref sig .tc := ⟨.hbm, 2797, rfl⟩
abbrev main_call10_call0_c_10 : Ref sig .tc := ⟨.hbm, 2798, rfl⟩
abbrev main_call10_call0_v43 : Ref sig .tc := ⟨.hbm, 2799, rfl⟩
abbrev main_call10_call0_v44 : Ref sig .tc := ⟨.hbm, 2800, rfl⟩
abbrev main_call10_call0_v45 : Ref sig .tc := ⟨.hbm, 2801, rfl⟩
abbrev main_call10_call0_v46 : Ref sig .tc := ⟨.hbm, 2802, rfl⟩
abbrev main_call10_call0_v47 : Ref sig .tc := ⟨.hbm, 2803, rfl⟩
abbrev main_call10_call0_c_11 : Ref sig .tc := ⟨.hbm, 2804, rfl⟩
abbrev main_call10_call0_v48 : Ref sig .tc := ⟨.hbm, 2805, rfl⟩
abbrev main_call10_call0_v49 : Ref sig .tc := ⟨.hbm, 2806, rfl⟩
abbrev main_call10_call0_c_12 : Ref sig .tc := ⟨.hbm, 2807, rfl⟩
abbrev main_call10_call0_v50 : Ref sig .tc := ⟨.hbm, 2808, rfl⟩
abbrev main_call10_call0_v51 : Ref sig .tc := ⟨.hbm, 2809, rfl⟩
abbrev main_call10_call0_v52 : Ref sig .tc := ⟨.hbm, 2810, rfl⟩
abbrev main_call10_call0_v53 : Ref sig .tc := ⟨.hbm, 2811, rfl⟩
abbrev main_call10_call0_v54 : Ref sig .tc := ⟨.hbm, 2812, rfl⟩
abbrev main_call10_call0_c_13 : Ref sig .tc := ⟨.hbm, 2813, rfl⟩
abbrev main_call10_call0_v55 : Ref sig .tc := ⟨.hbm, 2814, rfl⟩
abbrev main_call10_call0_v56 : Ref sig .tc := ⟨.hbm, 2815, rfl⟩
abbrev main_call10_call0_c_14 : Ref sig .tc := ⟨.hbm, 2816, rfl⟩
abbrev main_call10_call0_v57 : Ref sig .tc := ⟨.hbm, 2817, rfl⟩
abbrev main_call10_call0_v58 : Ref sig .tc := ⟨.hbm, 2818, rfl⟩
abbrev main_call10_call0_v59 : Ref sig .tc := ⟨.hbm, 2819, rfl⟩
abbrev main_call10_call0_v60 : Ref sig .tc := ⟨.hbm, 2820, rfl⟩
abbrev main_call10_call0_v61 : Ref sig .tc := ⟨.hbm, 2821, rfl⟩
abbrev main_call10_call0_c_15 : Ref sig .tc := ⟨.hbm, 2822, rfl⟩
abbrev main_call10_call0_v62 : Ref sig .tc := ⟨.hbm, 2823, rfl⟩
abbrev main_call10_call0_v63 : Ref sig .tc := ⟨.hbm, 2824, rfl⟩
abbrev main_call10_call0_c_16 : Ref sig .tc := ⟨.hbm, 2825, rfl⟩
abbrev main_call10_call0_v64 : Ref sig .tc := ⟨.hbm, 2826, rfl⟩
abbrev main_call10_call0_v65 : Ref sig .tc := ⟨.hbm, 2827, rfl⟩
abbrev main_call10_call0_v66 : Ref sig .tc := ⟨.hbm, 2828, rfl⟩
abbrev main_call10_call0_v67 : Ref sig .tc := ⟨.hbm, 2829, rfl⟩
abbrev main_call10_call0_v68 : Ref sig .tc := ⟨.hbm, 2830, rfl⟩
abbrev main_call10_call0_v69 : Ref sig .tc := ⟨.hbm, 2831, rfl⟩
abbrev main_call10_call0_v70 : Ref sig .tc := ⟨.hbm, 2832, rfl⟩
abbrev main_call10_call0_v71 : Ref sig .tc := ⟨.hbm, 2833, rfl⟩
abbrev main_call10_call0_c_17 : Ref sig .tc := ⟨.hbm, 2834, rfl⟩
abbrev main_call10_call0_v72 : Ref sig .tc := ⟨.hbm, 2835, rfl⟩
abbrev main_call10_call0_v73 : Ref sig .tc := ⟨.hbm, 2836, rfl⟩
abbrev main_call10_call0_v74 : Ref sig .tc := ⟨.hbm, 2837, rfl⟩
abbrev main_call10_call0_c_18 : Ref sig .tc := ⟨.hbm, 2838, rfl⟩
abbrev main_call10_call0_v75 : Ref sig .tc := ⟨.hbm, 2839, rfl⟩
abbrev main_call10_call0_v76 : Ref sig .tc := ⟨.hbm, 2840, rfl⟩
abbrev main_call10_call0_c_19 : Ref sig .tc := ⟨.hbm, 2841, rfl⟩
abbrev main_call10_call0_v77 : Ref sig .tc := ⟨.hbm, 2842, rfl⟩
abbrev main_call10_call0_v78 : Ref sig .tc := ⟨.hbm, 2843, rfl⟩
abbrev main_call10_call0_v79 : Ref sig .tc := ⟨.hbm, 2844, rfl⟩
abbrev main_call10_call0_v80 : Ref sig .tc := ⟨.hbm, 2845, rfl⟩
abbrev main_call10_call0_v81 : Ref sig .tc := ⟨.hbm, 2846, rfl⟩
abbrev main_call10_call0_c_20 : Ref sig .tc := ⟨.hbm, 2847, rfl⟩
abbrev main_call10_call0_v82 : Ref sig .tc := ⟨.hbm, 2848, rfl⟩
abbrev main_call10_call0_v83 : Ref sig .tc := ⟨.hbm, 2849, rfl⟩
abbrev main_call10_call0_c_21 : Ref sig .tc := ⟨.hbm, 2850, rfl⟩
abbrev main_call10_call0_v84 : Ref sig .tc := ⟨.hbm, 2851, rfl⟩
abbrev main_call10_call0_v85 : Ref sig .tc := ⟨.hbm, 2852, rfl⟩
abbrev main_call10_call0_v86 : Ref sig .tc := ⟨.hbm, 2853, rfl⟩
abbrev main_call10_call0_v87 : Ref sig .tc := ⟨.hbm, 2854, rfl⟩
abbrev main_call10_call0_v88 : Ref sig .tc := ⟨.hbm, 2855, rfl⟩
abbrev main_call10_call0_c_22 : Ref sig .tc := ⟨.hbm, 2856, rfl⟩
abbrev main_call10_call0_v89 : Ref sig .tc := ⟨.hbm, 2857, rfl⟩
abbrev main_call10_call0_v90 : Ref sig .tc := ⟨.hbm, 2858, rfl⟩
abbrev main_call10_call0_c_23 : Ref sig .tc := ⟨.hbm, 2859, rfl⟩
abbrev main_call10_call0_v91 : Ref sig .tc := ⟨.hbm, 2860, rfl⟩
abbrev main_call10_call0_v92 : Ref sig .tc := ⟨.hbm, 2861, rfl⟩
abbrev main_call10_call0_v93 : Ref sig .tc := ⟨.hbm, 2862, rfl⟩
abbrev main_call10_call0_v94 : Ref sig .tc := ⟨.hbm, 2863, rfl⟩
abbrev main_call10_call0_v95 : Ref sig .tc := ⟨.hbm, 2864, rfl⟩
abbrev main_call10_call0_c_24 : Ref sig .tc := ⟨.hbm, 2865, rfl⟩
abbrev main_call10_call0_v96 : Ref sig .tc := ⟨.hbm, 2866, rfl⟩
abbrev main_call10_call0_v97 : Ref sig .tc := ⟨.hbm, 2867, rfl⟩
abbrev main_call10_call0_c_25 : Ref sig .tc := ⟨.hbm, 2868, rfl⟩
abbrev main_call10_call0_v98 : Ref sig .tc := ⟨.hbm, 2869, rfl⟩
abbrev main_call10_call0_v99 : Ref sig .tc := ⟨.hbm, 2870, rfl⟩
abbrev main_call10_call0_v100 : Ref sig .tc := ⟨.hbm, 2871, rfl⟩
abbrev main_call10_call0_v101 : Ref sig .tc := ⟨.hbm, 2872, rfl⟩
abbrev main_call10_call0_v102 : Ref sig .tc := ⟨.hbm, 2873, rfl⟩
abbrev main_call10_call0_v103 : Ref sig .tc := ⟨.hbm, 2874, rfl⟩
abbrev main_call10_call0_v104 : Ref sig .tc := ⟨.hbm, 2875, rfl⟩
abbrev main_call10_call0_v105 : Ref sig .tc := ⟨.hbm, 2876, rfl⟩
abbrev main_call10_call0_c_26 : Ref sig .tc := ⟨.hbm, 2877, rfl⟩
abbrev main_call10_call0_v106 : Ref sig .tc := ⟨.hbm, 2878, rfl⟩
abbrev main_call10_call0_v107 : Ref sig .tc := ⟨.hbm, 2879, rfl⟩
abbrev main_call10_call0_v108 : Ref sig .tc := ⟨.hbm, 2880, rfl⟩
abbrev main_call10_call0_c_27 : Ref sig .tc := ⟨.hbm, 2881, rfl⟩
abbrev main_call10_call0_v109 : Ref sig .tc := ⟨.hbm, 2882, rfl⟩
abbrev main_call10_call0_v110 : Ref sig .tc := ⟨.hbm, 2883, rfl⟩
abbrev main_call10_call0_c_28 : Ref sig .tc := ⟨.hbm, 2884, rfl⟩
abbrev main_call10_call0_v111 : Ref sig .tc := ⟨.hbm, 2885, rfl⟩
abbrev main_call10_call0_v112 : Ref sig .tc := ⟨.hbm, 2886, rfl⟩
abbrev main_call10_call0_v113 : Ref sig .tc := ⟨.hbm, 2887, rfl⟩
abbrev main_call10_call0_v114 : Ref sig .tc := ⟨.hbm, 2888, rfl⟩
abbrev main_call10_call0_v115 : Ref sig .tc := ⟨.hbm, 2889, rfl⟩
abbrev main_call10_call0_c_29 : Ref sig .tc := ⟨.hbm, 2890, rfl⟩
abbrev main_call10_call0_v116 : Ref sig .tc := ⟨.hbm, 2891, rfl⟩
abbrev main_call10_call0_v117 : Ref sig .tc := ⟨.hbm, 2892, rfl⟩
abbrev main_call10_call0_c_30 : Ref sig .tc := ⟨.hbm, 2893, rfl⟩
abbrev main_call10_call0_v118 : Ref sig .tc := ⟨.hbm, 2894, rfl⟩
abbrev main_call10_call0_v119 : Ref sig .tc := ⟨.hbm, 2895, rfl⟩
abbrev main_call10_call0_v120 : Ref sig .tc := ⟨.hbm, 2896, rfl⟩
abbrev main_call10_call0_v121 : Ref sig .tc := ⟨.hbm, 2897, rfl⟩
abbrev main_call10_call0_v122 : Ref sig .tc := ⟨.hbm, 2898, rfl⟩
abbrev main_call10_call0_c_31 : Ref sig .tc := ⟨.hbm, 2899, rfl⟩
abbrev main_call10_call0_v123 : Ref sig .tc := ⟨.hbm, 2900, rfl⟩
abbrev main_call10_call0_v124 : Ref sig .tc := ⟨.hbm, 2901, rfl⟩
abbrev main_call10_call0_c_32 : Ref sig .tc := ⟨.hbm, 2902, rfl⟩
abbrev main_call10_call0_v125 : Ref sig .tc := ⟨.hbm, 2903, rfl⟩
abbrev main_call10_call0_v126 : Ref sig .tc := ⟨.hbm, 2904, rfl⟩
abbrev main_call10_call0_v127 : Ref sig .tc := ⟨.hbm, 2905, rfl⟩
abbrev main_call10_call0_v128 : Ref sig .tc := ⟨.hbm, 2906, rfl⟩
abbrev main_call10_call0_v129 : Ref sig .tc := ⟨.hbm, 2907, rfl⟩
abbrev main_call10_call0_c_33 : Ref sig .tc := ⟨.hbm, 2908, rfl⟩
abbrev main_call10_call0_v130 : Ref sig .tc := ⟨.hbm, 2909, rfl⟩
abbrev main_call10_call0_v131 : Ref sig .tc := ⟨.hbm, 2910, rfl⟩
abbrev main_call10_call0_c_34 : Ref sig .tc := ⟨.hbm, 2911, rfl⟩
abbrev main_call10_call0_v132 : Ref sig .tc := ⟨.hbm, 2912, rfl⟩
abbrev main_call10_call0_v133 : Ref sig .tc := ⟨.hbm, 2913, rfl⟩
abbrev main_call10_call0_v134 : Ref sig .tc := ⟨.hbm, 2914, rfl⟩
abbrev main_call10_call0_v135 : Ref sig .tc := ⟨.hbm, 2915, rfl⟩
abbrev main_call10_call0_v136 : Ref sig .tc := ⟨.hbm, 2916, rfl⟩
abbrev main_call10_call0_v137 : Ref sig .tc := ⟨.hbm, 2917, rfl⟩
abbrev main_call10_call0_v138 : Ref sig .tc := ⟨.hbm, 2918, rfl⟩
abbrev main_call10_call0_v139 : Ref sig .tc := ⟨.hbm, 2919, rfl⟩
abbrev main_call10_call0_c_35 : Ref sig .tc := ⟨.hbm, 2920, rfl⟩
abbrev main_call10_call0_v140 : Ref sig .tc := ⟨.hbm, 2921, rfl⟩
abbrev main_call10_call0_v141 : Ref sig .tc := ⟨.hbm, 2922, rfl⟩
abbrev main_call10_call0_v142 : Ref sig .tc := ⟨.hbm, 2923, rfl⟩
abbrev main_call10_call0_c_36 : Ref sig .tc := ⟨.hbm, 2924, rfl⟩
abbrev main_call10_call0_v143 : Ref sig .tc := ⟨.hbm, 2925, rfl⟩
abbrev main_call10_call0_v144 : Ref sig .tc := ⟨.hbm, 2926, rfl⟩
abbrev main_call10_call0_c_37 : Ref sig .tc := ⟨.hbm, 2927, rfl⟩
abbrev main_call10_call0_v145 : Ref sig .tc := ⟨.hbm, 2928, rfl⟩
abbrev main_call10_call0_v146 : Ref sig .tc := ⟨.hbm, 2929, rfl⟩
abbrev main_call10_call0_v147 : Ref sig .tc := ⟨.hbm, 2930, rfl⟩
abbrev main_call10_call0_v148 : Ref sig .tc := ⟨.hbm, 2931, rfl⟩
abbrev main_call10_call0_v149 : Ref sig .tc := ⟨.hbm, 2932, rfl⟩
abbrev main_call10_call0_c_38 : Ref sig .tc := ⟨.hbm, 2933, rfl⟩
abbrev main_call10_call0_v150 : Ref sig .tc := ⟨.hbm, 2934, rfl⟩
abbrev main_call10_call0_v151 : Ref sig .tc := ⟨.hbm, 2935, rfl⟩
abbrev main_call10_call0_c_39 : Ref sig .tc := ⟨.hbm, 2936, rfl⟩
abbrev main_call10_call0_v152 : Ref sig .tc := ⟨.hbm, 2937, rfl⟩
abbrev main_call10_call0_v153 : Ref sig .tc := ⟨.hbm, 2938, rfl⟩
abbrev main_call10_call0_v154 : Ref sig .tc := ⟨.hbm, 2939, rfl⟩
abbrev main_call10_call0_v155 : Ref sig .tc := ⟨.hbm, 2940, rfl⟩
abbrev main_call10_call0_v156 : Ref sig .tc := ⟨.hbm, 2941, rfl⟩
abbrev main_call10_call0_c_40 : Ref sig .tc := ⟨.hbm, 2942, rfl⟩
abbrev main_call10_call0_v157 : Ref sig .tc := ⟨.hbm, 2943, rfl⟩
abbrev main_call10_call0_v158 : Ref sig .tc := ⟨.hbm, 2944, rfl⟩
abbrev main_call10_call0_c_41 : Ref sig .tc := ⟨.hbm, 2945, rfl⟩
abbrev main_call10_call0_v159 : Ref sig .tc := ⟨.hbm, 2946, rfl⟩
abbrev main_call10_call0_v160 : Ref sig .tc := ⟨.hbm, 2947, rfl⟩
abbrev main_call10_call0_v161 : Ref sig .tc := ⟨.hbm, 2948, rfl⟩
abbrev main_call10_call0_v162 : Ref sig .tc := ⟨.hbm, 2949, rfl⟩
abbrev main_call10_call0_v163 : Ref sig .tc := ⟨.hbm, 2950, rfl⟩
abbrev main_call10_call0_c_42 : Ref sig .tc := ⟨.hbm, 2951, rfl⟩
abbrev main_call10_call0_v164 : Ref sig .tc := ⟨.hbm, 2952, rfl⟩
abbrev main_call10_call0_v165 : Ref sig .tc := ⟨.hbm, 2953, rfl⟩
abbrev main_call10_call0_c_43 : Ref sig .tc := ⟨.hbm, 2954, rfl⟩
abbrev main_call10_call0_v166 : Ref sig .tc := ⟨.hbm, 2955, rfl⟩
abbrev main_call10_call0_v167 : Ref sig .tc := ⟨.hbm, 2956, rfl⟩
abbrev main_call10_call0_v168 : Ref sig .tc := ⟨.hbm, 2957, rfl⟩
abbrev main_call10_call0_v169 : Ref sig .tc := ⟨.hbm, 2958, rfl⟩
abbrev main_call10_call0_v170 : Ref sig .tc := ⟨.hbm, 2959, rfl⟩
abbrev main_call10_v11_0 : Ref sig .tc := ⟨.hbm, 2960, rfl⟩
abbrev main_call10_call0_v172 : Ref sig .tc := ⟨.hbm, 2961, rfl⟩
abbrev main_call10_call0_v173 : Ref sig .tc := ⟨.hbm, 2962, rfl⟩
abbrev main_call10_call0_c_44 : Ref sig .tc := ⟨.hbm, 2963, rfl⟩
abbrev main_call10_call0_v174 : Ref sig .tc := ⟨.hbm, 2964, rfl⟩
abbrev main_call10_v11_1 : Ref sig .tc := ⟨.hbm, 2965, rfl⟩
abbrev main_call10_v12 : Ref sig .tc := ⟨.hbm, 2966, rfl⟩
abbrev main_call10_v13 : Ref sig .tc := ⟨.hbm, 2967, rfl⟩
abbrev main_v206 : Ref sig .tc := ⟨.hbm, 2968, rfl⟩
abbrev main_v207 : Ref sig .tc := ⟨.hbm, 2969, rfl⟩
abbrev main_v208 : Ref sig .tc := ⟨.hbm, 2970, rfl⟩
abbrev main_v209 : Ref sig .tc := ⟨.hbm, 2971, rfl⟩
abbrev main_v210 : Ref sig .tc := ⟨.hbm, 2972, rfl⟩
abbrev main_cst_56 : Ref sig .tc := ⟨.hbm, 2973, rfl⟩
abbrev main_cst_57 : Ref sig .tc := ⟨.hbm, 2974, rfl⟩
abbrev main_call11_v0 : Ref sig .tc := ⟨.hbm, 2975, rfl⟩
abbrev main_call11_v1 : Ref sig .tc := ⟨.hbm, 2976, rfl⟩
abbrev main_call11_v2 : Ref sig .tc := ⟨.hbm, 2977, rfl⟩
abbrev main_call11_v3 : Ref sig .tc := ⟨.hbm, 2978, rfl⟩
abbrev main_call11_v4 : Ref sig .tc := ⟨.hbm, 2979, rfl⟩
abbrev main_call11_v5 : Ref sig .tc := ⟨.hbm, 2980, rfl⟩
abbrev main_call11_v6 : Ref sig .tc := ⟨.hbm, 2981, rfl⟩
abbrev main_call11_v7 : Ref sig .tc := ⟨.hbm, 2982, rfl⟩
abbrev main_call11_v8 : Ref sig .tc := ⟨.hbm, 2983, rfl⟩
abbrev main_call11_c : Ref sig .tc := ⟨.hbm, 2984, rfl⟩
abbrev main_call11_v9 : Ref sig .tc := ⟨.hbm, 2985, rfl⟩
abbrev main_call11_v10 : Ref sig .tc := ⟨.hbm, 2986, rfl⟩
abbrev main_call11_c_0 : Ref sig .tc := ⟨.hbm, 2987, rfl⟩
abbrev main_call11_v11 : Ref sig .tc := ⟨.hbm, 2988, rfl⟩
abbrev main_call11_v12 : Ref sig .tc := ⟨.hbm, 2989, rfl⟩
abbrev main_call11_v13 : Ref sig .tc := ⟨.hbm, 2990, rfl⟩
abbrev main_call11_v14 : Ref sig .tc := ⟨.hbm, 2991, rfl⟩
abbrev main_call11_call0_v0 : Ref sig .tc := ⟨.hbm, 2992, rfl⟩
abbrev main_call11_call0_c : Ref sig .tc := ⟨.hbm, 2993, rfl⟩
abbrev main_call11_call0_v1 : Ref sig .tc := ⟨.hbm, 2994, rfl⟩
abbrev main_call11_call0_v2 : Ref sig .tc := ⟨.hbm, 2995, rfl⟩
abbrev main_call11_call0_v3 : Ref sig .tc := ⟨.hbm, 2996, rfl⟩
abbrev main_call11_call0_v4 : Ref sig .tc := ⟨.hbm, 2997, rfl⟩
abbrev main_call11_call0_v5 : Ref sig .tc := ⟨.hbm, 2998, rfl⟩
abbrev main_call11_call0_v6 : Ref sig .tc := ⟨.hbm, 2999, rfl⟩
abbrev main_call11_call0_c_0 : Ref sig .tc := ⟨.hbm, 3000, rfl⟩
abbrev main_call11_call0_v7 : Ref sig .tc := ⟨.hbm, 3001, rfl⟩
abbrev main_call11_call0_v8 : Ref sig .tc := ⟨.hbm, 3002, rfl⟩
abbrev main_call11_call0_c_1 : Ref sig .tc := ⟨.hbm, 3003, rfl⟩
abbrev main_call11_call0_v9 : Ref sig .tc := ⟨.hbm, 3004, rfl⟩
abbrev main_call11_call0_v10 : Ref sig .tc := ⟨.hbm, 3005, rfl⟩
abbrev main_call11_call0_v11 : Ref sig .tc := ⟨.hbm, 3006, rfl⟩
abbrev main_call11_call0_v12 : Ref sig .tc := ⟨.hbm, 3007, rfl⟩
abbrev main_call11_call0_v13 : Ref sig .tc := ⟨.hbm, 3008, rfl⟩
abbrev main_call11_call0_c_2 : Ref sig .tc := ⟨.hbm, 3009, rfl⟩
abbrev main_call11_call0_v14 : Ref sig .tc := ⟨.hbm, 3010, rfl⟩
abbrev main_call11_call0_v15 : Ref sig .tc := ⟨.hbm, 3011, rfl⟩
abbrev main_call11_call0_c_3 : Ref sig .tc := ⟨.hbm, 3012, rfl⟩
abbrev main_call11_call0_v16 : Ref sig .tc := ⟨.hbm, 3013, rfl⟩
abbrev main_call11_call0_v17 : Ref sig .tc := ⟨.hbm, 3014, rfl⟩
abbrev main_call11_call0_v18 : Ref sig .tc := ⟨.hbm, 3015, rfl⟩
abbrev main_call11_call0_v19 : Ref sig .tc := ⟨.hbm, 3016, rfl⟩
abbrev main_call11_call0_v20 : Ref sig .tc := ⟨.hbm, 3017, rfl⟩
abbrev main_call11_call0_c_4 : Ref sig .tc := ⟨.hbm, 3018, rfl⟩
abbrev main_call11_call0_v21 : Ref sig .tc := ⟨.hbm, 3019, rfl⟩
abbrev main_call11_call0_v22 : Ref sig .tc := ⟨.hbm, 3020, rfl⟩
abbrev main_call11_call0_c_5 : Ref sig .tc := ⟨.hbm, 3021, rfl⟩
abbrev main_call11_call0_v23 : Ref sig .tc := ⟨.hbm, 3022, rfl⟩
abbrev main_call11_call0_v24 : Ref sig .tc := ⟨.hbm, 3023, rfl⟩
abbrev main_call11_call0_v25 : Ref sig .tc := ⟨.hbm, 3024, rfl⟩
abbrev main_call11_call0_v26 : Ref sig .tc := ⟨.hbm, 3025, rfl⟩
abbrev main_call11_call0_v27 : Ref sig .tc := ⟨.hbm, 3026, rfl⟩
abbrev main_call11_call0_c_6 : Ref sig .tc := ⟨.hbm, 3027, rfl⟩
abbrev main_call11_call0_v28 : Ref sig .tc := ⟨.hbm, 3028, rfl⟩
abbrev main_call11_call0_v29 : Ref sig .tc := ⟨.hbm, 3029, rfl⟩
abbrev main_call11_call0_c_7 : Ref sig .tc := ⟨.hbm, 3030, rfl⟩
abbrev main_call11_call0_v30 : Ref sig .tc := ⟨.hbm, 3031, rfl⟩
abbrev main_call11_call0_v31 : Ref sig .tc := ⟨.hbm, 3032, rfl⟩
abbrev main_call11_call0_v32 : Ref sig .tc := ⟨.hbm, 3033, rfl⟩
abbrev main_call11_call0_v33 : Ref sig .tc := ⟨.hbm, 3034, rfl⟩
abbrev main_call11_call0_v34 : Ref sig .tc := ⟨.hbm, 3035, rfl⟩
abbrev main_call11_call0_v35 : Ref sig .tc := ⟨.hbm, 3036, rfl⟩
abbrev main_call11_call0_v36 : Ref sig .tc := ⟨.hbm, 3037, rfl⟩
abbrev main_call11_call0_v37 : Ref sig .tc := ⟨.hbm, 3038, rfl⟩
abbrev main_call11_call0_c_8 : Ref sig .tc := ⟨.hbm, 3039, rfl⟩
abbrev main_call11_call0_v38 : Ref sig .tc := ⟨.hbm, 3040, rfl⟩
abbrev main_call11_call0_v39 : Ref sig .tc := ⟨.hbm, 3041, rfl⟩
abbrev main_call11_call0_v40 : Ref sig .tc := ⟨.hbm, 3042, rfl⟩
abbrev main_call11_call0_c_9 : Ref sig .tc := ⟨.hbm, 3043, rfl⟩
abbrev main_call11_call0_v41 : Ref sig .tc := ⟨.hbm, 3044, rfl⟩
abbrev main_call11_call0_v42 : Ref sig .tc := ⟨.hbm, 3045, rfl⟩
abbrev main_call11_call0_c_10 : Ref sig .tc := ⟨.hbm, 3046, rfl⟩
abbrev main_call11_call0_v43 : Ref sig .tc := ⟨.hbm, 3047, rfl⟩
abbrev main_call11_call0_v44 : Ref sig .tc := ⟨.hbm, 3048, rfl⟩
abbrev main_call11_call0_v45 : Ref sig .tc := ⟨.hbm, 3049, rfl⟩
abbrev main_call11_call0_v46 : Ref sig .tc := ⟨.hbm, 3050, rfl⟩
abbrev main_call11_call0_v47 : Ref sig .tc := ⟨.hbm, 3051, rfl⟩
abbrev main_call11_call0_c_11 : Ref sig .tc := ⟨.hbm, 3052, rfl⟩
abbrev main_call11_call0_v48 : Ref sig .tc := ⟨.hbm, 3053, rfl⟩
abbrev main_call11_call0_v49 : Ref sig .tc := ⟨.hbm, 3054, rfl⟩
abbrev main_call11_call0_c_12 : Ref sig .tc := ⟨.hbm, 3055, rfl⟩
abbrev main_call11_call0_v50 : Ref sig .tc := ⟨.hbm, 3056, rfl⟩
abbrev main_call11_call0_v51 : Ref sig .tc := ⟨.hbm, 3057, rfl⟩
abbrev main_call11_call0_v52 : Ref sig .tc := ⟨.hbm, 3058, rfl⟩
abbrev main_call11_call0_v53 : Ref sig .tc := ⟨.hbm, 3059, rfl⟩
abbrev main_call11_call0_v54 : Ref sig .tc := ⟨.hbm, 3060, rfl⟩
abbrev main_call11_call0_c_13 : Ref sig .tc := ⟨.hbm, 3061, rfl⟩
abbrev main_call11_call0_v55 : Ref sig .tc := ⟨.hbm, 3062, rfl⟩
abbrev main_call11_call0_v56 : Ref sig .tc := ⟨.hbm, 3063, rfl⟩
abbrev main_call11_call0_c_14 : Ref sig .tc := ⟨.hbm, 3064, rfl⟩
abbrev main_call11_call0_v57 : Ref sig .tc := ⟨.hbm, 3065, rfl⟩
abbrev main_call11_call0_v58 : Ref sig .tc := ⟨.hbm, 3066, rfl⟩
abbrev main_call11_call0_v59 : Ref sig .tc := ⟨.hbm, 3067, rfl⟩
abbrev main_call11_call0_v60 : Ref sig .tc := ⟨.hbm, 3068, rfl⟩
abbrev main_call11_call0_v61 : Ref sig .tc := ⟨.hbm, 3069, rfl⟩
abbrev main_call11_call0_c_15 : Ref sig .tc := ⟨.hbm, 3070, rfl⟩
abbrev main_call11_call0_v62 : Ref sig .tc := ⟨.hbm, 3071, rfl⟩
abbrev main_call11_call0_v63 : Ref sig .tc := ⟨.hbm, 3072, rfl⟩
abbrev main_call11_call0_c_16 : Ref sig .tc := ⟨.hbm, 3073, rfl⟩
abbrev main_call11_call0_v64 : Ref sig .tc := ⟨.hbm, 3074, rfl⟩
abbrev main_call11_call0_v65 : Ref sig .tc := ⟨.hbm, 3075, rfl⟩
abbrev main_call11_call0_v66 : Ref sig .tc := ⟨.hbm, 3076, rfl⟩
abbrev main_call11_call0_v67 : Ref sig .tc := ⟨.hbm, 3077, rfl⟩
abbrev main_call11_call0_v68 : Ref sig .tc := ⟨.hbm, 3078, rfl⟩
abbrev main_call11_call0_v69 : Ref sig .tc := ⟨.hbm, 3079, rfl⟩
abbrev main_call11_call0_v70 : Ref sig .tc := ⟨.hbm, 3080, rfl⟩
abbrev main_call11_call0_v71 : Ref sig .tc := ⟨.hbm, 3081, rfl⟩
abbrev main_call11_call0_c_17 : Ref sig .tc := ⟨.hbm, 3082, rfl⟩
abbrev main_call11_call0_v72 : Ref sig .tc := ⟨.hbm, 3083, rfl⟩
abbrev main_call11_call0_v73 : Ref sig .tc := ⟨.hbm, 3084, rfl⟩
abbrev main_call11_call0_v74 : Ref sig .tc := ⟨.hbm, 3085, rfl⟩
abbrev main_call11_call0_c_18 : Ref sig .tc := ⟨.hbm, 3086, rfl⟩
abbrev main_call11_call0_v75 : Ref sig .tc := ⟨.hbm, 3087, rfl⟩
abbrev main_call11_call0_v76 : Ref sig .tc := ⟨.hbm, 3088, rfl⟩
abbrev main_call11_call0_c_19 : Ref sig .tc := ⟨.hbm, 3089, rfl⟩
abbrev main_call11_call0_v77 : Ref sig .tc := ⟨.hbm, 3090, rfl⟩
abbrev main_call11_call0_v78 : Ref sig .tc := ⟨.hbm, 3091, rfl⟩
abbrev main_call11_call0_v79 : Ref sig .tc := ⟨.hbm, 3092, rfl⟩
abbrev main_call11_call0_v80 : Ref sig .tc := ⟨.hbm, 3093, rfl⟩
abbrev main_call11_call0_v81 : Ref sig .tc := ⟨.hbm, 3094, rfl⟩
abbrev main_call11_call0_c_20 : Ref sig .tc := ⟨.hbm, 3095, rfl⟩
abbrev main_call11_call0_v82 : Ref sig .tc := ⟨.hbm, 3096, rfl⟩
abbrev main_call11_call0_v83 : Ref sig .tc := ⟨.hbm, 3097, rfl⟩
abbrev main_call11_call0_c_21 : Ref sig .tc := ⟨.hbm, 3098, rfl⟩
abbrev main_call11_call0_v84 : Ref sig .tc := ⟨.hbm, 3099, rfl⟩
abbrev main_call11_call0_v85 : Ref sig .tc := ⟨.hbm, 3100, rfl⟩
abbrev main_call11_call0_v86 : Ref sig .tc := ⟨.hbm, 3101, rfl⟩
abbrev main_call11_call0_v87 : Ref sig .tc := ⟨.hbm, 3102, rfl⟩
abbrev main_call11_call0_v88 : Ref sig .tc := ⟨.hbm, 3103, rfl⟩
abbrev main_call11_call0_c_22 : Ref sig .tc := ⟨.hbm, 3104, rfl⟩
abbrev main_call11_call0_v89 : Ref sig .tc := ⟨.hbm, 3105, rfl⟩
abbrev main_call11_call0_v90 : Ref sig .tc := ⟨.hbm, 3106, rfl⟩
abbrev main_call11_call0_c_23 : Ref sig .tc := ⟨.hbm, 3107, rfl⟩
abbrev main_call11_call0_v91 : Ref sig .tc := ⟨.hbm, 3108, rfl⟩
abbrev main_call11_call0_v92 : Ref sig .tc := ⟨.hbm, 3109, rfl⟩
abbrev main_call11_call0_v93 : Ref sig .tc := ⟨.hbm, 3110, rfl⟩
abbrev main_call11_call0_v94 : Ref sig .tc := ⟨.hbm, 3111, rfl⟩
abbrev main_call11_call0_v95 : Ref sig .tc := ⟨.hbm, 3112, rfl⟩
abbrev main_call11_call0_c_24 : Ref sig .tc := ⟨.hbm, 3113, rfl⟩
abbrev main_call11_call0_v96 : Ref sig .tc := ⟨.hbm, 3114, rfl⟩
abbrev main_call11_call0_v97 : Ref sig .tc := ⟨.hbm, 3115, rfl⟩
abbrev main_call11_call0_c_25 : Ref sig .tc := ⟨.hbm, 3116, rfl⟩
abbrev main_call11_call0_v98 : Ref sig .tc := ⟨.hbm, 3117, rfl⟩
abbrev main_call11_call0_v99 : Ref sig .tc := ⟨.hbm, 3118, rfl⟩
abbrev main_call11_call0_v100 : Ref sig .tc := ⟨.hbm, 3119, rfl⟩
abbrev main_call11_call0_v101 : Ref sig .tc := ⟨.hbm, 3120, rfl⟩
abbrev main_call11_call0_v102 : Ref sig .tc := ⟨.hbm, 3121, rfl⟩
abbrev main_call11_call0_v103 : Ref sig .tc := ⟨.hbm, 3122, rfl⟩
abbrev main_call11_call0_v104 : Ref sig .tc := ⟨.hbm, 3123, rfl⟩
abbrev main_call11_call0_v105 : Ref sig .tc := ⟨.hbm, 3124, rfl⟩
abbrev main_call11_call0_c_26 : Ref sig .tc := ⟨.hbm, 3125, rfl⟩
abbrev main_call11_call0_v106 : Ref sig .tc := ⟨.hbm, 3126, rfl⟩
abbrev main_call11_call0_v107 : Ref sig .tc := ⟨.hbm, 3127, rfl⟩
abbrev main_call11_call0_v108 : Ref sig .tc := ⟨.hbm, 3128, rfl⟩
abbrev main_call11_call0_c_27 : Ref sig .tc := ⟨.hbm, 3129, rfl⟩
abbrev main_call11_call0_v109 : Ref sig .tc := ⟨.hbm, 3130, rfl⟩
abbrev main_call11_call0_v110 : Ref sig .tc := ⟨.hbm, 3131, rfl⟩
abbrev main_call11_call0_c_28 : Ref sig .tc := ⟨.hbm, 3132, rfl⟩
abbrev main_call11_call0_v111 : Ref sig .tc := ⟨.hbm, 3133, rfl⟩
abbrev main_call11_call0_v112 : Ref sig .tc := ⟨.hbm, 3134, rfl⟩
abbrev main_call11_call0_v113 : Ref sig .tc := ⟨.hbm, 3135, rfl⟩
abbrev main_call11_call0_v114 : Ref sig .tc := ⟨.hbm, 3136, rfl⟩
abbrev main_call11_call0_v115 : Ref sig .tc := ⟨.hbm, 3137, rfl⟩
abbrev main_call11_call0_c_29 : Ref sig .tc := ⟨.hbm, 3138, rfl⟩
abbrev main_call11_call0_v116 : Ref sig .tc := ⟨.hbm, 3139, rfl⟩
abbrev main_call11_call0_v117 : Ref sig .tc := ⟨.hbm, 3140, rfl⟩
abbrev main_call11_call0_c_30 : Ref sig .tc := ⟨.hbm, 3141, rfl⟩
abbrev main_call11_call0_v118 : Ref sig .tc := ⟨.hbm, 3142, rfl⟩
abbrev main_call11_call0_v119 : Ref sig .tc := ⟨.hbm, 3143, rfl⟩
abbrev main_call11_call0_v120 : Ref sig .tc := ⟨.hbm, 3144, rfl⟩
abbrev main_call11_call0_v121 : Ref sig .tc := ⟨.hbm, 3145, rfl⟩
abbrev main_call11_call0_v122 : Ref sig .tc := ⟨.hbm, 3146, rfl⟩
abbrev main_call11_call0_c_31 : Ref sig .tc := ⟨.hbm, 3147, rfl⟩
abbrev main_call11_call0_v123 : Ref sig .tc := ⟨.hbm, 3148, rfl⟩
abbrev main_call11_call0_v124 : Ref sig .tc := ⟨.hbm, 3149, rfl⟩
abbrev main_call11_call0_c_32 : Ref sig .tc := ⟨.hbm, 3150, rfl⟩
abbrev main_call11_call0_v125 : Ref sig .tc := ⟨.hbm, 3151, rfl⟩
abbrev main_call11_call0_v126 : Ref sig .tc := ⟨.hbm, 3152, rfl⟩
abbrev main_call11_call0_v127 : Ref sig .tc := ⟨.hbm, 3153, rfl⟩
abbrev main_call11_call0_v128 : Ref sig .tc := ⟨.hbm, 3154, rfl⟩
abbrev main_call11_call0_v129 : Ref sig .tc := ⟨.hbm, 3155, rfl⟩
abbrev main_call11_call0_c_33 : Ref sig .tc := ⟨.hbm, 3156, rfl⟩
abbrev main_call11_call0_v130 : Ref sig .tc := ⟨.hbm, 3157, rfl⟩
abbrev main_call11_call0_v131 : Ref sig .tc := ⟨.hbm, 3158, rfl⟩
abbrev main_call11_call0_c_34 : Ref sig .tc := ⟨.hbm, 3159, rfl⟩
abbrev main_call11_call0_v132 : Ref sig .tc := ⟨.hbm, 3160, rfl⟩
abbrev main_call11_call0_v133 : Ref sig .tc := ⟨.hbm, 3161, rfl⟩
abbrev main_call11_call0_v134 : Ref sig .tc := ⟨.hbm, 3162, rfl⟩
abbrev main_call11_call0_v135 : Ref sig .tc := ⟨.hbm, 3163, rfl⟩
abbrev main_call11_call0_v136 : Ref sig .tc := ⟨.hbm, 3164, rfl⟩
abbrev main_call11_call0_v137 : Ref sig .tc := ⟨.hbm, 3165, rfl⟩
abbrev main_call11_call0_v138 : Ref sig .tc := ⟨.hbm, 3166, rfl⟩
abbrev main_call11_call0_v139 : Ref sig .tc := ⟨.hbm, 3167, rfl⟩
abbrev main_call11_call0_c_35 : Ref sig .tc := ⟨.hbm, 3168, rfl⟩
abbrev main_call11_call0_v140 : Ref sig .tc := ⟨.hbm, 3169, rfl⟩
abbrev main_call11_call0_v141 : Ref sig .tc := ⟨.hbm, 3170, rfl⟩
abbrev main_call11_call0_v142 : Ref sig .tc := ⟨.hbm, 3171, rfl⟩
abbrev main_call11_call0_c_36 : Ref sig .tc := ⟨.hbm, 3172, rfl⟩
abbrev main_call11_call0_v143 : Ref sig .tc := ⟨.hbm, 3173, rfl⟩
abbrev main_call11_call0_v144 : Ref sig .tc := ⟨.hbm, 3174, rfl⟩
abbrev main_call11_call0_c_37 : Ref sig .tc := ⟨.hbm, 3175, rfl⟩
abbrev main_call11_call0_v145 : Ref sig .tc := ⟨.hbm, 3176, rfl⟩
abbrev main_call11_call0_v146 : Ref sig .tc := ⟨.hbm, 3177, rfl⟩
abbrev main_call11_call0_v147 : Ref sig .tc := ⟨.hbm, 3178, rfl⟩
abbrev main_call11_call0_v148 : Ref sig .tc := ⟨.hbm, 3179, rfl⟩
abbrev main_call11_call0_v149 : Ref sig .tc := ⟨.hbm, 3180, rfl⟩
abbrev main_call11_call0_c_38 : Ref sig .tc := ⟨.hbm, 3181, rfl⟩
abbrev main_call11_call0_v150 : Ref sig .tc := ⟨.hbm, 3182, rfl⟩
abbrev main_call11_call0_v151 : Ref sig .tc := ⟨.hbm, 3183, rfl⟩
abbrev main_call11_call0_c_39 : Ref sig .tc := ⟨.hbm, 3184, rfl⟩
abbrev main_call11_call0_v152 : Ref sig .tc := ⟨.hbm, 3185, rfl⟩
abbrev main_call11_call0_v153 : Ref sig .tc := ⟨.hbm, 3186, rfl⟩
abbrev main_call11_call0_v154 : Ref sig .tc := ⟨.hbm, 3187, rfl⟩
abbrev main_call11_call0_v155 : Ref sig .tc := ⟨.hbm, 3188, rfl⟩
abbrev main_call11_call0_v156 : Ref sig .tc := ⟨.hbm, 3189, rfl⟩
abbrev main_call11_call0_c_40 : Ref sig .tc := ⟨.hbm, 3190, rfl⟩
abbrev main_call11_call0_v157 : Ref sig .tc := ⟨.hbm, 3191, rfl⟩
abbrev main_call11_call0_v158 : Ref sig .tc := ⟨.hbm, 3192, rfl⟩
abbrev main_call11_call0_c_41 : Ref sig .tc := ⟨.hbm, 3193, rfl⟩
abbrev main_call11_call0_v159 : Ref sig .tc := ⟨.hbm, 3194, rfl⟩
abbrev main_call11_call0_v160 : Ref sig .tc := ⟨.hbm, 3195, rfl⟩
abbrev main_call11_call0_v161 : Ref sig .tc := ⟨.hbm, 3196, rfl⟩
abbrev main_call11_call0_v162 : Ref sig .tc := ⟨.hbm, 3197, rfl⟩
abbrev main_call11_call0_v163 : Ref sig .tc := ⟨.hbm, 3198, rfl⟩
abbrev main_call11_call0_c_42 : Ref sig .tc := ⟨.hbm, 3199, rfl⟩
abbrev main_call11_call0_v164 : Ref sig .tc := ⟨.hbm, 3200, rfl⟩
abbrev main_call11_call0_v165 : Ref sig .tc := ⟨.hbm, 3201, rfl⟩
abbrev main_call11_call0_c_43 : Ref sig .tc := ⟨.hbm, 3202, rfl⟩
abbrev main_call11_call0_v166 : Ref sig .tc := ⟨.hbm, 3203, rfl⟩
abbrev main_call11_call0_v167 : Ref sig .tc := ⟨.hbm, 3204, rfl⟩
abbrev main_call11_call0_v168 : Ref sig .tc := ⟨.hbm, 3205, rfl⟩
abbrev main_call11_call0_v169 : Ref sig .tc := ⟨.hbm, 3206, rfl⟩
abbrev main_call11_call0_v170 : Ref sig .tc := ⟨.hbm, 3207, rfl⟩
abbrev main_call11_v15_0 : Ref sig .tc := ⟨.hbm, 3208, rfl⟩
abbrev main_call11_call0_v172 : Ref sig .tc := ⟨.hbm, 3209, rfl⟩
abbrev main_call11_call0_v173 : Ref sig .tc := ⟨.hbm, 3210, rfl⟩
abbrev main_call11_call0_c_44 : Ref sig .tc := ⟨.hbm, 3211, rfl⟩
abbrev main_call11_call0_v174 : Ref sig .tc := ⟨.hbm, 3212, rfl⟩
abbrev main_call11_v15_1 : Ref sig .tc := ⟨.hbm, 3213, rfl⟩
abbrev main_call11_v16 : Ref sig .tc := ⟨.hbm, 3214, rfl⟩
abbrev main_call11_c_1 : Ref sig .tc := ⟨.hbm, 3215, rfl⟩
abbrev main_call11_v17 : Ref sig .tc := ⟨.hbm, 3216, rfl⟩
abbrev main_call11_v18 : Ref sig .tc := ⟨.hbm, 3217, rfl⟩
abbrev main_call11_c_2 : Ref sig .tc := ⟨.hbm, 3218, rfl⟩
abbrev main_call11_v19 : Ref sig .tc := ⟨.hbm, 3219, rfl⟩
abbrev main_call11_v20 : Ref sig .tc := ⟨.hbm, 3220, rfl⟩
abbrev main_call11_v21 : Ref sig .tc := ⟨.hbm, 3221, rfl⟩
abbrev main_call11_cst : Ref sig .tc := ⟨.hbm, 3222, rfl⟩
abbrev main_call11_v22 : Ref sig .tc := ⟨.hbm, 3223, rfl⟩
abbrev main_call11_v23 : Ref sig .tc := ⟨.hbm, 3224, rfl⟩
abbrev main_call11_v24 : Ref sig .tc := ⟨.hbm, 3225, rfl⟩
abbrev main_call11_v25 : Ref sig .tc := ⟨.hbm, 3226, rfl⟩
abbrev main_call11_v26 : Ref sig .tc := ⟨.hbm, 3227, rfl⟩
abbrev main_call11_v27 : Ref sig .tc := ⟨.hbm, 3228, rfl⟩
abbrev main_call11_v28 : Ref sig .tc := ⟨.hbm, 3229, rfl⟩
abbrev main_call11_v29 : Ref sig .tc := ⟨.hbm, 3230, rfl⟩
abbrev main_v211 : Ref sig .tc := ⟨.hbm, 3231, rfl⟩
abbrev main_v212 : Ref sig .tc := ⟨.hbm, 3232, rfl⟩
abbrev main_v213 : Ref sig .tc := ⟨.hbm, 3233, rfl⟩
abbrev main_cst_58 : Ref sig .tc := ⟨.hbm, 3234, rfl⟩
abbrev main_v214 : Ref sig .tc := ⟨.hbm, 3235, rfl⟩
abbrev main_v215 : Ref sig .tc := ⟨.hbm, 3236, rfl⟩
abbrev main_cst_59 : Ref sig .tc := ⟨.hbm, 3237, rfl⟩
abbrev main_v216 : Ref sig .tc := ⟨.hbm, 3238, rfl⟩
abbrev main_v217 : Ref sig .tc := ⟨.hbm, 3239, rfl⟩
abbrev main_v218 : Ref sig .tc := ⟨.hbm, 3240, rfl⟩
abbrev main_v219 : Ref sig .tc := ⟨.hbm, 3241, rfl⟩
abbrev main_v220 : Ref sig .tc := ⟨.hbm, 3242, rfl⟩
abbrev main_v221 : Ref sig .tc := ⟨.hbm, 3243, rfl⟩
abbrev main_v222 : Ref sig .tc := ⟨.hbm, 3244, rfl⟩
abbrev main_v223 : Ref sig .tc := ⟨.hbm, 3245, rfl⟩
abbrev main_cst_60 : Ref sig .tc := ⟨.hbm, 3246, rfl⟩
abbrev main_v224 : Ref sig .tc := ⟨.hbm, 3247, rfl⟩
abbrev main_v225 : Ref sig .tc := ⟨.hbm, 3248, rfl⟩
abbrev main_v226 : Ref sig .tc := ⟨.hbm, 3249, rfl⟩
abbrev main_v227 : Ref sig .tc := ⟨.hbm, 3250, rfl⟩
abbrev main_v228 : Ref sig .tc := ⟨.hbm, 3251, rfl⟩
abbrev main_v229 : Ref sig .tc := ⟨.hbm, 3252, rfl⟩
abbrev main_cst_61 : Ref sig .tc := ⟨.hbm, 3253, rfl⟩
abbrev main_v230 : Ref sig .tc := ⟨.hbm, 3254, rfl⟩
abbrev main_c_62 : Ref sig .tc := ⟨.hbm, 3255, rfl⟩
abbrev main_v231 : Ref sig .tc := ⟨.hbm, 3256, rfl⟩
abbrev main_cst_63 : Ref sig .tc := ⟨.hbm, 3257, rfl⟩
abbrev main_v232 : Ref sig .tc := ⟨.hbm, 3258, rfl⟩
abbrev main_v233 : Ref sig .tc := ⟨.hbm, 3259, rfl⟩
abbrev main_cst_64 : Ref sig .tc := ⟨.hbm, 3260, rfl⟩
abbrev main_v234 : Ref sig .tc := ⟨.hbm, 3261, rfl⟩
abbrev main_v235 : Ref sig .tc := ⟨.hbm, 3262, rfl⟩
abbrev main_v236 : Ref sig .tc := ⟨.hbm, 3263, rfl⟩
abbrev main_cst_65 : Ref sig .tc := ⟨.hbm, 3264, rfl⟩
abbrev main_v237 : Ref sig .tc := ⟨.hbm, 3265, rfl⟩
abbrev main_v238 : Ref sig .tc := ⟨.hbm, 3266, rfl⟩
abbrev main_v239 : Ref sig .tc := ⟨.hbm, 3267, rfl⟩
abbrev main_v240 : Ref sig .tc := ⟨.hbm, 3268, rfl⟩
abbrev main_v241 : Ref sig .tc := ⟨.hbm, 3269, rfl⟩
abbrev main_v242 : Ref sig .tc := ⟨.hbm, 3270, rfl⟩
abbrev main_call12_v0 : Ref sig .tc := ⟨.hbm, 3271, rfl⟩
abbrev main_call12_v1 : Ref sig .tc := ⟨.hbm, 3272, rfl⟩
abbrev main_call12_v2 : Ref sig .tc := ⟨.hbm, 3273, rfl⟩
abbrev main_call12_v3 : Ref sig .tc := ⟨.hbm, 3274, rfl⟩
abbrev main_call12_v4 : Ref sig .tc := ⟨.hbm, 3275, rfl⟩
abbrev main_call12_c : Ref sig .tc := ⟨.hbm, 3276, rfl⟩
abbrev main_call12_v5 : Ref sig .tc := ⟨.hbm, 3277, rfl⟩
abbrev main_call12_v6 : Ref sig .tc := ⟨.hbm, 3278, rfl⟩
abbrev main_call12_c_0 : Ref sig .tc := ⟨.hbm, 3279, rfl⟩
abbrev main_call12_v7 : Ref sig .tc := ⟨.hbm, 3280, rfl⟩
abbrev main_call12_v8 : Ref sig .tc := ⟨.hbm, 3281, rfl⟩
abbrev main_call12_v9 : Ref sig .tc := ⟨.hbm, 3282, rfl⟩
abbrev main_call12_v10 : Ref sig .tc := ⟨.hbm, 3283, rfl⟩
abbrev main_call12_call0_v0 : Ref sig .tc := ⟨.hbm, 3284, rfl⟩
abbrev main_call12_call0_c : Ref sig .tc := ⟨.hbm, 3285, rfl⟩
abbrev main_call12_call0_v1 : Ref sig .tc := ⟨.hbm, 3286, rfl⟩
abbrev main_call12_call0_v2 : Ref sig .tc := ⟨.hbm, 3287, rfl⟩
abbrev main_call12_call0_v3 : Ref sig .tc := ⟨.hbm, 3288, rfl⟩
abbrev main_call12_call0_v4 : Ref sig .tc := ⟨.hbm, 3289, rfl⟩
abbrev main_call12_call0_v5 : Ref sig .tc := ⟨.hbm, 3290, rfl⟩
abbrev main_call12_call0_v6 : Ref sig .tc := ⟨.hbm, 3291, rfl⟩
abbrev main_call12_call0_c_0 : Ref sig .tc := ⟨.hbm, 3292, rfl⟩
abbrev main_call12_call0_v7 : Ref sig .tc := ⟨.hbm, 3293, rfl⟩
abbrev main_call12_call0_v8 : Ref sig .tc := ⟨.hbm, 3294, rfl⟩
abbrev main_call12_call0_c_1 : Ref sig .tc := ⟨.hbm, 3295, rfl⟩
abbrev main_call12_call0_v9 : Ref sig .tc := ⟨.hbm, 3296, rfl⟩
abbrev main_call12_call0_v10 : Ref sig .tc := ⟨.hbm, 3297, rfl⟩
abbrev main_call12_call0_v11 : Ref sig .tc := ⟨.hbm, 3298, rfl⟩
abbrev main_call12_call0_v12 : Ref sig .tc := ⟨.hbm, 3299, rfl⟩
abbrev main_call12_call0_v13 : Ref sig .tc := ⟨.hbm, 3300, rfl⟩
abbrev main_call12_call0_c_2 : Ref sig .tc := ⟨.hbm, 3301, rfl⟩
abbrev main_call12_call0_v14 : Ref sig .tc := ⟨.hbm, 3302, rfl⟩
abbrev main_call12_call0_v15 : Ref sig .tc := ⟨.hbm, 3303, rfl⟩
abbrev main_call12_call0_c_3 : Ref sig .tc := ⟨.hbm, 3304, rfl⟩
abbrev main_call12_call0_v16 : Ref sig .tc := ⟨.hbm, 3305, rfl⟩
abbrev main_call12_call0_v17 : Ref sig .tc := ⟨.hbm, 3306, rfl⟩
abbrev main_call12_call0_v18 : Ref sig .tc := ⟨.hbm, 3307, rfl⟩
abbrev main_call12_call0_v19 : Ref sig .tc := ⟨.hbm, 3308, rfl⟩
abbrev main_call12_call0_v20 : Ref sig .tc := ⟨.hbm, 3309, rfl⟩
abbrev main_call12_call0_c_4 : Ref sig .tc := ⟨.hbm, 3310, rfl⟩
abbrev main_call12_call0_v21 : Ref sig .tc := ⟨.hbm, 3311, rfl⟩
abbrev main_call12_call0_v22 : Ref sig .tc := ⟨.hbm, 3312, rfl⟩
abbrev main_call12_call0_c_5 : Ref sig .tc := ⟨.hbm, 3313, rfl⟩
abbrev main_call12_call0_v23 : Ref sig .tc := ⟨.hbm, 3314, rfl⟩
abbrev main_call12_call0_v24 : Ref sig .tc := ⟨.hbm, 3315, rfl⟩
abbrev main_call12_call0_v25 : Ref sig .tc := ⟨.hbm, 3316, rfl⟩
abbrev main_call12_call0_v26 : Ref sig .tc := ⟨.hbm, 3317, rfl⟩
abbrev main_call12_call0_v27 : Ref sig .tc := ⟨.hbm, 3318, rfl⟩
abbrev main_call12_call0_c_6 : Ref sig .tc := ⟨.hbm, 3319, rfl⟩
abbrev main_call12_call0_v28 : Ref sig .tc := ⟨.hbm, 3320, rfl⟩
abbrev main_call12_call0_v29 : Ref sig .tc := ⟨.hbm, 3321, rfl⟩
abbrev main_call12_call0_c_7 : Ref sig .tc := ⟨.hbm, 3322, rfl⟩
abbrev main_call12_call0_v30 : Ref sig .tc := ⟨.hbm, 3323, rfl⟩
abbrev main_call12_call0_v31 : Ref sig .tc := ⟨.hbm, 3324, rfl⟩
abbrev main_call12_call0_v32 : Ref sig .tc := ⟨.hbm, 3325, rfl⟩
abbrev main_call12_call0_v33 : Ref sig .tc := ⟨.hbm, 3326, rfl⟩
abbrev main_call12_call0_v34 : Ref sig .tc := ⟨.hbm, 3327, rfl⟩
abbrev main_call12_call0_v35 : Ref sig .tc := ⟨.hbm, 3328, rfl⟩
abbrev main_call12_call0_v36 : Ref sig .tc := ⟨.hbm, 3329, rfl⟩
abbrev main_call12_call0_v37 : Ref sig .tc := ⟨.hbm, 3330, rfl⟩
abbrev main_call12_call0_c_8 : Ref sig .tc := ⟨.hbm, 3331, rfl⟩
abbrev main_call12_call0_v38 : Ref sig .tc := ⟨.hbm, 3332, rfl⟩
abbrev main_call12_call0_v39 : Ref sig .tc := ⟨.hbm, 3333, rfl⟩
abbrev main_call12_call0_v40 : Ref sig .tc := ⟨.hbm, 3334, rfl⟩
abbrev main_call12_call0_c_9 : Ref sig .tc := ⟨.hbm, 3335, rfl⟩
abbrev main_call12_call0_v41 : Ref sig .tc := ⟨.hbm, 3336, rfl⟩
abbrev main_call12_call0_v42 : Ref sig .tc := ⟨.hbm, 3337, rfl⟩
abbrev main_call12_call0_c_10 : Ref sig .tc := ⟨.hbm, 3338, rfl⟩
abbrev main_call12_call0_v43 : Ref sig .tc := ⟨.hbm, 3339, rfl⟩
abbrev main_call12_call0_v44 : Ref sig .tc := ⟨.hbm, 3340, rfl⟩
abbrev main_call12_call0_v45 : Ref sig .tc := ⟨.hbm, 3341, rfl⟩
abbrev main_call12_call0_v46 : Ref sig .tc := ⟨.hbm, 3342, rfl⟩
abbrev main_call12_call0_v47 : Ref sig .tc := ⟨.hbm, 3343, rfl⟩
abbrev main_call12_call0_c_11 : Ref sig .tc := ⟨.hbm, 3344, rfl⟩
abbrev main_call12_call0_v48 : Ref sig .tc := ⟨.hbm, 3345, rfl⟩
abbrev main_call12_call0_v49 : Ref sig .tc := ⟨.hbm, 3346, rfl⟩
abbrev main_call12_call0_c_12 : Ref sig .tc := ⟨.hbm, 3347, rfl⟩
abbrev main_call12_call0_v50 : Ref sig .tc := ⟨.hbm, 3348, rfl⟩
abbrev main_call12_call0_v51 : Ref sig .tc := ⟨.hbm, 3349, rfl⟩
abbrev main_call12_call0_v52 : Ref sig .tc := ⟨.hbm, 3350, rfl⟩
abbrev main_call12_call0_v53 : Ref sig .tc := ⟨.hbm, 3351, rfl⟩
abbrev main_call12_call0_v54 : Ref sig .tc := ⟨.hbm, 3352, rfl⟩
abbrev main_call12_call0_c_13 : Ref sig .tc := ⟨.hbm, 3353, rfl⟩
abbrev main_call12_call0_v55 : Ref sig .tc := ⟨.hbm, 3354, rfl⟩
abbrev main_call12_call0_v56 : Ref sig .tc := ⟨.hbm, 3355, rfl⟩
abbrev main_call12_call0_c_14 : Ref sig .tc := ⟨.hbm, 3356, rfl⟩
abbrev main_call12_call0_v57 : Ref sig .tc := ⟨.hbm, 3357, rfl⟩
abbrev main_call12_call0_v58 : Ref sig .tc := ⟨.hbm, 3358, rfl⟩
abbrev main_call12_call0_v59 : Ref sig .tc := ⟨.hbm, 3359, rfl⟩
abbrev main_call12_call0_v60 : Ref sig .tc := ⟨.hbm, 3360, rfl⟩
abbrev main_call12_call0_v61 : Ref sig .tc := ⟨.hbm, 3361, rfl⟩
abbrev main_call12_call0_c_15 : Ref sig .tc := ⟨.hbm, 3362, rfl⟩
abbrev main_call12_call0_v62 : Ref sig .tc := ⟨.hbm, 3363, rfl⟩
abbrev main_call12_call0_v63 : Ref sig .tc := ⟨.hbm, 3364, rfl⟩
abbrev main_call12_call0_c_16 : Ref sig .tc := ⟨.hbm, 3365, rfl⟩
abbrev main_call12_call0_v64 : Ref sig .tc := ⟨.hbm, 3366, rfl⟩
abbrev main_call12_call0_v65 : Ref sig .tc := ⟨.hbm, 3367, rfl⟩
abbrev main_call12_call0_v66 : Ref sig .tc := ⟨.hbm, 3368, rfl⟩
abbrev main_call12_call0_v67 : Ref sig .tc := ⟨.hbm, 3369, rfl⟩
abbrev main_call12_call0_v68 : Ref sig .tc := ⟨.hbm, 3370, rfl⟩
abbrev main_call12_call0_v69 : Ref sig .tc := ⟨.hbm, 3371, rfl⟩
abbrev main_call12_call0_v70 : Ref sig .tc := ⟨.hbm, 3372, rfl⟩
abbrev main_call12_call0_v71 : Ref sig .tc := ⟨.hbm, 3373, rfl⟩
abbrev main_call12_call0_c_17 : Ref sig .tc := ⟨.hbm, 3374, rfl⟩
abbrev main_call12_call0_v72 : Ref sig .tc := ⟨.hbm, 3375, rfl⟩
abbrev main_call12_call0_v73 : Ref sig .tc := ⟨.hbm, 3376, rfl⟩
abbrev main_call12_call0_v74 : Ref sig .tc := ⟨.hbm, 3377, rfl⟩
abbrev main_call12_call0_c_18 : Ref sig .tc := ⟨.hbm, 3378, rfl⟩
abbrev main_call12_call0_v75 : Ref sig .tc := ⟨.hbm, 3379, rfl⟩
abbrev main_call12_call0_v76 : Ref sig .tc := ⟨.hbm, 3380, rfl⟩
abbrev main_call12_call0_c_19 : Ref sig .tc := ⟨.hbm, 3381, rfl⟩
abbrev main_call12_call0_v77 : Ref sig .tc := ⟨.hbm, 3382, rfl⟩
abbrev main_call12_call0_v78 : Ref sig .tc := ⟨.hbm, 3383, rfl⟩
abbrev main_call12_call0_v79 : Ref sig .tc := ⟨.hbm, 3384, rfl⟩
abbrev main_call12_call0_v80 : Ref sig .tc := ⟨.hbm, 3385, rfl⟩
abbrev main_call12_call0_v81 : Ref sig .tc := ⟨.hbm, 3386, rfl⟩
abbrev main_call12_call0_c_20 : Ref sig .tc := ⟨.hbm, 3387, rfl⟩
abbrev main_call12_call0_v82 : Ref sig .tc := ⟨.hbm, 3388, rfl⟩
abbrev main_call12_call0_v83 : Ref sig .tc := ⟨.hbm, 3389, rfl⟩
abbrev main_call12_call0_c_21 : Ref sig .tc := ⟨.hbm, 3390, rfl⟩
abbrev main_call12_call0_v84 : Ref sig .tc := ⟨.hbm, 3391, rfl⟩
abbrev main_call12_call0_v85 : Ref sig .tc := ⟨.hbm, 3392, rfl⟩
abbrev main_call12_call0_v86 : Ref sig .tc := ⟨.hbm, 3393, rfl⟩
abbrev main_call12_call0_v87 : Ref sig .tc := ⟨.hbm, 3394, rfl⟩
abbrev main_call12_call0_v88 : Ref sig .tc := ⟨.hbm, 3395, rfl⟩
abbrev main_call12_call0_c_22 : Ref sig .tc := ⟨.hbm, 3396, rfl⟩
abbrev main_call12_call0_v89 : Ref sig .tc := ⟨.hbm, 3397, rfl⟩
abbrev main_call12_call0_v90 : Ref sig .tc := ⟨.hbm, 3398, rfl⟩
abbrev main_call12_call0_c_23 : Ref sig .tc := ⟨.hbm, 3399, rfl⟩
abbrev main_call12_call0_v91 : Ref sig .tc := ⟨.hbm, 3400, rfl⟩
abbrev main_call12_call0_v92 : Ref sig .tc := ⟨.hbm, 3401, rfl⟩
abbrev main_call12_call0_v93 : Ref sig .tc := ⟨.hbm, 3402, rfl⟩
abbrev main_call12_call0_v94 : Ref sig .tc := ⟨.hbm, 3403, rfl⟩
abbrev main_call12_call0_v95 : Ref sig .tc := ⟨.hbm, 3404, rfl⟩
abbrev main_call12_call0_c_24 : Ref sig .tc := ⟨.hbm, 3405, rfl⟩
abbrev main_call12_call0_v96 : Ref sig .tc := ⟨.hbm, 3406, rfl⟩
abbrev main_call12_call0_v97 : Ref sig .tc := ⟨.hbm, 3407, rfl⟩
abbrev main_call12_call0_c_25 : Ref sig .tc := ⟨.hbm, 3408, rfl⟩
abbrev main_call12_call0_v98 : Ref sig .tc := ⟨.hbm, 3409, rfl⟩
abbrev main_call12_call0_v99 : Ref sig .tc := ⟨.hbm, 3410, rfl⟩
abbrev main_call12_call0_v100 : Ref sig .tc := ⟨.hbm, 3411, rfl⟩
abbrev main_call12_call0_v101 : Ref sig .tc := ⟨.hbm, 3412, rfl⟩
abbrev main_call12_call0_v102 : Ref sig .tc := ⟨.hbm, 3413, rfl⟩
abbrev main_call12_call0_v103 : Ref sig .tc := ⟨.hbm, 3414, rfl⟩
abbrev main_call12_call0_v104 : Ref sig .tc := ⟨.hbm, 3415, rfl⟩
abbrev main_call12_call0_v105 : Ref sig .tc := ⟨.hbm, 3416, rfl⟩
abbrev main_call12_call0_c_26 : Ref sig .tc := ⟨.hbm, 3417, rfl⟩
abbrev main_call12_call0_v106 : Ref sig .tc := ⟨.hbm, 3418, rfl⟩
abbrev main_call12_call0_v107 : Ref sig .tc := ⟨.hbm, 3419, rfl⟩
abbrev main_call12_call0_v108 : Ref sig .tc := ⟨.hbm, 3420, rfl⟩
abbrev main_call12_call0_c_27 : Ref sig .tc := ⟨.hbm, 3421, rfl⟩
abbrev main_call12_call0_v109 : Ref sig .tc := ⟨.hbm, 3422, rfl⟩
abbrev main_call12_call0_v110 : Ref sig .tc := ⟨.hbm, 3423, rfl⟩
abbrev main_call12_call0_c_28 : Ref sig .tc := ⟨.hbm, 3424, rfl⟩
abbrev main_call12_call0_v111 : Ref sig .tc := ⟨.hbm, 3425, rfl⟩
abbrev main_call12_call0_v112 : Ref sig .tc := ⟨.hbm, 3426, rfl⟩
abbrev main_call12_call0_v113 : Ref sig .tc := ⟨.hbm, 3427, rfl⟩
abbrev main_call12_call0_v114 : Ref sig .tc := ⟨.hbm, 3428, rfl⟩
abbrev main_call12_call0_v115 : Ref sig .tc := ⟨.hbm, 3429, rfl⟩
abbrev main_call12_call0_c_29 : Ref sig .tc := ⟨.hbm, 3430, rfl⟩
abbrev main_call12_call0_v116 : Ref sig .tc := ⟨.hbm, 3431, rfl⟩
abbrev main_call12_call0_v117 : Ref sig .tc := ⟨.hbm, 3432, rfl⟩
abbrev main_call12_call0_c_30 : Ref sig .tc := ⟨.hbm, 3433, rfl⟩
abbrev main_call12_call0_v118 : Ref sig .tc := ⟨.hbm, 3434, rfl⟩
abbrev main_call12_call0_v119 : Ref sig .tc := ⟨.hbm, 3435, rfl⟩
abbrev main_call12_call0_v120 : Ref sig .tc := ⟨.hbm, 3436, rfl⟩
abbrev main_call12_call0_v121 : Ref sig .tc := ⟨.hbm, 3437, rfl⟩
abbrev main_call12_call0_v122 : Ref sig .tc := ⟨.hbm, 3438, rfl⟩
abbrev main_call12_call0_c_31 : Ref sig .tc := ⟨.hbm, 3439, rfl⟩
abbrev main_call12_call0_v123 : Ref sig .tc := ⟨.hbm, 3440, rfl⟩
abbrev main_call12_call0_v124 : Ref sig .tc := ⟨.hbm, 3441, rfl⟩
abbrev main_call12_call0_c_32 : Ref sig .tc := ⟨.hbm, 3442, rfl⟩
abbrev main_call12_call0_v125 : Ref sig .tc := ⟨.hbm, 3443, rfl⟩
abbrev main_call12_call0_v126 : Ref sig .tc := ⟨.hbm, 3444, rfl⟩
abbrev main_call12_call0_v127 : Ref sig .tc := ⟨.hbm, 3445, rfl⟩
abbrev main_call12_call0_v128 : Ref sig .tc := ⟨.hbm, 3446, rfl⟩
abbrev main_call12_call0_v129 : Ref sig .tc := ⟨.hbm, 3447, rfl⟩
abbrev main_call12_call0_c_33 : Ref sig .tc := ⟨.hbm, 3448, rfl⟩
abbrev main_call12_call0_v130 : Ref sig .tc := ⟨.hbm, 3449, rfl⟩
abbrev main_call12_call0_v131 : Ref sig .tc := ⟨.hbm, 3450, rfl⟩
abbrev main_call12_call0_c_34 : Ref sig .tc := ⟨.hbm, 3451, rfl⟩
abbrev main_call12_call0_v132 : Ref sig .tc := ⟨.hbm, 3452, rfl⟩
abbrev main_call12_call0_v133 : Ref sig .tc := ⟨.hbm, 3453, rfl⟩
abbrev main_call12_call0_v134 : Ref sig .tc := ⟨.hbm, 3454, rfl⟩
abbrev main_call12_call0_v135 : Ref sig .tc := ⟨.hbm, 3455, rfl⟩
abbrev main_call12_call0_v136 : Ref sig .tc := ⟨.hbm, 3456, rfl⟩
abbrev main_call12_call0_v137 : Ref sig .tc := ⟨.hbm, 3457, rfl⟩
abbrev main_call12_call0_v138 : Ref sig .tc := ⟨.hbm, 3458, rfl⟩
abbrev main_call12_call0_v139 : Ref sig .tc := ⟨.hbm, 3459, rfl⟩
abbrev main_call12_call0_c_35 : Ref sig .tc := ⟨.hbm, 3460, rfl⟩
abbrev main_call12_call0_v140 : Ref sig .tc := ⟨.hbm, 3461, rfl⟩
abbrev main_call12_call0_v141 : Ref sig .tc := ⟨.hbm, 3462, rfl⟩
abbrev main_call12_call0_v142 : Ref sig .tc := ⟨.hbm, 3463, rfl⟩
abbrev main_call12_call0_c_36 : Ref sig .tc := ⟨.hbm, 3464, rfl⟩
abbrev main_call12_call0_v143 : Ref sig .tc := ⟨.hbm, 3465, rfl⟩
abbrev main_call12_call0_v144 : Ref sig .tc := ⟨.hbm, 3466, rfl⟩
abbrev main_call12_call0_c_37 : Ref sig .tc := ⟨.hbm, 3467, rfl⟩
abbrev main_call12_call0_v145 : Ref sig .tc := ⟨.hbm, 3468, rfl⟩
abbrev main_call12_call0_v146 : Ref sig .tc := ⟨.hbm, 3469, rfl⟩
abbrev main_call12_call0_v147 : Ref sig .tc := ⟨.hbm, 3470, rfl⟩
abbrev main_call12_call0_v148 : Ref sig .tc := ⟨.hbm, 3471, rfl⟩
abbrev main_call12_call0_v149 : Ref sig .tc := ⟨.hbm, 3472, rfl⟩
abbrev main_call12_call0_c_38 : Ref sig .tc := ⟨.hbm, 3473, rfl⟩
abbrev main_call12_call0_v150 : Ref sig .tc := ⟨.hbm, 3474, rfl⟩
abbrev main_call12_call0_v151 : Ref sig .tc := ⟨.hbm, 3475, rfl⟩
abbrev main_call12_call0_c_39 : Ref sig .tc := ⟨.hbm, 3476, rfl⟩
abbrev main_call12_call0_v152 : Ref sig .tc := ⟨.hbm, 3477, rfl⟩
abbrev main_call12_call0_v153 : Ref sig .tc := ⟨.hbm, 3478, rfl⟩
abbrev main_call12_call0_v154 : Ref sig .tc := ⟨.hbm, 3479, rfl⟩
abbrev main_call12_call0_v155 : Ref sig .tc := ⟨.hbm, 3480, rfl⟩
abbrev main_call12_call0_v156 : Ref sig .tc := ⟨.hbm, 3481, rfl⟩
abbrev main_call12_call0_c_40 : Ref sig .tc := ⟨.hbm, 3482, rfl⟩
abbrev main_call12_call0_v157 : Ref sig .tc := ⟨.hbm, 3483, rfl⟩
abbrev main_call12_call0_v158 : Ref sig .tc := ⟨.hbm, 3484, rfl⟩
abbrev main_call12_call0_c_41 : Ref sig .tc := ⟨.hbm, 3485, rfl⟩
abbrev main_call12_call0_v159 : Ref sig .tc := ⟨.hbm, 3486, rfl⟩
abbrev main_call12_call0_v160 : Ref sig .tc := ⟨.hbm, 3487, rfl⟩
abbrev main_call12_call0_v161 : Ref sig .tc := ⟨.hbm, 3488, rfl⟩
abbrev main_call12_call0_v162 : Ref sig .tc := ⟨.hbm, 3489, rfl⟩
abbrev main_call12_call0_v163 : Ref sig .tc := ⟨.hbm, 3490, rfl⟩
abbrev main_call12_call0_c_42 : Ref sig .tc := ⟨.hbm, 3491, rfl⟩
abbrev main_call12_call0_v164 : Ref sig .tc := ⟨.hbm, 3492, rfl⟩
abbrev main_call12_call0_v165 : Ref sig .tc := ⟨.hbm, 3493, rfl⟩
abbrev main_call12_call0_c_43 : Ref sig .tc := ⟨.hbm, 3494, rfl⟩
abbrev main_call12_call0_v166 : Ref sig .tc := ⟨.hbm, 3495, rfl⟩
abbrev main_call12_call0_v167 : Ref sig .tc := ⟨.hbm, 3496, rfl⟩
abbrev main_call12_call0_v168 : Ref sig .tc := ⟨.hbm, 3497, rfl⟩
abbrev main_call12_call0_v169 : Ref sig .tc := ⟨.hbm, 3498, rfl⟩
abbrev main_call12_call0_v170 : Ref sig .tc := ⟨.hbm, 3499, rfl⟩
abbrev main_call12_v11_0 : Ref sig .tc := ⟨.hbm, 3500, rfl⟩
abbrev main_call12_call0_v172 : Ref sig .tc := ⟨.hbm, 3501, rfl⟩
abbrev main_call12_call0_v173 : Ref sig .tc := ⟨.hbm, 3502, rfl⟩
abbrev main_call12_call0_c_44 : Ref sig .tc := ⟨.hbm, 3503, rfl⟩
abbrev main_call12_call0_v174 : Ref sig .tc := ⟨.hbm, 3504, rfl⟩
abbrev main_call12_v11_1 : Ref sig .tc := ⟨.hbm, 3505, rfl⟩
abbrev main_call12_v12 : Ref sig .tc := ⟨.hbm, 3506, rfl⟩
abbrev main_call12_v13 : Ref sig .tc := ⟨.hbm, 3507, rfl⟩
abbrev main_v243 : Ref sig .tc := ⟨.hbm, 3508, rfl⟩
abbrev main_v244 : Ref sig .tc := ⟨.hbm, 3509, rfl⟩
abbrev main_v245 : Ref sig .tc := ⟨.hbm, 3510, rfl⟩
abbrev main_v246 : Ref sig .tc := ⟨.hbm, 3511, rfl⟩
abbrev main_v247 : Ref sig .tc := ⟨.hbm, 3512, rfl⟩
abbrev main_cst_66 : Ref sig .tc := ⟨.hbm, 3513, rfl⟩
abbrev main_cst_67 : Ref sig .tc := ⟨.hbm, 3514, rfl⟩
abbrev main_call13_v0 : Ref sig .tc := ⟨.hbm, 3515, rfl⟩
abbrev main_call13_v1 : Ref sig .tc := ⟨.hbm, 3516, rfl⟩
abbrev main_call13_v2 : Ref sig .tc := ⟨.hbm, 3517, rfl⟩
abbrev main_call13_v3 : Ref sig .tc := ⟨.hbm, 3518, rfl⟩
abbrev main_call13_v4 : Ref sig .tc := ⟨.hbm, 3519, rfl⟩
abbrev main_call13_v5 : Ref sig .tc := ⟨.hbm, 3520, rfl⟩
abbrev main_call13_v6 : Ref sig .tc := ⟨.hbm, 3521, rfl⟩
abbrev main_call13_v7 : Ref sig .tc := ⟨.hbm, 3522, rfl⟩
abbrev main_call13_v8 : Ref sig .tc := ⟨.hbm, 3523, rfl⟩
abbrev main_call13_c : Ref sig .tc := ⟨.hbm, 3524, rfl⟩
abbrev main_call13_v9 : Ref sig .tc := ⟨.hbm, 3525, rfl⟩
abbrev main_call13_v10 : Ref sig .tc := ⟨.hbm, 3526, rfl⟩
abbrev main_call13_c_0 : Ref sig .tc := ⟨.hbm, 3527, rfl⟩
abbrev main_call13_v11 : Ref sig .tc := ⟨.hbm, 3528, rfl⟩
abbrev main_call13_v12 : Ref sig .tc := ⟨.hbm, 3529, rfl⟩
abbrev main_call13_v13 : Ref sig .tc := ⟨.hbm, 3530, rfl⟩
abbrev main_call13_v14 : Ref sig .tc := ⟨.hbm, 3531, rfl⟩
abbrev main_call13_call0_v0 : Ref sig .tc := ⟨.hbm, 3532, rfl⟩
abbrev main_call13_call0_c : Ref sig .tc := ⟨.hbm, 3533, rfl⟩
abbrev main_call13_call0_v1 : Ref sig .tc := ⟨.hbm, 3534, rfl⟩
abbrev main_call13_call0_v2 : Ref sig .tc := ⟨.hbm, 3535, rfl⟩
abbrev main_call13_call0_v3 : Ref sig .tc := ⟨.hbm, 3536, rfl⟩
abbrev main_call13_call0_v4 : Ref sig .tc := ⟨.hbm, 3537, rfl⟩
abbrev main_call13_call0_v5 : Ref sig .tc := ⟨.hbm, 3538, rfl⟩
abbrev main_call13_call0_v6 : Ref sig .tc := ⟨.hbm, 3539, rfl⟩
abbrev main_call13_call0_c_0 : Ref sig .tc := ⟨.hbm, 3540, rfl⟩
abbrev main_call13_call0_v7 : Ref sig .tc := ⟨.hbm, 3541, rfl⟩
abbrev main_call13_call0_v8 : Ref sig .tc := ⟨.hbm, 3542, rfl⟩
abbrev main_call13_call0_c_1 : Ref sig .tc := ⟨.hbm, 3543, rfl⟩
abbrev main_call13_call0_v9 : Ref sig .tc := ⟨.hbm, 3544, rfl⟩
abbrev main_call13_call0_v10 : Ref sig .tc := ⟨.hbm, 3545, rfl⟩
abbrev main_call13_call0_v11 : Ref sig .tc := ⟨.hbm, 3546, rfl⟩
abbrev main_call13_call0_v12 : Ref sig .tc := ⟨.hbm, 3547, rfl⟩
abbrev main_call13_call0_v13 : Ref sig .tc := ⟨.hbm, 3548, rfl⟩
abbrev main_call13_call0_c_2 : Ref sig .tc := ⟨.hbm, 3549, rfl⟩
abbrev main_call13_call0_v14 : Ref sig .tc := ⟨.hbm, 3550, rfl⟩
abbrev main_call13_call0_v15 : Ref sig .tc := ⟨.hbm, 3551, rfl⟩
abbrev main_call13_call0_c_3 : Ref sig .tc := ⟨.hbm, 3552, rfl⟩
abbrev main_call13_call0_v16 : Ref sig .tc := ⟨.hbm, 3553, rfl⟩
abbrev main_call13_call0_v17 : Ref sig .tc := ⟨.hbm, 3554, rfl⟩
abbrev main_call13_call0_v18 : Ref sig .tc := ⟨.hbm, 3555, rfl⟩
abbrev main_call13_call0_v19 : Ref sig .tc := ⟨.hbm, 3556, rfl⟩
abbrev main_call13_call0_v20 : Ref sig .tc := ⟨.hbm, 3557, rfl⟩
abbrev main_call13_call0_c_4 : Ref sig .tc := ⟨.hbm, 3558, rfl⟩
abbrev main_call13_call0_v21 : Ref sig .tc := ⟨.hbm, 3559, rfl⟩
abbrev main_call13_call0_v22 : Ref sig .tc := ⟨.hbm, 3560, rfl⟩
abbrev main_call13_call0_c_5 : Ref sig .tc := ⟨.hbm, 3561, rfl⟩
abbrev main_call13_call0_v23 : Ref sig .tc := ⟨.hbm, 3562, rfl⟩
abbrev main_call13_call0_v24 : Ref sig .tc := ⟨.hbm, 3563, rfl⟩
abbrev main_call13_call0_v25 : Ref sig .tc := ⟨.hbm, 3564, rfl⟩
abbrev main_call13_call0_v26 : Ref sig .tc := ⟨.hbm, 3565, rfl⟩
abbrev main_call13_call0_v27 : Ref sig .tc := ⟨.hbm, 3566, rfl⟩
abbrev main_call13_call0_c_6 : Ref sig .tc := ⟨.hbm, 3567, rfl⟩
abbrev main_call13_call0_v28 : Ref sig .tc := ⟨.hbm, 3568, rfl⟩
abbrev main_call13_call0_v29 : Ref sig .tc := ⟨.hbm, 3569, rfl⟩
abbrev main_call13_call0_c_7 : Ref sig .tc := ⟨.hbm, 3570, rfl⟩
abbrev main_call13_call0_v30 : Ref sig .tc := ⟨.hbm, 3571, rfl⟩
abbrev main_call13_call0_v31 : Ref sig .tc := ⟨.hbm, 3572, rfl⟩
abbrev main_call13_call0_v32 : Ref sig .tc := ⟨.hbm, 3573, rfl⟩
abbrev main_call13_call0_v33 : Ref sig .tc := ⟨.hbm, 3574, rfl⟩
abbrev main_call13_call0_v34 : Ref sig .tc := ⟨.hbm, 3575, rfl⟩
abbrev main_call13_call0_v35 : Ref sig .tc := ⟨.hbm, 3576, rfl⟩
abbrev main_call13_call0_v36 : Ref sig .tc := ⟨.hbm, 3577, rfl⟩
abbrev main_call13_call0_v37 : Ref sig .tc := ⟨.hbm, 3578, rfl⟩
abbrev main_call13_call0_c_8 : Ref sig .tc := ⟨.hbm, 3579, rfl⟩
abbrev main_call13_call0_v38 : Ref sig .tc := ⟨.hbm, 3580, rfl⟩
abbrev main_call13_call0_v39 : Ref sig .tc := ⟨.hbm, 3581, rfl⟩
abbrev main_call13_call0_v40 : Ref sig .tc := ⟨.hbm, 3582, rfl⟩
abbrev main_call13_call0_c_9 : Ref sig .tc := ⟨.hbm, 3583, rfl⟩
abbrev main_call13_call0_v41 : Ref sig .tc := ⟨.hbm, 3584, rfl⟩
abbrev main_call13_call0_v42 : Ref sig .tc := ⟨.hbm, 3585, rfl⟩
abbrev main_call13_call0_c_10 : Ref sig .tc := ⟨.hbm, 3586, rfl⟩
abbrev main_call13_call0_v43 : Ref sig .tc := ⟨.hbm, 3587, rfl⟩
abbrev main_call13_call0_v44 : Ref sig .tc := ⟨.hbm, 3588, rfl⟩
abbrev main_call13_call0_v45 : Ref sig .tc := ⟨.hbm, 3589, rfl⟩
abbrev main_call13_call0_v46 : Ref sig .tc := ⟨.hbm, 3590, rfl⟩
abbrev main_call13_call0_v47 : Ref sig .tc := ⟨.hbm, 3591, rfl⟩
abbrev main_call13_call0_c_11 : Ref sig .tc := ⟨.hbm, 3592, rfl⟩
abbrev main_call13_call0_v48 : Ref sig .tc := ⟨.hbm, 3593, rfl⟩
abbrev main_call13_call0_v49 : Ref sig .tc := ⟨.hbm, 3594, rfl⟩
abbrev main_call13_call0_c_12 : Ref sig .tc := ⟨.hbm, 3595, rfl⟩
abbrev main_call13_call0_v50 : Ref sig .tc := ⟨.hbm, 3596, rfl⟩
abbrev main_call13_call0_v51 : Ref sig .tc := ⟨.hbm, 3597, rfl⟩
abbrev main_call13_call0_v52 : Ref sig .tc := ⟨.hbm, 3598, rfl⟩
abbrev main_call13_call0_v53 : Ref sig .tc := ⟨.hbm, 3599, rfl⟩
abbrev main_call13_call0_v54 : Ref sig .tc := ⟨.hbm, 3600, rfl⟩
abbrev main_call13_call0_c_13 : Ref sig .tc := ⟨.hbm, 3601, rfl⟩
abbrev main_call13_call0_v55 : Ref sig .tc := ⟨.hbm, 3602, rfl⟩
abbrev main_call13_call0_v56 : Ref sig .tc := ⟨.hbm, 3603, rfl⟩
abbrev main_call13_call0_c_14 : Ref sig .tc := ⟨.hbm, 3604, rfl⟩
abbrev main_call13_call0_v57 : Ref sig .tc := ⟨.hbm, 3605, rfl⟩
abbrev main_call13_call0_v58 : Ref sig .tc := ⟨.hbm, 3606, rfl⟩
abbrev main_call13_call0_v59 : Ref sig .tc := ⟨.hbm, 3607, rfl⟩
abbrev main_call13_call0_v60 : Ref sig .tc := ⟨.hbm, 3608, rfl⟩
abbrev main_call13_call0_v61 : Ref sig .tc := ⟨.hbm, 3609, rfl⟩
abbrev main_call13_call0_c_15 : Ref sig .tc := ⟨.hbm, 3610, rfl⟩
abbrev main_call13_call0_v62 : Ref sig .tc := ⟨.hbm, 3611, rfl⟩
abbrev main_call13_call0_v63 : Ref sig .tc := ⟨.hbm, 3612, rfl⟩
abbrev main_call13_call0_c_16 : Ref sig .tc := ⟨.hbm, 3613, rfl⟩
abbrev main_call13_call0_v64 : Ref sig .tc := ⟨.hbm, 3614, rfl⟩
abbrev main_call13_call0_v65 : Ref sig .tc := ⟨.hbm, 3615, rfl⟩
abbrev main_call13_call0_v66 : Ref sig .tc := ⟨.hbm, 3616, rfl⟩
abbrev main_call13_call0_v67 : Ref sig .tc := ⟨.hbm, 3617, rfl⟩
abbrev main_call13_call0_v68 : Ref sig .tc := ⟨.hbm, 3618, rfl⟩
abbrev main_call13_call0_v69 : Ref sig .tc := ⟨.hbm, 3619, rfl⟩
abbrev main_call13_call0_v70 : Ref sig .tc := ⟨.hbm, 3620, rfl⟩
abbrev main_call13_call0_v71 : Ref sig .tc := ⟨.hbm, 3621, rfl⟩
abbrev main_call13_call0_c_17 : Ref sig .tc := ⟨.hbm, 3622, rfl⟩
abbrev main_call13_call0_v72 : Ref sig .tc := ⟨.hbm, 3623, rfl⟩
abbrev main_call13_call0_v73 : Ref sig .tc := ⟨.hbm, 3624, rfl⟩
abbrev main_call13_call0_v74 : Ref sig .tc := ⟨.hbm, 3625, rfl⟩
abbrev main_call13_call0_c_18 : Ref sig .tc := ⟨.hbm, 3626, rfl⟩
abbrev main_call13_call0_v75 : Ref sig .tc := ⟨.hbm, 3627, rfl⟩
abbrev main_call13_call0_v76 : Ref sig .tc := ⟨.hbm, 3628, rfl⟩
abbrev main_call13_call0_c_19 : Ref sig .tc := ⟨.hbm, 3629, rfl⟩
abbrev main_call13_call0_v77 : Ref sig .tc := ⟨.hbm, 3630, rfl⟩
abbrev main_call13_call0_v78 : Ref sig .tc := ⟨.hbm, 3631, rfl⟩
abbrev main_call13_call0_v79 : Ref sig .tc := ⟨.hbm, 3632, rfl⟩
abbrev main_call13_call0_v80 : Ref sig .tc := ⟨.hbm, 3633, rfl⟩
abbrev main_call13_call0_v81 : Ref sig .tc := ⟨.hbm, 3634, rfl⟩
abbrev main_call13_call0_c_20 : Ref sig .tc := ⟨.hbm, 3635, rfl⟩
abbrev main_call13_call0_v82 : Ref sig .tc := ⟨.hbm, 3636, rfl⟩
abbrev main_call13_call0_v83 : Ref sig .tc := ⟨.hbm, 3637, rfl⟩
abbrev main_call13_call0_c_21 : Ref sig .tc := ⟨.hbm, 3638, rfl⟩
abbrev main_call13_call0_v84 : Ref sig .tc := ⟨.hbm, 3639, rfl⟩
abbrev main_call13_call0_v85 : Ref sig .tc := ⟨.hbm, 3640, rfl⟩
abbrev main_call13_call0_v86 : Ref sig .tc := ⟨.hbm, 3641, rfl⟩
abbrev main_call13_call0_v87 : Ref sig .tc := ⟨.hbm, 3642, rfl⟩
abbrev main_call13_call0_v88 : Ref sig .tc := ⟨.hbm, 3643, rfl⟩
abbrev main_call13_call0_c_22 : Ref sig .tc := ⟨.hbm, 3644, rfl⟩
abbrev main_call13_call0_v89 : Ref sig .tc := ⟨.hbm, 3645, rfl⟩
abbrev main_call13_call0_v90 : Ref sig .tc := ⟨.hbm, 3646, rfl⟩
abbrev main_call13_call0_c_23 : Ref sig .tc := ⟨.hbm, 3647, rfl⟩
abbrev main_call13_call0_v91 : Ref sig .tc := ⟨.hbm, 3648, rfl⟩
abbrev main_call13_call0_v92 : Ref sig .tc := ⟨.hbm, 3649, rfl⟩
abbrev main_call13_call0_v93 : Ref sig .tc := ⟨.hbm, 3650, rfl⟩
abbrev main_call13_call0_v94 : Ref sig .tc := ⟨.hbm, 3651, rfl⟩
abbrev main_call13_call0_v95 : Ref sig .tc := ⟨.hbm, 3652, rfl⟩
abbrev main_call13_call0_c_24 : Ref sig .tc := ⟨.hbm, 3653, rfl⟩
abbrev main_call13_call0_v96 : Ref sig .tc := ⟨.hbm, 3654, rfl⟩
abbrev main_call13_call0_v97 : Ref sig .tc := ⟨.hbm, 3655, rfl⟩
abbrev main_call13_call0_c_25 : Ref sig .tc := ⟨.hbm, 3656, rfl⟩
abbrev main_call13_call0_v98 : Ref sig .tc := ⟨.hbm, 3657, rfl⟩
abbrev main_call13_call0_v99 : Ref sig .tc := ⟨.hbm, 3658, rfl⟩
abbrev main_call13_call0_v100 : Ref sig .tc := ⟨.hbm, 3659, rfl⟩
abbrev main_call13_call0_v101 : Ref sig .tc := ⟨.hbm, 3660, rfl⟩
abbrev main_call13_call0_v102 : Ref sig .tc := ⟨.hbm, 3661, rfl⟩
abbrev main_call13_call0_v103 : Ref sig .tc := ⟨.hbm, 3662, rfl⟩
abbrev main_call13_call0_v104 : Ref sig .tc := ⟨.hbm, 3663, rfl⟩
abbrev main_call13_call0_v105 : Ref sig .tc := ⟨.hbm, 3664, rfl⟩
abbrev main_call13_call0_c_26 : Ref sig .tc := ⟨.hbm, 3665, rfl⟩
abbrev main_call13_call0_v106 : Ref sig .tc := ⟨.hbm, 3666, rfl⟩
abbrev main_call13_call0_v107 : Ref sig .tc := ⟨.hbm, 3667, rfl⟩
abbrev main_call13_call0_v108 : Ref sig .tc := ⟨.hbm, 3668, rfl⟩
abbrev main_call13_call0_c_27 : Ref sig .tc := ⟨.hbm, 3669, rfl⟩
abbrev main_call13_call0_v109 : Ref sig .tc := ⟨.hbm, 3670, rfl⟩
abbrev main_call13_call0_v110 : Ref sig .tc := ⟨.hbm, 3671, rfl⟩
abbrev main_call13_call0_c_28 : Ref sig .tc := ⟨.hbm, 3672, rfl⟩
abbrev main_call13_call0_v111 : Ref sig .tc := ⟨.hbm, 3673, rfl⟩
abbrev main_call13_call0_v112 : Ref sig .tc := ⟨.hbm, 3674, rfl⟩
abbrev main_call13_call0_v113 : Ref sig .tc := ⟨.hbm, 3675, rfl⟩
abbrev main_call13_call0_v114 : Ref sig .tc := ⟨.hbm, 3676, rfl⟩
abbrev main_call13_call0_v115 : Ref sig .tc := ⟨.hbm, 3677, rfl⟩
abbrev main_call13_call0_c_29 : Ref sig .tc := ⟨.hbm, 3678, rfl⟩
abbrev main_call13_call0_v116 : Ref sig .tc := ⟨.hbm, 3679, rfl⟩
abbrev main_call13_call0_v117 : Ref sig .tc := ⟨.hbm, 3680, rfl⟩
abbrev main_call13_call0_c_30 : Ref sig .tc := ⟨.hbm, 3681, rfl⟩
abbrev main_call13_call0_v118 : Ref sig .tc := ⟨.hbm, 3682, rfl⟩
abbrev main_call13_call0_v119 : Ref sig .tc := ⟨.hbm, 3683, rfl⟩
abbrev main_call13_call0_v120 : Ref sig .tc := ⟨.hbm, 3684, rfl⟩
abbrev main_call13_call0_v121 : Ref sig .tc := ⟨.hbm, 3685, rfl⟩
abbrev main_call13_call0_v122 : Ref sig .tc := ⟨.hbm, 3686, rfl⟩
abbrev main_call13_call0_c_31 : Ref sig .tc := ⟨.hbm, 3687, rfl⟩
abbrev main_call13_call0_v123 : Ref sig .tc := ⟨.hbm, 3688, rfl⟩
abbrev main_call13_call0_v124 : Ref sig .tc := ⟨.hbm, 3689, rfl⟩
abbrev main_call13_call0_c_32 : Ref sig .tc := ⟨.hbm, 3690, rfl⟩
abbrev main_call13_call0_v125 : Ref sig .tc := ⟨.hbm, 3691, rfl⟩
abbrev main_call13_call0_v126 : Ref sig .tc := ⟨.hbm, 3692, rfl⟩
abbrev main_call13_call0_v127 : Ref sig .tc := ⟨.hbm, 3693, rfl⟩
abbrev main_call13_call0_v128 : Ref sig .tc := ⟨.hbm, 3694, rfl⟩
abbrev main_call13_call0_v129 : Ref sig .tc := ⟨.hbm, 3695, rfl⟩
abbrev main_call13_call0_c_33 : Ref sig .tc := ⟨.hbm, 3696, rfl⟩
abbrev main_call13_call0_v130 : Ref sig .tc := ⟨.hbm, 3697, rfl⟩
abbrev main_call13_call0_v131 : Ref sig .tc := ⟨.hbm, 3698, rfl⟩
abbrev main_call13_call0_c_34 : Ref sig .tc := ⟨.hbm, 3699, rfl⟩
abbrev main_call13_call0_v132 : Ref sig .tc := ⟨.hbm, 3700, rfl⟩
abbrev main_call13_call0_v133 : Ref sig .tc := ⟨.hbm, 3701, rfl⟩
abbrev main_call13_call0_v134 : Ref sig .tc := ⟨.hbm, 3702, rfl⟩
abbrev main_call13_call0_v135 : Ref sig .tc := ⟨.hbm, 3703, rfl⟩
abbrev main_call13_call0_v136 : Ref sig .tc := ⟨.hbm, 3704, rfl⟩
abbrev main_call13_call0_v137 : Ref sig .tc := ⟨.hbm, 3705, rfl⟩
abbrev main_call13_call0_v138 : Ref sig .tc := ⟨.hbm, 3706, rfl⟩
abbrev main_call13_call0_v139 : Ref sig .tc := ⟨.hbm, 3707, rfl⟩
abbrev main_call13_call0_c_35 : Ref sig .tc := ⟨.hbm, 3708, rfl⟩
abbrev main_call13_call0_v140 : Ref sig .tc := ⟨.hbm, 3709, rfl⟩
abbrev main_call13_call0_v141 : Ref sig .tc := ⟨.hbm, 3710, rfl⟩
abbrev main_call13_call0_v142 : Ref sig .tc := ⟨.hbm, 3711, rfl⟩
abbrev main_call13_call0_c_36 : Ref sig .tc := ⟨.hbm, 3712, rfl⟩
abbrev main_call13_call0_v143 : Ref sig .tc := ⟨.hbm, 3713, rfl⟩
abbrev main_call13_call0_v144 : Ref sig .tc := ⟨.hbm, 3714, rfl⟩
abbrev main_call13_call0_c_37 : Ref sig .tc := ⟨.hbm, 3715, rfl⟩
abbrev main_call13_call0_v145 : Ref sig .tc := ⟨.hbm, 3716, rfl⟩
abbrev main_call13_call0_v146 : Ref sig .tc := ⟨.hbm, 3717, rfl⟩
abbrev main_call13_call0_v147 : Ref sig .tc := ⟨.hbm, 3718, rfl⟩
abbrev main_call13_call0_v148 : Ref sig .tc := ⟨.hbm, 3719, rfl⟩
abbrev main_call13_call0_v149 : Ref sig .tc := ⟨.hbm, 3720, rfl⟩
abbrev main_call13_call0_c_38 : Ref sig .tc := ⟨.hbm, 3721, rfl⟩
abbrev main_call13_call0_v150 : Ref sig .tc := ⟨.hbm, 3722, rfl⟩
abbrev main_call13_call0_v151 : Ref sig .tc := ⟨.hbm, 3723, rfl⟩
abbrev main_call13_call0_c_39 : Ref sig .tc := ⟨.hbm, 3724, rfl⟩
abbrev main_call13_call0_v152 : Ref sig .tc := ⟨.hbm, 3725, rfl⟩
abbrev main_call13_call0_v153 : Ref sig .tc := ⟨.hbm, 3726, rfl⟩
abbrev main_call13_call0_v154 : Ref sig .tc := ⟨.hbm, 3727, rfl⟩
abbrev main_call13_call0_v155 : Ref sig .tc := ⟨.hbm, 3728, rfl⟩
abbrev main_call13_call0_v156 : Ref sig .tc := ⟨.hbm, 3729, rfl⟩
abbrev main_call13_call0_c_40 : Ref sig .tc := ⟨.hbm, 3730, rfl⟩
abbrev main_call13_call0_v157 : Ref sig .tc := ⟨.hbm, 3731, rfl⟩
abbrev main_call13_call0_v158 : Ref sig .tc := ⟨.hbm, 3732, rfl⟩
abbrev main_call13_call0_c_41 : Ref sig .tc := ⟨.hbm, 3733, rfl⟩
abbrev main_call13_call0_v159 : Ref sig .tc := ⟨.hbm, 3734, rfl⟩
abbrev main_call13_call0_v160 : Ref sig .tc := ⟨.hbm, 3735, rfl⟩
abbrev main_call13_call0_v161 : Ref sig .tc := ⟨.hbm, 3736, rfl⟩
abbrev main_call13_call0_v162 : Ref sig .tc := ⟨.hbm, 3737, rfl⟩
abbrev main_call13_call0_v163 : Ref sig .tc := ⟨.hbm, 3738, rfl⟩
abbrev main_call13_call0_c_42 : Ref sig .tc := ⟨.hbm, 3739, rfl⟩
abbrev main_call13_call0_v164 : Ref sig .tc := ⟨.hbm, 3740, rfl⟩
abbrev main_call13_call0_v165 : Ref sig .tc := ⟨.hbm, 3741, rfl⟩
abbrev main_call13_call0_c_43 : Ref sig .tc := ⟨.hbm, 3742, rfl⟩
abbrev main_call13_call0_v166 : Ref sig .tc := ⟨.hbm, 3743, rfl⟩
abbrev main_call13_call0_v167 : Ref sig .tc := ⟨.hbm, 3744, rfl⟩
abbrev main_call13_call0_v168 : Ref sig .tc := ⟨.hbm, 3745, rfl⟩
abbrev main_call13_call0_v169 : Ref sig .tc := ⟨.hbm, 3746, rfl⟩
abbrev main_call13_call0_v170 : Ref sig .tc := ⟨.hbm, 3747, rfl⟩
abbrev main_call13_v15_0 : Ref sig .tc := ⟨.hbm, 3748, rfl⟩
abbrev main_call13_call0_v172 : Ref sig .tc := ⟨.hbm, 3749, rfl⟩
abbrev main_call13_call0_v173 : Ref sig .tc := ⟨.hbm, 3750, rfl⟩
abbrev main_call13_call0_c_44 : Ref sig .tc := ⟨.hbm, 3751, rfl⟩
abbrev main_call13_call0_v174 : Ref sig .tc := ⟨.hbm, 3752, rfl⟩
abbrev main_call13_v15_1 : Ref sig .tc := ⟨.hbm, 3753, rfl⟩
abbrev main_call13_v16 : Ref sig .tc := ⟨.hbm, 3754, rfl⟩
abbrev main_call13_c_1 : Ref sig .tc := ⟨.hbm, 3755, rfl⟩
abbrev main_call13_v17 : Ref sig .tc := ⟨.hbm, 3756, rfl⟩
abbrev main_call13_v18 : Ref sig .tc := ⟨.hbm, 3757, rfl⟩
abbrev main_call13_c_2 : Ref sig .tc := ⟨.hbm, 3758, rfl⟩
abbrev main_call13_v19 : Ref sig .tc := ⟨.hbm, 3759, rfl⟩
abbrev main_call13_v20 : Ref sig .tc := ⟨.hbm, 3760, rfl⟩
abbrev main_call13_v21 : Ref sig .tc := ⟨.hbm, 3761, rfl⟩
abbrev main_call13_cst : Ref sig .tc := ⟨.hbm, 3762, rfl⟩
abbrev main_call13_v22 : Ref sig .tc := ⟨.hbm, 3763, rfl⟩
abbrev main_call13_v23 : Ref sig .tc := ⟨.hbm, 3764, rfl⟩
abbrev main_call13_v24 : Ref sig .tc := ⟨.hbm, 3765, rfl⟩
abbrev main_call13_v25 : Ref sig .tc := ⟨.hbm, 3766, rfl⟩
abbrev main_call13_v26 : Ref sig .tc := ⟨.hbm, 3767, rfl⟩
abbrev main_call13_v27 : Ref sig .tc := ⟨.hbm, 3768, rfl⟩
abbrev main_call13_v28 : Ref sig .tc := ⟨.hbm, 3769, rfl⟩
abbrev main_call13_v29 : Ref sig .tc := ⟨.hbm, 3770, rfl⟩
abbrev main_v248 : Ref sig .tc := ⟨.hbm, 3771, rfl⟩
abbrev main_v249 : Ref sig .tc := ⟨.hbm, 3772, rfl⟩
abbrev main_v250 : Ref sig .tc := ⟨.hbm, 3773, rfl⟩
abbrev main_cst_68 : Ref sig .tc := ⟨.hbm, 3774, rfl⟩
abbrev main_v251 : Ref sig .tc := ⟨.hbm, 3775, rfl⟩
abbrev main_v252 : Ref sig .tc := ⟨.hbm, 3776, rfl⟩
abbrev main_cst_69 : Ref sig .tc := ⟨.hbm, 3777, rfl⟩
abbrev main_v253 : Ref sig .tc := ⟨.hbm, 3778, rfl⟩
abbrev main_v254 : Ref sig .tc := ⟨.hbm, 3779, rfl⟩
abbrev main_v255 : Ref sig .tc := ⟨.hbm, 3780, rfl⟩
abbrev main_v256 : Ref sig .tc := ⟨.hbm, 3781, rfl⟩
abbrev main_v257 : Ref sig .tc := ⟨.hbm, 3782, rfl⟩
abbrev main_v258 : Ref sig .tc := ⟨.hbm, 3783, rfl⟩
abbrev main_v259 : Ref sig .tc := ⟨.hbm, 3784, rfl⟩
abbrev main_v260 : Ref sig .tc := ⟨.hbm, 3785, rfl⟩
abbrev main_cst_70 : Ref sig .tc := ⟨.hbm, 3786, rfl⟩
abbrev main_v261 : Ref sig .tc := ⟨.hbm, 3787, rfl⟩
abbrev main_v262 : Ref sig .tc := ⟨.hbm, 3788, rfl⟩
abbrev main_v263 : Ref sig .tc := ⟨.hbm, 3789, rfl⟩
abbrev main_v264 : Ref sig .tc := ⟨.hbm, 3790, rfl⟩
abbrev main_v265 : Ref sig .tc := ⟨.hbm, 3791, rfl⟩
abbrev main_v266 : Ref sig .tc := ⟨.hbm, 3792, rfl⟩
abbrev main_cst_71 : Ref sig .tc := ⟨.hbm, 3793, rfl⟩
abbrev main_v267 : Ref sig .tc := ⟨.hbm, 3794, rfl⟩
abbrev main_c_72 : Ref sig .tc := ⟨.hbm, 3795, rfl⟩
abbrev main_v268 : Ref sig .tc := ⟨.hbm, 3796, rfl⟩
abbrev main_cst_73 : Ref sig .tc := ⟨.hbm, 3797, rfl⟩
abbrev main_v269 : Ref sig .tc := ⟨.hbm, 3798, rfl⟩
abbrev main_v270 : Ref sig .tc := ⟨.hbm, 3799, rfl⟩
abbrev main_cst_74 : Ref sig .tc := ⟨.hbm, 3800, rfl⟩
abbrev main_v271 : Ref sig .tc := ⟨.hbm, 3801, rfl⟩
abbrev main_v272 : Ref sig .tc := ⟨.hbm, 3802, rfl⟩
abbrev main_v273 : Ref sig .tc := ⟨.hbm, 3803, rfl⟩
abbrev main_cst_75 : Ref sig .tc := ⟨.hbm, 3804, rfl⟩
abbrev main_v274 : Ref sig .tc := ⟨.hbm, 3805, rfl⟩
abbrev main_v275 : Ref sig .tc := ⟨.hbm, 3806, rfl⟩
abbrev main_v276 : Ref sig .tc := ⟨.hbm, 3807, rfl⟩
abbrev main_v277 : Ref sig .tc := ⟨.hbm, 3808, rfl⟩
abbrev main_v278 : Ref sig .tc := ⟨.hbm, 3809, rfl⟩
abbrev main_v279 : Ref sig .tc := ⟨.hbm, 3810, rfl⟩
abbrev main_call14_v0 : Ref sig .tc := ⟨.hbm, 3811, rfl⟩
abbrev main_call14_v1 : Ref sig .tc := ⟨.hbm, 3812, rfl⟩
abbrev main_call14_v2 : Ref sig .tc := ⟨.hbm, 3813, rfl⟩
abbrev main_call14_v3 : Ref sig .tc := ⟨.hbm, 3814, rfl⟩
abbrev main_call14_v4 : Ref sig .tc := ⟨.hbm, 3815, rfl⟩
abbrev main_call14_c : Ref sig .tc := ⟨.hbm, 3816, rfl⟩
abbrev main_call14_v5 : Ref sig .tc := ⟨.hbm, 3817, rfl⟩
abbrev main_call14_v6 : Ref sig .tc := ⟨.hbm, 3818, rfl⟩
abbrev main_call14_c_0 : Ref sig .tc := ⟨.hbm, 3819, rfl⟩
abbrev main_call14_v7 : Ref sig .tc := ⟨.hbm, 3820, rfl⟩
abbrev main_call14_v8 : Ref sig .tc := ⟨.hbm, 3821, rfl⟩
abbrev main_call14_v9 : Ref sig .tc := ⟨.hbm, 3822, rfl⟩
abbrev main_call14_v10 : Ref sig .tc := ⟨.hbm, 3823, rfl⟩
abbrev main_call14_call0_v0 : Ref sig .tc := ⟨.hbm, 3824, rfl⟩
abbrev main_call14_call0_c : Ref sig .tc := ⟨.hbm, 3825, rfl⟩
abbrev main_call14_call0_v1 : Ref sig .tc := ⟨.hbm, 3826, rfl⟩
abbrev main_call14_call0_v2 : Ref sig .tc := ⟨.hbm, 3827, rfl⟩
abbrev main_call14_call0_v3 : Ref sig .tc := ⟨.hbm, 3828, rfl⟩
abbrev main_call14_call0_v4 : Ref sig .tc := ⟨.hbm, 3829, rfl⟩
abbrev main_call14_call0_v5 : Ref sig .tc := ⟨.hbm, 3830, rfl⟩
abbrev main_call14_call0_v6 : Ref sig .tc := ⟨.hbm, 3831, rfl⟩
abbrev main_call14_call0_c_0 : Ref sig .tc := ⟨.hbm, 3832, rfl⟩
abbrev main_call14_call0_v7 : Ref sig .tc := ⟨.hbm, 3833, rfl⟩
abbrev main_call14_call0_v8 : Ref sig .tc := ⟨.hbm, 3834, rfl⟩
abbrev main_call14_call0_c_1 : Ref sig .tc := ⟨.hbm, 3835, rfl⟩
abbrev main_call14_call0_v9 : Ref sig .tc := ⟨.hbm, 3836, rfl⟩
abbrev main_call14_call0_v10 : Ref sig .tc := ⟨.hbm, 3837, rfl⟩
abbrev main_call14_call0_v11 : Ref sig .tc := ⟨.hbm, 3838, rfl⟩
abbrev main_call14_call0_v12 : Ref sig .tc := ⟨.hbm, 3839, rfl⟩
abbrev main_call14_call0_v13 : Ref sig .tc := ⟨.hbm, 3840, rfl⟩
abbrev main_call14_call0_c_2 : Ref sig .tc := ⟨.hbm, 3841, rfl⟩
abbrev main_call14_call0_v14 : Ref sig .tc := ⟨.hbm, 3842, rfl⟩
abbrev main_call14_call0_v15 : Ref sig .tc := ⟨.hbm, 3843, rfl⟩
abbrev main_call14_call0_c_3 : Ref sig .tc := ⟨.hbm, 3844, rfl⟩
abbrev main_call14_call0_v16 : Ref sig .tc := ⟨.hbm, 3845, rfl⟩
abbrev main_call14_call0_v17 : Ref sig .tc := ⟨.hbm, 3846, rfl⟩
abbrev main_call14_call0_v18 : Ref sig .tc := ⟨.hbm, 3847, rfl⟩
abbrev main_call14_call0_v19 : Ref sig .tc := ⟨.hbm, 3848, rfl⟩
abbrev main_call14_call0_v20 : Ref sig .tc := ⟨.hbm, 3849, rfl⟩
abbrev main_call14_call0_c_4 : Ref sig .tc := ⟨.hbm, 3850, rfl⟩
abbrev main_call14_call0_v21 : Ref sig .tc := ⟨.hbm, 3851, rfl⟩
abbrev main_call14_call0_v22 : Ref sig .tc := ⟨.hbm, 3852, rfl⟩
abbrev main_call14_call0_c_5 : Ref sig .tc := ⟨.hbm, 3853, rfl⟩
abbrev main_call14_call0_v23 : Ref sig .tc := ⟨.hbm, 3854, rfl⟩
abbrev main_call14_call0_v24 : Ref sig .tc := ⟨.hbm, 3855, rfl⟩
abbrev main_call14_call0_v25 : Ref sig .tc := ⟨.hbm, 3856, rfl⟩
abbrev main_call14_call0_v26 : Ref sig .tc := ⟨.hbm, 3857, rfl⟩
abbrev main_call14_call0_v27 : Ref sig .tc := ⟨.hbm, 3858, rfl⟩
abbrev main_call14_call0_c_6 : Ref sig .tc := ⟨.hbm, 3859, rfl⟩
abbrev main_call14_call0_v28 : Ref sig .tc := ⟨.hbm, 3860, rfl⟩
abbrev main_call14_call0_v29 : Ref sig .tc := ⟨.hbm, 3861, rfl⟩
abbrev main_call14_call0_c_7 : Ref sig .tc := ⟨.hbm, 3862, rfl⟩
abbrev main_call14_call0_v30 : Ref sig .tc := ⟨.hbm, 3863, rfl⟩
abbrev main_call14_call0_v31 : Ref sig .tc := ⟨.hbm, 3864, rfl⟩
abbrev main_call14_call0_v32 : Ref sig .tc := ⟨.hbm, 3865, rfl⟩
abbrev main_call14_call0_v33 : Ref sig .tc := ⟨.hbm, 3866, rfl⟩
abbrev main_call14_call0_v34 : Ref sig .tc := ⟨.hbm, 3867, rfl⟩
abbrev main_call14_call0_v35 : Ref sig .tc := ⟨.hbm, 3868, rfl⟩
abbrev main_call14_call0_v36 : Ref sig .tc := ⟨.hbm, 3869, rfl⟩
abbrev main_call14_call0_v37 : Ref sig .tc := ⟨.hbm, 3870, rfl⟩
abbrev main_call14_call0_c_8 : Ref sig .tc := ⟨.hbm, 3871, rfl⟩
abbrev main_call14_call0_v38 : Ref sig .tc := ⟨.hbm, 3872, rfl⟩
abbrev main_call14_call0_v39 : Ref sig .tc := ⟨.hbm, 3873, rfl⟩
abbrev main_call14_call0_v40 : Ref sig .tc := ⟨.hbm, 3874, rfl⟩
abbrev main_call14_call0_c_9 : Ref sig .tc := ⟨.hbm, 3875, rfl⟩
abbrev main_call14_call0_v41 : Ref sig .tc := ⟨.hbm, 3876, rfl⟩
abbrev main_call14_call0_v42 : Ref sig .tc := ⟨.hbm, 3877, rfl⟩
abbrev main_call14_call0_c_10 : Ref sig .tc := ⟨.hbm, 3878, rfl⟩
abbrev main_call14_call0_v43 : Ref sig .tc := ⟨.hbm, 3879, rfl⟩
abbrev main_call14_call0_v44 : Ref sig .tc := ⟨.hbm, 3880, rfl⟩
abbrev main_call14_call0_v45 : Ref sig .tc := ⟨.hbm, 3881, rfl⟩
abbrev main_call14_call0_v46 : Ref sig .tc := ⟨.hbm, 3882, rfl⟩
abbrev main_call14_call0_v47 : Ref sig .tc := ⟨.hbm, 3883, rfl⟩
abbrev main_call14_call0_c_11 : Ref sig .tc := ⟨.hbm, 3884, rfl⟩
abbrev main_call14_call0_v48 : Ref sig .tc := ⟨.hbm, 3885, rfl⟩
abbrev main_call14_call0_v49 : Ref sig .tc := ⟨.hbm, 3886, rfl⟩
abbrev main_call14_call0_c_12 : Ref sig .tc := ⟨.hbm, 3887, rfl⟩
abbrev main_call14_call0_v50 : Ref sig .tc := ⟨.hbm, 3888, rfl⟩
abbrev main_call14_call0_v51 : Ref sig .tc := ⟨.hbm, 3889, rfl⟩
abbrev main_call14_call0_v52 : Ref sig .tc := ⟨.hbm, 3890, rfl⟩
abbrev main_call14_call0_v53 : Ref sig .tc := ⟨.hbm, 3891, rfl⟩
abbrev main_call14_call0_v54 : Ref sig .tc := ⟨.hbm, 3892, rfl⟩
abbrev main_call14_call0_c_13 : Ref sig .tc := ⟨.hbm, 3893, rfl⟩
abbrev main_call14_call0_v55 : Ref sig .tc := ⟨.hbm, 3894, rfl⟩
abbrev main_call14_call0_v56 : Ref sig .tc := ⟨.hbm, 3895, rfl⟩
abbrev main_call14_call0_c_14 : Ref sig .tc := ⟨.hbm, 3896, rfl⟩
abbrev main_call14_call0_v57 : Ref sig .tc := ⟨.hbm, 3897, rfl⟩
abbrev main_call14_call0_v58 : Ref sig .tc := ⟨.hbm, 3898, rfl⟩
abbrev main_call14_call0_v59 : Ref sig .tc := ⟨.hbm, 3899, rfl⟩
abbrev main_call14_call0_v60 : Ref sig .tc := ⟨.hbm, 3900, rfl⟩
abbrev main_call14_call0_v61 : Ref sig .tc := ⟨.hbm, 3901, rfl⟩
abbrev main_call14_call0_c_15 : Ref sig .tc := ⟨.hbm, 3902, rfl⟩
abbrev main_call14_call0_v62 : Ref sig .tc := ⟨.hbm, 3903, rfl⟩
abbrev main_call14_call0_v63 : Ref sig .tc := ⟨.hbm, 3904, rfl⟩
abbrev main_call14_call0_c_16 : Ref sig .tc := ⟨.hbm, 3905, rfl⟩
abbrev main_call14_call0_v64 : Ref sig .tc := ⟨.hbm, 3906, rfl⟩
abbrev main_call14_call0_v65 : Ref sig .tc := ⟨.hbm, 3907, rfl⟩
abbrev main_call14_call0_v66 : Ref sig .tc := ⟨.hbm, 3908, rfl⟩
abbrev main_call14_call0_v67 : Ref sig .tc := ⟨.hbm, 3909, rfl⟩
abbrev main_call14_call0_v68 : Ref sig .tc := ⟨.hbm, 3910, rfl⟩
abbrev main_call14_call0_v69 : Ref sig .tc := ⟨.hbm, 3911, rfl⟩
abbrev main_call14_call0_v70 : Ref sig .tc := ⟨.hbm, 3912, rfl⟩
abbrev main_call14_call0_v71 : Ref sig .tc := ⟨.hbm, 3913, rfl⟩
abbrev main_call14_call0_c_17 : Ref sig .tc := ⟨.hbm, 3914, rfl⟩
abbrev main_call14_call0_v72 : Ref sig .tc := ⟨.hbm, 3915, rfl⟩
abbrev main_call14_call0_v73 : Ref sig .tc := ⟨.hbm, 3916, rfl⟩
abbrev main_call14_call0_v74 : Ref sig .tc := ⟨.hbm, 3917, rfl⟩
abbrev main_call14_call0_c_18 : Ref sig .tc := ⟨.hbm, 3918, rfl⟩
abbrev main_call14_call0_v75 : Ref sig .tc := ⟨.hbm, 3919, rfl⟩
abbrev main_call14_call0_v76 : Ref sig .tc := ⟨.hbm, 3920, rfl⟩
abbrev main_call14_call0_c_19 : Ref sig .tc := ⟨.hbm, 3921, rfl⟩
abbrev main_call14_call0_v77 : Ref sig .tc := ⟨.hbm, 3922, rfl⟩
abbrev main_call14_call0_v78 : Ref sig .tc := ⟨.hbm, 3923, rfl⟩
abbrev main_call14_call0_v79 : Ref sig .tc := ⟨.hbm, 3924, rfl⟩
abbrev main_call14_call0_v80 : Ref sig .tc := ⟨.hbm, 3925, rfl⟩
abbrev main_call14_call0_v81 : Ref sig .tc := ⟨.hbm, 3926, rfl⟩
abbrev main_call14_call0_c_20 : Ref sig .tc := ⟨.hbm, 3927, rfl⟩
abbrev main_call14_call0_v82 : Ref sig .tc := ⟨.hbm, 3928, rfl⟩
abbrev main_call14_call0_v83 : Ref sig .tc := ⟨.hbm, 3929, rfl⟩
abbrev main_call14_call0_c_21 : Ref sig .tc := ⟨.hbm, 3930, rfl⟩
abbrev main_call14_call0_v84 : Ref sig .tc := ⟨.hbm, 3931, rfl⟩
abbrev main_call14_call0_v85 : Ref sig .tc := ⟨.hbm, 3932, rfl⟩
abbrev main_call14_call0_v86 : Ref sig .tc := ⟨.hbm, 3933, rfl⟩
abbrev main_call14_call0_v87 : Ref sig .tc := ⟨.hbm, 3934, rfl⟩
abbrev main_call14_call0_v88 : Ref sig .tc := ⟨.hbm, 3935, rfl⟩
abbrev main_call14_call0_c_22 : Ref sig .tc := ⟨.hbm, 3936, rfl⟩
abbrev main_call14_call0_v89 : Ref sig .tc := ⟨.hbm, 3937, rfl⟩
abbrev main_call14_call0_v90 : Ref sig .tc := ⟨.hbm, 3938, rfl⟩
abbrev main_call14_call0_c_23 : Ref sig .tc := ⟨.hbm, 3939, rfl⟩
abbrev main_call14_call0_v91 : Ref sig .tc := ⟨.hbm, 3940, rfl⟩
abbrev main_call14_call0_v92 : Ref sig .tc := ⟨.hbm, 3941, rfl⟩
abbrev main_call14_call0_v93 : Ref sig .tc := ⟨.hbm, 3942, rfl⟩
abbrev main_call14_call0_v94 : Ref sig .tc := ⟨.hbm, 3943, rfl⟩
abbrev main_call14_call0_v95 : Ref sig .tc := ⟨.hbm, 3944, rfl⟩
abbrev main_call14_call0_c_24 : Ref sig .tc := ⟨.hbm, 3945, rfl⟩
abbrev main_call14_call0_v96 : Ref sig .tc := ⟨.hbm, 3946, rfl⟩
abbrev main_call14_call0_v97 : Ref sig .tc := ⟨.hbm, 3947, rfl⟩
abbrev main_call14_call0_c_25 : Ref sig .tc := ⟨.hbm, 3948, rfl⟩
abbrev main_call14_call0_v98 : Ref sig .tc := ⟨.hbm, 3949, rfl⟩
abbrev main_call14_call0_v99 : Ref sig .tc := ⟨.hbm, 3950, rfl⟩
abbrev main_call14_call0_v100 : Ref sig .tc := ⟨.hbm, 3951, rfl⟩
abbrev main_call14_call0_v101 : Ref sig .tc := ⟨.hbm, 3952, rfl⟩
abbrev main_call14_call0_v102 : Ref sig .tc := ⟨.hbm, 3953, rfl⟩
abbrev main_call14_call0_v103 : Ref sig .tc := ⟨.hbm, 3954, rfl⟩
abbrev main_call14_call0_v104 : Ref sig .tc := ⟨.hbm, 3955, rfl⟩
abbrev main_call14_call0_v105 : Ref sig .tc := ⟨.hbm, 3956, rfl⟩
abbrev main_call14_call0_c_26 : Ref sig .tc := ⟨.hbm, 3957, rfl⟩
abbrev main_call14_call0_v106 : Ref sig .tc := ⟨.hbm, 3958, rfl⟩
abbrev main_call14_call0_v107 : Ref sig .tc := ⟨.hbm, 3959, rfl⟩
abbrev main_call14_call0_v108 : Ref sig .tc := ⟨.hbm, 3960, rfl⟩
abbrev main_call14_call0_c_27 : Ref sig .tc := ⟨.hbm, 3961, rfl⟩
abbrev main_call14_call0_v109 : Ref sig .tc := ⟨.hbm, 3962, rfl⟩
abbrev main_call14_call0_v110 : Ref sig .tc := ⟨.hbm, 3963, rfl⟩
abbrev main_call14_call0_c_28 : Ref sig .tc := ⟨.hbm, 3964, rfl⟩
abbrev main_call14_call0_v111 : Ref sig .tc := ⟨.hbm, 3965, rfl⟩
abbrev main_call14_call0_v112 : Ref sig .tc := ⟨.hbm, 3966, rfl⟩
abbrev main_call14_call0_v113 : Ref sig .tc := ⟨.hbm, 3967, rfl⟩
abbrev main_call14_call0_v114 : Ref sig .tc := ⟨.hbm, 3968, rfl⟩
abbrev main_call14_call0_v115 : Ref sig .tc := ⟨.hbm, 3969, rfl⟩
abbrev main_call14_call0_c_29 : Ref sig .tc := ⟨.hbm, 3970, rfl⟩
abbrev main_call14_call0_v116 : Ref sig .tc := ⟨.hbm, 3971, rfl⟩
abbrev main_call14_call0_v117 : Ref sig .tc := ⟨.hbm, 3972, rfl⟩
abbrev main_call14_call0_c_30 : Ref sig .tc := ⟨.hbm, 3973, rfl⟩
abbrev main_call14_call0_v118 : Ref sig .tc := ⟨.hbm, 3974, rfl⟩
abbrev main_call14_call0_v119 : Ref sig .tc := ⟨.hbm, 3975, rfl⟩
abbrev main_call14_call0_v120 : Ref sig .tc := ⟨.hbm, 3976, rfl⟩
abbrev main_call14_call0_v121 : Ref sig .tc := ⟨.hbm, 3977, rfl⟩
abbrev main_call14_call0_v122 : Ref sig .tc := ⟨.hbm, 3978, rfl⟩
abbrev main_call14_call0_c_31 : Ref sig .tc := ⟨.hbm, 3979, rfl⟩
abbrev main_call14_call0_v123 : Ref sig .tc := ⟨.hbm, 3980, rfl⟩
abbrev main_call14_call0_v124 : Ref sig .tc := ⟨.hbm, 3981, rfl⟩
abbrev main_call14_call0_c_32 : Ref sig .tc := ⟨.hbm, 3982, rfl⟩
abbrev main_call14_call0_v125 : Ref sig .tc := ⟨.hbm, 3983, rfl⟩
abbrev main_call14_call0_v126 : Ref sig .tc := ⟨.hbm, 3984, rfl⟩
abbrev main_call14_call0_v127 : Ref sig .tc := ⟨.hbm, 3985, rfl⟩
abbrev main_call14_call0_v128 : Ref sig .tc := ⟨.hbm, 3986, rfl⟩
abbrev main_call14_call0_v129 : Ref sig .tc := ⟨.hbm, 3987, rfl⟩
abbrev main_call14_call0_c_33 : Ref sig .tc := ⟨.hbm, 3988, rfl⟩
abbrev main_call14_call0_v130 : Ref sig .tc := ⟨.hbm, 3989, rfl⟩
abbrev main_call14_call0_v131 : Ref sig .tc := ⟨.hbm, 3990, rfl⟩
abbrev main_call14_call0_c_34 : Ref sig .tc := ⟨.hbm, 3991, rfl⟩
abbrev main_call14_call0_v132 : Ref sig .tc := ⟨.hbm, 3992, rfl⟩
abbrev main_call14_call0_v133 : Ref sig .tc := ⟨.hbm, 3993, rfl⟩
abbrev main_call14_call0_v134 : Ref sig .tc := ⟨.hbm, 3994, rfl⟩
abbrev main_call14_call0_v135 : Ref sig .tc := ⟨.hbm, 3995, rfl⟩
abbrev main_call14_call0_v136 : Ref sig .tc := ⟨.hbm, 3996, rfl⟩
abbrev main_call14_call0_v137 : Ref sig .tc := ⟨.hbm, 3997, rfl⟩
abbrev main_call14_call0_v138 : Ref sig .tc := ⟨.hbm, 3998, rfl⟩
abbrev main_call14_call0_v139 : Ref sig .tc := ⟨.hbm, 3999, rfl⟩
abbrev main_call14_call0_c_35 : Ref sig .tc := ⟨.hbm, 4000, rfl⟩
abbrev main_call14_call0_v140 : Ref sig .tc := ⟨.hbm, 4001, rfl⟩
abbrev main_call14_call0_v141 : Ref sig .tc := ⟨.hbm, 4002, rfl⟩
abbrev main_call14_call0_v142 : Ref sig .tc := ⟨.hbm, 4003, rfl⟩
abbrev main_call14_call0_c_36 : Ref sig .tc := ⟨.hbm, 4004, rfl⟩
abbrev main_call14_call0_v143 : Ref sig .tc := ⟨.hbm, 4005, rfl⟩
abbrev main_call14_call0_v144 : Ref sig .tc := ⟨.hbm, 4006, rfl⟩
abbrev main_call14_call0_c_37 : Ref sig .tc := ⟨.hbm, 4007, rfl⟩
abbrev main_call14_call0_v145 : Ref sig .tc := ⟨.hbm, 4008, rfl⟩
abbrev main_call14_call0_v146 : Ref sig .tc := ⟨.hbm, 4009, rfl⟩
abbrev main_call14_call0_v147 : Ref sig .tc := ⟨.hbm, 4010, rfl⟩
abbrev main_call14_call0_v148 : Ref sig .tc := ⟨.hbm, 4011, rfl⟩
abbrev main_call14_call0_v149 : Ref sig .tc := ⟨.hbm, 4012, rfl⟩
abbrev main_call14_call0_c_38 : Ref sig .tc := ⟨.hbm, 4013, rfl⟩
abbrev main_call14_call0_v150 : Ref sig .tc := ⟨.hbm, 4014, rfl⟩
abbrev main_call14_call0_v151 : Ref sig .tc := ⟨.hbm, 4015, rfl⟩
abbrev main_call14_call0_c_39 : Ref sig .tc := ⟨.hbm, 4016, rfl⟩
abbrev main_call14_call0_v152 : Ref sig .tc := ⟨.hbm, 4017, rfl⟩
abbrev main_call14_call0_v153 : Ref sig .tc := ⟨.hbm, 4018, rfl⟩
abbrev main_call14_call0_v154 : Ref sig .tc := ⟨.hbm, 4019, rfl⟩
abbrev main_call14_call0_v155 : Ref sig .tc := ⟨.hbm, 4020, rfl⟩
abbrev main_call14_call0_v156 : Ref sig .tc := ⟨.hbm, 4021, rfl⟩
abbrev main_call14_call0_c_40 : Ref sig .tc := ⟨.hbm, 4022, rfl⟩
abbrev main_call14_call0_v157 : Ref sig .tc := ⟨.hbm, 4023, rfl⟩
abbrev main_call14_call0_v158 : Ref sig .tc := ⟨.hbm, 4024, rfl⟩
abbrev main_call14_call0_c_41 : Ref sig .tc := ⟨.hbm, 4025, rfl⟩
abbrev main_call14_call0_v159 : Ref sig .tc := ⟨.hbm, 4026, rfl⟩
abbrev main_call14_call0_v160 : Ref sig .tc := ⟨.hbm, 4027, rfl⟩
abbrev main_call14_call0_v161 : Ref sig .tc := ⟨.hbm, 4028, rfl⟩
abbrev main_call14_call0_v162 : Ref sig .tc := ⟨.hbm, 4029, rfl⟩
abbrev main_call14_call0_v163 : Ref sig .tc := ⟨.hbm, 4030, rfl⟩
abbrev main_call14_call0_c_42 : Ref sig .tc := ⟨.hbm, 4031, rfl⟩
abbrev main_call14_call0_v164 : Ref sig .tc := ⟨.hbm, 4032, rfl⟩
abbrev main_call14_call0_v165 : Ref sig .tc := ⟨.hbm, 4033, rfl⟩
abbrev main_call14_call0_c_43 : Ref sig .tc := ⟨.hbm, 4034, rfl⟩
abbrev main_call14_call0_v166 : Ref sig .tc := ⟨.hbm, 4035, rfl⟩
abbrev main_call14_call0_v167 : Ref sig .tc := ⟨.hbm, 4036, rfl⟩
abbrev main_call14_call0_v168 : Ref sig .tc := ⟨.hbm, 4037, rfl⟩
abbrev main_call14_call0_v169 : Ref sig .tc := ⟨.hbm, 4038, rfl⟩
abbrev main_call14_call0_v170 : Ref sig .tc := ⟨.hbm, 4039, rfl⟩
abbrev main_call14_v11_0 : Ref sig .tc := ⟨.hbm, 4040, rfl⟩
abbrev main_call14_call0_v172 : Ref sig .tc := ⟨.hbm, 4041, rfl⟩
abbrev main_call14_call0_v173 : Ref sig .tc := ⟨.hbm, 4042, rfl⟩
abbrev main_call14_call0_c_44 : Ref sig .tc := ⟨.hbm, 4043, rfl⟩
abbrev main_call14_call0_v174 : Ref sig .tc := ⟨.hbm, 4044, rfl⟩
abbrev main_call14_v11_1 : Ref sig .tc := ⟨.hbm, 4045, rfl⟩
abbrev main_call14_v12 : Ref sig .tc := ⟨.hbm, 4046, rfl⟩
abbrev main_call14_v13 : Ref sig .tc := ⟨.hbm, 4047, rfl⟩
abbrev main_v280 : Ref sig .tc := ⟨.hbm, 4048, rfl⟩
abbrev main_v281 : Ref sig .tc := ⟨.hbm, 4049, rfl⟩
abbrev main_v282 : Ref sig .tc := ⟨.hbm, 4050, rfl⟩
abbrev main_v283 : Ref sig .tc := ⟨.hbm, 4051, rfl⟩
abbrev main_v284 : Ref sig .tc := ⟨.hbm, 4052, rfl⟩
abbrev main_cst_76 : Ref sig .tc := ⟨.hbm, 4053, rfl⟩
abbrev main_cst_77 : Ref sig .tc := ⟨.hbm, 4054, rfl⟩
abbrev main_call15_v0 : Ref sig .tc := ⟨.hbm, 4055, rfl⟩
abbrev main_call15_v1 : Ref sig .tc := ⟨.hbm, 4056, rfl⟩
abbrev main_call15_v2 : Ref sig .tc := ⟨.hbm, 4057, rfl⟩
abbrev main_call15_v3 : Ref sig .tc := ⟨.hbm, 4058, rfl⟩
abbrev main_call15_v4 : Ref sig .tc := ⟨.hbm, 4059, rfl⟩
abbrev main_call15_v5 : Ref sig .tc := ⟨.hbm, 4060, rfl⟩
abbrev main_call15_v6 : Ref sig .tc := ⟨.hbm, 4061, rfl⟩
abbrev main_call15_v7 : Ref sig .tc := ⟨.hbm, 4062, rfl⟩
abbrev main_call15_v8 : Ref sig .tc := ⟨.hbm, 4063, rfl⟩
abbrev main_call15_c : Ref sig .tc := ⟨.hbm, 4064, rfl⟩
abbrev main_call15_v9 : Ref sig .tc := ⟨.hbm, 4065, rfl⟩
abbrev main_call15_v10 : Ref sig .tc := ⟨.hbm, 4066, rfl⟩
abbrev main_call15_c_0 : Ref sig .tc := ⟨.hbm, 4067, rfl⟩
abbrev main_call15_v11 : Ref sig .tc := ⟨.hbm, 4068, rfl⟩
abbrev main_call15_v12 : Ref sig .tc := ⟨.hbm, 4069, rfl⟩
abbrev main_call15_v13 : Ref sig .tc := ⟨.hbm, 4070, rfl⟩
abbrev main_call15_v14 : Ref sig .tc := ⟨.hbm, 4071, rfl⟩
abbrev main_call15_call0_v0 : Ref sig .tc := ⟨.hbm, 4072, rfl⟩
abbrev main_call15_call0_c : Ref sig .tc := ⟨.hbm, 4073, rfl⟩
abbrev main_call15_call0_v1 : Ref sig .tc := ⟨.hbm, 4074, rfl⟩
abbrev main_call15_call0_v2 : Ref sig .tc := ⟨.hbm, 4075, rfl⟩
abbrev main_call15_call0_v3 : Ref sig .tc := ⟨.hbm, 4076, rfl⟩
abbrev main_call15_call0_v4 : Ref sig .tc := ⟨.hbm, 4077, rfl⟩
abbrev main_call15_call0_v5 : Ref sig .tc := ⟨.hbm, 4078, rfl⟩
abbrev main_call15_call0_v6 : Ref sig .tc := ⟨.hbm, 4079, rfl⟩
abbrev main_call15_call0_c_0 : Ref sig .tc := ⟨.hbm, 4080, rfl⟩
abbrev main_call15_call0_v7 : Ref sig .tc := ⟨.hbm, 4081, rfl⟩
abbrev main_call15_call0_v8 : Ref sig .tc := ⟨.hbm, 4082, rfl⟩
abbrev main_call15_call0_c_1 : Ref sig .tc := ⟨.hbm, 4083, rfl⟩
abbrev main_call15_call0_v9 : Ref sig .tc := ⟨.hbm, 4084, rfl⟩
abbrev main_call15_call0_v10 : Ref sig .tc := ⟨.hbm, 4085, rfl⟩
abbrev main_call15_call0_v11 : Ref sig .tc := ⟨.hbm, 4086, rfl⟩
abbrev main_call15_call0_v12 : Ref sig .tc := ⟨.hbm, 4087, rfl⟩
abbrev main_call15_call0_v13 : Ref sig .tc := ⟨.hbm, 4088, rfl⟩
abbrev main_call15_call0_c_2 : Ref sig .tc := ⟨.hbm, 4089, rfl⟩
abbrev main_call15_call0_v14 : Ref sig .tc := ⟨.hbm, 4090, rfl⟩
abbrev main_call15_call0_v15 : Ref sig .tc := ⟨.hbm, 4091, rfl⟩
abbrev main_call15_call0_c_3 : Ref sig .tc := ⟨.hbm, 4092, rfl⟩
abbrev main_call15_call0_v16 : Ref sig .tc := ⟨.hbm, 4093, rfl⟩
abbrev main_call15_call0_v17 : Ref sig .tc := ⟨.hbm, 4094, rfl⟩
abbrev main_call15_call0_v18 : Ref sig .tc := ⟨.hbm, 4095, rfl⟩
abbrev main_call15_call0_v19 : Ref sig .tc := ⟨.hbm, 4096, rfl⟩
abbrev main_call15_call0_v20 : Ref sig .tc := ⟨.hbm, 4097, rfl⟩
abbrev main_call15_call0_c_4 : Ref sig .tc := ⟨.hbm, 4098, rfl⟩
abbrev main_call15_call0_v21 : Ref sig .tc := ⟨.hbm, 4099, rfl⟩
abbrev main_call15_call0_v22 : Ref sig .tc := ⟨.hbm, 4100, rfl⟩
abbrev main_call15_call0_c_5 : Ref sig .tc := ⟨.hbm, 4101, rfl⟩
abbrev main_call15_call0_v23 : Ref sig .tc := ⟨.hbm, 4102, rfl⟩
abbrev main_call15_call0_v24 : Ref sig .tc := ⟨.hbm, 4103, rfl⟩
abbrev main_call15_call0_v25 : Ref sig .tc := ⟨.hbm, 4104, rfl⟩
abbrev main_call15_call0_v26 : Ref sig .tc := ⟨.hbm, 4105, rfl⟩
abbrev main_call15_call0_v27 : Ref sig .tc := ⟨.hbm, 4106, rfl⟩
abbrev main_call15_call0_c_6 : Ref sig .tc := ⟨.hbm, 4107, rfl⟩
abbrev main_call15_call0_v28 : Ref sig .tc := ⟨.hbm, 4108, rfl⟩
abbrev main_call15_call0_v29 : Ref sig .tc := ⟨.hbm, 4109, rfl⟩
abbrev main_call15_call0_c_7 : Ref sig .tc := ⟨.hbm, 4110, rfl⟩
abbrev main_call15_call0_v30 : Ref sig .tc := ⟨.hbm, 4111, rfl⟩
abbrev main_call15_call0_v31 : Ref sig .tc := ⟨.hbm, 4112, rfl⟩
abbrev main_call15_call0_v32 : Ref sig .tc := ⟨.hbm, 4113, rfl⟩
abbrev main_call15_call0_v33 : Ref sig .tc := ⟨.hbm, 4114, rfl⟩
abbrev main_call15_call0_v34 : Ref sig .tc := ⟨.hbm, 4115, rfl⟩
abbrev main_call15_call0_v35 : Ref sig .tc := ⟨.hbm, 4116, rfl⟩
abbrev main_call15_call0_v36 : Ref sig .tc := ⟨.hbm, 4117, rfl⟩
abbrev main_call15_call0_v37 : Ref sig .tc := ⟨.hbm, 4118, rfl⟩
abbrev main_call15_call0_c_8 : Ref sig .tc := ⟨.hbm, 4119, rfl⟩
abbrev main_call15_call0_v38 : Ref sig .tc := ⟨.hbm, 4120, rfl⟩
abbrev main_call15_call0_v39 : Ref sig .tc := ⟨.hbm, 4121, rfl⟩
abbrev main_call15_call0_v40 : Ref sig .tc := ⟨.hbm, 4122, rfl⟩
abbrev main_call15_call0_c_9 : Ref sig .tc := ⟨.hbm, 4123, rfl⟩
abbrev main_call15_call0_v41 : Ref sig .tc := ⟨.hbm, 4124, rfl⟩
abbrev main_call15_call0_v42 : Ref sig .tc := ⟨.hbm, 4125, rfl⟩
abbrev main_call15_call0_c_10 : Ref sig .tc := ⟨.hbm, 4126, rfl⟩
abbrev main_call15_call0_v43 : Ref sig .tc := ⟨.hbm, 4127, rfl⟩
abbrev main_call15_call0_v44 : Ref sig .tc := ⟨.hbm, 4128, rfl⟩
abbrev main_call15_call0_v45 : Ref sig .tc := ⟨.hbm, 4129, rfl⟩
abbrev main_call15_call0_v46 : Ref sig .tc := ⟨.hbm, 4130, rfl⟩
abbrev main_call15_call0_v47 : Ref sig .tc := ⟨.hbm, 4131, rfl⟩
abbrev main_call15_call0_c_11 : Ref sig .tc := ⟨.hbm, 4132, rfl⟩
abbrev main_call15_call0_v48 : Ref sig .tc := ⟨.hbm, 4133, rfl⟩
abbrev main_call15_call0_v49 : Ref sig .tc := ⟨.hbm, 4134, rfl⟩
abbrev main_call15_call0_c_12 : Ref sig .tc := ⟨.hbm, 4135, rfl⟩
abbrev main_call15_call0_v50 : Ref sig .tc := ⟨.hbm, 4136, rfl⟩
abbrev main_call15_call0_v51 : Ref sig .tc := ⟨.hbm, 4137, rfl⟩
abbrev main_call15_call0_v52 : Ref sig .tc := ⟨.hbm, 4138, rfl⟩
abbrev main_call15_call0_v53 : Ref sig .tc := ⟨.hbm, 4139, rfl⟩
abbrev main_call15_call0_v54 : Ref sig .tc := ⟨.hbm, 4140, rfl⟩
abbrev main_call15_call0_c_13 : Ref sig .tc := ⟨.hbm, 4141, rfl⟩
abbrev main_call15_call0_v55 : Ref sig .tc := ⟨.hbm, 4142, rfl⟩
abbrev main_call15_call0_v56 : Ref sig .tc := ⟨.hbm, 4143, rfl⟩
abbrev main_call15_call0_c_14 : Ref sig .tc := ⟨.hbm, 4144, rfl⟩
abbrev main_call15_call0_v57 : Ref sig .tc := ⟨.hbm, 4145, rfl⟩
abbrev main_call15_call0_v58 : Ref sig .tc := ⟨.hbm, 4146, rfl⟩
abbrev main_call15_call0_v59 : Ref sig .tc := ⟨.hbm, 4147, rfl⟩
abbrev main_call15_call0_v60 : Ref sig .tc := ⟨.hbm, 4148, rfl⟩
abbrev main_call15_call0_v61 : Ref sig .tc := ⟨.hbm, 4149, rfl⟩
abbrev main_call15_call0_c_15 : Ref sig .tc := ⟨.hbm, 4150, rfl⟩
abbrev main_call15_call0_v62 : Ref sig .tc := ⟨.hbm, 4151, rfl⟩
abbrev main_call15_call0_v63 : Ref sig .tc := ⟨.hbm, 4152, rfl⟩
abbrev main_call15_call0_c_16 : Ref sig .tc := ⟨.hbm, 4153, rfl⟩
abbrev main_call15_call0_v64 : Ref sig .tc := ⟨.hbm, 4154, rfl⟩
abbrev main_call15_call0_v65 : Ref sig .tc := ⟨.hbm, 4155, rfl⟩
abbrev main_call15_call0_v66 : Ref sig .tc := ⟨.hbm, 4156, rfl⟩
abbrev main_call15_call0_v67 : Ref sig .tc := ⟨.hbm, 4157, rfl⟩
abbrev main_call15_call0_v68 : Ref sig .tc := ⟨.hbm, 4158, rfl⟩
abbrev main_call15_call0_v69 : Ref sig .tc := ⟨.hbm, 4159, rfl⟩
abbrev main_call15_call0_v70 : Ref sig .tc := ⟨.hbm, 4160, rfl⟩
abbrev main_call15_call0_v71 : Ref sig .tc := ⟨.hbm, 4161, rfl⟩
abbrev main_call15_call0_c_17 : Ref sig .tc := ⟨.hbm, 4162, rfl⟩
abbrev main_call15_call0_v72 : Ref sig .tc := ⟨.hbm, 4163, rfl⟩
abbrev main_call15_call0_v73 : Ref sig .tc := ⟨.hbm, 4164, rfl⟩
abbrev main_call15_call0_v74 : Ref sig .tc := ⟨.hbm, 4165, rfl⟩
abbrev main_call15_call0_c_18 : Ref sig .tc := ⟨.hbm, 4166, rfl⟩
abbrev main_call15_call0_v75 : Ref sig .tc := ⟨.hbm, 4167, rfl⟩
abbrev main_call15_call0_v76 : Ref sig .tc := ⟨.hbm, 4168, rfl⟩
abbrev main_call15_call0_c_19 : Ref sig .tc := ⟨.hbm, 4169, rfl⟩
abbrev main_call15_call0_v77 : Ref sig .tc := ⟨.hbm, 4170, rfl⟩
abbrev main_call15_call0_v78 : Ref sig .tc := ⟨.hbm, 4171, rfl⟩
abbrev main_call15_call0_v79 : Ref sig .tc := ⟨.hbm, 4172, rfl⟩
abbrev main_call15_call0_v80 : Ref sig .tc := ⟨.hbm, 4173, rfl⟩
abbrev main_call15_call0_v81 : Ref sig .tc := ⟨.hbm, 4174, rfl⟩
abbrev main_call15_call0_c_20 : Ref sig .tc := ⟨.hbm, 4175, rfl⟩
abbrev main_call15_call0_v82 : Ref sig .tc := ⟨.hbm, 4176, rfl⟩
abbrev main_call15_call0_v83 : Ref sig .tc := ⟨.hbm, 4177, rfl⟩
abbrev main_call15_call0_c_21 : Ref sig .tc := ⟨.hbm, 4178, rfl⟩
abbrev main_call15_call0_v84 : Ref sig .tc := ⟨.hbm, 4179, rfl⟩
abbrev main_call15_call0_v85 : Ref sig .tc := ⟨.hbm, 4180, rfl⟩
abbrev main_call15_call0_v86 : Ref sig .tc := ⟨.hbm, 4181, rfl⟩
abbrev main_call15_call0_v87 : Ref sig .tc := ⟨.hbm, 4182, rfl⟩
abbrev main_call15_call0_v88 : Ref sig .tc := ⟨.hbm, 4183, rfl⟩
abbrev main_call15_call0_c_22 : Ref sig .tc := ⟨.hbm, 4184, rfl⟩
abbrev main_call15_call0_v89 : Ref sig .tc := ⟨.hbm, 4185, rfl⟩
abbrev main_call15_call0_v90 : Ref sig .tc := ⟨.hbm, 4186, rfl⟩
abbrev main_call15_call0_c_23 : Ref sig .tc := ⟨.hbm, 4187, rfl⟩
abbrev main_call15_call0_v91 : Ref sig .tc := ⟨.hbm, 4188, rfl⟩
abbrev main_call15_call0_v92 : Ref sig .tc := ⟨.hbm, 4189, rfl⟩
abbrev main_call15_call0_v93 : Ref sig .tc := ⟨.hbm, 4190, rfl⟩
abbrev main_call15_call0_v94 : Ref sig .tc := ⟨.hbm, 4191, rfl⟩
abbrev main_call15_call0_v95 : Ref sig .tc := ⟨.hbm, 4192, rfl⟩
abbrev main_call15_call0_c_24 : Ref sig .tc := ⟨.hbm, 4193, rfl⟩
abbrev main_call15_call0_v96 : Ref sig .tc := ⟨.hbm, 4194, rfl⟩
abbrev main_call15_call0_v97 : Ref sig .tc := ⟨.hbm, 4195, rfl⟩
abbrev main_call15_call0_c_25 : Ref sig .tc := ⟨.hbm, 4196, rfl⟩
abbrev main_call15_call0_v98 : Ref sig .tc := ⟨.hbm, 4197, rfl⟩
abbrev main_call15_call0_v99 : Ref sig .tc := ⟨.hbm, 4198, rfl⟩
abbrev main_call15_call0_v100 : Ref sig .tc := ⟨.hbm, 4199, rfl⟩
abbrev main_call15_call0_v101 : Ref sig .tc := ⟨.hbm, 4200, rfl⟩
abbrev main_call15_call0_v102 : Ref sig .tc := ⟨.hbm, 4201, rfl⟩
abbrev main_call15_call0_v103 : Ref sig .tc := ⟨.hbm, 4202, rfl⟩
abbrev main_call15_call0_v104 : Ref sig .tc := ⟨.hbm, 4203, rfl⟩
abbrev main_call15_call0_v105 : Ref sig .tc := ⟨.hbm, 4204, rfl⟩
abbrev main_call15_call0_c_26 : Ref sig .tc := ⟨.hbm, 4205, rfl⟩
abbrev main_call15_call0_v106 : Ref sig .tc := ⟨.hbm, 4206, rfl⟩
abbrev main_call15_call0_v107 : Ref sig .tc := ⟨.hbm, 4207, rfl⟩
abbrev main_call15_call0_v108 : Ref sig .tc := ⟨.hbm, 4208, rfl⟩
abbrev main_call15_call0_c_27 : Ref sig .tc := ⟨.hbm, 4209, rfl⟩
abbrev main_call15_call0_v109 : Ref sig .tc := ⟨.hbm, 4210, rfl⟩
abbrev main_call15_call0_v110 : Ref sig .tc := ⟨.hbm, 4211, rfl⟩
abbrev main_call15_call0_c_28 : Ref sig .tc := ⟨.hbm, 4212, rfl⟩
abbrev main_call15_call0_v111 : Ref sig .tc := ⟨.hbm, 4213, rfl⟩
abbrev main_call15_call0_v112 : Ref sig .tc := ⟨.hbm, 4214, rfl⟩
abbrev main_call15_call0_v113 : Ref sig .tc := ⟨.hbm, 4215, rfl⟩
abbrev main_call15_call0_v114 : Ref sig .tc := ⟨.hbm, 4216, rfl⟩
abbrev main_call15_call0_v115 : Ref sig .tc := ⟨.hbm, 4217, rfl⟩
abbrev main_call15_call0_c_29 : Ref sig .tc := ⟨.hbm, 4218, rfl⟩
abbrev main_call15_call0_v116 : Ref sig .tc := ⟨.hbm, 4219, rfl⟩
abbrev main_call15_call0_v117 : Ref sig .tc := ⟨.hbm, 4220, rfl⟩
abbrev main_call15_call0_c_30 : Ref sig .tc := ⟨.hbm, 4221, rfl⟩
abbrev main_call15_call0_v118 : Ref sig .tc := ⟨.hbm, 4222, rfl⟩
abbrev main_call15_call0_v119 : Ref sig .tc := ⟨.hbm, 4223, rfl⟩
abbrev main_call15_call0_v120 : Ref sig .tc := ⟨.hbm, 4224, rfl⟩
abbrev main_call15_call0_v121 : Ref sig .tc := ⟨.hbm, 4225, rfl⟩
abbrev main_call15_call0_v122 : Ref sig .tc := ⟨.hbm, 4226, rfl⟩
abbrev main_call15_call0_c_31 : Ref sig .tc := ⟨.hbm, 4227, rfl⟩
abbrev main_call15_call0_v123 : Ref sig .tc := ⟨.hbm, 4228, rfl⟩
abbrev main_call15_call0_v124 : Ref sig .tc := ⟨.hbm, 4229, rfl⟩
abbrev main_call15_call0_c_32 : Ref sig .tc := ⟨.hbm, 4230, rfl⟩
abbrev main_call15_call0_v125 : Ref sig .tc := ⟨.hbm, 4231, rfl⟩
abbrev main_call15_call0_v126 : Ref sig .tc := ⟨.hbm, 4232, rfl⟩
abbrev main_call15_call0_v127 : Ref sig .tc := ⟨.hbm, 4233, rfl⟩
abbrev main_call15_call0_v128 : Ref sig .tc := ⟨.hbm, 4234, rfl⟩
abbrev main_call15_call0_v129 : Ref sig .tc := ⟨.hbm, 4235, rfl⟩
abbrev main_call15_call0_c_33 : Ref sig .tc := ⟨.hbm, 4236, rfl⟩
abbrev main_call15_call0_v130 : Ref sig .tc := ⟨.hbm, 4237, rfl⟩
abbrev main_call15_call0_v131 : Ref sig .tc := ⟨.hbm, 4238, rfl⟩
abbrev main_call15_call0_c_34 : Ref sig .tc := ⟨.hbm, 4239, rfl⟩
abbrev main_call15_call0_v132 : Ref sig .tc := ⟨.hbm, 4240, rfl⟩
abbrev main_call15_call0_v133 : Ref sig .tc := ⟨.hbm, 4241, rfl⟩
abbrev main_call15_call0_v134 : Ref sig .tc := ⟨.hbm, 4242, rfl⟩
abbrev main_call15_call0_v135 : Ref sig .tc := ⟨.hbm, 4243, rfl⟩
abbrev main_call15_call0_v136 : Ref sig .tc := ⟨.hbm, 4244, rfl⟩
abbrev main_call15_call0_v137 : Ref sig .tc := ⟨.hbm, 4245, rfl⟩
abbrev main_call15_call0_v138 : Ref sig .tc := ⟨.hbm, 4246, rfl⟩
abbrev main_call15_call0_v139 : Ref sig .tc := ⟨.hbm, 4247, rfl⟩
abbrev main_call15_call0_c_35 : Ref sig .tc := ⟨.hbm, 4248, rfl⟩
abbrev main_call15_call0_v140 : Ref sig .tc := ⟨.hbm, 4249, rfl⟩
abbrev main_call15_call0_v141 : Ref sig .tc := ⟨.hbm, 4250, rfl⟩
abbrev main_call15_call0_v142 : Ref sig .tc := ⟨.hbm, 4251, rfl⟩
abbrev main_call15_call0_c_36 : Ref sig .tc := ⟨.hbm, 4252, rfl⟩
abbrev main_call15_call0_v143 : Ref sig .tc := ⟨.hbm, 4253, rfl⟩
abbrev main_call15_call0_v144 : Ref sig .tc := ⟨.hbm, 4254, rfl⟩
abbrev main_call15_call0_c_37 : Ref sig .tc := ⟨.hbm, 4255, rfl⟩
abbrev main_call15_call0_v145 : Ref sig .tc := ⟨.hbm, 4256, rfl⟩
abbrev main_call15_call0_v146 : Ref sig .tc := ⟨.hbm, 4257, rfl⟩
abbrev main_call15_call0_v147 : Ref sig .tc := ⟨.hbm, 4258, rfl⟩
abbrev main_call15_call0_v148 : Ref sig .tc := ⟨.hbm, 4259, rfl⟩
abbrev main_call15_call0_v149 : Ref sig .tc := ⟨.hbm, 4260, rfl⟩
abbrev main_call15_call0_c_38 : Ref sig .tc := ⟨.hbm, 4261, rfl⟩
abbrev main_call15_call0_v150 : Ref sig .tc := ⟨.hbm, 4262, rfl⟩
abbrev main_call15_call0_v151 : Ref sig .tc := ⟨.hbm, 4263, rfl⟩
abbrev main_call15_call0_c_39 : Ref sig .tc := ⟨.hbm, 4264, rfl⟩
abbrev main_call15_call0_v152 : Ref sig .tc := ⟨.hbm, 4265, rfl⟩
abbrev main_call15_call0_v153 : Ref sig .tc := ⟨.hbm, 4266, rfl⟩
abbrev main_call15_call0_v154 : Ref sig .tc := ⟨.hbm, 4267, rfl⟩
abbrev main_call15_call0_v155 : Ref sig .tc := ⟨.hbm, 4268, rfl⟩
abbrev main_call15_call0_v156 : Ref sig .tc := ⟨.hbm, 4269, rfl⟩
abbrev main_call15_call0_c_40 : Ref sig .tc := ⟨.hbm, 4270, rfl⟩
abbrev main_call15_call0_v157 : Ref sig .tc := ⟨.hbm, 4271, rfl⟩
abbrev main_call15_call0_v158 : Ref sig .tc := ⟨.hbm, 4272, rfl⟩
abbrev main_call15_call0_c_41 : Ref sig .tc := ⟨.hbm, 4273, rfl⟩
abbrev main_call15_call0_v159 : Ref sig .tc := ⟨.hbm, 4274, rfl⟩
abbrev main_call15_call0_v160 : Ref sig .tc := ⟨.hbm, 4275, rfl⟩
abbrev main_call15_call0_v161 : Ref sig .tc := ⟨.hbm, 4276, rfl⟩
abbrev main_call15_call0_v162 : Ref sig .tc := ⟨.hbm, 4277, rfl⟩
abbrev main_call15_call0_v163 : Ref sig .tc := ⟨.hbm, 4278, rfl⟩
abbrev main_call15_call0_c_42 : Ref sig .tc := ⟨.hbm, 4279, rfl⟩
abbrev main_call15_call0_v164 : Ref sig .tc := ⟨.hbm, 4280, rfl⟩
abbrev main_call15_call0_v165 : Ref sig .tc := ⟨.hbm, 4281, rfl⟩
abbrev main_call15_call0_c_43 : Ref sig .tc := ⟨.hbm, 4282, rfl⟩
abbrev main_call15_call0_v166 : Ref sig .tc := ⟨.hbm, 4283, rfl⟩
abbrev main_call15_call0_v167 : Ref sig .tc := ⟨.hbm, 4284, rfl⟩
abbrev main_call15_call0_v168 : Ref sig .tc := ⟨.hbm, 4285, rfl⟩
abbrev main_call15_call0_v169 : Ref sig .tc := ⟨.hbm, 4286, rfl⟩
abbrev main_call15_call0_v170 : Ref sig .tc := ⟨.hbm, 4287, rfl⟩
abbrev main_call15_v15_0 : Ref sig .tc := ⟨.hbm, 4288, rfl⟩
abbrev main_call15_call0_v172 : Ref sig .tc := ⟨.hbm, 4289, rfl⟩
abbrev main_call15_call0_v173 : Ref sig .tc := ⟨.hbm, 4290, rfl⟩
abbrev main_call15_call0_c_44 : Ref sig .tc := ⟨.hbm, 4291, rfl⟩
abbrev main_call15_call0_v174 : Ref sig .tc := ⟨.hbm, 4292, rfl⟩
abbrev main_call15_v15_1 : Ref sig .tc := ⟨.hbm, 4293, rfl⟩
abbrev main_call15_v16 : Ref sig .tc := ⟨.hbm, 4294, rfl⟩
abbrev main_call15_c_1 : Ref sig .tc := ⟨.hbm, 4295, rfl⟩
abbrev main_call15_v17 : Ref sig .tc := ⟨.hbm, 4296, rfl⟩
abbrev main_call15_v18 : Ref sig .tc := ⟨.hbm, 4297, rfl⟩
abbrev main_call15_c_2 : Ref sig .tc := ⟨.hbm, 4298, rfl⟩
abbrev main_call15_v19 : Ref sig .tc := ⟨.hbm, 4299, rfl⟩
abbrev main_call15_v20 : Ref sig .tc := ⟨.hbm, 4300, rfl⟩
abbrev main_call15_v21 : Ref sig .tc := ⟨.hbm, 4301, rfl⟩
abbrev main_call15_cst : Ref sig .tc := ⟨.hbm, 4302, rfl⟩
abbrev main_call15_v22 : Ref sig .tc := ⟨.hbm, 4303, rfl⟩
abbrev main_call15_v23 : Ref sig .tc := ⟨.hbm, 4304, rfl⟩
abbrev main_call15_v24 : Ref sig .tc := ⟨.hbm, 4305, rfl⟩
abbrev main_call15_v25 : Ref sig .tc := ⟨.hbm, 4306, rfl⟩
abbrev main_call15_v26 : Ref sig .tc := ⟨.hbm, 4307, rfl⟩
abbrev main_call15_v27 : Ref sig .tc := ⟨.hbm, 4308, rfl⟩
abbrev main_call15_v28 : Ref sig .tc := ⟨.hbm, 4309, rfl⟩
abbrev main_call15_v29 : Ref sig .tc := ⟨.hbm, 4310, rfl⟩
abbrev main_v285 : Ref sig .tc := ⟨.hbm, 4311, rfl⟩
abbrev main_v286 : Ref sig .tc := ⟨.hbm, 4312, rfl⟩
abbrev main_v287 : Ref sig .tc := ⟨.hbm, 4313, rfl⟩
abbrev main_cst_78 : Ref sig .tc := ⟨.hbm, 4314, rfl⟩
abbrev main_v288 : Ref sig .tc := ⟨.hbm, 4315, rfl⟩
abbrev main_v289 : Ref sig .tc := ⟨.hbm, 4316, rfl⟩
abbrev main_cst_79 : Ref sig .tc := ⟨.hbm, 4317, rfl⟩
abbrev main_v290 : Ref sig .tc := ⟨.hbm, 4318, rfl⟩
abbrev main_v291 : Ref sig .tc := ⟨.hbm, 4319, rfl⟩
abbrev main_v292 : Ref sig .tc := ⟨.hbm, 4320, rfl⟩
abbrev main_v293 : Ref sig .tc := ⟨.hbm, 4321, rfl⟩
abbrev main_v294 : Ref sig .tc := ⟨.hbm, 4322, rfl⟩
abbrev main_v295 : Ref sig .tc := ⟨.hbm, 4323, rfl⟩
abbrev main_v296 : Ref sig .tc := ⟨.hbm, 4324, rfl⟩
abbrev main_v297 : Ref sig .tc := ⟨.hbm, 4325, rfl⟩
abbrev main_cst_80 : Ref sig .tc := ⟨.hbm, 4326, rfl⟩
abbrev main_v298 : Ref sig .tc := ⟨.hbm, 4327, rfl⟩
abbrev main_v299 : Ref sig .tc := ⟨.hbm, 4328, rfl⟩
abbrev main_v300 : Ref sig .tc := ⟨.hbm, 4329, rfl⟩
abbrev main_v301 : Ref sig .tc := ⟨.hbm, 4330, rfl⟩
abbrev main_v302 : Ref sig .tc := ⟨.hbm, 4331, rfl⟩

abbrev nD : Nat := 1
abbrev τ : Topo := Topo.v7x

variable {F : FTy → Type} [FloatOps F]

class Facts₀ : Prop where
  bcast_S_S1 : S_.BroadcastsInDim S1 (![] : Fin 0 → Fin S1.rank)
  concatenates_S1_S1_S2_d0 : Shape.Concatenates [S1, S1] S2 0
  bcast_S_S128x4096 : S_.BroadcastsInDim S128x4096 (![] : Fin 0 → Fin S128x4096.rank)
  bcast_S_S128 : S_.BroadcastsInDim S128 (![] : Fin 0 → Fin S128.rank)
  slices_S2_S1_0 : S2.Slices ![0] S1
  shapeCasts_S1_S_ : S1.ShapeCasts S_
  slices_S2_S1_1 : S2.Slices ![1] S1
  bcast_S_S2 : S_.BroadcastsInDim S2 (![] : Fin 0 → Fin S2.rank)
  natLt_32_64 : 32 < 64
  bcast_S2_S2x1_0 : S2.BroadcastsInDim S2x1 (![0] : Fin 1 → Fin S2x1.rank)
  concatenates_S2x1_S2x1_S2x2_d1 : Shape.Concatenates [S2x1, S2x1] S2x2 1
  slices_S2x2_S1x2_0_0 : S2x2.Slices ![0, 0] S1x2
  shapeCasts_S1x2_S2 : S1x2.ShapeCasts S2
  slices_S2x2_S1x2_1_0 : S2x2.Slices ![1, 0] S1x2
  bcast_S1_S128_0 : S1.BroadcastsInDim S128 (![0] : Fin 1 → Fin S128.rank)
  bcast_S128_S128x1_0 : S128.BroadcastsInDim S128x1 (![0] : Fin 1 → Fin S128x1.rank)
  bcast_S128x1_S128x4096_0_1 : S128x1.BroadcastsInDim S128x4096 (![0, 1] : Fin 2 → Fin S128x4096.rank)
  bcast_S_S128x1 : S_.BroadcastsInDim S128x1 (![] : Fin 0 → Fin S128x1.rank)
  dot_S128x4096_S4096_S128_1_0_0_n_n_n_wf : DotDims.WF S128x4096 S4096 S128 [1] [0] [0] [] [] []
  scatter_S128x4096_S1_S128_0_1_1_0_wf : ScatterDims.WF S128x4096 S1 S128 [0] [1] [1] 0

variable [Facts₀]

def dot_S128x4096_S4096_S128_1_0_0_n_n_n : DotDims S128x4096 S4096 S128 where
  lhsContracting := [1]
  rhsContracting := [0]
  lhsNonContracting := [0]
  rhsNonContracting := []
  lhsBatch := []
  rhsBatch := []
  wf := dot_S128x4096_S4096_S128_1_0_0_n_n_n_wf
def scatter_S128x4096_S1_S128_0_1_1_0 : ScatterDims S128x4096 S1 S128 where
  updateWindowDims := [0]
  insertedWindowDims := [1]
  scatterDimsToOperandDims := [1]
  indexVectorDim := 0
  wf := scatter_S128x4096_S1_S128_0_1_1_0_wf

class Facts : Prop extends Facts₀ where

variable [Facts]
-- ==== Proof.ScBitsVal.lean ====
/-
  The update the kernel applies, as pure functions of the two argument arrays: per row, lanes 0..15 pass through the
  lane update (a draw below the conditional probability flips the sign term in), lanes from 16 on are kept.
-/
import proofs.«213024_g80238579024365_cont_9to1c4b_497_7_alg».proof.Kernel
import Idealize.ShloMosaic.Lib.ValueIdx

noncomputable section

namespace Cert.Kernel.Sc

open Cert.Kernel
open Idealize.ShloMosaic

variable {F : FTy → Type} [FloatOps F]

/-- a lane index of a sixteen-lane vector is below sixteen, as a literal -/
theorem lane_lt (l' : S16.Idx) : (l' 0).val < 16 := (l' 0).isLt

/-- lanes 0..15 of a row after the update: x the row's lanes, th the weights, u the draws -/
def laneUpd (x th u : FVec F S16 .f32) : FVec F S16 .f32 :=
  let one : FVec F S16 .f32 := broadcast S16 (Scalar.ofBits .f32 0x3F800000#32)
  let zero : FVec F S16 .f32 := broadcast S16 (Scalar.ofBits .f32 0x00000000#32)
  let two : FVec F S16 .f32 := broadcast S16 (Scalar.ofBits .f32 0x40000000#32)
  let sgn := subf one (mulf two x)
  addf x (mulf (select (cmpf .olt u (divf one (addf one (exp (mulf (subf zero sgn) th))))) one zero) sgn)

/-- the first sixteen lanes of row b of the array -/
def xRow (x : FVec F S128x4096 .f32) (b : Fin 128) : FVec F S16 .f32 :=
  fun l' => x (ValueIdx.ix2 b ⟨(l' 0).val, by have := lane_lt l'; show (l' 0).val < 4096; omega⟩)

/-- the first sixteen weights -/
def thRow (th : FVec F S4096 .f32) : FVec F S16 .f32 :=
  fun l' => th (ValueIdx.ix1 ⟨(l' 0).val, by have := lane_lt l'; show (l' 0).val < 4096; omega⟩)

/-- row b of the constant table of draws -/
def uRow (b : Fin 128) : FVec F S16 .f32 :=
  fun l' => FloatOps.ofBits .f32 (lit0 ⟨16 * b.val + (l' 0).val, by have := lane_lt l'; have := b.isLt; show 16 * b.val + (l' 0).val < 2048; omega⟩)

/-- the result array as one function of the two argument arrays -/
def kout (x : FVec F S128x4096 .f32) (th : FVec F S4096 .f32) : FVec F S128x4096 .f32 :=
  fun ix => if h : (ix 1).val < 16 then laneUpd (xRow x (ix 0)) (thRow th) (uRow (ix 0)) (ValueIdx.ix1 ⟨(ix 1).val, h⟩) else x ix

theorem kout_hi (x : FVec F S128x4096 .f32) (th : FVec F S4096 .f32) (b : Fin 128) (j : Fin 4096) (h : 16 ≤ j.val) :
    kout x th (ValueIdx.ix2 b j) = x (ValueIdx.ix2 b j) := by
  unfold kout
  exact dif_neg (by show ¬ j.val < 16; omega)

theorem kout_lo (x : FVec F S128x4096 .f32) (th : FVec F S4096 .f32) (b : Fin 128) (l : Fin 16) :
    kout x th (ValueIdx.ix2 b ⟨l.val, by omega⟩)
      = laneUpd (fun l' => x (ValueIdx.ix2 b ⟨(l' 0).val, by have := lane_lt l'; show (l' 0).val < 4096; omega⟩))
          (fun l' => th (ValueIdx.ix1 ⟨(l' 0).val, by have := lane_lt l'; show (l' 0).val < 4096; omega⟩))
          (fun l' => FloatOps.ofBits .f32 (lit0 ⟨16 * b.val + (l' 0).val, by have := lane_lt l'; have := b.isLt; show 16 * b.val + (l' 0).val < 2048; omega⟩))
          (ValueIdx.ix1 l) := by
  unfold kout
  exact dif_pos (by show l.val < 16; exact l.isLt)

end Cert.Kernel.Sc

end
-- ==== Proof.ScBitsDefs.lean ====
/-
  The SparseCore side of the program, set up for the launch theorem: the configuration, the ghost state (the
  handshakes' rounds beside the transfers' counters), the arrays as locations and as the tiles' memrefs, the
  four-row blocks of the result array (tile (c, s) owns rows 8 s + 4 c .. 8 s + 4 c + 3), and what the handshakes
  carry: read shares of the three arrays every tile reads, the tile's block of the result.
-/
import proofs.«213024_g80238579024365_cont_9to1c4b_497_7_alg».proof.Proof.ScBitsVal
import Idealize.ShloMosaic.Lib.SparseCore.Launch
import Idealize.ShloMosaic.Lib.StableHlo.Run
import Idealize.ShloMosaic.Lib.Pipeline.Kit
import Idealize.ShloMosaic.Lib.Tactic
import proofs.«213024_g80238579024365_cont_9to1c4b_497_7_alg».proof.Proof.Gen.Kernel
import proofs.«213024_g80238579024365_cont_9to1c4b_497_7_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem kfacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

abbrev xLoc (d : Dev nD) : Loc nD τ sig := (SparseCore.T d).loc main_arg0
abbrev thLoc (d : Dev nD) : Loc nD τ sig := (SparseCore.T d).loc main_arg1
abbrev cLoc (d : Dev nD) : Loc nD τ sig := (SparseCore.T d).loc main_cst
abbrev v0Loc (d : Dev nD) : Loc nD τ sig := (SparseCore.T d).loc main_v0
abbrev v1Loc (d : Dev nD) : Loc nD τ sig := (SparseCore.T d).loc main_v1
abbrev oLoc (d : Dev nD) : Loc nD τ sig := (SparseCore.T d).loc main_v2

/-! ## The blocks of the result array -/

/-- The rows of block 2 i + c: rows 8 i + 4 c .. 8 i + 4 c + 3, every lane. -/
def rowsOf (c i : ℕ) : Finset S128x4096.Idx := Finset.univ.filter fun ix => (ix 0).val / 4 = 2 * i + c

theorem mem_rowsOf {c i : ℕ} {ix : S128x4096.Idx} : ix ∈ rowsOf c i ↔ (ix 0).val / 4 = 2 * i + c := by
  unfold rowsOf; rw [Finset.mem_filter]; exact ⟨fun h => h.2, fun h => ⟨Finset.mem_univ _, h⟩⟩

theorem rows_disjoint : ∀ p ∈ (Finset.univ : Finset (Fin 2 × Fin 16)), ∀ p' ∈ (Finset.univ : Finset (Fin 2 × Fin 16)), p ≠ p' →
    Disjoint (rowsOf p.1.val p.2.val) (rowsOf p'.1.val p'.2.val) := by
  intro p _ p' _ hne
  refine Finset.disjoint_left.mpr fun ix h1 h2 => hne ?_
  rw [mem_rowsOf] at h1 h2
  have hc := p.1.isLt; have hc' := p'.1.isLt
  exact Prod.ext (Fin.ext (by omega)) (Fin.ext (by omega))

theorem rows_cover : (Finset.univ : Finset (Fin 2 × Fin 16)).biUnion (fun p => rowsOf p.1.val p.2.val) = Finset.univ := by
  ext ix
  simp only [Finset.mem_biUnion, Finset.mem_univ, true_and, iff_true]
  have h0 : (ix 0).val < 128 := (ix 0).isLt
  refine ⟨(⟨(ix 0).val / 4 % 2, by omega⟩, ⟨(ix 0).val / 4 / 2, by omega⟩), ?_⟩
  rw [mem_rowsOf]; show (ix 0).val / 4 = 2 * ((ix 0).val / 4 / 2) + (ix 0).val / 4 % 2; omega

omit m in
/-- The result array whole is its thirty-two blocks, by SparseCore then by tile. -/
theorem oPts_blocks (d : Dev nD) (q : PosShare TreeShare) (f : Buf (Elt F) (oLoc d)) :
    (oLoc d ↦{q} f : sProp 𝕄) = bigSep Finset.univ fun c : Fin 2 => bigSep Finset.univ fun i : Fin 16 => oLoc d ↦[rowsOf c.val i.val]{q} f := by
  rw [← SparseCore.bigSep_product (Finset.univ : Finset (Fin 2)) (Finset.univ : Finset (Fin 16)) (fun p => (oLoc d ↦[rowsOf p.1.val p.2.val]{q} f : sProp 𝕄)),
    Finset.univ_product_univ, ← pointsTo_biUnion Finset.univ (ℓ := oLoc d) (fun p : Fin 2 × Fin 16 => rowsOf p.1.val p.2.val) rows_disjoint, rows_cover]
  try rfl

/-! ## What the handshakes carry -/

/-- The read share of tile i of SparseCore c. -/
def tokQ (c i : ℕ) : PosShare TreeShare := Transfers.shareTokN (Transfers.shareTokN fullShare c) i

variable [FloatOps F]

/-- The table of draws as @main's constant writes it. -/
def cF (d : Dev nD) : Buf (Elt F) (cLoc d) := fun i => FloatOps.ofBits .f32 (lit0 (S128x16.rowMajor i))
/-- The first sixteen weights, as one row: the slice of the weights, reshaped. -/
def v1F (d : Dev nD) : Buf (Elt F) (v1Loc d) :=
  shapeCast S1x16 (extractStridedSlice S16 ![0] (m (thLoc d)) Facts₀.slices_S4096_S16_0) Facts₀.shapeCasts_S16_S1x16
/-- What the kernel leaves in the result array. -/
def oF (d : Dev nD) : Buf (Elt F) (oLoc d) := kout (m (xLoc d)) (m (thLoc d))

/-- What tile i of SparseCore c is handed: a read share of the argument, of the table and of the weights' row, and its
    block of the result array. -/
def goP (d : Dev nD) (c i : ℕ) : sProp 𝕄 :=
  iprop((xLoc d ↦{tokQ c i} m (xLoc d)) ∗ (cLoc d ↦{tokQ c i} cF d) ∗ (v1Loc d ↦{tokQ c i} v1F m d) ∗ oLoc d ↦[rowsOf c i]{fullShare} m (oLoc d))
/-- What it hands back: its block of the result array, at the kernel's function. -/
def tdP (d : Dev nD) (c i : ℕ) : sProp 𝕄 := oLoc d ↦[rowsOf c i]{fullShare} oF m d
/-- What SparseCore c is handed: read shares for its tiles to split, its tiles' blocks. -/
def stP (d : Dev nD) (c : ℕ) : sProp 𝕄 :=
  iprop((xLoc d ↦{Transfers.shareTokN fullShare c} m (xLoc d)) ∗ (cLoc d ↦{Transfers.shareTokN fullShare c} cF d)
    ∗ (v1Loc d ↦{Transfers.shareTokN fullShare c} v1F m d) ∗ bigSep Finset.univ fun i : Fin 16 => oLoc d ↦[rowsOf c i.val]{fullShare} m (oLoc d))
def dnP (d : Dev nD) (c : ℕ) : sProp 𝕄 := bigSep Finset.univ fun i : Fin 16 => tdP m d c i.val

/-- The same with nothing said of the block's contents. -/
def tdPf (d : Dev nD) (c i : ℕ) : sProp 𝕄 := iprop(∃ f, oLoc d ↦[rowsOf c i]{fullShare} f)
def dnPf (d : Dev nD) (c : ℕ) : sProp 𝕄 := bigSep Finset.univ fun i : Fin 16 => tdPf (F := F) d c i.val

instance tdPf_storable (d : Dev nD) (c i : ℕ) : BI.Storable (upEmb : UEmb _ 𝕄) (tdPf (F := F) d c i) := by unfold tdPf; infer_instance
instance dnPf_storable (d : Dev nD) (c : ℕ) : BI.Storable (upEmb : UEmb _ 𝕄) (dnPf (F := F) d c) := by unfold dnPf; infer_instance

instance goP_storable (d : Dev nD) (c i : ℕ) : BI.Storable (upEmb : UEmb _ 𝕄) (goP m d c i) := by unfold goP; infer_instance
instance tdP_storable (d : Dev nD) (c i : ℕ) : BI.Storable (upEmb : UEmb _ 𝕄) (tdP m d c i) := by unfold tdP; infer_instance
instance stP_storable (d : Dev nD) (c : ℕ) : BI.Storable (upEmb : UEmb _ 𝕄) (stP m d c) := by unfold stP; infer_instance
instance dnP_storable (d : Dev nD) (c : ℕ) : BI.Storable (upEmb : UEmb _ 𝕄) (dnP m d c) := by unfold dnP; infer_instance

def P : (K (F := F)).Pay (nD := nD) (Val := Elt F) (Name := ℕ) (U := UU) where
  st := fun _ d c => stP m d c.val
  dn := fun _ d c => dnP m d c.val
  go := fun _ d c i => goP m d c.val i.val
  td := fun _ d c i => tdP m d c.val i.val
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-- The payloads of the run that says nothing of the result array's contents. -/
def Pf : (K (F := F)).Pay (nD := nD) (Val := Elt F) (Name := ℕ) (U := UU) where
  st := fun _ d c => stP m d c.val
  dn := fun _ d c => dnPf (F := F) d c.val
  go := fun _ d c i => goP m d c.val i.val
  td := fun _ d c i => tdPf (F := F) d c.val i.val
  x := fun _ _ => iprop(emp)

instance Pf_storable : (Pf (F := F) m).IsStorable where
  st _ d c := by unfold Pf; infer_instance
  dn _ d c := by unfold Pf; infer_instance
  go _ _ _ _ := by unfold Pf; infer_instance
  td _ _ _ _ := by unfold Pf; infer_instance

end Cert.Kernel.Sc

end
-- ==== Proof.ScBitsBody.lean ====
/-
  One tile's task, at a symbolic grid point: three copies in (its four rows of the argument, its four rows of the
  table, the weights' row), four rows updated in place in the scratch, one copy out into its block of the result.
-/
import proofs.«213024_g80238579024365_cont_9to1c4b_497_7_alg».proof.Proof.ScBitsDefs

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ)

/-! ## The kernel's memrefs, spelt as the body table passes them -/

abbrev xV : Memref sig .scVector .hbm S128x4096 .f32 := Memref.whole main_arg0_scv
abbrev wV : Memref sig .scVector .hbm S1x16 .f32 := Memref.whole main_v1_scv
abbrev tV : Memref sig .scVector .hbm S128x16 .f32 := Memref.whole main_cst_scv
abbrev oV : Memref sig .scVector .hbm S128x4096 .f32 := Memref.whole main_v2_scv
abbrev s0 : Memref sig .scVector .vmem S4x4096 .f32 := Memref.whole cc0_scratch0
abbrev s1 : Memref sig .scVector .vmem S4x16 .f32 := Memref.whole cc0_scratch1
abbrev s2 : Memref sig .scVector .vmem S1x16 .f32 := Memref.whole cc0_scratch2

section Tile

variable (d : Dev nD) (L : grid0.Coords)

abbrev cV (L : grid0.Coords) : Fin τ.nSC := (L 0).castLE hcore0
abbrev jV (L : grid0.Coords) : Fin τ.nSub := (L 1).castLE hsub0

/-- The tile's block of the result array, as the kernel slices it. -/
abbrev oSl (L : grid0.Coords) : Memref sig .scVector .hbm S4x4096 .f32 :=
  (oV : Memref sig .scVector .hbm S128x4096 .f32).slice (Rect.unit (s := S128x4096) (k0_off1 L) S4x4096.size (k0_off1_inb L)) (fun _ => rfl)

theorem set_oSl : (oSl L).view.set = rowsOf (L 0).val (L 1).val := by
  show ((View.whole (main_v2_scv : Ref sig .scVector)).slice (Rect.unit (s := S128x4096) (k0_off1 L) S4x4096.size (k0_off1_inb L))).set = _
  rw [View.set_slice]
  refine Finset.map_refl.trans ?_
  ext ix
  rw [Rect.mem_set_unit, mem_rowsOf, k0_off1_eq]
  have h1 : (ix 1).val < 4096 := (ix 1).isLt
  constructor
  · intro h
    have h0 := h 0
    simp only [Matrix.cons_val_zero] at h0
    omega
  · intro h a
    match a with
    | 0 =>
      show 8 * (L 1).val + 4 * (L 0).val ≤ (ix 0).val ∧ (ix 0).val < 8 * (L 1).val + 4 * (L 0).val + 4
      omega
    | 1 =>
      show 0 ≤ (ix 1).val ∧ (ix 1).val < 0 + 4096
      omega

theorem pts_oSl (f : Buf (Elt F) (oLoc d)) :
    ((oSl L).view.loc (V d (cV L) (jV L)) ↦[(oSl L).view.set]{fullShare} f : sProp 𝕄) = oLoc d ↦[rowsOf (L 0).val (L 1).val]{fullShare} f := by
  rw [set_oSl]

theorem pts_xV (q : PosShare TreeShare) (f : Buf (Elt F) (xLoc d)) :
    ((xV : Memref sig .scVector .hbm S128x4096 .f32).view.loc (V d (cV L) (jV L)) ↦{q} f : sProp 𝕄) = xLoc d ↦{q} f := rfl
theorem pts_tV (q : PosShare TreeShare) (f : Buf (Elt F) (cLoc d)) :
    ((tV : Memref sig .scVector .hbm S128x16 .f32).view.loc (V d (cV L) (jV L)) ↦{q} f : sProp 𝕄) = cLoc d ↦{q} f := rfl
theorem pts_wV (q : PosShare TreeShare) (f : Buf (Elt F) (v1Loc d)) :
    ((wV : Memref sig .scVector .hbm S1x16 .f32).view.loc (V d (cV L) (jV L)) ↦{q} f : sProp 𝕄) = v1Loc d ↦{q} f := rfl
theorem pts_s0 (f : Buf (Elt F) ((V d (cV L) (jV L)).loc cc0_scratch0)) :
    ((s0 : Memref sig .scVector .vmem S4x4096 .f32).view.loc (V d (cV L) (jV L)) ↦{fullShare} f : sProp 𝕄) = (V d (cV L) (jV L)).loc cc0_scratch0 ↦{fullShare} f := rfl
theorem pts_s1 (f : Buf (Elt F) ((V d (cV L) (jV L)).loc cc0_scratch1)) :
    ((s1 : Memref sig .scVector .vmem S4x16 .f32).view.loc (V d (cV L) (jV L)) ↦{fullShare} f : sProp 𝕄) = (V d (cV L) (jV L)).loc cc0_scratch1 ↦{fullShare} f := rfl
theorem pts_s2 (f : Buf (Elt F) ((V d (cV L) (jV L)).loc cc0_scratch2)) :
    ((s2 : Memref sig .scVector .vmem S1x16 .f32).view.loc (V d (cV L) (jV L)) ↦{fullShare} f : sProp 𝕄) = (V d (cV L) (jV L)).loc cc0_scratch2 ↦{fullShare} f := rfl

/-! ## The tile's own cells and buffers -/

abbrev cell0 (d : Dev nD) (c : Fin τ.nSC) (i : Fin τ.nSub) : GSem nD τ sig := (V d c i, .dma cc0_scoped0.sem)
abbrev cell1 (d : Dev nD) (c : Fin τ.nSC) (i : Fin τ.nSub) : GSem nD τ sig := (V d c i, .dma cc0_scoped1.sem)
abbrev cell2 (d : Dev nD) (c : Fin τ.nSC) (i : Fin τ.nSub) : GSem nD τ sig := (V d c i, .dma cc0_scoped2.sem)
abbrev cell3 (d : Dev nD) (c : Fin τ.nSC) (i : Fin τ.nSub) : GSem nD τ sig := (V d c i, .dma cc0_scoped3.sem)

theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0
          ∗ bigSep (((((ownCells (V d (cV L) (jV L))).erase (cell0 d (cV L) (jV L))).erase (cell1 d (cV L) (jV L))).erase (cell2 d (cV L) (jV L))).erase (cell3 d (cV L) (jV L)))
              fun g => semVal g 0) := by
  unfold SparseCore.Cfg.ownSems0
  rw [SparseCore.bigSep_erase' ((mem_ownCells (g := cell0 d (cV L) (jV L))).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d (cV L) (jV L))).mpr ⟨rfl, by show (SemLoc.dma cc0_scoped2.sem : SemLoc sig).isScoped .scVector = true; decide⟩⟩⟩),
    SparseCore.bigSep_erase' (Finset.mem_erase.mpr ⟨by simp [cell2, cell3]; decide, Finset.mem_erase.mpr ⟨by simp [cell1, cell3]; decide,
      Finset.mem_erase.mpr ⟨by simp [cell0, cell3]; decide,
      (mem_ownCells (g := cell3 d (cV L) (jV L))).mpr ⟨rfl, by show (SemLoc.dma cc0_scoped3.sem : SemLoc sig).isScoped .scVector = true; decide⟩⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

variable [FloatOps F]

abbrev thr (d : Dev nD) (L : grid0.Coords) : Thread nD τ := V d (cV L) (jV L)

set_option maxHeartbeats 4000000 in
/-- The task on tile (L 0, L 1) of device d, from any contents fx, fc, fw of the three arrays it reads and f0, f1, f2 of
    its scratch: what it leaves in its block of the result array, found by the run. -/
def tile_run (O : CellTallies nD τ sig (HIx 1)) (W : Waits sig (HIx 1)) (hO : ∀ g, O g none = 0)
    (q : PosShare TreeShare) (fx : Buf (Elt F) (xLoc d)) (fc : Buf (Elt F) (cLoc d)) (fw : Buf (Elt F) (v1Loc d)) (fo : Buf (Elt F) (oLoc d))
    (f0 : Buf (Elt F) ((V d (cV L) (jV L)).loc cc0_scratch0)) (f1 : Buf (Elt F) ((V d (cV L) (jV L)).loc cc0_scratch1))
    (f2 : Buf (Elt F) ((V d (cV L) (jV L)).loc cc0_scratch2)) (R : sProp 𝕄) :
    { T : Buf (Elt F) (oLoc d) //
      (iprop(levAts (K (F := F)).L (K (F := F)).lev
        ∗ ((xLoc d ↦{q} fx) ∗ (cLoc d ↦{q} fc) ∗ (v1Loc d ↦{q} fw) ∗ oLoc d ↦[rowsOf (L 0).val (L 1).val]{fullShare} fo)
        ∗ (((V d (cV L) (jV L)).loc cc0_scratch0 ↦{fullShare} f0) ∗ ((V d (cV L) (jV L)).loc cc0_scratch1 ↦{fullShare} f1)
            ∗ (V d (cV L) (jV L)).loc cc0_scratch2 ↦{fullShare} f2)
        ∗ (semVal (cell0 d (cV L) (jV L)) 0 ∗ semVal (cell1 d (cV L) (jV L)) 0 ∗ semVal (cell2 d (cV L) (jV L)) 0 ∗ semVal (cell3 d (cV L) (jV L)) 0)
        ∗ owes (V d (cV L) (jV L)) O W ∗ R) : sProp 𝕄)
      ⊢ wp frame (wpE (defs₀ (F := F)) 𝒱₀ (V d (cV L) (jV L)) none) Set.univ
          (cc0__sc_gibbs L xV (Memref.isWhole_whole _) wV (Memref.isWhole_whole _) tV (Memref.isWhole_whole _) oV (Memref.isWhole_whole _)
            s0 (Memref.isWhole_whole _) s1 (Memref.isWhole_whole _) s2 (Memref.isWhole_whole _) cc0_scoped0 cc0_scoped1 cc0_scoped2 cc0_scoped3)
          fun _ => iprop((oLoc d ↦[rowsOf (L 0).val (L 1).val]{fullShare} T)
            ∗ ((∃ f, (V d (cV L) (jV L)).loc cc0_scratch0 ↦{fullShare} f) ∗ (∃ f, (V d (cV L) (jV L)).loc cc0_scratch1 ↦{fullShare} f)
                ∗ ∃ f, (V d (cV L) (jV L)).loc cc0_scratch2 ↦{fullShare} f)
            ∗ (semVal (cell0 d (cV L) (jV L)) 0 ∗ semVal (cell1 d (cV L) (jV L)) 0 ∗ semVal (cell2 d (cV L) (jV L)) 0 ∗ semVal (cell3 d (cV L) (jV L)) 0)
            ∗ (∃ W', ⌜∀ p ∈ W', p ∈ W ∨ p.2 = none⌝ ∗ owes (V d (cV L) (jV L)) O W') ∗ R) } :=
  ⟨_, by
    simp only [cc0__sc_gibbs_eq_skeleton]; unfold cc0__sc_gibbs_skel
    simp only [k0_part1_eq_skeleton, k0_part2_eq_skeleton, k0_part3_eq_skeleton]; unfold k0_part1_skel k0_part2_skel k0_part3_skel
    iintro ⟨#Hlv, ⟨Hx, Hc, Hw, Ho⟩, ⟨Hs0, Hs1, Hs2⟩, ⟨Hc0, Hc1, Hc2, Hc3⟩, HO, HR⟩
    ihave Hmw := ((K (F := F)).mayWaits_none (thr := V d (cV L) (jV L)) hO) $$ Hlv
    ihave Hx' := (Entails.of_eq (pts_xV (F := F) d L q fx).symm) $$ Hx
    ihave Hc' := (Entails.of_eq (pts_tV (F := F) d L q fc).symm) $$ Hc
    ihave Hw' := (Entails.of_eq (pts_wV (F := F) d L q fw).symm) $$ Hw
    ihave Ho' := (Entails.of_eq (pts_oSl (F := F) d L fo).symm) $$ Ho
    ihave Hs0' := (Entails.of_eq (pts_s0 (F := F) d L f0).symm) $$ Hs0
    ihave Hs1' := (Entails.of_eq (pts_s1 (F := F) d L f1).symm) $$ Hs1
    ihave Hs2' := (Entails.of_eq (pts_s2 (F := F) d L f2).symm) $$ Hs2
    sl_exec
    sl_step
    isplitl [Ho']
    · iapply (Entails.of_eq (pts_oSl (F := F) d L _)); iexact Ho'
    isplitl [Hs0' Hs1' Hs2']
    · isplitl [Hs0']; · iexists _; iapply (Entails.of_eq (pts_s0 (F := F) d L _)); iexact Hs0'
      isplitl [Hs1']; · iexists _; iapply (Entails.of_eq (pts_s1 (F := F) d L _)); iexact Hs1'
      iexists _; iapply (Entails.of_eq (pts_s2 (F := F) d L _)); iexact Hs2'
    isplitl [Hc0 Hc1 Hc2 Hc3]
    · isplitl [Hc0]; · iexact Hc0
      isplitl [Hc1]; · iexact Hc1
      isplitl [Hc2]; · iexact Hc2
      iexact Hc3
    isplitl [HO]
    · iexists (insert (SemLoc.dma cc0_scoped3.sem, none) (insert (SemLoc.dma cc0_scoped2.sem, none)
        (insert (SemLoc.dma cc0_scoped1.sem, none) (insert (SemLoc.dma cc0_scoped0.sem, none) W)))); isplitr
      · ipureintro; intro p hp
        rcases Finset.mem_insert.mp hp with rfl | hp
        · exact .inr rfl
        rcases Finset.mem_insert.mp hp with rfl | hp
        · exact .inr rfl
        rcases Finset.mem_insert.mp hp with rfl | hp
        · exact .inr rfl
        rcases Finset.mem_insert.mp hp with rfl | hp
        · exact .inr rfl
        · exact .inl hp
      iexact HO
    iexact HR⟩

omit [FloatOps F] in
theorem regroup {PT PT' A0 A1 A2 c0 c1 c2 c3 HW Rb Rs : sProp 𝕄} (h : PT ⊢ PT') :
    iprop(PT ∗ (A0 ∗ A1 ∗ A2) ∗ (c0 ∗ c1 ∗ c2 ∗ c3) ∗ HW ∗ (Rb ∗ Rs)) ⊢ iprop(PT' ∗ (A0 ∗ A1 ∗ A2 ∗ Rb) ∗ (c0 ∗ c1 ∗ c2 ∗ c3 ∗ Rs) ∗ HW) := by
  iintro ⟨Ho, ⟨Hs0, Hs1, Hs2⟩, ⟨Hc0, Hc1, Hc2, Hc3⟩, HW, ⟨Hbufs, Hsems⟩⟩
  isplitl [Ho]; · iapply h; iexact Ho
  isplitl [Hs0 Hs1 Hs2 Hbufs]
  · isplitl [Hs0]; · iexact Hs0
    isplitl [Hs1]; · iexact Hs1
    isplitl [Hs2]; · iexact Hs2
    iexact Hbufs
  isplitl [Hc0 Hc1 Hc2 Hc3 Hsems]
  · isplitl [Hc0]; · iexact Hc0
    isplitl [Hc1]; · iexact Hc1
    isplitl [Hc2]; · iexact Hc2
    isplitl [Hc3]; · iexact Hc3
    iexact Hsems
  iexact HW

/-- The task from what the launch hands the tile (its scoped buffers and cells, whatever they hold) back to it: the block of
    the result array at what the run found, from some contents of the scratch. -/
theorem tile_body (hF : (K (F := F)).Facts) (O : CellTallies nD τ sig (HIx 1)) (W : Waits sig (HIx 1)) (hO : ∀ g, O g none = 0)
    (q : PosShare TreeShare) (fx : Buf (Elt F) (xLoc d)) (fc : Buf (Elt F) (cLoc d)) (fw : Buf (Elt F) (v1Loc d)) (fo : Buf (Elt F) (oLoc d)) :
    (iprop(levAts (K (F := F)).L (K (F := F)).lev ∗ emp
        ∗ ((xLoc d ↦{q} fx) ∗ (cLoc d ↦{q} fc) ∗ (v1Loc d ↦{q} fw) ∗ oLoc d ↦[rowsOf (L 0).val (L 1).val]{fullShare} fo)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_gibbs L xV (Memref.isWhole_whole _) wV (Memref.isWhole_whole _) tV (Memref.isWhole_whole _) oV (Memref.isWhole_whole _)
            s0 (Memref.isWhole_whole _) s1 (Memref.isWhole_whole _) s2 (Memref.isWhole_whole _) cc0_scoped0 cc0_scoped1 cc0_scoped2 cc0_scoped3)
          fun _ => iprop((∃ f0 f1 f2 R, oLoc d ↦[rowsOf (L 0).val (L 1).val]{fullShare} (tile_run d L O W hO q fx fc fw fo f0 f1 f2 R).1)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, Hres, ⟨⟨%f0, Hs0⟩, ⟨%f1, Hs1⟩, ⟨%f2, Hs2⟩, Hbufs⟩, ⟨Hc0, Hc1, Hc2, Hc3, Hsems⟩, HO⟩
  have hPT : ∀ R, (oLoc d ↦[rowsOf (L 0).val (L 1).val]{fullShare} (tile_run d L O W hO q fx fc fw fo f0 f1 f2 R).1 : sProp 𝕄)
      ⊢ iprop(∃ f0 f1 f2 R, oLoc d ↦[rowsOf (L 0).val (L 1).val]{fullShare} (tile_run d L O W hO q fx fc fw fo f0 f1 f2 R).1) := by
    intro R; iintro H; iexists f0, f1, f2, R; iexact H
  iapply ((tile_run d L O W hO q fx fc fw fo f0 f1 f2 _).2.trans (wp_mono frame _ _ fun _ => regroup (hPT _)))
  isplitr; · iexact Hlv
  isplitl [Hres]; · iexact Hres
  isplitl [Hs0 Hs1 Hs2]
  · isplitl [Hs0]; · iexact Hs0
    isplitl [Hs1]; · iexact Hs1
    iexact Hs2
  isplitl [Hc0 Hc1 Hc2 Hc3]
  · isplitl [Hc0]; · iexact Hc0
    isplitl [Hc1]; · iexact Hc1
    isplitl [Hc2]; · iexact Hc2
    iexact Hc3
  isplitl [HO]; · iexact HO
  isplitl [Hbufs]; · iexact Hbufs
  iexact Hsems

end Tile

end Cert.Kernel.Sc

end
-- ==== Proof.ScBitsLaunch.lean ====
/-
  The launch: the tile's task as the launch theorem's obligation, a SparseCore's shares dealt to its tiles, the launch
  element, and @main on the TensorCore (the constant table, the slice and the reshape, the call), with what it reads off
  the final memory: the two arguments unchanged.
-/
import proofs.«213024_g80238579024365_cont_9to1c4b_497_7_alg».proof.Proof.ScBitsBody

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gibbs (coordsV c s)
          xV (Memref.isWhole_whole _) wV (Memref.isWhole_whole _) tV (Memref.isWhole_whole _) oV (Memref.isWhole_whole _)
          s0 (Memref.isWhole_whole _) s1 (Memref.isWhole_whole _) s2 (Memref.isWhole_whole _) cc0_scoped0 cc0_scoped1 cc0_scoped2 cc0_scoped3) ⟨⟩ c s := rfl

omit [FloatOps F] in
theorem obl_post {thr : Thread nD τ} {A A' B C : sProp 𝕄} {O : CellTallies nD τ sig (HIx 1)} {W : Waits sig (HIx 1)} {q : Fin 1} (h : A ⊢ A') :
    iprop(A ∗ B ∗ C ∗ ∃ W', ⌜∀ p ∈ W', p ∈ W ∨ p.2 = none⌝ ∗ owes thr O W')
      ⊢ iprop(A' ∗ B ∗ C ∗ ∃ W', ⌜∀ p ∈ W', p ∈ W ∨ p.2 = none ∨ p.2 = some q⌝ ∗ owes thr O W') := by
  iintro ⟨HA, HB, HC, %W', %hW', HO⟩
  isplitl [HA]; · iapply h; iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (Pf m) v₀ 0 := by
  intro d c i O W hO _ _
  simp only [show (Pf m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  refine (tile_body d (coordsV ⟨_, hc.1⟩ ⟨_, hc.2⟩) hF O W hO _ _ _ _ _).trans (wp_mono frame _ _ fun _ => obl_post ?_)
  show _ ⊢ tdPf (F := F) d c.val i.val
  unfold tdPf
  iintro H
  icases H with ⟨%f0, %f1, %f2, %R, H⟩
  iexists _; iexact H

theorem vecSplit : (K (F := F)).VecSplit' (Pf m) 0 := by
  intro d c
  show stP m d c.val ⊢ |={Set.univ}=> iprop((bigSep Finset.univ fun i : Fin 16 => goP m d c.val i.val)
    ∗ ((bigSep Finset.univ fun i : Fin 16 => tdPf (F := F) d c.val i.val) -∗ dnPf (F := F) d c.val))
  unfold stP goP dnPf tokQ
  rw [bigSep_sep', bigSep_sep', bigSep_sep']
  iintro ⟨Hx, Hc, Hw, Ho⟩
  ihave Hx' := (Transfers.pointsTo_toks_split (Transfers.shareTokN fullShare c.val) 16) $$ Hx
  icases Hx' with ⟨-, Hx⟩
  ihave Hc' := (Transfers.pointsTo_toks_split (Transfers.shareTokN fullShare c.val) 16) $$ Hc
  icases Hc' with ⟨-, Hc⟩
  ihave Hw' := (Transfers.pointsTo_toks_split (Transfers.shareTokN fullShare c.val) 16) $$ Hw
  icases Hw' with ⟨-, Hw⟩
  imodintro
  isplitl [Hx Hc Hw Ho]
  · isplitl [Hx]; · iexact Hx
    isplitl [Hc]; · iexact Hc
    isplitl [Hw]; · iexact Hw
    iexact Ho
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (Pf m).x q thr) := by
  unfold u₀
  iintro Hu
  ihave H := (ownU_pair _ _) $$ Hu
  icases H with ⟨HH, -⟩
  imodintro
  isplitl [HH]; · iexact HH
  isplitr; · rw [bigSep_emp']; iempintro
  unfold Pf; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev x' : DevRef τ sig := Proc.devRef .tc (main_arg0 : Ref sig .tc)
abbrev th' : DevRef τ sig := Proc.devRef .tc (main_arg1 : Ref sig .tc)
abbrev c' : DevRef τ sig := Proc.devRef .tc (main_cst : Ref sig .tc)
abbrev a' : DevRef τ sig := Proc.devRef .tc (main_v0 : Ref sig .tc)
abbrev w' : DevRef τ sig := Proc.devRef .tc (main_v1 : Ref sig .tc)
abbrev o' : DevRef τ sig := Proc.devRef .tc (main_v2 : Ref sig .tc)

abbrev opC : HloOp τ sig (Elt F) := StableHlo.nullary main_cst (fun i => FloatOps.ofBits .f32 (lit0 (S128x16.rowMajor i)))
abbrev opS : HloOp τ sig (Elt F) :=
  StableHlo.unary main_arg1 main_v0 ((extractStridedSlice S16 ![0] · Facts₀.slices_S4096_S16_0) : (⟨S4096, .f32⟩ : BufTy).Contents (Elt F) → (⟨S16, .f32⟩ : BufTy).Contents (Elt F))
abbrev opR : HloOp τ sig (Elt F) := StableHlo.reshape main_v0 main_v1 rfl Facts₀.shapeCasts_S16_S1x16

/-- The TensorCore's arrays, all unscoped. -/
abbrev S6 : Finset (DevRef τ sig) := {x', th', c', a', w', o'}

omit [FloatOps F] in
theorem held_S6 (d : Dev nD) (W : Valuation τ sig (Elt F)) :
    (held (T d) S6 W : sProp 𝕄) = iprop((xLoc d ↦{fullShare} W x') ∗ (thLoc d ↦{fullShare} W th') ∗ (cLoc d ↦{fullShare} W c')
      ∗ (v0Loc d ↦{fullShare} W a') ∗ (v1Loc d ↦{fullShare} W w') ∗ oLoc d ↦{fullShare} W o') := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (thLoc d ↦{fullShare} W main_arg1) ∗ (cLoc d ↦{fullShare} W main_cst)
      ∗ (v0Loc d ↦{fullShare} W main_v0) ∗ (v1Loc d ↦{fullShare} W main_v1) ∗ oLoc d ↦{fullShare} W main_v2) := by
  unfold unscopedBufs
  rw [show (Finset.univ.filter fun b : Ref sig .tc => ¬ b.isScoped) = {main_arg0, main_arg1, main_cst, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The launch valuation, and the valuations after the constant, the slice and the reshape. -/
def V0 (d : Dev nD) : Valuation τ sig (Elt F) := fun b => m (d, b)
def V1 (d : Dev nD) : Valuation τ sig (Elt F) := (opC (F := F)).result (V0 m d)
def V2 (d : Dev nD) : Valuation τ sig (Elt F) := (opS (F := F)).result (V1 m d)
def V3 (d : Dev nD) : Valuation τ sig (Elt F) := (opR (F := F)).result (V2 m d)

theorem unscoped_held (d : Dev nD) : (unscopedBufs d (fun b => m ((SparseCore.T d).loc b)) : sProp 𝕄) = held (T d) S6 (V0 m d) := by
  rw [unscopedBufs_eq, held_S6]; rfl

theorem V3_x (d : Dev nD) : V3 m d x' = m (xLoc d) := by
  unfold V3 V2 V1
  rw [(opR (F := F)).result_of_not_mem _ (b := x') (show x' ∉ ({w'} : Finset (DevRef τ sig)) by decide),
    (opS (F := F)).result_of_not_mem _ (b := x') (show x' ∉ ({a'} : Finset (DevRef τ sig)) by decide),
    (opC (F := F)).result_of_not_mem _ (b := x') (show x' ∉ ({c'} : Finset (DevRef τ sig)) by decide)]
  rfl
theorem V3_th (d : Dev nD) : V3 m d th' = m (thLoc d) := by
  unfold V3 V2 V1
  rw [(opR (F := F)).result_of_not_mem _ (b := th') (show th' ∉ ({w'} : Finset (DevRef τ sig)) by decide),
    (opS (F := F)).result_of_not_mem _ (b := th') (show th' ∉ ({a'} : Finset (DevRef τ sig)) by decide),
    (opC (F := F)).result_of_not_mem _ (b := th') (show th' ∉ ({c'} : Finset (DevRef τ sig)) by decide)]
  rfl
theorem V3_o (d : Dev nD) : V3 m d o' = m (oLoc d) := by
  unfold V3 V2 V1
  rw [(opR (F := F)).result_of_not_mem _ (b := o') (show o' ∉ ({w'} : Finset (DevRef τ sig)) by decide),
    (opS (F := F)).result_of_not_mem _ (b := o') (show o' ∉ ({a'} : Finset (DevRef τ sig)) by decide),
    (opC (F := F)).result_of_not_mem _ (b := o') (show o' ∉ ({c'} : Finset (DevRef τ sig)) by decide)]
  rfl
theorem V3_c (d : Dev nD) : V3 m d c' = cF (F := F) d := by
  unfold V3 V2 V1
  rw [(opR (F := F)).result_of_not_mem _ (b := c') (show c' ∉ ({w'} : Finset (DevRef τ sig)) by decide),
    (opS (F := F)).result_of_not_mem _ (b := c') (show c' ∉ ({a'} : Finset (DevRef τ sig)) by decide)]
  exact StableHlo.nullary_result _ _ _ _
theorem V3_w (d : Dev nD) : V3 m d w' = v1F m d := by
  unfold V3
  refine (StableHlo.reshape_result _ _ _ _ _ _ _).trans ?_
  unfold V2
  rw [StableHlo.unary_result]
  unfold V1
  rw [(opC (F := F)).result_of_not_mem _ (b := th') (show th' ∉ ({c'} : Finset (DevRef τ sig)) by decide)]
  rfl

theorem held_V3 (d : Dev nD) :
    (held (T d) S6 ((opR (F := F)).result (V2 m d)) : sProp 𝕄) = iprop((xLoc d ↦{fullShare} m (xLoc d)) ∗ (thLoc d ↦{fullShare} m (thLoc d))
      ∗ (cLoc d ↦{fullShare} cF (F := F) d) ∗ (v0Loc d ↦{fullShare} V3 m d a') ∗ (v1Loc d ↦{fullShare} v1F m d) ∗ oLoc d ↦{fullShare} m (oLoc d)) := by
  show (held (T d) S6 (V3 m d) : sProp 𝕄) = _
  rw [held_S6, V3_x, V3_th, V3_c, V3_w, V3_o]

theorem hC : (opC (F := F)).bufs ⊆ S6 := show ({c'} : Finset (DevRef τ sig)) ⊆ S6 by decide
theorem hS : (opS (F := F)).bufs ⊆ S6 := show ({th', a'} : Finset (DevRef τ sig)) ⊆ S6 by decide
theorem hR : (opR (F := F)).bufs ⊆ S6 := show ({a', w'} : Finset (DevRef τ sig)) ⊆ S6 by decide

/-- What the call takes for the two SparseCores, and what it hands back. -/
theorem st0_eq (d : Dev nD) : (bigSep Finset.univ fun c : Fin ((K (F := F)).nCore 0) => (Pf m).st 0 d c)
    = iprop((bigSep Finset.univ fun c : Fin 2 => xLoc d ↦{Transfers.shareTok fullShare 2 c} m (xLoc d))
      ∗ (bigSep Finset.univ fun c : Fin 2 => cLoc d ↦{Transfers.shareTok fullShare 2 c} cF (F := F) d)
      ∗ (bigSep Finset.univ fun c : Fin 2 => v1Loc d ↦{Transfers.shareTok fullShare 2 c} v1F m d)
      ∗ bigSep Finset.univ fun c : Fin 2 => bigSep Finset.univ fun i : Fin 16 => oLoc d ↦[rowsOf c.val i.val]{fullShare} m (oLoc d)) := by
  show (bigSep (Finset.univ : Finset (Fin 2)) fun c => stP m d c.val) = _
  unfold stP
  rw [bigSep_sep', bigSep_sep', bigSep_sep']

/-- What @main leaves the claim: the two arguments at their launch contents (of the first, the share it kept). -/
abbrev FIN (d : Dev nD) : sProp 𝕄 := iprop((xLoc d ↦{Transfers.shareDrop fullShare 2} m (xLoc d)) ∗ thLoc d ↦{fullShare} m (thLoc d))

/-- @main on device d's TensorCore: the constant table, the slice, the reshape (each over the six arrays held whole), then
    the call, from read shares of the three arrays the tiles read and the result array's blocks. -/
theorem hmain (κ : GSem nD τ sig → ℕ) (d : Dev nD) :
    iprop((K (F := F)).ctx EH (Pf m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opC) (S := S6) hC (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opS) (S := S6) hS (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := opR) (S := S6) hR (V := V2 m d)) $$ [Hb Hheld]
  · isplitl [Hb]; · iexact Hb
    iexact Hheld
  iintro ⟨Hb, Hheld⟩
  rw [wp_ret]; imodintro
  ihave Hh := (Entails.of_eq (held_V3 (F := F) m d)) $$ Hheld
  icases Hh with ⟨Hx, Hth, Hc, -, Hw, Ho⟩
  ihave Hx' := (Transfers.pointsTo_toks_split fullShare 2) $$ Hx
  icases Hx' with ⟨Hxr, Hx⟩
  ihave Hc' := (Transfers.pointsTo_toks_split fullShare 2) $$ Hc
  icases Hc' with ⟨-, Hc⟩
  ihave Hw' := (Transfers.pointsTo_toks_split fullShare 2) $$ Hw
  icases Hw' with ⟨-, Hw⟩
  ihave Ho' := (Entails.of_eq (oPts_blocks (F := F) d fullShare (m (oLoc d)))) $$ Ho
  iapply ((K (F := F)).wp_run (D (F := F)) 𝒱 (EH := EH) (P := Pf m) κ d 0) $$ [Hst Hx Hc Hw Ho' Hxr Hth]
  isplitr; · iexact Hctx
  isplitl [Hst]; · iexact Hst
  isplitl [Hx Hc Hw Ho']
  · rw [st0_eq]
    isplitl [Hx]; · iexact Hx
    isplitl [Hc]; · iexact Hc
    isplitl [Hw]; · iexact Hw
    iexact Ho'
  iintro ⟨Hst, -⟩
  imodintro
  isplitl [Hst]; · iexact Hst
  isplitl [Hxr]; · iexact Hxr
  iexact Hth

def fq (d : Dev nD) (s' : Phys nD τ sig (Elt F)) : Prop := s'.mem.mem (xLoc d) = m (xLoc d) ∧ s'.mem.mem (thLoc d) = m (thLoc d)

theorem hfin (d : Dev nD) (s' : Phys nD τ sig (Elt F)) : iprop(FIN m d ∗ SI s') ⊢ (⌜fq m d s'⌝ : sProp 𝕄) := by
  iintro ⟨⟨Hx, Hth⟩, HSI⟩
  ihave H := (persistent_entails_right (SI_pointsTo_agree (st := s') (ℓ := xLoc d) (I := Finset.univ) (q := Transfers.shareDrop fullShare 2) (f := m (xLoc d)))) $$ [HSI Hx]
  · isplitl [HSI] <;> iassumption
  icases H with ⟨%h1, HSI, -⟩
  ihave H := (SI_pointsTo_agree (st := s') (ℓ := thLoc d) (I := Finset.univ) (q := fullShare) (f := m (thLoc d))) $$ [HSI Hth]
  · isplitl [HSI] <;> iassumption
  icases H with %h2
  ipureintro; exact ⟨funext fun i => h1 i (Finset.mem_univ i), funext fun i => h2 i (Finset.mem_univ i)⟩

/-! ## The program's run -/

def QCf : PUnit × MemSt nD τ sig (Elt F) → Prop := fun r => ∀ c : Dev nD, r.2.mem (xLoc c) = m (xLoc c) ∧ r.2.mem (thLoc c) = m (thLoc c)

theorem run_main_frame [∀ e, Nonempty (Elt F e)] :
    θ_run (Cert.Kernel.defs (F := F)) (Cert.Kernel.threads (F := F)) ⟨m, fun _ => 0, ρ⟩ (QCf m) :=
  SparseCore.Cfg.θ_run_sc (K := K (F := F)) (D := D (F := F)) (𝒱 := 𝒱) (EH := EH) (P := Pf m) kfacts v₀
    (fun q hq => match q with | 0 => nomatch hq)
    (fun q _ => match q with | 0 => tileObl m kfacts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QCf m) (fun _ h => h)

/-- The run of the kernel program from every memory: the two arguments are unchanged. -/
theorem run_sc_frame [∀ e, Nonempty (Elt F e)] (m : (ℓ : Loc nD τ sig) → Buf (Elt F) ℓ) (ρ : Dev nD → PrngReg) :
    θ_run (defs (F := F)) (threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  run_main_frame m ρ

end Cert.Kernel.Sc

end
-- ==== Proof.ScIdealVal.lean ====
/-
  The update the kernel applies, as pure functions of the two argument arrays: per row, lanes 0..15 pass through the
  lane update (a draw below the conditional probability flips the sign term in), lanes from 16 on are kept.
-/
import proofs.«213024_g80238579024365_cont_9to1c4b_497_7_alg».proof.KernelIdeal
import Idealize.ShloMosaic.Lib.ValueIdx

noncomputable section

namespace Cert.KernelIdeal.Sc

open Cert.KernelIdeal
open Idealize.ShloMosaic

variable {F : FTy → Type} [FloatOps F]

/-- a lane index of a sixteen-lane vector is below sixteen, as a literal -/
theorem lane_lt (l' : S16.Idx) : (l' 0).val < 16 := (l' 0).isLt

/-- lanes 0..15 of a row after the update: x the row's lanes, th the weights, u the draws -/
def laneUpd (x th u : FVec F S16 .f32) : FVec F S16 .f32 :=
  let one : FVec F S16 .f32 := broadcast S16 (Scalar.ofBits .f32 0x3F800000#32)
  let zero : FVec F S16 .f32 := broadcast S16 (Scalar.ofBits .f32 0x00000000#32)
  let two : FVec F S16 .f32 := broadcast S16 (Scalar.ofBits .f32 0x40000000#32)
  let sgn := subf one (mulf two x)
  addf x (mulf (select (cmpf .olt u (divf one (addf one (exp (mulf (subf zero sgn) th))))) one zero) sgn)

/-- the first sixteen lanes of row b of the array -/
def xRow (x : FVec F S128x4096 .f32) (b : Fin 128) : FVec F S16 .f32 :=
  fun l' => x (ValueIdx.ix2 b ⟨(l' 0).val, by have := lane_lt l'; show (l' 0).val < 4096; omega⟩)

/-- the first sixteen weights -/
def thRow (th : FVec F S4096 .f32) : FVec F S16 .f32 :=
  fun l' => th (ValueIdx.ix1 ⟨(l' 0).val, by have := lane_lt l'; show (l' 0).val < 4096; omega⟩)

/-- row b of the constant table of draws -/
def uRow (b : Fin 128) : FVec F S16 .f32 :=
  fun l' => FloatOps.ofBits .f32 (lit0 ⟨16 * b.val + (l' 0).val, by have := lane_lt l'; have := b.isLt; show 16 * b.val + (l' 0).val < 2048; omega⟩)

/-- the result array as one function of the two argument arrays -/
def kout (x : FVec F S128x4096 .f32) (th : FVec F S4096 .f32) : FVec F S128x4096 .f32 :=
  fun ix => if h : (ix 1).val < 16 then laneUpd (xRow x (ix 0)) (thRow th) (uRow (ix 0)) (ValueIdx.ix1 ⟨(ix 1).val, h⟩) else x ix

theorem kout_hi (x : FVec F S128x4096 .f32) (th : FVec F S4096 .f32) (b : Fin 128) (j : Fin 4096) (h : 16 ≤ j.val) :
    kout x th (ValueIdx.ix2 b j) = x (ValueIdx.ix2 b j) := by
  unfold kout
  exact dif_neg (by show ¬ j.val < 16; omega)

theorem kout_lo (x : FVec F S128x4096 .f32) (th : FVec F S4096 .f32) (b : Fin 128) (l : Fin 16) :
    kout x th (ValueIdx.ix2 b ⟨l.val, by omega⟩)
      = laneUpd (fun l' => x (ValueIdx.ix2 b ⟨(l' 0).val, by have := lane_lt l'; show (l' 0).val < 4096; omega⟩))
          (fun l' => th (ValueIdx.ix1 ⟨(l' 0).val, by have := lane_lt l'; show (l' 0).val < 4096; omega⟩))
          (fun l' => FloatOps.ofBits .f32 (lit0 ⟨16 * b.val + (l' 0).val, by have := lane_lt l'; have := b.isLt; show 16 * b.val + (l' 0).val < 2048; omega⟩))
          (ValueIdx.ix1 l) := by
  unfold kout
  exact dif_pos (by show l.val < 16; exact l.isLt)

end Cert.KernelIdeal.Sc

end
-- ==== Proof.ScIdealDefs.lean ====
/-
  The SparseCore side of the program, set up for the launch theorem: the configuration, the ghost state (the
  handshakes' rounds beside the transfers' counters), the arrays as locations and as the tiles' memrefs, the
  four-row blocks of the result array (tile (c, s) owns rows 8 s + 4 c .. 8 s + 4 c + 3), and what the handshakes
  carry: read shares of the three arrays every tile reads, the tile's block of the result.
-/
import proofs.«213024_g80238579024365_cont_9to1c4b_497_7_alg».proof.Proof.ScIdealVal
import Idealize.ShloMosaic.Lib.SparseCore.Launch
import Idealize.ShloMosaic.Lib.StableHlo.Run
import Idealize.ShloMosaic.Lib.Pipeline.Kit
import Idealize.ShloMosaic.Lib.Tactic
import proofs.«213024_g80238579024365_cont_9to1c4b_497_7_alg».proof.Proof.Gen.KernelIdeal
import proofs.«213024_g80238579024365_cont_9to1c4b_497_7_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem kfacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

abbrev xLoc (d : Dev nD) : Loc nD τ sig := (SparseCore.T d).loc main_arg0
abbrev thLoc (d : Dev nD) : Loc nD τ sig := (SparseCore.T d).loc main_arg1
abbrev cLoc (d : Dev nD) : Loc nD τ sig := (SparseCore.T d).loc main_cst
abbrev v0Loc (d : Dev nD) : Loc nD τ sig := (SparseCore.T d).loc main_v0
abbrev v1Loc (d : Dev nD) : Loc nD τ sig := (SparseCore.T d).loc main_v1
abbrev oLoc (d : Dev nD) : Loc nD τ sig := (SparseCore.T d).loc main_v2

/-! ## The blocks of the result array -/

/-- The rows of block 2 i + c: rows 8 i + 4 c .. 8 i + 4 c + 3, every lane. -/
def rowsOf (c i : ℕ) : Finset S128x4096.Idx := Finset.univ.filter fun ix => (ix 0).val / 4 = 2 * i + c

theorem mem_rowsOf {c i : ℕ} {ix : S128x4096.Idx} : ix ∈ rowsOf c i ↔ (ix 0).val / 4 = 2 * i + c := by
  unfold rowsOf; rw [Finset.mem_filter]; exact ⟨fun h => h.2, fun h => ⟨Finset.mem_univ _, h⟩⟩

theorem rows_disjoint : ∀ p ∈ (Finset.univ : Finset (Fin 2 × Fin 16)), ∀ p' ∈ (Finset.univ : Finset (Fin 2 × Fin 16)), p ≠ p' →
    Disjoint (rowsOf p.1.val p.2.val) (rowsOf p'.1.val p'.2.val) := by
  intro p _ p' _ hne
  refine Finset.disjoint_left.mpr fun ix h1 h2 => hne ?_
  rw [mem_rowsOf] at h1 h2
  have hc := p.1.isLt; have hc' := p'.1.isLt
  exact Prod.ext (Fin.ext (by omega)) (Fin.ext (by omega))

theorem rows_cover : (Finset.univ : Finset (Fin 2 × Fin 16)).biUnion (fun p => rowsOf p.1.val p.2.val) = Finset.univ := by
  ext ix
  simp only [Finset.mem_biUnion, Finset.mem_univ, true_and, iff_true]
  have h0 : (ix 0).val < 128 := (ix 0).isLt
  refine ⟨(⟨(ix 0).val / 4 % 2, by omega⟩, ⟨(ix 0).val / 4 / 2, by omega⟩), ?_⟩
  rw [mem_rowsOf]; show (ix 0).val / 4 = 2 * ((ix 0).val / 4 / 2) + (ix 0).val / 4 % 2; omega

omit m in
/-- The result array whole is its thirty-two blocks, by SparseCore then by tile. -/
theorem oPts_blocks (d : Dev nD) (q : PosShare TreeShare) (f : Buf (Elt F) (oLoc d)) :
    (oLoc d ↦{q} f : sProp 𝕄) = bigSep Finset.univ fun c : Fin 2 => bigSep Finset.univ fun i : Fin 16 => oLoc d ↦[rowsOf c.val i.val]{q} f := by
  rw [← SparseCore.bigSep_product (Finset.univ : Finset (Fin 2)) (Finset.univ : Finset (Fin 16)) (fun p => (oLoc d ↦[rowsOf p.1.val p.2.val]{q} f : sProp 𝕄)),
    Finset.univ_product_univ, ← pointsTo_biUnion Finset.univ (ℓ := oLoc d) (fun p : Fin 2 × Fin 16 => rowsOf p.1.val p.2.val) rows_disjoint, rows_cover]
  try rfl

/-! ## What the handshakes carry -/

/-- The read share of tile i of SparseCore c. -/
def tokQ (c i : ℕ) : PosShare TreeShare := Transfers.shareTokN (Transfers.shareTokN fullShare c) i

variable [FloatOps F]

/-- The table of draws as @main's constant writes it. -/
def cF (d : Dev nD) : Buf (Elt F) (cLoc d) := fun i => FloatOps.ofBits .f32 (lit0 (S128x16.rowMajor i))
/-- The first sixteen weights, as one row: the slice of the weights, reshaped. -/
def v1F (d : Dev nD) : Buf (Elt F) (v1Loc d) :=
  shapeCast S1x16 (extractStridedSlice S16 ![0] (m (thLoc d)) Facts₀.slices_S4096_S16_0) Facts₀.shapeCasts_S16_S1x16
/-- What the kernel leaves in the result array. -/
def oF (d : Dev nD) : Buf (Elt F) (oLoc d) := kout (m (xLoc d)) (m (thLoc d))

/-- What tile i of SparseCore c is handed: a read share of the argument, of the table and of the weights' row, and its
    block of the result array. -/
def goP (d : Dev nD) (c i : ℕ) : sProp 𝕄 :=
  iprop((xLoc d ↦{tokQ c i} m (xLoc d)) ∗ (cLoc d ↦{tokQ c i} cF d) ∗ (v1Loc d ↦{tokQ c i} v1F m d) ∗ oLoc d ↦[rowsOf c i]{fullShare} m (oLoc d))
/-- What it hands back: its block of the result array, at the kernel's function. -/
def tdP (d : Dev nD) (c i : ℕ) : sProp 𝕄 := oLoc d ↦[rowsOf c i]{fullShare} oF m d
/-- What SparseCore c is handed: read shares for its tiles to split, its tiles' blocks. -/
def stP (d : Dev nD) (c : ℕ) : sProp 𝕄 :=
  iprop((xLoc d ↦{Transfers.shareTokN fullShare c} m (xLoc d)) ∗ (cLoc d ↦{Transfers.shareTokN fullShare c} cF d)
    ∗ (v1Loc d ↦{Transfers.shareTokN fullShare c} v1F m d) ∗ bigSep Finset.univ fun i : Fin 16 => oLoc d ↦[rowsOf c i.val]{fullShare} m (oLoc d))
def dnP (d : Dev nD) (c : ℕ) : sProp 𝕄 := bigSep Finset.univ fun i : Fin 16 => tdP m d c i.val

/-- The same with nothing said of the block's contents. -/
def tdPf (d : Dev nD) (c i : ℕ) : sProp 𝕄 := iprop(∃ f, oLoc d ↦[rowsOf c i]{fullShare} f)
def dnPf (d : Dev nD) (c : ℕ) : sProp 𝕄 := bigSep Finset.univ fun i : Fin 16 => tdPf (F := F) d c i.val

instance tdPf_storable (d : Dev nD) (c i : ℕ) : BI.Storable (upEmb : UEmb _ 𝕄) (tdPf (F := F) d c i) := by unfold tdPf; infer_instance
instance dnPf_storable (d : Dev nD) (c : ℕ) : BI.Storable (upEmb : UEmb _ 𝕄) (dnPf (F := F) d c) := by unfold dnPf; infer_instance

instance goP_storable (d : Dev nD) (c i : ℕ) : BI.Storable (upEmb : UEmb _ 𝕄) (goP m d c i) := by unfold goP; infer_instance
instance tdP_storable (d : Dev nD) (c i : ℕ) : BI.Storable (upEmb : UEmb _ 𝕄) (tdP m d c i) := by unfold tdP; infer_instance
instance stP_storable (d : Dev nD) (c : ℕ) : BI.Storable (upEmb : UEmb _ 𝕄) (stP m d c) := by unfold stP; infer_instance
instance dnP_storable (d : Dev nD) (c : ℕ) : BI.Storable (upEmb : UEmb _ 𝕄) (dnP m d c) := by unfold dnP; infer_instance

def P : (K (F := F)).Pay (nD := nD) (Val := Elt F) (Name := ℕ) (U := UU) where
  st := fun _ d c => stP m d c.val
  dn := fun _ d c => dnP m d c.val
  go := fun _ d c i => goP m d c.val i.val
  td := fun _ d c i => tdP m d c.val i.val
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-- The payloads of the run that says nothing of the result array's contents. -/
def Pf : (K (F := F)).Pay (nD := nD) (Val := Elt F) (Name := ℕ) (U := UU) where
  st := fun _ d c => stP m d c.val
  dn := fun _ d c => dnPf (F := F) d c.val
  go := fun _ d c i => goP m d c.val i.val
  td := fun _ d c i => tdPf (F := F) d c.val i.val
  x := fun _ _ => iprop(emp)

instance Pf_storable : (Pf (F := F) m).IsStorable where
  st _ d c := by unfold Pf; infer_instance
  dn _ d c := by unfold Pf; infer_instance
  go _ _ _ _ := by unfold Pf; infer_instance
  td _ _ _ _ := by unfold Pf; infer_instance

end Cert.KernelIdeal.Sc

end
-- ==== Proof.ScIdealBody.lean ====
/-
  One tile's task, at a symbolic grid point: three copies in (its four rows of the argument, its four rows of the
  table, the weights' row), four rows updated in place in the scratch, one copy out into its block of the result.
-/
import proofs.«213024_g80238579024365_cont_9to1c4b_497_7_alg».proof.Proof.ScIdealDefs

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ)

/-! ## The kernel's memrefs, spelt as the body table passes them -/

abbrev xV : Memref sig .scVector .hbm S128x4096 .f32 := Memref.whole main_arg0_scv
abbrev wV : Memref sig .scVector .hbm S1x16 .f32 := Memref.whole main_v1_scv
abbrev tV : Memref sig .scVector .hbm S128x16 .f32 := Memref.whole main_cst_scv
abbrev oV : Memref sig .scVector .hbm S128x4096 .f32 := Memref.whole main_v2_scv
abbrev s0 : Memref sig .scVector .vmem S4x4096 .f32 := Memref.whole cc0_scratch0
abbrev s1 : Memref sig .scVector .vmem S4x16 .f32 := Memref.whole cc0_scratch1
abbrev s2 : Memref sig .scVector .vmem S1x16 .f32 := Memref.whole cc0_scratch2

section Tile

variable (d : Dev nD) (L : grid0.Coords)

abbrev cV (L : grid0.Coords) : Fin τ.nSC := (L 0).castLE hcore0
abbrev jV (L : grid0.Coords) : Fin τ.nSub := (L 1).castLE hsub0

/-- The tile's block of the result array, as the kernel slices it. -/
abbrev oSl (L : grid0.Coords) : Memref sig .scVector .hbm S4x4096 .f32 :=
  (oV : Memref sig .scVector .hbm S128x4096 .f32).slice (Rect.unit (s := S128x4096) (k0_off1 L) S4x4096.size (k0_off1_inb L)) (fun _ => rfl)

theorem set_oSl : (oSl L).view.set = rowsOf (L 0).val (L 1).val := by
  show ((View.whole (main_v2_scv : Ref sig .scVector)).slice (Rect.unit (s := S128x4096) (k0_off1 L) S4x4096.size (k0_off1_inb L))).set = _
  rw [View.set_slice]
  refine Finset.map_refl.trans ?_
  ext ix
  rw [Rect.mem_set_unit, mem_rowsOf, k0_off1_eq]
  have h1 : (ix 1).val < 4096 := (ix 1).isLt
  constructor
  · intro h
    have h0 := h 0
    simp only [Matrix.cons_val_zero] at h0
    omega
  · intro h a
    match a with
    | 0 =>
      show 8 * (L 1).val + 4 * (L 0).val ≤ (ix 0).val ∧ (ix 0).val < 8 * (L 1).val + 4 * (L 0).val + 4
      omega
    | 1 =>
      show 0 ≤ (ix 1).val ∧ (ix 1).val < 0 + 4096
      omega

theorem pts_oSl (f : Buf (Elt F) (oLoc d)) :
    ((oSl L).view.loc (V d (cV L) (jV L)) ↦[(oSl L).view.set]{fullShare} f : sProp 𝕄) = oLoc d ↦[rowsOf (L 0).val (L 1).val]{fullShare} f := by
  rw [set_oSl]

theorem pts_xV (q : PosShare TreeShare) (f : Buf (Elt F) (xLoc d)) :
    ((xV : Memref sig .scVector .hbm S128x4096 .f32).view.loc (V d (cV L) (jV L)) ↦{q} f : sProp 𝕄) = xLoc d ↦{q} f := rfl
theorem pts_tV (q : PosShare TreeShare) (f : Buf (Elt F) (cLoc d)) :
    ((tV : Memref sig .scVector .hbm S128x16 .f32).view.loc (V d (cV L) (jV L)) ↦{q} f : sProp 𝕄) = cLoc d ↦{q} f := rfl
theorem pts_wV (q : PosShare TreeShare) (f : Buf (Elt F) (v1Loc d)) :
    ((wV : Memref sig .scVector .hbm S1x16 .f32).view.loc (V d (cV L) (jV L)) ↦{q} f : sProp 𝕄) = v1Loc d ↦{q} f := rfl
theorem pts_s0 (f : Buf (Elt F) ((V d (cV L) (jV L)).loc cc0_scratch0)) :
    ((s0 : Memref sig .scVector .vmem S4x4096 .f32).view.loc (V d (cV L) (jV L)) ↦{fullShare} f : sProp 𝕄) = (V d (cV L) (jV L)).loc cc0_scratch0 ↦{fullShare} f := rfl
theorem pts_s1 (f : Buf (Elt F) ((V d (cV L) (jV L)).loc cc0_scratch1)) :
    ((s1 : Memref sig .scVector .vmem S4x16 .f32).view.loc (V d (cV L) (jV L)) ↦{fullShare} f : sProp 𝕄) = (V d (cV L) (jV L)).loc cc0_scratch1 ↦{fullShare} f := rfl
theorem pts_s2 (f : Buf (Elt F) ((V d (cV L) (jV L)).loc cc0_scratch2)) :
    ((s2 : Memref sig .scVector .vmem S1x16 .f32).view.loc (V d (cV L) (jV L)) ↦{fullShare} f : sProp 𝕄) = (V d (cV L) (jV L)).loc cc0_scratch2 ↦{fullShare} f := rfl

/-! ## The tile's own cells and buffers -/

abbrev cell0 (d : Dev nD) (c : Fin τ.nSC) (i : Fin τ.nSub) : GSem nD τ sig := (V d c i, .dma cc0_scoped0.sem)
abbrev cell1 (d : Dev nD) (c : Fin τ.nSC) (i : Fin τ.nSub) : GSem nD τ sig := (V d c i, .dma cc0_scoped1.sem)
abbrev cell2 (d : Dev nD) (c : Fin τ.nSC) (i : Fin τ.nSub) : GSem nD τ sig := (V d c i, .dma cc0_scoped2.sem)
abbrev cell3 (d : Dev nD) (c : Fin τ.nSC) (i : Fin τ.nSub) : GSem nD τ sig := (V d c i, .dma cc0_scoped3.sem)

theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0
          ∗ bigSep (((((ownCells (V d (cV L) (jV L))).erase (cell0 d (cV L) (jV L))).erase (cell1 d (cV L) (jV L))).erase (cell2 d (cV L) (jV L))).erase (cell3 d (cV L) (jV L)))
              fun g => semVal g 0) := by
  unfold SparseCore.Cfg.ownSems0
  rw [SparseCore.bigSep_erase' ((mem_ownCells (g := cell0 d (cV L) (jV L))).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d (cV L) (jV L))).mpr ⟨rfl, by show (SemLoc.dma cc0_scoped2.sem : SemLoc sig).isScoped .scVector = true; decide⟩⟩⟩),
    SparseCore.bigSep_erase' (Finset.mem_erase.mpr ⟨by simp [cell2, cell3]; decide, Finset.mem_erase.mpr ⟨by simp [cell1, cell3]; decide,
      Finset.mem_erase.mpr ⟨by simp [cell0, cell3]; decide,
      (mem_ownCells (g := cell3 d (cV L) (jV L))).mpr ⟨rfl, by show (SemLoc.dma cc0_scoped3.sem : SemLoc sig).isScoped .scVector = true; decide⟩⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

variable [FloatOps F]

abbrev thr (d : Dev nD) (L : grid0.Coords) : Thread nD τ := V d (cV L) (jV L)

set_option maxHeartbeats 4000000 in
/-- The task on tile (L 0, L 1) of device d, from any contents fx, fc, fw of the three arrays it reads and f0, f1, f2 of
    its scratch: what it leaves in its block of the result array, found by the run. -/
def tile_run (O : CellTallies nD τ sig (HIx 1)) (W : Waits sig (HIx 1)) (hO : ∀ g, O g none = 0)
    (q : PosShare TreeShare) (fx : Buf (Elt F) (xLoc d)) (fc : Buf (Elt F) (cLoc d)) (fw : Buf (Elt F) (v1Loc d)) (fo : Buf (Elt F) (oLoc d))
    (f0 : Buf (Elt F) ((V d (cV L) (jV L)).loc cc0_scratch0)) (f1 : Buf (Elt F) ((V d (cV L) (jV L)).loc cc0_scratch1))
    (f2 : Buf (Elt F) ((V d (cV L) (jV L)).loc cc0_scratch2)) (R : sProp 𝕄) :
    { T : Buf (Elt F) (oLoc d) //
      (iprop(levAts (K (F := F)).L (K (F := F)).lev
        ∗ ((xLoc d ↦{q} fx) ∗ (cLoc d ↦{q} fc) ∗ (v1Loc d ↦{q} fw) ∗ oLoc d ↦[rowsOf (L 0).val (L 1).val]{fullShare} fo)
        ∗ (((V d (cV L) (jV L)).loc cc0_scratch0 ↦{fullShare} f0) ∗ ((V d (cV L) (jV L)).loc cc0_scratch1 ↦{fullShare} f1)
            ∗ (V d (cV L) (jV L)).loc cc0_scratch2 ↦{fullShare} f2)
        ∗ (semVal (cell0 d (cV L) (jV L)) 0 ∗ semVal (cell1 d (cV L) (jV L)) 0 ∗ semVal (cell2 d (cV L) (jV L)) 0 ∗ semVal (cell3 d (cV L) (jV L)) 0)
        ∗ owes (V d (cV L) (jV L)) O W ∗ R) : sProp 𝕄)
      ⊢ wp frame (wpE (defs₀ (F := F)) 𝒱₀ (V d (cV L) (jV L)) none) Set.univ
          (cc0__sc_gibbs L xV (Memref.isWhole_whole _) wV (Memref.isWhole_whole _) tV (Memref.isWhole_whole _) oV (Memref.isWhole_whole _)
            s0 (Memref.isWhole_whole _) s1 (Memref.isWhole_whole _) s2 (Memref.isWhole_whole _) cc0_scoped0 cc0_scoped1 cc0_scoped2 cc0_scoped3)
          fun _ => iprop((oLoc d ↦[rowsOf (L 0).val (L 1).val]{fullShare} T)
            ∗ ((∃ f, (V d (cV L) (jV L)).loc cc0_scratch0 ↦{fullShare} f) ∗ (∃ f, (V d (cV L) (jV L)).loc cc0_scratch1 ↦{fullShare} f)
                ∗ ∃ f, (V d (cV L) (jV L)).loc cc0_scratch2 ↦{fullShare} f)
            ∗ (semVal (cell0 d (cV L) (jV L)) 0 ∗ semVal (cell1 d (cV L) (jV L)) 0 ∗ semVal (cell2 d (cV L) (jV L)) 0 ∗ semVal (cell3 d (cV L) (jV L)) 0)
            ∗ (∃ W', ⌜∀ p ∈ W', p ∈ W ∨ p.2 = none⌝ ∗ owes (V d (cV L) (jV L)) O W') ∗ R) } :=
  ⟨_, by
    simp only [cc0__sc_gibbs_eq_skeleton]; unfold cc0__sc_gibbs_skel
    simp only [k0_part1_eq_skeleton, k0_part2_eq_skeleton, k0_part3_eq_skeleton]; unfold k0_part1_skel k0_part2_skel k0_part3_skel
    iintro ⟨#Hlv, ⟨Hx, Hc, Hw, Ho⟩, ⟨Hs0, Hs1, Hs2⟩, ⟨Hc0, Hc1, Hc2, Hc3⟩, HO, HR⟩
    ihave Hmw := ((K (F := F)).mayWaits_none (thr := V d (cV L) (jV L)) hO) $$ Hlv
    ihave Hx' := (Entails.of_eq (pts_xV (F := F) d L q fx).symm) $$ Hx
    ihave Hc' := (Entails.of_eq (pts_tV (F := F) d L q fc).symm) $$ Hc
    ihave Hw' := (Entails.of_eq (pts_wV (F := F) d L q fw).symm) $$ Hw
    ihave Ho' := (Entails.of_eq (pts_oSl (F := F) d L fo).symm) $$ Ho
    ihave Hs0' := (Entails.of_eq (pts_s0 (F := F) d L f0).symm) $$ Hs0
    ihave Hs1' := (Entails.of_eq (pts_s1 (F := F) d L f1).symm) $$ Hs1
    ihave Hs2' := (Entails.of_eq (pts_s2 (F := F) d L f2).symm) $$ Hs2
    sl_exec
    sl_step
    isplitl [Ho']
    · iapply (Entails.of_eq (pts_oSl (F := F) d L _)); iexact Ho'
    isplitl [Hs0' Hs1' Hs2']
    · isplitl [Hs0']; · iexists _; iapply (Entails.of_eq (pts_s0 (F := F) d L _)); iexact Hs0'
      isplitl [Hs1']; · iexists _; iapply (Entails.of_eq (pts_s1 (F := F) d L _)); iexact Hs1'
      iexists _; iapply (Entails.of_eq (pts_s2 (F := F) d L _)); iexact Hs2'
    isplitl [Hc0 Hc1 Hc2 Hc3]
    · isplitl [Hc0]; · iexact Hc0
      isplitl [Hc1]; · iexact Hc1
      isplitl [Hc2]; · iexact Hc2
      iexact Hc3
    isplitl [HO]
    · iexists (insert (SemLoc.dma cc0_scoped3.sem, none) (insert (SemLoc.dma cc0_scoped2.sem, none)
        (insert (SemLoc.dma cc0_scoped1.sem, none) (insert (SemLoc.dma cc0_scoped0.sem, none) W)))); isplitr
      · ipureintro; intro p hp
        rcases Finset.mem_insert.mp hp with rfl | hp
        · exact .inr rfl
        rcases Finset.mem_insert.mp hp with rfl | hp
        · exact .inr rfl
        rcases Finset.mem_insert.mp hp with rfl | hp
        · exact .inr rfl
        rcases Finset.mem_insert.mp hp with rfl | hp
        · exact .inr rfl
        · exact .inl hp
      iexact HO
    iexact HR⟩

omit [FloatOps F] in
theorem regroup {PT PT' A0 A1 A2 c0 c1 c2 c3 HW Rb Rs : sProp 𝕄} (h : PT ⊢ PT') :
    iprop(PT ∗ (A0 ∗ A1 ∗ A2) ∗ (c0 ∗ c1 ∗ c2 ∗ c3) ∗ HW ∗ (Rb ∗ Rs)) ⊢ iprop(PT' ∗ (A0 ∗ A1 ∗ A2 ∗ Rb) ∗ (c0 ∗ c1 ∗ c2 ∗ c3 ∗ Rs) ∗ HW) := by
  iintro ⟨Ho, ⟨Hs0, Hs1, Hs2⟩, ⟨Hc0, Hc1, Hc2, Hc3⟩, HW, ⟨Hbufs, Hsems⟩⟩
  isplitl [Ho]; · iapply h; iexact Ho
  isplitl [Hs0 Hs1 Hs2 Hbufs]
  · isplitl [Hs0]; · iexact Hs0
    isplitl [Hs1]; · iexact Hs1
    isplitl [Hs2]; · iexact Hs2
    iexact Hbufs
  isplitl [Hc0 Hc1 Hc2 Hc3 Hsems]
  · isplitl [Hc0]; · iexact Hc0
    isplitl [Hc1]; · iexact Hc1
    isplitl [Hc2]; · iexact Hc2
    isplitl [Hc3]; · iexact Hc3
    iexact Hsems
  iexact HW

/-- The task from what the launch hands the tile (its scoped buffers and cells, whatever they hold) back to it: the block of
    the result array at what the run found, from some contents of the scratch. -/
theorem tile_body (hF : (K (F := F)).Facts) (O : CellTallies nD τ sig (HIx 1)) (W : Waits sig (HIx 1)) (hO : ∀ g, O g none = 0)
    (q : PosShare TreeShare) (fx : Buf (Elt F) (xLoc d)) (fc : Buf (Elt F) (cLoc d)) (fw : Buf (Elt F) (v1Loc d)) (fo : Buf (Elt F) (oLoc d)) :
    (iprop(levAts (K (F := F)).L (K (F := F)).lev ∗ emp
        ∗ ((xLoc d ↦{q} fx) ∗ (cLoc d ↦{q} fc) ∗ (v1Loc d ↦{q} fw) ∗ oLoc d ↦[rowsOf (L 0).val (L 1).val]{fullShare} fo)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_gibbs L xV (Memref.isWhole_whole _) wV (Memref.isWhole_whole _) tV (Memref.isWhole_whole _) oV (Memref.isWhole_whole _)
            s0 (Memref.isWhole_whole _) s1 (Memref.isWhole_whole _) s2 (Memref.isWhole_whole _) cc0_scoped0 cc0_scoped1 cc0_scoped2 cc0_scoped3)
          fun _ => iprop((∃ f0 f1 f2 R, oLoc d ↦[rowsOf (L 0).val (L 1).val]{fullShare} (tile_run d L O W hO q fx fc fw fo f0 f1 f2 R).1)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, Hres, ⟨⟨%f0, Hs0⟩, ⟨%f1, Hs1⟩, ⟨%f2, Hs2⟩, Hbufs⟩, ⟨Hc0, Hc1, Hc2, Hc3, Hsems⟩, HO⟩
  have hPT : ∀ R, (oLoc d ↦[rowsOf (L 0).val (L 1).val]{fullShare} (tile_run d L O W hO q fx fc fw fo f0 f1 f2 R).1 : sProp 𝕄)
      ⊢ iprop(∃ f0 f1 f2 R, oLoc d ↦[rowsOf (L 0).val (L 1).val]{fullShare} (tile_run d L O W hO q fx fc fw fo f0 f1 f2 R).1) := by
    intro R; iintro H; iexists f0, f1, f2, R; iexact H
  iapply ((tile_run d L O W hO q fx fc fw fo f0 f1 f2 _).2.trans (wp_mono frame _ _ fun _ => regroup (hPT _)))
  isplitr; · iexact Hlv
  isplitl [Hres]; · iexact Hres
  isplitl [Hs0 Hs1 Hs2]
  · isplitl [Hs0]; · iexact Hs0
    isplitl [Hs1]; · iexact Hs1
    iexact Hs2
  isplitl [Hc0 Hc1 Hc2 Hc3]
  · isplitl [Hc0]; · iexact Hc0
    isplitl [Hc1]; · iexact Hc1
    isplitl [Hc2]; · iexact Hc2
    iexact Hc3
  isplitl [HO]; · iexact HO
  isplitl [Hbufs]; · iexact Hbufs
  iexact Hsems

end Tile

end Cert.KernelIdeal.Sc

end
-- ==== Proof.ScIdealLaunch.lean ====
/-
  The launch: the tile's task as the launch theorem's obligation, a SparseCore's shares dealt to its tiles, the launch
  element, and @main on the TensorCore (the constant table, the slice and the reshape, the call), with what it reads off
  the final memory: the two arguments unchanged.
-/
import proofs.«213024_g80238579024365_cont_9to1c4b_497_7_alg».proof.Proof.ScIdealBody

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gibbs (coordsV c s)
          xV (Memref.isWhole_whole _) wV (Memref.isWhole_whole _) tV (Memref.isWhole_whole _) oV (Memref.isWhole_whole _)
          s0 (Memref.isWhole_whole _) s1 (Memref.isWhole_whole _) s2 (Memref.isWhole_whole _) cc0_scoped0 cc0_scoped1 cc0_scoped2 cc0_scoped3) ⟨⟩ c s := rfl

omit [FloatOps F] in
theorem obl_post {thr : Thread nD τ} {A A' B C : sProp 𝕄} {O : CellTallies nD τ sig (HIx 1)} {W : Waits sig (HIx 1)} {q : Fin 1} (h : A ⊢ A') :
    iprop(A ∗ B ∗ C ∗ ∃ W', ⌜∀ p ∈ W', p ∈ W ∨ p.2 = none⌝ ∗ owes thr O W')
      ⊢ iprop(A' ∗ B ∗ C ∗ ∃ W', ⌜∀ p ∈ W', p ∈ W ∨ p.2 = none ∨ p.2 = some q⌝ ∗ owes thr O W') := by
  iintro ⟨HA, HB, HC, %W', %hW', HO⟩
  isplitl [HA]; · iapply h; iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (Pf m) v₀ 0 := by
  intro d c i O W hO _ _
  simp only [show (Pf m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  refine (tile_body d (coordsV ⟨_, hc.1⟩ ⟨_, hc.2⟩) hF O W hO _ _ _ _ _).trans (wp_mono frame _ _ fun _ => obl_post ?_)
  show _ ⊢ tdPf (F := F) d c.val i.val
  unfold tdPf
  iintro H
  icases H with ⟨%f0, %f1, %f2, %R, H⟩
  iexists _; iexact H

theorem vecSplit : (K (F := F)).VecSplit' (Pf m) 0 := by
  intro d c
  show stP m d c.val ⊢ |={Set.univ}=> iprop((bigSep Finset.univ fun i : Fin 16 => goP m d c.val i.val)
    ∗ ((bigSep Finset.univ fun i : Fin 16 => tdPf (F := F) d c.val i.val) -∗ dnPf (F := F) d c.val))
  unfold stP goP dnPf tokQ
  rw [bigSep_sep', bigSep_sep', bigSep_sep']
  iintro ⟨Hx, Hc, Hw, Ho⟩
  ihave Hx' := (Transfers.pointsTo_toks_split (Transfers.shareTokN fullShare c.val) 16) $$ Hx
  icases Hx' with ⟨-, Hx⟩
  ihave Hc' := (Transfers.pointsTo_toks_split (Transfers.shareTokN fullShare c.val) 16) $$ Hc
  icases Hc' with ⟨-, Hc⟩
  ihave Hw' := (Transfers.pointsTo_toks_split (Transfers.shareTokN fullShare c.val) 16) $$ Hw
  icases Hw' with ⟨-, Hw⟩
  imodintro
  isplitl [Hx Hc Hw Ho]
  · isplitl [Hx]; · iexact Hx
    isplitl [Hc]; · iexact Hc
    isplitl [Hw]; · iexact Hw
    iexact Ho
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (Pf m).x q thr) := by
  unfold u₀
  iintro Hu
  ihave H := (ownU_pair _ _) $$ Hu
  icases H with ⟨HH, -⟩
  imodintro
  isplitl [HH]; · iexact HH
  isplitr; · rw [bigSep_emp']; iempintro
  unfold Pf; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev x' : DevRef τ sig := Proc.devRef .tc (main_arg0 : Ref sig .tc)
abbrev th' : DevRef τ sig := Proc.devRef .tc (main_arg1 : Ref sig .tc)
abbrev c' : DevRef τ sig := Proc.devRef .tc (main_cst : Ref sig .tc)
abbrev a' : DevRef τ sig := Proc.devRef .tc (main_v0 : Ref sig .tc)
abbrev w' : DevRef τ sig := Proc.devRef .tc (main_v1 : Ref sig .tc)
abbrev o' : DevRef τ sig := Proc.devRef .tc (main_v2 : Ref sig .tc)

abbrev opC : HloOp τ sig (Elt F) := StableHlo.nullary main_cst (fun i => FloatOps.ofBits .f32 (lit0 (S128x16.rowMajor i)))
abbrev opS : HloOp τ sig (Elt F) :=
  StableHlo.unary main_arg1 main_v0 ((extractStridedSlice S16 ![0] · Facts₀.slices_S4096_S16_0) : (⟨S4096, .f32⟩ : BufTy).Contents (Elt F) → (⟨S16, .f32⟩ : BufTy).Contents (Elt F))
abbrev opR : HloOp τ sig (Elt F) := StableHlo.reshape main_v0 main_v1 rfl Facts₀.shapeCasts_S16_S1x16

/-- The TensorCore's arrays, all unscoped. -/
abbrev S6 : Finset (DevRef τ sig) := {x', th', c', a', w', o'}

omit [FloatOps F] in
theorem held_S6 (d : Dev nD) (W : Valuation τ sig (Elt F)) :
    (held (T d) S6 W : sProp 𝕄) = iprop((xLoc d ↦{fullShare} W x') ∗ (thLoc d ↦{fullShare} W th') ∗ (cLoc d ↦{fullShare} W c')
      ∗ (v0Loc d ↦{fullShare} W a') ∗ (v1Loc d ↦{fullShare} W w') ∗ oLoc d ↦{fullShare} W o') := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (thLoc d ↦{fullShare} W main_arg1) ∗ (cLoc d ↦{fullShare} W main_cst)
      ∗ (v0Loc d ↦{fullShare} W main_v0) ∗ (v1Loc d ↦{fullShare} W main_v1) ∗ oLoc d ↦{fullShare} W main_v2) := by
  unfold unscopedBufs
  rw [show (Finset.univ.filter fun b : Ref sig .tc => ¬ b.isScoped) = {main_arg0, main_arg1, main_cst, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The launch valuation, and the valuations after the constant, the slice and the reshape. -/
def V0 (d : Dev nD) : Valuation τ sig (Elt F) := fun b => m (d, b)
def V1 (d : Dev nD) : Valuation τ sig (Elt F) := (opC (F := F)).result (V0 m d)
def V2 (d : Dev nD) : Valuation τ sig (Elt F) := (opS (F := F)).result (V1 m d)
def V3 (d : Dev nD) : Valuation τ sig (Elt F) := (opR (F := F)).result (V2 m d)

theorem unscoped_held (d : Dev nD) : (unscopedBufs d (fun b => m ((SparseCore.T d).loc b)) : sProp 𝕄) = held (T d) S6 (V0 m d) := by
  rw [unscopedBufs_eq, held_S6]; rfl

theorem V3_x (d : Dev nD) : V3 m d x' = m (xLoc d) := by
  unfold V3 V2 V1
  rw [(opR (F := F)).result_of_not_mem _ (b := x') (show x' ∉ ({w'} : Finset (DevRef τ sig)) by decide),
    (opS (F := F)).result_of_not_mem _ (b := x') (show x' ∉ ({a'} : Finset (DevRef τ sig)) by decide),
    (opC (F := F)).result_of_not_mem _ (b := x') (show x' ∉ ({c'} : Finset (DevRef τ sig)) by decide)]
  rfl
theorem V3_th (d : Dev nD) : V3 m d th' = m (thLoc d) := by
  unfold V3 V2 V1
  rw [(opR (F := F)).result_of_not_mem _ (b := th') (show th' ∉ ({w'} : Finset (DevRef τ sig)) by decide),
    (opS (F := F)).result_of_not_mem _ (b := th') (show th' ∉ ({a'} : Finset (DevRef τ sig)) by decide),
    (opC (F := F)).result_of_not_mem _ (b := th') (show th' ∉ ({c'} : Finset (DevRef τ sig)) by decide)]
  rfl
theorem V3_o (d : Dev nD) : V3 m d o' = m (oLoc d) := by
  unfold V3 V2 V1
  rw [(opR (F := F)).result_of_not_mem _ (b := o') (show o' ∉ ({w'} : Finset (DevRef τ sig)) by decide),
    (opS (F := F)).result_of_not_mem _ (b := o') (show o' ∉ ({a'} : Finset (DevRef τ sig)) by decide),
    (opC (F := F)).result_of_not_mem _ (b := o') (show o' ∉ ({c'} : Finset (DevRef τ sig)) by decide)]
  rfl
theorem V3_c (d : Dev nD) : V3 m d c' = cF (F := F) d := by
  unfold V3 V2 V1
  rw [(opR (F := F)).result_of_not_mem _ (b := c') (show c' ∉ ({w'} : Finset (DevRef τ sig)) by decide),
    (opS (F := F)).result_of_not_mem _ (b := c') (show c' ∉ ({a'} : Finset (DevRef τ sig)) by decide)]
  exact StableHlo.nullary_result _ _ _ _
theorem V3_w (d : Dev nD) : V3 m d w' = v1F m d := by
  unfold V3
  refine (StableHlo.reshape_result _ _ _ _ _ _ _).trans ?_
  unfold V2
  rw [StableHlo.unary_result]
  unfold V1
  rw [(opC (F := F)).result_of_not_mem _ (b := th') (show th' ∉ ({c'} : Finset (DevRef τ sig)) by decide)]
  rfl

theorem held_V3 (d : Dev nD) :
    (held (T d) S6 ((opR (F := F)).result (V2 m d)) : sProp 𝕄) = iprop((xLoc d ↦{fullShare} m (xLoc d)) ∗ (thLoc d ↦{fullShare} m (thLoc d))
      ∗ (cLoc d ↦{fullShare} cF (F := F) d) ∗ (v0Loc d ↦{fullShare} V3 m d a') ∗ (v1Loc d ↦{fullShare} v1F m d) ∗ oLoc d ↦{fullShare} m (oLoc d)) := by
  show (held (T d) S6 (V3 m d) : sProp 𝕄) = _
  rw [held_S6, V3_x, V3_th, V3_c, V3_w, V3_o]

theorem hC : (opC (F := F)).bufs ⊆ S6 := show ({c'} : Finset (DevRef τ sig)) ⊆ S6 by decide
theorem hS : (opS (F := F)).bufs ⊆ S6 := show ({th', a'} : Finset (DevRef τ sig)) ⊆ S6 by decide
theorem hR : (opR (F := F)).bufs ⊆ S6 := show ({a', w'} : Finset (DevRef τ sig)) ⊆ S6 by decide

/-- What the call takes for the two SparseCores, and what it hands back. -/
theorem st0_eq (d : Dev nD) : (bigSep Finset.univ fun c : Fin ((K (F := F)).nCore 0) => (Pf m).st 0 d c)
    = iprop((bigSep Finset.univ fun c : Fin 2 => xLoc d ↦{Transfers.shareTok fullShare 2 c} m (xLoc d))
      ∗ (bigSep Finset.univ fun c : Fin 2 => cLoc d ↦{Transfers.shareTok fullShare 2 c} cF (F := F) d)
      ∗ (bigSep Finset.univ fun c : Fin 2 => v1Loc d ↦{Transfers.shareTok fullShare 2 c} v1F m d)
      ∗ bigSep Finset.univ fun c : Fin 2 => bigSep Finset.univ fun i : Fin 16 => oLoc d ↦[rowsOf c.val i.val]{fullShare} m (oLoc d)) := by
  show (bigSep (Finset.univ : Finset (Fin 2)) fun c => stP m d c.val) = _
  unfold stP
  rw [bigSep_sep', bigSep_sep', bigSep_sep']

/-- What @main leaves the claim: the two arguments at their launch contents (of the first, the share it kept). -/
abbrev FIN (d : Dev nD) : sProp 𝕄 := iprop((xLoc d ↦{Transfers.shareDrop fullShare 2} m (xLoc d)) ∗ thLoc d ↦{fullShare} m (thLoc d))

/-- @main on device d's TensorCore: the constant table, the slice, the reshape (each over the six arrays held whole), then
    the call, from read shares of the three arrays the tiles read and the result array's blocks. -/
theorem hmain (κ : GSem nD τ sig → ℕ) (d : Dev nD) :
    iprop((K (F := F)).ctx EH (Pf m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opC) (S := S6) hC (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opS) (S := S6) hS (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := opR) (S := S6) hR (V := V2 m d)) $$ [Hb Hheld]
  · isplitl [Hb]; · iexact Hb
    iexact Hheld
  iintro ⟨Hb, Hheld⟩
  rw [wp_ret]; imodintro
  ihave Hh := (Entails.of_eq (held_V3 (F := F) m d)) $$ Hheld
  icases Hh with ⟨Hx, Hth, Hc, -, Hw, Ho⟩
  ihave Hx' := (Transfers.pointsTo_toks_split fullShare 2) $$ Hx
  icases Hx' with ⟨Hxr, Hx⟩
  ihave Hc' := (Transfers.pointsTo_toks_split fullShare 2) $$ Hc
  icases Hc' with ⟨-, Hc⟩
  ihave Hw' := (Transfers.pointsTo_toks_split fullShare 2) $$ Hw
  icases Hw' with ⟨-, Hw⟩
  ihave Ho' := (Entails.of_eq (oPts_blocks (F := F) d fullShare (m (oLoc d)))) $$ Ho
  iapply ((K (F := F)).wp_run (D (F := F)) 𝒱 (EH := EH) (P := Pf m) κ d 0) $$ [Hst Hx Hc Hw Ho' Hxr Hth]
  isplitr; · iexact Hctx
  isplitl [Hst]; · iexact Hst
  isplitl [Hx Hc Hw Ho']
  · rw [st0_eq]
    isplitl [Hx]; · iexact Hx
    isplitl [Hc]; · iexact Hc
    isplitl [Hw]; · iexact Hw
    iexact Ho'
  iintro ⟨Hst, -⟩
  imodintro
  isplitl [Hst]; · iexact Hst
  isplitl [Hxr]; · iexact Hxr
  iexact Hth

def fq (d : Dev nD) (s' : Phys nD τ sig (Elt F)) : Prop := s'.mem.mem (xLoc d) = m (xLoc d) ∧ s'.mem.mem (thLoc d) = m (thLoc d)

theorem hfin (d : Dev nD) (s' : Phys nD τ sig (Elt F)) : iprop(FIN m d ∗ SI s') ⊢ (⌜fq m d s'⌝ : sProp 𝕄) := by
  iintro ⟨⟨Hx, Hth⟩, HSI⟩
  ihave H := (persistent_entails_right (SI_pointsTo_agree (st := s') (ℓ := xLoc d) (I := Finset.univ) (q := Transfers.shareDrop fullShare 2) (f := m (xLoc d)))) $$ [HSI Hx]
  · isplitl [HSI] <;> iassumption
  icases H with ⟨%h1, HSI, -⟩
  ihave H := (SI_pointsTo_agree (st := s') (ℓ := thLoc d) (I := Finset.univ) (q := fullShare) (f := m (thLoc d))) $$ [HSI Hth]
  · isplitl [HSI] <;> iassumption
  icases H with %h2
  ipureintro; exact ⟨funext fun i => h1 i (Finset.mem_univ i), funext fun i => h2 i (Finset.mem_univ i)⟩

/-! ## The program's run -/

def QCf : PUnit × MemSt nD τ sig (Elt F) → Prop := fun r => ∀ c : Dev nD, r.2.mem (xLoc c) = m (xLoc c) ∧ r.2.mem (thLoc c) = m (thLoc c)

theorem run_main_frame [∀ e, Nonempty (Elt F e)] :
    θ_run (Cert.KernelIdeal.defs (F := F)) (Cert.KernelIdeal.threads (F := F)) ⟨m, fun _ => 0, ρ⟩ (QCf m) :=
  SparseCore.Cfg.θ_run_sc (K := K (F := F)) (D := D (F := F)) (𝒱 := 𝒱) (EH := EH) (P := Pf m) kfacts v₀
    (fun q hq => match q with | 0 => nomatch hq)
    (fun q _ => match q with | 0 => tileObl m kfacts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QCf m) (fun _ h => h)

/-- The run of the kernel program from every memory: the two arguments are unchanged. -/
theorem run_sc_frame [∀ e, Nonempty (Elt F e)] (m : (ℓ : Loc nD τ sig) → Buf (Elt F) ℓ) (ρ : Dev nD → PrngReg) :
    θ_run (defs (F := F)) (threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  run_main_frame m ρ

end Cert.KernelIdeal.Sc

end
-- ==== Proof.ScIdealRun.lean ====
/-
  The run with the result array's contents. First what a tile's run leaves in its block, read as a function of the three
  arrays the tile reads (below lane 16 the lane update of the row, from lane 16 on the argument's row unchanged); then
  the launch again over the payloads that name it, the blocks joined into the whole array at the call's return.
-/
import proofs.«213024_g80238579024365_cont_9to1c4b_497_7_alg».proof.Proof.ScIdealLaunch

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

section Pay

variable [FloatOps F]

/-- A row's update through the one-row vectors the kernel loads and stores: a the row's lanes, b the weights' row, c the
    draws' row. -/
def rowUpd (a b c : Vec F S1x16 .f32) : FVec F S1x16 .f32 :=
  shapeCast S1x16 (laneUpd (shapeCast S16 a Facts₀.shapeCasts_S1x16_S16) (shapeCast S16 b Facts₀.shapeCasts_S1x16_S16)
    (shapeCast S16 c Facts₀.shapeCasts_S1x16_S16)) Facts₀.shapeCasts_S16_S1x16

theorem pay6_eq (a b c : Vec F S1x16 .f32) : k0_pay6 (k0_pay3 a) (k0_pay4 a) (k0_pay5 b a) c = rowUpd a b c := rfl
theorem pay7_eq (a b c : Vec F S1x16 .f32) : k0_pay7 (k0_pay2 b) a c = rowUpd a b c := rfl
theorem pay8_eq (a b c : Vec F S1x16 .f32) : k0_pay8 (k0_pay2 b) a c = rowUpd a b c := rfl
theorem pay1_eq (a b c : Vec F S1x16 .f32) :
    k0_pay1 (k0_pay9 a) (k0_pay10 a) (k0_pay11 (k0_pay2 b) a) (Scalar.ofBits .f32 0x3F800000#32) c = rowUpd a b c := rfl

/-- The one-row shape's index under a sixteen-lane index: row 0, the lane. -/
theorem cast16 (l' : S16.Idx) : Shape.reshapeEquiv (s := S1x16) (s' := S16) Facts₀.shapeCasts_S1x16_S16 l' = ValueIdx.ix2 (0 : Fin 1) (⟨(l' 0).val, lane_lt l'⟩ : Fin 16) := by
  apply Shape.reshapeEquiv_eq_of_rowMajor
  rw [Shape.rowMajor_val_one, Shape.rowMajor_val_two]
  simp

/-- The sixteen-lane shape's index under a one-row index: its lane. -/
theorem cast1x16 (x : S1x16.Idx) : Shape.reshapeEquiv (s := S16) (s' := S1x16) Facts₀.shapeCasts_S16_S1x16 x = ValueIdx.ix1 (⟨(x 1).val, (x 1).isLt⟩ : Fin 16) := by
  apply Shape.reshapeEquiv_eq_of_rowMajor
  rw [Shape.rowMajor_val_one, Shape.rowMajor_val_two]
  have h0 : (x 0).val < 1 := (x 0).isLt
  simp; omega

/-- The stored row at a lane is the lane update of the three loaded rows' lanes. -/
theorem rowUpd_apply (a b c : Vec F S1x16 .f32) (x : S1x16.Idx) :
    rowUpd a b c x = laneUpd (fun l' => a (ValueIdx.ix2 (0 : Fin 1) (⟨(l' 0).val, lane_lt l'⟩ : Fin 16)))
      (fun l' => b (ValueIdx.ix2 (0 : Fin 1) (⟨(l' 0).val, lane_lt l'⟩ : Fin 16)))
      (fun l' => c (ValueIdx.ix2 (0 : Fin 1) (⟨(l' 0).val, lane_lt l'⟩ : Fin 16))) (ValueIdx.ix1 (⟨(x 1).val, (x 1).isLt⟩ : Fin 16)) := by
  unfold rowUpd shapeCast
  rw [cast1x16]
  congr 1 <;> funext l' <;> rw [cast16]

end Pay

section Value

variable (d : Dev nD) (L : grid0.Coords)

/-- The tile's rows of the argument and of the table, as the kernel slices them. -/
abbrev xSl (L : grid0.Coords) : Memref sig .scVector .hbm S4x4096 .f32 :=
  (xV : Memref sig .scVector .hbm S128x4096 .f32).slice (Rect.unit (s := S128x4096) (k0_off1 L) S4x4096.size (k0_off1_inb L)) (fun _ => rfl)
abbrev tSl (L : grid0.Coords) : Memref sig .scVector .hbm S4x16 .f32 :=
  (tV : Memref sig .scVector .hbm S128x16 .f32).slice (Rect.unit (s := S128x16) (k0_off2 L) S4x16.size (k0_off2_inb L)) (fun _ => rfl)

/-- Row r of the tile's block is row 8 (L 1) + 4 (L 0) + r of the array. -/
theorem rowOf_lt (r : Fin 4) : 8 * (L 1).val + 4 * (L 0).val + r.val < 128 := by
  have h0 : (L 0).val < 2 := (L 0).isLt
  have h1 : (L 1).val < 16 := (L 1).isLt
  omega
abbrev rowOf (r : Fin 4) : Fin 128 := ⟨8 * (L 1).val + 4 * (L 0).val + r.val, rowOf_lt L r⟩

theorem emb_oSl (r : Fin 4) (j : Fin 4096) : (oSl L).view.emb (ValueIdx.ix2 r j) = ValueIdx.ix2 (rowOf L r) j := by
  show (Rect.unit (s := S128x4096) (k0_off1 L) S4x4096.size (k0_off1_inb L)).emb (ValueIdx.ix2 r j) = _
  have e0 : k0_off1 L 0 = 8 * (L 1).val + 4 * (L 0).val := by rw [k0_off1_eq]; rfl
  have e1 : k0_off1 L 1 = 0 := by rw [k0_off1_eq]; rfl
  funext a; apply Fin.ext
  rw [Rect.emb_apply, Rect.off_unit, Rect.stride_unit]
  match a with
  | 0 => show k0_off1 L 0 + 1 * r.val = 8 * (L 1).val + 4 * (L 0).val + r.val; rw [e0]; omega
  | 1 => show k0_off1 L 1 + 1 * j.val = j.val; rw [e1]; omega
theorem emb_xSl (r : Fin 4) (j : Fin 4096) : (xSl L).view.emb (ValueIdx.ix2 r j) = ValueIdx.ix2 (rowOf L r) j := emb_oSl L r j
theorem emb_tSl (r : Fin 4) (j : Fin 16) : (tSl L).view.emb (ValueIdx.ix2 r j) = ValueIdx.ix2 (rowOf L r) j := by
  show (Rect.unit (s := S128x16) (k0_off2 L) S4x16.size (k0_off2_inb L)).emb (ValueIdx.ix2 r j) = _
  have e0 : k0_off2 L 0 = 8 * (L 1).val + 4 * (L 0).val := by rw [k0_off2_eq]; rfl
  have e1 : k0_off2 L 1 = 0 := by rw [k0_off2_eq]; rfl
  funext a; apply Fin.ext
  rw [Rect.emb_apply, Rect.off_unit, Rect.stride_unit]
  match a with
  | 0 => show k0_off2 L 0 + 1 * r.val = 8 * (L 1).val + 4 * (L 0).val + r.val; rw [e0]; omega
  | 1 => show k0_off2 L 1 + 1 * j.val = j.val; rw [e1]; omega

/-- The copy out: an element of the tile's block reads the scratch's element of its row and lane. -/
theorem out_apply (fo : Buf (Elt F) (oLoc d)) (w : S4x4096.Idx → F .f32) (r : Fin 4) (j : Fin 4096) :
    ((oSl L).view.writes (Elt F) fo [⟨Rect.whole S4x4096, w⟩]) (ValueIdx.ix2 (rowOf L r) j) = w (ValueIdx.ix2 r j) := by
  rw [← emb_oSl L r j]
  refine ((View.read_apply (v := (oSl L).view) _ (ValueIdx.ix2 r j)).trans (cast_eq _ _)).symm.trans ?_
  have hy : (Rect.whole S4x4096).emb (ValueIdx.ix2 r j) = ValueIdx.ix2 r j := Rect.emb_whole_apply _ _
  have key := View.read_writes_cons_emb (oSl L).view fo (Rect.whole S4x4096) w [] (ValueIdx.ix2 r j)
  rw [hy] at key
  exact key

end Value

section Scratch

variable [FloatOps F]

/-- Row k of the scratch under a one-row index: the row, the lane. -/
theorem emb_row (k : ℕ) (hk : k < 4) (inb : ∀ a, (![k, 0] : Fin 2 → Nat) a + S1x16.size a ≤ S4x4096.size a) (x : S1x16.Idx) :
    (Rect.unit (s := S4x4096) ![k, 0] S1x16.size inb).emb x = ValueIdx.ix2 (⟨k, hk⟩ : Fin 4) (⟨(x 1).val, by have := (x 1).isLt; show (x 1).val < 4096; have h : (x 1).val < 16 := (x 1).isLt; omega⟩ : Fin 4096) := by
  have h0 : (x 0).val < 1 := (x 0).isLt
  funext a; apply Fin.ext
  rw [Rect.emb_apply, Rect.off_unit, Rect.stride_unit]
  match a with
  | 0 => show k + 1 * (x 0).val = k; omega
  | 1 => show 0 + 1 * (x 1).val = (x 1).val; omega

theorem idx1x16 (x : S1x16.Idx) : x = ValueIdx.ix2 (0 : Fin 1) (⟨(x 1).val, (x 1).isLt⟩ : Fin 16) := by
  have h0 : (x 0).val < 1 := (x 0).isLt
  funext a; apply Fin.ext
  match a with
  | 0 => show (x 0).val = 0; omega
  | 1 => rfl

/-- What the scratch holds after the four rows' stores, as one function of the scratch's index. -/
def scratchG (B0 : S4x4096.Idx → F .f32) (a : Fin 4 → Vec F S1x16 .f32) (b : Vec F S1x16 .f32) (c : Fin 4 → Vec F S1x16 .f32) : S4x4096.Idx → F .f32 :=
  fun y => if h : (y 1).val < 16 then rowUpd (a (y 0)) b (c (y 0)) (ValueIdx.ix2 (0 : Fin 1) (⟨(y 1).val, h⟩ : Fin 16)) else B0 y

theorem scratchG_lo (B0 : S4x4096.Idx → F .f32) (a : Fin 4 → Vec F S1x16 .f32) (b : Vec F S1x16 .f32) (c : Fin 4 → Vec F S1x16 .f32)
    (r : Fin 4) (j : Fin 4096) (h : j.val < 16) :
    scratchG B0 a b c (ValueIdx.ix2 r j) = rowUpd (a r) b (c r) (ValueIdx.ix2 (0 : Fin 1) (⟨j.val, h⟩ : Fin 16)) := by
  unfold scratchG; exact dif_pos h
theorem scratchG_hi (B0 : S4x4096.Idx → F .f32) (a : Fin 4 → Vec F S1x16 .f32) (b : Vec F S1x16 .f32) (c : Fin 4 → Vec F S1x16 .f32)
    (r : Fin 4) (j : Fin 4096) (h : ¬ j.val < 16) : scratchG B0 a b c (ValueIdx.ix2 r j) = B0 (ValueIdx.ix2 r j) := by
  unfold scratchG; exact dif_neg h

theorem piece_eq (B0 : S4x4096.Idx → F .f32) (a : Fin 4 → Vec F S1x16 .f32) (b : Vec F S1x16 .f32) (c : Fin 4 → Vec F S1x16 .f32)
    (k : ℕ) (hk : k < 4) (inb : ∀ a, (![k, 0] : Fin 2 → Nat) a + S1x16.size a ≤ S4x4096.size a) (x : S1x16.Idx) :
    rowUpd (a ⟨k, hk⟩) b (c ⟨k, hk⟩) x = scratchG B0 a b c ((Rect.unit (s := S4x4096) ![k, 0] S1x16.size inb).emb x) := by
  have h16 : (x 1).val < 16 := (x 1).isLt
  rw [emb_row k hk inb x, scratchG_lo B0 a b c _ _ h16]
  exact congrArg _ (idx1x16 x)

theorem scratch_apply (B0 : S4x4096.Idx → F .f32) (a : Fin 4 → Vec F S1x16 .f32) (b : Vec F S1x16 .f32) (c : Fin 4 → Vec F S1x16 .f32) (y : S4x4096.Idx) :
    (View.whole (cc0_scratch0 : Ref sig .scVector)).read (Elt F) ((View.whole (cc0_scratch0 : Ref sig .scVector)).writes (Elt F) B0
        [⟨Rect.unit (s := S4x4096) ![3, 0] S1x16.size Facts₀.inb_S4x4096_S1x16_3_0, rowUpd (a 3) b (c 3)⟩,
         ⟨Rect.unit (s := S4x4096) ![2, 0] S1x16.size Facts₀.inb_S4x4096_S1x16_2_0, rowUpd (a 2) b (c 2)⟩,
         ⟨Rect.unit (s := S4x4096) ![1, 0] S1x16.size Facts₀.inb_S4x4096_S1x16_1_0, rowUpd (a 1) b (c 1)⟩,
         ⟨Rect.unit (s := S4x4096) ![0, 0] S1x16.size Facts₀.inb_S4x4096_S1x16_0_0, rowUpd (a 0) b (c 0)⟩]) y
      = scratchG B0 a b c y := by
  have hr : (y 0).val < 4 := (y 0).isLt
  by_cases h : (y 1).val < 16
  · refine View.read_writes_apply_of_pieces (Val := Elt F) (View.whole (cc0_scratch0 : Ref sig .scVector)) B0 (scratchG B0 a b c) _ ?_ y ?_
    · intro p hp
      simp only [List.mem_cons, List.not_mem_nil, _root_.or_false] at hp
      rcases hp with rfl | rfl | rfl | rfl
      · exact piece_eq B0 a b c 3 (by omega) Facts₀.inb_S4x4096_S1x16_3_0
      · exact piece_eq B0 a b c 2 (by omega) Facts₀.inb_S4x4096_S1x16_2_0
      · exact piece_eq B0 a b c 1 (by omega) Facts₀.inb_S4x4096_S1x16_1_0
      · exact piece_eq B0 a b c 0 (by omega) Facts₀.inb_S4x4096_S1x16_0_0
    · have hm : ∀ (k : ℕ) (inb : ∀ a, (![k, 0] : Fin 2 → Nat) a + S1x16.size a ≤ S4x4096.size a), (y 0).val = k →
          y ∈ (Rect.unit (s := S4x4096) ![k, 0] S1x16.size inb).set := by
        intro k inb hk
        rw [Rect.mem_set_unit]
        intro a
        match a with
        | 0 => show k ≤ (y 0).val ∧ (y 0).val < k + 1; omega
        | 1 => show 0 ≤ (y 1).val ∧ (y 1).val < 0 + 16; omega
      rcases (by omega : (y 0).val = 3 ∨ (y 0).val = 2 ∨ (y 0).val = 1 ∨ (y 0).val = 0) with h3 | h2 | h1 | h0
      · exact ⟨⟨Rect.unit (s := S4x4096) ![3, 0] S1x16.size Facts₀.inb_S4x4096_S1x16_3_0, rowUpd (a 3) b (c 3)⟩, List.mem_cons_self, hm 3 Facts₀.inb_S4x4096_S1x16_3_0 h3⟩
      · exact ⟨⟨Rect.unit (s := S4x4096) ![2, 0] S1x16.size Facts₀.inb_S4x4096_S1x16_2_0, rowUpd (a 2) b (c 2)⟩, List.mem_cons_of_mem _ List.mem_cons_self, hm 2 Facts₀.inb_S4x4096_S1x16_2_0 h2⟩
      · exact ⟨⟨Rect.unit (s := S4x4096) ![1, 0] S1x16.size Facts₀.inb_S4x4096_S1x16_1_0, rowUpd (a 1) b (c 1)⟩, List.mem_cons_of_mem _ (List.mem_cons_of_mem _ List.mem_cons_self), hm 1 Facts₀.inb_S4x4096_S1x16_1_0 h1⟩
      · exact ⟨⟨Rect.unit (s := S4x4096) ![0, 0] S1x16.size Facts₀.inb_S4x4096_S1x16_0_0, rowUpd (a 0) b (c 0)⟩, List.mem_cons_of_mem _ (List.mem_cons_of_mem _ (List.mem_cons_of_mem _ List.mem_cons_self)), hm 0 Facts₀.inb_S4x4096_S1x16_0_0 h0⟩
  · refine (View.read_writes_apply_of_forall_not_mem (Val := Elt F) (View.whole (cc0_scratch0 : Ref sig .scVector)) B0 y _ ?_).trans ?_
    · intro p hp
      have hn : ∀ (k : ℕ) (inb : ∀ a, (![k, 0] : Fin 2 → Nat) a + S1x16.size a ≤ S4x4096.size a),
          y ∉ (Rect.unit (s := S4x4096) ![k, 0] S1x16.size inb).set := by
        intro k inb hy
        rw [Rect.mem_set_unit] at hy
        have h1 := (hy 1).2
        have : (y 1).val < 0 + 16 := h1
        omega
      simp only [List.mem_cons, List.not_mem_nil, _root_.or_false] at hp
      rcases hp with rfl | rfl | rfl | rfl
      · exact hn 3 Facts₀.inb_S4x4096_S1x16_3_0
      · exact hn 2 Facts₀.inb_S4x4096_S1x16_2_0
      · exact hn 1 Facts₀.inb_S4x4096_S1x16_1_0
      · exact hn 0 Facts₀.inb_S4x4096_S1x16_0_0
    · show B0 y = scratchG B0 a b c y
      unfold scratchG; rw [dif_neg h]

end Scratch

section Core

variable (d : Dev nD) (L : grid0.Coords) [FloatOps F]

/-- The weights' row and a row of the table as sixteen-lane vectors. -/
def wRow (fw : Buf (Elt F) (v1Loc d)) : FVec F S16 .f32 := fun l' => fw (ValueIdx.ix2 (0 : Fin 1) (⟨(l' 0).val, lane_lt l'⟩ : Fin 16))
def cRow (fc : Buf (Elt F) (cLoc d)) (b : Fin 128) : FVec F S16 .f32 := fun l' => fc (ValueIdx.ix2 b (⟨(l' 0).val, lane_lt l'⟩ : Fin 16))

/-- What the task leaves in the result array, from contents fx, fc, fw of the three arrays it reads. -/
def tileSpec (fx : Buf (Elt F) (xLoc d)) (fc : Buf (Elt F) (cLoc d)) (fw : Buf (Elt F) (v1Loc d)) : Buf (Elt F) (oLoc d) := fun ix =>
  if h : (ix 1).val < 16 then laneUpd (xRow fx (ix 0)) (wRow d fw) (cRow d fc (ix 0)) (ValueIdx.ix1 (⟨(ix 1).val, h⟩ : Fin 16)) else fx ix

theorem tileSpec_lo (fx : Buf (Elt F) (xLoc d)) (fc : Buf (Elt F) (cLoc d)) (fw : Buf (Elt F) (v1Loc d)) (b : Fin 128) (j : Fin 4096) (h : j.val < 16) :
    tileSpec d fx fc fw (ValueIdx.ix2 b j) = laneUpd (xRow fx b) (wRow d fw) (cRow d fc b) (ValueIdx.ix1 (⟨j.val, h⟩ : Fin 16)) := by
  unfold tileSpec; exact dif_pos h
theorem tileSpec_hi (fx : Buf (Elt F) (xLoc d)) (fc : Buf (Elt F) (cLoc d)) (fw : Buf (Elt F) (v1Loc d)) (b : Fin 128) (j : Fin 4096) (h : ¬ j.val < 16) :
    tileSpec d fx fc fw (ValueIdx.ix2 b j) = fx (ValueIdx.ix2 b j) := by
  unfold tileSpec; exact dif_neg h

theorem lane4096 (l : Fin 16) : l.val < 4096 := by have := l.isLt; omega

/-- A row's load off the scratch (row k, the first sixteen lanes) reads the scratch's contents there. -/
theorem readAt_row0 (k : ℕ) (hk : k < 4) (inb : ∀ a, (![k, 0] : Fin 2 → Nat) a + S1x16.size a ≤ S4x4096.size a) (g : S4x4096.Idx → F .f32) (l : Fin 16) :
    View.readAt (Elt F) (View.whole (cc0_scratch0 : Ref sig .scVector)) (Rect.unit (s := S4x4096) ![k, 0] S1x16.size inb).toLoadRect g (ValueIdx.ix2 (0 : Fin 1) l)
      = g (ValueIdx.ix2 (⟨k, hk⟩ : Fin 4) (⟨l.val, lane4096 l⟩ : Fin 4096)) := by
  rw [View.readAt_apply]
  show g ((Rect.unit (s := S4x4096) ![k, 0] S1x16.size inb).emb (ValueIdx.ix2 (0 : Fin 1) l)) = _
  rw [emb_row k hk inb]

theorem emb_row1 (k : ℕ) (hk : k < 4) (inb : ∀ a, (![k, 0] : Fin 2 → Nat) a + S1x16.size a ≤ S4x16.size a) (l : Fin 16) :
    (Rect.unit (s := S4x16) ![k, 0] S1x16.size inb).emb (ValueIdx.ix2 (0 : Fin 1) l) = ValueIdx.ix2 (⟨k, hk⟩ : Fin 4) l := by
  funext a; apply Fin.ext
  rw [Rect.emb_apply, Rect.off_unit, Rect.stride_unit]
  match a with
  | 0 => show k + 1 * 0 = k; omega
  | 1 => show 0 + 1 * l.val = l.val; omega

theorem readAt_row1 (k : ℕ) (hk : k < 4) (inb : ∀ a, (![k, 0] : Fin 2 → Nat) a + S1x16.size a ≤ S4x16.size a) (g : S4x16.Idx → F .f32) (l : Fin 16) :
    View.readAt (Elt F) (View.whole (cc0_scratch1 : Ref sig .scVector)) (Rect.unit (s := S4x16) ![k, 0] S1x16.size inb).toLoadRect g (ValueIdx.ix2 (0 : Fin 1) l)
      = g (ValueIdx.ix2 (⟨k, hk⟩ : Fin 4) l) := by
  rw [View.readAt_apply]
  show g ((Rect.unit (s := S4x16) ![k, 0] S1x16.size inb).emb (ValueIdx.ix2 (0 : Fin 1) l)) = _
  rw [emb_row1 k hk inb]

theorem readAt_row2 (inb : ∀ a, (![0, 0] : Fin 2 → Nat) a + S1x16.size a ≤ S1x16.size a) (g : S1x16.Idx → F .f32) (l : Fin 16) :
    View.readAt (Elt F) (View.whole (cc0_scratch2 : Ref sig .scVector)) (Rect.unit (s := S1x16) ![0, 0] S1x16.size inb).toLoadRect g (ValueIdx.ix2 (0 : Fin 1) l)
      = g (ValueIdx.ix2 (0 : Fin 1) l) := by
  rw [View.readAt_apply]
  show g ((Rect.unit (s := S1x16) ![0, 0] S1x16.size inb).emb (ValueIdx.ix2 (0 : Fin 1) l)) = _
  congr 1
  funext a; apply Fin.ext
  rw [Rect.emb_apply, Rect.off_unit, Rect.stride_unit]
  match a with
  | 0 => show 0 + 1 * 0 = 0; omega
  | 1 => show 0 + 1 * l.val = l.val; omega

/-- The block after the task, from what the three loads of each row read. -/
theorem tile_val_core (fx : Buf (Elt F) (xLoc d)) (fc : Buf (Elt F) (cLoc d)) (fw : Buf (Elt F) (v1Loc d)) (fo : Buf (Elt F) (oLoc d))
    (B0 : S4x4096.Idx → F .f32) (a0 a1 a2 a3 b c0 c1 c2 c3 : Vec F S1x16 .f32)
    (hB0 : ∀ (r : Fin 4) (j : Fin 4096), B0 (ValueIdx.ix2 r j) = fx (ValueIdx.ix2 (rowOf L r) j))
    (ha0 : ∀ l : Fin 16, a0 (ValueIdx.ix2 (0 : Fin 1) l) = B0 (ValueIdx.ix2 (0 : Fin 4) (⟨l.val, lane4096 l⟩ : Fin 4096)))
    (ha1 : ∀ l : Fin 16, a1 (ValueIdx.ix2 (0 : Fin 1) l) = B0 (ValueIdx.ix2 (1 : Fin 4) (⟨l.val, lane4096 l⟩ : Fin 4096)))
    (ha2 : ∀ l : Fin 16, a2 (ValueIdx.ix2 (0 : Fin 1) l) = B0 (ValueIdx.ix2 (2 : Fin 4) (⟨l.val, lane4096 l⟩ : Fin 4096)))
    (ha3 : ∀ l : Fin 16, a3 (ValueIdx.ix2 (0 : Fin 1) l) = B0 (ValueIdx.ix2 (3 : Fin 4) (⟨l.val, lane4096 l⟩ : Fin 4096)))
    (hb : ∀ l : Fin 16, b (ValueIdx.ix2 (0 : Fin 1) l) = fw (ValueIdx.ix2 (0 : Fin 1) l))
    (hc0 : ∀ l : Fin 16, c0 (ValueIdx.ix2 (0 : Fin 1) l) = fc (ValueIdx.ix2 (rowOf L 0) l))
    (hc1 : ∀ l : Fin 16, c1 (ValueIdx.ix2 (0 : Fin 1) l) = fc (ValueIdx.ix2 (rowOf L 1) l))
    (hc2 : ∀ l : Fin 16, c2 (ValueIdx.ix2 (0 : Fin 1) l) = fc (ValueIdx.ix2 (rowOf L 2) l))
    (hc3 : ∀ l : Fin 16, c3 (ValueIdx.ix2 (0 : Fin 1) l) = fc (ValueIdx.ix2 (rowOf L 3) l))
    (r : Fin 4) (j : Fin 4096) :
    ((oSl L).view.writes (Elt F) fo [⟨Rect.whole S4x4096, ReadAs.same.apply (View.read (Elt F) (s0 : Memref sig .scVector .vmem S4x4096 .f32).view
      ((s0 : Memref sig .scVector .vmem S4x4096 .f32).view.writes (Elt F) B0
        [⟨Rect.unit (s := S4x4096) ![3, 0] S1x16.size Facts₀.inb_S4x4096_S1x16_3_0, rowUpd a3 b c3⟩,
         ⟨Rect.unit (s := S4x4096) ![2, 0] S1x16.size Facts₀.inb_S4x4096_S1x16_2_0, rowUpd a2 b c2⟩,
         ⟨Rect.unit (s := S4x4096) ![1, 0] S1x16.size Facts₀.inb_S4x4096_S1x16_1_0, rowUpd a1 b c1⟩,
         ⟨Rect.unit (s := S4x4096) ![0, 0] S1x16.size Facts₀.inb_S4x4096_S1x16_0_0, rowUpd a0 b c0⟩]))⟩]) (ValueIdx.ix2 (rowOf L r) j)
      = tileSpec d fx fc fw (ValueIdx.ix2 (rowOf L r) j) := by
  have ha : ∀ (r : Fin 4) (l : Fin 16), ![a0, a1, a2, a3] r (ValueIdx.ix2 (0 : Fin 1) l) = B0 (ValueIdx.ix2 r (⟨l.val, lane4096 l⟩ : Fin 4096)) := by
    intro r l
    rcases r with ⟨k, hk⟩
    interval_cases k
    · exact ha0 l
    · exact ha1 l
    · exact ha2 l
    · exact ha3 l
  have hc : ∀ (r : Fin 4) (l : Fin 16), ![c0, c1, c2, c3] r (ValueIdx.ix2 (0 : Fin 1) l) = fc (ValueIdx.ix2 (rowOf L r) l) := by
    intro r l
    rcases r with ⟨k, hk⟩
    interval_cases k
    · exact hc0 l
    · exact hc1 l
    · exact hc2 l
    · exact hc3 l
  rw [out_apply]
  refine (scratch_apply B0 ![a0, a1, a2, a3] b ![c0, c1, c2, c3] (ValueIdx.ix2 r j)).trans ?_
  by_cases h : j.val < 16
  · rw [scratchG_lo _ _ _ _ r j h, tileSpec_lo d fx fc fw _ j h, rowUpd_apply]
    congr 1
    · funext l'
      show ![a0, a1, a2, a3] r (ValueIdx.ix2 (0 : Fin 1) (⟨(l' 0).val, lane_lt l'⟩ : Fin 16)) = _
      rw [ha, hB0]; rfl
    · funext l'; exact hb _
    · funext l'
      show ![c0, c1, c2, c3] r (ValueIdx.ix2 (0 : Fin 1) (⟨(l' 0).val, lane_lt l'⟩ : Fin 16)) = _
      rw [hc]; rfl
  · rw [scratchG_hi _ _ _ _ r j h, tileSpec_hi d fx fc fw _ j h]
    exact hB0 r j

end Core

section Final

variable (d : Dev nD) (L : grid0.Coords) [FloatOps F]

set_option maxRecDepth 65536 in
set_option maxHeartbeats 4000000 in
/-- What the run found in the tile's block is the block of the one function of the three arrays read. -/
theorem tile_val (O : CellTallies nD τ sig (HIx 1)) (W : Waits sig (HIx 1)) (hO : ∀ g, O g none = 0)
    (q : PosShare TreeShare) (fx : Buf (Elt F) (xLoc d)) (fc : Buf (Elt F) (cLoc d)) (fw : Buf (Elt F) (v1Loc d)) (fo : Buf (Elt F) (oLoc d))
    (f0 : Buf (Elt F) ((V d (cV L) (jV L)).loc cc0_scratch0)) (f1 : Buf (Elt F) ((V d (cV L) (jV L)).loc cc0_scratch1))
    (f2 : Buf (Elt F) ((V d (cV L) (jV L)).loc cc0_scratch2)) (R : sProp 𝕄)
    (ix : S128x4096.Idx) (hix : ix ∈ rowsOf (L 0).val (L 1).val) :
    (tile_run d L O W hO q fx fc fw fo f0 f1 f2 R).1 ix = tileSpec d fx fc fw ix := by
  rw [mem_rowsOf] at hix
  have h0 : (ix 0).val < 128 := (ix 0).isLt
  obtain ⟨r, j, rfl⟩ : ∃ (r : Fin 4) (j : Fin 4096), ix = ValueIdx.ix2 (rowOf L r) j := by
    refine ⟨⟨(ix 0).val % 4, Nat.mod_lt _ (by omega)⟩, ⟨(ix 1).val, (ix 1).isLt⟩, ?_⟩
    funext a; apply Fin.ext
    match a with
    | 0 => show (ix 0).val = 8 * (L 1).val + 4 * (L 0).val + (ix 0).val % 4; omega
    | 1 => rfl
  have key : ∀ (k : ℕ) (hk : k < 4) (inb : ∀ a, (![k, 0] : Fin 2 → Nat) a + S1x16.size a ≤ S4x16.size a) (l : Fin 16),
      View.readAt (Elt F) (View.whole (cc0_scratch1 : Ref sig .scVector)) (Rect.unit (s := S4x16) ![k, 0] S1x16.size inb).toLoadRect
        (View.write (Elt F) (View.whole (cc0_scratch1 : Ref sig .scVector)) f1 (ReadAs.same.apply (View.read (Elt F) (tSl L).view fc)) Finset.univ) (ValueIdx.ix2 (0 : Fin 1) l)
        = fc (ValueIdx.ix2 (rowOf L ⟨k, hk⟩) l) := by
    intro k hk inb l
    refine (readAt_row1 (F := F) k hk inb _ l).trans ?_
    refine (congrFun (View.write_whole_univ (cc0_scratch1 : Ref sig .scVector) _ _) _).trans ?_
    refine ((View.read_apply (v := (tSl L).view) fc _).trans (cast_eq _ _)).trans ?_
    rw [emb_tSl]
  unfold tile_run
  sl_unfold_run_names
  dsimp only
  simp only [pay6_eq, pay7_eq, pay8_eq, pay1_eq]
  refine tile_val_core d L fx fc fw fo _ _ _ _ _ _ _ _ _ _ ?_ ?_ ?_ ?_ ?_ ?_ ?_ ?_ ?_ ?_ r j
  · intro r j
    refine (congrFun (View.write_whole_univ (cc0_scratch0 : Ref sig .scVector) _ _) _).trans ?_
    refine ((View.read_apply (v := (xSl L).view) fx _).trans (cast_eq _ _)).trans ?_
    rw [emb_xSl]
  · exact fun l => readAt_row0 (F := F) 0 (by omega) _ _ l
  · exact fun l => readAt_row0 (F := F) 1 (by omega) _ _ l
  · exact fun l => readAt_row0 (F := F) 2 (by omega) _ _ l
  · exact fun l => readAt_row0 (F := F) 3 (by omega) _ _ l
  · intro l
    refine (readAt_row2 (F := F) _ _ l).trans ?_
    exact congrFun (View.write_whole_univ (cc0_scratch2 : Ref sig .scVector) _ _) _
  · exact fun l => key 0 (by omega) _ l
  · exact fun l => key 1 (by omega) _ l
  · exact fun l => key 2 (by omega) _ l
  · exact fun l => key 3 (by omega) _ l

end Final

section Run

variable (m : (ℓ : Loc nD τ sig) → Buf (Elt F) ℓ) (ρ : Dev nD → PrngReg)

variable [FloatOps F]

/-! ## The table of draws and the weights' row, as @main makes them -/

omit m ρ in
theorem table_row (b : Fin 128) (l : Fin 16) :
    S128x16.rowMajor (ValueIdx.ix2 b l) = (⟨16 * b.val + l.val, by have := b.isLt; have := l.isLt; omega⟩ : Fin 2048) := by
  apply Fin.ext
  rw [Shape.rowMajor_val_two]
  show b.val * 16 + l.val = 16 * b.val + l.val
  omega

omit m ρ in
theorem weights_row (th : FVec F S4096 .f32) (l : Fin 16) :
    shapeCast S1x16 (extractStridedSlice S16 ![0] th Facts₀.slices_S4096_S16_0) Facts₀.shapeCasts_S16_S1x16 (ValueIdx.ix2 (0 : Fin 1) l)
      = th (ValueIdx.ix1 (⟨l.val, by have := l.isLt; omega⟩ : Fin 4096)) := by
  unfold shapeCast extractStridedSlice
  rw [cast1x16]
  congr 1
  funext a; apply Fin.ext
  match a with
  | 0 => show 0 + l.val = l.val; omega

omit ρ in
/-- With the table of draws and the weights' row as @main makes them, the tile's function is the result's. -/
theorem tileSpec_eq (d : Dev nD) : tileSpec d (m (xLoc d)) (cF (F := F) d) (v1F m d) = oF m d := by
  have hw : wRow d (v1F m d) = thRow (m (thLoc d)) := by
    funext l'
    exact weights_row (m (thLoc d)) (⟨(l' 0).val, lane_lt l'⟩ : Fin 16)
  have hc : cRow d (cF (F := F) d) = uRow := by
    funext b l'
    show FloatOps.ofBits .f32 (lit0 (S128x16.rowMajor (ValueIdx.ix2 b (⟨(l' 0).val, lane_lt l'⟩ : Fin 16)))) = _
    rw [table_row]
    rfl
  funext ix
  unfold tileSpec oF kout
  rw [hw, hc]

attribute [local irreducible] tile_run

omit ρ in
/-- What the run found in a tile's block is the block of the result's function. -/
theorem tile_post_v (d : Dev nD) (L : grid0.Coords) (O : CellTallies nD τ sig (HIx 1)) (W : Waits sig (HIx 1)) (hO : ∀ g, O g none = 0)
    (q : PosShare TreeShare) (fo : Buf (Elt F) (oLoc d)) :
    (iprop(∃ f0 f1 f2 R, oLoc d ↦[rowsOf (L 0).val (L 1).val]{fullShare} (tile_run d L O W hO q (m (xLoc d)) (cF d) (v1F m d) fo f0 f1 f2 R).1) : sProp 𝕄)
      ⊢ tdP m d (L 0).val (L 1).val := by
  unfold tdP
  iintro H
  icases H with ⟨%f0, %f1, %f2, %R, H⟩
  iapply (Entails.of_eq (pointsTo_congr (fun ix hix =>
    (tile_val d L O W hO q (m (xLoc d)) (cF d) (v1F m d) fo f0 f1 f2 R ix hix).trans (congrFun (tileSpec_eq m d) ix))))
  iexact H

theorem tileObl_v (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF O W hO (tokQ c.val i.val) (m (xLoc d)) (cF d) (v1F m d) (m (oLoc d))).trans
    (wp_mono frame _ _ fun _ => obl_post (tile_post_v m d (coordsV ⟨_, hc.1⟩ ⟨_, hc.2⟩) O W hO (tokQ c.val i.val) (m (oLoc d))))

theorem vecSplit_v : (K (F := F)).VecSplit' (P m) 0 := by
  intro d c
  show stP m d c.val ⊢ |={Set.univ}=> iprop((bigSep Finset.univ fun i : Fin 16 => goP m d c.val i.val)
    ∗ ((bigSep Finset.univ fun i : Fin 16 => tdP m d c.val i.val) -∗ dnP m d c.val))
  unfold stP goP dnP tokQ
  rw [bigSep_sep', bigSep_sep', bigSep_sep']
  iintro ⟨Hx, Hc, Hw, Ho⟩
  ihave Hx' := (Transfers.pointsTo_toks_split (Transfers.shareTokN fullShare c.val) 16) $$ Hx
  icases Hx' with ⟨-, Hx⟩
  ihave Hc' := (Transfers.pointsTo_toks_split (Transfers.shareTokN fullShare c.val) 16) $$ Hc
  icases Hc' with ⟨-, Hc⟩
  ihave Hw' := (Transfers.pointsTo_toks_split (Transfers.shareTokN fullShare c.val) 16) $$ Hw
  icases Hw' with ⟨-, Hw⟩
  imodintro
  isplitl [Hx Hc Hw Ho]
  · isplitl [Hx]; · iexact Hx
    isplitl [Hc]; · iexact Hc
    isplitl [Hw]; · iexact Hw
    iexact Ho
  iintro H; iexact H

theorem hu₀_v : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

theorem st0_eq_v (d : Dev nD) : (bigSep Finset.univ fun c : Fin ((K (F := F)).nCore 0) => (P m).st 0 d c)
    = iprop((bigSep Finset.univ fun c : Fin 2 => xLoc d ↦{Transfers.shareTok fullShare 2 c} m (xLoc d))
      ∗ (bigSep Finset.univ fun c : Fin 2 => cLoc d ↦{Transfers.shareTok fullShare 2 c} cF (F := F) d)
      ∗ (bigSep Finset.univ fun c : Fin 2 => v1Loc d ↦{Transfers.shareTok fullShare 2 c} v1F m d)
      ∗ bigSep Finset.univ fun c : Fin 2 => bigSep Finset.univ fun i : Fin 16 => oLoc d ↦[rowsOf c.val i.val]{fullShare} m (oLoc d)) := by
  show (bigSep (Finset.univ : Finset (Fin 2)) fun c => stP m d c.val) = _
  unfold stP
  rw [bigSep_sep', bigSep_sep', bigSep_sep']

/-- The blocks the tiles hand back are the result array whole, at the one function. -/
theorem dn0_eq_v (d : Dev nD) : (bigSep Finset.univ fun c : Fin ((K (F := F)).nCore 0) => (P m).dn 0 d c) = (oLoc d ↦{fullShare} oF m d : sProp 𝕄) := by
  show (bigSep (Finset.univ : Finset (Fin 2)) fun c => dnP m d c.val) = _
  unfold dnP tdP
  rw [oPts_blocks]

/-- What @main leaves the claim: the two arguments at their launch contents, the result array at the function of them. -/
abbrev FINv (d : Dev nD) : sProp 𝕄 :=
  iprop((xLoc d ↦{Transfers.shareDrop fullShare 2} m (xLoc d)) ∗ (thLoc d ↦{fullShare} m (thLoc d)) ∗ oLoc d ↦{fullShare} oF m d)

theorem hmain_v (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FINv m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opC) (S := S6) hC (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opS) (S := S6) hS (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := opR) (S := S6) hR (V := V2 m d)) $$ [Hb Hheld]
  · isplitl [Hb]; · iexact Hb
    iexact Hheld
  iintro ⟨Hb, Hheld⟩
  rw [wp_ret]; imodintro
  ihave Hh := (Entails.of_eq (held_V3 (F := F) m d)) $$ Hheld
  icases Hh with ⟨Hx, Hth, Hc, -, Hw, Ho⟩
  ihave Hx' := (Transfers.pointsTo_toks_split fullShare 2) $$ Hx
  icases Hx' with ⟨Hxr, Hx⟩
  ihave Hc' := (Transfers.pointsTo_toks_split fullShare 2) $$ Hc
  icases Hc' with ⟨-, Hc⟩
  ihave Hw' := (Transfers.pointsTo_toks_split fullShare 2) $$ Hw
  icases Hw' with ⟨-, Hw⟩
  ihave Ho' := (Entails.of_eq (oPts_blocks (F := F) d fullShare (m (oLoc d)))) $$ Ho
  iapply ((K (F := F)).wp_run (D (F := F)) 𝒱 (EH := EH) (P := P m) κ d 0) $$ [Hst Hx Hc Hw Ho' Hxr Hth]
  isplitr; · iexact Hctx
  isplitl [Hst]; · iexact Hst
  isplitl [Hx Hc Hw Ho']
  · rw [st0_eq_v]
    isplitl [Hx]; · iexact Hx
    isplitl [Hc]; · iexact Hc
    isplitl [Hw]; · iexact Hw
    iexact Ho'
  iintro ⟨Hst, Hdn⟩
  ihave Ho := (Entails.of_eq (dn0_eq_v m d)) $$ Hdn
  imodintro
  isplitl [Hst]; · iexact Hst
  isplitl [Hxr]; · iexact Hxr
  isplitl [Hth]; · iexact Hth
  iexact Ho

def fqv (d : Dev nD) (s' : Phys nD τ sig (Elt F)) : Prop :=
  s'.mem.mem (oLoc d) = oF m d ∧ s'.mem.mem (xLoc d) = m (xLoc d) ∧ s'.mem.mem (thLoc d) = m (thLoc d)

theorem hfin_v (d : Dev nD) (s' : Phys nD τ sig (Elt F)) : iprop(FINv m d ∗ SI s') ⊢ (⌜fqv m d s'⌝ : sProp 𝕄) := by
  iintro ⟨⟨Hx, Hth, Ho⟩, HSI⟩
  ihave H := (persistent_entails_right (SI_pointsTo_agree (st := s') (ℓ := xLoc d) (I := Finset.univ) (q := Transfers.shareDrop fullShare 2) (f := m (xLoc d)))) $$ [HSI Hx]
  · isplitl [HSI] <;> iassumption
  icases H with ⟨%h1, HSI, -⟩
  ihave H := (persistent_entails_right (SI_pointsTo_agree (st := s') (ℓ := thLoc d) (I := Finset.univ) (q := fullShare) (f := m (thLoc d)))) $$ [HSI Hth]
  · isplitl [HSI] <;> iassumption
  icases H with ⟨%h2, HSI, -⟩
  ihave H := (SI_pointsTo_agree (st := s') (ℓ := oLoc d) (I := Finset.univ) (q := fullShare) (f := oF m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

def QCv : PUnit × MemSt nD τ sig (Elt F) → Prop := fun r => ∀ c : Dev nD,
  r.2.mem (oLoc c) = oF m c ∧ r.2.mem (xLoc c) = m (xLoc c) ∧ r.2.mem (thLoc c) = m (thLoc c)

theorem run_main [∀ e, Nonempty (Elt F e)] :
    θ_run (Cert.KernelIdeal.defs (F := F)) (Cert.KernelIdeal.threads (F := F)) ⟨m, fun _ => 0, ρ⟩ (QCv m) :=
  SparseCore.Cfg.θ_run_sc (K := K (F := F)) (D := D (F := F)) (𝒱 := 𝒱) (EH := EH) (P := P m) kfacts v₀
    (fun q hq => match q with | 0 => nomatch hq)
    (fun q _ => match q with | 0 => tileObl_v m kfacts)
    (fun q _ => match q with | 0 => SparseCore.Cfg.VecSplit.of_plain (vecSplit_v m))
    m ρ main (fun _ => iprop(emp)) (FINv m) (u₀ (F := F)) (sep_elim_left.trans (hu₀_v m)) (hmain_v m ρ) (fqv m) (hfin_v m) (QCv m) (fun _ h => h)

/-- The run of the kernel program from every memory: the result array is the function of the two arguments, which are
    unchanged. -/
theorem run_sc [∀ e, Nonempty (Elt F e)] (m : (ℓ : Loc nD τ sig) → Buf (Elt F) ℓ) (ρ : Dev nD → PrngReg) :
    θ_run (defs (F := F)) (threads (F := F)) ⟨m, fun _ => 0, ρ⟩ (fun r => ∀ c : Dev nD,
      r.2.mem ((c.tc : Thread nD τ).loc main_v2) = kout (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_main m ρ

end Run

end Cert.KernelIdeal.Sc

end
-- ==== Proof.RefSat.lean ====
import proofs.«213024_g80238579024365_cont_9to1c4b_497_7_alg».proof.Proof.Gen.ReferenceIdeal
import Idealize.ShloMosaic.Lib.StableHlo.Run

set_option maxRecDepth 16384
set_option maxHeartbeats 4000000

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The valuation satisfies the operation's defining equation: at each buffer the operation writes it holds what the
    operation computes FROM THAT SAME valuation. The final contents of a program in single-assignment order satisfy
    every operation's equation. -/
def Sat (W : Valuation τ sig (Elt F)) (op : HloOp τ sig (Elt F)) : Prop := ∀ d ∈ op.writes, W d = op.result W d

/-- `op` writes exactly the buffer `p.1`, and what it leaves there depends only on the buffers `p.2`. -/
structure Node (op : HloOp τ sig (Elt F)) (p : Ref sig .tc × List (Ref sig .tc)) : Prop where
  writes : op.writes = {(p.1 : DevRef τ sig)}
  reads : ∀ V V' : Valuation τ sig (Elt F), (∀ r ∈ p.2, V (r : DevRef τ sig) = V' (r : DevRef τ sig)) →
    op.result V (p.1 : DevRef τ sig) = op.result V' (p.1 : DevRef τ sig)

section Builders
variable {x a b c y : Ref sig .tc}

theorem node_nullary (v : y.ty.Contents (Elt F)) (hy) : Node (nullary (τ := τ) y v hy) (y, []) :=
  ⟨rfl, fun V V' _ => by rw [nullary_result, nullary_result]⟩
theorem node_unary (f : x.ty.Contents (Elt F) → y.ty.Contents (Elt F)) (hx hy) : Node (unary (τ := τ) x y f hx hy) (y, [x]) :=
  ⟨rfl, fun V V' h => by rw [unary_result, unary_result, h x (List.mem_cons_self ..)]⟩
theorem node_binary (f : a.ty.Contents (Elt F) → b.ty.Contents (Elt F) → y.ty.Contents (Elt F)) (ha hb hy) :
    Node (binary (τ := τ) a b y f ha hb hy) (y, [a, b]) :=
  ⟨rfl, fun V V' h => by rw [binary_result, binary_result, h a (List.mem_cons_self ..), h b (List.mem_cons_of_mem _ (List.mem_cons_self ..))]⟩
theorem node_ternary (f : c.ty.Contents (Elt F) → a.ty.Contents (Elt F) → b.ty.Contents (Elt F) → y.ty.Contents (Elt F)) (hc ha hb hy) :
    Node (ternary (τ := τ) c a b y f hc ha hb hy) (y, [c, a, b]) :=
  ⟨rfl, fun V V' h => by rw [ternary_result, ternary_result, h c (List.mem_cons_self ..), h a (List.mem_cons_of_mem _ (List.mem_cons_self ..)),
    h b (List.mem_cons_of_mem _ (List.mem_cons_of_mem _ (List.mem_cons_self ..)))]⟩
theorem node_reshape (he hn hx hy) : Node (reshape (τ := τ) (Val := Elt F) x y he hn hx hy) (y, [x]) :=
  ⟨rfl, fun V V' h => by rw [reshape_result, reshape_result, h x (List.mem_cons_self ..)]⟩

variable {W : Valuation τ sig (Elt F)}

theorem sat_nullary {v : y.ty.Contents (Elt F)} {hy} (h : Sat W (nullary (τ := τ) y v hy)) : W y = v :=
  (h _ (Finset.mem_singleton_self _)).trans (nullary_result ..)
theorem sat_unary {f : x.ty.Contents (Elt F) → y.ty.Contents (Elt F)} {hx hy} (h : Sat W (unary (τ := τ) x y f hx hy)) : W y = f (W x) :=
  (h _ (Finset.mem_singleton_self _)).trans (unary_result ..)
theorem sat_binary {f : a.ty.Contents (Elt F) → b.ty.Contents (Elt F) → y.ty.Contents (Elt F)} {ha hb hy}
    (h : Sat W (binary (τ := τ) a b y f ha hb hy)) : W y = f (W a) (W b) :=
  (h _ (Finset.mem_singleton_self _)).trans (binary_result ..)
theorem sat_ternary {f : c.ty.Contents (Elt F) → a.ty.Contents (Elt F) → b.ty.Contents (Elt F) → y.ty.Contents (Elt F)} {hc ha hb hy}
    (h : Sat W (ternary (τ := τ) c a b y f hc ha hb hy)) : W y = f (W c) (W a) (W b) :=
  (h _ (Finset.mem_singleton_self _)).trans (ternary_result ..)
theorem sat_reshape {he hn hx hy} (h : Sat W (reshape (τ := τ) (Val := Elt F) x y he hn hx hy)) :
    W y = fun i => he ▸ shapeCast y.ty.shape (W x) hn i :=
  (h _ (Finset.mem_singleton_self _)).trans (reshape_result ..)

end Builders

/-! ## The same for typed references (a module-local function's buffers) -/

section Typed
variable {T Tx Ta Tb Tc Ty : BufTy}

/-- The contents a valuation gives a typed reference, at the value's type. -/
def rd (W : Valuation τ sig (Elt F)) (x : TRef sig T) : T.Contents (Elt F) := x.ofBuf (W (x.ref : DevRef τ sig))

theorem ofBuf_toBuf (x : TRef sig T) (v : T.Contents (Elt F)) : x.ofBuf (x.toBuf v) = v := by
  obtain ⟨r, rfl, _, _⟩ := x; rfl

variable {W : Valuation τ sig (Elt F)}

theorem sat_Tnullary {y : TRef sig Ty} {v : Ty.Contents (Elt F)} (h : Sat W (TRef.nullary (τ := τ) y v)) : rd W y = v := by
  unfold rd; rw [sat_nullary h, ofBuf_toBuf]
theorem sat_Tunary {x : TRef sig Tx} {y : TRef sig Ty} {f : Tx.Contents (Elt F) → Ty.Contents (Elt F)}
    (h : Sat W (TRef.unary (τ := τ) x y f)) : rd W y = f (rd W x) := by
  unfold rd; rw [sat_unary h, ofBuf_toBuf]
theorem sat_Tbinary {a : TRef sig Ta} {b : TRef sig Tb} {y : TRef sig Ty} {f : Ta.Contents (Elt F) → Tb.Contents (Elt F) → Ty.Contents (Elt F)}
    (h : Sat W (TRef.binary (τ := τ) a b y f)) : rd W y = f (rd W a) (rd W b) := by
  unfold rd; rw [sat_binary h, ofBuf_toBuf]
theorem sat_Tternary {c : TRef sig Tc} {a : TRef sig Ta} {b : TRef sig Tb} {y : TRef sig Ty}
    {f : Tc.Contents (Elt F) → Ta.Contents (Elt F) → Tb.Contents (Elt F) → Ty.Contents (Elt F)}
    (h : Sat W (TRef.ternary (τ := τ) c a b y f)) : rd W y = f (rd W c) (rd W a) (rd W b) := by
  unfold rd; rw [sat_ternary h, ofBuf_toBuf]

end Typed

end Cert.ReferenceIdeal.Hand

end
-- ==== Proof.RefOpsBase.lean ====
import proofs.«213024_g80238579024365_cont_9to1c4b_497_7_alg».proof.Proof.RefSat

set_option maxRecDepth 16384
set_option maxHeartbeats 4000000

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- What the run of a straight line asks of each operation: its buffers are TensorCore buffers, and it determines
    what it writes. -/
def OpOk (op : HloOp τ sig (Elt F)) : Prop := op.bufs ⊆ tcRefs τ sig ∧ op.fresh = ∅

theorem forall_append {α : Type} {p : α → Prop} {l₁ l₂ : List α} (h₁ : l₁.Forall p) (h₂ : l₂.Forall p) : (l₁ ++ l₂).Forall p := by
  rw [List.forall_iff_forall_mem] at *
  intro x hx
  rcases List.mem_append.1 hx with h | h
  · exact h₁ x h
  · exact h₂ x h

theorem f2_append {α β : Type} {R : α → β → Prop} {l₁ l₂ : List α} {w₁ w₂ : List β} (h₁ : List.Forall₂ R l₁ w₁)
    (h₂ : List.Forall₂ R l₂ w₂) : List.Forall₂ R (l₁ ++ l₂) (w₁ ++ w₂) := by
  induction h₁ with
  | nil => exact h₂
  | cons h _ ih => exact List.Forall₂.cons h ih

/-- A line each of whose operations writes the one buffer its entry of the list names writes only buffers of that list. -/
theorem writes_sub_of_nodes {L : List (HloOp τ sig (Elt F))} {WR : List (Ref sig .tc × List (Ref sig .tc))} (h : List.Forall₂ Node L WR) :
    L.Forall fun op => op.writes ⊆ ((WR.map Prod.fst).map (Proc.devRef (τ := τ) .tc)).toFinset := by
  rw [List.forall_iff_forall_mem]
  induction h with
  | nil => intro op hop; cases hop
  | cons hab _ ih =>
    intro o ho
    rcases List.mem_cons.1 ho with rfl | ho
    · intro d hd
      rw [hab.writes, Finset.mem_singleton] at hd
      subst hd
      simp only [List.map_cons, List.toFinset_cons, Finset.mem_insert, true_or]
    · intro d hd
      have := ih o ho hd
      simp only [List.map_cons, List.toFinset_cons, Finset.mem_insert]
      exact Or.inr this

/-- The contents after two lines run in turn: the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

end Cert.ReferenceIdeal.Hand

end
-- ==== Proof.RefOpsTfA.lean ====
import proofs.«213024_g80238579024365_cont_9to1c4b_497_7_alg».proof.Proof.RefOpsBase

set_option maxRecDepth 16384
set_option maxHeartbeats 4000000

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

noncomputable def L_fn_threefry2x32_body_part0_s0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  [ StableHlo.TRef.binary arg0 arg1 φ.v0 xori,
    StableHlo.TRef.nullary φ.c (constantI S_ 32 466688986#32),
    StableHlo.TRef.binary φ.v0 φ.c φ.v1 xori,
    StableHlo.TRef.unary arg0 φ.v2 (broadcastInDim S2 ![] bcast_S_S2),
    StableHlo.TRef.binary arg2 φ.v2 φ.v3 addi,
    StableHlo.TRef.unary arg1 φ.v4 (broadcastInDim S2 ![] bcast_S_S2),
    StableHlo.TRef.binary arg3 φ.v4 φ.v5 addi,
    StableHlo.TRef.binary φ.v3 φ.v5 φ.v6 addi,
    StableHlo.TRef.nullary φ.c_0 (constantI S_ 32 13#32),
    StableHlo.TRef.unary φ.c_0 φ.v7 (broadcastInDim S2 ![] bcast_S_S2),
    StableHlo.TRef.binary φ.v5 φ.v7 φ.v8 Host.shli,
    StableHlo.TRef.nullary φ.c_1 (constantI S_ 32 19#32),
    StableHlo.TRef.unary φ.c_1 φ.v9 (broadcastInDim S2 ![] bcast_S_S2),
    StableHlo.TRef.binary φ.v5 φ.v9 φ.v10 Host.shrui,
    StableHlo.TRef.binary φ.v8 φ.v10 φ.v11 ori,
    StableHlo.TRef.binary φ.v6 φ.v11 φ.v12 xori,
    StableHlo.TRef.binary φ.v6 φ.v12 φ.v13 addi,
    StableHlo.TRef.nullary φ.c_2 (constantI S_ 32 15#32),
    StableHlo.TRef.unary φ.c_2 φ.v14 (broadcastInDim S2 ![] bcast_S_S2),
    StableHlo.TRef.binary φ.v12 φ.v14 φ.v15 Host.shli,
    StableHlo.TRef.nullary φ.c_3 (constantI S_ 32 17#32),
    StableHlo.TRef.unary φ.c_3 φ.v16 (broadcastInDim S2 ![] bcast_S_S2),
    StableHlo.TRef.binary φ.v12 φ.v16 φ.v17 Host.shrui,
    StableHlo.TRef.binary φ.v15 φ.v17 φ.v18 ori,
    StableHlo.TRef.binary φ.v13 φ.v18 φ.v19 xori,
    StableHlo.TRef.binary φ.v13 φ.v19 φ.v20 addi,
    StableHlo.TRef.nullary φ.c_4 (constantI S_ 32 26#32),
    StableHlo.TRef.unary φ.c_4 φ.v21 (broadcastInDim S2 ![] bcast_S_S2),
    StableHlo.TRef.binary φ.v19 φ.v21 φ.v22 Host.shli,
    StableHlo.TRef.nullary φ.c_5 (constantI S_ 32 6#32),
    StableHlo.TRef.unary φ.c_5 φ.v23 (broadcastInDim S2 ![] bcast_S_S2),
    StableHlo.TRef.binary φ.v19 φ.v23 φ.v24 Host.shrui,
    StableHlo.TRef.binary φ.v22 φ.v24 φ.v25 ori,
    StableHlo.TRef.binary φ.v20 φ.v25 φ.v26 xori,
    StableHlo.TRef.binary φ.v20 φ.v26 φ.v27 addi,
    StableHlo.TRef.nullary φ.c_6 (constantI S_ 32 6#32),
    StableHlo.TRef.unary φ.c_6 φ.v28 (broadcastInDim S2 ![] bcast_S_S2),
    StableHlo.TRef.binary φ.v26 φ.v28 φ.v29 Host.shli,
    StableHlo.TRef.nullary φ.c_7 (constantI S_ 32 26#32),
    StableHlo.TRef.unary φ.c_7 φ.v30 (broadcastInDim S2 ![] bcast_S_S2),
    StableHlo.TRef.binary φ.v26 φ.v30 φ.v31 Host.shrui,
    StableHlo.TRef.binary φ.v29 φ.v31 φ.v32 ori,
    StableHlo.TRef.binary φ.v27 φ.v32 φ.v33 xori,
    StableHlo.TRef.unary arg1 φ.v34 (broadcastInDim S2 ![] bcast_S_S2),
    StableHlo.TRef.binary φ.v27 φ.v34 φ.v35 addi,
    StableHlo.TRef.unary φ.v1 φ.v36 (broadcastInDim S2 ![] bcast_S_S2),
    StableHlo.TRef.binary φ.v33 φ.v36 φ.v37 addi,
    StableHlo.TRef.nullary φ.c_8 (constantI S_ 32 1#32),
    StableHlo.TRef.unary φ.c_8 φ.v38 (broadcastInDim S2 ![] bcast_S_S2),
    StableHlo.TRef.binary φ.v37 φ.v38 φ.v39 addi,
    StableHlo.TRef.binary φ.v35 φ.v39 φ.v40 addi,
    StableHlo.TRef.nullary φ.c_9 (constantI S_ 32 17#32),
    StableHlo.TRef.unary φ.c_9 φ.v41 (broadcastInDim S2 ![] bcast_S_S2),
    StableHlo.TRef.binary φ.v39 φ.v41 φ.v42 Host.shli,
    StableHlo.TRef.nullary φ.c_10 (constantI S_ 32 15#32),
    StableHlo.TRef.unary φ.c_10 φ.v43 (broadcastInDim S2 ![] bcast_S_S2),
    StableHlo.TRef.binary φ.v39 φ.v43 φ.v44 Host.shrui,
    StableHlo.TRef.binary φ.v42 φ.v44 φ.v45 ori,
    StableHlo.TRef.binary φ.v40 φ.v45 φ.v46 xori,
    StableHlo.TRef.binary φ.v40 φ.v46 φ.v47 addi ]

theorem P_fn_threefry2x32_body_part0_s0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (L_fn_threefry2x32_body_part0_s0 (F := F) arg0 arg1 arg2 arg3 φ).Forall OpOk := by
  unfold L_fn_threefry2x32_body_part0_s0
  exact ⟨⟨binary_bufs_sub .., rfl⟩, ⟨nullary_bufs_sub .., rfl⟩, ⟨binary_bufs_sub .., rfl⟩, ⟨unary_bufs_sub .., rfl⟩, ⟨binary_bufs_sub .., rfl⟩, ⟨unary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨unary_bufs_sub .., rfl⟩, ⟨binary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩⟩

noncomputable def WR_fn_threefry2x32_body_part0_s0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (Ref sig .tc × List (Ref sig .tc)) :=
  [ ((φ.v0).ref, [(arg0).ref, (arg1).ref]),
    ((φ.c).ref, []),
    ((φ.v1).ref, [(φ.v0).ref, (φ.c).ref]),
    ((φ.v2).ref, [(arg0).ref]),
    ((φ.v3).ref, [(arg2).ref, (φ.v2).ref]),
    ((φ.v4).ref, [(arg1).ref]),
    ((φ.v5).ref, [(arg3).ref, (φ.v4).ref]),
    ((φ.v6).ref, [(φ.v3).ref, (φ.v5).ref]),
    ((φ.c_0).ref, []),
    ((φ.v7).ref, [(φ.c_0).ref]),
    ((φ.v8).ref, [(φ.v5).ref, (φ.v7).ref]),
    ((φ.c_1).ref, []),
    ((φ.v9).ref, [(φ.c_1).ref]),
    ((φ.v10).ref, [(φ.v5).ref, (φ.v9).ref]),
    ((φ.v11).ref, [(φ.v8).ref, (φ.v10).ref]),
    ((φ.v12).ref, [(φ.v6).ref, (φ.v11).ref]),
    ((φ.v13).ref, [(φ.v6).ref, (φ.v12).ref]),
    ((φ.c_2).ref, []),
    ((φ.v14).ref, [(φ.c_2).ref]),
    ((φ.v15).ref, [(φ.v12).ref, (φ.v14).ref]),
    ((φ.c_3).ref, []),
    ((φ.v16).ref, [(φ.c_3).ref]),
    ((φ.v17).ref, [(φ.v12).ref, (φ.v16).ref]),
    ((φ.v18).ref, [(φ.v15).ref, (φ.v17).ref]),
    ((φ.v19).ref, [(φ.v13).ref, (φ.v18).ref]),
    ((φ.v20).ref, [(φ.v13).ref, (φ.v19).ref]),
    ((φ.c_4).ref, []),
    ((φ.v21).ref, [(φ.c_4).ref]),
    ((φ.v22).ref, [(φ.v19).ref, (φ.v21).ref]),
    ((φ.c_5).ref, []),
    ((φ.v23).ref, [(φ.c_5).ref]),
    ((φ.v24).ref, [(φ.v19).ref, (φ.v23).ref]),
    ((φ.v25).ref, [(φ.v22).ref, (φ.v24).ref]),
    ((φ.v26).ref, [(φ.v20).ref, (φ.v25).ref]),
    ((φ.v27).ref, [(φ.v20).ref, (φ.v26).ref]),
    ((φ.c_6).ref, []),
    ((φ.v28).ref, [(φ.c_6).ref]),
    ((φ.v29).ref, [(φ.v26).ref, (φ.v28).ref]),
    ((φ.c_7).ref, []),
    ((φ.v30).ref, [(φ.c_7).ref]),
    ((φ.v31).ref, [(φ.v26).ref, (φ.v30).ref]),
    ((φ.v32).ref, [(φ.v29).ref, (φ.v31).ref]),
    ((φ.v33).ref, [(φ.v27).ref, (φ.v32).ref]),
    ((φ.v34).ref, [(arg1).ref]),
    ((φ.v35).ref, [(φ.v27).ref, (φ.v34).ref]),
    ((φ.v36).ref, [(φ.v1).ref]),
    ((φ.v37).ref, [(φ.v33).ref, (φ.v36).ref]),
    ((φ.c_8).ref, []),
    ((φ.v38).ref, [(φ.c_8).ref]),
    ((φ.v39).ref, [(φ.v37).ref, (φ.v38).ref]),
    ((φ.v40).ref, [(φ.v35).ref, (φ.v39).ref]),
    ((φ.c_9).ref, []),
    ((φ.v41).ref, [(φ.c_9).ref]),
    ((φ.v42).ref, [(φ.v39).ref, (φ.v41).ref]),
    ((φ.c_10).ref, []),
    ((φ.v43).ref, [(φ.c_10).ref]),
    ((φ.v44).ref, [(φ.v39).ref, (φ.v43).ref]),
    ((φ.v45).ref, [(φ.v42).ref, (φ.v44).ref]),
    ((φ.v46).ref, [(φ.v40).ref, (φ.v45).ref]),
    ((φ.v47).ref, [(φ.v40).ref, (φ.v46).ref]) ]

theorem Nd_fn_threefry2x32_body_part0_s0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List.Forall₂ Node (L_fn_threefry2x32_body_part0_s0 (F := F) arg0 arg1 arg2 arg3 φ) (WR_fn_threefry2x32_body_part0_s0 arg0 arg1 arg2 arg3 φ) :=
  .cons (node_binary ..) (.cons (node_nullary ..) (.cons (node_binary ..) (.cons (node_unary ..) (.cons (node_binary ..) (.cons (node_unary ..) (.cons (node_binary ..) (.cons (node_binary ..) (.cons (node_nullary ..) (.cons (node_unary ..) (.cons (node_binary ..) (.cons (node_nullary ..) (.cons (node_unary ..) (.cons (node_binary ..) (.cons (node_binary ..) (.cons (node_binary ..) (.cons (node_binary ..) (.cons (node_nullary ..) (.cons (node_unary ..) (.cons (node_binary ..) (.cons (node_nullary ..) (.cons (node_unary ..) (.cons (node_binary ..) (.cons (node_binary ..) (.cons (node_binary ..) (.cons (node_binary ..) (.cons (node_nullary ..) (.cons (node_unary ..) (.cons (node_binary ..) (.cons (node_nullary ..) (.cons (node_unary ..) (.cons (node_binary ..) (.cons (node_binary ..) (.cons (node_binary ..) (.cons (node_binary ..) (.cons (node_nullary ..) (.cons (node_unary ..) (.cons (node_binary ..) (.cons (node_nullary ..) (.cons (node_unary ..) (.cons (node_binary ..) (.cons (node_binary ..) (.cons (node_binary ..) (.cons (node_unary ..) (.cons (node_binary ..) (.cons (node_unary ..) (.cons (node_binary ..) (.cons (node_nullary ..) (.cons (node_unary ..) (.cons (node_binary ..) (.cons (node_binary ..) (.cons (node_nullary ..) (.cons (node_unary ..) (.cons (node_binary ..) (.cons (node_nullary ..) (.cons (node_unary ..) (.cons (node_binary ..) (.cons (node_binary ..) (.cons (node_binary ..) (.cons (node_binary ..) (.nil))))))))))))))))))))))))))))))))))))))))))))))))))))))))))))

noncomputable def L_fn_threefry2x32_body_part0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  (L_fn_threefry2x32_body_part0_s0 arg0 arg1 arg2 arg3 φ)

theorem P_fn_threefry2x32_body_part0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (L_fn_threefry2x32_body_part0 (F := F) arg0 arg1 arg2 arg3 φ).Forall OpOk :=
  (P_fn_threefry2x32_body_part0_s0 arg0 arg1 arg2 arg3 φ)

noncomputable def WR_fn_threefry2x32_body_part0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (Ref sig .tc × List (Ref sig .tc)) :=
  (WR_fn_threefry2x32_body_part0_s0 arg0 arg1 arg2 arg3 φ)

theorem Nd_fn_threefry2x32_body_part0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List.Forall₂ Node (L_fn_threefry2x32_body_part0 (F := F) arg0 arg1 arg2 arg3 φ) (WR_fn_threefry2x32_body_part0 arg0 arg1 arg2 arg3 φ) :=
  (Nd_fn_threefry2x32_body_part0_s0 arg0 arg1 arg2 arg3 φ)

theorem E_fn_threefry2x32_body_part0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : fn_threefry2x32.body_part0 (F := F) arg0 arg1 arg2 arg3 φ = seq (L_fn_threefry2x32_body_part0 arg0 arg1 arg2 arg3 φ) := by
  simp only [fn_threefry2x32.body_part0, L_fn_threefry2x32_body_part0, seq_append, L_fn_threefry2x32_body_part0_s0, seq, bind_assoc, pure_bind]
  try rfl

noncomputable def L_fn_threefry2x32_body_part1_s0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  [ StableHlo.TRef.nullary φ.c_11 (constantI S_ 32 29#32),
    StableHlo.TRef.unary φ.c_11 φ.v48 (broadcastInDim S2 ![] bcast_S_S2),
    StableHlo.TRef.binary φ.v46 φ.v48 φ.v49 Host.shli,
    StableHlo.TRef.nullary φ.c_12 (constantI S_ 32 3#32),
    StableHlo.TRef.unary φ.c_12 φ.v50 (broadcastInDim S2 ![] bcast_S_S2),
    StableHlo.TRef.binary φ.v46 φ.v50 φ.v51 Host.shrui,
    StableHlo.TRef.binary φ.v49 φ.v51 φ.v52 ori,
    StableHlo.TRef.binary φ.v47 φ.v52 φ.v53 xori,
    StableHlo.TRef.binary φ.v47 φ.v53 φ.v54 addi,
    StableHlo.TRef.nullary φ.c_13 (constantI S_ 32 16#32),
    StableHlo.TRef.unary φ.c_13 φ.v55 (broadcastInDim S2 ![] bcast_S_S2),
    StableHlo.TRef.binary φ.v53 φ.v55 φ.v56 Host.shli,
    StableHlo.TRef.nullary φ.c_14 (constantI S_ 32 16#32),
    StableHlo.TRef.unary φ.c_14 φ.v57 (broadcastInDim S2 ![] bcast_S_S2),
    StableHlo.TRef.binary φ.v53 φ.v57 φ.v58 Host.shrui,
    StableHlo.TRef.binary φ.v56 φ.v58 φ.v59 ori,
    StableHlo.TRef.binary φ.v54 φ.v59 φ.v60 xori,
    StableHlo.TRef.binary φ.v54 φ.v60 φ.v61 addi,
    StableHlo.TRef.nullary φ.c_15 (constantI S_ 32 24#32),
    StableHlo.TRef.unary φ.c_15 φ.v62 (broadcastInDim S2 ![] bcast_S_S2),
    StableHlo.TRef.binary φ.v60 φ.v62 φ.v63 Host.shli,
    StableHlo.TRef.nullary φ.c_16 (constantI S_ 32 8#32),
    StableHlo.TRef.unary φ.c_16 φ.v64 (broadcastInDim S2 ![] bcast_S_S2),
    StableHlo.TRef.binary φ.v60 φ.v64 φ.v65 Host.shrui,
    StableHlo.TRef.binary φ.v63 φ.v65 φ.v66 ori,
    StableHlo.TRef.binary φ.v61 φ.v66 φ.v67 xori,
    StableHlo.TRef.unary φ.v1 φ.v68 (broadcastInDim S2 ![] bcast_S_S2),
    StableHlo.TRef.binary φ.v61 φ.v68 φ.v69 addi,
    StableHlo.TRef.unary arg0 φ.v70 (broadcastInDim S2 ![] bcast_S_S2),
    StableHlo.TRef.binary φ.v67 φ.v70 φ.v71 addi,
    StableHlo.TRef.nullary φ.c_17 (constantI S_ 32 2#32),
    StableHlo.TRef.unary φ.c_17 φ.v72 (broadcastInDim S2 ![] bcast_S_S2),
    StableHlo.TRef.binary φ.v71 φ.v72 φ.v73 addi,
    StableHlo.TRef.binary φ.v69 φ.v73 φ.v74 addi,
    StableHlo.TRef.nullary φ.c_18 (constantI S_ 32 13#32),
    StableHlo.TRef.unary φ.c_18 φ.v75 (broadcastInDim S2 ![] bcast_S_S2),
    StableHlo.TRef.binary φ.v73 φ.v75 φ.v76 Host.shli,
    StableHlo.TRef.nullary φ.c_19 (constantI S_ 32 19#32),
    StableHlo.TRef.unary φ.c_19 φ.v77 (broadcastInDim S2 ![] bcast_S_S2),
    StableHlo.TRef.binary φ.v73 φ.v77 φ.v78 Host.shrui,
    StableHlo.TRef.binary φ.v76 φ.v78 φ.v79 ori,
    StableHlo.TRef.binary φ.v74 φ.v79 φ.v80 xori,
    StableHlo.TRef.binary φ.v74 φ.v80 φ.v81 addi,
    StableHlo.TRef.nullary φ.c_20 (constantI S_ 32 15#32),
    StableHlo.TRef.unary φ.c_20 φ.v82 (broadcastInDim S2 ![] bcast_S_S2),
    StableHlo.TRef.binary φ.v80 φ.v82 φ.v83 Host.shli,
    StableHlo.TRef.nullary φ.c_21 (constantI S_ 32 17#32),
    StableHlo.TRef.unary φ.c_21 φ.v84 (broadcastInDim S2 ![] bcast_S_S2),
    StableHlo.TRef.binary φ.v80 φ.v84 φ.v85 Host.shrui,
    StableHlo.TRef.binary φ.v83 φ.v85 φ.v86 ori,
    StableHlo.TRef.binary φ.v81 φ.v86 φ.v87 xori,
    StableHlo.TRef.binary φ.v81 φ.v87 φ.v88 addi,
    StableHlo.TRef.nullary φ.c_22 (constantI S_ 32 26#32),
    StableHlo.TRef.unary φ.c_22 φ.v89 (broadcastInDim S2 ![] bcast_S_S2),
    StableHlo.TRef.binary φ.v87 φ.v89 φ.v90 Host.shli,
    StableHlo.TRef.nullary φ.c_23 (constantI S_ 32 6#32),
    StableHlo.TRef.unary φ.c_23 φ.v91 (broadcastInDim S2 ![] bcast_S_S2),
    StableHlo.TRef.binary φ.v87 φ.v91 φ.v92 Host.shrui,
    StableHlo.TRef.binary φ.v90 φ.v92 φ.v93 ori,
    StableHlo.TRef.binary φ.v88 φ.v93 φ.v94 xori ]

theorem P_fn_threefry2x32_body_part1_s0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (L_fn_threefry2x32_body_part1_s0 (F := F) arg0 arg1 arg2 arg3 φ).Forall OpOk := by
  unfold L_fn_threefry2x32_body_part1_s0
  exact ⟨⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨unary_bufs_sub .., rfl⟩, ⟨binary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩⟩

noncomputable def WR_fn_threefry2x32_body_part1_s0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (Ref sig .tc × List (Ref sig .tc)) :=
  [ ((φ.c_11).ref, []),
    ((φ.v48).ref, [(φ.c_11).ref]),
    ((φ.v49).ref, [(φ.v46).ref, (φ.v48).ref]),
    ((φ.c_12).ref, []),
    ((φ.v50).ref, [(φ.c_12).ref]),
    ((φ.v51).ref, [(φ.v46).ref, (φ.v50).ref]),
    ((φ.v52).ref, [(φ.v49).ref, (φ.v51).ref]),
    ((φ.v53).ref, [(φ.v47).ref, (φ.v52).ref]),
    ((φ.v54).ref, [(φ.v47).ref, (φ.v53).ref]),
    ((φ.c_13).ref, []),
    ((φ.v55).ref, [(φ.c_13).ref]),
    ((φ.v56).ref, [(φ.v53).ref, (φ.v55).ref]),
    ((φ.c_14).ref, []),
    ((φ.v57).ref, [(φ.c_14).ref]),
    ((φ.v58).ref, [(φ.v53).ref, (φ.v57).ref]),
    ((φ.v59).ref, [(φ.v56).ref, (φ.v58).ref]),
    ((φ.v60).ref, [(φ.v54).ref, (φ.v59).ref]),
    ((φ.v61).ref, [(φ.v54).ref, (φ.v60).ref]),
    ((φ.c_15).ref, []),
    ((φ.v62).ref, [(φ.c_15).ref]),
    ((φ.v63).ref, [(φ.v60).ref, (φ.v62).ref]),
    ((φ.c_16).ref, []),
    ((φ.v64).ref, [(φ.c_16).ref]),
    ((φ.v65).ref, [(φ.v60).ref, (φ.v64).ref]),
    ((φ.v66).ref, [(φ.v63).ref, (φ.v65).ref]),
    ((φ.v67).ref, [(φ.v61).ref, (φ.v66).ref]),
    ((φ.v68).ref, [(φ.v1).ref]),
    ((φ.v69).ref, [(φ.v61).ref, (φ.v68).ref]),
    ((φ.v70).ref, [(arg0).ref]),
    ((φ.v71).ref, [(φ.v67).ref, (φ.v70).ref]),
    ((φ.c_17).ref, []),
    ((φ.v72).ref, [(φ.c_17).ref]),
    ((φ.v73).ref, [(φ.v71).ref, (φ.v72).ref]),
    ((φ.v74).ref, [(φ.v69).ref, (φ.v73).ref]),
    ((φ.c_18).ref, []),
    ((φ.v75).ref, [(φ.c_18).ref]),
    ((φ.v76).ref, [(φ.v73).ref, (φ.v75).ref]),
    ((φ.c_19).ref, []),
    ((φ.v77).ref, [(φ.c_19).ref]),
    ((φ.v78).ref, [(φ.v73).ref, (φ.v77).ref]),
    ((φ.v79).ref, [(φ.v76).ref, (φ.v78).ref]),
    ((φ.v80).ref, [(φ.v74).ref, (φ.v79).ref]),
    ((φ.v81).ref, [(φ.v74).ref, (φ.v80).ref]),
    ((φ.c_20).ref, []),
    ((φ.v82).ref, [(φ.c_20).ref]),
    ((φ.v83).ref, [(φ.v80).ref, (φ.v82).ref]),
    ((φ.c_21).ref, []),
    ((φ.v84).ref, [(φ.c_21).ref]),
    ((φ.v85).ref, [(φ.v80).ref, (φ.v84).ref]),
    ((φ.v86).ref, [(φ.v83).ref, (φ.v85).ref]),
    ((φ.v87).ref, [(φ.v81).ref, (φ.v86).ref]),
    ((φ.v88).ref, [(φ.v81).ref, (φ.v87).ref]),
    ((φ.c_22).ref, []),
    ((φ.v89).ref, [(φ.c_22).ref]),
    ((φ.v90).ref, [(φ.v87).ref, (φ.v89).ref]),
    ((φ.c_23).ref, []),
    ((φ.v91).ref, [(φ.c_23).ref]),
    ((φ.v92).ref, [(φ.v87).ref, (φ.v91).ref]),
    ((φ.v93).ref, [(φ.v90).ref, (φ.v92).ref]),
    ((φ.v94).ref, [(φ.v88).ref, (φ.v93).ref]) ]

theorem Nd_fn_threefry2x32_body_part1_s0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List.Forall₂ Node (L_fn_threefry2x32_body_part1_s0 (F := F) arg0 arg1 arg2 arg3 φ) (WR_fn_threefry2x32_body_part1_s0 arg0 arg1 arg2 arg3 φ) :=
  .cons (node_nullary ..) (.cons (node_unary ..) (.cons (node_binary ..) (.cons (node_nullary ..) (.cons (node_unary ..) (.cons (node_binary ..) (.cons (node_binary ..) (.cons (node_binary ..) (.cons (node_binary ..) (.cons (node_nullary ..) (.cons (node_unary ..) (.cons (node_binary ..) (.cons (node_nullary ..) (.cons (node_unary ..) (.cons (node_binary ..) (.cons (node_binary ..) (.cons (node_binary ..) (.cons (node_binary ..) (.cons (node_nullary ..) (.cons (node_unary ..) (.cons (node_binary ..) (.cons (node_nullary ..) (.cons (node_unary ..) (.cons (node_binary ..) (.cons (node_binary ..) (.cons (node_binary ..) (.cons (node_unary ..) (.cons (node_binary ..) (.cons (node_unary ..) (.cons (node_binary ..) (.cons (node_nullary ..) (.cons (node_unary ..) (.cons (node_binary ..) (.cons (node_binary ..) (.cons (node_nullary ..) (.cons (node_unary ..) (.cons (node_binary ..) (.cons (node_nullary ..) (.cons (node_unary ..) (.cons (node_binary ..) (.cons (node_binary ..) (.cons (node_binary ..) (.cons (node_binary ..) (.cons (node_nullary ..) (.cons (node_unary ..) (.cons (node_binary ..) (.cons (node_nullary ..) (.cons (node_unary ..) (.cons (node_binary ..) (.cons (node_binary ..) (.cons (node_binary ..) (.cons (node_binary ..) (.cons (node_nullary ..) (.cons (node_unary ..) (.cons (node_binary ..) (.cons (node_nullary ..) (.cons (node_unary ..) (.cons (node_binary ..) (.cons (node_binary ..) (.cons (node_binary ..) (.nil))))))))))))))))))))))))))))))))))))))))))))))))))))))))))))

noncomputable def L_fn_threefry2x32_body_part1 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  (L_fn_threefry2x32_body_part1_s0 arg0 arg1 arg2 arg3 φ)

theorem P_fn_threefry2x32_body_part1 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (L_fn_threefry2x32_body_part1 (F := F) arg0 arg1 arg2 arg3 φ).Forall OpOk :=
  (P_fn_threefry2x32_body_part1_s0 arg0 arg1 arg2 arg3 φ)

noncomputable def WR_fn_threefry2x32_body_part1 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (Ref sig .tc × List (Ref sig .tc)) :=
  (WR_fn_threefry2x32_body_part1_s0 arg0 arg1 arg2 arg3 φ)

theorem Nd_fn_threefry2x32_body_part1 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List.Forall₂ Node (L_fn_threefry2x32_body_part1 (F := F) arg0 arg1 arg2 arg3 φ) (WR_fn_threefry2x32_body_part1 arg0 arg1 arg2 arg3 φ) :=
  (Nd_fn_threefry2x32_body_part1_s0 arg0 arg1 arg2 arg3 φ)

theorem E_fn_threefry2x32_body_part1 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : fn_threefry2x32.body_part1 (F := F) arg0 arg1 arg2 arg3 φ = seq (L_fn_threefry2x32_body_part1 arg0 arg1 arg2 arg3 φ) := by
  simp only [fn_threefry2x32.body_part1, L_fn_threefry2x32_body_part1, seq_append, L_fn_threefry2x32_body_part1_s0, seq, bind_assoc, pure_bind]
  try rfl

noncomputable def L_fn_threefry2x32_body_part2_s0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  [ StableHlo.TRef.binary φ.v88 φ.v94 φ.v95 addi,
    StableHlo.TRef.nullary φ.c_24 (constantI S_ 32 6#32),
    StableHlo.TRef.unary φ.c_24 φ.v96 (broadcastInDim S2 ![] bcast_S_S2),
    StableHlo.TRef.binary φ.v94 φ.v96 φ.v97 Host.shli,
    StableHlo.TRef.nullary φ.c_25 (constantI S_ 32 26#32),
    StableHlo.TRef.unary φ.c_25 φ.v98 (broadcastInDim S2 ![] bcast_S_S2),
    StableHlo.TRef.binary φ.v94 φ.v98 φ.v99 Host.shrui,
    StableHlo.TRef.binary φ.v97 φ.v99 φ.v100 ori,
    StableHlo.TRef.binary φ.v95 φ.v100 φ.v101 xori,
    StableHlo.TRef.unary arg0 φ.v102 (broadcastInDim S2 ![] bcast_S_S2),
    StableHlo.TRef.binary φ.v95 φ.v102 φ.v103 addi,
    StableHlo.TRef.unary arg1 φ.v104 (broadcastInDim S2 ![] bcast_S_S2),
    StableHlo.TRef.binary φ.v101 φ.v104 φ.v105 addi,
    StableHlo.TRef.nullary φ.c_26 (constantI S_ 32 3#32),
    StableHlo.TRef.unary φ.c_26 φ.v106 (broadcastInDim S2 ![] bcast_S_S2),
    StableHlo.TRef.binary φ.v105 φ.v106 φ.v107 addi,
    StableHlo.TRef.binary φ.v103 φ.v107 φ.v108 addi,
    StableHlo.TRef.nullary φ.c_27 (constantI S_ 32 17#32),
    StableHlo.TRef.unary φ.c_27 φ.v109 (broadcastInDim S2 ![] bcast_S_S2),
    StableHlo.TRef.binary φ.v107 φ.v109 φ.v110 Host.shli,
    StableHlo.TRef.nullary φ.c_28 (constantI S_ 32 15#32),
    StableHlo.TRef.unary φ.c_28 φ.v111 (broadcastInDim S2 ![] bcast_S_S2),
    StableHlo.TRef.binary φ.v107 φ.v111 φ.v112 Host.shrui,
    StableHlo.TRef.binary φ.v110 φ.v112 φ.v113 ori,
    StableHlo.TRef.binary φ.v108 φ.v113 φ.v114 xori,
    StableHlo.TRef.binary φ.v108 φ.v114 φ.v115 addi,
    StableHlo.TRef.nullary φ.c_29 (constantI S_ 32 29#32),
    StableHlo.TRef.unary φ.c_29 φ.v116 (broadcastInDim S2 ![] bcast_S_S2),
    StableHlo.TRef.binary φ.v114 φ.v116 φ.v117 Host.shli,
    StableHlo.TRef.nullary φ.c_30 (constantI S_ 32 3#32),
    StableHlo.TRef.unary φ.c_30 φ.v118 (broadcastInDim S2 ![] bcast_S_S2),
    StableHlo.TRef.binary φ.v114 φ.v118 φ.v119 Host.shrui,
    StableHlo.TRef.binary φ.v117 φ.v119 φ.v120 ori,
    StableHlo.TRef.binary φ.v115 φ.v120 φ.v121 xori,
    StableHlo.TRef.binary φ.v115 φ.v121 φ.v122 addi,
    StableHlo.TRef.nullary φ.c_31 (constantI S_ 32 16#32),
    StableHlo.TRef.unary φ.c_31 φ.v123 (broadcastInDim S2 ![] bcast_S_S2),
    StableHlo.TRef.binary φ.v121 φ.v123 φ.v124 Host.shli,
    StableHlo.TRef.nullary φ.c_32 (constantI S_ 32 16#32),
    StableHlo.TRef.unary φ.c_32 φ.v125 (broadcastInDim S2 ![] bcast_S_S2),
    StableHlo.TRef.binary φ.v121 φ.v125 φ.v126 Host.shrui,
    StableHlo.TRef.binary φ.v124 φ.v126 φ.v127 ori,
    StableHlo.TRef.binary φ.v122 φ.v127 φ.v128 xori,
    StableHlo.TRef.binary φ.v122 φ.v128 φ.v129 addi,
    StableHlo.TRef.nullary φ.c_33 (constantI S_ 32 24#32),
    StableHlo.TRef.unary φ.c_33 φ.v130 (broadcastInDim S2 ![] bcast_S_S2),
    StableHlo.TRef.binary φ.v128 φ.v130 φ.v131 Host.shli,
    StableHlo.TRef.nullary φ.c_34 (constantI S_ 32 8#32),
    StableHlo.TRef.unary φ.c_34 φ.v132 (broadcastInDim S2 ![] bcast_S_S2),
    StableHlo.TRef.binary φ.v128 φ.v132 φ.v133 Host.shrui,
    StableHlo.TRef.binary φ.v131 φ.v133 φ.v134 ori,
    StableHlo.TRef.binary φ.v129 φ.v134 φ.v135 xori,
    StableHlo.TRef.unary arg1 φ.v136 (broadcastInDim S2 ![] bcast_S_S2),
    StableHlo.TRef.binary φ.v129 φ.v136 φ.v137 addi,
    StableHlo.TRef.unary φ.v1 φ.v138 (broadcastInDim S2 ![] bcast_S_S2),
    StableHlo.TRef.binary φ.v135 φ.v138 φ.v139 addi,
    StableHlo.TRef.nullary φ.c_35 (constantI S_ 32 4#32),
    StableHlo.TRef.unary φ.c_35 φ.v140 (broadcastInDim S2 ![] bcast_S_S2),
    StableHlo.TRef.binary φ.v139 φ.v140 φ.v141 addi,
    StableHlo.TRef.binary φ.v137 φ.v141 φ.v142 addi ]

theorem P_fn_threefry2x32_body_part2_s0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (L_fn_threefry2x32_body_part2_s0 (F := F) arg0 arg1 arg2 arg3 φ).Forall OpOk := by
  unfold L_fn_threefry2x32_body_part2_s0
  exact ⟨⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨unary_bufs_sub .., rfl⟩, ⟨binary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨unary_bufs_sub .., rfl⟩, ⟨binary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩⟩

noncomputable def WR_fn_threefry2x32_body_part2_s0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (Ref sig .tc × List (Ref sig .tc)) :=
  [ ((φ.v95).ref, [(φ.v88).ref, (φ.v94).ref]),
    ((φ.c_24).ref, []),
    ((φ.v96).ref, [(φ.c_24).ref]),
    ((φ.v97).ref, [(φ.v94).ref, (φ.v96).ref]),
    ((φ.c_25).ref, []),
    ((φ.v98).ref, [(φ.c_25).ref]),
    ((φ.v99).ref, [(φ.v94).ref, (φ.v98).ref]),
    ((φ.v100).ref, [(φ.v97).ref, (φ.v99).ref]),
    ((φ.v101).ref, [(φ.v95).ref, (φ.v100).ref]),
    ((φ.v102).ref, [(arg0).ref]),
    ((φ.v103).ref, [(φ.v95).ref, (φ.v102).ref]),
    ((φ.v104).ref, [(arg1).ref]),
    ((φ.v105).ref, [(φ.v101).ref, (φ.v104).ref]),
    ((φ.c_26).ref, []),
    ((φ.v106).ref, [(φ.c_26).ref]),
    ((φ.v107).ref, [(φ.v105).ref, (φ.v106).ref]),
    ((φ.v108).ref, [(φ.v103).ref, (φ.v107).ref]),
    ((φ.c_27).ref, []),
    ((φ.v109).ref, [(φ.c_27).ref]),
    ((φ.v110).ref, [(φ.v107).ref, (φ.v109).ref]),
    ((φ.c_28).ref, []),
    ((φ.v111).ref, [(φ.c_28).ref]),
    ((φ.v112).ref, [(φ.v107).ref, (φ.v111).ref]),
    ((φ.v113).ref, [(φ.v110).ref, (φ.v112).ref]),
    ((φ.v114).ref, [(φ.v108).ref, (φ.v113).ref]),
    ((φ.v115).ref, [(φ.v108).ref, (φ.v114).ref]),
    ((φ.c_29).ref, []),
    ((φ.v116).ref, [(φ.c_29).ref]),
    ((φ.v117).ref, [(φ.v114).ref, (φ.v116).ref]),
    ((φ.c_30).ref, []),
    ((φ.v118).ref, [(φ.c_30).ref]),
    ((φ.v119).ref, [(φ.v114).ref, (φ.v118).ref]),
    ((φ.v120).ref, [(φ.v117).ref, (φ.v119).ref]),
    ((φ.v121).ref, [(φ.v115).ref, (φ.v120).ref]),
    ((φ.v122).ref, [(φ.v115).ref, (φ.v121).ref]),
    ((φ.c_31).ref, []),
    ((φ.v123).ref, [(φ.c_31).ref]),
    ((φ.v124).ref, [(φ.v121).ref, (φ.v123).ref]),
    ((φ.c_32).ref, []),
    ((φ.v125).ref, [(φ.c_32).ref]),
    ((φ.v126).ref, [(φ.v121).ref, (φ.v125).ref]),
    ((φ.v127).ref, [(φ.v124).ref, (φ.v126).ref]),
    ((φ.v128).ref, [(φ.v122).ref, (φ.v127).ref]),
    ((φ.v129).ref, [(φ.v122).ref, (φ.v128).ref]),
    ((φ.c_33).ref, []),
    ((φ.v130).ref, [(φ.c_33).ref]),
    ((φ.v131).ref, [(φ.v128).ref, (φ.v130).ref]),
    ((φ.c_34).ref, []),
    ((φ.v132).ref, [(φ.c_34).ref]),
    ((φ.v133).ref, [(φ.v128).ref, (φ.v132).ref]),
    ((φ.v134).ref, [(φ.v131).ref, (φ.v133).ref]),
    ((φ.v135).ref, [(φ.v129).ref, (φ.v134).ref]),
    ((φ.v136).ref, [(arg1).ref]),
    ((φ.v137).ref, [(φ.v129).ref, (φ.v136).ref]),
    ((φ.v138).ref, [(φ.v1).ref]),
    ((φ.v139).ref, [(φ.v135).ref, (φ.v138).ref]),
    ((φ.c_35).ref, []),
    ((φ.v140).ref, [(φ.c_35).ref]),
    ((φ.v141).ref, [(φ.v139).ref, (φ.v140).ref]),
    ((φ.v142).ref, [(φ.v137).ref, (φ.v141).ref]) ]

theorem Nd_fn_threefry2x32_body_part2_s0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List.Forall₂ Node (L_fn_threefry2x32_body_part2_s0 (F := F) arg0 arg1 arg2 arg3 φ) (WR_fn_threefry2x32_body_part2_s0 arg0 arg1 arg2 arg3 φ) :=
  .cons (node_binary ..) (.cons (node_nullary ..) (.cons (node_unary ..) (.cons (node_binary ..) (.cons (node_nullary ..) (.cons (node_unary ..) (.cons (node_binary ..) (.cons (node_binary ..) (.cons (node_binary ..) (.cons (node_unary ..) (.cons (node_binary ..) (.cons (node_unary ..) (.cons (node_binary ..) (.cons (node_nullary ..) (.cons (node_unary ..) (.cons (node_binary ..) (.cons (node_binary ..) (.cons (node_nullary ..) (.cons (node_unary ..) (.cons (node_binary ..) (.cons (node_nullary ..) (.cons (node_unary ..) (.cons (node_binary ..) (.cons (node_binary ..) (.cons (node_binary ..) (.cons (node_binary ..) (.cons (node_nullary ..) (.cons (node_unary ..) (.cons (node_binary ..) (.cons (node_nullary ..) (.cons (node_unary ..) (.cons (node_binary ..) (.cons (node_binary ..) (.cons (node_binary ..) (.cons (node_binary ..) (.cons (node_nullary ..) (.cons (node_unary ..) (.cons (node_binary ..) (.cons (node_nullary ..) (.cons (node_unary ..) (.cons (node_binary ..) (.cons (node_binary ..) (.cons (node_binary ..) (.cons (node_binary ..) (.cons (node_nullary ..) (.cons (node_unary ..) (.cons (node_binary ..) (.cons (node_nullary ..) (.cons (node_unary ..) (.cons (node_binary ..) (.cons (node_binary ..) (.cons (node_binary ..) (.cons (node_unary ..) (.cons (node_binary ..) (.cons (node_unary ..) (.cons (node_binary ..) (.cons (node_nullary ..) (.cons (node_unary ..) (.cons (node_binary ..) (.cons (node_binary ..) (.nil))))))))))))))))))))))))))))))))))))))))))))))))))))))))))))

noncomputable def L_fn_threefry2x32_body_part2 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  (L_fn_threefry2x32_body_part2_s0 arg0 arg1 arg2 arg3 φ)

theorem P_fn_threefry2x32_body_part2 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (L_fn_threefry2x32_body_part2 (F := F) arg0 arg1 arg2 arg3 φ).Forall OpOk :=
  (P_fn_threefry2x32_body_part2_s0 arg0 arg1 arg2 arg3 φ)

noncomputable def WR_fn_threefry2x32_body_part2 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (Ref sig .tc × List (Ref sig .tc)) :=
  (WR_fn_threefry2x32_body_part2_s0 arg0 arg1 arg2 arg3 φ)

theorem Nd_fn_threefry2x32_body_part2 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List.Forall₂ Node (L_fn_threefry2x32_body_part2 (F := F) arg0 arg1 arg2 arg3 φ) (WR_fn_threefry2x32_body_part2 arg0 arg1 arg2 arg3 φ) :=
  (Nd_fn_threefry2x32_body_part2_s0 arg0 arg1 arg2 arg3 φ)

theorem E_fn_threefry2x32_body_part2 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : fn_threefry2x32.body_part2 (F := F) arg0 arg1 arg2 arg3 φ = seq (L_fn_threefry2x32_body_part2 arg0 arg1 arg2 arg3 φ) := by
  simp only [fn_threefry2x32.body_part2, L_fn_threefry2x32_body_part2, seq_append, L_fn_threefry2x32_body_part2_s0, seq, bind_assoc, pure_bind]
  try rfl

noncomputable def L_fn_threefry2x32_body_part3_s0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  [ StableHlo.TRef.nullary φ.c_36 (constantI S_ 32 13#32),
    StableHlo.TRef.unary φ.c_36 φ.v143 (broadcastInDim S2 ![] bcast_S_S2),
    StableHlo.TRef.binary φ.v141 φ.v143 φ.v144 Host.shli,
    StableHlo.TRef.nullary φ.c_37 (constantI S_ 32 19#32),
    StableHlo.TRef.unary φ.c_37 φ.v145 (broadcastInDim S2 ![] bcast_S_S2),
    StableHlo.TRef.binary φ.v141 φ.v145 φ.v146 Host.shrui,
    StableHlo.TRef.binary φ.v144 φ.v146 φ.v147 ori,
    StableHlo.TRef.binary φ.v142 φ.v147 φ.v148 xori,
    StableHlo.TRef.binary φ.v142 φ.v148 φ.v149 addi,
    StableHlo.TRef.nullary φ.c_38 (constantI S_ 32 15#32),
    StableHlo.TRef.unary φ.c_38 φ.v150 (broadcastInDim S2 ![] bcast_S_S2),
    StableHlo.TRef.binary φ.v148 φ.v150 φ.v151 Host.shli,
    StableHlo.TRef.nullary φ.c_39 (constantI S_ 32 17#32),
    StableHlo.TRef.unary φ.c_39 φ.v152 (broadcastInDim S2 ![] bcast_S_S2),
    StableHlo.TRef.binary φ.v148 φ.v152 φ.v153 Host.shrui,
    StableHlo.TRef.binary φ.v151 φ.v153 φ.v154 ori,
    StableHlo.TRef.binary φ.v149 φ.v154 φ.v155 xori,
    StableHlo.TRef.binary φ.v149 φ.v155 φ.v156 addi,
    StableHlo.TRef.nullary φ.c_40 (constantI S_ 32 26#32),
    StableHlo.TRef.unary φ.c_40 φ.v157 (broadcastInDim S2 ![] bcast_S_S2),
    StableHlo.TRef.binary φ.v155 φ.v157 φ.v158 Host.shli,
    StableHlo.TRef.nullary φ.c_41 (constantI S_ 32 6#32),
    StableHlo.TRef.unary φ.c_41 φ.v159 (broadcastInDim S2 ![] bcast_S_S2),
    StableHlo.TRef.binary φ.v155 φ.v159 φ.v160 Host.shrui,
    StableHlo.TRef.binary φ.v158 φ.v160 φ.v161 ori,
    StableHlo.TRef.binary φ.v156 φ.v161 φ.v162 xori,
    StableHlo.TRef.binary φ.v156 φ.v162 φ.v163 addi,
    StableHlo.TRef.nullary φ.c_42 (constantI S_ 32 6#32),
    StableHlo.TRef.unary φ.c_42 φ.v164 (broadcastInDim S2 ![] bcast_S_S2),
    StableHlo.TRef.binary φ.v162 φ.v164 φ.v165 Host.shli,
    StableHlo.TRef.nullary φ.c_43 (constantI S_ 32 26#32),
    StableHlo.TRef.unary φ.c_43 φ.v166 (broadcastInDim S2 ![] bcast_S_S2),
    StableHlo.TRef.binary φ.v162 φ.v166 φ.v167 Host.shrui,
    StableHlo.TRef.binary φ.v165 φ.v167 φ.v168 ori,
    StableHlo.TRef.binary φ.v163 φ.v168 φ.v169 xori,
    StableHlo.TRef.unary φ.v1 φ.v170 (broadcastInDim S2 ![] bcast_S_S2),
    StableHlo.TRef.binary φ.v163 φ.v170 φ.v171 addi,
    StableHlo.TRef.unary arg0 φ.v172 (broadcastInDim S2 ![] bcast_S_S2),
    StableHlo.TRef.binary φ.v169 φ.v172 φ.v173 addi,
    StableHlo.TRef.nullary φ.c_44 (constantI S_ 32 5#32),
    StableHlo.TRef.unary φ.c_44 φ.v174 (broadcastInDim S2 ![] bcast_S_S2),
    StableHlo.TRef.binary φ.v173 φ.v174 φ.v175 addi ]

theorem P_fn_threefry2x32_body_part3_s0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (L_fn_threefry2x32_body_part3_s0 (F := F) arg0 arg1 arg2 arg3 φ).Forall OpOk := by
  unfold L_fn_threefry2x32_body_part3_s0
  exact ⟨⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨unary_bufs_sub .., rfl⟩, ⟨binary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩⟩

noncomputable def WR_fn_threefry2x32_body_part3_s0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (Ref sig .tc × List (Ref sig .tc)) :=
  [ ((φ.c_36).ref, []),
    ((φ.v143).ref, [(φ.c_36).ref]),
    ((φ.v144).ref, [(φ.v141).ref, (φ.v143).ref]),
    ((φ.c_37).ref, []),
    ((φ.v145).ref, [(φ.c_37).ref]),
    ((φ.v146).ref, [(φ.v141).ref, (φ.v145).ref]),
    ((φ.v147).ref, [(φ.v144).ref, (φ.v146).ref]),
    ((φ.v148).ref, [(φ.v142).ref, (φ.v147).ref]),
    ((φ.v149).ref, [(φ.v142).ref, (φ.v148).ref]),
    ((φ.c_38).ref, []),
    ((φ.v150).ref, [(φ.c_38).ref]),
    ((φ.v151).ref, [(φ.v148).ref, (φ.v150).ref]),
    ((φ.c_39).ref, []),
    ((φ.v152).ref, [(φ.c_39).ref]),
    ((φ.v153).ref, [(φ.v148).ref, (φ.v152).ref]),
    ((φ.v154).ref, [(φ.v151).ref, (φ.v153).ref]),
    ((φ.v155).ref, [(φ.v149).ref, (φ.v154).ref]),
    ((φ.v156).ref, [(φ.v149).ref, (φ.v155).ref]),
    ((φ.c_40).ref, []),
    ((φ.v157).ref, [(φ.c_40).ref]),
    ((φ.v158).ref, [(φ.v155).ref, (φ.v157).ref]),
    ((φ.c_41).ref, []),
    ((φ.v159).ref, [(φ.c_41).ref]),
    ((φ.v160).ref, [(φ.v155).ref, (φ.v159).ref]),
    ((φ.v161).ref, [(φ.v158).ref, (φ.v160).ref]),
    ((φ.v162).ref, [(φ.v156).ref, (φ.v161).ref]),
    ((φ.v163).ref, [(φ.v156).ref, (φ.v162).ref]),
    ((φ.c_42).ref, []),
    ((φ.v164).ref, [(φ.c_42).ref]),
    ((φ.v165).ref, [(φ.v162).ref, (φ.v164).ref]),
    ((φ.c_43).ref, []),
    ((φ.v166).ref, [(φ.c_43).ref]),
    ((φ.v167).ref, [(φ.v162).ref, (φ.v166).ref]),
    ((φ.v168).ref, [(φ.v165).ref, (φ.v167).ref]),
    ((φ.v169).ref, [(φ.v163).ref, (φ.v168).ref]),
    ((φ.v170).ref, [(φ.v1).ref]),
    ((φ.v171).ref, [(φ.v163).ref, (φ.v170).ref]),
    ((φ.v172).ref, [(arg0).ref]),
    ((φ.v173).ref, [(φ.v169).ref, (φ.v172).ref]),
    ((φ.c_44).ref, []),
    ((φ.v174).ref, [(φ.c_44).ref]),
    ((φ.v175).ref, [(φ.v173).ref, (φ.v174).ref]) ]

theorem Nd_fn_threefry2x32_body_part3_s0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List.Forall₂ Node (L_fn_threefry2x32_body_part3_s0 (F := F) arg0 arg1 arg2 arg3 φ) (WR_fn_threefry2x32_body_part3_s0 arg0 arg1 arg2 arg3 φ) :=
  .cons (node_nullary ..) (.cons (node_unary ..) (.cons (node_binary ..) (.cons (node_nullary ..) (.cons (node_unary ..) (.cons (node_binary ..) (.cons (node_binary ..) (.cons (node_binary ..) (.cons (node_binary ..) (.cons (node_nullary ..) (.cons (node_unary ..) (.cons (node_binary ..) (.cons (node_nullary ..) (.cons (node_unary ..) (.cons (node_binary ..) (.cons (node_binary ..) (.cons (node_binary ..) (.cons (node_binary ..) (.cons (node_nullary ..) (.cons (node_unary ..) (.cons (node_binary ..) (.cons (node_nullary ..) (.cons (node_unary ..) (.cons (node_binary ..) (.cons (node_binary ..) (.cons (node_binary ..) (.cons (node_binary ..) (.cons (node_nullary ..) (.cons (node_unary ..) (.cons (node_binary ..) (.cons (node_nullary ..) (.cons (node_unary ..) (.cons (node_binary ..) (.cons (node_binary ..) (.cons (node_binary ..) (.cons (node_unary ..) (.cons (node_binary ..) (.cons (node_unary ..) (.cons (node_binary ..) (.cons (node_nullary ..) (.cons (node_unary ..) (.cons (node_binary ..) (.nil))))))))))))))))))))))))))))))))))))))))))

noncomputable def L_fn_threefry2x32_body_part3 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  (L_fn_threefry2x32_body_part3_s0 arg0 arg1 arg2 arg3 φ)

theorem P_fn_threefry2x32_body_part3 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (L_fn_threefry2x32_body_part3 (F := F) arg0 arg1 arg2 arg3 φ).Forall OpOk :=
  (P_fn_threefry2x32_body_part3_s0 arg0 arg1 arg2 arg3 φ)

noncomputable def WR_fn_threefry2x32_body_part3 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (Ref sig .tc × List (Ref sig .tc)) :=
  (WR_fn_threefry2x32_body_part3_s0 arg0 arg1 arg2 arg3 φ)

theorem Nd_fn_threefry2x32_body_part3 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List.Forall₂ Node (L_fn_threefry2x32_body_part3 (F := F) arg0 arg1 arg2 arg3 φ) (WR_fn_threefry2x32_body_part3 arg0 arg1 arg2 arg3 φ) :=
  (Nd_fn_threefry2x32_body_part3_s0 arg0 arg1 arg2 arg3 φ)

theorem E_fn_threefry2x32_body_part3 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : fn_threefry2x32.body_part3 (F := F) arg0 arg1 arg2 arg3 φ = seq (L_fn_threefry2x32_body_part3 arg0 arg1 arg2 arg3 φ) := by
  simp only [fn_threefry2x32.body_part3, L_fn_threefry2x32_body_part3, seq_append, L_fn_threefry2x32_body_part3_s0, seq, bind_assoc, pure_bind]
  try rfl

noncomputable def L_fn_threefry2x32_body (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (HloOp τ sig (Elt F)) :=
  (L_fn_threefry2x32_body_part0 arg0 arg1 arg2 arg3 φ) ++ ((L_fn_threefry2x32_body_part1 arg0 arg1 arg2 arg3 φ) ++ ((L_fn_threefry2x32_body_part2 arg0 arg1 arg2 arg3 φ) ++ ((L_fn_threefry2x32_body_part3 arg0 arg1 arg2 arg3 φ))))

theorem P_fn_threefry2x32_body (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : (L_fn_threefry2x32_body (F := F) arg0 arg1 arg2 arg3 φ).Forall OpOk :=
  forall_append (P_fn_threefry2x32_body_part0 arg0 arg1 arg2 arg3 φ) (forall_append (P_fn_threefry2x32_body_part1 arg0 arg1 arg2 arg3 φ) (forall_append (P_fn_threefry2x32_body_part2 arg0 arg1 arg2 arg3 φ) ((P_fn_threefry2x32_body_part3 arg0 arg1 arg2 arg3 φ))))

noncomputable def WR_fn_threefry2x32_body (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List (Ref sig .tc × List (Ref sig .tc)) :=
  (WR_fn_threefry2x32_body_part0 arg0 arg1 arg2 arg3 φ) ++ ((WR_fn_threefry2x32_body_part1 arg0 arg1 arg2 arg3 φ) ++ ((WR_fn_threefry2x32_body_part2 arg0 arg1 arg2 arg3 φ) ++ ((WR_fn_threefry2x32_body_part3 arg0 arg1 arg2 arg3 φ))))

theorem Nd_fn_threefry2x32_body (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : List.Forall₂ Node (L_fn_threefry2x32_body (F := F) arg0 arg1 arg2 arg3 φ) (WR_fn_threefry2x32_body arg0 arg1 arg2 arg3 φ) :=
  f2_append (Nd_fn_threefry2x32_body_part0 arg0 arg1 arg2 arg3 φ) (f2_append (Nd_fn_threefry2x32_body_part1 arg0 arg1 arg2 arg3 φ) (f2_append (Nd_fn_threefry2x32_body_part2 arg0 arg1 arg2 arg3 φ) ((Nd_fn_threefry2x32_body_part3 arg0 arg1 arg2 arg3 φ))))

theorem E_fn_threefry2x32_body (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) : fn_threefry2x32.body (F := F) arg0 arg1 arg2 arg3 φ = seq (L_fn_threefry2x32_body arg0 arg1 arg2 arg3 φ) := by
  simp only [fn_threefry2x32.body, L_fn_threefry2x32_body, seq_append, E_fn_threefry2x32_body_part0, E_fn_threefry2x32_body_part1, E_fn_threefry2x32_body_part2, E_fn_threefry2x32_body_part3, seq, bind_assoc, pure_bind]
  try rfl

end Cert.ReferenceIdeal.Hand

end
-- ==== Proof.RefOpsTfB.lean ====
import proofs.«213024_g80238579024365_cont_9to1c4b_497_7_alg».proof.Proof.RefOpsBase

set_option maxRecDepth 16384
set_option maxHeartbeats 4000000

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

noncomputable def L_fn_threefry2x32_0_body_part0_s0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List (HloOp τ sig (Elt F)) :=
  [ StableHlo.TRef.binary arg0 arg1 φ.v0 xori,
    StableHlo.TRef.nullary φ.c (constantI S_ 32 466688986#32),
    StableHlo.TRef.binary φ.v0 φ.c φ.v1 xori,
    StableHlo.TRef.unary arg0 φ.v2 (broadcastInDim S128 ![] bcast_S_S128),
    StableHlo.TRef.binary arg2 φ.v2 φ.v3 addi,
    StableHlo.TRef.unary arg1 φ.v4 (broadcastInDim S128 ![] bcast_S_S128),
    StableHlo.TRef.binary arg3 φ.v4 φ.v5 addi,
    StableHlo.TRef.binary φ.v3 φ.v5 φ.v6 addi,
    StableHlo.TRef.nullary φ.c_0 (constantI S_ 32 13#32),
    StableHlo.TRef.unary φ.c_0 φ.v7 (broadcastInDim S128 ![] bcast_S_S128),
    StableHlo.TRef.binary φ.v5 φ.v7 φ.v8 Host.shli,
    StableHlo.TRef.nullary φ.c_1 (constantI S_ 32 19#32),
    StableHlo.TRef.unary φ.c_1 φ.v9 (broadcastInDim S128 ![] bcast_S_S128),
    StableHlo.TRef.binary φ.v5 φ.v9 φ.v10 Host.shrui,
    StableHlo.TRef.binary φ.v8 φ.v10 φ.v11 ori,
    StableHlo.TRef.binary φ.v6 φ.v11 φ.v12 xori,
    StableHlo.TRef.binary φ.v6 φ.v12 φ.v13 addi,
    StableHlo.TRef.nullary φ.c_2 (constantI S_ 32 15#32),
    StableHlo.TRef.unary φ.c_2 φ.v14 (broadcastInDim S128 ![] bcast_S_S128),
    StableHlo.TRef.binary φ.v12 φ.v14 φ.v15 Host.shli,
    StableHlo.TRef.nullary φ.c_3 (constantI S_ 32 17#32),
    StableHlo.TRef.unary φ.c_3 φ.v16 (broadcastInDim S128 ![] bcast_S_S128),
    StableHlo.TRef.binary φ.v12 φ.v16 φ.v17 Host.shrui,
    StableHlo.TRef.binary φ.v15 φ.v17 φ.v18 ori,
    StableHlo.TRef.binary φ.v13 φ.v18 φ.v19 xori,
    StableHlo.TRef.binary φ.v13 φ.v19 φ.v20 addi,
    StableHlo.TRef.nullary φ.c_4 (constantI S_ 32 26#32),
    StableHlo.TRef.unary φ.c_4 φ.v21 (broadcastInDim S128 ![] bcast_S_S128),
    StableHlo.TRef.binary φ.v19 φ.v21 φ.v22 Host.shli,
    StableHlo.TRef.nullary φ.c_5 (constantI S_ 32 6#32),
    StableHlo.TRef.unary φ.c_5 φ.v23 (broadcastInDim S128 ![] bcast_S_S128),
    StableHlo.TRef.binary φ.v19 φ.v23 φ.v24 Host.shrui,
    StableHlo.TRef.binary φ.v22 φ.v24 φ.v25 ori,
    StableHlo.TRef.binary φ.v20 φ.v25 φ.v26 xori,
    StableHlo.TRef.binary φ.v20 φ.v26 φ.v27 addi,
    StableHlo.TRef.nullary φ.c_6 (constantI S_ 32 6#32),
    StableHlo.TRef.unary φ.c_6 φ.v28 (broadcastInDim S128 ![] bcast_S_S128),
    StableHlo.TRef.binary φ.v26 φ.v28 φ.v29 Host.shli,
    StableHlo.TRef.nullary φ.c_7 (constantI S_ 32 26#32),
    StableHlo.TRef.unary φ.c_7 φ.v30 (broadcastInDim S128 ![] bcast_S_S128),
    StableHlo.TRef.binary φ.v26 φ.v30 φ.v31 Host.shrui,
    StableHlo.TRef.binary φ.v29 φ.v31 φ.v32 ori,
    StableHlo.TRef.binary φ.v27 φ.v32 φ.v33 xori,
    StableHlo.TRef.unary arg1 φ.v34 (broadcastInDim S128 ![] bcast_S_S128),
    StableHlo.TRef.binary φ.v27 φ.v34 φ.v35 addi,
    StableHlo.TRef.unary φ.v1 φ.v36 (broadcastInDim S128 ![] bcast_S_S128),
    StableHlo.TRef.binary φ.v33 φ.v36 φ.v37 addi,
    StableHlo.TRef.nullary φ.c_8 (constantI S_ 32 1#32),
    StableHlo.TRef.unary φ.c_8 φ.v38 (broadcastInDim S128 ![] bcast_S_S128),
    StableHlo.TRef.binary φ.v37 φ.v38 φ.v39 addi,
    StableHlo.TRef.binary φ.v35 φ.v39 φ.v40 addi,
    StableHlo.TRef.nullary φ.c_9 (constantI S_ 32 17#32),
    StableHlo.TRef.unary φ.c_9 φ.v41 (broadcastInDim S128 ![] bcast_S_S128),
    StableHlo.TRef.binary φ.v39 φ.v41 φ.v42 Host.shli,
    StableHlo.TRef.nullary φ.c_10 (constantI S_ 32 15#32),
    StableHlo.TRef.unary φ.c_10 φ.v43 (broadcastInDim S128 ![] bcast_S_S128),
    StableHlo.TRef.binary φ.v39 φ.v43 φ.v44 Host.shrui,
    StableHlo.TRef.binary φ.v42 φ.v44 φ.v45 ori,
    StableHlo.TRef.binary φ.v40 φ.v45 φ.v46 xori,
    StableHlo.TRef.binary φ.v40 φ.v46 φ.v47 addi ]

theorem P_fn_threefry2x32_0_body_part0_s0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : (L_fn_threefry2x32_0_body_part0_s0 (F := F) arg0 arg1 arg2 arg3 φ).Forall OpOk := by
  unfold L_fn_threefry2x32_0_body_part0_s0
  exact ⟨⟨binary_bufs_sub .., rfl⟩, ⟨nullary_bufs_sub .., rfl⟩, ⟨binary_bufs_sub .., rfl⟩, ⟨unary_bufs_sub .., rfl⟩, ⟨binary_bufs_sub .., rfl⟩, ⟨unary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨unary_bufs_sub .., rfl⟩, ⟨binary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩⟩

noncomputable def WR_fn_threefry2x32_0_body_part0_s0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List (Ref sig .tc × List (Ref sig .tc)) :=
  [ ((φ.v0).ref, [(arg0).ref, (arg1).ref]),
    ((φ.c).ref, []),
    ((φ.v1).ref, [(φ.v0).ref, (φ.c).ref]),
    ((φ.v2).ref, [(arg0).ref]),
    ((φ.v3).ref, [(arg2).ref, (φ.v2).ref]),
    ((φ.v4).ref, [(arg1).ref]),
    ((φ.v5).ref, [(arg3).ref, (φ.v4).ref]),
    ((φ.v6).ref, [(φ.v3).ref, (φ.v5).ref]),
    ((φ.c_0).ref, []),
    ((φ.v7).ref, [(φ.c_0).ref]),
    ((φ.v8).ref, [(φ.v5).ref, (φ.v7).ref]),
    ((φ.c_1).ref, []),
    ((φ.v9).ref, [(φ.c_1).ref]),
    ((φ.v10).ref, [(φ.v5).ref, (φ.v9).ref]),
    ((φ.v11).ref, [(φ.v8).ref, (φ.v10).ref]),
    ((φ.v12).ref, [(φ.v6).ref, (φ.v11).ref]),
    ((φ.v13).ref, [(φ.v6).ref, (φ.v12).ref]),
    ((φ.c_2).ref, []),
    ((φ.v14).ref, [(φ.c_2).ref]),
    ((φ.v15).ref, [(φ.v12).ref, (φ.v14).ref]),
    ((φ.c_3).ref, []),
    ((φ.v16).ref, [(φ.c_3).ref]),
    ((φ.v17).ref, [(φ.v12).ref, (φ.v16).ref]),
    ((φ.v18).ref, [(φ.v15).ref, (φ.v17).ref]),
    ((φ.v19).ref, [(φ.v13).ref, (φ.v18).ref]),
    ((φ.v20).ref, [(φ.v13).ref, (φ.v19).ref]),
    ((φ.c_4).ref, []),
    ((φ.v21).ref, [(φ.c_4).ref]),
    ((φ.v22).ref, [(φ.v19).ref, (φ.v21).ref]),
    ((φ.c_5).ref, []),
    ((φ.v23).ref, [(φ.c_5).ref]),
    ((φ.v24).ref, [(φ.v19).ref, (φ.v23).ref]),
    ((φ.v25).ref, [(φ.v22).ref, (φ.v24).ref]),
    ((φ.v26).ref, [(φ.v20).ref, (φ.v25).ref]),
    ((φ.v27).ref, [(φ.v20).ref, (φ.v26).ref]),
    ((φ.c_6).ref, []),
    ((φ.v28).ref, [(φ.c_6).ref]),
    ((φ.v29).ref, [(φ.v26).ref, (φ.v28).ref]),
    ((φ.c_7).ref, []),
    ((φ.v30).ref, [(φ.c_7).ref]),
    ((φ.v31).ref, [(φ.v26).ref, (φ.v30).ref]),
    ((φ.v32).ref, [(φ.v29).ref, (φ.v31).ref]),
    ((φ.v33).ref, [(φ.v27).ref, (φ.v32).ref]),
    ((φ.v34).ref, [(arg1).ref]),
    ((φ.v35).ref, [(φ.v27).ref, (φ.v34).ref]),
    ((φ.v36).ref, [(φ.v1).ref]),
    ((φ.v37).ref, [(φ.v33).ref, (φ.v36).ref]),
    ((φ.c_8).ref, []),
    ((φ.v38).ref, [(φ.c_8).ref]),
    ((φ.v39).ref, [(φ.v37).ref, (φ.v38).ref]),
    ((φ.v40).ref, [(φ.v35).ref, (φ.v39).ref]),
    ((φ.c_9).ref, []),
    ((φ.v41).ref, [(φ.c_9).ref]),
    ((φ.v42).ref, [(φ.v39).ref, (φ.v41).ref]),
    ((φ.c_10).ref, []),
    ((φ.v43).ref, [(φ.c_10).ref]),
    ((φ.v44).ref, [(φ.v39).ref, (φ.v43).ref]),
    ((φ.v45).ref, [(φ.v42).ref, (φ.v44).ref]),
    ((φ.v46).ref, [(φ.v40).ref, (φ.v45).ref]),
    ((φ.v47).ref, [(φ.v40).ref, (φ.v46).ref]) ]

theorem Nd_fn_threefry2x32_0_body_part0_s0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List.Forall₂ Node (L_fn_threefry2x32_0_body_part0_s0 (F := F) arg0 arg1 arg2 arg3 φ) (WR_fn_threefry2x32_0_body_part0_s0 arg0 arg1 arg2 arg3 φ) :=
  .cons (node_binary ..) (.cons (node_nullary ..) (.cons (node_binary ..) (.cons (node_unary ..) (.cons (node_binary ..) (.cons (node_unary ..) (.cons (node_binary ..) (.cons (node_binary ..) (.cons (node_nullary ..) (.cons (node_unary ..) (.cons (node_binary ..) (.cons (node_nullary ..) (.cons (node_unary ..) (.cons (node_binary ..) (.cons (node_binary ..) (.cons (node_binary ..) (.cons (node_binary ..) (.cons (node_nullary ..) (.cons (node_unary ..) (.cons (node_binary ..) (.cons (node_nullary ..) (.cons (node_unary ..) (.cons (node_binary ..) (.cons (node_binary ..) (.cons (node_binary ..) (.cons (node_binary ..) (.cons (node_nullary ..) (.cons (node_unary ..) (.cons (node_binary ..) (.cons (node_nullary ..) (.cons (node_unary ..) (.cons (node_binary ..) (.cons (node_binary ..) (.cons (node_binary ..) (.cons (node_binary ..) (.cons (node_nullary ..) (.cons (node_unary ..) (.cons (node_binary ..) (.cons (node_nullary ..) (.cons (node_unary ..) (.cons (node_binary ..) (.cons (node_binary ..) (.cons (node_binary ..) (.cons (node_unary ..) (.cons (node_binary ..) (.cons (node_unary ..) (.cons (node_binary ..) (.cons (node_nullary ..) (.cons (node_unary ..) (.cons (node_binary ..) (.cons (node_binary ..) (.cons (node_nullary ..) (.cons (node_unary ..) (.cons (node_binary ..) (.cons (node_nullary ..) (.cons (node_unary ..) (.cons (node_binary ..) (.cons (node_binary ..) (.cons (node_binary ..) (.cons (node_binary ..) (.nil))))))))))))))))))))))))))))))))))))))))))))))))))))))))))))

noncomputable def L_fn_threefry2x32_0_body_part0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List (HloOp τ sig (Elt F)) :=
  (L_fn_threefry2x32_0_body_part0_s0 arg0 arg1 arg2 arg3 φ)

theorem P_fn_threefry2x32_0_body_part0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : (L_fn_threefry2x32_0_body_part0 (F := F) arg0 arg1 arg2 arg3 φ).Forall OpOk :=
  (P_fn_threefry2x32_0_body_part0_s0 arg0 arg1 arg2 arg3 φ)

noncomputable def WR_fn_threefry2x32_0_body_part0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List (Ref sig .tc × List (Ref sig .tc)) :=
  (WR_fn_threefry2x32_0_body_part0_s0 arg0 arg1 arg2 arg3 φ)

theorem Nd_fn_threefry2x32_0_body_part0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List.Forall₂ Node (L_fn_threefry2x32_0_body_part0 (F := F) arg0 arg1 arg2 arg3 φ) (WR_fn_threefry2x32_0_body_part0 arg0 arg1 arg2 arg3 φ) :=
  (Nd_fn_threefry2x32_0_body_part0_s0 arg0 arg1 arg2 arg3 φ)

theorem E_fn_threefry2x32_0_body_part0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : fn_threefry2x32_0.body_part0 (F := F) arg0 arg1 arg2 arg3 φ = seq (L_fn_threefry2x32_0_body_part0 arg0 arg1 arg2 arg3 φ) := by
  simp only [fn_threefry2x32_0.body_part0, L_fn_threefry2x32_0_body_part0, seq_append, L_fn_threefry2x32_0_body_part0_s0, seq, bind_assoc, pure_bind]
  try rfl

noncomputable def L_fn_threefry2x32_0_body_part1_s0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List (HloOp τ sig (Elt F)) :=
  [ StableHlo.TRef.nullary φ.c_11 (constantI S_ 32 29#32),
    StableHlo.TRef.unary φ.c_11 φ.v48 (broadcastInDim S128 ![] bcast_S_S128),
    StableHlo.TRef.binary φ.v46 φ.v48 φ.v49 Host.shli,
    StableHlo.TRef.nullary φ.c_12 (constantI S_ 32 3#32),
    StableHlo.TRef.unary φ.c_12 φ.v50 (broadcastInDim S128 ![] bcast_S_S128),
    StableHlo.TRef.binary φ.v46 φ.v50 φ.v51 Host.shrui,
    StableHlo.TRef.binary φ.v49 φ.v51 φ.v52 ori,
    StableHlo.TRef.binary φ.v47 φ.v52 φ.v53 xori,
    StableHlo.TRef.binary φ.v47 φ.v53 φ.v54 addi,
    StableHlo.TRef.nullary φ.c_13 (constantI S_ 32 16#32),
    StableHlo.TRef.unary φ.c_13 φ.v55 (broadcastInDim S128 ![] bcast_S_S128),
    StableHlo.TRef.binary φ.v53 φ.v55 φ.v56 Host.shli,
    StableHlo.TRef.nullary φ.c_14 (constantI S_ 32 16#32),
    StableHlo.TRef.unary φ.c_14 φ.v57 (broadcastInDim S128 ![] bcast_S_S128),
    StableHlo.TRef.binary φ.v53 φ.v57 φ.v58 Host.shrui,
    StableHlo.TRef.binary φ.v56 φ.v58 φ.v59 ori,
    StableHlo.TRef.binary φ.v54 φ.v59 φ.v60 xori,
    StableHlo.TRef.binary φ.v54 φ.v60 φ.v61 addi,
    StableHlo.TRef.nullary φ.c_15 (constantI S_ 32 24#32),
    StableHlo.TRef.unary φ.c_15 φ.v62 (broadcastInDim S128 ![] bcast_S_S128),
    StableHlo.TRef.binary φ.v60 φ.v62 φ.v63 Host.shli,
    StableHlo.TRef.nullary φ.c_16 (constantI S_ 32 8#32),
    StableHlo.TRef.unary φ.c_16 φ.v64 (broadcastInDim S128 ![] bcast_S_S128),
    StableHlo.TRef.binary φ.v60 φ.v64 φ.v65 Host.shrui,
    StableHlo.TRef.binary φ.v63 φ.v65 φ.v66 ori,
    StableHlo.TRef.binary φ.v61 φ.v66 φ.v67 xori,
    StableHlo.TRef.unary φ.v1 φ.v68 (broadcastInDim S128 ![] bcast_S_S128),
    StableHlo.TRef.binary φ.v61 φ.v68 φ.v69 addi,
    StableHlo.TRef.unary arg0 φ.v70 (broadcastInDim S128 ![] bcast_S_S128),
    StableHlo.TRef.binary φ.v67 φ.v70 φ.v71 addi,
    StableHlo.TRef.nullary φ.c_17 (constantI S_ 32 2#32),
    StableHlo.TRef.unary φ.c_17 φ.v72 (broadcastInDim S128 ![] bcast_S_S128),
    StableHlo.TRef.binary φ.v71 φ.v72 φ.v73 addi,
    StableHlo.TRef.binary φ.v69 φ.v73 φ.v74 addi,
    StableHlo.TRef.nullary φ.c_18 (constantI S_ 32 13#32),
    StableHlo.TRef.unary φ.c_18 φ.v75 (broadcastInDim S128 ![] bcast_S_S128),
    StableHlo.TRef.binary φ.v73 φ.v75 φ.v76 Host.shli,
    StableHlo.TRef.nullary φ.c_19 (constantI S_ 32 19#32),
    StableHlo.TRef.unary φ.c_19 φ.v77 (broadcastInDim S128 ![] bcast_S_S128),
    StableHlo.TRef.binary φ.v73 φ.v77 φ.v78 Host.shrui,
    StableHlo.TRef.binary φ.v76 φ.v78 φ.v79 ori,
    StableHlo.TRef.binary φ.v74 φ.v79 φ.v80 xori,
    StableHlo.TRef.binary φ.v74 φ.v80 φ.v81 addi,
    StableHlo.TRef.nullary φ.c_20 (constantI S_ 32 15#32),
    StableHlo.TRef.unary φ.c_20 φ.v82 (broadcastInDim S128 ![] bcast_S_S128),
    StableHlo.TRef.binary φ.v80 φ.v82 φ.v83 Host.shli,
    StableHlo.TRef.nullary φ.c_21 (constantI S_ 32 17#32),
    StableHlo.TRef.unary φ.c_21 φ.v84 (broadcastInDim S128 ![] bcast_S_S128),
    StableHlo.TRef.binary φ.v80 φ.v84 φ.v85 Host.shrui,
    StableHlo.TRef.binary φ.v83 φ.v85 φ.v86 ori,
    StableHlo.TRef.binary φ.v81 φ.v86 φ.v87 xori,
    StableHlo.TRef.binary φ.v81 φ.v87 φ.v88 addi,
    StableHlo.TRef.nullary φ.c_22 (constantI S_ 32 26#32),
    StableHlo.TRef.unary φ.c_22 φ.v89 (broadcastInDim S128 ![] bcast_S_S128),
    StableHlo.TRef.binary φ.v87 φ.v89 φ.v90 Host.shli,
    StableHlo.TRef.nullary φ.c_23 (constantI S_ 32 6#32),
    StableHlo.TRef.unary φ.c_23 φ.v91 (broadcastInDim S128 ![] bcast_S_S128),
    StableHlo.TRef.binary φ.v87 φ.v91 φ.v92 Host.shrui,
    StableHlo.TRef.binary φ.v90 φ.v92 φ.v93 ori,
    StableHlo.TRef.binary φ.v88 φ.v93 φ.v94 xori ]

theorem P_fn_threefry2x32_0_body_part1_s0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : (L_fn_threefry2x32_0_body_part1_s0 (F := F) arg0 arg1 arg2 arg3 φ).Forall OpOk := by
  unfold L_fn_threefry2x32_0_body_part1_s0
  exact ⟨⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨unary_bufs_sub .., rfl⟩, ⟨binary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩⟩

noncomputable def WR_fn_threefry2x32_0_body_part1_s0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List (Ref sig .tc × List (Ref sig .tc)) :=
  [ ((φ.c_11).ref, []),
    ((φ.v48).ref, [(φ.c_11).ref]),
    ((φ.v49).ref, [(φ.v46).ref, (φ.v48).ref]),
    ((φ.c_12).ref, []),
    ((φ.v50).ref, [(φ.c_12).ref]),
    ((φ.v51).ref, [(φ.v46).ref, (φ.v50).ref]),
    ((φ.v52).ref, [(φ.v49).ref, (φ.v51).ref]),
    ((φ.v53).ref, [(φ.v47).ref, (φ.v52).ref]),
    ((φ.v54).ref, [(φ.v47).ref, (φ.v53).ref]),
    ((φ.c_13).ref, []),
    ((φ.v55).ref, [(φ.c_13).ref]),
    ((φ.v56).ref, [(φ.v53).ref, (φ.v55).ref]),
    ((φ.c_14).ref, []),
    ((φ.v57).ref, [(φ.c_14).ref]),
    ((φ.v58).ref, [(φ.v53).ref, (φ.v57).ref]),
    ((φ.v59).ref, [(φ.v56).ref, (φ.v58).ref]),
    ((φ.v60).ref, [(φ.v54).ref, (φ.v59).ref]),
    ((φ.v61).ref, [(φ.v54).ref, (φ.v60).ref]),
    ((φ.c_15).ref, []),
    ((φ.v62).ref, [(φ.c_15).ref]),
    ((φ.v63).ref, [(φ.v60).ref, (φ.v62).ref]),
    ((φ.c_16).ref, []),
    ((φ.v64).ref, [(φ.c_16).ref]),
    ((φ.v65).ref, [(φ.v60).ref, (φ.v64).ref]),
    ((φ.v66).ref, [(φ.v63).ref, (φ.v65).ref]),
    ((φ.v67).ref, [(φ.v61).ref, (φ.v66).ref]),
    ((φ.v68).ref, [(φ.v1).ref]),
    ((φ.v69).ref, [(φ.v61).ref, (φ.v68).ref]),
    ((φ.v70).ref, [(arg0).ref]),
    ((φ.v71).ref, [(φ.v67).ref, (φ.v70).ref]),
    ((φ.c_17).ref, []),
    ((φ.v72).ref, [(φ.c_17).ref]),
    ((φ.v73).ref, [(φ.v71).ref, (φ.v72).ref]),
    ((φ.v74).ref, [(φ.v69).ref, (φ.v73).ref]),
    ((φ.c_18).ref, []),
    ((φ.v75).ref, [(φ.c_18).ref]),
    ((φ.v76).ref, [(φ.v73).ref, (φ.v75).ref]),
    ((φ.c_19).ref, []),
    ((φ.v77).ref, [(φ.c_19).ref]),
    ((φ.v78).ref, [(φ.v73).ref, (φ.v77).ref]),
    ((φ.v79).ref, [(φ.v76).ref, (φ.v78).ref]),
    ((φ.v80).ref, [(φ.v74).ref, (φ.v79).ref]),
    ((φ.v81).ref, [(φ.v74).ref, (φ.v80).ref]),
    ((φ.c_20).ref, []),
    ((φ.v82).ref, [(φ.c_20).ref]),
    ((φ.v83).ref, [(φ.v80).ref, (φ.v82).ref]),
    ((φ.c_21).ref, []),
    ((φ.v84).ref, [(φ.c_21).ref]),
    ((φ.v85).ref, [(φ.v80).ref, (φ.v84).ref]),
    ((φ.v86).ref, [(φ.v83).ref, (φ.v85).ref]),
    ((φ.v87).ref, [(φ.v81).ref, (φ.v86).ref]),
    ((φ.v88).ref, [(φ.v81).ref, (φ.v87).ref]),
    ((φ.c_22).ref, []),
    ((φ.v89).ref, [(φ.c_22).ref]),
    ((φ.v90).ref, [(φ.v87).ref, (φ.v89).ref]),
    ((φ.c_23).ref, []),
    ((φ.v91).ref, [(φ.c_23).ref]),
    ((φ.v92).ref, [(φ.v87).ref, (φ.v91).ref]),
    ((φ.v93).ref, [(φ.v90).ref, (φ.v92).ref]),
    ((φ.v94).ref, [(φ.v88).ref, (φ.v93).ref]) ]

theorem Nd_fn_threefry2x32_0_body_part1_s0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List.Forall₂ Node (L_fn_threefry2x32_0_body_part1_s0 (F := F) arg0 arg1 arg2 arg3 φ) (WR_fn_threefry2x32_0_body_part1_s0 arg0 arg1 arg2 arg3 φ) :=
  .cons (node_nullary ..) (.cons (node_unary ..) (.cons (node_binary ..) (.cons (node_nullary ..) (.cons (node_unary ..) (.cons (node_binary ..) (.cons (node_binary ..) (.cons (node_binary ..) (.cons (node_binary ..) (.cons (node_nullary ..) (.cons (node_unary ..) (.cons (node_binary ..) (.cons (node_nullary ..) (.cons (node_unary ..) (.cons (node_binary ..) (.cons (node_binary ..) (.cons (node_binary ..) (.cons (node_binary ..) (.cons (node_nullary ..) (.cons (node_unary ..) (.cons (node_binary ..) (.cons (node_nullary ..) (.cons (node_unary ..) (.cons (node_binary ..) (.cons (node_binary ..) (.cons (node_binary ..) (.cons (node_unary ..) (.cons (node_binary ..) (.cons (node_unary ..) (.cons (node_binary ..) (.cons (node_nullary ..) (.cons (node_unary ..) (.cons (node_binary ..) (.cons (node_binary ..) (.cons (node_nullary ..) (.cons (node_unary ..) (.cons (node_binary ..) (.cons (node_nullary ..) (.cons (node_unary ..) (.cons (node_binary ..) (.cons (node_binary ..) (.cons (node_binary ..) (.cons (node_binary ..) (.cons (node_nullary ..) (.cons (node_unary ..) (.cons (node_binary ..) (.cons (node_nullary ..) (.cons (node_unary ..) (.cons (node_binary ..) (.cons (node_binary ..) (.cons (node_binary ..) (.cons (node_binary ..) (.cons (node_nullary ..) (.cons (node_unary ..) (.cons (node_binary ..) (.cons (node_nullary ..) (.cons (node_unary ..) (.cons (node_binary ..) (.cons (node_binary ..) (.cons (node_binary ..) (.nil))))))))))))))))))))))))))))))))))))))))))))))))))))))))))))

noncomputable def L_fn_threefry2x32_0_body_part1 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List (HloOp τ sig (Elt F)) :=
  (L_fn_threefry2x32_0_body_part1_s0 arg0 arg1 arg2 arg3 φ)

theorem P_fn_threefry2x32_0_body_part1 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : (L_fn_threefry2x32_0_body_part1 (F := F) arg0 arg1 arg2 arg3 φ).Forall OpOk :=
  (P_fn_threefry2x32_0_body_part1_s0 arg0 arg1 arg2 arg3 φ)

noncomputable def WR_fn_threefry2x32_0_body_part1 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List (Ref sig .tc × List (Ref sig .tc)) :=
  (WR_fn_threefry2x32_0_body_part1_s0 arg0 arg1 arg2 arg3 φ)

theorem Nd_fn_threefry2x32_0_body_part1 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List.Forall₂ Node (L_fn_threefry2x32_0_body_part1 (F := F) arg0 arg1 arg2 arg3 φ) (WR_fn_threefry2x32_0_body_part1 arg0 arg1 arg2 arg3 φ) :=
  (Nd_fn_threefry2x32_0_body_part1_s0 arg0 arg1 arg2 arg3 φ)

theorem E_fn_threefry2x32_0_body_part1 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : fn_threefry2x32_0.body_part1 (F := F) arg0 arg1 arg2 arg3 φ = seq (L_fn_threefry2x32_0_body_part1 arg0 arg1 arg2 arg3 φ) := by
  simp only [fn_threefry2x32_0.body_part1, L_fn_threefry2x32_0_body_part1, seq_append, L_fn_threefry2x32_0_body_part1_s0, seq, bind_assoc, pure_bind]
  try rfl

noncomputable def L_fn_threefry2x32_0_body_part2_s0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List (HloOp τ sig (Elt F)) :=
  [ StableHlo.TRef.binary φ.v88 φ.v94 φ.v95 addi,
    StableHlo.TRef.nullary φ.c_24 (constantI S_ 32 6#32),
    StableHlo.TRef.unary φ.c_24 φ.v96 (broadcastInDim S128 ![] bcast_S_S128),
    StableHlo.TRef.binary φ.v94 φ.v96 φ.v97 Host.shli,
    StableHlo.TRef.nullary φ.c_25 (constantI S_ 32 26#32),
    StableHlo.TRef.unary φ.c_25 φ.v98 (broadcastInDim S128 ![] bcast_S_S128),
    StableHlo.TRef.binary φ.v94 φ.v98 φ.v99 Host.shrui,
    StableHlo.TRef.binary φ.v97 φ.v99 φ.v100 ori,
    StableHlo.TRef.binary φ.v95 φ.v100 φ.v101 xori,
    StableHlo.TRef.unary arg0 φ.v102 (broadcastInDim S128 ![] bcast_S_S128),
    StableHlo.TRef.binary φ.v95 φ.v102 φ.v103 addi,
    StableHlo.TRef.unary arg1 φ.v104 (broadcastInDim S128 ![] bcast_S_S128),
    StableHlo.TRef.binary φ.v101 φ.v104 φ.v105 addi,
    StableHlo.TRef.nullary φ.c_26 (constantI S_ 32 3#32),
    StableHlo.TRef.unary φ.c_26 φ.v106 (broadcastInDim S128 ![] bcast_S_S128),
    StableHlo.TRef.binary φ.v105 φ.v106 φ.v107 addi,
    StableHlo.TRef.binary φ.v103 φ.v107 φ.v108 addi,
    StableHlo.TRef.nullary φ.c_27 (constantI S_ 32 17#32),
    StableHlo.TRef.unary φ.c_27 φ.v109 (broadcastInDim S128 ![] bcast_S_S128),
    StableHlo.TRef.binary φ.v107 φ.v109 φ.v110 Host.shli,
    StableHlo.TRef.nullary φ.c_28 (constantI S_ 32 15#32),
    StableHlo.TRef.unary φ.c_28 φ.v111 (broadcastInDim S128 ![] bcast_S_S128),
    StableHlo.TRef.binary φ.v107 φ.v111 φ.v112 Host.shrui,
    StableHlo.TRef.binary φ.v110 φ.v112 φ.v113 ori,
    StableHlo.TRef.binary φ.v108 φ.v113 φ.v114 xori,
    StableHlo.TRef.binary φ.v108 φ.v114 φ.v115 addi,
    StableHlo.TRef.nullary φ.c_29 (constantI S_ 32 29#32),
    StableHlo.TRef.unary φ.c_29 φ.v116 (broadcastInDim S128 ![] bcast_S_S128),
    StableHlo.TRef.binary φ.v114 φ.v116 φ.v117 Host.shli,
    StableHlo.TRef.nullary φ.c_30 (constantI S_ 32 3#32),
    StableHlo.TRef.unary φ.c_30 φ.v118 (broadcastInDim S128 ![] bcast_S_S128),
    StableHlo.TRef.binary φ.v114 φ.v118 φ.v119 Host.shrui,
    StableHlo.TRef.binary φ.v117 φ.v119 φ.v120 ori,
    StableHlo.TRef.binary φ.v115 φ.v120 φ.v121 xori,
    StableHlo.TRef.binary φ.v115 φ.v121 φ.v122 addi,
    StableHlo.TRef.nullary φ.c_31 (constantI S_ 32 16#32),
    StableHlo.TRef.unary φ.c_31 φ.v123 (broadcastInDim S128 ![] bcast_S_S128),
    StableHlo.TRef.binary φ.v121 φ.v123 φ.v124 Host.shli,
    StableHlo.TRef.nullary φ.c_32 (constantI S_ 32 16#32),
    StableHlo.TRef.unary φ.c_32 φ.v125 (broadcastInDim S128 ![] bcast_S_S128),
    StableHlo.TRef.binary φ.v121 φ.v125 φ.v126 Host.shrui,
    StableHlo.TRef.binary φ.v124 φ.v126 φ.v127 ori,
    StableHlo.TRef.binary φ.v122 φ.v127 φ.v128 xori,
    StableHlo.TRef.binary φ.v122 φ.v128 φ.v129 addi,
    StableHlo.TRef.nullary φ.c_33 (constantI S_ 32 24#32),
    StableHlo.TRef.unary φ.c_33 φ.v130 (broadcastInDim S128 ![] bcast_S_S128),
    StableHlo.TRef.binary φ.v128 φ.v130 φ.v131 Host.shli,
    StableHlo.TRef.nullary φ.c_34 (constantI S_ 32 8#32),
    StableHlo.TRef.unary φ.c_34 φ.v132 (broadcastInDim S128 ![] bcast_S_S128),
    StableHlo.TRef.binary φ.v128 φ.v132 φ.v133 Host.shrui,
    StableHlo.TRef.binary φ.v131 φ.v133 φ.v134 ori,
    StableHlo.TRef.binary φ.v129 φ.v134 φ.v135 xori,
    StableHlo.TRef.unary arg1 φ.v136 (broadcastInDim S128 ![] bcast_S_S128),
    StableHlo.TRef.binary φ.v129 φ.v136 φ.v137 addi,
    StableHlo.TRef.unary φ.v1 φ.v138 (broadcastInDim S128 ![] bcast_S_S128),
    StableHlo.TRef.binary φ.v135 φ.v138 φ.v139 addi,
    StableHlo.TRef.nullary φ.c_35 (constantI S_ 32 4#32),
    StableHlo.TRef.unary φ.c_35 φ.v140 (broadcastInDim S128 ![] bcast_S_S128),
    StableHlo.TRef.binary φ.v139 φ.v140 φ.v141 addi,
    StableHlo.TRef.binary φ.v137 φ.v141 φ.v142 addi ]

theorem P_fn_threefry2x32_0_body_part2_s0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : (L_fn_threefry2x32_0_body_part2_s0 (F := F) arg0 arg1 arg2 arg3 φ).Forall OpOk := by
  unfold L_fn_threefry2x32_0_body_part2_s0
  exact ⟨⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨unary_bufs_sub .., rfl⟩, ⟨binary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨unary_bufs_sub .., rfl⟩, ⟨binary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩⟩

noncomputable def WR_fn_threefry2x32_0_body_part2_s0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List (Ref sig .tc × List (Ref sig .tc)) :=
  [ ((φ.v95).ref, [(φ.v88).ref, (φ.v94).ref]),
    ((φ.c_24).ref, []),
    ((φ.v96).ref, [(φ.c_24).ref]),
    ((φ.v97).ref, [(φ.v94).ref, (φ.v96).ref]),
    ((φ.c_25).ref, []),
    ((φ.v98).ref, [(φ.c_25).ref]),
    ((φ.v99).ref, [(φ.v94).ref, (φ.v98).ref]),
    ((φ.v100).ref, [(φ.v97).ref, (φ.v99).ref]),
    ((φ.v101).ref, [(φ.v95).ref, (φ.v100).ref]),
    ((φ.v102).ref, [(arg0).ref]),
    ((φ.v103).ref, [(φ.v95).ref, (φ.v102).ref]),
    ((φ.v104).ref, [(arg1).ref]),
    ((φ.v105).ref, [(φ.v101).ref, (φ.v104).ref]),
    ((φ.c_26).ref, []),
    ((φ.v106).ref, [(φ.c_26).ref]),
    ((φ.v107).ref, [(φ.v105).ref, (φ.v106).ref]),
    ((φ.v108).ref, [(φ.v103).ref, (φ.v107).ref]),
    ((φ.c_27).ref, []),
    ((φ.v109).ref, [(φ.c_27).ref]),
    ((φ.v110).ref, [(φ.v107).ref, (φ.v109).ref]),
    ((φ.c_28).ref, []),
    ((φ.v111).ref, [(φ.c_28).ref]),
    ((φ.v112).ref, [(φ.v107).ref, (φ.v111).ref]),
    ((φ.v113).ref, [(φ.v110).ref, (φ.v112).ref]),
    ((φ.v114).ref, [(φ.v108).ref, (φ.v113).ref]),
    ((φ.v115).ref, [(φ.v108).ref, (φ.v114).ref]),
    ((φ.c_29).ref, []),
    ((φ.v116).ref, [(φ.c_29).ref]),
    ((φ.v117).ref, [(φ.v114).ref, (φ.v116).ref]),
    ((φ.c_30).ref, []),
    ((φ.v118).ref, [(φ.c_30).ref]),
    ((φ.v119).ref, [(φ.v114).ref, (φ.v118).ref]),
    ((φ.v120).ref, [(φ.v117).ref, (φ.v119).ref]),
    ((φ.v121).ref, [(φ.v115).ref, (φ.v120).ref]),
    ((φ.v122).ref, [(φ.v115).ref, (φ.v121).ref]),
    ((φ.c_31).ref, []),
    ((φ.v123).ref, [(φ.c_31).ref]),
    ((φ.v124).ref, [(φ.v121).ref, (φ.v123).ref]),
    ((φ.c_32).ref, []),
    ((φ.v125).ref, [(φ.c_32).ref]),
    ((φ.v126).ref, [(φ.v121).ref, (φ.v125).ref]),
    ((φ.v127).ref, [(φ.v124).ref, (φ.v126).ref]),
    ((φ.v128).ref, [(φ.v122).ref, (φ.v127).ref]),
    ((φ.v129).ref, [(φ.v122).ref, (φ.v128).ref]),
    ((φ.c_33).ref, []),
    ((φ.v130).ref, [(φ.c_33).ref]),
    ((φ.v131).ref, [(φ.v128).ref, (φ.v130).ref]),
    ((φ.c_34).ref, []),
    ((φ.v132).ref, [(φ.c_34).ref]),
    ((φ.v133).ref, [(φ.v128).ref, (φ.v132).ref]),
    ((φ.v134).ref, [(φ.v131).ref, (φ.v133).ref]),
    ((φ.v135).ref, [(φ.v129).ref, (φ.v134).ref]),
    ((φ.v136).ref, [(arg1).ref]),
    ((φ.v137).ref, [(φ.v129).ref, (φ.v136).ref]),
    ((φ.v138).ref, [(φ.v1).ref]),
    ((φ.v139).ref, [(φ.v135).ref, (φ.v138).ref]),
    ((φ.c_35).ref, []),
    ((φ.v140).ref, [(φ.c_35).ref]),
    ((φ.v141).ref, [(φ.v139).ref, (φ.v140).ref]),
    ((φ.v142).ref, [(φ.v137).ref, (φ.v141).ref]) ]

theorem Nd_fn_threefry2x32_0_body_part2_s0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List.Forall₂ Node (L_fn_threefry2x32_0_body_part2_s0 (F := F) arg0 arg1 arg2 arg3 φ) (WR_fn_threefry2x32_0_body_part2_s0 arg0 arg1 arg2 arg3 φ) :=
  .cons (node_binary ..) (.cons (node_nullary ..) (.cons (node_unary ..) (.cons (node_binary ..) (.cons (node_nullary ..) (.cons (node_unary ..) (.cons (node_binary ..) (.cons (node_binary ..) (.cons (node_binary ..) (.cons (node_unary ..) (.cons (node_binary ..) (.cons (node_unary ..) (.cons (node_binary ..) (.cons (node_nullary ..) (.cons (node_unary ..) (.cons (node_binary ..) (.cons (node_binary ..) (.cons (node_nullary ..) (.cons (node_unary ..) (.cons (node_binary ..) (.cons (node_nullary ..) (.cons (node_unary ..) (.cons (node_binary ..) (.cons (node_binary ..) (.cons (node_binary ..) (.cons (node_binary ..) (.cons (node_nullary ..) (.cons (node_unary ..) (.cons (node_binary ..) (.cons (node_nullary ..) (.cons (node_unary ..) (.cons (node_binary ..) (.cons (node_binary ..) (.cons (node_binary ..) (.cons (node_binary ..) (.cons (node_nullary ..) (.cons (node_unary ..) (.cons (node_binary ..) (.cons (node_nullary ..) (.cons (node_unary ..) (.cons (node_binary ..) (.cons (node_binary ..) (.cons (node_binary ..) (.cons (node_binary ..) (.cons (node_nullary ..) (.cons (node_unary ..) (.cons (node_binary ..) (.cons (node_nullary ..) (.cons (node_unary ..) (.cons (node_binary ..) (.cons (node_binary ..) (.cons (node_binary ..) (.cons (node_unary ..) (.cons (node_binary ..) (.cons (node_unary ..) (.cons (node_binary ..) (.cons (node_nullary ..) (.cons (node_unary ..) (.cons (node_binary ..) (.cons (node_binary ..) (.nil))))))))))))))))))))))))))))))))))))))))))))))))))))))))))))

noncomputable def L_fn_threefry2x32_0_body_part2 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List (HloOp τ sig (Elt F)) :=
  (L_fn_threefry2x32_0_body_part2_s0 arg0 arg1 arg2 arg3 φ)

theorem P_fn_threefry2x32_0_body_part2 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : (L_fn_threefry2x32_0_body_part2 (F := F) arg0 arg1 arg2 arg3 φ).Forall OpOk :=
  (P_fn_threefry2x32_0_body_part2_s0 arg0 arg1 arg2 arg3 φ)

noncomputable def WR_fn_threefry2x32_0_body_part2 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List (Ref sig .tc × List (Ref sig .tc)) :=
  (WR_fn_threefry2x32_0_body_part2_s0 arg0 arg1 arg2 arg3 φ)

theorem Nd_fn_threefry2x32_0_body_part2 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List.Forall₂ Node (L_fn_threefry2x32_0_body_part2 (F := F) arg0 arg1 arg2 arg3 φ) (WR_fn_threefry2x32_0_body_part2 arg0 arg1 arg2 arg3 φ) :=
  (Nd_fn_threefry2x32_0_body_part2_s0 arg0 arg1 arg2 arg3 φ)

theorem E_fn_threefry2x32_0_body_part2 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : fn_threefry2x32_0.body_part2 (F := F) arg0 arg1 arg2 arg3 φ = seq (L_fn_threefry2x32_0_body_part2 arg0 arg1 arg2 arg3 φ) := by
  simp only [fn_threefry2x32_0.body_part2, L_fn_threefry2x32_0_body_part2, seq_append, L_fn_threefry2x32_0_body_part2_s0, seq, bind_assoc, pure_bind]
  try rfl

noncomputable def L_fn_threefry2x32_0_body_part3_s0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List (HloOp τ sig (Elt F)) :=
  [ StableHlo.TRef.nullary φ.c_36 (constantI S_ 32 13#32),
    StableHlo.TRef.unary φ.c_36 φ.v143 (broadcastInDim S128 ![] bcast_S_S128),
    StableHlo.TRef.binary φ.v141 φ.v143 φ.v144 Host.shli,
    StableHlo.TRef.nullary φ.c_37 (constantI S_ 32 19#32),
    StableHlo.TRef.unary φ.c_37 φ.v145 (broadcastInDim S128 ![] bcast_S_S128),
    StableHlo.TRef.binary φ.v141 φ.v145 φ.v146 Host.shrui,
    StableHlo.TRef.binary φ.v144 φ.v146 φ.v147 ori,
    StableHlo.TRef.binary φ.v142 φ.v147 φ.v148 xori,
    StableHlo.TRef.binary φ.v142 φ.v148 φ.v149 addi,
    StableHlo.TRef.nullary φ.c_38 (constantI S_ 32 15#32),
    StableHlo.TRef.unary φ.c_38 φ.v150 (broadcastInDim S128 ![] bcast_S_S128),
    StableHlo.TRef.binary φ.v148 φ.v150 φ.v151 Host.shli,
    StableHlo.TRef.nullary φ.c_39 (constantI S_ 32 17#32),
    StableHlo.TRef.unary φ.c_39 φ.v152 (broadcastInDim S128 ![] bcast_S_S128),
    StableHlo.TRef.binary φ.v148 φ.v152 φ.v153 Host.shrui,
    StableHlo.TRef.binary φ.v151 φ.v153 φ.v154 ori,
    StableHlo.TRef.binary φ.v149 φ.v154 φ.v155 xori,
    StableHlo.TRef.binary φ.v149 φ.v155 φ.v156 addi,
    StableHlo.TRef.nullary φ.c_40 (constantI S_ 32 26#32),
    StableHlo.TRef.unary φ.c_40 φ.v157 (broadcastInDim S128 ![] bcast_S_S128),
    StableHlo.TRef.binary φ.v155 φ.v157 φ.v158 Host.shli,
    StableHlo.TRef.nullary φ.c_41 (constantI S_ 32 6#32),
    StableHlo.TRef.unary φ.c_41 φ.v159 (broadcastInDim S128 ![] bcast_S_S128),
    StableHlo.TRef.binary φ.v155 φ.v159 φ.v160 Host.shrui,
    StableHlo.TRef.binary φ.v158 φ.v160 φ.v161 ori,
    StableHlo.TRef.binary φ.v156 φ.v161 φ.v162 xori,
    StableHlo.TRef.binary φ.v156 φ.v162 φ.v163 addi,
    StableHlo.TRef.nullary φ.c_42 (constantI S_ 32 6#32),
    StableHlo.TRef.unary φ.c_42 φ.v164 (broadcastInDim S128 ![] bcast_S_S128),
    StableHlo.TRef.binary φ.v162 φ.v164 φ.v165 Host.shli,
    StableHlo.TRef.nullary φ.c_43 (constantI S_ 32 26#32),
    StableHlo.TRef.unary φ.c_43 φ.v166 (broadcastInDim S128 ![] bcast_S_S128),
    StableHlo.TRef.binary φ.v162 φ.v166 φ.v167 Host.shrui,
    StableHlo.TRef.binary φ.v165 φ.v167 φ.v168 ori,
    StableHlo.TRef.binary φ.v163 φ.v168 φ.v169 xori,
    StableHlo.TRef.unary φ.v1 φ.v170 (broadcastInDim S128 ![] bcast_S_S128),
    StableHlo.TRef.binary φ.v163 φ.v170 φ.v171 addi,
    StableHlo.TRef.unary arg0 φ.v172 (broadcastInDim S128 ![] bcast_S_S128),
    StableHlo.TRef.binary φ.v169 φ.v172 φ.v173 addi,
    StableHlo.TRef.nullary φ.c_44 (constantI S_ 32 5#32),
    StableHlo.TRef.unary φ.c_44 φ.v174 (broadcastInDim S128 ![] bcast_S_S128),
    StableHlo.TRef.binary φ.v173 φ.v174 φ.v175 addi ]

theorem P_fn_threefry2x32_0_body_part3_s0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : (L_fn_threefry2x32_0_body_part3_s0 (F := F) arg0 arg1 arg2 arg3 φ).Forall OpOk := by
  unfold L_fn_threefry2x32_0_body_part3_s0
  exact ⟨⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨unary_bufs_sub .., rfl⟩, ⟨binary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩⟩

noncomputable def WR_fn_threefry2x32_0_body_part3_s0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List (Ref sig .tc × List (Ref sig .tc)) :=
  [ ((φ.c_36).ref, []),
    ((φ.v143).ref, [(φ.c_36).ref]),
    ((φ.v144).ref, [(φ.v141).ref, (φ.v143).ref]),
    ((φ.c_37).ref, []),
    ((φ.v145).ref, [(φ.c_37).ref]),
    ((φ.v146).ref, [(φ.v141).ref, (φ.v145).ref]),
    ((φ.v147).ref, [(φ.v144).ref, (φ.v146).ref]),
    ((φ.v148).ref, [(φ.v142).ref, (φ.v147).ref]),
    ((φ.v149).ref, [(φ.v142).ref, (φ.v148).ref]),
    ((φ.c_38).ref, []),
    ((φ.v150).ref, [(φ.c_38).ref]),
    ((φ.v151).ref, [(φ.v148).ref, (φ.v150).ref]),
    ((φ.c_39).ref, []),
    ((φ.v152).ref, [(φ.c_39).ref]),
    ((φ.v153).ref, [(φ.v148).ref, (φ.v152).ref]),
    ((φ.v154).ref, [(φ.v151).ref, (φ.v153).ref]),
    ((φ.v155).ref, [(φ.v149).ref, (φ.v154).ref]),
    ((φ.v156).ref, [(φ.v149).ref, (φ.v155).ref]),
    ((φ.c_40).ref, []),
    ((φ.v157).ref, [(φ.c_40).ref]),
    ((φ.v158).ref, [(φ.v155).ref, (φ.v157).ref]),
    ((φ.c_41).ref, []),
    ((φ.v159).ref, [(φ.c_41).ref]),
    ((φ.v160).ref, [(φ.v155).ref, (φ.v159).ref]),
    ((φ.v161).ref, [(φ.v158).ref, (φ.v160).ref]),
    ((φ.v162).ref, [(φ.v156).ref, (φ.v161).ref]),
    ((φ.v163).ref, [(φ.v156).ref, (φ.v162).ref]),
    ((φ.c_42).ref, []),
    ((φ.v164).ref, [(φ.c_42).ref]),
    ((φ.v165).ref, [(φ.v162).ref, (φ.v164).ref]),
    ((φ.c_43).ref, []),
    ((φ.v166).ref, [(φ.c_43).ref]),
    ((φ.v167).ref, [(φ.v162).ref, (φ.v166).ref]),
    ((φ.v168).ref, [(φ.v165).ref, (φ.v167).ref]),
    ((φ.v169).ref, [(φ.v163).ref, (φ.v168).ref]),
    ((φ.v170).ref, [(φ.v1).ref]),
    ((φ.v171).ref, [(φ.v163).ref, (φ.v170).ref]),
    ((φ.v172).ref, [(arg0).ref]),
    ((φ.v173).ref, [(φ.v169).ref, (φ.v172).ref]),
    ((φ.c_44).ref, []),
    ((φ.v174).ref, [(φ.c_44).ref]),
    ((φ.v175).ref, [(φ.v173).ref, (φ.v174).ref]) ]

theorem Nd_fn_threefry2x32_0_body_part3_s0 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List.Forall₂ Node (L_fn_threefry2x32_0_body_part3_s0 (F := F) arg0 arg1 arg2 arg3 φ) (WR_fn_threefry2x32_0_body_part3_s0 arg0 arg1 arg2 arg3 φ) :=
  .cons (node_nullary ..) (.cons (node_unary ..) (.cons (node_binary ..) (.cons (node_nullary ..) (.cons (node_unary ..) (.cons (node_binary ..) (.cons (node_binary ..) (.cons (node_binary ..) (.cons (node_binary ..) (.cons (node_nullary ..) (.cons (node_unary ..) (.cons (node_binary ..) (.cons (node_nullary ..) (.cons (node_unary ..) (.cons (node_binary ..) (.cons (node_binary ..) (.cons (node_binary ..) (.cons (node_binary ..) (.cons (node_nullary ..) (.cons (node_unary ..) (.cons (node_binary ..) (.cons (node_nullary ..) (.cons (node_unary ..) (.cons (node_binary ..) (.cons (node_binary ..) (.cons (node_binary ..) (.cons (node_binary ..) (.cons (node_nullary ..) (.cons (node_unary ..) (.cons (node_binary ..) (.cons (node_nullary ..) (.cons (node_unary ..) (.cons (node_binary ..) (.cons (node_binary ..) (.cons (node_binary ..) (.cons (node_unary ..) (.cons (node_binary ..) (.cons (node_unary ..) (.cons (node_binary ..) (.cons (node_nullary ..) (.cons (node_unary ..) (.cons (node_binary ..) (.nil))))))))))))))))))))))))))))))))))))))))))

noncomputable def L_fn_threefry2x32_0_body_part3 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List (HloOp τ sig (Elt F)) :=
  (L_fn_threefry2x32_0_body_part3_s0 arg0 arg1 arg2 arg3 φ)

theorem P_fn_threefry2x32_0_body_part3 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : (L_fn_threefry2x32_0_body_part3 (F := F) arg0 arg1 arg2 arg3 φ).Forall OpOk :=
  (P_fn_threefry2x32_0_body_part3_s0 arg0 arg1 arg2 arg3 φ)

noncomputable def WR_fn_threefry2x32_0_body_part3 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List (Ref sig .tc × List (Ref sig .tc)) :=
  (WR_fn_threefry2x32_0_body_part3_s0 arg0 arg1 arg2 arg3 φ)

theorem Nd_fn_threefry2x32_0_body_part3 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List.Forall₂ Node (L_fn_threefry2x32_0_body_part3 (F := F) arg0 arg1 arg2 arg3 φ) (WR_fn_threefry2x32_0_body_part3 arg0 arg1 arg2 arg3 φ) :=
  (Nd_fn_threefry2x32_0_body_part3_s0 arg0 arg1 arg2 arg3 φ)

theorem E_fn_threefry2x32_0_body_part3 (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : fn_threefry2x32_0.body_part3 (F := F) arg0 arg1 arg2 arg3 φ = seq (L_fn_threefry2x32_0_body_part3 arg0 arg1 arg2 arg3 φ) := by
  simp only [fn_threefry2x32_0.body_part3, L_fn_threefry2x32_0_body_part3, seq_append, L_fn_threefry2x32_0_body_part3_s0, seq, bind_assoc, pure_bind]
  try rfl

noncomputable def L_fn_threefry2x32_0_body (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List (HloOp τ sig (Elt F)) :=
  (L_fn_threefry2x32_0_body_part0 arg0 arg1 arg2 arg3 φ) ++ ((L_fn_threefry2x32_0_body_part1 arg0 arg1 arg2 arg3 φ) ++ ((L_fn_threefry2x32_0_body_part2 arg0 arg1 arg2 arg3 φ) ++ ((L_fn_threefry2x32_0_body_part3 arg0 arg1 arg2 arg3 φ))))

theorem P_fn_threefry2x32_0_body (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : (L_fn_threefry2x32_0_body (F := F) arg0 arg1 arg2 arg3 φ).Forall OpOk :=
  forall_append (P_fn_threefry2x32_0_body_part0 arg0 arg1 arg2 arg3 φ) (forall_append (P_fn_threefry2x32_0_body_part1 arg0 arg1 arg2 arg3 φ) (forall_append (P_fn_threefry2x32_0_body_part2 arg0 arg1 arg2 arg3 φ) ((P_fn_threefry2x32_0_body_part3 arg0 arg1 arg2 arg3 φ))))

noncomputable def WR_fn_threefry2x32_0_body (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List (Ref sig .tc × List (Ref sig .tc)) :=
  (WR_fn_threefry2x32_0_body_part0 arg0 arg1 arg2 arg3 φ) ++ ((WR_fn_threefry2x32_0_body_part1 arg0 arg1 arg2 arg3 φ) ++ ((WR_fn_threefry2x32_0_body_part2 arg0 arg1 arg2 arg3 φ) ++ ((WR_fn_threefry2x32_0_body_part3 arg0 arg1 arg2 arg3 φ))))

theorem Nd_fn_threefry2x32_0_body (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : List.Forall₂ Node (L_fn_threefry2x32_0_body (F := F) arg0 arg1 arg2 arg3 φ) (WR_fn_threefry2x32_0_body arg0 arg1 arg2 arg3 φ) :=
  f2_append (Nd_fn_threefry2x32_0_body_part0 arg0 arg1 arg2 arg3 φ) (f2_append (Nd_fn_threefry2x32_0_body_part1 arg0 arg1 arg2 arg3 φ) (f2_append (Nd_fn_threefry2x32_0_body_part2 arg0 arg1 arg2 arg3 φ) ((Nd_fn_threefry2x32_0_body_part3 arg0 arg1 arg2 arg3 φ))))

theorem E_fn_threefry2x32_0_body (arg0 : StableHlo.TRef sig ⟨S_, .i32⟩) (arg1 : StableHlo.TRef sig ⟨S_, .i32⟩) (arg2 : StableHlo.TRef sig ⟨S128, .i32⟩) (arg3 : StableHlo.TRef sig ⟨S128, .i32⟩) (φ : fn_threefry2x32_0.Bufs) : fn_threefry2x32_0.body (F := F) arg0 arg1 arg2 arg3 φ = seq (L_fn_threefry2x32_0_body arg0 arg1 arg2 arg3 φ) := by
  simp only [fn_threefry2x32_0.body, L_fn_threefry2x32_0_body, seq_append, E_fn_threefry2x32_0_body_part0, E_fn_threefry2x32_0_body_part1, E_fn_threefry2x32_0_body_part2, E_fn_threefry2x32_0_body_part3, seq, bind_assoc, pure_bind]
  try rfl

end Cert.ReferenceIdeal.Hand

end
-- ==== Proof.RefOpsFns.lean ====
import proofs.«213024_g80238579024365_cont_9to1c4b_497_7_alg».proof.Proof.RefOpsTfA
import proofs.«213024_g80238579024365_cont_9to1c4b_497_7_alg».proof.Proof.RefOpsTfB

set_option maxRecDepth 16384
set_option maxHeartbeats 4000000

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

noncomputable def L_fn_threefry_split_body_s0 (arg0 : StableHlo.TRef sig ⟨S2, .i32⟩) (φ : fn_threefry_split.Bufs) : List (HloOp τ sig (Elt F)) :=
  [ StableHlo.TRef.unary arg0 φ.v0 (extractStridedSlice S1 ![0] · slices_S2_S1_0),
    StableHlo.TRef.reshape φ.v0 φ.v1 rfl shapeCasts_S1_S_,
    StableHlo.TRef.unary arg0 φ.v2 (extractStridedSlice S1 ![1] · slices_S2_S1_1),
    StableHlo.TRef.reshape φ.v2 φ.v3 rfl shapeCasts_S1_S_,
    StableHlo.TRef.nullary φ.v4 (iotaInDim S2 64 0),
    StableHlo.TRef.nullary φ.c (constantI S_ 64 1#64),
    StableHlo.TRef.unary φ.c φ.v5 (broadcastInDim S2 ![] bcast_S_S2),
    StableHlo.TRef.binary φ.v5 φ.v4 φ.v6 muli,
    StableHlo.TRef.nullary φ.c_0 (constantI S_ 64 32#64),
    StableHlo.TRef.unary φ.c_0 φ.v7 (broadcastInDim S2 ![] bcast_S_S2),
    StableHlo.TRef.binary φ.v6 φ.v7 φ.v8 Host.shrui,
    StableHlo.TRef.unary φ.v6 φ.v9 (trunci 32 · natLt_32_64),
    StableHlo.TRef.unary φ.v8 φ.v10 (trunci 32 · natLt_32_64) ]

theorem P_fn_threefry_split_body_s0 (arg0 : StableHlo.TRef sig ⟨S2, .i32⟩) (φ : fn_threefry_split.Bufs) : (L_fn_threefry_split_body_s0 (F := F) arg0 φ).Forall OpOk := by
  unfold L_fn_threefry_split_body_s0
  exact ⟨⟨unary_bufs_sub .., rfl⟩, ⟨reshape_bufs_sub .., rfl⟩, ⟨unary_bufs_sub .., rfl⟩, ⟨reshape_bufs_sub .., rfl⟩, ⟨nullary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩⟩

noncomputable def WR_fn_threefry_split_body_s0 (arg0 : StableHlo.TRef sig ⟨S2, .i32⟩) (φ : fn_threefry_split.Bufs) : List (Ref sig .tc × List (Ref sig .tc)) :=
  [ ((φ.v0).ref, [(arg0).ref]),
    ((φ.v1).ref, [(φ.v0).ref]),
    ((φ.v2).ref, [(arg0).ref]),
    ((φ.v3).ref, [(φ.v2).ref]),
    ((φ.v4).ref, []),
    ((φ.c).ref, []),
    ((φ.v5).ref, [(φ.c).ref]),
    ((φ.v6).ref, [(φ.v5).ref, (φ.v4).ref]),
    ((φ.c_0).ref, []),
    ((φ.v7).ref, [(φ.c_0).ref]),
    ((φ.v8).ref, [(φ.v6).ref, (φ.v7).ref]),
    ((φ.v9).ref, [(φ.v6).ref]),
    ((φ.v10).ref, [(φ.v8).ref]) ]

theorem Nd_fn_threefry_split_body_s0 (arg0 : StableHlo.TRef sig ⟨S2, .i32⟩) (φ : fn_threefry_split.Bufs) : List.Forall₂ Node (L_fn_threefry_split_body_s0 (F := F) arg0 φ) (WR_fn_threefry_split_body_s0 arg0 φ) :=
  .cons (node_unary ..) (.cons (node_reshape ..) (.cons (node_unary ..) (.cons (node_reshape ..) (.cons (node_nullary ..) (.cons (node_nullary ..) (.cons (node_unary ..) (.cons (node_binary ..) (.cons (node_nullary ..) (.cons (node_unary ..) (.cons (node_binary ..) (.cons (node_unary ..) (.cons (node_unary ..) (.nil)))))))))))))

noncomputable def L_fn_threefry_split_body_s1 (arg0 : StableHlo.TRef sig ⟨S2, .i32⟩) (φ : fn_threefry_split.Bufs) : List (HloOp τ sig (Elt F)) :=
  [ StableHlo.TRef.unary φ.call0.v171 φ.v12 (broadcastInDim S2x1 ![0] bcast_S2_S2x1_0),
    StableHlo.TRef.unary φ.call0.v175 φ.v13 (broadcastInDim S2x1 ![0] bcast_S2_S2x1_0),
    StableHlo.TRef.binary φ.v12 φ.v13 φ.v14 (fun a b => concatenate S2x2 1 [⟨S2x1, a⟩, ⟨S2x1, b⟩] concatenates_S2x1_S2x1_S2x2_d1) ]

theorem P_fn_threefry_split_body_s1 (arg0 : StableHlo.TRef sig ⟨S2, .i32⟩) (φ : fn_threefry_split.Bufs) : (L_fn_threefry_split_body_s1 (F := F) arg0 φ).Forall OpOk := by
  unfold L_fn_threefry_split_body_s1
  exact ⟨⟨unary_bufs_sub .., rfl⟩, ⟨unary_bufs_sub .., rfl⟩, ⟨binary_bufs_sub .., rfl⟩⟩

noncomputable def WR_fn_threefry_split_body_s1 (arg0 : StableHlo.TRef sig ⟨S2, .i32⟩) (φ : fn_threefry_split.Bufs) : List (Ref sig .tc × List (Ref sig .tc)) :=
  [ ((φ.v12).ref, [(φ.call0.v171).ref]),
    ((φ.v13).ref, [(φ.call0.v175).ref]),
    ((φ.v14).ref, [(φ.v12).ref, (φ.v13).ref]) ]

theorem Nd_fn_threefry_split_body_s1 (arg0 : StableHlo.TRef sig ⟨S2, .i32⟩) (φ : fn_threefry_split.Bufs) : List.Forall₂ Node (L_fn_threefry_split_body_s1 (F := F) arg0 φ) (WR_fn_threefry_split_body_s1 arg0 φ) :=
  .cons (node_unary ..) (.cons (node_unary ..) (.cons (node_binary ..) (.nil)))

noncomputable def L_fn_threefry_split_body (arg0 : StableHlo.TRef sig ⟨S2, .i32⟩) (φ : fn_threefry_split.Bufs) : List (HloOp τ sig (Elt F)) :=
  (L_fn_threefry_split_body_s0 arg0 φ) ++ ((L_fn_threefry2x32_body φ.v1 φ.v3 φ.v10 φ.v9 φ.call0) ++ ((L_fn_threefry_split_body_s1 arg0 φ)))

theorem P_fn_threefry_split_body (arg0 : StableHlo.TRef sig ⟨S2, .i32⟩) (φ : fn_threefry_split.Bufs) : (L_fn_threefry_split_body (F := F) arg0 φ).Forall OpOk :=
  forall_append (P_fn_threefry_split_body_s0 arg0 φ) (forall_append (P_fn_threefry2x32_body φ.v1 φ.v3 φ.v10 φ.v9 φ.call0) ((P_fn_threefry_split_body_s1 arg0 φ)))

noncomputable def WR_fn_threefry_split_body (arg0 : StableHlo.TRef sig ⟨S2, .i32⟩) (φ : fn_threefry_split.Bufs) : List (Ref sig .tc × List (Ref sig .tc)) :=
  (WR_fn_threefry_split_body_s0 arg0 φ) ++ ((WR_fn_threefry2x32_body φ.v1 φ.v3 φ.v10 φ.v9 φ.call0) ++ ((WR_fn_threefry_split_body_s1 arg0 φ)))

theorem Nd_fn_threefry_split_body (arg0 : StableHlo.TRef sig ⟨S2, .i32⟩) (φ : fn_threefry_split.Bufs) : List.Forall₂ Node (L_fn_threefry_split_body (F := F) arg0 φ) (WR_fn_threefry_split_body arg0 φ) :=
  f2_append (Nd_fn_threefry_split_body_s0 arg0 φ) (f2_append (Nd_fn_threefry2x32_body φ.v1 φ.v3 φ.v10 φ.v9 φ.call0) ((Nd_fn_threefry_split_body_s1 arg0 φ)))

theorem E_fn_threefry_split_body (arg0 : StableHlo.TRef sig ⟨S2, .i32⟩) (φ : fn_threefry_split.Bufs) : fn_threefry_split.body (F := F) arg0 φ = seq (L_fn_threefry_split_body arg0 φ) := by
  simp only [fn_threefry_split.body, L_fn_threefry_split_body, seq_append, E_fn_threefry2x32_body, L_fn_threefry_split_body_s0, L_fn_threefry_split_body_s1, seq, bind_assoc, pure_bind]
  try rfl

noncomputable def L_fn_threefry_split_1_body_s0 (arg0 : StableHlo.TRef sig ⟨S2, .i32⟩) (φ : fn_threefry_split_1.Bufs) : List (HloOp τ sig (Elt F)) :=
  [ StableHlo.TRef.unary arg0 φ.v0 (extractStridedSlice S1 ![0] · slices_S2_S1_0),
    StableHlo.TRef.reshape φ.v0 φ.v1 rfl shapeCasts_S1_S_,
    StableHlo.TRef.unary arg0 φ.v2 (extractStridedSlice S1 ![1] · slices_S2_S1_1),
    StableHlo.TRef.reshape φ.v2 φ.v3 rfl shapeCasts_S1_S_,
    StableHlo.TRef.nullary φ.v4 (iotaInDim S2 64 0),
    StableHlo.TRef.nullary φ.c (constantI S_ 64 1#64),
    StableHlo.TRef.unary φ.c φ.v5 (broadcastInDim S2 ![] bcast_S_S2),
    StableHlo.TRef.binary φ.v5 φ.v4 φ.v6 muli,
    StableHlo.TRef.nullary φ.c_0 (constantI S_ 64 32#64),
    StableHlo.TRef.unary φ.c_0 φ.v7 (broadcastInDim S2 ![] bcast_S_S2),
    StableHlo.TRef.binary φ.v6 φ.v7 φ.v8 Host.shrui,
    StableHlo.TRef.unary φ.v6 φ.v9 (trunci 32 · natLt_32_64),
    StableHlo.TRef.unary φ.v8 φ.v10 (trunci 32 · natLt_32_64) ]

theorem P_fn_threefry_split_1_body_s0 (arg0 : StableHlo.TRef sig ⟨S2, .i32⟩) (φ : fn_threefry_split_1.Bufs) : (L_fn_threefry_split_1_body_s0 (F := F) arg0 φ).Forall OpOk := by
  unfold L_fn_threefry_split_1_body_s0
  exact ⟨⟨unary_bufs_sub .., rfl⟩, ⟨reshape_bufs_sub .., rfl⟩, ⟨unary_bufs_sub .., rfl⟩, ⟨reshape_bufs_sub .., rfl⟩, ⟨nullary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩⟩

noncomputable def WR_fn_threefry_split_1_body_s0 (arg0 : StableHlo.TRef sig ⟨S2, .i32⟩) (φ : fn_threefry_split_1.Bufs) : List (Ref sig .tc × List (Ref sig .tc)) :=
  [ ((φ.v0).ref, [(arg0).ref]),
    ((φ.v1).ref, [(φ.v0).ref]),
    ((φ.v2).ref, [(arg0).ref]),
    ((φ.v3).ref, [(φ.v2).ref]),
    ((φ.v4).ref, []),
    ((φ.c).ref, []),
    ((φ.v5).ref, [(φ.c).ref]),
    ((φ.v6).ref, [(φ.v5).ref, (φ.v4).ref]),
    ((φ.c_0).ref, []),
    ((φ.v7).ref, [(φ.c_0).ref]),
    ((φ.v8).ref, [(φ.v6).ref, (φ.v7).ref]),
    ((φ.v9).ref, [(φ.v6).ref]),
    ((φ.v10).ref, [(φ.v8).ref]) ]

theorem Nd_fn_threefry_split_1_body_s0 (arg0 : StableHlo.TRef sig ⟨S2, .i32⟩) (φ : fn_threefry_split_1.Bufs) : List.Forall₂ Node (L_fn_threefry_split_1_body_s0 (F := F) arg0 φ) (WR_fn_threefry_split_1_body_s0 arg0 φ) :=
  .cons (node_unary ..) (.cons (node_reshape ..) (.cons (node_unary ..) (.cons (node_reshape ..) (.cons (node_nullary ..) (.cons (node_nullary ..) (.cons (node_unary ..) (.cons (node_binary ..) (.cons (node_nullary ..) (.cons (node_unary ..) (.cons (node_binary ..) (.cons (node_unary ..) (.cons (node_unary ..) (.nil)))))))))))))

noncomputable def L_fn_threefry_split_1_body_s1 (arg0 : StableHlo.TRef sig ⟨S2, .i32⟩) (φ : fn_threefry_split_1.Bufs) : List (HloOp τ sig (Elt F)) :=
  [ StableHlo.TRef.unary φ.call0.v171 φ.v12 (broadcastInDim S2x1 ![0] bcast_S2_S2x1_0),
    StableHlo.TRef.unary φ.call0.v175 φ.v13 (broadcastInDim S2x1 ![0] bcast_S2_S2x1_0),
    StableHlo.TRef.binary φ.v12 φ.v13 φ.v14 (fun a b => concatenate S2x2 1 [⟨S2x1, a⟩, ⟨S2x1, b⟩] concatenates_S2x1_S2x1_S2x2_d1) ]

theorem P_fn_threefry_split_1_body_s1 (arg0 : StableHlo.TRef sig ⟨S2, .i32⟩) (φ : fn_threefry_split_1.Bufs) : (L_fn_threefry_split_1_body_s1 (F := F) arg0 φ).Forall OpOk := by
  unfold L_fn_threefry_split_1_body_s1
  exact ⟨⟨unary_bufs_sub .., rfl⟩, ⟨unary_bufs_sub .., rfl⟩, ⟨binary_bufs_sub .., rfl⟩⟩

noncomputable def WR_fn_threefry_split_1_body_s1 (arg0 : StableHlo.TRef sig ⟨S2, .i32⟩) (φ : fn_threefry_split_1.Bufs) : List (Ref sig .tc × List (Ref sig .tc)) :=
  [ ((φ.v12).ref, [(φ.call0.v171).ref]),
    ((φ.v13).ref, [(φ.call0.v175).ref]),
    ((φ.v14).ref, [(φ.v12).ref, (φ.v13).ref]) ]

theorem Nd_fn_threefry_split_1_body_s1 (arg0 : StableHlo.TRef sig ⟨S2, .i32⟩) (φ : fn_threefry_split_1.Bufs) : List.Forall₂ Node (L_fn_threefry_split_1_body_s1 (F := F) arg0 φ) (WR_fn_threefry_split_1_body_s1 arg0 φ) :=
  .cons (node_unary ..) (.cons (node_unary ..) (.cons (node_binary ..) (.nil)))

noncomputable def L_fn_threefry_split_1_body (arg0 : StableHlo.TRef sig ⟨S2, .i32⟩) (φ : fn_threefry_split_1.Bufs) : List (HloOp τ sig (Elt F)) :=
  (L_fn_threefry_split_1_body_s0 arg0 φ) ++ ((L_fn_threefry2x32_body φ.v1 φ.v3 φ.v10 φ.v9 φ.call0) ++ ((L_fn_threefry_split_1_body_s1 arg0 φ)))

theorem P_fn_threefry_split_1_body (arg0 : StableHlo.TRef sig ⟨S2, .i32⟩) (φ : fn_threefry_split_1.Bufs) : (L_fn_threefry_split_1_body (F := F) arg0 φ).Forall OpOk :=
  forall_append (P_fn_threefry_split_1_body_s0 arg0 φ) (forall_append (P_fn_threefry2x32_body φ.v1 φ.v3 φ.v10 φ.v9 φ.call0) ((P_fn_threefry_split_1_body_s1 arg0 φ)))

noncomputable def WR_fn_threefry_split_1_body (arg0 : StableHlo.TRef sig ⟨S2, .i32⟩) (φ : fn_threefry_split_1.Bufs) : List (Ref sig .tc × List (Ref sig .tc)) :=
  (WR_fn_threefry_split_1_body_s0 arg0 φ) ++ ((WR_fn_threefry2x32_body φ.v1 φ.v3 φ.v10 φ.v9 φ.call0) ++ ((WR_fn_threefry_split_1_body_s1 arg0 φ)))

theorem Nd_fn_threefry_split_1_body (arg0 : StableHlo.TRef sig ⟨S2, .i32⟩) (φ : fn_threefry_split_1.Bufs) : List.Forall₂ Node (L_fn_threefry_split_1_body (F := F) arg0 φ) (WR_fn_threefry_split_1_body arg0 φ) :=
  f2_append (Nd_fn_threefry_split_1_body_s0 arg0 φ) (f2_append (Nd_fn_threefry2x32_body φ.v1 φ.v3 φ.v10 φ.v9 φ.call0) ((Nd_fn_threefry_split_1_body_s1 arg0 φ)))

theorem E_fn_threefry_split_1_body (arg0 : StableHlo.TRef sig ⟨S2, .i32⟩) (φ : fn_threefry_split_1.Bufs) : fn_threefry_split_1.body (F := F) arg0 φ = seq (L_fn_threefry_split_1_body arg0 φ) := by
  simp only [fn_threefry_split_1.body, L_fn_threefry_split_1_body, seq_append, E_fn_threefry2x32_body, L_fn_threefry_split_1_body_s0, L_fn_threefry_split_1_body_s1, seq, bind_assoc, pure_bind]
  try rfl

noncomputable def L_fn_uniform_body_s0 (arg0 : StableHlo.TRef sig ⟨S2, .i32⟩) (arg1 : StableHlo.TRef sig ⟨S_, .f32⟩) (arg2 : StableHlo.TRef sig ⟨S_, .f32⟩) (φ : fn_uniform.Bufs) : List (HloOp τ sig (Elt F)) :=
  [ StableHlo.TRef.unary arg1 φ.v0 id,
    StableHlo.TRef.unary arg2 φ.v1 id,
    StableHlo.TRef.unary φ.v0 φ.v2 (broadcastInDim S1 ![] bcast_S_S1),
    StableHlo.TRef.unary φ.v1 φ.v3 (broadcastInDim S1 ![] bcast_S_S1),
    StableHlo.TRef.unary arg0 φ.v4 (extractStridedSlice S1 ![0] · slices_S2_S1_0),
    StableHlo.TRef.reshape φ.v4 φ.v5 rfl shapeCasts_S1_S_,
    StableHlo.TRef.unary arg0 φ.v6 (extractStridedSlice S1 ![1] · slices_S2_S1_1),
    StableHlo.TRef.reshape φ.v6 φ.v7 rfl shapeCasts_S1_S_,
    StableHlo.TRef.nullary φ.v8 (iotaInDim S128 64 0),
    StableHlo.TRef.nullary φ.c (constantI S_ 64 1#64),
    StableHlo.TRef.unary φ.c φ.v9 (broadcastInDim S128 ![] bcast_S_S128),
    StableHlo.TRef.binary φ.v9 φ.v8 φ.v10 muli,
    StableHlo.TRef.nullary φ.c_0 (constantI S_ 64 32#64),
    StableHlo.TRef.unary φ.c_0 φ.v11 (broadcastInDim S128 ![] bcast_S_S128),
    StableHlo.TRef.binary φ.v10 φ.v11 φ.v12 Host.shrui,
    StableHlo.TRef.unary φ.v10 φ.v13 (trunci 32 · natLt_32_64),
    StableHlo.TRef.unary φ.v12 φ.v14 (trunci 32 · natLt_32_64) ]

theorem P_fn_uniform_body_s0 (arg0 : StableHlo.TRef sig ⟨S2, .i32⟩) (arg1 : StableHlo.TRef sig ⟨S_, .f32⟩) (arg2 : StableHlo.TRef sig ⟨S_, .f32⟩) (φ : fn_uniform.Bufs) : (L_fn_uniform_body_s0 (F := F) arg0 arg1 arg2 φ).Forall OpOk := by
  unfold L_fn_uniform_body_s0
  exact ⟨⟨unary_bufs_sub .., rfl⟩, ⟨unary_bufs_sub .., rfl⟩, ⟨unary_bufs_sub .., rfl⟩, ⟨unary_bufs_sub .., rfl⟩, ⟨unary_bufs_sub .., rfl⟩, ⟨reshape_bufs_sub .., rfl⟩, ⟨unary_bufs_sub .., rfl⟩, ⟨reshape_bufs_sub .., rfl⟩, ⟨nullary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩⟩

noncomputable def WR_fn_uniform_body_s0 (arg0 : StableHlo.TRef sig ⟨S2, .i32⟩) (arg1 : StableHlo.TRef sig ⟨S_, .f32⟩) (arg2 : StableHlo.TRef sig ⟨S_, .f32⟩) (φ : fn_uniform.Bufs) : List (Ref sig .tc × List (Ref sig .tc)) :=
  [ ((φ.v0).ref, [(arg1).ref]),
    ((φ.v1).ref, [(arg2).ref]),
    ((φ.v2).ref, [(φ.v0).ref]),
    ((φ.v3).ref, [(φ.v1).ref]),
    ((φ.v4).ref, [(arg0).ref]),
    ((φ.v5).ref, [(φ.v4).ref]),
    ((φ.v6).ref, [(arg0).ref]),
    ((φ.v7).ref, [(φ.v6).ref]),
    ((φ.v8).ref, []),
    ((φ.c).ref, []),
    ((φ.v9).ref, [(φ.c).ref]),
    ((φ.v10).ref, [(φ.v9).ref, (φ.v8).ref]),
    ((φ.c_0).ref, []),
    ((φ.v11).ref, [(φ.c_0).ref]),
    ((φ.v12).ref, [(φ.v10).ref, (φ.v11).ref]),
    ((φ.v13).ref, [(φ.v10).ref]),
    ((φ.v14).ref, [(φ.v12).ref]) ]

theorem Nd_fn_uniform_body_s0 (arg0 : StableHlo.TRef sig ⟨S2, .i32⟩) (arg1 : StableHlo.TRef sig ⟨S_, .f32⟩) (arg2 : StableHlo.TRef sig ⟨S_, .f32⟩) (φ : fn_uniform.Bufs) : List.Forall₂ Node (L_fn_uniform_body_s0 (F := F) arg0 arg1 arg2 φ) (WR_fn_uniform_body_s0 arg0 arg1 arg2 φ) :=
  .cons (node_unary ..) (.cons (node_unary ..) (.cons (node_unary ..) (.cons (node_unary ..) (.cons (node_unary ..) (.cons (node_reshape ..) (.cons (node_unary ..) (.cons (node_reshape ..) (.cons (node_nullary ..) (.cons (node_nullary ..) (.cons (node_unary ..) (.cons (node_binary ..) (.cons (node_nullary ..) (.cons (node_unary ..) (.cons (node_binary ..) (.cons (node_unary ..) (.cons (node_unary ..) (.nil)))))))))))))))))

noncomputable def L_fn_uniform_body_s1 (arg0 : StableHlo.TRef sig ⟨S2, .i32⟩) (arg1 : StableHlo.TRef sig ⟨S_, .f32⟩) (arg2 : StableHlo.TRef sig ⟨S_, .f32⟩) (φ : fn_uniform.Bufs) : List (HloOp τ sig (Elt F)) :=
  [ StableHlo.TRef.binary φ.call0.v171 φ.call0.v175 φ.v16 xori,
    StableHlo.TRef.nullary φ.c_1 (constantI S_ 32 9#32),
    StableHlo.TRef.unary φ.c_1 φ.v17 (broadcastInDim S128 ![] bcast_S_S128),
    StableHlo.TRef.binary φ.v16 φ.v17 φ.v18 Host.shrui,
    StableHlo.TRef.nullary φ.c_2 (constantI S_ 32 1065353216#32),
    StableHlo.TRef.unary φ.c_2 φ.v19 (broadcastInDim S128 ![] bcast_S_S128),
    StableHlo.TRef.binary φ.v18 φ.v19 φ.v20 ori,
    StableHlo.TRef.unary φ.v20 φ.v21 (bitcastToFloat .f32),
    StableHlo.TRef.nullary φ.cst (constant S_ .f32 0x3F800000#32),
    StableHlo.TRef.unary φ.cst φ.v22 (broadcastInDim S128 ![] bcast_S_S128),
    StableHlo.TRef.binary φ.v21 φ.v22 φ.v23 subf,
    StableHlo.TRef.binary φ.v3 φ.v2 φ.v24 subf,
    StableHlo.TRef.unary φ.v24 φ.v25 (broadcastInDim S128 ![0] bcast_S1_S128_0),
    StableHlo.TRef.binary φ.v23 φ.v25 φ.v26 mulf,
    StableHlo.TRef.unary φ.v2 φ.v27 (broadcastInDim S128 ![0] bcast_S1_S128_0),
    StableHlo.TRef.binary φ.v26 φ.v27 φ.v28 addf,
    StableHlo.TRef.unary φ.v2 φ.v29 (broadcastInDim S128 ![0] bcast_S1_S128_0),
    StableHlo.TRef.binary φ.v29 φ.v28 φ.v30 maximumf ]

theorem P_fn_uniform_body_s1 (arg0 : StableHlo.TRef sig ⟨S2, .i32⟩) (arg1 : StableHlo.TRef sig ⟨S_, .f32⟩) (arg2 : StableHlo.TRef sig ⟨S_, .f32⟩) (φ : fn_uniform.Bufs) : (L_fn_uniform_body_s1 (F := F) arg0 arg1 arg2 φ).Forall OpOk := by
  unfold L_fn_uniform_body_s1
  exact ⟨⟨binary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨binary_bufs_sub .., rfl⟩, ⟨unary_bufs_sub .., rfl⟩, ⟨binary_bufs_sub .., rfl⟩, ⟨unary_bufs_sub .., rfl⟩, ⟨binary_bufs_sub .., rfl⟩, ⟨unary_bufs_sub .., rfl⟩, ⟨binary_bufs_sub .., rfl⟩⟩

noncomputable def WR_fn_uniform_body_s1 (arg0 : StableHlo.TRef sig ⟨S2, .i32⟩) (arg1 : StableHlo.TRef sig ⟨S_, .f32⟩) (arg2 : StableHlo.TRef sig ⟨S_, .f32⟩) (φ : fn_uniform.Bufs) : List (Ref sig .tc × List (Ref sig .tc)) :=
  [ ((φ.v16).ref, [(φ.call0.v171).ref, (φ.call0.v175).ref]),
    ((φ.c_1).ref, []),
    ((φ.v17).ref, [(φ.c_1).ref]),
    ((φ.v18).ref, [(φ.v16).ref, (φ.v17).ref]),
    ((φ.c_2).ref, []),
    ((φ.v19).ref, [(φ.c_2).ref]),
    ((φ.v20).ref, [(φ.v18).ref, (φ.v19).ref]),
    ((φ.v21).ref, [(φ.v20).ref]),
    ((φ.cst).ref, []),
    ((φ.v22).ref, [(φ.cst).ref]),
    ((φ.v23).ref, [(φ.v21).ref, (φ.v22).ref]),
    ((φ.v24).ref, [(φ.v3).ref, (φ.v2).ref]),
    ((φ.v25).ref, [(φ.v24).ref]),
    ((φ.v26).ref, [(φ.v23).ref, (φ.v25).ref]),
    ((φ.v27).ref, [(φ.v2).ref]),
    ((φ.v28).ref, [(φ.v26).ref, (φ.v27).ref]),
    ((φ.v29).ref, [(φ.v2).ref]),
    ((φ.v30).ref, [(φ.v29).ref, (φ.v28).ref]) ]

theorem Nd_fn_uniform_body_s1 (arg0 : StableHlo.TRef sig ⟨S2, .i32⟩) (arg1 : StableHlo.TRef sig ⟨S_, .f32⟩) (arg2 : StableHlo.TRef sig ⟨S_, .f32⟩) (φ : fn_uniform.Bufs) : List.Forall₂ Node (L_fn_uniform_body_s1 (F := F) arg0 arg1 arg2 φ) (WR_fn_uniform_body_s1 arg0 arg1 arg2 φ) :=
  .cons (node_binary ..) (.cons (node_nullary ..) (.cons (node_unary ..) (.cons (node_binary ..) (.cons (node_nullary ..) (.cons (node_unary ..) (.cons (node_binary ..) (.cons (node_unary ..) (.cons (node_nullary ..) (.cons (node_unary ..) (.cons (node_binary ..) (.cons (node_binary ..) (.cons (node_unary ..) (.cons (node_binary ..) (.cons (node_unary ..) (.cons (node_binary ..) (.cons (node_unary ..) (.cons (node_binary ..) (.nil))))))))))))))))))

noncomputable def L_fn_uniform_body (arg0 : StableHlo.TRef sig ⟨S2, .i32⟩) (arg1 : StableHlo.TRef sig ⟨S_, .f32⟩) (arg2 : StableHlo.TRef sig ⟨S_, .f32⟩) (φ : fn_uniform.Bufs) : List (HloOp τ sig (Elt F)) :=
  (L_fn_uniform_body_s0 arg0 arg1 arg2 φ) ++ ((L_fn_threefry2x32_0_body φ.v5 φ.v7 φ.v14 φ.v13 φ.call0) ++ ((L_fn_uniform_body_s1 arg0 arg1 arg2 φ)))

theorem P_fn_uniform_body (arg0 : StableHlo.TRef sig ⟨S2, .i32⟩) (arg1 : StableHlo.TRef sig ⟨S_, .f32⟩) (arg2 : StableHlo.TRef sig ⟨S_, .f32⟩) (φ : fn_uniform.Bufs) : (L_fn_uniform_body (F := F) arg0 arg1 arg2 φ).Forall OpOk :=
  forall_append (P_fn_uniform_body_s0 arg0 arg1 arg2 φ) (forall_append (P_fn_threefry2x32_0_body φ.v5 φ.v7 φ.v14 φ.v13 φ.call0) ((P_fn_uniform_body_s1 arg0 arg1 arg2 φ)))

noncomputable def WR_fn_uniform_body (arg0 : StableHlo.TRef sig ⟨S2, .i32⟩) (arg1 : StableHlo.TRef sig ⟨S_, .f32⟩) (arg2 : StableHlo.TRef sig ⟨S_, .f32⟩) (φ : fn_uniform.Bufs) : List (Ref sig .tc × List (Ref sig .tc)) :=
  (WR_fn_uniform_body_s0 arg0 arg1 arg2 φ) ++ ((WR_fn_threefry2x32_0_body φ.v5 φ.v7 φ.v14 φ.v13 φ.call0) ++ ((WR_fn_uniform_body_s1 arg0 arg1 arg2 φ)))

theorem Nd_fn_uniform_body (arg0 : StableHlo.TRef sig ⟨S2, .i32⟩) (arg1 : StableHlo.TRef sig ⟨S_, .f32⟩) (arg2 : StableHlo.TRef sig ⟨S_, .f32⟩) (φ : fn_uniform.Bufs) : List.Forall₂ Node (L_fn_uniform_body (F := F) arg0 arg1 arg2 φ) (WR_fn_uniform_body arg0 arg1 arg2 φ) :=
  f2_append (Nd_fn_uniform_body_s0 arg0 arg1 arg2 φ) (f2_append (Nd_fn_threefry2x32_0_body φ.v5 φ.v7 φ.v14 φ.v13 φ.call0) ((Nd_fn_uniform_body_s1 arg0 arg1 arg2 φ)))

theorem E_fn_uniform_body (arg0 : StableHlo.TRef sig ⟨S2, .i32⟩) (arg1 : StableHlo.TRef sig ⟨S_, .f32⟩) (arg2 : StableHlo.TRef sig ⟨S_, .f32⟩) (φ : fn_uniform.Bufs) : fn_uniform.body (F := F) arg0 arg1 arg2 φ = seq (L_fn_uniform_body arg0 arg1 arg2 φ) := by
  simp only [fn_uniform.body, L_fn_uniform_body, seq_append, E_fn_threefry2x32_0_body, L_fn_uniform_body_s0, L_fn_uniform_body_s1, seq, bind_assoc, pure_bind]
  try rfl

end Cert.ReferenceIdeal.Hand

end
-- ==== Proof.RefOpsM0.lean ====
import proofs.«213024_g80238579024365_cont_9to1c4b_497_7_alg».proof.Proof.RefOpsFns

set_option maxRecDepth 16384
set_option maxHeartbeats 4000000

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

noncomputable def L_main_part0_s0  : List (HloOp τ sig (Elt F)) :=
  [ StableHlo.nullary main_c (constantI S_ 32 42#32),
    StableHlo.nullary main_c_0 (constantI S_ 32 32#32),
    StableHlo.binary main_c main_c_0 main_v0 (Host.shrui : (⟨S_, .i32⟩ : BufTy).Contents (Elt F) → (⟨S_, .i32⟩ : BufTy).Contents (Elt F) → (⟨S_, .i32⟩ : BufTy).Contents (Elt F)),
    StableHlo.unary main_v0 main_v1 (id : (⟨S_, .i32⟩ : BufTy).Contents (Elt F) → (⟨S_, .i32⟩ : BufTy).Contents (Elt F)),
    StableHlo.unary main_v1 main_v2 (broadcastInDim S1 ![] bcast_S_S1 : (⟨S_, .i32⟩ : BufTy).Contents (Elt F) → (⟨S1, .i32⟩ : BufTy).Contents (Elt F)),
    StableHlo.nullary main_c_1 (constantI S_ 32 4294967295#32),
    StableHlo.binary main_c main_c_1 main_v3 (andi : (⟨S_, .i32⟩ : BufTy).Contents (Elt F) → (⟨S_, .i32⟩ : BufTy).Contents (Elt F) → (⟨S_, .i32⟩ : BufTy).Contents (Elt F)),
    StableHlo.unary main_v3 main_v4 (id : (⟨S_, .i32⟩ : BufTy).Contents (Elt F) → (⟨S_, .i32⟩ : BufTy).Contents (Elt F)),
    StableHlo.unary main_v4 main_v5 (broadcastInDim S1 ![] bcast_S_S1 : (⟨S_, .i32⟩ : BufTy).Contents (Elt F) → (⟨S1, .i32⟩ : BufTy).Contents (Elt F)),
    StableHlo.binary main_v2 main_v5 main_v6 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.binary main_arg0 main_arg1 main_v7 ((fun l r => Host.dotGeneral dot_S128x4096_S4096_S128_1_0_0_n_n_n none l r) : (⟨S128x4096, .f32⟩ : BufTy).Contents (Elt F) → (⟨S4096, .f32⟩ : BufTy).Contents (Elt F) → (⟨S128, .f32⟩ : BufTy).Contents (Elt F)),
    StableHlo.nullary main_cst (constant S_ .f32 0x00000000#32),
    StableHlo.unary main_cst main_v8 (broadcastInDim S128x4096 ![] bcast_S_S128x4096 : (⟨S_, .f32⟩ : BufTy).Contents (Elt F) → (⟨S128x4096, .f32⟩ : BufTy).Contents (Elt F)),
    StableHlo.nullary main_c_2 (constantI S_ 32 0#32),
    StableHlo.unary main_c_2 main_v9 (broadcastInDim S1 ![] bcast_S_S1 : (⟨S_, .i32⟩ : BufTy).Contents (Elt F) → (⟨S1, .i32⟩ : BufTy).Contents (Elt F)),
    StableHlo.nullary main_cst_3 (constant S_ .f32 0x3F800000#32),
    StableHlo.unary main_cst_3 main_v10 (broadcastInDim S128 ![] bcast_S_S128 : (⟨S_, .f32⟩ : BufTy).Contents (Elt F) → (⟨S128, .f32⟩ : BufTy).Contents (Elt F)),
    StableHlo.ternary main_v8 main_v9 main_v10 main_v11 ((fun x i u => Host.scatter scatter_S128x4096_S1_S128_0_1_1_0 (fun _ b => b) x i u) : (⟨S128x4096, .f32⟩ : BufTy).Contents (Elt F) → (⟨S1, .i32⟩ : BufTy).Contents (Elt F) → (⟨S128, .f32⟩ : BufTy).Contents (Elt F) → (⟨S128x4096, .f32⟩ : BufTy).Contents (Elt F)),
    StableHlo.nullary main_cst_4 (constant S_ .f32 0x3F800000#32),
    StableHlo.unary main_cst_4 main_v12 (broadcastInDim S128x4096 ![] bcast_S_S128x4096 : (⟨S_, .f32⟩ : BufTy).Contents (Elt F) → (⟨S128x4096, .f32⟩ : BufTy).Contents (Elt F)),
    StableHlo.binary main_v12 main_v11 main_v13 (subf : (⟨S128x4096, .f32⟩ : BufTy).Contents (Elt F) → (⟨S128x4096, .f32⟩ : BufTy).Contents (Elt F) → (⟨S128x4096, .f32⟩ : BufTy).Contents (Elt F)),
    StableHlo.binary main_v13 main_arg0 main_v14 (mulf : (⟨S128x4096, .f32⟩ : BufTy).Contents (Elt F) → (⟨S128x4096, .f32⟩ : BufTy).Contents (Elt F) → (⟨S128x4096, .f32⟩ : BufTy).Contents (Elt F)),
    StableHlo.nullary main_cst_5 (constant S_ .f32 0x3F800000#32),
    StableHlo.unary main_cst_5 main_v15 (broadcastInDim S128x4096 ![] bcast_S_S128x4096 : (⟨S_, .f32⟩ : BufTy).Contents (Elt F) → (⟨S128x4096, .f32⟩ : BufTy).Contents (Elt F)),
    StableHlo.binary main_v15 main_arg0 main_v16 (subf : (⟨S128x4096, .f32⟩ : BufTy).Contents (Elt F) → (⟨S128x4096, .f32⟩ : BufTy).Contents (Elt F) → (⟨S128x4096, .f32⟩ : BufTy).Contents (Elt F)),
    StableHlo.binary main_v11 main_v16 main_v17 (mulf : (⟨S128x4096, .f32⟩ : BufTy).Contents (Elt F) → (⟨S128x4096, .f32⟩ : BufTy).Contents (Elt F) → (⟨S128x4096, .f32⟩ : BufTy).Contents (Elt F)),
    StableHlo.binary main_v14 main_v17 main_v18 (addf : (⟨S128x4096, .f32⟩ : BufTy).Contents (Elt F) → (⟨S128x4096, .f32⟩ : BufTy).Contents (Elt F) → (⟨S128x4096, .f32⟩ : BufTy).Contents (Elt F)),
    StableHlo.binary main_v18 main_arg1 main_v19 ((fun l r => Host.dotGeneral dot_S128x4096_S4096_S128_1_0_0_n_n_n none l r) : (⟨S128x4096, .f32⟩ : BufTy).Contents (Elt F) → (⟨S4096, .f32⟩ : BufTy).Contents (Elt F) → (⟨S128, .f32⟩ : BufTy).Contents (Elt F)),
    StableHlo.binary main_v19 main_v7 main_v20 (subf : (⟨S128, .f32⟩ : BufTy).Contents (Elt F) → (⟨S128, .f32⟩ : BufTy).Contents (Elt F) → (⟨S128, .f32⟩ : BufTy).Contents (Elt F)) ]

theorem P_main_part0_s0  : (L_main_part0_s0 (F := F) ).Forall OpOk := by
  unfold L_main_part0_s0
  exact ⟨⟨nullary_bufs_sub .., rfl⟩, ⟨nullary_bufs_sub .., rfl⟩, ⟨binary_bufs_sub .., rfl⟩, ⟨unary_bufs_sub .., rfl⟩, ⟨unary_bufs_sub .., rfl⟩, ⟨nullary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩, ⟨unary_bufs_sub .., rfl⟩, ⟨nullary_bufs_sub .., rfl⟩, ⟨unary_bufs_sub .., rfl⟩, ⟨nullary_bufs_sub .., rfl⟩, ⟨unary_bufs_sub .., rfl⟩, ⟨ternary_bufs_sub .., rfl⟩, ⟨nullary_bufs_sub .., rfl⟩, ⟨unary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩, ⟨binary_bufs_sub .., rfl⟩⟩

noncomputable def WR_main_part0_s0  : List (Ref sig .tc × List (Ref sig .tc)) :=
  [ (main_c, []),
    (main_c_0, []),
    (main_v0, [main_c, main_c_0]),
    (main_v1, [main_v0]),
    (main_v2, [main_v1]),
    (main_c_1, []),
    (main_v3, [main_c, main_c_1]),
    (main_v4, [main_v3]),
    (main_v5, [main_v4]),
    (main_v6, [main_v2, main_v5]),
    (main_v7, [main_arg0, main_arg1]),
    (main_cst, []),
    (main_v8, [main_cst]),
    (main_c_2, []),
    (main_v9, [main_c_2]),
    (main_cst_3, []),
    (main_v10, [main_cst_3]),
    (main_v11, [main_v8, main_v9, main_v10]),
    (main_cst_4, []),
    (main_v12, [main_cst_4]),
    (main_v13, [main_v12, main_v11]),
    (main_v14, [main_v13, main_arg0]),
    (main_cst_5, []),
    (main_v15, [main_cst_5]),
    (main_v16, [main_v15, main_arg0]),
    (main_v17, [main_v11, main_v16]),
    (main_v18, [main_v14, main_v17]),
    (main_v19, [main_v18, main_arg1]),
    (main_v20, [main_v19, main_v7]) ]

theorem Nd_main_part0_s0  : List.Forall₂ Node (L_main_part0_s0 (F := F) ) (WR_main_part0_s0 ) :=
  .cons (node_nullary ..) (.cons (node_nullary ..) (.cons (node_binary ..) (.cons (node_unary ..) (.cons (node_unary ..) (.cons (node_nullary ..) (.cons (node_binary ..) (.cons (node_unary ..) (.cons (node_unary ..) (.cons (node_binary ..) (.cons (node_binary ..) (.cons (node_nullary ..) (.cons (node_unary ..) (.cons (node_nullary ..) (.cons (node_unary ..) (.cons (node_nullary ..) (.cons (node_unary ..) (.cons (node_ternary ..) (.cons (node_nullary ..) (.cons (node_unary ..) (.cons (node_binary ..) (.cons (node_binary ..) (.cons (node_nullary ..) (.cons (node_unary ..) (.cons (node_binary ..) (.cons (node_binary ..) (.cons (node_binary ..) (.cons (node_binary ..) (.cons (node_binary ..) (.nil)))))))))))))))))))))))))))))

noncomputable def L_main_part0_s1  : List (HloOp τ sig (Elt F)) :=
  [ StableHlo.unary main_v21 main_v22 ((extractStridedSlice S1x2 ![0, 0] · slices_S2x2_S1x2_0_0) : (⟨S2x2, .i32⟩ : BufTy).Contents (Elt F) → (⟨S1x2, .i32⟩ : BufTy).Contents (Elt F)),
    StableHlo.reshape main_v22 main_v23 rfl shapeCasts_S1x2_S2,
    StableHlo.unary main_v21 main_v24 ((extractStridedSlice S1x2 ![1, 0] · slices_S2x2_S1x2_1_0) : (⟨S2x2, .i32⟩ : BufTy).Contents (Elt F) → (⟨S1x2, .i32⟩ : BufTy).Contents (Elt F)),
    StableHlo.reshape main_v24 main_v25 rfl shapeCasts_S1x2_S2,
    StableHlo.nullary main_cst_6 (constant S_ .f32 0x00000000#32),
    StableHlo.nullary main_cst_7 (constant S_ .f32 0x3F800000#32) ]

theorem P_main_part0_s1  : (L_main_part0_s1 (F := F) ).Forall OpOk := by
  unfold L_main_part0_s1
  exact ⟨⟨unary_bufs_sub .., rfl⟩, ⟨reshape_bufs_sub .., rfl⟩, ⟨unary_bufs_sub .., rfl⟩, ⟨reshape_bufs_sub .., rfl⟩, ⟨nullary_bufs_sub .., rfl⟩, ⟨nullary_bufs_sub .., rfl⟩⟩

noncomputable def WR_main_part0_s1  : List (Ref sig .tc × List (Ref sig .tc)) :=
  [ (main_v22, [main_v21]),
    (main_v23, [main_v22]),
    (main_v24, [main_v21]),
    (main_v25, [main_v24]),
    (main_cst_6, []),
    (main_cst_7, []) ]

theorem Nd_main_part0_s1  : List.Forall₂ Node (L_main_part0_s1 (F := F) ) (WR_main_part0_s1 ) :=
  .cons (node_unary ..) (.cons (node_reshape ..) (.cons (node_unary ..) (.cons (node_reshape ..) (.cons (node_nullary ..) (.cons (node_nullary ..) (.nil))))))

noncomputable def L_main_part0_s2  : List (HloOp τ sig (Elt F)) :=
  [ StableHlo.unary main_v20 main_v27 (Host.negf : (⟨S128, .f32⟩ : BufTy).Contents (Elt F) → (⟨S128, .f32⟩ : BufTy).Contents (Elt F)),
    StableHlo.unary main_v27 main_v28 (Host.exp : (⟨S128, .f32⟩ : BufTy).Contents (Elt F) → (⟨S128, .f32⟩ : BufTy).Contents (Elt F)),
    StableHlo.nullary main_cst_8 (constant S_ .f32 0x3F800000#32),
    StableHlo.unary main_cst_8 main_v29 (broadcastInDim S128 ![] bcast_S_S128 : (⟨S_, .f32⟩ : BufTy).Contents (Elt F) → (⟨S128, .f32⟩ : BufTy).Contents (Elt F)),
    StableHlo.binary main_v29 main_v28 main_v30 (addf : (⟨S128, .f32⟩ : BufTy).Contents (Elt F) → (⟨S128, .f32⟩ : BufTy).Contents (Elt F) → (⟨S128, .f32⟩ : BufTy).Contents (Elt F)),
    StableHlo.nullary main_cst_9 (constant S_ .f32 0x3F800000#32),
    StableHlo.unary main_cst_9 main_v31 (broadcastInDim S128 ![] bcast_S_S128 : (⟨S_, .f32⟩ : BufTy).Contents (Elt F) → (⟨S128, .f32⟩ : BufTy).Contents (Elt F)),
    StableHlo.binary main_v31 main_v30 main_v32 (Host.divf : (⟨S128, .f32⟩ : BufTy).Contents (Elt F) → (⟨S128, .f32⟩ : BufTy).Contents (Elt F) → (⟨S128, .f32⟩ : BufTy).Contents (Elt F)),
    StableHlo.binary main_v26 main_v32 main_v33 (cmpf .olt : (⟨S128, .f32⟩ : BufTy).Contents (Elt F) → (⟨S128, .f32⟩ : BufTy).Contents (Elt F) → (⟨S128, .i1⟩ : BufTy).Contents (Elt F)),
    StableHlo.unary main_v33 main_v34 (uitofp .f32 : (⟨S128, .i1⟩ : BufTy).Contents (Elt F) → (⟨S128, .f32⟩ : BufTy).Contents (Elt F)),
    StableHlo.unary main_v34 main_v35 (broadcastInDim S128x1 ![0] bcast_S128_S128x1_0 : (⟨S128, .f32⟩ : BufTy).Contents (Elt F) → (⟨S128x1, .f32⟩ : BufTy).Contents (Elt F)),
    StableHlo.unary main_v35 main_v36 (broadcastInDim S128x4096 ![0, 1] bcast_S128x1_S128x4096_0_1 : (⟨S128x1, .f32⟩ : BufTy).Contents (Elt F) → (⟨S128x4096, .f32⟩ : BufTy).Contents (Elt F)),
    StableHlo.binary main_v18 main_v36 main_v37 (mulf : (⟨S128x4096, .f32⟩ : BufTy).Contents (Elt F) → (⟨S128x4096, .f32⟩ : BufTy).Contents (Elt F) → (⟨S128x4096, .f32⟩ : BufTy).Contents (Elt F)),
    StableHlo.unary main_v34 main_v38 (broadcastInDim S128x1 ![0] bcast_S128_S128x1_0 : (⟨S128, .f32⟩ : BufTy).Contents (Elt F) → (⟨S128x1, .f32⟩ : BufTy).Contents (Elt F)),
    StableHlo.nullary main_cst_10 (constant S_ .f32 0x3F800000#32),
    StableHlo.unary main_cst_10 main_v39 (broadcastInDim S128x1 ![] bcast_S_S128x1 : (⟨S_, .f32⟩ : BufTy).Contents (Elt F) → (⟨S128x1, .f32⟩ : BufTy).Contents (Elt F)),
    StableHlo.binary main_v39 main_v38 main_v40 (subf : (⟨S128x1, .f32⟩ : BufTy).Contents (Elt F) → (⟨S128x1, .f32⟩ : BufTy).Contents (Elt F) → (⟨S128x1, .f32⟩ : BufTy).Contents (Elt F)),
    StableHlo.unary main_v40 main_v41 (broadcastInDim S128x4096 ![0, 1] bcast_S128x1_S128x4096_0_1 : (⟨S128x1, .f32⟩ : BufTy).Contents (Elt F) → (⟨S128x4096, .f32⟩ : BufTy).Contents (Elt F)),
    StableHlo.binary main_arg0 main_v41 main_v42 (mulf : (⟨S128x4096, .f32⟩ : BufTy).Contents (Elt F) → (⟨S128x4096, .f32⟩ : BufTy).Contents (Elt F) → (⟨S128x4096, .f32⟩ : BufTy).Contents (Elt F)),
    StableHlo.binary main_v37 main_v42 main_v43 (addf : (⟨S128x4096, .f32⟩ : BufTy).Contents (Elt F) → (⟨S128x4096, .f32⟩ : BufTy).Contents (Elt F) → (⟨S128x4096, .f32⟩ : BufTy).Contents (Elt F)),
    StableHlo.binary main_v43 main_arg1 main_v44 ((fun l r => Host.dotGeneral dot_S128x4096_S4096_S128_1_0_0_n_n_n none l r) : (⟨S128x4096, .f32⟩ : BufTy).Contents (Elt F) → (⟨S4096, .f32⟩ : BufTy).Contents (Elt F) → (⟨S128, .f32⟩ : BufTy).Contents (Elt F)),
    StableHlo.nullary main_cst_11 (constant S_ .f32 0x00000000#32),
    StableHlo.unary main_cst_11 main_v45 (broadcastInDim S128x4096 ![] bcast_S_S128x4096 : (⟨S_, .f32⟩ : BufTy).Contents (Elt F) → (⟨S128x4096, .f32⟩ : BufTy).Contents (Elt F)) ]

theorem P_main_part0_s2  : (L_main_part0_s2 (F := F) ).Forall OpOk := by
  unfold L_main_part0_s2
  exact ⟨⟨unary_bufs_sub .., rfl⟩, ⟨unary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨unary_bufs_sub .., rfl⟩, ⟨unary_bufs_sub .., rfl⟩, ⟨unary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩, ⟨binary_bufs_sub .., rfl⟩, ⟨binary_bufs_sub .., rfl⟩, ⟨nullary_bufs_sub .., rfl⟩, ⟨unary_bufs_sub .., rfl⟩⟩

noncomputable def WR_main_part0_s2  : List (Ref sig .tc × List (Ref sig .tc)) :=
  [ (main_v27, [main_v20]),
    (main_v28, [main_v27]),
    (main_cst_8, []),
    (main_v29, [main_cst_8]),
    (main_v30, [main_v29, main_v28]),
    (main_cst_9, []),
    (main_v31, [main_cst_9]),
    (main_v32, [main_v31, main_v30]),
    (main_v33, [main_v26, main_v32]),
    (main_v34, [main_v33]),
    (main_v35, [main_v34]),
    (main_v36, [main_v35]),
    (main_v37, [main_v18, main_v36]),
    (main_v38, [main_v34]),
    (main_cst_10, []),
    (main_v39, [main_cst_10]),
    (main_v40, [main_v39, main_v38]),
    (main_v41, [main_v40]),
    (main_v42, [main_arg0, main_v41]),
    (main_v43, [main_v37, main_v42]),
    (main_v44, [main_v43, main_arg1]),
    (main_cst_11, []),
    (main_v45, [main_cst_11]) ]

theorem Nd_main_part0_s2  : List.Forall₂ Node (L_main_part0_s2 (F := F) ) (WR_main_part0_s2 ) :=
  .cons (node_unary ..) (.cons (node_unary ..) (.cons (node_nullary ..) (.cons (node_unary ..) (.cons (node_binary ..) (.cons (node_nullary ..) (.cons (node_unary ..) (.cons (node_binary ..) (.cons (node_binary ..) (.cons (node_unary ..) (.cons (node_unary ..) (.cons (node_unary ..) (.cons (node_binary ..) (.cons (node_unary ..) (.cons (node_nullary ..) (.cons (node_unary ..) (.cons (node_binary ..) (.cons (node_unary ..) (.cons (node_binary ..) (.cons (node_binary ..) (.cons (node_binary ..) (.cons (node_nullary ..) (.cons (node_unary ..) (.nil)))))))))))))))))))))))

noncomputable def L_main_part0  : List (HloOp τ sig (Elt F)) :=
  (L_main_part0_s0) ++ ((L_fn_threefry_split_body (.of main_v6) main_call0) ++ ((L_main_part0_s1) ++ ((L_fn_uniform_body (.of main_v25) (.of main_cst_6) (.of main_cst_7) main_call1) ++ ((L_main_part0_s2)))))

theorem P_main_part0  : (L_main_part0 (F := F) ).Forall OpOk :=
  forall_append (P_main_part0_s0) (forall_append (P_fn_threefry_split_body (.of main_v6) main_call0) (forall_append (P_main_part0_s1) (forall_append (P_fn_uniform_body (.of main_v25) (.of main_cst_6) (.of main_cst_7) main_call1) ((P_main_part0_s2)))))

noncomputable def WR_main_part0  : List (Ref sig .tc × List (Ref sig .tc)) :=
  (WR_main_part0_s0) ++ ((WR_fn_threefry_split_body (.of main_v6) main_call0) ++ ((WR_main_part0_s1) ++ ((WR_fn_uniform_body (.of main_v25) (.of main_cst_6) (.of main_cst_7) main_call1) ++ ((WR_main_part0_s2)))))

theorem Nd_main_part0  : List.Forall₂ Node (L_main_part0 (F := F) ) (WR_main_part0 ) :=
  f2_append (Nd_main_part0_s0) (f2_append (Nd_fn_threefry_split_body (.of main_v6) main_call0) (f2_append (Nd_main_part0_s1) (f2_append (Nd_fn_uniform_body (.of main_v25) (.of main_cst_6) (.of main_cst_7) main_call1) ((Nd_main_part0_s2)))))

theorem E_main_part0 (d : Dev nD) : main_part0 (F := F) d = seq (L_main_part0 ) := by
  simp only [main_part0, L_main_part0, seq_append, E_fn_threefry_split_body, E_fn_uniform_body, L_main_part0_s0, L_main_part0_s1, L_main_part0_s2, seq, bind_assoc, pure_bind]
  try rfl

end Cert.ReferenceIdeal.Hand

end
-- ==== Proof.RefOpsM1.lean ====
import proofs.«213024_g80238579024365_cont_9to1c4b_497_7_alg».proof.Proof.RefOpsFns

set_option maxRecDepth 16384
set_option maxHeartbeats 4000000

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

noncomputable def L_main_part1_s0  : List (HloOp τ sig (Elt F)) :=
  [ StableHlo.nullary main_c_12 (constantI S_ 32 1#32),
    StableHlo.unary main_c_12 main_v46 (broadcastInDim S1 ![] bcast_S_S1 : (⟨S_, .i32⟩ : BufTy).Contents (Elt F) → (⟨S1, .i32⟩ : BufTy).Contents (Elt F)),
    StableHlo.nullary main_cst_13 (constant S_ .f32 0x3F800000#32),
    StableHlo.unary main_cst_13 main_v47 (broadcastInDim S128 ![] bcast_S_S128 : (⟨S_, .f32⟩ : BufTy).Contents (Elt F) → (⟨S128, .f32⟩ : BufTy).Contents (Elt F)),
    StableHlo.ternary main_v45 main_v46 main_v47 main_v48 ((fun x i u => Host.scatter scatter_S128x4096_S1_S128_0_1_1_0 (fun _ b => b) x i u) : (⟨S128x4096, .f32⟩ : BufTy).Contents (Elt F) → (⟨S1, .i32⟩ : BufTy).Contents (Elt F) → (⟨S128, .f32⟩ : BufTy).Contents (Elt F) → (⟨S128x4096, .f32⟩ : BufTy).Contents (Elt F)),
    StableHlo.nullary main_cst_14 (constant S_ .f32 0x3F800000#32),
    StableHlo.unary main_cst_14 main_v49 (broadcastInDim S128x4096 ![] bcast_S_S128x4096 : (⟨S_, .f32⟩ : BufTy).Contents (Elt F) → (⟨S128x4096, .f32⟩ : BufTy).Contents (Elt F)),
    StableHlo.binary main_v49 main_v48 main_v50 (subf : (⟨S128x4096, .f32⟩ : BufTy).Contents (Elt F) → (⟨S128x4096, .f32⟩ : BufTy).Contents (Elt F) → (⟨S128x4096, .f32⟩ : BufTy).Contents (Elt F)),
    StableHlo.binary main_v50 main_v43 main_v51 (mulf : (⟨S128x4096, .f32⟩ : BufTy).Contents (Elt F) → (⟨S128x4096, .f32⟩ : BufTy).Contents (Elt F) → (⟨S128x4096, .f32⟩ : BufTy).Contents (Elt F)),
    StableHlo.nullary main_cst_15 (constant S_ .f32 0x3F800000#32),
    StableHlo.unary main_cst_15 main_v52 (broadcastInDim S128x4096 ![] bcast_S_S128x4096 : (⟨S_, .f32⟩ : BufTy).Contents (Elt F) → (⟨S128x4096, .f32⟩ : BufTy).Contents (Elt F)),
    StableHlo.binary main_v52 main_v43 main_v53 (subf : (⟨S128x4096, .f32⟩ : BufTy).Contents (Elt F) → (⟨S128x4096, .f32⟩ : BufTy).Contents (Elt F) → (⟨S128x4096, .f32⟩ : BufTy).Contents (Elt F)),
    StableHlo.binary main_v48 main_v53 main_v54 (mulf : (⟨S128x4096, .f32⟩ : BufTy).Contents (Elt F) → (⟨S128x4096, .f32⟩ : BufTy).Contents (Elt F) → (⟨S128x4096, .f32⟩ : BufTy).Contents (Elt F)),
    StableHlo.binary main_v51 main_v54 main_v55 (addf : (⟨S128x4096, .f32⟩ : BufTy).Contents (Elt F) → (⟨S128x4096, .f32⟩ : BufTy).Contents (Elt F) → (⟨S128x4096, .f32⟩ : BufTy).Contents (Elt F)),
    StableHlo.binary main_v55 main_arg1 main_v56 ((fun l r => Host.dotGeneral dot_S128x4096_S4096_S128_1_0_0_n_n_n none l r) : (⟨S128x4096, .f32⟩ : BufTy).Contents (Elt F) → (⟨S4096, .f32⟩ : BufTy).Contents (Elt F) → (⟨S128, .f32⟩ : BufTy).Contents (Elt F)),
    StableHlo.binary main_v56 main_v44 main_v57 (subf : (⟨S128, .f32⟩ : BufTy).Contents (Elt F) → (⟨S128, .f32⟩ : BufTy).Contents (Elt F) → (⟨S128, .f32⟩ : BufTy).Contents (Elt F)) ]

theorem P_main_part1_s0  : (L_main_part1_s0 (F := F) ).Forall OpOk := by
  unfold L_main_part1_s0
  exact ⟨⟨nullary_bufs_sub .., rfl⟩, ⟨unary_bufs_sub .., rfl⟩, ⟨nullary_bufs_sub .., rfl⟩, ⟨unary_bufs_sub .., rfl⟩, ⟨ternary_bufs_sub .., rfl⟩, ⟨nullary_bufs_sub .., rfl⟩, ⟨unary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩, ⟨binary_bufs_sub .., rfl⟩⟩

noncomputable def WR_main_part1_s0  : List (Ref sig .tc × List (Ref sig .tc)) :=
  [ (main_c_12, []),
    (main_v46, [main_c_12]),
    (main_cst_13, []),
    (main_v47, [main_cst_13]),
    (main_v48, [main_v45, main_v46, main_v47]),
    (main_cst_14, []),
    (main_v49, [main_cst_14]),
    (main_v50, [main_v49, main_v48]),
    (main_v51, [main_v50, main_v43]),
    (main_cst_15, []),
    (main_v52, [main_cst_15]),
    (main_v53, [main_v52, main_v43]),
    (main_v54, [main_v48, main_v53]),
    (main_v55, [main_v51, main_v54]),
    (main_v56, [main_v55, main_arg1]),
    (main_v57, [main_v56, main_v44]) ]

theorem Nd_main_part1_s0  : List.Forall₂ Node (L_main_part1_s0 (F := F) ) (WR_main_part1_s0 ) :=
  .cons (node_nullary ..) (.cons (node_unary ..) (.cons (node_nullary ..) (.cons (node_unary ..) (.cons (node_ternary ..) (.cons (node_nullary ..) (.cons (node_unary ..) (.cons (node_binary ..) (.cons (node_binary ..) (.cons (node_nullary ..) (.cons (node_unary ..) (.cons (node_binary ..) (.cons (node_binary ..) (.cons (node_binary ..) (.cons (node_binary ..) (.cons (node_binary ..) (.nil))))))))))))))))

noncomputable def L_main_part1_s1  : List (HloOp τ sig (Elt F)) :=
  [ StableHlo.unary main_v58 main_v59 ((extractStridedSlice S1x2 ![0, 0] · slices_S2x2_S1x2_0_0) : (⟨S2x2, .i32⟩ : BufTy).Contents (Elt F) → (⟨S1x2, .i32⟩ : BufTy).Contents (Elt F)),
    StableHlo.reshape main_v59 main_v60 rfl shapeCasts_S1x2_S2,
    StableHlo.unary main_v58 main_v61 ((extractStridedSlice S1x2 ![1, 0] · slices_S2x2_S1x2_1_0) : (⟨S2x2, .i32⟩ : BufTy).Contents (Elt F) → (⟨S1x2, .i32⟩ : BufTy).Contents (Elt F)),
    StableHlo.reshape main_v61 main_v62 rfl shapeCasts_S1x2_S2,
    StableHlo.nullary main_cst_16 (constant S_ .f32 0x00000000#32),
    StableHlo.nullary main_cst_17 (constant S_ .f32 0x3F800000#32) ]

theorem P_main_part1_s1  : (L_main_part1_s1 (F := F) ).Forall OpOk := by
  unfold L_main_part1_s1
  exact ⟨⟨unary_bufs_sub .., rfl⟩, ⟨reshape_bufs_sub .., rfl⟩, ⟨unary_bufs_sub .., rfl⟩, ⟨reshape_bufs_sub .., rfl⟩, ⟨nullary_bufs_sub .., rfl⟩, ⟨nullary_bufs_sub .., rfl⟩⟩

noncomputable def WR_main_part1_s1  : List (Ref sig .tc × List (Ref sig .tc)) :=
  [ (main_v59, [main_v58]),
    (main_v60, [main_v59]),
    (main_v61, [main_v58]),
    (main_v62, [main_v61]),
    (main_cst_16, []),
    (main_cst_17, []) ]

theorem Nd_main_part1_s1  : List.Forall₂ Node (L_main_part1_s1 (F := F) ) (WR_main_part1_s1 ) :=
  .cons (node_unary ..) (.cons (node_reshape ..) (.cons (node_unary ..) (.cons (node_reshape ..) (.cons (node_nullary ..) (.cons (node_nullary ..) (.nil))))))

noncomputable def L_main_part1_s2  : List (HloOp τ sig (Elt F)) :=
  [ StableHlo.unary main_v57 main_v64 (Host.negf : (⟨S128, .f32⟩ : BufTy).Contents (Elt F) → (⟨S128, .f32⟩ : BufTy).Contents (Elt F)),
    StableHlo.unary main_v64 main_v65 (Host.exp : (⟨S128, .f32⟩ : BufTy).Contents (Elt F) → (⟨S128, .f32⟩ : BufTy).Contents (Elt F)),
    StableHlo.nullary main_cst_18 (constant S_ .f32 0x3F800000#32),
    StableHlo.unary main_cst_18 main_v66 (broadcastInDim S128 ![] bcast_S_S128 : (⟨S_, .f32⟩ : BufTy).Contents (Elt F) → (⟨S128, .f32⟩ : BufTy).Contents (Elt F)),
    StableHlo.binary main_v66 main_v65 main_v67 (addf : (⟨S128, .f32⟩ : BufTy).Contents (Elt F) → (⟨S128, .f32⟩ : BufTy).Contents (Elt F) → (⟨S128, .f32⟩ : BufTy).Contents (Elt F)),
    StableHlo.nullary main_cst_19 (constant S_ .f32 0x3F800000#32),
    StableHlo.unary main_cst_19 main_v68 (broadcastInDim S128 ![] bcast_S_S128 : (⟨S_, .f32⟩ : BufTy).Contents (Elt F) → (⟨S128, .f32⟩ : BufTy).Contents (Elt F)),
    StableHlo.binary main_v68 main_v67 main_v69 (Host.divf : (⟨S128, .f32⟩ : BufTy).Contents (Elt F) → (⟨S128, .f32⟩ : BufTy).Contents (Elt F) → (⟨S128, .f32⟩ : BufTy).Contents (Elt F)),
    StableHlo.binary main_v63 main_v69 main_v70 (cmpf .olt : (⟨S128, .f32⟩ : BufTy).Contents (Elt F) → (⟨S128, .f32⟩ : BufTy).Contents (Elt F) → (⟨S128, .i1⟩ : BufTy).Contents (Elt F)),
    StableHlo.unary main_v70 main_v71 (uitofp .f32 : (⟨S128, .i1⟩ : BufTy).Contents (Elt F) → (⟨S128, .f32⟩ : BufTy).Contents (Elt F)),
    StableHlo.unary main_v71 main_v72 (broadcastInDim S128x1 ![0] bcast_S128_S128x1_0 : (⟨S128, .f32⟩ : BufTy).Contents (Elt F) → (⟨S128x1, .f32⟩ : BufTy).Contents (Elt F)),
    StableHlo.unary main_v72 main_v73 (broadcastInDim S128x4096 ![0, 1] bcast_S128x1_S128x4096_0_1 : (⟨S128x1, .f32⟩ : BufTy).Contents (Elt F) → (⟨S128x4096, .f32⟩ : BufTy).Contents (Elt F)),
    StableHlo.binary main_v55 main_v73 main_v74 (mulf : (⟨S128x4096, .f32⟩ : BufTy).Contents (Elt F) → (⟨S128x4096, .f32⟩ : BufTy).Contents (Elt F) → (⟨S128x4096, .f32⟩ : BufTy).Contents (Elt F)),
    StableHlo.unary main_v71 main_v75 (broadcastInDim S128x1 ![0] bcast_S128_S128x1_0 : (⟨S128, .f32⟩ : BufTy).Contents (Elt F) → (⟨S128x1, .f32⟩ : BufTy).Contents (Elt F)),
    StableHlo.nullary main_cst_20 (constant S_ .f32 0x3F800000#32),
    StableHlo.unary main_cst_20 main_v76 (broadcastInDim S128x1 ![] bcast_S_S128x1 : (⟨S_, .f32⟩ : BufTy).Contents (Elt F) → (⟨S128x1, .f32⟩ : BufTy).Contents (Elt F)),
    StableHlo.binary main_v76 main_v75 main_v77 (subf : (⟨S128x1, .f32⟩ : BufTy).Contents (Elt F) → (⟨S128x1, .f32⟩ : BufTy).Contents (Elt F) → (⟨S128x1, .f32⟩ : BufTy).Contents (Elt F)),
    StableHlo.unary main_v77 main_v78 (broadcastInDim S128x4096 ![0, 1] bcast_S128x1_S128x4096_0_1 : (⟨S128x1, .f32⟩ : BufTy).Contents (Elt F) → (⟨S128x4096, .f32⟩ : BufTy).Contents (Elt F)),
    StableHlo.binary main_v43 main_v78 main_v79 (mulf : (⟨S128x4096, .f32⟩ : BufTy).Contents (Elt F) → (⟨S128x4096, .f32⟩ : BufTy).Contents (Elt F) → (⟨S128x4096, .f32⟩ : BufTy).Contents (Elt F)),
    StableHlo.binary main_v74 main_v79 main_v80 (addf : (⟨S128x4096, .f32⟩ : BufTy).Contents (Elt F) → (⟨S128x4096, .f32⟩ : BufTy).Contents (Elt F) → (⟨S128x4096, .f32⟩ : BufTy).Contents (Elt F)),
    StableHlo.binary main_v80 main_arg1 main_v81 ((fun l r => Host.dotGeneral dot_S128x4096_S4096_S128_1_0_0_n_n_n none l r) : (⟨S128x4096, .f32⟩ : BufTy).Contents (Elt F) → (⟨S4096, .f32⟩ : BufTy).Contents (Elt F) → (⟨S128, .f32⟩ : BufTy).Contents (Elt F)),
    StableHlo.nullary main_cst_21 (constant S_ .f32 0x00000000#32),
    StableHlo.unary main_cst_21 main_v82 (broadcastInDim S128x4096 ![] bcast_S_S128x4096 : (⟨S_, .f32⟩ : BufTy).Contents (Elt F) → (⟨S128x4096, .f32⟩ : BufTy).Contents (Elt F)),
    StableHlo.nullary main_c_22 (constantI S_ 32 2#32),
    StableHlo.unary main_c_22 main_v83 (broadcastInDim S1 ![] bcast_S_S1 : (⟨S_, .i32⟩ : BufTy).Contents (Elt F) → (⟨S1, .i32⟩ : BufTy).Contents (Elt F)),
    StableHlo.nullary main_cst_23 (constant S_ .f32 0x3F800000#32),
    StableHlo.unary main_cst_23 main_v84 (broadcastInDim S128 ![] bcast_S_S128 : (⟨S_, .f32⟩ : BufTy).Contents (Elt F) → (⟨S128, .f32⟩ : BufTy).Contents (Elt F)),
    StableHlo.ternary main_v82 main_v83 main_v84 main_v85 ((fun x i u => Host.scatter scatter_S128x4096_S1_S128_0_1_1_0 (fun _ b => b) x i u) : (⟨S128x4096, .f32⟩ : BufTy).Contents (Elt F) → (⟨S1, .i32⟩ : BufTy).Contents (Elt F) → (⟨S128, .f32⟩ : BufTy).Contents (Elt F) → (⟨S128x4096, .f32⟩ : BufTy).Contents (Elt F)),
    StableHlo.nullary main_cst_24 (constant S_ .f32 0x3F800000#32),
    StableHlo.unary main_cst_24 main_v86 (broadcastInDim S128x4096 ![] bcast_S_S128x4096 : (⟨S_, .f32⟩ : BufTy).Contents (Elt F) → (⟨S128x4096, .f32⟩ : BufTy).Contents (Elt F)),
    StableHlo.binary main_v86 main_v85 main_v87 (subf : (⟨S128x4096, .f32⟩ : BufTy).Contents (Elt F) → (⟨S128x4096, .f32⟩ : BufTy).Contents (Elt F) → (⟨S128x4096, .f32⟩ : BufTy).Contents (Elt F)),
    StableHlo.binary main_v87 main_v80 main_v88 (mulf : (⟨S128x4096, .f32⟩ : BufTy).Contents (Elt F) → (⟨S128x4096, .f32⟩ : BufTy).Contents (Elt F) → (⟨S128x4096, .f32⟩ : BufTy).Contents (Elt F)),
    StableHlo.nullary main_cst_25 (constant S_ .f32 0x3F800000#32),
    StableHlo.unary main_cst_25 main_v89 (broadcastInDim S128x4096 ![] bcast_S_S128x4096 : (⟨S_, .f32⟩ : BufTy).Contents (Elt F) → (⟨S128x4096, .f32⟩ : BufTy).Contents (Elt F)),
    StableHlo.binary main_v89 main_v80 main_v90 (subf : (⟨S128x4096, .f32⟩ : BufTy).Contents (Elt F) → (⟨S128x4096, .f32⟩ : BufTy).Contents (Elt F) → (⟨S128x4096, .f32⟩ : BufTy).Contents (Elt F)),
    StableHlo.binary main_v85 main_v90 main_v91 (mulf : (⟨S128x4096, .f32⟩ : BufTy).Contents (Elt F) → (⟨S128x4096, .f32⟩ : BufTy).Contents (Elt F) → (⟨S128x4096, .f32⟩ : BufTy).Contents (Elt F)) ]

theorem P_main_part1_s2  : (L_main_part1_s2 (F := F) ).Forall OpOk := by
  unfold L_main_part1_s2
  exact ⟨⟨unary_bufs_sub .., rfl⟩, ⟨unary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨unary_bufs_sub .., rfl⟩, ⟨unary_bufs_sub .., rfl⟩, ⟨unary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩, ⟨binary_bufs_sub .., rfl⟩, ⟨binary_bufs_sub .., rfl⟩, ⟨nullary_bufs_sub .., rfl⟩, ⟨unary_bufs_sub .., rfl⟩, ⟨nullary_bufs_sub .., rfl⟩, ⟨unary_bufs_sub .., rfl⟩, ⟨nullary_bufs_sub .., rfl⟩, ⟨unary_bufs_sub .., rfl⟩, ⟨ternary_bufs_sub .., rfl⟩, ⟨nullary_bufs_sub .., rfl⟩, ⟨unary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩⟩

noncomputable def WR_main_part1_s2  : List (Ref sig .tc × List (Ref sig .tc)) :=
  [ (main_v64, [main_v57]),
    (main_v65, [main_v64]),
    (main_cst_18, []),
    (main_v66, [main_cst_18]),
    (main_v67, [main_v66, main_v65]),
    (main_cst_19, []),
    (main_v68, [main_cst_19]),
    (main_v69, [main_v68, main_v67]),
    (main_v70, [main_v63, main_v69]),
    (main_v71, [main_v70]),
    (main_v72, [main_v71]),
    (main_v73, [main_v72]),
    (main_v74, [main_v55, main_v73]),
    (main_v75, [main_v71]),
    (main_cst_20, []),
    (main_v76, [main_cst_20]),
    (main_v77, [main_v76, main_v75]),
    (main_v78, [main_v77]),
    (main_v79, [main_v43, main_v78]),
    (main_v80, [main_v74, main_v79]),
    (main_v81, [main_v80, main_arg1]),
    (main_cst_21, []),
    (main_v82, [main_cst_21]),
    (main_c_22, []),
    (main_v83, [main_c_22]),
    (main_cst_23, []),
    (main_v84, [main_cst_23]),
    (main_v85, [main_v82, main_v83, main_v84]),
    (main_cst_24, []),
    (main_v86, [main_cst_24]),
    (main_v87, [main_v86, main_v85]),
    (main_v88, [main_v87, main_v80]),
    (main_cst_25, []),
    (main_v89, [main_cst_25]),
    (main_v90, [main_v89, main_v80]),
    (main_v91, [main_v85, main_v90]) ]

theorem Nd_main_part1_s2  : List.Forall₂ Node (L_main_part1_s2 (F := F) ) (WR_main_part1_s2 ) :=
  .cons (node_unary ..) (.cons (node_unary ..) (.cons (node_nullary ..) (.cons (node_unary ..) (.cons (node_binary ..) (.cons (node_nullary ..) (.cons (node_unary ..) (.cons (node_binary ..) (.cons (node_binary ..) (.cons (node_unary ..) (.cons (node_unary ..) (.cons (node_unary ..) (.cons (node_binary ..) (.cons (node_unary ..) (.cons (node_nullary ..) (.cons (node_unary ..) (.cons (node_binary ..) (.cons (node_unary ..) (.cons (node_binary ..) (.cons (node_binary ..) (.cons (node_binary ..) (.cons (node_nullary ..) (.cons (node_unary ..) (.cons (node_nullary ..) (.cons (node_unary ..) (.cons (node_nullary ..) (.cons (node_unary ..) (.cons (node_ternary ..) (.cons (node_nullary ..) (.cons (node_unary ..) (.cons (node_binary ..) (.cons (node_binary ..) (.cons (node_nullary ..) (.cons (node_unary ..) (.cons (node_binary ..) (.cons (node_binary ..) (.nil))))))))))))))))))))))))))))))))))))

noncomputable def L_main_part1  : List (HloOp τ sig (Elt F)) :=
  (L_main_part1_s0) ++ ((L_fn_threefry_split_1_body (.of main_v23) main_call2) ++ ((L_main_part1_s1) ++ ((L_fn_uniform_body (.of main_v62) (.of main_cst_16) (.of main_cst_17) main_call3) ++ ((L_main_part1_s2)))))

theorem P_main_part1  : (L_main_part1 (F := F) ).Forall OpOk :=
  forall_append (P_main_part1_s0) (forall_append (P_fn_threefry_split_1_body (.of main_v23) main_call2) (forall_append (P_main_part1_s1) (forall_append (P_fn_uniform_body (.of main_v62) (.of main_cst_16) (.of main_cst_17) main_call3) ((P_main_part1_s2)))))

noncomputable def WR_main_part1  : List (Ref sig .tc × List (Ref sig .tc)) :=
  (WR_main_part1_s0) ++ ((WR_fn_threefry_split_1_body (.of main_v23) main_call2) ++ ((WR_main_part1_s1) ++ ((WR_fn_uniform_body (.of main_v62) (.of main_cst_16) (.of main_cst_17) main_call3) ++ ((WR_main_part1_s2)))))

theorem Nd_main_part1  : List.Forall₂ Node (L_main_part1 (F := F) ) (WR_main_part1 ) :=
  f2_append (Nd_main_part1_s0) (f2_append (Nd_fn_threefry_split_1_body (.of main_v23) main_call2) (f2_append (Nd_main_part1_s1) (f2_append (Nd_fn_uniform_body (.of main_v62) (.of main_cst_16) (.of main_cst_17) main_call3) ((Nd_main_part1_s2)))))

theorem E_main_part1 (d : Dev nD) : main_part1 (F := F) d = seq (L_main_part1 ) := by
  simp only [main_part1, L_main_part1, seq_append, E_fn_threefry_split_1_body, E_fn_uniform_body, L_main_part1_s0, L_main_part1_s1, L_main_part1_s2, seq, bind_assoc, pure_bind]
  try rfl

end Cert.ReferenceIdeal.Hand

end
-- ==== Proof.RefOpsM2.lean ====
import proofs.«213024_g80238579024365_cont_9to1c4b_497_7_alg».proof.Proof.RefOpsFns

set_option maxRecDepth 16384
set_option maxHeartbeats 4000000

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

noncomputable def L_main_part2_s0  : List (HloOp τ sig (Elt F)) :=
  [ StableHlo.binary main_v88 main_v91 main_v92 (addf : (⟨S128x4096, .f32⟩ : BufTy).Contents (Elt F) → (⟨S128x4096, .f32⟩ : BufTy).Contents (Elt F) → (⟨S128x4096, .f32⟩ : BufTy).Contents (Elt F)),
    StableHlo.binary main_v92 main_arg1 main_v93 ((fun l r => Host.dotGeneral dot_S128x4096_S4096_S128_1_0_0_n_n_n none l r) : (⟨S128x4096, .f32⟩ : BufTy).Contents (Elt F) → (⟨S4096, .f32⟩ : BufTy).Contents (Elt F) → (⟨S128, .f32⟩ : BufTy).Contents (Elt F)),
    StableHlo.binary main_v93 main_v81 main_v94 (subf : (⟨S128, .f32⟩ : BufTy).Contents (Elt F) → (⟨S128, .f32⟩ : BufTy).Contents (Elt F) → (⟨S128, .f32⟩ : BufTy).Contents (Elt F)) ]

theorem P_main_part2_s0  : (L_main_part2_s0 (F := F) ).Forall OpOk := by
  unfold L_main_part2_s0
  exact ⟨⟨binary_bufs_sub .., rfl⟩, ⟨binary_bufs_sub .., rfl⟩, ⟨binary_bufs_sub .., rfl⟩⟩

noncomputable def WR_main_part2_s0  : List (Ref sig .tc × List (Ref sig .tc)) :=
  [ (main_v92, [main_v88, main_v91]),
    (main_v93, [main_v92, main_arg1]),
    (main_v94, [main_v93, main_v81]) ]

theorem Nd_main_part2_s0  : List.Forall₂ Node (L_main_part2_s0 (F := F) ) (WR_main_part2_s0 ) :=
  .cons (node_binary ..) (.cons (node_binary ..) (.cons (node_binary ..) (.nil)))

noncomputable def L_main_part2_s1  : List (HloOp τ sig (Elt F)) :=
  [ StableHlo.unary main_v95 main_v96 ((extractStridedSlice S1x2 ![0, 0] · slices_S2x2_S1x2_0_0) : (⟨S2x2, .i32⟩ : BufTy).Contents (Elt F) → (⟨S1x2, .i32⟩ : BufTy).Contents (Elt F)),
    StableHlo.reshape main_v96 main_v97 rfl shapeCasts_S1x2_S2,
    StableHlo.unary main_v95 main_v98 ((extractStridedSlice S1x2 ![1, 0] · slices_S2x2_S1x2_1_0) : (⟨S2x2, .i32⟩ : BufTy).Contents (Elt F) → (⟨S1x2, .i32⟩ : BufTy).Contents (Elt F)),
    StableHlo.reshape main_v98 main_v99 rfl shapeCasts_S1x2_S2,
    StableHlo.nullary main_cst_26 (constant S_ .f32 0x00000000#32),
    StableHlo.nullary main_cst_27 (constant S_ .f32 0x3F800000#32) ]

theorem P_main_part2_s1  : (L_main_part2_s1 (F := F) ).Forall OpOk := by
  unfold L_main_part2_s1
  exact ⟨⟨unary_bufs_sub .., rfl⟩, ⟨reshape_bufs_sub .., rfl⟩, ⟨unary_bufs_sub .., rfl⟩, ⟨reshape_bufs_sub .., rfl⟩, ⟨nullary_bufs_sub .., rfl⟩, ⟨nullary_bufs_sub .., rfl⟩⟩

noncomputable def WR_main_part2_s1  : List (Ref sig .tc × List (Ref sig .tc)) :=
  [ (main_v96, [main_v95]),
    (main_v97, [main_v96]),
    (main_v98, [main_v95]),
    (main_v99, [main_v98]),
    (main_cst_26, []),
    (main_cst_27, []) ]

theorem Nd_main_part2_s1  : List.Forall₂ Node (L_main_part2_s1 (F := F) ) (WR_main_part2_s1 ) :=
  .cons (node_unary ..) (.cons (node_reshape ..) (.cons (node_unary ..) (.cons (node_reshape ..) (.cons (node_nullary ..) (.cons (node_nullary ..) (.nil))))))

noncomputable def L_main_part2_s2  : List (HloOp τ sig (Elt F)) :=
  [ StableHlo.unary main_v94 main_v101 (Host.negf : (⟨S128, .f32⟩ : BufTy).Contents (Elt F) → (⟨S128, .f32⟩ : BufTy).Contents (Elt F)),
    StableHlo.unary main_v101 main_v102 (Host.exp : (⟨S128, .f32⟩ : BufTy).Contents (Elt F) → (⟨S128, .f32⟩ : BufTy).Contents (Elt F)),
    StableHlo.nullary main_cst_28 (constant S_ .f32 0x3F800000#32),
    StableHlo.unary main_cst_28 main_v103 (broadcastInDim S128 ![] bcast_S_S128 : (⟨S_, .f32⟩ : BufTy).Contents (Elt F) → (⟨S128, .f32⟩ : BufTy).Contents (Elt F)),
    StableHlo.binary main_v103 main_v102 main_v104 (addf : (⟨S128, .f32⟩ : BufTy).Contents (Elt F) → (⟨S128, .f32⟩ : BufTy).Contents (Elt F) → (⟨S128, .f32⟩ : BufTy).Contents (Elt F)),
    StableHlo.nullary main_cst_29 (constant S_ .f32 0x3F800000#32),
    StableHlo.unary main_cst_29 main_v105 (broadcastInDim S128 ![] bcast_S_S128 : (⟨S_, .f32⟩ : BufTy).Contents (Elt F) → (⟨S128, .f32⟩ : BufTy).Contents (Elt F)),
    StableHlo.binary main_v105 main_v104 main_v106 (Host.divf : (⟨S128, .f32⟩ : BufTy).Contents (Elt F) → (⟨S128, .f32⟩ : BufTy).Contents (Elt F) → (⟨S128, .f32⟩ : BufTy).Contents (Elt F)),
    StableHlo.binary main_v100 main_v106 main_v107 (cmpf .olt : (⟨S128, .f32⟩ : BufTy).Contents (Elt F) → (⟨S128, .f32⟩ : BufTy).Contents (Elt F) → (⟨S128, .i1⟩ : BufTy).Contents (Elt F)),
    StableHlo.unary main_v107 main_v108 (uitofp .f32 : (⟨S128, .i1⟩ : BufTy).Contents (Elt F) → (⟨S128, .f32⟩ : BufTy).Contents (Elt F)),
    StableHlo.unary main_v108 main_v109 (broadcastInDim S128x1 ![0] bcast_S128_S128x1_0 : (⟨S128, .f32⟩ : BufTy).Contents (Elt F) → (⟨S128x1, .f32⟩ : BufTy).Contents (Elt F)),
    StableHlo.unary main_v109 main_v110 (broadcastInDim S128x4096 ![0, 1] bcast_S128x1_S128x4096_0_1 : (⟨S128x1, .f32⟩ : BufTy).Contents (Elt F) → (⟨S128x4096, .f32⟩ : BufTy).Contents (Elt F)),
    StableHlo.binary main_v92 main_v110 main_v111 (mulf : (⟨S128x4096, .f32⟩ : BufTy).Contents (Elt F) → (⟨S128x4096, .f32⟩ : BufTy).Contents (Elt F) → (⟨S128x4096, .f32⟩ : BufTy).Contents (Elt F)),
    StableHlo.unary main_v108 main_v112 (broadcastInDim S128x1 ![0] bcast_S128_S128x1_0 : (⟨S128, .f32⟩ : BufTy).Contents (Elt F) → (⟨S128x1, .f32⟩ : BufTy).Contents (Elt F)),
    StableHlo.nullary main_cst_30 (constant S_ .f32 0x3F800000#32),
    StableHlo.unary main_cst_30 main_v113 (broadcastInDim S128x1 ![] bcast_S_S128x1 : (⟨S_, .f32⟩ : BufTy).Contents (Elt F) → (⟨S128x1, .f32⟩ : BufTy).Contents (Elt F)),
    StableHlo.binary main_v113 main_v112 main_v114 (subf : (⟨S128x1, .f32⟩ : BufTy).Contents (Elt F) → (⟨S128x1, .f32⟩ : BufTy).Contents (Elt F) → (⟨S128x1, .f32⟩ : BufTy).Contents (Elt F)),
    StableHlo.unary main_v114 main_v115 (broadcastInDim S128x4096 ![0, 1] bcast_S128x1_S128x4096_0_1 : (⟨S128x1, .f32⟩ : BufTy).Contents (Elt F) → (⟨S128x4096, .f32⟩ : BufTy).Contents (Elt F)),
    StableHlo.binary main_v80 main_v115 main_v116 (mulf : (⟨S128x4096, .f32⟩ : BufTy).Contents (Elt F) → (⟨S128x4096, .f32⟩ : BufTy).Contents (Elt F) → (⟨S128x4096, .f32⟩ : BufTy).Contents (Elt F)),
    StableHlo.binary main_v111 main_v116 main_v117 (addf : (⟨S128x4096, .f32⟩ : BufTy).Contents (Elt F) → (⟨S128x4096, .f32⟩ : BufTy).Contents (Elt F) → (⟨S128x4096, .f32⟩ : BufTy).Contents (Elt F)),
    StableHlo.binary main_v117 main_arg1 main_v118 ((fun l r => Host.dotGeneral dot_S128x4096_S4096_S128_1_0_0_n_n_n none l r) : (⟨S128x4096, .f32⟩ : BufTy).Contents (Elt F) → (⟨S4096, .f32⟩ : BufTy).Contents (Elt F) → (⟨S128, .f32⟩ : BufTy).Contents (Elt F)),
    StableHlo.nullary main_cst_31 (constant S_ .f32 0x00000000#32),
    StableHlo.unary main_cst_31 main_v119 (broadcastInDim S128x4096 ![] bcast_S_S128x4096 : (⟨S_, .f32⟩ : BufTy).Contents (Elt F) → (⟨S128x4096, .f32⟩ : BufTy).Contents (Elt F)),
    StableHlo.nullary main_c_32 (constantI S_ 32 3#32),
    StableHlo.unary main_c_32 main_v120 (broadcastInDim S1 ![] bcast_S_S1 : (⟨S_, .i32⟩ : BufTy).Contents (Elt F) → (⟨S1, .i32⟩ : BufTy).Contents (Elt F)),
    StableHlo.nullary main_cst_33 (constant S_ .f32 0x3F800000#32),
    StableHlo.unary main_cst_33 main_v121 (broadcastInDim S128 ![] bcast_S_S128 : (⟨S_, .f32⟩ : BufTy).Contents (Elt F) → (⟨S128, .f32⟩ : BufTy).Contents (Elt F)),
    StableHlo.ternary main_v119 main_v120 main_v121 main_v122 ((fun x i u => Host.scatter scatter_S128x4096_S1_S128_0_1_1_0 (fun _ b => b) x i u) : (⟨S128x4096, .f32⟩ : BufTy).Contents (Elt F) → (⟨S1, .i32⟩ : BufTy).Contents (Elt F) → (⟨S128, .f32⟩ : BufTy).Contents (Elt F) → (⟨S128x4096, .f32⟩ : BufTy).Contents (Elt F)),
    StableHlo.nullary main_cst_34 (constant S_ .f32 0x3F800000#32),
    StableHlo.unary main_cst_34 main_v123 (broadcastInDim S128x4096 ![] bcast_S_S128x4096 : (⟨S_, .f32⟩ : BufTy).Contents (Elt F) → (⟨S128x4096, .f32⟩ : BufTy).Contents (Elt F)),
    StableHlo.binary main_v123 main_v122 main_v124 (subf : (⟨S128x4096, .f32⟩ : BufTy).Contents (Elt F) → (⟨S128x4096, .f32⟩ : BufTy).Contents (Elt F) → (⟨S128x4096, .f32⟩ : BufTy).Contents (Elt F)),
    StableHlo.binary main_v124 main_v117 main_v125 (mulf : (⟨S128x4096, .f32⟩ : BufTy).Contents (Elt F) → (⟨S128x4096, .f32⟩ : BufTy).Contents (Elt F) → (⟨S128x4096, .f32⟩ : BufTy).Contents (Elt F)),
    StableHlo.nullary main_cst_35 (constant S_ .f32 0x3F800000#32),
    StableHlo.unary main_cst_35 main_v126 (broadcastInDim S128x4096 ![] bcast_S_S128x4096 : (⟨S_, .f32⟩ : BufTy).Contents (Elt F) → (⟨S128x4096, .f32⟩ : BufTy).Contents (Elt F)),
    StableHlo.binary main_v126 main_v117 main_v127 (subf : (⟨S128x4096, .f32⟩ : BufTy).Contents (Elt F) → (⟨S128x4096, .f32⟩ : BufTy).Contents (Elt F) → (⟨S128x4096, .f32⟩ : BufTy).Contents (Elt F)),
    StableHlo.binary main_v122 main_v127 main_v128 (mulf : (⟨S128x4096, .f32⟩ : BufTy).Contents (Elt F) → (⟨S128x4096, .f32⟩ : BufTy).Contents (Elt F) → (⟨S128x4096, .f32⟩ : BufTy).Contents (Elt F)),
    StableHlo.binary main_v125 main_v128 main_v129 (addf : (⟨S128x4096, .f32⟩ : BufTy).Contents (Elt F) → (⟨S128x4096, .f32⟩ : BufTy).Contents (Elt F) → (⟨S128x4096, .f32⟩ : BufTy).Contents (Elt F)),
    StableHlo.binary main_v129 main_arg1 main_v130 ((fun l r => Host.dotGeneral dot_S128x4096_S4096_S128_1_0_0_n_n_n none l r) : (⟨S128x4096, .f32⟩ : BufTy).Contents (Elt F) → (⟨S4096, .f32⟩ : BufTy).Contents (Elt F) → (⟨S128, .f32⟩ : BufTy).Contents (Elt F)),
    StableHlo.binary main_v130 main_v118 main_v131 (subf : (⟨S128, .f32⟩ : BufTy).Contents (Elt F) → (⟨S128, .f32⟩ : BufTy).Contents (Elt F) → (⟨S128, .f32⟩ : BufTy).Contents (Elt F)) ]

theorem P_main_part2_s2  : (L_main_part2_s2 (F := F) ).Forall OpOk := by
  unfold L_main_part2_s2
  exact ⟨⟨unary_bufs_sub .., rfl⟩, ⟨unary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨unary_bufs_sub .., rfl⟩, ⟨unary_bufs_sub .., rfl⟩, ⟨unary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩, ⟨binary_bufs_sub .., rfl⟩, ⟨binary_bufs_sub .., rfl⟩, ⟨nullary_bufs_sub .., rfl⟩, ⟨unary_bufs_sub .., rfl⟩, ⟨nullary_bufs_sub .., rfl⟩, ⟨unary_bufs_sub .., rfl⟩, ⟨nullary_bufs_sub .., rfl⟩, ⟨unary_bufs_sub .., rfl⟩, ⟨ternary_bufs_sub .., rfl⟩, ⟨nullary_bufs_sub .., rfl⟩, ⟨unary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩, ⟨binary_bufs_sub .., rfl⟩⟩

noncomputable def WR_main_part2_s2  : List (Ref sig .tc × List (Ref sig .tc)) :=
  [ (main_v101, [main_v94]),
    (main_v102, [main_v101]),
    (main_cst_28, []),
    (main_v103, [main_cst_28]),
    (main_v104, [main_v103, main_v102]),
    (main_cst_29, []),
    (main_v105, [main_cst_29]),
    (main_v106, [main_v105, main_v104]),
    (main_v107, [main_v100, main_v106]),
    (main_v108, [main_v107]),
    (main_v109, [main_v108]),
    (main_v110, [main_v109]),
    (main_v111, [main_v92, main_v110]),
    (main_v112, [main_v108]),
    (main_cst_30, []),
    (main_v113, [main_cst_30]),
    (main_v114, [main_v113, main_v112]),
    (main_v115, [main_v114]),
    (main_v116, [main_v80, main_v115]),
    (main_v117, [main_v111, main_v116]),
    (main_v118, [main_v117, main_arg1]),
    (main_cst_31, []),
    (main_v119, [main_cst_31]),
    (main_c_32, []),
    (main_v120, [main_c_32]),
    (main_cst_33, []),
    (main_v121, [main_cst_33]),
    (main_v122, [main_v119, main_v120, main_v121]),
    (main_cst_34, []),
    (main_v123, [main_cst_34]),
    (main_v124, [main_v123, main_v122]),
    (main_v125, [main_v124, main_v117]),
    (main_cst_35, []),
    (main_v126, [main_cst_35]),
    (main_v127, [main_v126, main_v117]),
    (main_v128, [main_v122, main_v127]),
    (main_v129, [main_v125, main_v128]),
    (main_v130, [main_v129, main_arg1]),
    (main_v131, [main_v130, main_v118]) ]

theorem Nd_main_part2_s2  : List.Forall₂ Node (L_main_part2_s2 (F := F) ) (WR_main_part2_s2 ) :=
  .cons (node_unary ..) (.cons (node_unary ..) (.cons (node_nullary ..) (.cons (node_unary ..) (.cons (node_binary ..) (.cons (node_nullary ..) (.cons (node_unary ..) (.cons (node_binary ..) (.cons (node_binary ..) (.cons (node_unary ..) (.cons (node_unary ..) (.cons (node_unary ..) (.cons (node_binary ..) (.cons (node_unary ..) (.cons (node_nullary ..) (.cons (node_unary ..) (.cons (node_binary ..) (.cons (node_unary ..) (.cons (node_binary ..) (.cons (node_binary ..) (.cons (node_binary ..) (.cons (node_nullary ..) (.cons (node_unary ..) (.cons (node_nullary ..) (.cons (node_unary ..) (.cons (node_nullary ..) (.cons (node_unary ..) (.cons (node_ternary ..) (.cons (node_nullary ..) (.cons (node_unary ..) (.cons (node_binary ..) (.cons (node_binary ..) (.cons (node_nullary ..) (.cons (node_unary ..) (.cons (node_binary ..) (.cons (node_binary ..) (.cons (node_binary ..) (.cons (node_binary ..) (.cons (node_binary ..) (.nil)))))))))))))))))))))))))))))))))))))))

noncomputable def L_main_part2_s3  : List (HloOp τ sig (Elt F)) :=
  [ StableHlo.unary main_v132 main_v133 ((extractStridedSlice S1x2 ![0, 0] · slices_S2x2_S1x2_0_0) : (⟨S2x2, .i32⟩ : BufTy).Contents (Elt F) → (⟨S1x2, .i32⟩ : BufTy).Contents (Elt F)),
    StableHlo.reshape main_v133 main_v134 rfl shapeCasts_S1x2_S2,
    StableHlo.unary main_v132 main_v135 ((extractStridedSlice S1x2 ![1, 0] · slices_S2x2_S1x2_1_0) : (⟨S2x2, .i32⟩ : BufTy).Contents (Elt F) → (⟨S1x2, .i32⟩ : BufTy).Contents (Elt F)),
    StableHlo.reshape main_v135 main_v136 rfl shapeCasts_S1x2_S2,
    StableHlo.nullary main_cst_36 (constant S_ .f32 0x00000000#32),
    StableHlo.nullary main_cst_37 (constant S_ .f32 0x3F800000#32) ]

theorem P_main_part2_s3  : (L_main_part2_s3 (F := F) ).Forall OpOk := by
  unfold L_main_part2_s3
  exact ⟨⟨unary_bufs_sub .., rfl⟩, ⟨reshape_bufs_sub .., rfl⟩, ⟨unary_bufs_sub .., rfl⟩, ⟨reshape_bufs_sub .., rfl⟩, ⟨nullary_bufs_sub .., rfl⟩, ⟨nullary_bufs_sub .., rfl⟩⟩

noncomputable def WR_main_part2_s3  : List (Ref sig .tc × List (Ref sig .tc)) :=
  [ (main_v133, [main_v132]),
    (main_v134, [main_v133]),
    (main_v135, [main_v132]),
    (main_v136, [main_v135]),
    (main_cst_36, []),
    (main_cst_37, []) ]

theorem Nd_main_part2_s3  : List.Forall₂ Node (L_main_part2_s3 (F := F) ) (WR_main_part2_s3 ) :=
  .cons (node_unary ..) (.cons (node_reshape ..) (.cons (node_unary ..) (.cons (node_reshape ..) (.cons (node_nullary ..) (.cons (node_nullary ..) (.nil))))))

noncomputable def L_main_part2_s4  : List (HloOp τ sig (Elt F)) :=
  [ StableHlo.unary main_v131 main_v138 (Host.negf : (⟨S128, .f32⟩ : BufTy).Contents (Elt F) → (⟨S128, .f32⟩ : BufTy).Contents (Elt F)),
    StableHlo.unary main_v138 main_v139 (Host.exp : (⟨S128, .f32⟩ : BufTy).Contents (Elt F) → (⟨S128, .f32⟩ : BufTy).Contents (Elt F)) ]

theorem P_main_part2_s4  : (L_main_part2_s4 (F := F) ).Forall OpOk := by
  unfold L_main_part2_s4
  exact ⟨⟨unary_bufs_sub .., rfl⟩, ⟨unary_bufs_sub .., rfl⟩⟩

noncomputable def WR_main_part2_s4  : List (Ref sig .tc × List (Ref sig .tc)) :=
  [ (main_v138, [main_v131]),
    (main_v139, [main_v138]) ]

theorem Nd_main_part2_s4  : List.Forall₂ Node (L_main_part2_s4 (F := F) ) (WR_main_part2_s4 ) :=
  .cons (node_unary ..) (.cons (node_unary ..) (.nil))

noncomputable def L_main_part2  : List (HloOp τ sig (Elt F)) :=
  (L_main_part2_s0) ++ ((L_fn_threefry_split_1_body (.of main_v60) main_call4) ++ ((L_main_part2_s1) ++ ((L_fn_uniform_body (.of main_v99) (.of main_cst_26) (.of main_cst_27) main_call5) ++ ((L_main_part2_s2) ++ ((L_fn_threefry_split_1_body (.of main_v97) main_call6) ++ ((L_main_part2_s3) ++ ((L_fn_uniform_body (.of main_v136) (.of main_cst_36) (.of main_cst_37) main_call7) ++ ((L_main_part2_s4)))))))))

theorem P_main_part2  : (L_main_part2 (F := F) ).Forall OpOk :=
  forall_append (P_main_part2_s0) (forall_append (P_fn_threefry_split_1_body (.of main_v60) main_call4) (forall_append (P_main_part2_s1) (forall_append (P_fn_uniform_body (.of main_v99) (.of main_cst_26) (.of main_cst_27) main_call5) (forall_append (P_main_part2_s2) (forall_append (P_fn_threefry_split_1_body (.of main_v97) main_call6) (forall_append (P_main_part2_s3) (forall_append (P_fn_uniform_body (.of main_v136) (.of main_cst_36) (.of main_cst_37) main_call7) ((P_main_part2_s4)))))))))

noncomputable def WR_main_part2  : List (Ref sig .tc × List (Ref sig .tc)) :=
  (WR_main_part2_s0) ++ ((WR_fn_threefry_split_1_body (.of main_v60) main_call4) ++ ((WR_main_part2_s1) ++ ((WR_fn_uniform_body (.of main_v99) (.of main_cst_26) (.of main_cst_27) main_call5) ++ ((WR_main_part2_s2) ++ ((WR_fn_threefry_split_1_body (.of main_v97) main_call6) ++ ((WR_main_part2_s3) ++ ((WR_fn_uniform_body (.of main_v136) (.of main_cst_36) (.of main_cst_37) main_call7) ++ ((WR_main_part2_s4)))))))))

theorem Nd_main_part2  : List.Forall₂ Node (L_main_part2 (F := F) ) (WR_main_part2 ) :=
  f2_append (Nd_main_part2_s0) (f2_append (Nd_fn_threefry_split_1_body (.of main_v60) main_call4) (f2_append (Nd_main_part2_s1) (f2_append (Nd_fn_uniform_body (.of main_v99) (.of main_cst_26) (.of main_cst_27) main_call5) (f2_append (Nd_main_part2_s2) (f2_append (Nd_fn_threefry_split_1_body (.of main_v97) main_call6) (f2_append (Nd_main_part2_s3) (f2_append (Nd_fn_uniform_body (.of main_v136) (.of main_cst_36) (.of main_cst_37) main_call7) ((Nd_main_part2_s4)))))))))

theorem E_main_part2 (d : Dev nD) : main_part2 (F := F) d = seq (L_main_part2 ) := by
  simp only [main_part2, L_main_part2, seq_append, E_fn_threefry_split_1_body, E_fn_uniform_body, L_main_part2_s0, L_main_part2_s1, L_main_part2_s2, L_main_part2_s3, L_main_part2_s4, seq, bind_assoc, pure_bind]
  try rfl

end Cert.ReferenceIdeal.Hand

end
-- ==== Proof.RefOpsM3.lean ====
import proofs.«213024_g80238579024365_cont_9to1c4b_497_7_alg».proof.Proof.RefOpsFns

set_option maxRecDepth 16384
set_option maxHeartbeats 4000000

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

noncomputable def L_main_part3_s0  : List (HloOp τ sig (Elt F)) :=
  [ StableHlo.nullary main_cst_38 (constant S_ .f32 0x3F800000#32),
    StableHlo.unary main_cst_38 main_v140 (broadcastInDim S128 ![] bcast_S_S128 : (⟨S_, .f32⟩ : BufTy).Contents (Elt F) → (⟨S128, .f32⟩ : BufTy).Contents (Elt F)),
    StableHlo.binary main_v140 main_v139 main_v141 (addf : (⟨S128, .f32⟩ : BufTy).Contents (Elt F) → (⟨S128, .f32⟩ : BufTy).Contents (Elt F) → (⟨S128, .f32⟩ : BufTy).Contents (Elt F)),
    StableHlo.nullary main_cst_39 (constant S_ .f32 0x3F800000#32),
    StableHlo.unary main_cst_39 main_v142 (broadcastInDim S128 ![] bcast_S_S128 : (⟨S_, .f32⟩ : BufTy).Contents (Elt F) → (⟨S128, .f32⟩ : BufTy).Contents (Elt F)),
    StableHlo.binary main_v142 main_v141 main_v143 (Host.divf : (⟨S128, .f32⟩ : BufTy).Contents (Elt F) → (⟨S128, .f32⟩ : BufTy).Contents (Elt F) → (⟨S128, .f32⟩ : BufTy).Contents (Elt F)),
    StableHlo.binary main_v137 main_v143 main_v144 (cmpf .olt : (⟨S128, .f32⟩ : BufTy).Contents (Elt F) → (⟨S128, .f32⟩ : BufTy).Contents (Elt F) → (⟨S128, .i1⟩ : BufTy).Contents (Elt F)),
    StableHlo.unary main_v144 main_v145 (uitofp .f32 : (⟨S128, .i1⟩ : BufTy).Contents (Elt F) → (⟨S128, .f32⟩ : BufTy).Contents (Elt F)),
    StableHlo.unary main_v145 main_v146 (broadcastInDim S128x1 ![0] bcast_S128_S128x1_0 : (⟨S128, .f32⟩ : BufTy).Contents (Elt F) → (⟨S128x1, .f32⟩ : BufTy).Contents (Elt F)),
    StableHlo.unary main_v146 main_v147 (broadcastInDim S128x4096 ![0, 1] bcast_S128x1_S128x4096_0_1 : (⟨S128x1, .f32⟩ : BufTy).Contents (Elt F) → (⟨S128x4096, .f32⟩ : BufTy).Contents (Elt F)),
    StableHlo.binary main_v129 main_v147 main_v148 (mulf : (⟨S128x4096, .f32⟩ : BufTy).Contents (Elt F) → (⟨S128x4096, .f32⟩ : BufTy).Contents (Elt F) → (⟨S128x4096, .f32⟩ : BufTy).Contents (Elt F)),
    StableHlo.unary main_v145 main_v149 (broadcastInDim S128x1 ![0] bcast_S128_S128x1_0 : (⟨S128, .f32⟩ : BufTy).Contents (Elt F) → (⟨S128x1, .f32⟩ : BufTy).Contents (Elt F)),
    StableHlo.nullary main_cst_40 (constant S_ .f32 0x3F800000#32),
    StableHlo.unary main_cst_40 main_v150 (broadcastInDim S128x1 ![] bcast_S_S128x1 : (⟨S_, .f32⟩ : BufTy).Contents (Elt F) → (⟨S128x1, .f32⟩ : BufTy).Contents (Elt F)),
    StableHlo.binary main_v150 main_v149 main_v151 (subf : (⟨S128x1, .f32⟩ : BufTy).Contents (Elt F) → (⟨S128x1, .f32⟩ : BufTy).Contents (Elt F) → (⟨S128x1, .f32⟩ : BufTy).Contents (Elt F)),
    StableHlo.unary main_v151 main_v152 (broadcastInDim S128x4096 ![0, 1] bcast_S128x1_S128x4096_0_1 : (⟨S128x1, .f32⟩ : BufTy).Contents (Elt F) → (⟨S128x4096, .f32⟩ : BufTy).Contents (Elt F)),
    StableHlo.binary main_v117 main_v152 main_v153 (mulf : (⟨S128x4096, .f32⟩ : BufTy).Contents (Elt F) → (⟨S128x4096, .f32⟩ : BufTy).Contents (Elt F) → (⟨S128x4096, .f32⟩ : BufTy).Contents (Elt F)),
    StableHlo.binary main_v148 main_v153 main_v154 (addf : (⟨S128x4096, .f32⟩ : BufTy).Contents (Elt F) → (⟨S128x4096, .f32⟩ : BufTy).Contents (Elt F) → (⟨S128x4096, .f32⟩ : BufTy).Contents (Elt F)),
    StableHlo.binary main_v154 main_arg1 main_v155 ((fun l r => Host.dotGeneral dot_S128x4096_S4096_S128_1_0_0_n_n_n none l r) : (⟨S128x4096, .f32⟩ : BufTy).Contents (Elt F) → (⟨S4096, .f32⟩ : BufTy).Contents (Elt F) → (⟨S128, .f32⟩ : BufTy).Contents (Elt F)),
    StableHlo.nullary main_cst_41 (constant S_ .f32 0x00000000#32),
    StableHlo.unary main_cst_41 main_v156 (broadcastInDim S128x4096 ![] bcast_S_S128x4096 : (⟨S_, .f32⟩ : BufTy).Contents (Elt F) → (⟨S128x4096, .f32⟩ : BufTy).Contents (Elt F)),
    StableHlo.nullary main_c_42 (constantI S_ 32 4#32),
    StableHlo.unary main_c_42 main_v157 (broadcastInDim S1 ![] bcast_S_S1 : (⟨S_, .i32⟩ : BufTy).Contents (Elt F) → (⟨S1, .i32⟩ : BufTy).Contents (Elt F)),
    StableHlo.nullary main_cst_43 (constant S_ .f32 0x3F800000#32),
    StableHlo.unary main_cst_43 main_v158 (broadcastInDim S128 ![] bcast_S_S128 : (⟨S_, .f32⟩ : BufTy).Contents (Elt F) → (⟨S128, .f32⟩ : BufTy).Contents (Elt F)),
    StableHlo.ternary main_v156 main_v157 main_v158 main_v159 ((fun x i u => Host.scatter scatter_S128x4096_S1_S128_0_1_1_0 (fun _ b => b) x i u) : (⟨S128x4096, .f32⟩ : BufTy).Contents (Elt F) → (⟨S1, .i32⟩ : BufTy).Contents (Elt F) → (⟨S128, .f32⟩ : BufTy).Contents (Elt F) → (⟨S128x4096, .f32⟩ : BufTy).Contents (Elt F)),
    StableHlo.nullary main_cst_44 (constant S_ .f32 0x3F800000#32),
    StableHlo.unary main_cst_44 main_v160 (broadcastInDim S128x4096 ![] bcast_S_S128x4096 : (⟨S_, .f32⟩ : BufTy).Contents (Elt F) → (⟨S128x4096, .f32⟩ : BufTy).Contents (Elt F)),
    StableHlo.binary main_v160 main_v159 main_v161 (subf : (⟨S128x4096, .f32⟩ : BufTy).Contents (Elt F) → (⟨S128x4096, .f32⟩ : BufTy).Contents (Elt F) → (⟨S128x4096, .f32⟩ : BufTy).Contents (Elt F)),
    StableHlo.binary main_v161 main_v154 main_v162 (mulf : (⟨S128x4096, .f32⟩ : BufTy).Contents (Elt F) → (⟨S128x4096, .f32⟩ : BufTy).Contents (Elt F) → (⟨S128x4096, .f32⟩ : BufTy).Contents (Elt F)),
    StableHlo.nullary main_cst_45 (constant S_ .f32 0x3F800000#32),
    StableHlo.unary main_cst_45 main_v163 (broadcastInDim S128x4096 ![] bcast_S_S128x4096 : (⟨S_, .f32⟩ : BufTy).Contents (Elt F) → (⟨S128x4096, .f32⟩ : BufTy).Contents (Elt F)),
    StableHlo.binary main_v163 main_v154 main_v164 (subf : (⟨S128x4096, .f32⟩ : BufTy).Contents (Elt F) → (⟨S128x4096, .f32⟩ : BufTy).Contents (Elt F) → (⟨S128x4096, .f32⟩ : BufTy).Contents (Elt F)),
    StableHlo.binary main_v159 main_v164 main_v165 (mulf : (⟨S128x4096, .f32⟩ : BufTy).Contents (Elt F) → (⟨S128x4096, .f32⟩ : BufTy).Contents (Elt F) → (⟨S128x4096, .f32⟩ : BufTy).Contents (Elt F)),
    StableHlo.binary main_v162 main_v165 main_v166 (addf : (⟨S128x4096, .f32⟩ : BufTy).Contents (Elt F) → (⟨S128x4096, .f32⟩ : BufTy).Contents (Elt F) → (⟨S128x4096, .f32⟩ : BufTy).Contents (Elt F)),
    StableHlo.binary main_v166 main_arg1 main_v167 ((fun l r => Host.dotGeneral dot_S128x4096_S4096_S128_1_0_0_n_n_n none l r) : (⟨S128x4096, .f32⟩ : BufTy).Contents (Elt F) → (⟨S4096, .f32⟩ : BufTy).Contents (Elt F) → (⟨S128, .f32⟩ : BufTy).Contents (Elt F)),
    StableHlo.binary main_v167 main_v155 main_v168 (subf : (⟨S128, .f32⟩ : BufTy).Contents (Elt F) → (⟨S128, .f32⟩ : BufTy).Contents (Elt F) → (⟨S128, .f32⟩ : BufTy).Contents (Elt F)) ]

theorem P_main_part3_s0  : (L_main_part3_s0 (F := F) ).Forall OpOk := by
  unfold L_main_part3_s0
  exact ⟨⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨unary_bufs_sub .., rfl⟩, ⟨unary_bufs_sub .., rfl⟩, ⟨unary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩, ⟨binary_bufs_sub .., rfl⟩, ⟨binary_bufs_sub .., rfl⟩, ⟨nullary_bufs_sub .., rfl⟩, ⟨unary_bufs_sub .., rfl⟩, ⟨nullary_bufs_sub .., rfl⟩, ⟨unary_bufs_sub .., rfl⟩, ⟨nullary_bufs_sub .., rfl⟩, ⟨unary_bufs_sub .., rfl⟩, ⟨ternary_bufs_sub .., rfl⟩, ⟨nullary_bufs_sub .., rfl⟩, ⟨unary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩, ⟨binary_bufs_sub .., rfl⟩⟩

noncomputable def WR_main_part3_s0  : List (Ref sig .tc × List (Ref sig .tc)) :=
  [ (main_cst_38, []),
    (main_v140, [main_cst_38]),
    (main_v141, [main_v140, main_v139]),
    (main_cst_39, []),
    (main_v142, [main_cst_39]),
    (main_v143, [main_v142, main_v141]),
    (main_v144, [main_v137, main_v143]),
    (main_v145, [main_v144]),
    (main_v146, [main_v145]),
    (main_v147, [main_v146]),
    (main_v148, [main_v129, main_v147]),
    (main_v149, [main_v145]),
    (main_cst_40, []),
    (main_v150, [main_cst_40]),
    (main_v151, [main_v150, main_v149]),
    (main_v152, [main_v151]),
    (main_v153, [main_v117, main_v152]),
    (main_v154, [main_v148, main_v153]),
    (main_v155, [main_v154, main_arg1]),
    (main_cst_41, []),
    (main_v156, [main_cst_41]),
    (main_c_42, []),
    (main_v157, [main_c_42]),
    (main_cst_43, []),
    (main_v158, [main_cst_43]),
    (main_v159, [main_v156, main_v157, main_v158]),
    (main_cst_44, []),
    (main_v160, [main_cst_44]),
    (main_v161, [main_v160, main_v159]),
    (main_v162, [main_v161, main_v154]),
    (main_cst_45, []),
    (main_v163, [main_cst_45]),
    (main_v164, [main_v163, main_v154]),
    (main_v165, [main_v159, main_v164]),
    (main_v166, [main_v162, main_v165]),
    (main_v167, [main_v166, main_arg1]),
    (main_v168, [main_v167, main_v155]) ]

theorem Nd_main_part3_s0  : List.Forall₂ Node (L_main_part3_s0 (F := F) ) (WR_main_part3_s0 ) :=
  .cons (node_nullary ..) (.cons (node_unary ..) (.cons (node_binary ..) (.cons (node_nullary ..) (.cons (node_unary ..) (.cons (node_binary ..) (.cons (node_binary ..) (.cons (node_unary ..) (.cons (node_unary ..) (.cons (node_unary ..) (.cons (node_binary ..) (.cons (node_unary ..) (.cons (node_nullary ..) (.cons (node_unary ..) (.cons (node_binary ..) (.cons (node_unary ..) (.cons (node_binary ..) (.cons (node_binary ..) (.cons (node_binary ..) (.cons (node_nullary ..) (.cons (node_unary ..) (.cons (node_nullary ..) (.cons (node_unary ..) (.cons (node_nullary ..) (.cons (node_unary ..) (.cons (node_ternary ..) (.cons (node_nullary ..) (.cons (node_unary ..) (.cons (node_binary ..) (.cons (node_binary ..) (.cons (node_nullary ..) (.cons (node_unary ..) (.cons (node_binary ..) (.cons (node_binary ..) (.cons (node_binary ..) (.cons (node_binary ..) (.cons (node_binary ..) (.nil)))))))))))))))))))))))))))))))))))))

noncomputable def L_main_part3_s1  : List (HloOp τ sig (Elt F)) :=
  [ StableHlo.unary main_v169 main_v170 ((extractStridedSlice S1x2 ![0, 0] · slices_S2x2_S1x2_0_0) : (⟨S2x2, .i32⟩ : BufTy).Contents (Elt F) → (⟨S1x2, .i32⟩ : BufTy).Contents (Elt F)),
    StableHlo.reshape main_v170 main_v171 rfl shapeCasts_S1x2_S2,
    StableHlo.unary main_v169 main_v172 ((extractStridedSlice S1x2 ![1, 0] · slices_S2x2_S1x2_1_0) : (⟨S2x2, .i32⟩ : BufTy).Contents (Elt F) → (⟨S1x2, .i32⟩ : BufTy).Contents (Elt F)),
    StableHlo.reshape main_v172 main_v173 rfl shapeCasts_S1x2_S2,
    StableHlo.nullary main_cst_46 (constant S_ .f32 0x00000000#32),
    StableHlo.nullary main_cst_47 (constant S_ .f32 0x3F800000#32) ]

theorem P_main_part3_s1  : (L_main_part3_s1 (F := F) ).Forall OpOk := by
  unfold L_main_part3_s1
  exact ⟨⟨unary_bufs_sub .., rfl⟩, ⟨reshape_bufs_sub .., rfl⟩, ⟨unary_bufs_sub .., rfl⟩, ⟨reshape_bufs_sub .., rfl⟩, ⟨nullary_bufs_sub .., rfl⟩, ⟨nullary_bufs_sub .., rfl⟩⟩

noncomputable def WR_main_part3_s1  : List (Ref sig .tc × List (Ref sig .tc)) :=
  [ (main_v170, [main_v169]),
    (main_v171, [main_v170]),
    (main_v172, [main_v169]),
    (main_v173, [main_v172]),
    (main_cst_46, []),
    (main_cst_47, []) ]

theorem Nd_main_part3_s1  : List.Forall₂ Node (L_main_part3_s1 (F := F) ) (WR_main_part3_s1 ) :=
  .cons (node_unary ..) (.cons (node_reshape ..) (.cons (node_unary ..) (.cons (node_reshape ..) (.cons (node_nullary ..) (.cons (node_nullary ..) (.nil))))))

noncomputable def L_main_part3_s2  : List (HloOp τ sig (Elt F)) :=
  [ StableHlo.unary main_v168 main_v175 (Host.negf : (⟨S128, .f32⟩ : BufTy).Contents (Elt F) → (⟨S128, .f32⟩ : BufTy).Contents (Elt F)),
    StableHlo.unary main_v175 main_v176 (Host.exp : (⟨S128, .f32⟩ : BufTy).Contents (Elt F) → (⟨S128, .f32⟩ : BufTy).Contents (Elt F)),
    StableHlo.nullary main_cst_48 (constant S_ .f32 0x3F800000#32),
    StableHlo.unary main_cst_48 main_v177 (broadcastInDim S128 ![] bcast_S_S128 : (⟨S_, .f32⟩ : BufTy).Contents (Elt F) → (⟨S128, .f32⟩ : BufTy).Contents (Elt F)),
    StableHlo.binary main_v177 main_v176 main_v178 (addf : (⟨S128, .f32⟩ : BufTy).Contents (Elt F) → (⟨S128, .f32⟩ : BufTy).Contents (Elt F) → (⟨S128, .f32⟩ : BufTy).Contents (Elt F)),
    StableHlo.nullary main_cst_49 (constant S_ .f32 0x3F800000#32),
    StableHlo.unary main_cst_49 main_v179 (broadcastInDim S128 ![] bcast_S_S128 : (⟨S_, .f32⟩ : BufTy).Contents (Elt F) → (⟨S128, .f32⟩ : BufTy).Contents (Elt F)),
    StableHlo.binary main_v179 main_v178 main_v180 (Host.divf : (⟨S128, .f32⟩ : BufTy).Contents (Elt F) → (⟨S128, .f32⟩ : BufTy).Contents (Elt F) → (⟨S128, .f32⟩ : BufTy).Contents (Elt F)),
    StableHlo.binary main_v174 main_v180 main_v181 (cmpf .olt : (⟨S128, .f32⟩ : BufTy).Contents (Elt F) → (⟨S128, .f32⟩ : BufTy).Contents (Elt F) → (⟨S128, .i1⟩ : BufTy).Contents (Elt F)),
    StableHlo.unary main_v181 main_v182 (uitofp .f32 : (⟨S128, .i1⟩ : BufTy).Contents (Elt F) → (⟨S128, .f32⟩ : BufTy).Contents (Elt F)),
    StableHlo.unary main_v182 main_v183 (broadcastInDim S128x1 ![0] bcast_S128_S128x1_0 : (⟨S128, .f32⟩ : BufTy).Contents (Elt F) → (⟨S128x1, .f32⟩ : BufTy).Contents (Elt F)),
    StableHlo.unary main_v183 main_v184 (broadcastInDim S128x4096 ![0, 1] bcast_S128x1_S128x4096_0_1 : (⟨S128x1, .f32⟩ : BufTy).Contents (Elt F) → (⟨S128x4096, .f32⟩ : BufTy).Contents (Elt F)),
    StableHlo.binary main_v166 main_v184 main_v185 (mulf : (⟨S128x4096, .f32⟩ : BufTy).Contents (Elt F) → (⟨S128x4096, .f32⟩ : BufTy).Contents (Elt F) → (⟨S128x4096, .f32⟩ : BufTy).Contents (Elt F)),
    StableHlo.unary main_v182 main_v186 (broadcastInDim S128x1 ![0] bcast_S128_S128x1_0 : (⟨S128, .f32⟩ : BufTy).Contents (Elt F) → (⟨S128x1, .f32⟩ : BufTy).Contents (Elt F)),
    StableHlo.nullary main_cst_50 (constant S_ .f32 0x3F800000#32) ]

theorem P_main_part3_s2  : (L_main_part3_s2 (F := F) ).Forall OpOk := by
  unfold L_main_part3_s2
  exact ⟨⟨unary_bufs_sub .., rfl⟩, ⟨unary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨unary_bufs_sub .., rfl⟩, ⟨unary_bufs_sub .., rfl⟩, ⟨unary_bufs_sub .., rfl⟩, ⟨binary_bufs_sub .., rfl⟩, ⟨unary_bufs_sub .., rfl⟩, ⟨nullary_bufs_sub .., rfl⟩⟩

noncomputable def WR_main_part3_s2  : List (Ref sig .tc × List (Ref sig .tc)) :=
  [ (main_v175, [main_v168]),
    (main_v176, [main_v175]),
    (main_cst_48, []),
    (main_v177, [main_cst_48]),
    (main_v178, [main_v177, main_v176]),
    (main_cst_49, []),
    (main_v179, [main_cst_49]),
    (main_v180, [main_v179, main_v178]),
    (main_v181, [main_v174, main_v180]),
    (main_v182, [main_v181]),
    (main_v183, [main_v182]),
    (main_v184, [main_v183]),
    (main_v185, [main_v166, main_v184]),
    (main_v186, [main_v182]),
    (main_cst_50, []) ]

theorem Nd_main_part3_s2  : List.Forall₂ Node (L_main_part3_s2 (F := F) ) (WR_main_part3_s2 ) :=
  .cons (node_unary ..) (.cons (node_unary ..) (.cons (node_nullary ..) (.cons (node_unary ..) (.cons (node_binary ..) (.cons (node_nullary ..) (.cons (node_unary ..) (.cons (node_binary ..) (.cons (node_binary ..) (.cons (node_unary ..) (.cons (node_unary ..) (.cons (node_unary ..) (.cons (node_binary ..) (.cons (node_unary ..) (.cons (node_nullary ..) (.nil)))))))))))))))

noncomputable def L_main_part3  : List (HloOp τ sig (Elt F)) :=
  (L_main_part3_s0) ++ ((L_fn_threefry_split_1_body (.of main_v134) main_call8) ++ ((L_main_part3_s1) ++ ((L_fn_uniform_body (.of main_v173) (.of main_cst_46) (.of main_cst_47) main_call9) ++ ((L_main_part3_s2)))))

theorem P_main_part3  : (L_main_part3 (F := F) ).Forall OpOk :=
  forall_append (P_main_part3_s0) (forall_append (P_fn_threefry_split_1_body (.of main_v134) main_call8) (forall_append (P_main_part3_s1) (forall_append (P_fn_uniform_body (.of main_v173) (.of main_cst_46) (.of main_cst_47) main_call9) ((P_main_part3_s2)))))

noncomputable def WR_main_part3  : List (Ref sig .tc × List (Ref sig .tc)) :=
  (WR_main_part3_s0) ++ ((WR_fn_threefry_split_1_body (.of main_v134) main_call8) ++ ((WR_main_part3_s1) ++ ((WR_fn_uniform_body (.of main_v173) (.of main_cst_46) (.of main_cst_47) main_call9) ++ ((WR_main_part3_s2)))))

theorem Nd_main_part3  : List.Forall₂ Node (L_main_part3 (F := F) ) (WR_main_part3 ) :=
  f2_append (Nd_main_part3_s0) (f2_append (Nd_fn_threefry_split_1_body (.of main_v134) main_call8) (f2_append (Nd_main_part3_s1) (f2_append (Nd_fn_uniform_body (.of main_v173) (.of main_cst_46) (.of main_cst_47) main_call9) ((Nd_main_part3_s2)))))

theorem E_main_part3 (d : Dev nD) : main_part3 (F := F) d = seq (L_main_part3 ) := by
  simp only [main_part3, L_main_part3, seq_append, E_fn_threefry_split_1_body, E_fn_uniform_body, L_main_part3_s0, L_main_part3_s1, L_main_part3_s2, seq, bind_assoc, pure_bind]
  try rfl

end Cert.ReferenceIdeal.Hand

end
-- ==== Proof.RefOpsM4.lean ====
import proofs.«213024_g80238579024365_cont_9to1c4b_497_7_alg».proof.Proof.RefOpsFns

set_option maxRecDepth 16384
set_option maxHeartbeats 4000000

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

noncomputable def L_main_part4_s0  : List (HloOp τ sig (Elt F)) :=
  [ StableHlo.unary main_cst_50 main_v187 (broadcastInDim S128x1 ![] bcast_S_S128x1 : (⟨S_, .f32⟩ : BufTy).Contents (Elt F) → (⟨S128x1, .f32⟩ : BufTy).Contents (Elt F)),
    StableHlo.binary main_v187 main_v186 main_v188 (subf : (⟨S128x1, .f32⟩ : BufTy).Contents (Elt F) → (⟨S128x1, .f32⟩ : BufTy).Contents (Elt F) → (⟨S128x1, .f32⟩ : BufTy).Contents (Elt F)),
    StableHlo.unary main_v188 main_v189 (broadcastInDim S128x4096 ![0, 1] bcast_S128x1_S128x4096_0_1 : (⟨S128x1, .f32⟩ : BufTy).Contents (Elt F) → (⟨S128x4096, .f32⟩ : BufTy).Contents (Elt F)),
    StableHlo.binary main_v154 main_v189 main_v190 (mulf : (⟨S128x4096, .f32⟩ : BufTy).Contents (Elt F) → (⟨S128x4096, .f32⟩ : BufTy).Contents (Elt F) → (⟨S128x4096, .f32⟩ : BufTy).Contents (Elt F)),
    StableHlo.binary main_v185 main_v190 main_v191 (addf : (⟨S128x4096, .f32⟩ : BufTy).Contents (Elt F) → (⟨S128x4096, .f32⟩ : BufTy).Contents (Elt F) → (⟨S128x4096, .f32⟩ : BufTy).Contents (Elt F)),
    StableHlo.binary main_v191 main_arg1 main_v192 ((fun l r => Host.dotGeneral dot_S128x4096_S4096_S128_1_0_0_n_n_n none l r) : (⟨S128x4096, .f32⟩ : BufTy).Contents (Elt F) → (⟨S4096, .f32⟩ : BufTy).Contents (Elt F) → (⟨S128, .f32⟩ : BufTy).Contents (Elt F)),
    StableHlo.nullary main_cst_51 (constant S_ .f32 0x00000000#32),
    StableHlo.unary main_cst_51 main_v193 (broadcastInDim S128x4096 ![] bcast_S_S128x4096 : (⟨S_, .f32⟩ : BufTy).Contents (Elt F) → (⟨S128x4096, .f32⟩ : BufTy).Contents (Elt F)),
    StableHlo.nullary main_c_52 (constantI S_ 32 5#32),
    StableHlo.unary main_c_52 main_v194 (broadcastInDim S1 ![] bcast_S_S1 : (⟨S_, .i32⟩ : BufTy).Contents (Elt F) → (⟨S1, .i32⟩ : BufTy).Contents (Elt F)),
    StableHlo.nullary main_cst_53 (constant S_ .f32 0x3F800000#32),
    StableHlo.unary main_cst_53 main_v195 (broadcastInDim S128 ![] bcast_S_S128 : (⟨S_, .f32⟩ : BufTy).Contents (Elt F) → (⟨S128, .f32⟩ : BufTy).Contents (Elt F)),
    StableHlo.ternary main_v193 main_v194 main_v195 main_v196 ((fun x i u => Host.scatter scatter_S128x4096_S1_S128_0_1_1_0 (fun _ b => b) x i u) : (⟨S128x4096, .f32⟩ : BufTy).Contents (Elt F) → (⟨S1, .i32⟩ : BufTy).Contents (Elt F) → (⟨S128, .f32⟩ : BufTy).Contents (Elt F) → (⟨S128x4096, .f32⟩ : BufTy).Contents (Elt F)),
    StableHlo.nullary main_cst_54 (constant S_ .f32 0x3F800000#32),
    StableHlo.unary main_cst_54 main_v197 (broadcastInDim S128x4096 ![] bcast_S_S128x4096 : (⟨S_, .f32⟩ : BufTy).Contents (Elt F) → (⟨S128x4096, .f32⟩ : BufTy).Contents (Elt F)),
    StableHlo.binary main_v197 main_v196 main_v198 (subf : (⟨S128x4096, .f32⟩ : BufTy).Contents (Elt F) → (⟨S128x4096, .f32⟩ : BufTy).Contents (Elt F) → (⟨S128x4096, .f32⟩ : BufTy).Contents (Elt F)),
    StableHlo.binary main_v198 main_v191 main_v199 (mulf : (⟨S128x4096, .f32⟩ : BufTy).Contents (Elt F) → (⟨S128x4096, .f32⟩ : BufTy).Contents (Elt F) → (⟨S128x4096, .f32⟩ : BufTy).Contents (Elt F)),
    StableHlo.nullary main_cst_55 (constant S_ .f32 0x3F800000#32),
    StableHlo.unary main_cst_55 main_v200 (broadcastInDim S128x4096 ![] bcast_S_S128x4096 : (⟨S_, .f32⟩ : BufTy).Contents (Elt F) → (⟨S128x4096, .f32⟩ : BufTy).Contents (Elt F)),
    StableHlo.binary main_v200 main_v191 main_v201 (subf : (⟨S128x4096, .f32⟩ : BufTy).Contents (Elt F) → (⟨S128x4096, .f32⟩ : BufTy).Contents (Elt F) → (⟨S128x4096, .f32⟩ : BufTy).Contents (Elt F)),
    StableHlo.binary main_v196 main_v201 main_v202 (mulf : (⟨S128x4096, .f32⟩ : BufTy).Contents (Elt F) → (⟨S128x4096, .f32⟩ : BufTy).Contents (Elt F) → (⟨S128x4096, .f32⟩ : BufTy).Contents (Elt F)),
    StableHlo.binary main_v199 main_v202 main_v203 (addf : (⟨S128x4096, .f32⟩ : BufTy).Contents (Elt F) → (⟨S128x4096, .f32⟩ : BufTy).Contents (Elt F) → (⟨S128x4096, .f32⟩ : BufTy).Contents (Elt F)),
    StableHlo.binary main_v203 main_arg1 main_v204 ((fun l r => Host.dotGeneral dot_S128x4096_S4096_S128_1_0_0_n_n_n none l r) : (⟨S128x4096, .f32⟩ : BufTy).Contents (Elt F) → (⟨S4096, .f32⟩ : BufTy).Contents (Elt F) → (⟨S128, .f32⟩ : BufTy).Contents (Elt F)),
    StableHlo.binary main_v204 main_v192 main_v205 (subf : (⟨S128, .f32⟩ : BufTy).Contents (Elt F) → (⟨S128, .f32⟩ : BufTy).Contents (Elt F) → (⟨S128, .f32⟩ : BufTy).Contents (Elt F)) ]

theorem P_main_part4_s0  : (L_main_part4_s0 (F := F) ).Forall OpOk := by
  unfold L_main_part4_s0
  exact ⟨⟨unary_bufs_sub .., rfl⟩, ⟨binary_bufs_sub .., rfl⟩, ⟨unary_bufs_sub .., rfl⟩, ⟨binary_bufs_sub .., rfl⟩, ⟨binary_bufs_sub .., rfl⟩, ⟨binary_bufs_sub .., rfl⟩, ⟨nullary_bufs_sub .., rfl⟩, ⟨unary_bufs_sub .., rfl⟩, ⟨nullary_bufs_sub .., rfl⟩, ⟨unary_bufs_sub .., rfl⟩, ⟨nullary_bufs_sub .., rfl⟩, ⟨unary_bufs_sub .., rfl⟩, ⟨ternary_bufs_sub .., rfl⟩, ⟨nullary_bufs_sub .., rfl⟩, ⟨unary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩, ⟨binary_bufs_sub .., rfl⟩⟩

noncomputable def WR_main_part4_s0  : List (Ref sig .tc × List (Ref sig .tc)) :=
  [ (main_v187, [main_cst_50]),
    (main_v188, [main_v187, main_v186]),
    (main_v189, [main_v188]),
    (main_v190, [main_v154, main_v189]),
    (main_v191, [main_v185, main_v190]),
    (main_v192, [main_v191, main_arg1]),
    (main_cst_51, []),
    (main_v193, [main_cst_51]),
    (main_c_52, []),
    (main_v194, [main_c_52]),
    (main_cst_53, []),
    (main_v195, [main_cst_53]),
    (main_v196, [main_v193, main_v194, main_v195]),
    (main_cst_54, []),
    (main_v197, [main_cst_54]),
    (main_v198, [main_v197, main_v196]),
    (main_v199, [main_v198, main_v191]),
    (main_cst_55, []),
    (main_v200, [main_cst_55]),
    (main_v201, [main_v200, main_v191]),
    (main_v202, [main_v196, main_v201]),
    (main_v203, [main_v199, main_v202]),
    (main_v204, [main_v203, main_arg1]),
    (main_v205, [main_v204, main_v192]) ]

theorem Nd_main_part4_s0  : List.Forall₂ Node (L_main_part4_s0 (F := F) ) (WR_main_part4_s0 ) :=
  .cons (node_unary ..) (.cons (node_binary ..) (.cons (node_unary ..) (.cons (node_binary ..) (.cons (node_binary ..) (.cons (node_binary ..) (.cons (node_nullary ..) (.cons (node_unary ..) (.cons (node_nullary ..) (.cons (node_unary ..) (.cons (node_nullary ..) (.cons (node_unary ..) (.cons (node_ternary ..) (.cons (node_nullary ..) (.cons (node_unary ..) (.cons (node_binary ..) (.cons (node_binary ..) (.cons (node_nullary ..) (.cons (node_unary ..) (.cons (node_binary ..) (.cons (node_binary ..) (.cons (node_binary ..) (.cons (node_binary ..) (.cons (node_binary ..) (.nil))))))))))))))))))))))))

noncomputable def L_main_part4_s1  : List (HloOp τ sig (Elt F)) :=
  [ StableHlo.unary main_v206 main_v207 ((extractStridedSlice S1x2 ![0, 0] · slices_S2x2_S1x2_0_0) : (⟨S2x2, .i32⟩ : BufTy).Contents (Elt F) → (⟨S1x2, .i32⟩ : BufTy).Contents (Elt F)),
    StableHlo.reshape main_v207 main_v208 rfl shapeCasts_S1x2_S2,
    StableHlo.unary main_v206 main_v209 ((extractStridedSlice S1x2 ![1, 0] · slices_S2x2_S1x2_1_0) : (⟨S2x2, .i32⟩ : BufTy).Contents (Elt F) → (⟨S1x2, .i32⟩ : BufTy).Contents (Elt F)),
    StableHlo.reshape main_v209 main_v210 rfl shapeCasts_S1x2_S2,
    StableHlo.nullary main_cst_56 (constant S_ .f32 0x00000000#32),
    StableHlo.nullary main_cst_57 (constant S_ .f32 0x3F800000#32) ]

theorem P_main_part4_s1  : (L_main_part4_s1 (F := F) ).Forall OpOk := by
  unfold L_main_part4_s1
  exact ⟨⟨unary_bufs_sub .., rfl⟩, ⟨reshape_bufs_sub .., rfl⟩, ⟨unary_bufs_sub .., rfl⟩, ⟨reshape_bufs_sub .., rfl⟩, ⟨nullary_bufs_sub .., rfl⟩, ⟨nullary_bufs_sub .., rfl⟩⟩

noncomputable def WR_main_part4_s1  : List (Ref sig .tc × List (Ref sig .tc)) :=
  [ (main_v207, [main_v206]),
    (main_v208, [main_v207]),
    (main_v209, [main_v206]),
    (main_v210, [main_v209]),
    (main_cst_56, []),
    (main_cst_57, []) ]

theorem Nd_main_part4_s1  : List.Forall₂ Node (L_main_part4_s1 (F := F) ) (WR_main_part4_s1 ) :=
  .cons (node_unary ..) (.cons (node_reshape ..) (.cons (node_unary ..) (.cons (node_reshape ..) (.cons (node_nullary ..) (.cons (node_nullary ..) (.nil))))))

noncomputable def L_main_part4_s2  : List (HloOp τ sig (Elt F)) :=
  [ StableHlo.unary main_v205 main_v212 (Host.negf : (⟨S128, .f32⟩ : BufTy).Contents (Elt F) → (⟨S128, .f32⟩ : BufTy).Contents (Elt F)),
    StableHlo.unary main_v212 main_v213 (Host.exp : (⟨S128, .f32⟩ : BufTy).Contents (Elt F) → (⟨S128, .f32⟩ : BufTy).Contents (Elt F)),
    StableHlo.nullary main_cst_58 (constant S_ .f32 0x3F800000#32),
    StableHlo.unary main_cst_58 main_v214 (broadcastInDim S128 ![] bcast_S_S128 : (⟨S_, .f32⟩ : BufTy).Contents (Elt F) → (⟨S128, .f32⟩ : BufTy).Contents (Elt F)),
    StableHlo.binary main_v214 main_v213 main_v215 (addf : (⟨S128, .f32⟩ : BufTy).Contents (Elt F) → (⟨S128, .f32⟩ : BufTy).Contents (Elt F) → (⟨S128, .f32⟩ : BufTy).Contents (Elt F)),
    StableHlo.nullary main_cst_59 (constant S_ .f32 0x3F800000#32),
    StableHlo.unary main_cst_59 main_v216 (broadcastInDim S128 ![] bcast_S_S128 : (⟨S_, .f32⟩ : BufTy).Contents (Elt F) → (⟨S128, .f32⟩ : BufTy).Contents (Elt F)),
    StableHlo.binary main_v216 main_v215 main_v217 (Host.divf : (⟨S128, .f32⟩ : BufTy).Contents (Elt F) → (⟨S128, .f32⟩ : BufTy).Contents (Elt F) → (⟨S128, .f32⟩ : BufTy).Contents (Elt F)),
    StableHlo.binary main_v211 main_v217 main_v218 (cmpf .olt : (⟨S128, .f32⟩ : BufTy).Contents (Elt F) → (⟨S128, .f32⟩ : BufTy).Contents (Elt F) → (⟨S128, .i1⟩ : BufTy).Contents (Elt F)),
    StableHlo.unary main_v218 main_v219 (uitofp .f32 : (⟨S128, .i1⟩ : BufTy).Contents (Elt F) → (⟨S128, .f32⟩ : BufTy).Contents (Elt F)),
    StableHlo.unary main_v219 main_v220 (broadcastInDim S128x1 ![0] bcast_S128_S128x1_0 : (⟨S128, .f32⟩ : BufTy).Contents (Elt F) → (⟨S128x1, .f32⟩ : BufTy).Contents (Elt F)),
    StableHlo.unary main_v220 main_v221 (broadcastInDim S128x4096 ![0, 1] bcast_S128x1_S128x4096_0_1 : (⟨S128x1, .f32⟩ : BufTy).Contents (Elt F) → (⟨S128x4096, .f32⟩ : BufTy).Contents (Elt F)),
    StableHlo.binary main_v203 main_v221 main_v222 (mulf : (⟨S128x4096, .f32⟩ : BufTy).Contents (Elt F) → (⟨S128x4096, .f32⟩ : BufTy).Contents (Elt F) → (⟨S128x4096, .f32⟩ : BufTy).Contents (Elt F)),
    StableHlo.unary main_v219 main_v223 (broadcastInDim S128x1 ![0] bcast_S128_S128x1_0 : (⟨S128, .f32⟩ : BufTy).Contents (Elt F) → (⟨S128x1, .f32⟩ : BufTy).Contents (Elt F)),
    StableHlo.nullary main_cst_60 (constant S_ .f32 0x3F800000#32),
    StableHlo.unary main_cst_60 main_v224 (broadcastInDim S128x1 ![] bcast_S_S128x1 : (⟨S_, .f32⟩ : BufTy).Contents (Elt F) → (⟨S128x1, .f32⟩ : BufTy).Contents (Elt F)),
    StableHlo.binary main_v224 main_v223 main_v225 (subf : (⟨S128x1, .f32⟩ : BufTy).Contents (Elt F) → (⟨S128x1, .f32⟩ : BufTy).Contents (Elt F) → (⟨S128x1, .f32⟩ : BufTy).Contents (Elt F)),
    StableHlo.unary main_v225 main_v226 (broadcastInDim S128x4096 ![0, 1] bcast_S128x1_S128x4096_0_1 : (⟨S128x1, .f32⟩ : BufTy).Contents (Elt F) → (⟨S128x4096, .f32⟩ : BufTy).Contents (Elt F)),
    StableHlo.binary main_v191 main_v226 main_v227 (mulf : (⟨S128x4096, .f32⟩ : BufTy).Contents (Elt F) → (⟨S128x4096, .f32⟩ : BufTy).Contents (Elt F) → (⟨S128x4096, .f32⟩ : BufTy).Contents (Elt F)),
    StableHlo.binary main_v222 main_v227 main_v228 (addf : (⟨S128x4096, .f32⟩ : BufTy).Contents (Elt F) → (⟨S128x4096, .f32⟩ : BufTy).Contents (Elt F) → (⟨S128x4096, .f32⟩ : BufTy).Contents (Elt F)),
    StableHlo.binary main_v228 main_arg1 main_v229 ((fun l r => Host.dotGeneral dot_S128x4096_S4096_S128_1_0_0_n_n_n none l r) : (⟨S128x4096, .f32⟩ : BufTy).Contents (Elt F) → (⟨S4096, .f32⟩ : BufTy).Contents (Elt F) → (⟨S128, .f32⟩ : BufTy).Contents (Elt F)),
    StableHlo.nullary main_cst_61 (constant S_ .f32 0x00000000#32),
    StableHlo.unary main_cst_61 main_v230 (broadcastInDim S128x4096 ![] bcast_S_S128x4096 : (⟨S_, .f32⟩ : BufTy).Contents (Elt F) → (⟨S128x4096, .f32⟩ : BufTy).Contents (Elt F)),
    StableHlo.nullary main_c_62 (constantI S_ 32 6#32),
    StableHlo.unary main_c_62 main_v231 (broadcastInDim S1 ![] bcast_S_S1 : (⟨S_, .i32⟩ : BufTy).Contents (Elt F) → (⟨S1, .i32⟩ : BufTy).Contents (Elt F)),
    StableHlo.nullary main_cst_63 (constant S_ .f32 0x3F800000#32),
    StableHlo.unary main_cst_63 main_v232 (broadcastInDim S128 ![] bcast_S_S128 : (⟨S_, .f32⟩ : BufTy).Contents (Elt F) → (⟨S128, .f32⟩ : BufTy).Contents (Elt F)),
    StableHlo.ternary main_v230 main_v231 main_v232 main_v233 ((fun x i u => Host.scatter scatter_S128x4096_S1_S128_0_1_1_0 (fun _ b => b) x i u) : (⟨S128x4096, .f32⟩ : BufTy).Contents (Elt F) → (⟨S1, .i32⟩ : BufTy).Contents (Elt F) → (⟨S128, .f32⟩ : BufTy).Contents (Elt F) → (⟨S128x4096, .f32⟩ : BufTy).Contents (Elt F)) ]

theorem P_main_part4_s2  : (L_main_part4_s2 (F := F) ).Forall OpOk := by
  unfold L_main_part4_s2
  exact ⟨⟨unary_bufs_sub .., rfl⟩, ⟨unary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨unary_bufs_sub .., rfl⟩, ⟨unary_bufs_sub .., rfl⟩, ⟨unary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩, ⟨binary_bufs_sub .., rfl⟩, ⟨binary_bufs_sub .., rfl⟩, ⟨nullary_bufs_sub .., rfl⟩, ⟨unary_bufs_sub .., rfl⟩, ⟨nullary_bufs_sub .., rfl⟩, ⟨unary_bufs_sub .., rfl⟩, ⟨nullary_bufs_sub .., rfl⟩, ⟨unary_bufs_sub .., rfl⟩, ⟨ternary_bufs_sub .., rfl⟩⟩

noncomputable def WR_main_part4_s2  : List (Ref sig .tc × List (Ref sig .tc)) :=
  [ (main_v212, [main_v205]),
    (main_v213, [main_v212]),
    (main_cst_58, []),
    (main_v214, [main_cst_58]),
    (main_v215, [main_v214, main_v213]),
    (main_cst_59, []),
    (main_v216, [main_cst_59]),
    (main_v217, [main_v216, main_v215]),
    (main_v218, [main_v211, main_v217]),
    (main_v219, [main_v218]),
    (main_v220, [main_v219]),
    (main_v221, [main_v220]),
    (main_v222, [main_v203, main_v221]),
    (main_v223, [main_v219]),
    (main_cst_60, []),
    (main_v224, [main_cst_60]),
    (main_v225, [main_v224, main_v223]),
    (main_v226, [main_v225]),
    (main_v227, [main_v191, main_v226]),
    (main_v228, [main_v222, main_v227]),
    (main_v229, [main_v228, main_arg1]),
    (main_cst_61, []),
    (main_v230, [main_cst_61]),
    (main_c_62, []),
    (main_v231, [main_c_62]),
    (main_cst_63, []),
    (main_v232, [main_cst_63]),
    (main_v233, [main_v230, main_v231, main_v232]) ]

theorem Nd_main_part4_s2  : List.Forall₂ Node (L_main_part4_s2 (F := F) ) (WR_main_part4_s2 ) :=
  .cons (node_unary ..) (.cons (node_unary ..) (.cons (node_nullary ..) (.cons (node_unary ..) (.cons (node_binary ..) (.cons (node_nullary ..) (.cons (node_unary ..) (.cons (node_binary ..) (.cons (node_binary ..) (.cons (node_unary ..) (.cons (node_unary ..) (.cons (node_unary ..) (.cons (node_binary ..) (.cons (node_unary ..) (.cons (node_nullary ..) (.cons (node_unary ..) (.cons (node_binary ..) (.cons (node_unary ..) (.cons (node_binary ..) (.cons (node_binary ..) (.cons (node_binary ..) (.cons (node_nullary ..) (.cons (node_unary ..) (.cons (node_nullary ..) (.cons (node_unary ..) (.cons (node_nullary ..) (.cons (node_unary ..) (.cons (node_ternary ..) (.nil))))))))))))))))))))))))))))

noncomputable def L_main_part4  : List (HloOp τ sig (Elt F)) :=
  (L_main_part4_s0) ++ ((L_fn_threefry_split_1_body (.of main_v171) main_call10) ++ ((L_main_part4_s1) ++ ((L_fn_uniform_body (.of main_v210) (.of main_cst_56) (.of main_cst_57) main_call11) ++ ((L_main_part4_s2)))))

theorem P_main_part4  : (L_main_part4 (F := F) ).Forall OpOk :=
  forall_append (P_main_part4_s0) (forall_append (P_fn_threefry_split_1_body (.of main_v171) main_call10) (forall_append (P_main_part4_s1) (forall_append (P_fn_uniform_body (.of main_v210) (.of main_cst_56) (.of main_cst_57) main_call11) ((P_main_part4_s2)))))

noncomputable def WR_main_part4  : List (Ref sig .tc × List (Ref sig .tc)) :=
  (WR_main_part4_s0) ++ ((WR_fn_threefry_split_1_body (.of main_v171) main_call10) ++ ((WR_main_part4_s1) ++ ((WR_fn_uniform_body (.of main_v210) (.of main_cst_56) (.of main_cst_57) main_call11) ++ ((WR_main_part4_s2)))))

theorem Nd_main_part4  : List.Forall₂ Node (L_main_part4 (F := F) ) (WR_main_part4 ) :=
  f2_append (Nd_main_part4_s0) (f2_append (Nd_fn_threefry_split_1_body (.of main_v171) main_call10) (f2_append (Nd_main_part4_s1) (f2_append (Nd_fn_uniform_body (.of main_v210) (.of main_cst_56) (.of main_cst_57) main_call11) ((Nd_main_part4_s2)))))

theorem E_main_part4 (d : Dev nD) : main_part4 (F := F) d = seq (L_main_part4 ) := by
  simp only [main_part4, L_main_part4, seq_append, E_fn_threefry_split_1_body, E_fn_uniform_body, L_main_part4_s0, L_main_part4_s1, L_main_part4_s2, seq, bind_assoc, pure_bind]
  try rfl

end Cert.ReferenceIdeal.Hand

end
-- ==== Proof.RefOpsM5.lean ====
import proofs.«213024_g80238579024365_cont_9to1c4b_497_7_alg».proof.Proof.RefOpsFns

set_option maxRecDepth 16384
set_option maxHeartbeats 4000000

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

noncomputable def L_main_part5_s0  : List (HloOp τ sig (Elt F)) :=
  [ StableHlo.nullary main_cst_64 (constant S_ .f32 0x3F800000#32),
    StableHlo.unary main_cst_64 main_v234 (broadcastInDim S128x4096 ![] bcast_S_S128x4096 : (⟨S_, .f32⟩ : BufTy).Contents (Elt F) → (⟨S128x4096, .f32⟩ : BufTy).Contents (Elt F)),
    StableHlo.binary main_v234 main_v233 main_v235 (subf : (⟨S128x4096, .f32⟩ : BufTy).Contents (Elt F) → (⟨S128x4096, .f32⟩ : BufTy).Contents (Elt F) → (⟨S128x4096, .f32⟩ : BufTy).Contents (Elt F)),
    StableHlo.binary main_v235 main_v228 main_v236 (mulf : (⟨S128x4096, .f32⟩ : BufTy).Contents (Elt F) → (⟨S128x4096, .f32⟩ : BufTy).Contents (Elt F) → (⟨S128x4096, .f32⟩ : BufTy).Contents (Elt F)),
    StableHlo.nullary main_cst_65 (constant S_ .f32 0x3F800000#32),
    StableHlo.unary main_cst_65 main_v237 (broadcastInDim S128x4096 ![] bcast_S_S128x4096 : (⟨S_, .f32⟩ : BufTy).Contents (Elt F) → (⟨S128x4096, .f32⟩ : BufTy).Contents (Elt F)),
    StableHlo.binary main_v237 main_v228 main_v238 (subf : (⟨S128x4096, .f32⟩ : BufTy).Contents (Elt F) → (⟨S128x4096, .f32⟩ : BufTy).Contents (Elt F) → (⟨S128x4096, .f32⟩ : BufTy).Contents (Elt F)),
    StableHlo.binary main_v233 main_v238 main_v239 (mulf : (⟨S128x4096, .f32⟩ : BufTy).Contents (Elt F) → (⟨S128x4096, .f32⟩ : BufTy).Contents (Elt F) → (⟨S128x4096, .f32⟩ : BufTy).Contents (Elt F)),
    StableHlo.binary main_v236 main_v239 main_v240 (addf : (⟨S128x4096, .f32⟩ : BufTy).Contents (Elt F) → (⟨S128x4096, .f32⟩ : BufTy).Contents (Elt F) → (⟨S128x4096, .f32⟩ : BufTy).Contents (Elt F)),
    StableHlo.binary main_v240 main_arg1 main_v241 ((fun l r => Host.dotGeneral dot_S128x4096_S4096_S128_1_0_0_n_n_n none l r) : (⟨S128x4096, .f32⟩ : BufTy).Contents (Elt F) → (⟨S4096, .f32⟩ : BufTy).Contents (Elt F) → (⟨S128, .f32⟩ : BufTy).Contents (Elt F)),
    StableHlo.binary main_v241 main_v229 main_v242 (subf : (⟨S128, .f32⟩ : BufTy).Contents (Elt F) → (⟨S128, .f32⟩ : BufTy).Contents (Elt F) → (⟨S128, .f32⟩ : BufTy).Contents (Elt F)) ]

theorem P_main_part5_s0  : (L_main_part5_s0 (F := F) ).Forall OpOk := by
  unfold L_main_part5_s0
  exact ⟨⟨nullary_bufs_sub .., rfl⟩, ⟨unary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩, ⟨binary_bufs_sub .., rfl⟩⟩

noncomputable def WR_main_part5_s0  : List (Ref sig .tc × List (Ref sig .tc)) :=
  [ (main_cst_64, []),
    (main_v234, [main_cst_64]),
    (main_v235, [main_v234, main_v233]),
    (main_v236, [main_v235, main_v228]),
    (main_cst_65, []),
    (main_v237, [main_cst_65]),
    (main_v238, [main_v237, main_v228]),
    (main_v239, [main_v233, main_v238]),
    (main_v240, [main_v236, main_v239]),
    (main_v241, [main_v240, main_arg1]),
    (main_v242, [main_v241, main_v229]) ]

theorem Nd_main_part5_s0  : List.Forall₂ Node (L_main_part5_s0 (F := F) ) (WR_main_part5_s0 ) :=
  .cons (node_nullary ..) (.cons (node_unary ..) (.cons (node_binary ..) (.cons (node_binary ..) (.cons (node_nullary ..) (.cons (node_unary ..) (.cons (node_binary ..) (.cons (node_binary ..) (.cons (node_binary ..) (.cons (node_binary ..) (.cons (node_binary ..) (.nil)))))))))))

noncomputable def L_main_part5_s1  : List (HloOp τ sig (Elt F)) :=
  [ StableHlo.unary main_v243 main_v244 ((extractStridedSlice S1x2 ![0, 0] · slices_S2x2_S1x2_0_0) : (⟨S2x2, .i32⟩ : BufTy).Contents (Elt F) → (⟨S1x2, .i32⟩ : BufTy).Contents (Elt F)),
    StableHlo.reshape main_v244 main_v245 rfl shapeCasts_S1x2_S2,
    StableHlo.unary main_v243 main_v246 ((extractStridedSlice S1x2 ![1, 0] · slices_S2x2_S1x2_1_0) : (⟨S2x2, .i32⟩ : BufTy).Contents (Elt F) → (⟨S1x2, .i32⟩ : BufTy).Contents (Elt F)),
    StableHlo.reshape main_v246 main_v247 rfl shapeCasts_S1x2_S2,
    StableHlo.nullary main_cst_66 (constant S_ .f32 0x00000000#32),
    StableHlo.nullary main_cst_67 (constant S_ .f32 0x3F800000#32) ]

theorem P_main_part5_s1  : (L_main_part5_s1 (F := F) ).Forall OpOk := by
  unfold L_main_part5_s1
  exact ⟨⟨unary_bufs_sub .., rfl⟩, ⟨reshape_bufs_sub .., rfl⟩, ⟨unary_bufs_sub .., rfl⟩, ⟨reshape_bufs_sub .., rfl⟩, ⟨nullary_bufs_sub .., rfl⟩, ⟨nullary_bufs_sub .., rfl⟩⟩

noncomputable def WR_main_part5_s1  : List (Ref sig .tc × List (Ref sig .tc)) :=
  [ (main_v244, [main_v243]),
    (main_v245, [main_v244]),
    (main_v246, [main_v243]),
    (main_v247, [main_v246]),
    (main_cst_66, []),
    (main_cst_67, []) ]

theorem Nd_main_part5_s1  : List.Forall₂ Node (L_main_part5_s1 (F := F) ) (WR_main_part5_s1 ) :=
  .cons (node_unary ..) (.cons (node_reshape ..) (.cons (node_unary ..) (.cons (node_reshape ..) (.cons (node_nullary ..) (.cons (node_nullary ..) (.nil))))))

noncomputable def L_main_part5_s2  : List (HloOp τ sig (Elt F)) :=
  [ StableHlo.unary main_v242 main_v249 (Host.negf : (⟨S128, .f32⟩ : BufTy).Contents (Elt F) → (⟨S128, .f32⟩ : BufTy).Contents (Elt F)),
    StableHlo.unary main_v249 main_v250 (Host.exp : (⟨S128, .f32⟩ : BufTy).Contents (Elt F) → (⟨S128, .f32⟩ : BufTy).Contents (Elt F)),
    StableHlo.nullary main_cst_68 (constant S_ .f32 0x3F800000#32),
    StableHlo.unary main_cst_68 main_v251 (broadcastInDim S128 ![] bcast_S_S128 : (⟨S_, .f32⟩ : BufTy).Contents (Elt F) → (⟨S128, .f32⟩ : BufTy).Contents (Elt F)),
    StableHlo.binary main_v251 main_v250 main_v252 (addf : (⟨S128, .f32⟩ : BufTy).Contents (Elt F) → (⟨S128, .f32⟩ : BufTy).Contents (Elt F) → (⟨S128, .f32⟩ : BufTy).Contents (Elt F)),
    StableHlo.nullary main_cst_69 (constant S_ .f32 0x3F800000#32),
    StableHlo.unary main_cst_69 main_v253 (broadcastInDim S128 ![] bcast_S_S128 : (⟨S_, .f32⟩ : BufTy).Contents (Elt F) → (⟨S128, .f32⟩ : BufTy).Contents (Elt F)),
    StableHlo.binary main_v253 main_v252 main_v254 (Host.divf : (⟨S128, .f32⟩ : BufTy).Contents (Elt F) → (⟨S128, .f32⟩ : BufTy).Contents (Elt F) → (⟨S128, .f32⟩ : BufTy).Contents (Elt F)),
    StableHlo.binary main_v248 main_v254 main_v255 (cmpf .olt : (⟨S128, .f32⟩ : BufTy).Contents (Elt F) → (⟨S128, .f32⟩ : BufTy).Contents (Elt F) → (⟨S128, .i1⟩ : BufTy).Contents (Elt F)),
    StableHlo.unary main_v255 main_v256 (uitofp .f32 : (⟨S128, .i1⟩ : BufTy).Contents (Elt F) → (⟨S128, .f32⟩ : BufTy).Contents (Elt F)),
    StableHlo.unary main_v256 main_v257 (broadcastInDim S128x1 ![0] bcast_S128_S128x1_0 : (⟨S128, .f32⟩ : BufTy).Contents (Elt F) → (⟨S128x1, .f32⟩ : BufTy).Contents (Elt F)),
    StableHlo.unary main_v257 main_v258 (broadcastInDim S128x4096 ![0, 1] bcast_S128x1_S128x4096_0_1 : (⟨S128x1, .f32⟩ : BufTy).Contents (Elt F) → (⟨S128x4096, .f32⟩ : BufTy).Contents (Elt F)),
    StableHlo.binary main_v240 main_v258 main_v259 (mulf : (⟨S128x4096, .f32⟩ : BufTy).Contents (Elt F) → (⟨S128x4096, .f32⟩ : BufTy).Contents (Elt F) → (⟨S128x4096, .f32⟩ : BufTy).Contents (Elt F)),
    StableHlo.unary main_v256 main_v260 (broadcastInDim S128x1 ![0] bcast_S128_S128x1_0 : (⟨S128, .f32⟩ : BufTy).Contents (Elt F) → (⟨S128x1, .f32⟩ : BufTy).Contents (Elt F)),
    StableHlo.nullary main_cst_70 (constant S_ .f32 0x3F800000#32),
    StableHlo.unary main_cst_70 main_v261 (broadcastInDim S128x1 ![] bcast_S_S128x1 : (⟨S_, .f32⟩ : BufTy).Contents (Elt F) → (⟨S128x1, .f32⟩ : BufTy).Contents (Elt F)),
    StableHlo.binary main_v261 main_v260 main_v262 (subf : (⟨S128x1, .f32⟩ : BufTy).Contents (Elt F) → (⟨S128x1, .f32⟩ : BufTy).Contents (Elt F) → (⟨S128x1, .f32⟩ : BufTy).Contents (Elt F)),
    StableHlo.unary main_v262 main_v263 (broadcastInDim S128x4096 ![0, 1] bcast_S128x1_S128x4096_0_1 : (⟨S128x1, .f32⟩ : BufTy).Contents (Elt F) → (⟨S128x4096, .f32⟩ : BufTy).Contents (Elt F)),
    StableHlo.binary main_v228 main_v263 main_v264 (mulf : (⟨S128x4096, .f32⟩ : BufTy).Contents (Elt F) → (⟨S128x4096, .f32⟩ : BufTy).Contents (Elt F) → (⟨S128x4096, .f32⟩ : BufTy).Contents (Elt F)),
    StableHlo.binary main_v259 main_v264 main_v265 (addf : (⟨S128x4096, .f32⟩ : BufTy).Contents (Elt F) → (⟨S128x4096, .f32⟩ : BufTy).Contents (Elt F) → (⟨S128x4096, .f32⟩ : BufTy).Contents (Elt F)),
    StableHlo.binary main_v265 main_arg1 main_v266 ((fun l r => Host.dotGeneral dot_S128x4096_S4096_S128_1_0_0_n_n_n none l r) : (⟨S128x4096, .f32⟩ : BufTy).Contents (Elt F) → (⟨S4096, .f32⟩ : BufTy).Contents (Elt F) → (⟨S128, .f32⟩ : BufTy).Contents (Elt F)),
    StableHlo.nullary main_cst_71 (constant S_ .f32 0x00000000#32),
    StableHlo.unary main_cst_71 main_v267 (broadcastInDim S128x4096 ![] bcast_S_S128x4096 : (⟨S_, .f32⟩ : BufTy).Contents (Elt F) → (⟨S128x4096, .f32⟩ : BufTy).Contents (Elt F)),
    StableHlo.nullary main_c_72 (constantI S_ 32 7#32),
    StableHlo.unary main_c_72 main_v268 (broadcastInDim S1 ![] bcast_S_S1 : (⟨S_, .i32⟩ : BufTy).Contents (Elt F) → (⟨S1, .i32⟩ : BufTy).Contents (Elt F)),
    StableHlo.nullary main_cst_73 (constant S_ .f32 0x3F800000#32),
    StableHlo.unary main_cst_73 main_v269 (broadcastInDim S128 ![] bcast_S_S128 : (⟨S_, .f32⟩ : BufTy).Contents (Elt F) → (⟨S128, .f32⟩ : BufTy).Contents (Elt F)),
    StableHlo.ternary main_v267 main_v268 main_v269 main_v270 ((fun x i u => Host.scatter scatter_S128x4096_S1_S128_0_1_1_0 (fun _ b => b) x i u) : (⟨S128x4096, .f32⟩ : BufTy).Contents (Elt F) → (⟨S1, .i32⟩ : BufTy).Contents (Elt F) → (⟨S128, .f32⟩ : BufTy).Contents (Elt F) → (⟨S128x4096, .f32⟩ : BufTy).Contents (Elt F)),
    StableHlo.nullary main_cst_74 (constant S_ .f32 0x3F800000#32),
    StableHlo.unary main_cst_74 main_v271 (broadcastInDim S128x4096 ![] bcast_S_S128x4096 : (⟨S_, .f32⟩ : BufTy).Contents (Elt F) → (⟨S128x4096, .f32⟩ : BufTy).Contents (Elt F)),
    StableHlo.binary main_v271 main_v270 main_v272 (subf : (⟨S128x4096, .f32⟩ : BufTy).Contents (Elt F) → (⟨S128x4096, .f32⟩ : BufTy).Contents (Elt F) → (⟨S128x4096, .f32⟩ : BufTy).Contents (Elt F)),
    StableHlo.binary main_v272 main_v265 main_v273 (mulf : (⟨S128x4096, .f32⟩ : BufTy).Contents (Elt F) → (⟨S128x4096, .f32⟩ : BufTy).Contents (Elt F) → (⟨S128x4096, .f32⟩ : BufTy).Contents (Elt F)),
    StableHlo.nullary main_cst_75 (constant S_ .f32 0x3F800000#32),
    StableHlo.unary main_cst_75 main_v274 (broadcastInDim S128x4096 ![] bcast_S_S128x4096 : (⟨S_, .f32⟩ : BufTy).Contents (Elt F) → (⟨S128x4096, .f32⟩ : BufTy).Contents (Elt F)),
    StableHlo.binary main_v274 main_v265 main_v275 (subf : (⟨S128x4096, .f32⟩ : BufTy).Contents (Elt F) → (⟨S128x4096, .f32⟩ : BufTy).Contents (Elt F) → (⟨S128x4096, .f32⟩ : BufTy).Contents (Elt F)),
    StableHlo.binary main_v270 main_v275 main_v276 (mulf : (⟨S128x4096, .f32⟩ : BufTy).Contents (Elt F) → (⟨S128x4096, .f32⟩ : BufTy).Contents (Elt F) → (⟨S128x4096, .f32⟩ : BufTy).Contents (Elt F)),
    StableHlo.binary main_v273 main_v276 main_v277 (addf : (⟨S128x4096, .f32⟩ : BufTy).Contents (Elt F) → (⟨S128x4096, .f32⟩ : BufTy).Contents (Elt F) → (⟨S128x4096, .f32⟩ : BufTy).Contents (Elt F)),
    StableHlo.binary main_v277 main_arg1 main_v278 ((fun l r => Host.dotGeneral dot_S128x4096_S4096_S128_1_0_0_n_n_n none l r) : (⟨S128x4096, .f32⟩ : BufTy).Contents (Elt F) → (⟨S4096, .f32⟩ : BufTy).Contents (Elt F) → (⟨S128, .f32⟩ : BufTy).Contents (Elt F)),
    StableHlo.binary main_v278 main_v266 main_v279 (subf : (⟨S128, .f32⟩ : BufTy).Contents (Elt F) → (⟨S128, .f32⟩ : BufTy).Contents (Elt F) → (⟨S128, .f32⟩ : BufTy).Contents (Elt F)) ]

theorem P_main_part5_s2  : (L_main_part5_s2 (F := F) ).Forall OpOk := by
  unfold L_main_part5_s2
  exact ⟨⟨unary_bufs_sub .., rfl⟩, ⟨unary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨unary_bufs_sub .., rfl⟩, ⟨unary_bufs_sub .., rfl⟩, ⟨unary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩, ⟨binary_bufs_sub .., rfl⟩, ⟨binary_bufs_sub .., rfl⟩, ⟨nullary_bufs_sub .., rfl⟩, ⟨unary_bufs_sub .., rfl⟩, ⟨nullary_bufs_sub .., rfl⟩, ⟨unary_bufs_sub .., rfl⟩, ⟨nullary_bufs_sub .., rfl⟩, ⟨unary_bufs_sub .., rfl⟩, ⟨ternary_bufs_sub .., rfl⟩, ⟨nullary_bufs_sub .., rfl⟩, ⟨unary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨binary_bufs_sub .., rfl⟩, ⟨binary_bufs_sub .., rfl⟩⟩

noncomputable def WR_main_part5_s2  : List (Ref sig .tc × List (Ref sig .tc)) :=
  [ (main_v249, [main_v242]),
    (main_v250, [main_v249]),
    (main_cst_68, []),
    (main_v251, [main_cst_68]),
    (main_v252, [main_v251, main_v250]),
    (main_cst_69, []),
    (main_v253, [main_cst_69]),
    (main_v254, [main_v253, main_v252]),
    (main_v255, [main_v248, main_v254]),
    (main_v256, [main_v255]),
    (main_v257, [main_v256]),
    (main_v258, [main_v257]),
    (main_v259, [main_v240, main_v258]),
    (main_v260, [main_v256]),
    (main_cst_70, []),
    (main_v261, [main_cst_70]),
    (main_v262, [main_v261, main_v260]),
    (main_v263, [main_v262]),
    (main_v264, [main_v228, main_v263]),
    (main_v265, [main_v259, main_v264]),
    (main_v266, [main_v265, main_arg1]),
    (main_cst_71, []),
    (main_v267, [main_cst_71]),
    (main_c_72, []),
    (main_v268, [main_c_72]),
    (main_cst_73, []),
    (main_v269, [main_cst_73]),
    (main_v270, [main_v267, main_v268, main_v269]),
    (main_cst_74, []),
    (main_v271, [main_cst_74]),
    (main_v272, [main_v271, main_v270]),
    (main_v273, [main_v272, main_v265]),
    (main_cst_75, []),
    (main_v274, [main_cst_75]),
    (main_v275, [main_v274, main_v265]),
    (main_v276, [main_v270, main_v275]),
    (main_v277, [main_v273, main_v276]),
    (main_v278, [main_v277, main_arg1]),
    (main_v279, [main_v278, main_v266]) ]

theorem Nd_main_part5_s2  : List.Forall₂ Node (L_main_part5_s2 (F := F) ) (WR_main_part5_s2 ) :=
  .cons (node_unary ..) (.cons (node_unary ..) (.cons (node_nullary ..) (.cons (node_unary ..) (.cons (node_binary ..) (.cons (node_nullary ..) (.cons (node_unary ..) (.cons (node_binary ..) (.cons (node_binary ..) (.cons (node_unary ..) (.cons (node_unary ..) (.cons (node_unary ..) (.cons (node_binary ..) (.cons (node_unary ..) (.cons (node_nullary ..) (.cons (node_unary ..) (.cons (node_binary ..) (.cons (node_unary ..) (.cons (node_binary ..) (.cons (node_binary ..) (.cons (node_binary ..) (.cons (node_nullary ..) (.cons (node_unary ..) (.cons (node_nullary ..) (.cons (node_unary ..) (.cons (node_nullary ..) (.cons (node_unary ..) (.cons (node_ternary ..) (.cons (node_nullary ..) (.cons (node_unary ..) (.cons (node_binary ..) (.cons (node_binary ..) (.cons (node_nullary ..) (.cons (node_unary ..) (.cons (node_binary ..) (.cons (node_binary ..) (.cons (node_binary ..) (.cons (node_binary ..) (.cons (node_binary ..) (.nil)))))))))))))))))))))))))))))))))))))))

noncomputable def L_main_part5_s3  : List (HloOp τ sig (Elt F)) :=
  [ StableHlo.unary main_v280 main_v281 ((extractStridedSlice S1x2 ![0, 0] · slices_S2x2_S1x2_0_0) : (⟨S2x2, .i32⟩ : BufTy).Contents (Elt F) → (⟨S1x2, .i32⟩ : BufTy).Contents (Elt F)) ]

theorem P_main_part5_s3  : (L_main_part5_s3 (F := F) ).Forall OpOk := by
  unfold L_main_part5_s3
  exact ⟨unary_bufs_sub .., rfl⟩

noncomputable def WR_main_part5_s3  : List (Ref sig .tc × List (Ref sig .tc)) :=
  [ (main_v281, [main_v280]) ]

theorem Nd_main_part5_s3  : List.Forall₂ Node (L_main_part5_s3 (F := F) ) (WR_main_part5_s3 ) :=
  .cons (node_unary ..) (.nil)

noncomputable def L_main_part5  : List (HloOp τ sig (Elt F)) :=
  (L_main_part5_s0) ++ ((L_fn_threefry_split_1_body (.of main_v208) main_call12) ++ ((L_main_part5_s1) ++ ((L_fn_uniform_body (.of main_v247) (.of main_cst_66) (.of main_cst_67) main_call13) ++ ((L_main_part5_s2) ++ ((L_fn_threefry_split_1_body (.of main_v245) main_call14) ++ ((L_main_part5_s3)))))))

theorem P_main_part5  : (L_main_part5 (F := F) ).Forall OpOk :=
  forall_append (P_main_part5_s0) (forall_append (P_fn_threefry_split_1_body (.of main_v208) main_call12) (forall_append (P_main_part5_s1) (forall_append (P_fn_uniform_body (.of main_v247) (.of main_cst_66) (.of main_cst_67) main_call13) (forall_append (P_main_part5_s2) (forall_append (P_fn_threefry_split_1_body (.of main_v245) main_call14) ((P_main_part5_s3)))))))

noncomputable def WR_main_part5  : List (Ref sig .tc × List (Ref sig .tc)) :=
  (WR_main_part5_s0) ++ ((WR_fn_threefry_split_1_body (.of main_v208) main_call12) ++ ((WR_main_part5_s1) ++ ((WR_fn_uniform_body (.of main_v247) (.of main_cst_66) (.of main_cst_67) main_call13) ++ ((WR_main_part5_s2) ++ ((WR_fn_threefry_split_1_body (.of main_v245) main_call14) ++ ((WR_main_part5_s3)))))))

theorem Nd_main_part5  : List.Forall₂ Node (L_main_part5 (F := F) ) (WR_main_part5 ) :=
  f2_append (Nd_main_part5_s0) (f2_append (Nd_fn_threefry_split_1_body (.of main_v208) main_call12) (f2_append (Nd_main_part5_s1) (f2_append (Nd_fn_uniform_body (.of main_v247) (.of main_cst_66) (.of main_cst_67) main_call13) (f2_append (Nd_main_part5_s2) (f2_append (Nd_fn_threefry_split_1_body (.of main_v245) main_call14) ((Nd_main_part5_s3)))))))

theorem E_main_part5 (d : Dev nD) : main_part5 (F := F) d = seq (L_main_part5 ) := by
  simp only [main_part5, L_main_part5, seq_append, E_fn_threefry_split_1_body, E_fn_uniform_body, L_main_part5_s0, L_main_part5_s1, L_main_part5_s2, L_main_part5_s3, seq, bind_assoc, pure_bind]
  try rfl

end Cert.ReferenceIdeal.Hand

end
-- ==== Proof.RefOpsM6.lean ====
import proofs.«213024_g80238579024365_cont_9to1c4b_497_7_alg».proof.Proof.RefOpsFns

set_option maxRecDepth 16384
set_option maxHeartbeats 4000000

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

noncomputable def L_main_part6_s0  : List (HloOp τ sig (Elt F)) :=
  [ StableHlo.reshape main_v281 main_v282 rfl shapeCasts_S1x2_S2,
    StableHlo.unary main_v280 main_v283 ((extractStridedSlice S1x2 ![1, 0] · slices_S2x2_S1x2_1_0) : (⟨S2x2, .i32⟩ : BufTy).Contents (Elt F) → (⟨S1x2, .i32⟩ : BufTy).Contents (Elt F)),
    StableHlo.reshape main_v283 main_v284 rfl shapeCasts_S1x2_S2,
    StableHlo.nullary main_cst_76 (constant S_ .f32 0x00000000#32),
    StableHlo.nullary main_cst_77 (constant S_ .f32 0x3F800000#32) ]

theorem P_main_part6_s0  : (L_main_part6_s0 (F := F) ).Forall OpOk := by
  unfold L_main_part6_s0
  exact ⟨⟨reshape_bufs_sub .., rfl⟩, ⟨unary_bufs_sub .., rfl⟩, ⟨reshape_bufs_sub .., rfl⟩, ⟨nullary_bufs_sub .., rfl⟩, ⟨nullary_bufs_sub .., rfl⟩⟩

noncomputable def WR_main_part6_s0  : List (Ref sig .tc × List (Ref sig .tc)) :=
  [ (main_v282, [main_v281]),
    (main_v283, [main_v280]),
    (main_v284, [main_v283]),
    (main_cst_76, []),
    (main_cst_77, []) ]

theorem Nd_main_part6_s0  : List.Forall₂ Node (L_main_part6_s0 (F := F) ) (WR_main_part6_s0 ) :=
  .cons (node_reshape ..) (.cons (node_unary ..) (.cons (node_reshape ..) (.cons (node_nullary ..) (.cons (node_nullary ..) (.nil)))))

noncomputable def L_main_part6_s1  : List (HloOp τ sig (Elt F)) :=
  [ StableHlo.unary main_v279 main_v286 (Host.negf : (⟨S128, .f32⟩ : BufTy).Contents (Elt F) → (⟨S128, .f32⟩ : BufTy).Contents (Elt F)),
    StableHlo.unary main_v286 main_v287 (Host.exp : (⟨S128, .f32⟩ : BufTy).Contents (Elt F) → (⟨S128, .f32⟩ : BufTy).Contents (Elt F)),
    StableHlo.nullary main_cst_78 (constant S_ .f32 0x3F800000#32),
    StableHlo.unary main_cst_78 main_v288 (broadcastInDim S128 ![] bcast_S_S128 : (⟨S_, .f32⟩ : BufTy).Contents (Elt F) → (⟨S128, .f32⟩ : BufTy).Contents (Elt F)),
    StableHlo.binary main_v288 main_v287 main_v289 (addf : (⟨S128, .f32⟩ : BufTy).Contents (Elt F) → (⟨S128, .f32⟩ : BufTy).Contents (Elt F) → (⟨S128, .f32⟩ : BufTy).Contents (Elt F)),
    StableHlo.nullary main_cst_79 (constant S_ .f32 0x3F800000#32),
    StableHlo.unary main_cst_79 main_v290 (broadcastInDim S128 ![] bcast_S_S128 : (⟨S_, .f32⟩ : BufTy).Contents (Elt F) → (⟨S128, .f32⟩ : BufTy).Contents (Elt F)),
    StableHlo.binary main_v290 main_v289 main_v291 (Host.divf : (⟨S128, .f32⟩ : BufTy).Contents (Elt F) → (⟨S128, .f32⟩ : BufTy).Contents (Elt F) → (⟨S128, .f32⟩ : BufTy).Contents (Elt F)),
    StableHlo.binary main_v285 main_v291 main_v292 (cmpf .olt : (⟨S128, .f32⟩ : BufTy).Contents (Elt F) → (⟨S128, .f32⟩ : BufTy).Contents (Elt F) → (⟨S128, .i1⟩ : BufTy).Contents (Elt F)),
    StableHlo.unary main_v292 main_v293 (uitofp .f32 : (⟨S128, .i1⟩ : BufTy).Contents (Elt F) → (⟨S128, .f32⟩ : BufTy).Contents (Elt F)),
    StableHlo.unary main_v293 main_v294 (broadcastInDim S128x1 ![0] bcast_S128_S128x1_0 : (⟨S128, .f32⟩ : BufTy).Contents (Elt F) → (⟨S128x1, .f32⟩ : BufTy).Contents (Elt F)),
    StableHlo.unary main_v294 main_v295 (broadcastInDim S128x4096 ![0, 1] bcast_S128x1_S128x4096_0_1 : (⟨S128x1, .f32⟩ : BufTy).Contents (Elt F) → (⟨S128x4096, .f32⟩ : BufTy).Contents (Elt F)),
    StableHlo.binary main_v277 main_v295 main_v296 (mulf : (⟨S128x4096, .f32⟩ : BufTy).Contents (Elt F) → (⟨S128x4096, .f32⟩ : BufTy).Contents (Elt F) → (⟨S128x4096, .f32⟩ : BufTy).Contents (Elt F)),
    StableHlo.unary main_v293 main_v297 (broadcastInDim S128x1 ![0] bcast_S128_S128x1_0 : (⟨S128, .f32⟩ : BufTy).Contents (Elt F) → (⟨S128x1, .f32⟩ : BufTy).Contents (Elt F)),
    StableHlo.nullary main_cst_80 (constant S_ .f32 0x3F800000#32),
    StableHlo.unary main_cst_80 main_v298 (broadcastInDim S128x1 ![] bcast_S_S128x1 : (⟨S_, .f32⟩ : BufTy).Contents (Elt F) → (⟨S128x1, .f32⟩ : BufTy).Contents (Elt F)),
    StableHlo.binary main_v298 main_v297 main_v299 (subf : (⟨S128x1, .f32⟩ : BufTy).Contents (Elt F) → (⟨S128x1, .f32⟩ : BufTy).Contents (Elt F) → (⟨S128x1, .f32⟩ : BufTy).Contents (Elt F)),
    StableHlo.unary main_v299 main_v300 (broadcastInDim S128x4096 ![0, 1] bcast_S128x1_S128x4096_0_1 : (⟨S128x1, .f32⟩ : BufTy).Contents (Elt F) → (⟨S128x4096, .f32⟩ : BufTy).Contents (Elt F)),
    StableHlo.binary main_v265 main_v300 main_v301 (mulf : (⟨S128x4096, .f32⟩ : BufTy).Contents (Elt F) → (⟨S128x4096, .f32⟩ : BufTy).Contents (Elt F) → (⟨S128x4096, .f32⟩ : BufTy).Contents (Elt F)),
    StableHlo.binary main_v296 main_v301 main_v302 (addf : (⟨S128x4096, .f32⟩ : BufTy).Contents (Elt F) → (⟨S128x4096, .f32⟩ : BufTy).Contents (Elt F) → (⟨S128x4096, .f32⟩ : BufTy).Contents (Elt F)) ]

theorem P_main_part6_s1  : (L_main_part6_s1 (F := F) ).Forall OpOk := by
  unfold L_main_part6_s1
  exact ⟨⟨unary_bufs_sub .., rfl⟩, ⟨unary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨unary_bufs_sub .., rfl⟩, ⟨unary_bufs_sub .., rfl⟩, ⟨unary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩, ⟨binary_bufs_sub .., rfl⟩⟩

noncomputable def WR_main_part6_s1  : List (Ref sig .tc × List (Ref sig .tc)) :=
  [ (main_v286, [main_v279]),
    (main_v287, [main_v286]),
    (main_cst_78, []),
    (main_v288, [main_cst_78]),
    (main_v289, [main_v288, main_v287]),
    (main_cst_79, []),
    (main_v290, [main_cst_79]),
    (main_v291, [main_v290, main_v289]),
    (main_v292, [main_v285, main_v291]),
    (main_v293, [main_v292]),
    (main_v294, [main_v293]),
    (main_v295, [main_v294]),
    (main_v296, [main_v277, main_v295]),
    (main_v297, [main_v293]),
    (main_cst_80, []),
    (main_v298, [main_cst_80]),
    (main_v299, [main_v298, main_v297]),
    (main_v300, [main_v299]),
    (main_v301, [main_v265, main_v300]),
    (main_v302, [main_v296, main_v301]) ]

theorem Nd_main_part6_s1  : List.Forall₂ Node (L_main_part6_s1 (F := F) ) (WR_main_part6_s1 ) :=
  .cons (node_unary ..) (.cons (node_unary ..) (.cons (node_nullary ..) (.cons (node_unary ..) (.cons (node_binary ..) (.cons (node_nullary ..) (.cons (node_unary ..) (.cons (node_binary ..) (.cons (node_binary ..) (.cons (node_unary ..) (.cons (node_unary ..) (.cons (node_unary ..) (.cons (node_binary ..) (.cons (node_unary ..) (.cons (node_nullary ..) (.cons (node_unary ..) (.cons (node_binary ..) (.cons (node_unary ..) (.cons (node_binary ..) (.cons (node_binary ..) (.nil))))))))))))))))))))

noncomputable def L_main_part6  : List (HloOp τ sig (Elt F)) :=
  (L_main_part6_s0) ++ ((L_fn_uniform_body (.of main_v284) (.of main_cst_76) (.of main_cst_77) main_call15) ++ ((L_main_part6_s1)))

theorem P_main_part6  : (L_main_part6 (F := F) ).Forall OpOk :=
  forall_append (P_main_part6_s0) (forall_append (P_fn_uniform_body (.of main_v284) (.of main_cst_76) (.of main_cst_77) main_call15) ((P_main_part6_s1)))

noncomputable def WR_main_part6  : List (Ref sig .tc × List (Ref sig .tc)) :=
  (WR_main_part6_s0) ++ ((WR_fn_uniform_body (.of main_v284) (.of main_cst_76) (.of main_cst_77) main_call15) ++ ((WR_main_part6_s1)))

theorem Nd_main_part6  : List.Forall₂ Node (L_main_part6 (F := F) ) (WR_main_part6 ) :=
  f2_append (Nd_main_part6_s0) (f2_append (Nd_fn_uniform_body (.of main_v284) (.of main_cst_76) (.of main_cst_77) main_call15) ((Nd_main_part6_s1)))

theorem E_main_part6 (d : Dev nD) : main_part6 (F := F) d = seq (L_main_part6 ) := by
  simp only [main_part6, L_main_part6, seq_append, E_fn_uniform_body, L_main_part6_s0, L_main_part6_s1, seq, bind_assoc, pure_bind]
  try rfl

end Cert.ReferenceIdeal.Hand

end
-- ==== Proof.RefOps.lean ====
import proofs.«213024_g80238579024365_cont_9to1c4b_497_7_alg».proof.Proof.RefOpsM0
import proofs.«213024_g80238579024365_cont_9to1c4b_497_7_alg».proof.Proof.RefOpsM1
import proofs.«213024_g80238579024365_cont_9to1c4b_497_7_alg».proof.Proof.RefOpsM2
import proofs.«213024_g80238579024365_cont_9to1c4b_497_7_alg».proof.Proof.RefOpsM3
import proofs.«213024_g80238579024365_cont_9to1c4b_497_7_alg».proof.Proof.RefOpsM4
import proofs.«213024_g80238579024365_cont_9to1c4b_497_7_alg».proof.Proof.RefOpsM5
import proofs.«213024_g80238579024365_cont_9to1c4b_497_7_alg».proof.Proof.RefOpsM6

set_option maxRecDepth 16384
set_option maxHeartbeats 4000000

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

noncomputable def L_main  : List (HloOp τ sig (Elt F)) :=
  (L_main_part0) ++ ((L_main_part1) ++ ((L_main_part2) ++ ((L_main_part3) ++ ((L_main_part4) ++ ((L_main_part5) ++ ((L_main_part6)))))))

theorem P_main  : (L_main (F := F) ).Forall OpOk :=
  forall_append (P_main_part0) (forall_append (P_main_part1) (forall_append (P_main_part2) (forall_append (P_main_part3) (forall_append (P_main_part4) (forall_append (P_main_part5) ((P_main_part6)))))))

noncomputable def WR_main  : List (Ref sig .tc × List (Ref sig .tc)) :=
  (WR_main_part0) ++ ((WR_main_part1) ++ ((WR_main_part2) ++ ((WR_main_part3) ++ ((WR_main_part4) ++ ((WR_main_part5) ++ ((WR_main_part6)))))))

theorem Nd_main  : List.Forall₂ Node (L_main (F := F) ) (WR_main ) :=
  f2_append (Nd_main_part0) (f2_append (Nd_main_part1) (f2_append (Nd_main_part2) (f2_append (Nd_main_part3) (f2_append (Nd_main_part4) (f2_append (Nd_main_part5) ((Nd_main_part6)))))))

theorem E_main (d : Dev nD) : main (F := F) d = seq (L_main ) := by
  simp only [main, L_main, seq_append, E_main_part0, E_main_part1, E_main_part2, E_main_part3, E_main_part4, E_main_part5, E_main_part6, seq, bind_assoc, pure_bind]
  try rfl

end Cert.ReferenceIdeal.Hand

end
-- ==== Proof.RefRun.lean ====
import proofs.«213024_g80238579024365_cont_9to1c4b_497_7_alg».proof.Proof.RefOps

set_option maxRecDepth 16384
set_option maxHeartbeats 4000000

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by
  rw [Finset.filter_eq_empty_iff]
  rintro ⟨sp, i, hn⟩ -
  cases sp with
  | hbm => exact Bool.false_ne_true
  | host => exact Bool.false_ne_true
  | shared => exact i.elim0
  | core cs => cases cs <;> exact i.elim0

theorem scopedSems_eq : (Finset.univ.filter fun sm : SemLoc sig => sm.isScoped .tc) = ∅ := by decide

/-- Every weakly fair execution of the reference's @main terminates, each buffer ending at the fold of the program's
    operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (L_main (F := F)) (launchContents m c) (b : DevRef τ sig) :=
  run_seq scopedRefs_eq scopedSems_eq defs main (fun _ => L_main) E_main
    (fun _ => List.forall_iff_forall_mem.2 fun op h => (List.forall_iff_forall_mem.1 P_main op h).1) m ρ
    (fun _ op h => (List.forall_iff_forall_mem.1 P_main op h).2)

end Cert.ReferenceIdeal.Hand

end
-- ==== Proof.RefArgs.lean ====
import proofs.«213024_g80238579024365_cont_9to1c4b_497_7_alg».proof.Proof.RefRun

set_option maxRecDepth 16384
set_option maxHeartbeats 4000000

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- No operation of the program writes either argument array. -/
theorem arg0_not_written : main_arg0 ∉ (WR_main.map Prod.fst) := by decide +kernel
theorem arg1_not_written : main_arg1 ∉ (WR_main.map Prod.fst) := by decide +kernel

theorem arg0_kept (V : Valuation τ sig (Elt F)) : after (L_main (F := F)) V (main_arg0 : DevRef τ sig) = V (main_arg0 : DevRef τ sig) :=
  after_of_writes_sub L_main V (writes_sub_of_nodes Nd_main) arg0_not_written
theorem arg1_kept (V : Valuation τ sig (Elt F)) : after (L_main (F := F)) V (main_arg1 : DevRef τ sig) = V (main_arg1 : DevRef τ sig) :=
  after_of_writes_sub L_main V (writes_sub_of_nodes Nd_main) arg1_not_written

/-- The reference's frame: it runs to the end and leaves its arguments as they were. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_arg0).trans (arg0_kept _), (h c main_arg1).trans (arg1_kept _)⟩) (run_main m ρ)

end Cert.ReferenceIdeal.Hand

end
-- ==== Proof.RefSsa.lean ====
import proofs.«213024_g80238579024365_cont_9to1c4b_497_7_alg».proof.Proof.RefOps

set_option maxRecDepth 16384
set_option maxHeartbeats 4000000

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## Single-assignment order

A straight line is in single-assignment order when its buffers can be numbered so that every operation's target has a
number above the numbers of the buffers the operation reads and above every earlier target's number. Then no operation
overwrites a buffer that it, or an earlier operation, reads or writes, and the final contents satisfy every operation's
equation. Only "different numbers, hence different buffers" is used, so the numbering may be any function. -/

/-- The line's (target, reads) table is in order from the number `lo` on, for the numbering `k`: each target's number is
    at least `lo` and above the number of every buffer read, and the rest is in order from the next number on. -/
def Ordered (k : Ref sig .tc → Nat) : Nat → List (Ref sig .tc × List (Ref sig .tc)) → Prop
  | _, [] => True
  | lo, p :: rest => lo ≤ k p.1 ∧ (∀ r ∈ p.2, k r < k p.1) ∧ Ordered k (k p.1 + 1) rest

/-- A buffer numbered below every target of a line in order keeps its contents along the line. -/
theorem after_of_lt {k : Ref sig .tc → Nat} {L : List (HloOp τ sig (Elt F))} {WR : List (Ref sig .tc × List (Ref sig .tc))}
    (h : List.Forall₂ Node L WR) :
    ∀ {lo : Nat}, Ordered k lo WR → ∀ r : Ref sig .tc, k r < lo → ∀ V : Valuation τ sig (Elt F),
      after L V (r : DevRef τ sig) = V (r : DevRef τ sig) := by
  induction h with
  | nil => intro lo _ r _ V; rfl
  | @cons op p ops wr hop hrest ih =>
    intro lo ho r hr V
    obtain ⟨h1, h2, h3⟩ := ho
    rw [after_cons, ih h3 r (by omega) (op.result V), op.result_of_not_mem]
    rw [hop.writes, Finset.mem_singleton]
    intro e
    have e' : r = p.1 := Proc.devRef_injective _ e
    subst e'
    omega

/-- The contents after a line in single-assignment order satisfy every operation's equation. -/
theorem sat_of_ordered {k : Ref sig .tc → Nat} {L : List (HloOp τ sig (Elt F))} {WR : List (Ref sig .tc × List (Ref sig .tc))}
    (h : List.Forall₂ Node L WR) :
    ∀ {lo : Nat}, Ordered k lo WR → ∀ V : Valuation τ sig (Elt F), ∀ op ∈ L, Sat (after L V) op := by
  induction h with
  | nil => intro lo _ V op hop; cases hop
  | @cons op p ops wr hop hrest ih =>
    intro lo ho V o hmem
    obtain ⟨h1, h2, h3⟩ := ho
    rw [after_cons]
    rcases List.mem_cons.1 hmem with rfl | hm
    · intro d hd
      rw [hop.writes, Finset.mem_singleton] at hd
      subst hd
      rw [after_of_lt hrest h3 p.1 (Nat.lt_succ_self _) (o.result V)]
      apply hop.reads
      intro r hr
      have hlt := h2 r hr
      rw [after_of_lt hrest h3 r (by omega) (o.result V), o.result_of_not_mem]
      rw [hop.writes, Finset.mem_singleton]
      intro e
      have e' : r = p.1 := Proc.devRef_injective _ e
      subst e'
      omega
    · exact ih h3 (op.result V) o hm

/-! ### The order, decided on numbers -/

/-- Every number of the list is below `t`. -/
def chkReads (t : Nat) : List Nat → Bool
  | [] => true
  | r :: rs => Nat.blt r t && chkReads t rs

/-- `Ordered`, on the table of numbers. -/
def chk : Nat → List (Nat × List Nat) → Bool
  | _, [] => true
  | lo, p :: rest => Nat.ble lo p.1 && (chkReads p.1 p.2 && chk (p.1 + 1) rest)

theorem lt_of_chkReads (k : Ref sig .tc → Nat) (t : Nat) :
    ∀ rs : List (Ref sig .tc), chkReads t (rs.map k) = true → ∀ r ∈ rs, k r < t
  | [], _, r, hr => by cases hr
  | a :: rs, h, r, hr => by
    simp only [List.map_cons, chkReads, Bool.and_eq_true, Nat.blt_eq] at h
    rcases List.mem_cons.1 hr with rfl | hr
    · exact h.1
    · exact lt_of_chkReads k t rs h.2 r hr

theorem ordered_of_chk (k : Ref sig .tc → Nat) :
    ∀ (WR : List (Ref sig .tc × List (Ref sig .tc))) (lo : Nat),
      chk lo (WR.map fun p => (k p.1, p.2.map k)) = true → Ordered k lo WR
  | [], _, _ => trivial
  | p :: rest, lo, h => by
    simp only [List.map_cons, chk, Bool.and_eq_true, Nat.ble_eq] at h
    exact ⟨h.1, lt_of_chkReads k _ p.2 h.2.1, ordered_of_chk k rest _ h.2.2⟩

/-- The numbering: a buffer's index within its memory space. -/
def refNum (r : Ref sig .tc) : Nat := r.idx.val

/-- The reference's line is in order for that numbering: its buffers are numbered in program order. -/
theorem chk_main : chk 0 (WR_main.map fun p => (refNum p.1, p.2.map refNum)) = true := by decide +kernel

/-- The final contents of the reference's line satisfy every operation's equation. -/
theorem sat_main (V : Valuation τ sig (Elt F)) : ∀ op ∈ L_main (F := F), Sat (after (L_main (F := F)) V) op :=
  sat_of_ordered Nd_main (ordered_of_chk refNum WR_main 0 chk_main) V

end Cert.ReferenceIdeal.Hand

end
-- ==== Proof.RefPaths.lean ====
import proofs.«213024_g80238579024365_cont_9to1c4b_497_7_alg».proof.Proof.RefOps

set_option maxRecDepth 16384
set_option maxHeartbeats 4000000

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem sub_p0s0 : ∀ op ∈ (L_main_part0_s0 : List (HloOp τ sig (Elt F))), op ∈ L_main (F := F) := by
  intro op h
  unfold L_main L_main_part0
  exact List.mem_append_left _ (List.mem_append_left _ (h))

theorem sub_call_main_call0 : ∀ op ∈ (L_fn_threefry_split_body (.of main_v6) main_call0 : List (HloOp τ sig (Elt F))), op ∈ L_main (F := F) := by
  intro op h
  unfold L_main L_main_part0
  exact List.mem_append_left _ (List.mem_append_right _ (List.mem_append_left _ (h)))

theorem sub_p0s1 : ∀ op ∈ (L_main_part0_s1 : List (HloOp τ sig (Elt F))), op ∈ L_main (F := F) := by
  intro op h
  unfold L_main L_main_part0
  exact List.mem_append_left _ (List.mem_append_right _ (List.mem_append_right _ (List.mem_append_left _ (h))))

theorem sub_call_main_call1 : ∀ op ∈ (L_fn_uniform_body (.of main_v25) (.of main_cst_6) (.of main_cst_7) main_call1 : List (HloOp τ sig (Elt F))), op ∈ L_main (F := F) := by
  intro op h
  unfold L_main L_main_part0
  exact List.mem_append_left _ (List.mem_append_right _ (List.mem_append_right _ (List.mem_append_right _ (List.mem_append_left _ (h)))))

theorem sub_p0s2 : ∀ op ∈ (L_main_part0_s2 : List (HloOp τ sig (Elt F))), op ∈ L_main (F := F) := by
  intro op h
  unfold L_main L_main_part0
  exact List.mem_append_left _ (List.mem_append_right _ (List.mem_append_right _ (List.mem_append_right _ (List.mem_append_right _ (h)))))

theorem sub_p1s0 : ∀ op ∈ (L_main_part1_s0 : List (HloOp τ sig (Elt F))), op ∈ L_main (F := F) := by
  intro op h
  unfold L_main L_main_part1
  exact List.mem_append_right _ (List.mem_append_left _ (List.mem_append_left _ (h)))

theorem sub_call_main_call2 : ∀ op ∈ (L_fn_threefry_split_1_body (.of main_v23) main_call2 : List (HloOp τ sig (Elt F))), op ∈ L_main (F := F) := by
  intro op h
  unfold L_main L_main_part1
  exact List.mem_append_right _ (List.mem_append_left _ (List.mem_append_right _ (List.mem_append_left _ (h))))

theorem sub_p1s1 : ∀ op ∈ (L_main_part1_s1 : List (HloOp τ sig (Elt F))), op ∈ L_main (F := F) := by
  intro op h
  unfold L_main L_main_part1
  exact List.mem_append_right _ (List.mem_append_left _ (List.mem_append_right _ (List.mem_append_right _ (List.mem_append_left _ (h)))))

theorem sub_call_main_call3 : ∀ op ∈ (L_fn_uniform_body (.of main_v62) (.of main_cst_16) (.of main_cst_17) main_call3 : List (HloOp τ sig (Elt F))), op ∈ L_main (F := F) := by
  intro op h
  unfold L_main L_main_part1
  exact List.mem_append_right _ (List.mem_append_left _ (List.mem_append_right _ (List.mem_append_right _ (List.mem_append_right _ (List.mem_append_left _ (h))))))

theorem sub_p1s2 : ∀ op ∈ (L_main_part1_s2 : List (HloOp τ sig (Elt F))), op ∈ L_main (F := F) := by
  intro op h
  unfold L_main L_main_part1
  exact List.mem_append_right _ (List.mem_append_left _ (List.mem_append_right _ (List.mem_append_right _ (List.mem_append_right _ (List.mem_append_right _ (h))))))

theorem sub_p2s0 : ∀ op ∈ (L_main_part2_s0 : List (HloOp τ sig (Elt F))), op ∈ L_main (F := F) := by
  intro op h
  unfold L_main L_main_part2
  exact List.mem_append_right _ (List.mem_append_right _ (List.mem_append_left _ (List.mem_append_left _ (h))))

theorem sub_call_main_call4 : ∀ op ∈ (L_fn_threefry_split_1_body (.of main_v60) main_call4 : List (HloOp τ sig (Elt F))), op ∈ L_main (F := F) := by
  intro op h
  unfold L_main L_main_part2
  exact List.mem_append_right _ (List.mem_append_right _ (List.mem_append_left _ (List.mem_append_right _ (List.mem_append_left _ (h)))))

theorem sub_p2s1 : ∀ op ∈ (L_main_part2_s1 : List (HloOp τ sig (Elt F))), op ∈ L_main (F := F) := by
  intro op h
  unfold L_main L_main_part2
  exact List.mem_append_right _ (List.mem_append_right _ (List.mem_append_left _ (List.mem_append_right _ (List.mem_append_right _ (List.mem_append_left _ (h))))))

theorem sub_call_main_call5 : ∀ op ∈ (L_fn_uniform_body (.of main_v99) (.of main_cst_26) (.of main_cst_27) main_call5 : List (HloOp τ sig (Elt F))), op ∈ L_main (F := F) := by
  intro op h
  unfold L_main L_main_part2
  exact List.mem_append_right _ (List.mem_append_right _ (List.mem_append_left _ (List.mem_append_right _ (List.mem_append_right _ (List.mem_append_right _ (List.mem_append_left _ (h)))))))

theorem sub_p2s2 : ∀ op ∈ (L_main_part2_s2 : List (HloOp τ sig (Elt F))), op ∈ L_main (F := F) := by
  intro op h
  unfold L_main L_main_part2
  exact List.mem_append_right _ (List.mem_append_right _ (List.mem_append_left _ (List.mem_append_right _ (List.mem_append_right _ (List.mem_append_right _ (List.mem_append_right _ (List.mem_append_left _ (h))))))))

theorem sub_call_main_call6 : ∀ op ∈ (L_fn_threefry_split_1_body (.of main_v97) main_call6 : List (HloOp τ sig (Elt F))), op ∈ L_main (F := F) := by
  intro op h
  unfold L_main L_main_part2
  exact List.mem_append_right _ (List.mem_append_right _ (List.mem_append_left _ (List.mem_append_right _ (List.mem_append_right _ (List.mem_append_right _ (List.mem_append_right _ (List.mem_append_right _ (List.mem_append_left _ (h)))))))))

theorem sub_p2s3 : ∀ op ∈ (L_main_part2_s3 : List (HloOp τ sig (Elt F))), op ∈ L_main (F := F) := by
  intro op h
  unfold L_main L_main_part2
  exact List.mem_append_right _ (List.mem_append_right _ (List.mem_append_left _ (List.mem_append_right _ (List.mem_append_right _ (List.mem_append_right _ (List.mem_append_right _ (List.mem_append_right _ (List.mem_append_right _ (List.mem_append_left _ (h))))))))))

theorem sub_call_main_call7 : ∀ op ∈ (L_fn_uniform_body (.of main_v136) (.of main_cst_36) (.of main_cst_37) main_call7 : List (HloOp τ sig (Elt F))), op ∈ L_main (F := F) := by
  intro op h
  unfold L_main L_main_part2
  exact List.mem_append_right _ (List.mem_append_right _ (List.mem_append_left _ (List.mem_append_right _ (List.mem_append_right _ (List.mem_append_right _ (List.mem_append_right _ (List.mem_append_right _ (List.mem_append_right _ (List.mem_append_right _ (List.mem_append_left _ (h)))))))))))

theorem sub_p2s4 : ∀ op ∈ (L_main_part2_s4 : List (HloOp τ sig (Elt F))), op ∈ L_main (F := F) := by
  intro op h
  unfold L_main L_main_part2
  exact List.mem_append_right _ (List.mem_append_right _ (List.mem_append_left _ (List.mem_append_right _ (List.mem_append_right _ (List.mem_append_right _ (List.mem_append_right _ (List.mem_append_right _ (List.mem_append_right _ (List.mem_append_right _ (List.mem_append_right _ (h)))))))))))

theorem sub_p3s0 : ∀ op ∈ (L_main_part3_s0 : List (HloOp τ sig (Elt F))), op ∈ L_main (F := F) := by
  intro op h
  unfold L_main L_main_part3
  exact List.mem_append_right _ (List.mem_append_right _ (List.mem_append_right _ (List.mem_append_left _ (List.mem_append_left _ (h)))))

theorem sub_call_main_call8 : ∀ op ∈ (L_fn_threefry_split_1_body (.of main_v134) main_call8 : List (HloOp τ sig (Elt F))), op ∈ L_main (F := F) := by
  intro op h
  unfold L_main L_main_part3
  exact List.mem_append_right _ (List.mem_append_right _ (List.mem_append_right _ (List.mem_append_left _ (List.mem_append_right _ (List.mem_append_left _ (h))))))

theorem sub_p3s1 : ∀ op ∈ (L_main_part3_s1 : List (HloOp τ sig (Elt F))), op ∈ L_main (F := F) := by
  intro op h
  unfold L_main L_main_part3
  exact List.mem_append_right _ (List.mem_append_right _ (List.mem_append_right _ (List.mem_append_left _ (List.mem_append_right _ (List.mem_append_right _ (List.mem_append_left _ (h)))))))

theorem sub_call_main_call9 : ∀ op ∈ (L_fn_uniform_body (.of main_v173) (.of main_cst_46) (.of main_cst_47) main_call9 : List (HloOp τ sig (Elt F))), op ∈ L_main (F := F) := by
  intro op h
  unfold L_main L_main_part3
  exact List.mem_append_right _ (List.mem_append_right _ (List.mem_append_right _ (List.mem_append_left _ (List.mem_append_right _ (List.mem_append_right _ (List.mem_append_right _ (List.mem_append_left _ (h))))))))

theorem sub_p3s2 : ∀ op ∈ (L_main_part3_s2 : List (HloOp τ sig (Elt F))), op ∈ L_main (F := F) := by
  intro op h
  unfold L_main L_main_part3
  exact List.mem_append_right _ (List.mem_append_right _ (List.mem_append_right _ (List.mem_append_left _ (List.mem_append_right _ (List.mem_append_right _ (List.mem_append_right _ (List.mem_append_right _ (h))))))))

theorem sub_p4s0 : ∀ op ∈ (L_main_part4_s0 : List (HloOp τ sig (Elt F))), op ∈ L_main (F := F) := by
  intro op h
  unfold L_main L_main_part4
  exact List.mem_append_right _ (List.mem_append_right _ (List.mem_append_right _ (List.mem_append_right _ (List.mem_append_left _ (List.mem_append_left _ (h))))))

theorem sub_call_main_call10 : ∀ op ∈ (L_fn_threefry_split_1_body (.of main_v171) main_call10 : List (HloOp τ sig (Elt F))), op ∈ L_main (F := F) := by
  intro op h
  unfold L_main L_main_part4
  exact List.mem_append_right _ (List.mem_append_right _ (List.mem_append_right _ (List.mem_append_right _ (List.mem_append_left _ (List.mem_append_right _ (List.mem_append_left _ (h)))))))

theorem sub_p4s1 : ∀ op ∈ (L_main_part4_s1 : List (HloOp τ sig (Elt F))), op ∈ L_main (F := F) := by
  intro op h
  unfold L_main L_main_part4
  exact List.mem_append_right _ (List.mem_append_right _ (List.mem_append_right _ (List.mem_append_right _ (List.mem_append_left _ (List.mem_append_right _ (List.mem_append_right _ (List.mem_append_left _ (h))))))))

theorem sub_call_main_call11 : ∀ op ∈ (L_fn_uniform_body (.of main_v210) (.of main_cst_56) (.of main_cst_57) main_call11 : List (HloOp τ sig (Elt F))), op ∈ L_main (F := F) := by
  intro op h
  unfold L_main L_main_part4
  exact List.mem_append_right _ (List.mem_append_right _ (List.mem_append_right _ (List.mem_append_right _ (List.mem_append_left _ (List.mem_append_right _ (List.mem_append_right _ (List.mem_append_right _ (List.mem_append_left _ (h)))))))))

theorem sub_p4s2 : ∀ op ∈ (L_main_part4_s2 : List (HloOp τ sig (Elt F))), op ∈ L_main (F := F) := by
  intro op h
  unfold L_main L_main_part4
  exact List.mem_append_right _ (List.mem_append_right _ (List.mem_append_right _ (List.mem_append_right _ (List.mem_append_left _ (List.mem_append_right _ (List.mem_append_right _ (List.mem_append_right _ (List.mem_append_right _ (h)))))))))

theorem sub_p5s0 : ∀ op ∈ (L_main_part5_s0 : List (HloOp τ sig (Elt F))), op ∈ L_main (F := F) := by
  intro op h
  unfold L_main L_main_part5
  exact List.mem_append_right _ (List.mem_append_right _ (List.mem_append_right _ (List.mem_append_right _ (List.mem_append_right _ (List.mem_append_left _ (List.mem_append_left _ (h)))))))

theorem sub_call_main_call12 : ∀ op ∈ (L_fn_threefry_split_1_body (.of main_v208) main_call12 : List (HloOp τ sig (Elt F))), op ∈ L_main (F := F) := by
  intro op h
  unfold L_main L_main_part5
  exact List.mem_append_right _ (List.mem_append_right _ (List.mem_append_right _ (List.mem_append_right _ (List.mem_append_right _ (List.mem_append_left _ (List.mem_append_right _ (List.mem_append_left _ (h))))))))

theorem sub_p5s1 : ∀ op ∈ (L_main_part5_s1 : List (HloOp τ sig (Elt F))), op ∈ L_main (F := F) := by
  intro op h
  unfold L_main L_main_part5
  exact List.mem_append_right _ (List.mem_append_right _ (List.mem_append_right _ (List.mem_append_right _ (List.mem_append_right _ (List.mem_append_left _ (List.mem_append_right _ (List.mem_append_right _ (List.mem_append_left _ (h)))))))))

theorem sub_call_main_call13 : ∀ op ∈ (L_fn_uniform_body (.of main_v247) (.of main_cst_66) (.of main_cst_67) main_call13 : List (HloOp τ sig (Elt F))), op ∈ L_main (F := F) := by
  intro op h
  unfold L_main L_main_part5
  exact List.mem_append_right _ (List.mem_append_right _ (List.mem_append_right _ (List.mem_append_right _ (List.mem_append_right _ (List.mem_append_left _ (List.mem_append_right _ (List.mem_append_right _ (List.mem_append_right _ (List.mem_append_left _ (h))))))))))

theorem sub_p5s2 : ∀ op ∈ (L_main_part5_s2 : List (HloOp τ sig (Elt F))), op ∈ L_main (F := F) := by
  intro op h
  unfold L_main L_main_part5
  exact List.mem_append_right _ (List.mem_append_right _ (List.mem_append_right _ (List.mem_append_right _ (List.mem_append_right _ (List.mem_append_left _ (List.mem_append_right _ (List.mem_append_right _ (List.mem_append_right _ (List.mem_append_right _ (List.mem_append_left _ (h)))))))))))

theorem sub_call_main_call14 : ∀ op ∈ (L_fn_threefry_split_1_body (.of main_v245) main_call14 : List (HloOp τ sig (Elt F))), op ∈ L_main (F := F) := by
  intro op h
  unfold L_main L_main_part5
  exact List.mem_append_right _ (List.mem_append_right _ (List.mem_append_right _ (List.mem_append_right _ (List.mem_append_right _ (List.mem_append_left _ (List.mem_append_right _ (List.mem_append_right _ (List.mem_append_right _ (List.mem_append_right _ (List.mem_append_right _ (List.mem_append_left _ (h))))))))))))

theorem sub_p5s3 : ∀ op ∈ (L_main_part5_s3 : List (HloOp τ sig (Elt F))), op ∈ L_main (F := F) := by
  intro op h
  unfold L_main L_main_part5
  exact List.mem_append_right _ (List.mem_append_right _ (List.mem_append_right _ (List.mem_append_right _ (List.mem_append_right _ (List.mem_append_left _ (List.mem_append_right _ (List.mem_append_right _ (List.mem_append_right _ (List.mem_append_right _ (List.mem_append_right _ (List.mem_append_right _ (h))))))))))))

theorem sub_p6s0 : ∀ op ∈ (L_main_part6_s0 : List (HloOp τ sig (Elt F))), op ∈ L_main (F := F) := by
  intro op h
  unfold L_main L_main_part6
  exact List.mem_append_right _ (List.mem_append_right _ (List.mem_append_right _ (List.mem_append_right _ (List.mem_append_right _ (List.mem_append_right _ (List.mem_append_left _ (h)))))))

theorem sub_call_main_call15 : ∀ op ∈ (L_fn_uniform_body (.of main_v284) (.of main_cst_76) (.of main_cst_77) main_call15 : List (HloOp τ sig (Elt F))), op ∈ L_main (F := F) := by
  intro op h
  unfold L_main L_main_part6
  exact List.mem_append_right _ (List.mem_append_right _ (List.mem_append_right _ (List.mem_append_right _ (List.mem_append_right _ (List.mem_append_right _ (List.mem_append_right _ (List.mem_append_left _ (h))))))))

theorem sub_p6s1 : ∀ op ∈ (L_main_part6_s1 : List (HloOp τ sig (Elt F))), op ∈ L_main (F := F) := by
  intro op h
  unfold L_main L_main_part6
  exact List.mem_append_right _ (List.mem_append_right _ (List.mem_append_right _ (List.mem_append_right _ (List.mem_append_right _ (List.mem_append_right _ (List.mem_append_right _ (List.mem_append_right _ (h))))))))

end Cert.ReferenceIdeal.Hand

end
-- ==== Proof.RefStepDef.lean ====
import proofs.«213024_g80238579024365_cont_9to1c4b_497_7_alg».proof.ReferenceIdeal
import proofs.«213024_g80238579024365_cont_9to1c4b_497_7_alg».proof.Proof.Gen.ReferenceIdeal
import Idealize.ShloMosaic.PureOps.Ideal

noncomputable section

namespace Cert.ReferenceIdeal.Step

open Cert.ReferenceIdeal Cert.ReferenceIdeal.Gen Idealize.ShloMosaic

/-- One Gibbs step as the program computes it, at the ideal values: `i` the coordinate flipped, `s` the sample,
    `θ` the weights, `u` the 128 draws.  `chg` is the indicator of column `i`, `sc` the sample with that column
    flipped, `lp` the change of the linear energy, `p` its logistic, `a` the indicator of acceptance. -/
def stepTerm (i : BitVec 32) (s : FVec Ideal S128x4096 .f32) (θ : FVec Ideal S4096 .f32) (u : FVec Ideal S128 .f32) : FVec Ideal S128x4096 .f32 :=
  let one := constant (F := Ideal) S_ .f32 0x3F800000#32
  let chg := Host.scatter scatter_S128x4096_S1_S128_0_1_1_0 (fun _ b => b) (broadcastInDim S128x4096 ![] bcast_S_S128x4096 (constant (F := Ideal) S_ .f32 0x00000000#32)) (broadcastInDim S1 ![] bcast_S_S1 (constantI S_ 32 i)) (broadcastInDim S128 ![] bcast_S_S128 one)
  let ones := broadcastInDim S128x4096 ![] bcast_S_S128x4096 one
  let sc := addf (mulf (subf ones chg) s) (mulf chg (subf ones s))
  let lp := subf (Host.dotGeneral dot_S128x4096_S4096_S128_1_0_0_n_n_n none sc θ) (Host.dotGeneral dot_S128x4096_S4096_S128_1_0_0_n_n_n none s θ)
  let ones128 := broadcastInDim S128 ![] bcast_S_S128 one
  let p := Host.divf ones128 (addf ones128 (Host.exp (Host.negf lp)))
  let a := uitofp .f32 (cmpf .olt u p)
  let aB := broadcastInDim S128x4096 ![0, 1] bcast_S128x1_S128x4096_0_1 (broadcastInDim S128x1 ![0] bcast_S128_S128x1_0 a)
  let naB := broadcastInDim S128x4096 ![0, 1] bcast_S128x1_S128x4096_0_1 (subf (broadcastInDim S128x1 ![] bcast_S_S128x1 one) (broadcastInDim S128x1 ![0] bcast_S128_S128x1_0 a))
  addf (mulf sc aB) (mulf s naB)

end Cert.ReferenceIdeal.Step

end
-- ==== Proof.RefGlue.lean ====
import proofs.«213024_g80238579024365_cont_9to1c4b_497_7_alg».proof.Proof.RefOps
import proofs.«213024_g80238579024365_cont_9to1c4b_497_7_alg».proof.Proof.RefStepDef

set_option maxRecDepth 16384
set_option maxHeartbeats 4000000

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Step 0 of the program, from its operations' equations: the sample after the step is the step's term of the sample before it, the
    weights and the step's draws. -/
theorem glue_0 (W : Valuation τ sig (Elt Ideal))
    (h_p0s0 : (L_main_part0_s0 (F := Ideal)).Forall (Sat W))
    (h_p0s2 : (L_main_part0_s2 (F := Ideal)).Forall (Sat W))
    : W (main_v43 : DevRef τ sig) = Cert.ReferenceIdeal.Step.stepTerm 0#32 (W (main_arg0 : DevRef τ sig)) (W (main_arg1 : DevRef τ sig)) (W (main_v26 : DevRef τ sig)) := by
  unfold L_main_part0_s0 at h_p0s0
  obtain ⟨a_p0s0_0, a_p0s0_1, a_p0s0_2, a_p0s0_3, a_p0s0_4, a_p0s0_5, a_p0s0_6, a_p0s0_7, a_p0s0_8, a_p0s0_9, a_p0s0_10, a_p0s0_11, a_p0s0_12, a_p0s0_13, a_p0s0_14, a_p0s0_15, a_p0s0_16, a_p0s0_17, a_p0s0_18, a_p0s0_19, a_p0s0_20, a_p0s0_21, a_p0s0_22, a_p0s0_23, a_p0s0_24, a_p0s0_25, a_p0s0_26, a_p0s0_27, a_p0s0_28⟩ := h_p0s0
  unfold L_main_part0_s2 at h_p0s2
  obtain ⟨a_p0s2_0, a_p0s2_1, a_p0s2_2, a_p0s2_3, a_p0s2_4, a_p0s2_5, a_p0s2_6, a_p0s2_7, a_p0s2_8, a_p0s2_9, a_p0s2_10, a_p0s2_11, a_p0s2_12, a_p0s2_13, a_p0s2_14, a_p0s2_15, a_p0s2_16, a_p0s2_17, a_p0s2_18, a_p0s2_19, a_p0s2_20, a_p0s2_21, a_p0s2_22⟩ := h_p0s2
  have e_main_v7 := sat_binary a_p0s0_10
  have e_main_cst := sat_nullary a_p0s0_11
  have e_main_v8 := sat_unary a_p0s0_12
  have e_main_c_2 := sat_nullary a_p0s0_13
  have e_main_v9 := sat_unary a_p0s0_14
  have e_main_cst_3 := sat_nullary a_p0s0_15
  have e_main_v10 := sat_unary a_p0s0_16
  have e_main_v11 := sat_ternary a_p0s0_17
  have e_main_cst_4 := sat_nullary a_p0s0_18
  have e_main_v12 := sat_unary a_p0s0_19
  have e_main_v13 := sat_binary a_p0s0_20
  have e_main_v14 := sat_binary a_p0s0_21
  have e_main_cst_5 := sat_nullary a_p0s0_22
  have e_main_v15 := sat_unary a_p0s0_23
  have e_main_v16 := sat_binary a_p0s0_24
  have e_main_v17 := sat_binary a_p0s0_25
  have e_main_v18 := sat_binary a_p0s0_26
  have e_main_v19 := sat_binary a_p0s0_27
  have e_main_v20 := sat_binary a_p0s0_28
  have e_main_v27 := sat_unary a_p0s2_0
  have e_main_v28 := sat_unary a_p0s2_1
  have e_main_cst_8 := sat_nullary a_p0s2_2
  have e_main_v29 := sat_unary a_p0s2_3
  have e_main_v30 := sat_binary a_p0s2_4
  have e_main_cst_9 := sat_nullary a_p0s2_5
  have e_main_v31 := sat_unary a_p0s2_6
  have e_main_v32 := sat_binary a_p0s2_7
  have e_main_v33 := sat_binary a_p0s2_8
  have e_main_v34 := sat_unary a_p0s2_9
  have e_main_v35 := sat_unary a_p0s2_10
  have e_main_v36 := sat_unary a_p0s2_11
  have e_main_v37 := sat_binary a_p0s2_12
  have e_main_v38 := sat_unary a_p0s2_13
  have e_main_cst_10 := sat_nullary a_p0s2_14
  have e_main_v39 := sat_unary a_p0s2_15
  have e_main_v40 := sat_binary a_p0s2_16
  have e_main_v41 := sat_unary a_p0s2_17
  have e_main_v42 := sat_binary a_p0s2_18
  have e_main_v43 := sat_binary a_p0s2_19
  rw [e_main_v43, e_main_v42, e_main_v41, e_main_v40, e_main_v39, e_main_cst_10, e_main_v38, e_main_v37, e_main_v36, e_main_v35, e_main_v34, e_main_v33, e_main_v32, e_main_v31, e_main_cst_9, e_main_v30, e_main_v29, e_main_cst_8, e_main_v28, e_main_v27, e_main_v20, e_main_v19, e_main_v18, e_main_v17, e_main_v16, e_main_v15, e_main_cst_5, e_main_v14, e_main_v13, e_main_v12, e_main_cst_4, e_main_v11, e_main_v10, e_main_cst_3, e_main_v9, e_main_c_2, e_main_v8, e_main_cst, e_main_v7]
  rfl

/-- Step 1 of the program, from its operations' equations: the sample after the step is the step's term of the sample before it, the
    weights and the step's draws. -/
theorem glue_1 (W : Valuation τ sig (Elt Ideal))
    (h_p0s2 : (L_main_part0_s2 (F := Ideal)).Forall (Sat W))
    (h_p1s0 : (L_main_part1_s0 (F := Ideal)).Forall (Sat W))
    (h_p1s2 : (L_main_part1_s2 (F := Ideal)).Forall (Sat W))
    : W (main_v80 : DevRef τ sig) = Cert.ReferenceIdeal.Step.stepTerm 1#32 (W (main_v43 : DevRef τ sig)) (W (main_arg1 : DevRef τ sig)) (W (main_v63 : DevRef τ sig)) := by
  unfold L_main_part0_s2 at h_p0s2
  obtain ⟨a_p0s2_0, a_p0s2_1, a_p0s2_2, a_p0s2_3, a_p0s2_4, a_p0s2_5, a_p0s2_6, a_p0s2_7, a_p0s2_8, a_p0s2_9, a_p0s2_10, a_p0s2_11, a_p0s2_12, a_p0s2_13, a_p0s2_14, a_p0s2_15, a_p0s2_16, a_p0s2_17, a_p0s2_18, a_p0s2_19, a_p0s2_20, a_p0s2_21, a_p0s2_22⟩ := h_p0s2
  unfold L_main_part1_s0 at h_p1s0
  obtain ⟨a_p1s0_0, a_p1s0_1, a_p1s0_2, a_p1s0_3, a_p1s0_4, a_p1s0_5, a_p1s0_6, a_p1s0_7, a_p1s0_8, a_p1s0_9, a_p1s0_10, a_p1s0_11, a_p1s0_12, a_p1s0_13, a_p1s0_14, a_p1s0_15⟩ := h_p1s0
  unfold L_main_part1_s2 at h_p1s2
  obtain ⟨a_p1s2_0, a_p1s2_1, a_p1s2_2, a_p1s2_3, a_p1s2_4, a_p1s2_5, a_p1s2_6, a_p1s2_7, a_p1s2_8, a_p1s2_9, a_p1s2_10, a_p1s2_11, a_p1s2_12, a_p1s2_13, a_p1s2_14, a_p1s2_15, a_p1s2_16, a_p1s2_17, a_p1s2_18, a_p1s2_19, a_p1s2_20, a_p1s2_21, a_p1s2_22, a_p1s2_23, a_p1s2_24, a_p1s2_25, a_p1s2_26, a_p1s2_27, a_p1s2_28, a_p1s2_29, a_p1s2_30, a_p1s2_31, a_p1s2_32, a_p1s2_33, a_p1s2_34, a_p1s2_35⟩ := h_p1s2
  have e_main_v44 := sat_binary a_p0s2_20
  have e_main_cst_11 := sat_nullary a_p0s2_21
  have e_main_v45 := sat_unary a_p0s2_22
  have e_main_c_12 := sat_nullary a_p1s0_0
  have e_main_v46 := sat_unary a_p1s0_1
  have e_main_cst_13 := sat_nullary a_p1s0_2
  have e_main_v47 := sat_unary a_p1s0_3
  have e_main_v48 := sat_ternary a_p1s0_4
  have e_main_cst_14 := sat_nullary a_p1s0_5
  have e_main_v49 := sat_unary a_p1s0_6
  have e_main_v50 := sat_binary a_p1s0_7
  have e_main_v51 := sat_binary a_p1s0_8
  have e_main_cst_15 := sat_nullary a_p1s0_9
  have e_main_v52 := sat_unary a_p1s0_10
  have e_main_v53 := sat_binary a_p1s0_11
  have e_main_v54 := sat_binary a_p1s0_12
  have e_main_v55 := sat_binary a_p1s0_13
  have e_main_v56 := sat_binary a_p1s0_14
  have e_main_v57 := sat_binary a_p1s0_15
  have e_main_v64 := sat_unary a_p1s2_0
  have e_main_v65 := sat_unary a_p1s2_1
  have e_main_cst_18 := sat_nullary a_p1s2_2
  have e_main_v66 := sat_unary a_p1s2_3
  have e_main_v67 := sat_binary a_p1s2_4
  have e_main_cst_19 := sat_nullary a_p1s2_5
  have e_main_v68 := sat_unary a_p1s2_6
  have e_main_v69 := sat_binary a_p1s2_7
  have e_main_v70 := sat_binary a_p1s2_8
  have e_main_v71 := sat_unary a_p1s2_9
  have e_main_v72 := sat_unary a_p1s2_10
  have e_main_v73 := sat_unary a_p1s2_11
  have e_main_v74 := sat_binary a_p1s2_12
  have e_main_v75 := sat_unary a_p1s2_13
  have e_main_cst_20 := sat_nullary a_p1s2_14
  have e_main_v76 := sat_unary a_p1s2_15
  have e_main_v77 := sat_binary a_p1s2_16
  have e_main_v78 := sat_unary a_p1s2_17
  have e_main_v79 := sat_binary a_p1s2_18
  have e_main_v80 := sat_binary a_p1s2_19
  rw [e_main_v80, e_main_v79, e_main_v78, e_main_v77, e_main_v76, e_main_cst_20, e_main_v75, e_main_v74, e_main_v73, e_main_v72, e_main_v71, e_main_v70, e_main_v69, e_main_v68, e_main_cst_19, e_main_v67, e_main_v66, e_main_cst_18, e_main_v65, e_main_v64, e_main_v57, e_main_v56, e_main_v55, e_main_v54, e_main_v53, e_main_v52, e_main_cst_15, e_main_v51, e_main_v50, e_main_v49, e_main_cst_14, e_main_v48, e_main_v47, e_main_cst_13, e_main_v46, e_main_c_12, e_main_v45, e_main_cst_11, e_main_v44]
  rfl

/-- Step 2 of the program, from its operations' equations: the sample after the step is the step's term of the sample before it, the
    weights and the step's draws. -/
theorem glue_2 (W : Valuation τ sig (Elt Ideal))
    (h_p1s2 : (L_main_part1_s2 (F := Ideal)).Forall (Sat W))
    (h_p2s0 : (L_main_part2_s0 (F := Ideal)).Forall (Sat W))
    (h_p2s2 : (L_main_part2_s2 (F := Ideal)).Forall (Sat W))
    : W (main_v117 : DevRef τ sig) = Cert.ReferenceIdeal.Step.stepTerm 2#32 (W (main_v80 : DevRef τ sig)) (W (main_arg1 : DevRef τ sig)) (W (main_v100 : DevRef τ sig)) := by
  unfold L_main_part1_s2 at h_p1s2
  obtain ⟨a_p1s2_0, a_p1s2_1, a_p1s2_2, a_p1s2_3, a_p1s2_4, a_p1s2_5, a_p1s2_6, a_p1s2_7, a_p1s2_8, a_p1s2_9, a_p1s2_10, a_p1s2_11, a_p1s2_12, a_p1s2_13, a_p1s2_14, a_p1s2_15, a_p1s2_16, a_p1s2_17, a_p1s2_18, a_p1s2_19, a_p1s2_20, a_p1s2_21, a_p1s2_22, a_p1s2_23, a_p1s2_24, a_p1s2_25, a_p1s2_26, a_p1s2_27, a_p1s2_28, a_p1s2_29, a_p1s2_30, a_p1s2_31, a_p1s2_32, a_p1s2_33, a_p1s2_34, a_p1s2_35⟩ := h_p1s2
  unfold L_main_part2_s0 at h_p2s0
  obtain ⟨a_p2s0_0, a_p2s0_1, a_p2s0_2⟩ := h_p2s0
  unfold L_main_part2_s2 at h_p2s2
  obtain ⟨a_p2s2_0, a_p2s2_1, a_p2s2_2, a_p2s2_3, a_p2s2_4, a_p2s2_5, a_p2s2_6, a_p2s2_7, a_p2s2_8, a_p2s2_9, a_p2s2_10, a_p2s2_11, a_p2s2_12, a_p2s2_13, a_p2s2_14, a_p2s2_15, a_p2s2_16, a_p2s2_17, a_p2s2_18, a_p2s2_19, a_p2s2_20, a_p2s2_21, a_p2s2_22, a_p2s2_23, a_p2s2_24, a_p2s2_25, a_p2s2_26, a_p2s2_27, a_p2s2_28, a_p2s2_29, a_p2s2_30, a_p2s2_31, a_p2s2_32, a_p2s2_33, a_p2s2_34, a_p2s2_35, a_p2s2_36, a_p2s2_37, a_p2s2_38⟩ := h_p2s2
  have e_main_v81 := sat_binary a_p1s2_20
  have e_main_cst_21 := sat_nullary a_p1s2_21
  have e_main_v82 := sat_unary a_p1s2_22
  have e_main_c_22 := sat_nullary a_p1s2_23
  have e_main_v83 := sat_unary a_p1s2_24
  have e_main_cst_23 := sat_nullary a_p1s2_25
  have e_main_v84 := sat_unary a_p1s2_26
  have e_main_v85 := sat_ternary a_p1s2_27
  have e_main_cst_24 := sat_nullary a_p1s2_28
  have e_main_v86 := sat_unary a_p1s2_29
  have e_main_v87 := sat_binary a_p1s2_30
  have e_main_v88 := sat_binary a_p1s2_31
  have e_main_cst_25 := sat_nullary a_p1s2_32
  have e_main_v89 := sat_unary a_p1s2_33
  have e_main_v90 := sat_binary a_p1s2_34
  have e_main_v91 := sat_binary a_p1s2_35
  have e_main_v92 := sat_binary a_p2s0_0
  have e_main_v93 := sat_binary a_p2s0_1
  have e_main_v94 := sat_binary a_p2s0_2
  have e_main_v101 := sat_unary a_p2s2_0
  have e_main_v102 := sat_unary a_p2s2_1
  have e_main_cst_28 := sat_nullary a_p2s2_2
  have e_main_v103 := sat_unary a_p2s2_3
  have e_main_v104 := sat_binary a_p2s2_4
  have e_main_cst_29 := sat_nullary a_p2s2_5
  have e_main_v105 := sat_unary a_p2s2_6
  have e_main_v106 := sat_binary a_p2s2_7
  have e_main_v107 := sat_binary a_p2s2_8
  have e_main_v108 := sat_unary a_p2s2_9
  have e_main_v109 := sat_unary a_p2s2_10
  have e_main_v110 := sat_unary a_p2s2_11
  have e_main_v111 := sat_binary a_p2s2_12
  have e_main_v112 := sat_unary a_p2s2_13
  have e_main_cst_30 := sat_nullary a_p2s2_14
  have e_main_v113 := sat_unary a_p2s2_15
  have e_main_v114 := sat_binary a_p2s2_16
  have e_main_v115 := sat_unary a_p2s2_17
  have e_main_v116 := sat_binary a_p2s2_18
  have e_main_v117 := sat_binary a_p2s2_19
  rw [e_main_v117, e_main_v116, e_main_v115, e_main_v114, e_main_v113, e_main_cst_30, e_main_v112, e_main_v111, e_main_v110, e_main_v109, e_main_v108, e_main_v107, e_main_v106, e_main_v105, e_main_cst_29, e_main_v104, e_main_v103, e_main_cst_28, e_main_v102, e_main_v101, e_main_v94, e_main_v93, e_main_v92, e_main_v91, e_main_v90, e_main_v89, e_main_cst_25, e_main_v88, e_main_v87, e_main_v86, e_main_cst_24, e_main_v85, e_main_v84, e_main_cst_23, e_main_v83, e_main_c_22, e_main_v82, e_main_cst_21, e_main_v81]
  rfl

/-- Step 3 of the program, from its operations' equations: the sample after the step is the step's term of the sample before it, the
    weights and the step's draws. -/
theorem glue_3 (W : Valuation τ sig (Elt Ideal))
    (h_p2s2 : (L_main_part2_s2 (F := Ideal)).Forall (Sat W))
    (h_p2s4 : (L_main_part2_s4 (F := Ideal)).Forall (Sat W))
    (h_p3s0 : (L_main_part3_s0 (F := Ideal)).Forall (Sat W))
    : W (main_v154 : DevRef τ sig) = Cert.ReferenceIdeal.Step.stepTerm 3#32 (W (main_v117 : DevRef τ sig)) (W (main_arg1 : DevRef τ sig)) (W (main_v137 : DevRef τ sig)) := by
  unfold L_main_part2_s2 at h_p2s2
  obtain ⟨a_p2s2_0, a_p2s2_1, a_p2s2_2, a_p2s2_3, a_p2s2_4, a_p2s2_5, a_p2s2_6, a_p2s2_7, a_p2s2_8, a_p2s2_9, a_p2s2_10, a_p2s2_11, a_p2s2_12, a_p2s2_13, a_p2s2_14, a_p2s2_15, a_p2s2_16, a_p2s2_17, a_p2s2_18, a_p2s2_19, a_p2s2_20, a_p2s2_21, a_p2s2_22, a_p2s2_23, a_p2s2_24, a_p2s2_25, a_p2s2_26, a_p2s2_27, a_p2s2_28, a_p2s2_29, a_p2s2_30, a_p2s2_31, a_p2s2_32, a_p2s2_33, a_p2s2_34, a_p2s2_35, a_p2s2_36, a_p2s2_37, a_p2s2_38⟩ := h_p2s2
  unfold L_main_part2_s4 at h_p2s4
  obtain ⟨a_p2s4_0, a_p2s4_1⟩ := h_p2s4
  unfold L_main_part3_s0 at h_p3s0
  obtain ⟨a_p3s0_0, a_p3s0_1, a_p3s0_2, a_p3s0_3, a_p3s0_4, a_p3s0_5, a_p3s0_6, a_p3s0_7, a_p3s0_8, a_p3s0_9, a_p3s0_10, a_p3s0_11, a_p3s0_12, a_p3s0_13, a_p3s0_14, a_p3s0_15, a_p3s0_16, a_p3s0_17, a_p3s0_18, a_p3s0_19, a_p3s0_20, a_p3s0_21, a_p3s0_22, a_p3s0_23, a_p3s0_24, a_p3s0_25, a_p3s0_26, a_p3s0_27, a_p3s0_28, a_p3s0_29, a_p3s0_30, a_p3s0_31, a_p3s0_32, a_p3s0_33, a_p3s0_34, a_p3s0_35, a_p3s0_36⟩ := h_p3s0
  have e_main_v118 := sat_binary a_p2s2_20
  have e_main_cst_31 := sat_nullary a_p2s2_21
  have e_main_v119 := sat_unary a_p2s2_22
  have e_main_c_32 := sat_nullary a_p2s2_23
  have e_main_v120 := sat_unary a_p2s2_24
  have e_main_cst_33 := sat_nullary a_p2s2_25
  have e_main_v121 := sat_unary a_p2s2_26
  have e_main_v122 := sat_ternary a_p2s2_27
  have e_main_cst_34 := sat_nullary a_p2s2_28
  have e_main_v123 := sat_unary a_p2s2_29
  have e_main_v124 := sat_binary a_p2s2_30
  have e_main_v125 := sat_binary a_p2s2_31
  have e_main_cst_35 := sat_nullary a_p2s2_32
  have e_main_v126 := sat_unary a_p2s2_33
  have e_main_v127 := sat_binary a_p2s2_34
  have e_main_v128 := sat_binary a_p2s2_35
  have e_main_v129 := sat_binary a_p2s2_36
  have e_main_v130 := sat_binary a_p2s2_37
  have e_main_v131 := sat_binary a_p2s2_38
  have e_main_v138 := sat_unary a_p2s4_0
  have e_main_v139 := sat_unary a_p2s4_1
  have e_main_cst_38 := sat_nullary a_p3s0_0
  have e_main_v140 := sat_unary a_p3s0_1
  have e_main_v141 := sat_binary a_p3s0_2
  have e_main_cst_39 := sat_nullary a_p3s0_3
  have e_main_v142 := sat_unary a_p3s0_4
  have e_main_v143 := sat_binary a_p3s0_5
  have e_main_v144 := sat_binary a_p3s0_6
  have e_main_v145 := sat_unary a_p3s0_7
  have e_main_v146 := sat_unary a_p3s0_8
  have e_main_v147 := sat_unary a_p3s0_9
  have e_main_v148 := sat_binary a_p3s0_10
  have e_main_v149 := sat_unary a_p3s0_11
  have e_main_cst_40 := sat_nullary a_p3s0_12
  have e_main_v150 := sat_unary a_p3s0_13
  have e_main_v151 := sat_binary a_p3s0_14
  have e_main_v152 := sat_unary a_p3s0_15
  have e_main_v153 := sat_binary a_p3s0_16
  have e_main_v154 := sat_binary a_p3s0_17
  rw [e_main_v154, e_main_v153, e_main_v152, e_main_v151, e_main_v150, e_main_cst_40, e_main_v149, e_main_v148, e_main_v147, e_main_v146, e_main_v145, e_main_v144, e_main_v143, e_main_v142, e_main_cst_39, e_main_v141, e_main_v140, e_main_cst_38, e_main_v139, e_main_v138, e_main_v131, e_main_v130, e_main_v129, e_main_v128, e_main_v127, e_main_v126, e_main_cst_35, e_main_v125, e_main_v124, e_main_v123, e_main_cst_34, e_main_v122, e_main_v121, e_main_cst_33, e_main_v120, e_main_c_32, e_main_v119, e_main_cst_31, e_main_v118]
  rfl

/-- Step 4 of the program, from its operations' equations: the sample after the step is the step's term of the sample before it, the
    weights and the step's draws. -/
theorem glue_4 (W : Valuation τ sig (Elt Ideal))
    (h_p3s0 : (L_main_part3_s0 (F := Ideal)).Forall (Sat W))
    (h_p3s2 : (L_main_part3_s2 (F := Ideal)).Forall (Sat W))
    (h_p4s0 : (L_main_part4_s0 (F := Ideal)).Forall (Sat W))
    : W (main_v191 : DevRef τ sig) = Cert.ReferenceIdeal.Step.stepTerm 4#32 (W (main_v154 : DevRef τ sig)) (W (main_arg1 : DevRef τ sig)) (W (main_v174 : DevRef τ sig)) := by
  unfold L_main_part3_s0 at h_p3s0
  obtain ⟨a_p3s0_0, a_p3s0_1, a_p3s0_2, a_p3s0_3, a_p3s0_4, a_p3s0_5, a_p3s0_6, a_p3s0_7, a_p3s0_8, a_p3s0_9, a_p3s0_10, a_p3s0_11, a_p3s0_12, a_p3s0_13, a_p3s0_14, a_p3s0_15, a_p3s0_16, a_p3s0_17, a_p3s0_18, a_p3s0_19, a_p3s0_20, a_p3s0_21, a_p3s0_22, a_p3s0_23, a_p3s0_24, a_p3s0_25, a_p3s0_26, a_p3s0_27, a_p3s0_28, a_p3s0_29, a_p3s0_30, a_p3s0_31, a_p3s0_32, a_p3s0_33, a_p3s0_34, a_p3s0_35, a_p3s0_36⟩ := h_p3s0
  unfold L_main_part3_s2 at h_p3s2
  obtain ⟨a_p3s2_0, a_p3s2_1, a_p3s2_2, a_p3s2_3, a_p3s2_4, a_p3s2_5, a_p3s2_6, a_p3s2_7, a_p3s2_8, a_p3s2_9, a_p3s2_10, a_p3s2_11, a_p3s2_12, a_p3s2_13, a_p3s2_14⟩ := h_p3s2
  unfold L_main_part4_s0 at h_p4s0
  obtain ⟨a_p4s0_0, a_p4s0_1, a_p4s0_2, a_p4s0_3, a_p4s0_4, a_p4s0_5, a_p4s0_6, a_p4s0_7, a_p4s0_8, a_p4s0_9, a_p4s0_10, a_p4s0_11, a_p4s0_12, a_p4s0_13, a_p4s0_14, a_p4s0_15, a_p4s0_16, a_p4s0_17, a_p4s0_18, a_p4s0_19, a_p4s0_20, a_p4s0_21, a_p4s0_22, a_p4s0_23⟩ := h_p4s0
  have e_main_v155 := sat_binary a_p3s0_18
  have e_main_cst_41 := sat_nullary a_p3s0_19
  have e_main_v156 := sat_unary a_p3s0_20
  have e_main_c_42 := sat_nullary a_p3s0_21
  have e_main_v157 := sat_unary a_p3s0_22
  have e_main_cst_43 := sat_nullary a_p3s0_23
  have e_main_v158 := sat_unary a_p3s0_24
  have e_main_v159 := sat_ternary a_p3s0_25
  have e_main_cst_44 := sat_nullary a_p3s0_26
  have e_main_v160 := sat_unary a_p3s0_27
  have e_main_v161 := sat_binary a_p3s0_28
  have e_main_v162 := sat_binary a_p3s0_29
  have e_main_cst_45 := sat_nullary a_p3s0_30
  have e_main_v163 := sat_unary a_p3s0_31
  have e_main_v164 := sat_binary a_p3s0_32
  have e_main_v165 := sat_binary a_p3s0_33
  have e_main_v166 := sat_binary a_p3s0_34
  have e_main_v167 := sat_binary a_p3s0_35
  have e_main_v168 := sat_binary a_p3s0_36
  have e_main_v175 := sat_unary a_p3s2_0
  have e_main_v176 := sat_unary a_p3s2_1
  have e_main_cst_48 := sat_nullary a_p3s2_2
  have e_main_v177 := sat_unary a_p3s2_3
  have e_main_v178 := sat_binary a_p3s2_4
  have e_main_cst_49 := sat_nullary a_p3s2_5
  have e_main_v179 := sat_unary a_p3s2_6
  have e_main_v180 := sat_binary a_p3s2_7
  have e_main_v181 := sat_binary a_p3s2_8
  have e_main_v182 := sat_unary a_p3s2_9
  have e_main_v183 := sat_unary a_p3s2_10
  have e_main_v184 := sat_unary a_p3s2_11
  have e_main_v185 := sat_binary a_p3s2_12
  have e_main_v186 := sat_unary a_p3s2_13
  have e_main_cst_50 := sat_nullary a_p3s2_14
  have e_main_v187 := sat_unary a_p4s0_0
  have e_main_v188 := sat_binary a_p4s0_1
  have e_main_v189 := sat_unary a_p4s0_2
  have e_main_v190 := sat_binary a_p4s0_3
  have e_main_v191 := sat_binary a_p4s0_4
  rw [e_main_v191, e_main_v190, e_main_v189, e_main_v188, e_main_v187, e_main_cst_50, e_main_v186, e_main_v185, e_main_v184, e_main_v183, e_main_v182, e_main_v181, e_main_v180, e_main_v179, e_main_cst_49, e_main_v178, e_main_v177, e_main_cst_48, e_main_v176, e_main_v175, e_main_v168, e_main_v167, e_main_v166, e_main_v165, e_main_v164, e_main_v163, e_main_cst_45, e_main_v162, e_main_v161, e_main_v160, e_main_cst_44, e_main_v159, e_main_v158, e_main_cst_43, e_main_v157, e_main_c_42, e_main_v156, e_main_cst_41, e_main_v155]
  rfl

/-- Step 5 of the program, from its operations' equations: the sample after the step is the step's term of the sample before it, the
    weights and the step's draws. -/
theorem glue_5 (W : Valuation τ sig (Elt Ideal))
    (h_p4s0 : (L_main_part4_s0 (F := Ideal)).Forall (Sat W))
    (h_p4s2 : (L_main_part4_s2 (F := Ideal)).Forall (Sat W))
    : W (main_v228 : DevRef τ sig) = Cert.ReferenceIdeal.Step.stepTerm 5#32 (W (main_v191 : DevRef τ sig)) (W (main_arg1 : DevRef τ sig)) (W (main_v211 : DevRef τ sig)) := by
  unfold L_main_part4_s0 at h_p4s0
  obtain ⟨a_p4s0_0, a_p4s0_1, a_p4s0_2, a_p4s0_3, a_p4s0_4, a_p4s0_5, a_p4s0_6, a_p4s0_7, a_p4s0_8, a_p4s0_9, a_p4s0_10, a_p4s0_11, a_p4s0_12, a_p4s0_13, a_p4s0_14, a_p4s0_15, a_p4s0_16, a_p4s0_17, a_p4s0_18, a_p4s0_19, a_p4s0_20, a_p4s0_21, a_p4s0_22, a_p4s0_23⟩ := h_p4s0
  unfold L_main_part4_s2 at h_p4s2
  obtain ⟨a_p4s2_0, a_p4s2_1, a_p4s2_2, a_p4s2_3, a_p4s2_4, a_p4s2_5, a_p4s2_6, a_p4s2_7, a_p4s2_8, a_p4s2_9, a_p4s2_10, a_p4s2_11, a_p4s2_12, a_p4s2_13, a_p4s2_14, a_p4s2_15, a_p4s2_16, a_p4s2_17, a_p4s2_18, a_p4s2_19, a_p4s2_20, a_p4s2_21, a_p4s2_22, a_p4s2_23, a_p4s2_24, a_p4s2_25, a_p4s2_26, a_p4s2_27⟩ := h_p4s2
  have e_main_v192 := sat_binary a_p4s0_5
  have e_main_cst_51 := sat_nullary a_p4s0_6
  have e_main_v193 := sat_unary a_p4s0_7
  have e_main_c_52 := sat_nullary a_p4s0_8
  have e_main_v194 := sat_unary a_p4s0_9
  have e_main_cst_53 := sat_nullary a_p4s0_10
  have e_main_v195 := sat_unary a_p4s0_11
  have e_main_v196 := sat_ternary a_p4s0_12
  have e_main_cst_54 := sat_nullary a_p4s0_13
  have e_main_v197 := sat_unary a_p4s0_14
  have e_main_v198 := sat_binary a_p4s0_15
  have e_main_v199 := sat_binary a_p4s0_16
  have e_main_cst_55 := sat_nullary a_p4s0_17
  have e_main_v200 := sat_unary a_p4s0_18
  have e_main_v201 := sat_binary a_p4s0_19
  have e_main_v202 := sat_binary a_p4s0_20
  have e_main_v203 := sat_binary a_p4s0_21
  have e_main_v204 := sat_binary a_p4s0_22
  have e_main_v205 := sat_binary a_p4s0_23
  have e_main_v212 := sat_unary a_p4s2_0
  have e_main_v213 := sat_unary a_p4s2_1
  have e_main_cst_58 := sat_nullary a_p4s2_2
  have e_main_v214 := sat_unary a_p4s2_3
  have e_main_v215 := sat_binary a_p4s2_4
  have e_main_cst_59 := sat_nullary a_p4s2_5
  have e_main_v216 := sat_unary a_p4s2_6
  have e_main_v217 := sat_binary a_p4s2_7
  have e_main_v218 := sat_binary a_p4s2_8
  have e_main_v219 := sat_unary a_p4s2_9
  have e_main_v220 := sat_unary a_p4s2_10
  have e_main_v221 := sat_unary a_p4s2_11
  have e_main_v222 := sat_binary a_p4s2_12
  have e_main_v223 := sat_unary a_p4s2_13
  have e_main_cst_60 := sat_nullary a_p4s2_14
  have e_main_v224 := sat_unary a_p4s2_15
  have e_main_v225 := sat_binary a_p4s2_16
  have e_main_v226 := sat_unary a_p4s2_17
  have e_main_v227 := sat_binary a_p4s2_18
  have e_main_v228 := sat_binary a_p4s2_19
  rw [e_main_v228, e_main_v227, e_main_v226, e_main_v225, e_main_v224, e_main_cst_60, e_main_v223, e_main_v222, e_main_v221, e_main_v220, e_main_v219, e_main_v218, e_main_v217, e_main_v216, e_main_cst_59, e_main_v215, e_main_v214, e_main_cst_58, e_main_v213, e_main_v212, e_main_v205, e_main_v204, e_main_v203, e_main_v202, e_main_v201, e_main_v200, e_main_cst_55, e_main_v199, e_main_v198, e_main_v197, e_main_cst_54, e_main_v196, e_main_v195, e_main_cst_53, e_main_v194, e_main_c_52, e_main_v193, e_main_cst_51, e_main_v192]
  rfl

/-- Step 6 of the program, from its operations' equations: the sample after the step is the step's term of the sample before it, the
    weights and the step's draws. -/
theorem glue_6 (W : Valuation τ sig (Elt Ideal))
    (h_p4s2 : (L_main_part4_s2 (F := Ideal)).Forall (Sat W))
    (h_p5s0 : (L_main_part5_s0 (F := Ideal)).Forall (Sat W))
    (h_p5s2 : (L_main_part5_s2 (F := Ideal)).Forall (Sat W))
    : W (main_v265 : DevRef τ sig) = Cert.ReferenceIdeal.Step.stepTerm 6#32 (W (main_v228 : DevRef τ sig)) (W (main_arg1 : DevRef τ sig)) (W (main_v248 : DevRef τ sig)) := by
  unfold L_main_part4_s2 at h_p4s2
  obtain ⟨a_p4s2_0, a_p4s2_1, a_p4s2_2, a_p4s2_3, a_p4s2_4, a_p4s2_5, a_p4s2_6, a_p4s2_7, a_p4s2_8, a_p4s2_9, a_p4s2_10, a_p4s2_11, a_p4s2_12, a_p4s2_13, a_p4s2_14, a_p4s2_15, a_p4s2_16, a_p4s2_17, a_p4s2_18, a_p4s2_19, a_p4s2_20, a_p4s2_21, a_p4s2_22, a_p4s2_23, a_p4s2_24, a_p4s2_25, a_p4s2_26, a_p4s2_27⟩ := h_p4s2
  unfold L_main_part5_s0 at h_p5s0
  obtain ⟨a_p5s0_0, a_p5s0_1, a_p5s0_2, a_p5s0_3, a_p5s0_4, a_p5s0_5, a_p5s0_6, a_p5s0_7, a_p5s0_8, a_p5s0_9, a_p5s0_10⟩ := h_p5s0
  unfold L_main_part5_s2 at h_p5s2
  obtain ⟨a_p5s2_0, a_p5s2_1, a_p5s2_2, a_p5s2_3, a_p5s2_4, a_p5s2_5, a_p5s2_6, a_p5s2_7, a_p5s2_8, a_p5s2_9, a_p5s2_10, a_p5s2_11, a_p5s2_12, a_p5s2_13, a_p5s2_14, a_p5s2_15, a_p5s2_16, a_p5s2_17, a_p5s2_18, a_p5s2_19, a_p5s2_20, a_p5s2_21, a_p5s2_22, a_p5s2_23, a_p5s2_24, a_p5s2_25, a_p5s2_26, a_p5s2_27, a_p5s2_28, a_p5s2_29, a_p5s2_30, a_p5s2_31, a_p5s2_32, a_p5s2_33, a_p5s2_34, a_p5s2_35, a_p5s2_36, a_p5s2_37, a_p5s2_38⟩ := h_p5s2
  have e_main_v229 := sat_binary a_p4s2_20
  have e_main_cst_61 := sat_nullary a_p4s2_21
  have e_main_v230 := sat_unary a_p4s2_22
  have e_main_c_62 := sat_nullary a_p4s2_23
  have e_main_v231 := sat_unary a_p4s2_24
  have e_main_cst_63 := sat_nullary a_p4s2_25
  have e_main_v232 := sat_unary a_p4s2_26
  have e_main_v233 := sat_ternary a_p4s2_27
  have e_main_cst_64 := sat_nullary a_p5s0_0
  have e_main_v234 := sat_unary a_p5s0_1
  have e_main_v235 := sat_binary a_p5s0_2
  have e_main_v236 := sat_binary a_p5s0_3
  have e_main_cst_65 := sat_nullary a_p5s0_4
  have e_main_v237 := sat_unary a_p5s0_5
  have e_main_v238 := sat_binary a_p5s0_6
  have e_main_v239 := sat_binary a_p5s0_7
  have e_main_v240 := sat_binary a_p5s0_8
  have e_main_v241 := sat_binary a_p5s0_9
  have e_main_v242 := sat_binary a_p5s0_10
  have e_main_v249 := sat_unary a_p5s2_0
  have e_main_v250 := sat_unary a_p5s2_1
  have e_main_cst_68 := sat_nullary a_p5s2_2
  have e_main_v251 := sat_unary a_p5s2_3
  have e_main_v252 := sat_binary a_p5s2_4
  have e_main_cst_69 := sat_nullary a_p5s2_5
  have e_main_v253 := sat_unary a_p5s2_6
  have e_main_v254 := sat_binary a_p5s2_7
  have e_main_v255 := sat_binary a_p5s2_8
  have e_main_v256 := sat_unary a_p5s2_9
  have e_main_v257 := sat_unary a_p5s2_10
  have e_main_v258 := sat_unary a_p5s2_11
  have e_main_v259 := sat_binary a_p5s2_12
  have e_main_v260 := sat_unary a_p5s2_13
  have e_main_cst_70 := sat_nullary a_p5s2_14
  have e_main_v261 := sat_unary a_p5s2_15
  have e_main_v262 := sat_binary a_p5s2_16
  have e_main_v263 := sat_unary a_p5s2_17
  have e_main_v264 := sat_binary a_p5s2_18
  have e_main_v265 := sat_binary a_p5s2_19
  rw [e_main_v265, e_main_v264, e_main_v263, e_main_v262, e_main_v261, e_main_cst_70, e_main_v260, e_main_v259, e_main_v258, e_main_v257, e_main_v256, e_main_v255, e_main_v254, e_main_v253, e_main_cst_69, e_main_v252, e_main_v251, e_main_cst_68, e_main_v250, e_main_v249, e_main_v242, e_main_v241, e_main_v240, e_main_v239, e_main_v238, e_main_v237, e_main_cst_65, e_main_v236, e_main_v235, e_main_v234, e_main_cst_64, e_main_v233, e_main_v232, e_main_cst_63, e_main_v231, e_main_c_62, e_main_v230, e_main_cst_61, e_main_v229]
  rfl

/-- Step 7 of the program, from its operations' equations: the sample after the step is the step's term of the sample before it, the
    weights and the step's draws. -/
theorem glue_7 (W : Valuation τ sig (Elt Ideal))
    (h_p5s2 : (L_main_part5_s2 (F := Ideal)).Forall (Sat W))
    (h_p6s1 : (L_main_part6_s1 (F := Ideal)).Forall (Sat W))
    : W (main_v302 : DevRef τ sig) = Cert.ReferenceIdeal.Step.stepTerm 7#32 (W (main_v265 : DevRef τ sig)) (W (main_arg1 : DevRef τ sig)) (W (main_v285 : DevRef τ sig)) := by
  unfold L_main_part5_s2 at h_p5s2
  obtain ⟨a_p5s2_0, a_p5s2_1, a_p5s2_2, a_p5s2_3, a_p5s2_4, a_p5s2_5, a_p5s2_6, a_p5s2_7, a_p5s2_8, a_p5s2_9, a_p5s2_10, a_p5s2_11, a_p5s2_12, a_p5s2_13, a_p5s2_14, a_p5s2_15, a_p5s2_16, a_p5s2_17, a_p5s2_18, a_p5s2_19, a_p5s2_20, a_p5s2_21, a_p5s2_22, a_p5s2_23, a_p5s2_24, a_p5s2_25, a_p5s2_26, a_p5s2_27, a_p5s2_28, a_p5s2_29, a_p5s2_30, a_p5s2_31, a_p5s2_32, a_p5s2_33, a_p5s2_34, a_p5s2_35, a_p5s2_36, a_p5s2_37, a_p5s2_38⟩ := h_p5s2
  unfold L_main_part6_s1 at h_p6s1
  obtain ⟨a_p6s1_0, a_p6s1_1, a_p6s1_2, a_p6s1_3, a_p6s1_4, a_p6s1_5, a_p6s1_6, a_p6s1_7, a_p6s1_8, a_p6s1_9, a_p6s1_10, a_p6s1_11, a_p6s1_12, a_p6s1_13, a_p6s1_14, a_p6s1_15, a_p6s1_16, a_p6s1_17, a_p6s1_18, a_p6s1_19⟩ := h_p6s1
  have e_main_v266 := sat_binary a_p5s2_20
  have e_main_cst_71 := sat_nullary a_p5s2_21
  have e_main_v267 := sat_unary a_p5s2_22
  have e_main_c_72 := sat_nullary a_p5s2_23
  have e_main_v268 := sat_unary a_p5s2_24
  have e_main_cst_73 := sat_nullary a_p5s2_25
  have e_main_v269 := sat_unary a_p5s2_26
  have e_main_v270 := sat_ternary a_p5s2_27
  have e_main_cst_74 := sat_nullary a_p5s2_28
  have e_main_v271 := sat_unary a_p5s2_29
  have e_main_v272 := sat_binary a_p5s2_30
  have e_main_v273 := sat_binary a_p5s2_31
  have e_main_cst_75 := sat_nullary a_p5s2_32
  have e_main_v274 := sat_unary a_p5s2_33
  have e_main_v275 := sat_binary a_p5s2_34
  have e_main_v276 := sat_binary a_p5s2_35
  have e_main_v277 := sat_binary a_p5s2_36
  have e_main_v278 := sat_binary a_p5s2_37
  have e_main_v279 := sat_binary a_p5s2_38
  have e_main_v286 := sat_unary a_p6s1_0
  have e_main_v287 := sat_unary a_p6s1_1
  have e_main_cst_78 := sat_nullary a_p6s1_2
  have e_main_v288 := sat_unary a_p6s1_3
  have e_main_v289 := sat_binary a_p6s1_4
  have e_main_cst_79 := sat_nullary a_p6s1_5
  have e_main_v290 := sat_unary a_p6s1_6
  have e_main_v291 := sat_binary a_p6s1_7
  have e_main_v292 := sat_binary a_p6s1_8
  have e_main_v293 := sat_unary a_p6s1_9
  have e_main_v294 := sat_unary a_p6s1_10
  have e_main_v295 := sat_unary a_p6s1_11
  have e_main_v296 := sat_binary a_p6s1_12
  have e_main_v297 := sat_unary a_p6s1_13
  have e_main_cst_80 := sat_nullary a_p6s1_14
  have e_main_v298 := sat_unary a_p6s1_15
  have e_main_v299 := sat_binary a_p6s1_16
  have e_main_v300 := sat_unary a_p6s1_17
  have e_main_v301 := sat_binary a_p6s1_18
  have e_main_v302 := sat_binary a_p6s1_19
  rw [e_main_v302, e_main_v301, e_main_v300, e_main_v299, e_main_v298, e_main_cst_80, e_main_v297, e_main_v296, e_main_v295, e_main_v294, e_main_v293, e_main_v292, e_main_v291, e_main_v290, e_main_cst_79, e_main_v289, e_main_v288, e_main_cst_78, e_main_v287, e_main_v286, e_main_v279, e_main_v278, e_main_v277, e_main_v276, e_main_v275, e_main_v274, e_main_cst_75, e_main_v273, e_main_v272, e_main_v271, e_main_cst_74, e_main_v270, e_main_v269, e_main_cst_73, e_main_v268, e_main_c_72, e_main_v267, e_main_cst_71, e_main_v266]
  rfl

end Cert.ReferenceIdeal.Hand

end
-- ==== Proof.Threefry.lean ====
/-!
# Scalar threefry2x32

Twenty rounds of the threefry2x32 block function on one lane of 32-bit words: key words
`k0 k1`, counter words `x0 x1`.  Rotations 13, 15, 26, 6 and 17, 29, 16, 24 alternate in groups
of four; after each group the key schedule `ks = [k0, k1, k0 ^ k1 ^ 0x1BD11BDA]` is injected,
group `i` (from 1) adding `ks[i % 3]` to the first word and `ks[(i+1) % 3] + i` to the second.
-/

namespace Cert.Gibbs.Uniform

/-- rotate a 32-bit word left by `r` (0 < r < 32) -/
def rotl (x : BitVec 32) (r : Nat) : BitVec 32 := (x <<< r) ||| (x >>> (32 - r))

/-- one mixing step: `x0 += x1; x1 = rotl x1 r; x1 ^= x0` -/
def mix (x : BitVec 32 × BitVec 32) (r : Nat) : BitVec 32 × BitVec 32 :=
  let x0 := x.1 + x.2
  (x0, rotl x.2 r ^^^ x0)

/-- four mixing steps with the rotations 13, 15, 26, 6 -/
def rotA (x : BitVec 32 × BitVec 32) : BitVec 32 × BitVec 32 :=
  mix (mix (mix (mix x 13) 15) 26) 6

/-- four mixing steps with the rotations 17, 29, 16, 24 -/
def rotB (x : BitVec 32 × BitVec 32) : BitVec 32 × BitVec 32 :=
  mix (mix (mix (mix x 17) 29) 16) 24

/-- key injection number `i`: `x0 += ka; x1 += kb + i` -/
def inj (x : BitVec 32 × BitVec 32) (ka kb : BitVec 32) (i : Nat) : BitVec 32 × BitVec 32 :=
  (x.1 + ka, x.2 + kb + BitVec.ofNat 32 i)

/-- scalar threefry2x32 on one lane: 20 rounds, written with `let`s so that it evaluates fast -/
def tf (k0 k1 x0 x1 : BitVec 32) : BitVec 32 × BitVec 32 :=
  let k2 := k0 ^^^ k1 ^^^ 0x1BD11BDA#32
  let s0 : BitVec 32 × BitVec 32 := (x0 + k0, x1 + k1)
  let s1 := inj (rotA s0) k1 k2 1
  let s2 := inj (rotB s1) k2 k0 2
  let s3 := inj (rotA s2) k0 k1 3
  let s4 := inj (rotB s3) k1 k2 4
  let s5 := inj (rotA s4) k2 k0 5
  s5

end Cert.Gibbs.Uniform
-- ==== Proof.RefTf.lean ====
import proofs.«213024_g80238579024365_cont_9to1c4b_497_7_alg».proof.Proof.RefOpsTfA
import proofs.«213024_g80238579024365_cont_9to1c4b_497_7_alg».proof.Proof.RefOpsTfB
import proofs.«213024_g80238579024365_cont_9to1c4b_497_7_alg».proof.Proof.Threefry
import Idealize.ShloMosaic.Lib.IdealHost

/-!
# The two printed threefry2x32 functions, lane by lane

Each printed function is a straight line of 222 elementwise operations on 32-bit words: the third key word
`k0 ^ k1 ^ 0x1BD11BDA`, the first key addition, then five groups of four mixing steps, each group followed by a
key injection.  From the operations' equations at one valuation, the two result buffers hold at every lane the
scalar function `Cert.Gibbs.Uniform.tf` of the two key words and of that lane's two counter words.

A mixing step is nine operations (sum; constant, broadcast, left shift; constant, broadcast, right shift; union;
exclusive-or) and is `mix` of the pair of buffers before it; a key injection is seven (broadcast, sum; broadcast,
sum; constant, broadcast, sum) and is `inj`.  The state is carried as a pair of buffers, never substituted into
one term: each step's equation mentions only the pair before it.
-/

set_option maxRecDepth 16384
set_option maxHeartbeats 4000000

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Gibbs.Uniform (rotl mix rotA rotB inj tf)

variable {F : FTy → Type} [FloatOps F]

/-! ## Words: the host's shifts by a constant below the width, and the rotation they make -/

theorem ofNat_toNat_lt {r : Nat} (hr : r < 32) : (BitVec.ofNat 32 r).toNat = r := by
  rw [BitVec.toNat_ofNat]; exact Nat.mod_eq_of_lt (by omega)

theorem host_shli_const (x : BitVec 32) {r : Nat} (hr : r < 32) : IntOp.shli .host x (BitVec.ofNat 32 r) = x <<< r := by
  unfold IntOp.shli
  rw [if_pos (by rw [ofNat_toNat_lt hr]; exact hr), BitVec.shiftLeft_eq', ofNat_toNat_lt hr]

theorem host_shrui_const (x : BitVec 32) {r : Nat} (hr : r < 32) : IntOp.shrui .host x (BitVec.ofNat 32 r) = x >>> r := by
  unfold IntOp.shrui
  rw [if_pos (by rw [ofNat_toNat_lt hr]; exact hr), BitVec.ushiftRight_eq', ofNat_toNat_lt hr]

/-! ## The printed steps, at one lane -/

section Steps
variable {S : Shape} {W : Valuation τ sig (Elt F)}

/-- A broadcast scalar reads the scalar in every lane. -/
theorem rd_bcast {c : TRef sig ⟨S_, .i32⟩} {b : TRef sig ⟨S, .i32⟩} {hb : S_.BroadcastsInDim S (![] : Fin 0 → Fin S.rank)}
    (e : Sat W (TRef.unary (τ := τ) c b (broadcastInDim S ![] hb))) (i : S.Idx) : rd W b i = rd W c ValueIdx.ix0 := by
  rw [sat_Tunary e]; exact ValueIdx.broadcastInDim_scalar_apply hb _ i

/-- A broadcast constant reads the constant in every lane. -/
theorem rd_bconst {c : TRef sig ⟨S_, .i32⟩} {b : TRef sig ⟨S, .i32⟩} {hb : S_.BroadcastsInDim S (![] : Fin 0 → Fin S.rank)} {k : BitVec 32}
    (e1 : Sat W (TRef.nullary (τ := τ) c (constantI S_ 32 k)))
    (e2 : Sat W (TRef.unary (τ := τ) c b (broadcastInDim S ![] hb))) (i : S.Idx) : rd W b i = k := by
  rw [rd_bcast e2 i, sat_Tnullary e1]; rfl

/-- One printed mixing step: the sum, the two shifts of the second word by broadcast constants, their union (the
    rotation), and the exclusive-or with the sum. -/
theorem mix_step {x0 x1 y0 bl sl br sr ro y1 : TRef sig ⟨S, .i32⟩} {cl cr : TRef sig ⟨S_, .i32⟩}
    {hb hb' : S_.BroadcastsInDim S (![] : Fin 0 → Fin S.rank)} (r r' : Nat) (hr : r < 32) (hr' : r' < 32) (hrr : r' = 32 - r)
    (e0 : Sat W (TRef.binary (τ := τ) x0 x1 y0 addi))
    (e1 : Sat W (TRef.nullary (τ := τ) cl (constantI S_ 32 (BitVec.ofNat 32 r))))
    (e2 : Sat W (TRef.unary (τ := τ) cl bl (broadcastInDim S ![] hb)))
    (e3 : Sat W (TRef.binary (τ := τ) x1 bl sl Host.shli))
    (e4 : Sat W (TRef.nullary (τ := τ) cr (constantI S_ 32 (BitVec.ofNat 32 r'))))
    (e5 : Sat W (TRef.unary (τ := τ) cr br (broadcastInDim S ![] hb')))
    (e6 : Sat W (TRef.binary (τ := τ) x1 br sr Host.shrui))
    (e7 : Sat W (TRef.binary (τ := τ) sl sr ro ori))
    (e8 : Sat W (TRef.binary (τ := τ) y0 ro y1 xori)) (i : S.Idx) :
    (rd W y0 i, rd W y1 i) = mix (rd W x0 i, rd W x1 i) r := by
  have h0 : rd W y0 i = rd W x0 i + rd W x1 i := by rw [sat_Tbinary e0]; rfl
  have h3 : rd W sl i = rd W x1 i <<< r := by
    rw [sat_Tbinary e3]; show IntOp.shli .host (rd W x1 i) (rd W bl i) = _
    rw [rd_bconst e1 e2 i, host_shli_const _ hr]
  have h6 : rd W sr i = rd W x1 i >>> (32 - r) := by
    rw [sat_Tbinary e6]; show IntOp.shrui .host (rd W x1 i) (rd W br i) = _
    rw [rd_bconst e4 e5 i, host_shrui_const _ hr', hrr]
  have h7 : rd W ro i = rotl (rd W x1 i) r := by
    rw [sat_Tbinary e7]; show IntOp.ori (rd W sl i) (rd W sr i) = _
    rw [h3, h6]; rfl
  have h8 : rd W y1 i = rotl (rd W x1 i) r ^^^ (rd W x0 i + rd W x1 i) := by
    rw [sat_Tbinary e8]; show IntOp.xori (rd W y0 i) (rd W ro i) = _
    rw [h0, h7]; exact BitVec.xor_comm _ _
  rw [h0, h8]; rfl

/-- One printed key injection: a broadcast key word added to the first word; a broadcast key word and then a
    broadcast constant added to the second. -/
theorem inj_step {x0 x1 ba y0 bb t bc y1 : TRef sig ⟨S, .i32⟩} {ka kb cn : TRef sig ⟨S_, .i32⟩}
    {hb hb' hb'' : S_.BroadcastsInDim S (![] : Fin 0 → Fin S.rank)} (n : Nat)
    (e0 : Sat W (TRef.unary (τ := τ) ka ba (broadcastInDim S ![] hb)))
    (e1 : Sat W (TRef.binary (τ := τ) x0 ba y0 addi))
    (e2 : Sat W (TRef.unary (τ := τ) kb bb (broadcastInDim S ![] hb')))
    (e3 : Sat W (TRef.binary (τ := τ) x1 bb t addi))
    (e4 : Sat W (TRef.nullary (τ := τ) cn (constantI S_ 32 (BitVec.ofNat 32 n))))
    (e5 : Sat W (TRef.unary (τ := τ) cn bc (broadcastInDim S ![] hb'')))
    (e6 : Sat W (TRef.binary (τ := τ) t bc y1 addi)) (i : S.Idx) :
    (rd W y0 i, rd W y1 i) = inj (rd W x0 i, rd W x1 i) (rd W ka ValueIdx.ix0) (rd W kb ValueIdx.ix0) n := by
  have h1 : rd W y0 i = rd W x0 i + rd W ka ValueIdx.ix0 := by
    rw [sat_Tbinary e1]; show IntOp.addi (rd W x0 i) (rd W ba i) = _
    rw [rd_bcast e0 i]; rfl
  have h3 : rd W t i = rd W x1 i + rd W kb ValueIdx.ix0 := by
    rw [sat_Tbinary e3]; show IntOp.addi (rd W x1 i) (rd W bb i) = _
    rw [rd_bcast e2 i]; rfl
  have h6 : rd W y1 i = rd W x1 i + rd W kb ValueIdx.ix0 + BitVec.ofNat 32 n := by
    rw [sat_Tbinary e6]; show IntOp.addi (rd W t i) (rd W bc i) = _
    rw [rd_bconst e4 e5 i, h3]; rfl
  rw [h1, h6]; rfl

end Steps

/-! ## The 128-lane function -/

/-- The printed 128-lane threefry2x32, read lane by lane from its equations: the two results are the scalar
    function of the two key words and of the lane's two counter words.  The state after each mixing step and each
    key injection is a pair of buffers; each is the step's function of the pair before it. -/
theorem tf128_pair (a0 a1 : StableHlo.TRef sig ⟨S_, .i32⟩) (a2 a3 : StableHlo.TRef sig ⟨S128, .i32⟩) (φ : fn_threefry2x32_0.Bufs)
    (W : Valuation τ sig (Elt F)) (h : ∀ op ∈ L_fn_threefry2x32_0_body (F := F) a0 a1 a2 a3 φ, Sat W op) (i : S128.Idx) :
    (rd W φ.v171 i, rd W φ.v175 i)
      = tf (rd W a0 ValueIdx.ix0) (rd W a1 ValueIdx.ix0) (rd W a2 i) (rd W a3 i) := by
  -- the equations of the four windows
  have H0 := List.forall_iff_forall_mem.2 (fun op hop => h op (by
    unfold L_fn_threefry2x32_0_body L_fn_threefry2x32_0_body_part0
    exact List.mem_append_left _ hop) :
    ∀ op ∈ L_fn_threefry2x32_0_body_part0_s0 (F := F) a0 a1 a2 a3 φ, Sat W op)
  have H1 := List.forall_iff_forall_mem.2 (fun op hop => h op (by
    unfold L_fn_threefry2x32_0_body L_fn_threefry2x32_0_body_part1
    exact List.mem_append_right _ (List.mem_append_left _ hop)) :
    ∀ op ∈ L_fn_threefry2x32_0_body_part1_s0 (F := F) a0 a1 a2 a3 φ, Sat W op)
  have H2 := List.forall_iff_forall_mem.2 (fun op hop => h op (by
    unfold L_fn_threefry2x32_0_body L_fn_threefry2x32_0_body_part2
    exact List.mem_append_right _ (List.mem_append_right _ (List.mem_append_left _ hop))) :
    ∀ op ∈ L_fn_threefry2x32_0_body_part2_s0 (F := F) a0 a1 a2 a3 φ, Sat W op)
  have H3 := List.forall_iff_forall_mem.2 (fun op hop => h op (by
    unfold L_fn_threefry2x32_0_body L_fn_threefry2x32_0_body_part3
    exact List.mem_append_right _ (List.mem_append_right _ (List.mem_append_right _ hop))) :
    ∀ op ∈ L_fn_threefry2x32_0_body_part3_s0 (F := F) a0 a1 a2 a3 φ, Sat W op)
  unfold L_fn_threefry2x32_0_body_part0_s0 at H0
  unfold L_fn_threefry2x32_0_body_part1_s0 at H1
  unfold L_fn_threefry2x32_0_body_part2_s0 at H2
  unfold L_fn_threefry2x32_0_body_part3_s0 at H3
  obtain ⟨e0, e1, e2, e3, e4, e5, e6, e7, e8, e9, e10, e11, e12, e13, e14, e15, e16, e17, e18, e19, e20, e21, e22, e23, e24,
    e25, e26, e27, e28, e29, e30, e31, e32, e33, e34, e35, e36, e37, e38, e39, e40, e41, e42, e43, e44, e45, e46, e47, e48, e49,
    e50, e51, e52, e53, e54, e55, e56, e57, e58, e59⟩ := H0
  obtain ⟨f0, f1, f2, f3, f4, f5, f6, f7, f8, f9, f10, f11, f12, f13, f14, f15, f16, f17, f18, f19, f20, f21, f22, f23, f24,
    f25, f26, f27, f28, f29, f30, f31, f32, f33, f34, f35, f36, f37, f38, f39, f40, f41, f42, f43, f44, f45, f46, f47, f48, f49,
    f50, f51, f52, f53, f54, f55, f56, f57, f58, f59⟩ := H1
  obtain ⟨g0, g1, g2, g3, g4, g5, g6, g7, g8, g9, g10, g11, g12, g13, g14, g15, g16, g17, g18, g19, g20, g21, g22, g23, g24,
    g25, g26, g27, g28, g29, g30, g31, g32, g33, g34, g35, g36, g37, g38, g39, g40, g41, g42, g43, g44, g45, g46, g47, g48, g49,
    g50, g51, g52, g53, g54, g55, g56, g57, g58, g59⟩ := H2
  obtain ⟨q0, q1, q2, q3, q4, q5, q6, q7, q8, q9, q10, q11, q12, q13, q14, q15, q16, q17, q18, q19, q20, q21, q22, q23, q24,
    q25, q26, q27, q28, q29, q30, q31, q32, q33, q34, q35, q36, q37, q38, q39, q40, q41⟩ := H3
  -- the third key word, and the state after the first key addition
  have hk2 : rd W φ.v1 ValueIdx.ix0 = rd W a0 ValueIdx.ix0 ^^^ rd W a1 ValueIdx.ix0 ^^^ 0x1BD11BDA#32 := by
    rw [sat_Tbinary e2]; show IntOp.xori (rd W φ.v0 ValueIdx.ix0) (rd W φ.c ValueIdx.ix0) = _
    rw [sat_Tbinary e0, sat_Tnullary e1]; rfl
  have hs0 : (rd W φ.v3 i, rd W φ.v5 i) = (rd W a2 i + rd W a0 ValueIdx.ix0, rd W a3 i + rd W a1 ValueIdx.ix0) := by
    have h3 : rd W φ.v3 i = rd W a2 i + rd W a0 ValueIdx.ix0 := by
      rw [sat_Tbinary e4]; show IntOp.addi (rd W a2 i) (rd W φ.v2 i) = _
      rw [rd_bcast e3 i]; rfl
    have h5 : rd W φ.v5 i = rd W a3 i + rd W a1 ValueIdx.ix0 := by
      rw [sat_Tbinary e6]; show IntOp.addi (rd W a3 i) (rd W φ.v4 i) = _
      rw [rd_bcast e5 i]; rfl
    rw [h3, h5]
  -- rounds 1 to 4 (13, 15, 26, 6) and injection 1
  have m1 := mix_step 13 19 (by decide) (by decide) rfl e7 e8 e9 e10 e11 e12 e13 e14 e15 i
  have m2 := mix_step 15 17 (by decide) (by decide) rfl e16 e17 e18 e19 e20 e21 e22 e23 e24 i
  have m3 := mix_step 26 6 (by decide) (by decide) rfl e25 e26 e27 e28 e29 e30 e31 e32 e33 i
  have m4 := mix_step 6 26 (by decide) (by decide) rfl e34 e35 e36 e37 e38 e39 e40 e41 e42 i
  have i1 := inj_step 1 e43 e44 e45 e46 e47 e48 e49 i
  -- rounds 5 to 8 (17, 29, 16, 24) and injection 2
  have m5 := mix_step 17 15 (by decide) (by decide) rfl e50 e51 e52 e53 e54 e55 e56 e57 e58 i
  have m6 := mix_step 29 3 (by decide) (by decide) rfl e59 f0 f1 f2 f3 f4 f5 f6 f7 i
  have m7 := mix_step 16 16 (by decide) (by decide) rfl f8 f9 f10 f11 f12 f13 f14 f15 f16 i
  have m8 := mix_step 24 8 (by decide) (by decide) rfl f17 f18 f19 f20 f21 f22 f23 f24 f25 i
  have i2 := inj_step 2 f26 f27 f28 f29 f30 f31 f32 i
  -- rounds 9 to 12 and injection 3
  have m9 := mix_step 13 19 (by decide) (by decide) rfl f33 f34 f35 f36 f37 f38 f39 f40 f41 i
  have m10 := mix_step 15 17 (by decide) (by decide) rfl f42 f43 f44 f45 f46 f47 f48 f49 f50 i
  have m11 := mix_step 26 6 (by decide) (by decide) rfl f51 f52 f53 f54 f55 f56 f57 f58 f59 i
  have m12 := mix_step 6 26 (by decide) (by decide) rfl g0 g1 g2 g3 g4 g5 g6 g7 g8 i
  have i3 := inj_step 3 g9 g10 g11 g12 g13 g14 g15 i
  -- rounds 13 to 16 and injection 4
  have m13 := mix_step 17 15 (by decide) (by decide) rfl g16 g17 g18 g19 g20 g21 g22 g23 g24 i
  have m14 := mix_step 29 3 (by decide) (by decide) rfl g25 g26 g27 g28 g29 g30 g31 g32 g33 i
  have m15 := mix_step 16 16 (by decide) (by decide) rfl g34 g35 g36 g37 g38 g39 g40 g41 g42 i
  have m16 := mix_step 24 8 (by decide) (by decide) rfl g43 g44 g45 g46 g47 g48 g49 g50 g51 i
  have i4 := inj_step 4 g52 g53 g54 g55 g56 g57 g58 i
  -- rounds 17 to 20 and injection 5
  have m17 := mix_step 13 19 (by decide) (by decide) rfl g59 q0 q1 q2 q3 q4 q5 q6 q7 i
  have m18 := mix_step 15 17 (by decide) (by decide) rfl q8 q9 q10 q11 q12 q13 q14 q15 q16 i
  have m19 := mix_step 26 6 (by decide) (by decide) rfl q17 q18 q19 q20 q21 q22 q23 q24 q25 i
  have m20 := mix_step 6 26 (by decide) (by decide) rfl q26 q27 q28 q29 q30 q31 q32 q33 q34 i
  have i5 := inj_step 5 q35 q36 q37 q38 q39 q40 q41 i
  rw [i5, m20, m19, m18, m17, i4, m16, m15, m14, m13, i3, m12, m11, m10, m9, i2, m8, m7, m6, m5, i1, m4, m3, m2, m1, hs0, hk2]
  rfl

theorem tf128_spec (a0 a1 : StableHlo.TRef sig ⟨S_, .i32⟩) (a2 a3 : StableHlo.TRef sig ⟨S128, .i32⟩) (φ : fn_threefry2x32_0.Bufs)
    (W : Valuation τ sig (Elt F)) (h : ∀ op ∈ L_fn_threefry2x32_0_body (F := F) a0 a1 a2 a3 φ, Sat W op) (i : S128.Idx) :
    rd W φ.v171 i = (Cert.Gibbs.Uniform.tf (rd W a0 ValueIdx.ix0) (rd W a1 ValueIdx.ix0) (rd W a2 i) (rd W a3 i)).1
    ∧ rd W φ.v175 i = (Cert.Gibbs.Uniform.tf (rd W a0 ValueIdx.ix0) (rd W a1 ValueIdx.ix0) (rd W a2 i) (rd W a3 i)).2 :=
  ⟨congrArg Prod.fst (tf128_pair a0 a1 a2 a3 φ W h i), congrArg Prod.snd (tf128_pair a0 a1 a2 a3 φ W h i)⟩

/-! ## The 2-lane function -/

/-- The printed 2-lane threefry2x32, read lane by lane from its equations: the two results are the scalar
    function of the two key words and of the lane's two counter words.  The state after each mixing step and each
    key injection is a pair of buffers; each is the step's function of the pair before it. -/
theorem tf2_pair (a0 a1 : StableHlo.TRef sig ⟨S_, .i32⟩) (a2 a3 : StableHlo.TRef sig ⟨S2, .i32⟩) (φ : fn_threefry2x32.Bufs)
    (W : Valuation τ sig (Elt F)) (h : ∀ op ∈ L_fn_threefry2x32_body (F := F) a0 a1 a2 a3 φ, Sat W op) (i : S2.Idx) :
    (rd W φ.v171 i, rd W φ.v175 i)
      = tf (rd W a0 ValueIdx.ix0) (rd W a1 ValueIdx.ix0) (rd W a2 i) (rd W a3 i) := by
  -- the equations of the four windows
  have H0 := List.forall_iff_forall_mem.2 (fun op hop => h op (by
    unfold L_fn_threefry2x32_body L_fn_threefry2x32_body_part0
    exact List.mem_append_left _ hop) :
    ∀ op ∈ L_fn_threefry2x32_body_part0_s0 (F := F) a0 a1 a2 a3 φ, Sat W op)
  have H1 := List.forall_iff_forall_mem.2 (fun op hop => h op (by
    unfold L_fn_threefry2x32_body L_fn_threefry2x32_body_part1
    exact List.mem_append_right _ (List.mem_append_left _ hop)) :
    ∀ op ∈ L_fn_threefry2x32_body_part1_s0 (F := F) a0 a1 a2 a3 φ, Sat W op)
  have H2 := List.forall_iff_forall_mem.2 (fun op hop => h op (by
    unfold L_fn_threefry2x32_body L_fn_threefry2x32_body_part2
    exact List.mem_append_right _ (List.mem_append_right _ (List.mem_append_left _ hop))) :
    ∀ op ∈ L_fn_threefry2x32_body_part2_s0 (F := F) a0 a1 a2 a3 φ, Sat W op)
  have H3 := List.forall_iff_forall_mem.2 (fun op hop => h op (by
    unfold L_fn_threefry2x32_body L_fn_threefry2x32_body_part3
    exact List.mem_append_right _ (List.mem_append_right _ (List.mem_append_right _ hop))) :
    ∀ op ∈ L_fn_threefry2x32_body_part3_s0 (F := F) a0 a1 a2 a3 φ, Sat W op)
  unfold L_fn_threefry2x32_body_part0_s0 at H0
  unfold L_fn_threefry2x32_body_part1_s0 at H1
  unfold L_fn_threefry2x32_body_part2_s0 at H2
  unfold L_fn_threefry2x32_body_part3_s0 at H3
  obtain ⟨e0, e1, e2, e3, e4, e5, e6, e7, e8, e9, e10, e11, e12, e13, e14, e15, e16, e17, e18, e19, e20, e21, e22, e23, e24,
    e25, e26, e27, e28, e29, e30, e31, e32, e33, e34, e35, e36, e37, e38, e39, e40, e41, e42, e43, e44, e45, e46, e47, e48, e49,
    e50, e51, e52, e53, e54, e55, e56, e57, e58, e59⟩ := H0
  obtain ⟨f0, f1, f2, f3, f4, f5, f6, f7, f8, f9, f10, f11, f12, f13, f14, f15, f16, f17, f18, f19, f20, f21, f22, f23, f24,
    f25, f26, f27, f28, f29, f30, f31, f32, f33, f34, f35, f36, f37, f38, f39, f40, f41, f42, f43, f44, f45, f46, f47, f48, f49,
    f50, f51, f52, f53, f54, f55, f56, f57, f58, f59⟩ := H1
  obtain ⟨g0, g1, g2, g3, g4, g5, g6, g7, g8, g9, g10, g11, g12, g13, g14, g15, g16, g17, g18, g19, g20, g21, g22, g23, g24,
    g25, g26, g27, g28, g29, g30, g31, g32, g33, g34, g35, g36, g37, g38, g39, g40, g41, g42, g43, g44, g45, g46, g47, g48, g49,
    g50, g51, g52, g53, g54, g55, g56, g57, g58, g59⟩ := H2
  obtain ⟨q0, q1, q2, q3, q4, q5, q6, q7, q8, q9, q10, q11, q12, q13, q14, q15, q16, q17, q18, q19, q20, q21, q22, q23, q24,
    q25, q26, q27, q28, q29, q30, q31, q32, q33, q34, q35, q36, q37, q38, q39, q40, q41⟩ := H3
  -- the third key word, and the state after the first key addition
  have hk2 : rd W φ.v1 ValueIdx.ix0 = rd W a0 ValueIdx.ix0 ^^^ rd W a1 ValueIdx.ix0 ^^^ 0x1BD11BDA#32 := by
    rw [sat_Tbinary e2]; show IntOp.xori (rd W φ.v0 ValueIdx.ix0) (rd W φ.c ValueIdx.ix0) = _
    rw [sat_Tbinary e0, sat_Tnullary e1]; rfl
  have hs0 : (rd W φ.v3 i, rd W φ.v5 i) = (rd W a2 i + rd W a0 ValueIdx.ix0, rd W a3 i + rd W a1 ValueIdx.ix0) := by
    have h3 : rd W φ.v3 i = rd W a2 i + rd W a0 ValueIdx.ix0 := by
      rw [sat_Tbinary e4]; show IntOp.addi (rd W a2 i) (rd W φ.v2 i) = _
      rw [rd_bcast e3 i]; rfl
    have h5 : rd W φ.v5 i = rd W a3 i + rd W a1 ValueIdx.ix0 := by
      rw [sat_Tbinary e6]; show IntOp.addi (rd W a3 i) (rd W φ.v4 i) = _
      rw [rd_bcast e5 i]; rfl
    rw [h3, h5]
  -- rounds 1 to 4 (13, 15, 26, 6) and injection 1
  have m1 := mix_step 13 19 (by decide) (by decide) rfl e7 e8 e9 e10 e11 e12 e13 e14 e15 i
  have m2 := mix_step 15 17 (by decide) (by decide) rfl e16 e17 e18 e19 e20 e21 e22 e23 e24 i
  have m3 := mix_step 26 6 (by decide) (by decide) rfl e25 e26 e27 e28 e29 e30 e31 e32 e33 i
  have m4 := mix_step 6 26 (by decide) (by decide) rfl e34 e35 e36 e37 e38 e39 e40 e41 e42 i
  have i1 := inj_step 1 e43 e44 e45 e46 e47 e48 e49 i
  -- rounds 5 to 8 (17, 29, 16, 24) and injection 2
  have m5 := mix_step 17 15 (by decide) (by decide) rfl e50 e51 e52 e53 e54 e55 e56 e57 e58 i
  have m6 := mix_step 29 3 (by decide) (by decide) rfl e59 f0 f1 f2 f3 f4 f5 f6 f7 i
  have m7 := mix_step 16 16 (by decide) (by decide) rfl f8 f9 f10 f11 f12 f13 f14 f15 f16 i
  have m8 := mix_step 24 8 (by decide) (by decide) rfl f17 f18 f19 f20 f21 f22 f23 f24 f25 i
  have i2 := inj_step 2 f26 f27 f28 f29 f30 f31 f32 i
  -- rounds 9 to 12 and injection 3
  have m9 := mix_step 13 19 (by decide) (by decide) rfl f33 f34 f35 f36 f37 f38 f39 f40 f41 i
  have m10 := mix_step 15 17 (by decide) (by decide) rfl f42 f43 f44 f45 f46 f47 f48 f49 f50 i
  have m11 := mix_step 26 6 (by decide) (by decide) rfl f51 f52 f53 f54 f55 f56 f57 f58 f59 i
  have m12 := mix_step 6 26 (by decide) (by decide) rfl g0 g1 g2 g3 g4 g5 g6 g7 g8 i
  have i3 := inj_step 3 g9 g10 g11 g12 g13 g14 g15 i
  -- rounds 13 to 16 and injection 4
  have m13 := mix_step 17 15 (by decide) (by decide) rfl g16 g17 g18 g19 g20 g21 g22 g23 g24 i
  have m14 := mix_step 29 3 (by decide) (by decide) rfl g25 g26 g27 g28 g29 g30 g31 g32 g33 i
  have m15 := mix_step 16 16 (by decide) (by decide) rfl g34 g35 g36 g37 g38 g39 g40 g41 g42 i
  have m16 := mix_step 24 8 (by decide) (by decide) rfl g43 g44 g45 g46 g47 g48 g49 g50 g51 i
  have i4 := inj_step 4 g52 g53 g54 g55 g56 g57 g58 i
  -- rounds 17 to 20 and injection 5
  have m17 := mix_step 13 19 (by decide) (by decide) rfl g59 q0 q1 q2 q3 q4 q5 q6 q7 i
  have m18 := mix_step 15 17 (by decide) (by decide) rfl q8 q9 q10 q11 q12 q13 q14 q15 q16 i
  have m19 := mix_step 26 6 (by decide) (by decide) rfl q17 q18 q19 q20 q21 q22 q23 q24 q25 i
  have m20 := mix_step 6 26 (by decide) (by decide) rfl q26 q27 q28 q29 q30 q31 q32 q33 q34 i
  have i5 := inj_step 5 q35 q36 q37 q38 q39 q40 q41 i
  rw [i5, m20, m19, m18, m17, i4, m16, m15, m14, m13, i3, m12, m11, m10, m9, i2, m8, m7, m6, m5, i1, m4, m3, m2, m1, hs0, hk2]
  rfl

theorem tf2_spec (a0 a1 : StableHlo.TRef sig ⟨S_, .i32⟩) (a2 a3 : StableHlo.TRef sig ⟨S2, .i32⟩) (φ : fn_threefry2x32.Bufs)
    (W : Valuation τ sig (Elt F)) (h : ∀ op ∈ L_fn_threefry2x32_body (F := F) a0 a1 a2 a3 φ, Sat W op) (i : S2.Idx) :
    rd W φ.v171 i = (Cert.Gibbs.Uniform.tf (rd W a0 ValueIdx.ix0) (rd W a1 ValueIdx.ix0) (rd W a2 i) (rd W a3 i)).1
    ∧ rd W φ.v175 i = (Cert.Gibbs.Uniform.tf (rd W a0 ValueIdx.ix0) (rd W a1 ValueIdx.ix0) (rd W a2 i) (rd W a3 i)).2 :=
  ⟨congrArg Prod.fst (tf2_pair a0 a1 a2 a3 φ W h i), congrArg Prod.snd (tf2_pair a0 a1 a2 a3 φ W h i)⟩

end Cert.ReferenceIdeal.Hand

end
-- ==== Proof.RefRand.lean ====
import proofs.«213024_g80238579024365_cont_9to1c4b_497_7_alg».proof.Proof.RefOpsFns
import proofs.«213024_g80238579024365_cont_9to1c4b_497_7_alg».proof.Proof.RefTf
import Idealize.ShloMosaic.Lib.Pipeline.Value
import Idealize.ShloMosaic.Lib.ValueIdx
import Idealize.ShloMosaic.Lib.IdealHost

/-!
# The reference's random-number functions, read from their equations

A valuation `W` that satisfies the equation of every operation of a printed function's body determines the function's
result from its arguments.  Here: `_threefry_split` (twice printed) derives two keys from one, `_uniform` draws 128 floats of
`[0, 1)` from one key.  Both run threefry2x32 on the key and the counters `(0, lane)`, the 64-bit lane number split into two
32-bit words.
-/

set_option maxRecDepth 16384
set_option maxHeartbeats 4000000

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-! ## A typed reshape's equation -/

section Typed
variable {Tx Ty : BufTy} {W : Valuation τ sig (Elt F)}

/-- A valuation that satisfies a typed reshape holds, at the result, the operand's elements in row-major order. -/
theorem sat_Treshape {x : TRef sig Tx} {y : TRef sig Ty} {he : Tx.elt = Ty.elt} {hn : Tx.shape.ShapeCasts Ty.shape}
    (h : Sat W (TRef.reshape (τ := τ) (Val := Elt F) x y he hn)) :
    rd W y = fun i => he ▸ shapeCast Ty.shape (rd W x) hn i := by
  obtain ⟨rx, rfl, _, _⟩ := x
  obtain ⟨ry, rfl, _, _⟩ := y
  unfold rd
  rw [sat_reshape h]
  rfl

end Typed

/-! ## The pure operations of the three bodies, read at an index -/

section Pure
variable {α : Type}

/-- Word 0 of a two-word key: the slice `[0:1]` reshaped to a scalar. -/
theorem rand_word0 (x : S2.Idx → α) : shapeCast S_ (extractStridedSlice S1 ![0] x slices_S2_S1_0) shapeCasts_S1_S_ ix0 = x (ix1 0) := by
  refine (shapeCast_apply _ _ ix0 (ix1 0) (by decide)).trans ?_
  exact extractStridedSlice_apply _ _ _ _ _ (fun a => by match a with | ⟨0, _⟩ => rfl)

/-- Word 1 of a two-word key: the slice `[1:2]` reshaped to a scalar. -/
theorem rand_word1 (x : S2.Idx → α) : shapeCast S_ (extractStridedSlice S1 ![1] x slices_S2_S1_1) shapeCasts_S1_S_ ix0 = x (ix1 1) := by
  refine (shapeCast_apply _ _ ix0 (ix1 0) (by decide)).trans ?_
  exact extractStridedSlice_apply _ _ _ _ _ (fun a => by match a with | ⟨0, _⟩ => rfl)

/-- The low word of a 64-bit counter below `2^32` is the counter. -/
theorem rand_lo_word (i : Nat) (h : i < 2 ^ 32) : (IntOp.muli (1#64) (BitVec.ofNat 64 i)).setWidth 32 = BitVec.ofNat 32 i := by
  apply BitVec.eq_of_toNat_eq
  simp only [IntOp.muli, BitVec.one_mul, BitVec.toNat_setWidth, BitVec.toNat_ofNat]
  omega

/-- The high word of a 64-bit counter below `2^32` is zero. -/
theorem rand_hi_word (i : Nat) (h : i < 2 ^ 32) :
    (IntOp.shrui .host (IntOp.muli (1#64) (BitVec.ofNat 64 i)) 32#64).setWidth 32 = 0#32 := by
  have e : ∀ x : BitVec 64, IntOp.shrui .host x 32#64 = x >>> 32 := fun x => by
    unfold IntOp.shrui; rw [if_pos (by decide)]; rfl
  rw [e]
  apply BitVec.eq_of_toNat_eq
  simp only [IntOp.muli, BitVec.one_mul, BitVec.toNat_setWidth, BitVec.toNat_ushiftRight, BitVec.toNat_ofNat, Nat.shiftRight_eq_div_pow]
  omega

end Pure

/-! ## `_threefry_split`: the two words of each of the two derived keys -/

section Split

/-- `_threefry_split` of a key `(k0, k1)`: row `r` of the result holds the two threefry words of the counter `(0, r)` under the key
    (the 64-bit counter `r` split into its high word, zero, and its low word, `r`). -/
theorem split_spec (a0 : StableHlo.TRef sig ⟨S2, .i32⟩) (φ : fn_threefry_split.Bufs) (W : Valuation τ sig (Elt F))
    (h : ∀ op ∈ L_fn_threefry_split_body (F := F) a0 φ, Sat W op) (r c : Fin 2) :
    rd W φ.v14 (ix2 r c) =
      (if c.val = 0 then (Cert.Gibbs.Uniform.tf (rd W a0 (ix1 0)) (rd W a0 (ix1 1)) 0#32 (BitVec.ofNat 32 r.val)).1
       else (Cert.Gibbs.Uniform.tf (rd W a0 (ix1 0)) (rd W a0 (ix1 1)) 0#32 (BitVec.ofNat 32 r.val)).2) := by
  have h0 : (L_fn_threefry_split_body_s0 (F := F) a0 φ).Forall (Sat W) :=
    List.forall_iff_forall_mem.2 fun op hop => h op (List.mem_append_left _ hop)
  have htf : ∀ op ∈ L_fn_threefry2x32_body (F := F) φ.v1 φ.v3 φ.v10 φ.v9 φ.call0, Sat W op :=
    fun op hop => h op (List.mem_append_right _ (List.mem_append_left _ hop))
  have h1 : (L_fn_threefry_split_body_s1 (F := F) a0 φ).Forall (Sat W) :=
    List.forall_iff_forall_mem.2 fun op hop => h op (List.mem_append_right _ (List.mem_append_right _ hop))
  unfold L_fn_threefry_split_body_s0 at h0
  unfold L_fn_threefry_split_body_s1 at h1
  obtain ⟨e0, e1, e2, e3, e4, e5, e6, e7, e8, e9, e10, e11, e12⟩ := h0
  obtain ⟨f0, f1, f2⟩ := h1
  have k0 : rd W φ.v1 ix0 = rd W a0 (ix1 0) := by
    rw [sat_Treshape e1, sat_Tunary e0]; exact rand_word0 _
  have k1 : rd W φ.v3 ix0 = rd W a0 (ix1 1) := by
    rw [sat_Treshape e3, sat_Tunary e2]; exact rand_word1 _
  have hr : r.val < 2 ^ 32 := by have := r.isLt; omega
  have lo : rd W φ.v9 (ix1 r) = BitVec.ofNat 32 r.val := by
    rw [sat_Tunary e11, sat_Tbinary e7, sat_Tunary e6, sat_Tnullary e5, sat_Tnullary e4]
    exact rand_lo_word r.val hr
  have hi : rd W φ.v10 (ix1 r) = 0#32 := by
    rw [sat_Tunary e12, sat_Tbinary e10, sat_Tbinary e7, sat_Tunary e6, sat_Tnullary e5, sat_Tnullary e4, sat_Tunary e9, sat_Tnullary e8]
    exact rand_hi_word r.val hr
  obtain ⟨t1, t2⟩ := tf2_spec φ.v1 φ.v3 φ.v10 φ.v9 φ.call0 W htf (ix1 r)
  rw [k0, k1, hi, lo] at t1 t2
  rw [sat_Tbinary f2, sat_Tunary f0, sat_Tunary f1]
  match c with
  | ⟨0, hc⟩ =>
    rw [if_pos (show ((⟨0, hc⟩ : Fin 2).val = 0) from rfl), ← t1]
    refine (concatenate_pair_apply_left (t := S2x2) (s₁ := S2x1) (s₂ := S2x1) (1 : Fin 2) _ _ concatenates_S2x1_S2x1_S2x2_d1 (ix2 r ⟨0, hc⟩) rfl (ix2 r (0 : Fin 1) : S2x1.Idx)
      (fun b => by match b with | ⟨0, _⟩ => rfl | ⟨1, _⟩ => rfl)).trans ?_
    exact broadcastInDim_apply _ _ _ _ (ix1 r) (fun a => by match a with | ⟨0, _⟩ => rfl)
  | ⟨1, hc⟩ =>
    rw [if_neg (show ¬ ((⟨1, hc⟩ : Fin 2).val = 0) from Nat.one_ne_zero), ← t2]
    refine (concatenate_pair_apply_right (t := S2x2) (s₁ := S2x1) (s₂ := S2x1) (1 : Fin 2) _ _ concatenates_S2x1_S2x1_S2x2_d1 (ix2 r ⟨1, hc⟩) rfl rfl (ix2 r (0 : Fin 1) : S2x1.Idx)
      (fun b hb => by match b with | ⟨0, _⟩ => rfl | ⟨1, _⟩ => exact absurd rfl hb) rfl).trans ?_
    exact broadcastInDim_apply _ _ _ _ (ix1 r) (fun a => by match a with | ⟨0, _⟩ => rfl)

/-- The second printed copy of `_threefry_split`: the same body over its own record of buffers. -/
theorem split1_spec (a0 : StableHlo.TRef sig ⟨S2, .i32⟩) (φ : fn_threefry_split_1.Bufs) (W : Valuation τ sig (Elt F))
    (h : ∀ op ∈ L_fn_threefry_split_1_body (F := F) a0 φ, Sat W op) (r c : Fin 2) :
    rd W φ.v14 (ix2 r c) =
      (if c.val = 0 then (Cert.Gibbs.Uniform.tf (rd W a0 (ix1 0)) (rd W a0 (ix1 1)) 0#32 (BitVec.ofNat 32 r.val)).1
       else (Cert.Gibbs.Uniform.tf (rd W a0 (ix1 0)) (rd W a0 (ix1 1)) 0#32 (BitVec.ofNat 32 r.val)).2) := by
  have h0 : (L_fn_threefry_split_1_body_s0 (F := F) a0 φ).Forall (Sat W) :=
    List.forall_iff_forall_mem.2 fun op hop => h op (List.mem_append_left _ hop)
  have htf : ∀ op ∈ L_fn_threefry2x32_body (F := F) φ.v1 φ.v3 φ.v10 φ.v9 φ.call0, Sat W op :=
    fun op hop => h op (List.mem_append_right _ (List.mem_append_left _ hop))
  have h1 : (L_fn_threefry_split_1_body_s1 (F := F) a0 φ).Forall (Sat W) :=
    List.forall_iff_forall_mem.2 fun op hop => h op (List.mem_append_right _ (List.mem_append_right _ hop))
  unfold L_fn_threefry_split_1_body_s0 at h0
  unfold L_fn_threefry_split_1_body_s1 at h1
  obtain ⟨e0, e1, e2, e3, e4, e5, e6, e7, e8, e9, e10, e11, e12⟩ := h0
  obtain ⟨f0, f1, f2⟩ := h1
  have k0 : rd W φ.v1 ix0 = rd W a0 (ix1 0) := by
    rw [sat_Treshape e1, sat_Tunary e0]; exact rand_word0 _
  have k1 : rd W φ.v3 ix0 = rd W a0 (ix1 1) := by
    rw [sat_Treshape e3, sat_Tunary e2]; exact rand_word1 _
  have hr : r.val < 2 ^ 32 := by have := r.isLt; omega
  have lo : rd W φ.v9 (ix1 r) = BitVec.ofNat 32 r.val := by
    rw [sat_Tunary e11, sat_Tbinary e7, sat_Tunary e6, sat_Tnullary e5, sat_Tnullary e4]
    exact rand_lo_word r.val hr
  have hi : rd W φ.v10 (ix1 r) = 0#32 := by
    rw [sat_Tunary e12, sat_Tbinary e10, sat_Tbinary e7, sat_Tunary e6, sat_Tnullary e5, sat_Tnullary e4, sat_Tunary e9, sat_Tnullary e8]
    exact rand_hi_word r.val hr
  obtain ⟨t1, t2⟩ := tf2_spec φ.v1 φ.v3 φ.v10 φ.v9 φ.call0 W htf (ix1 r)
  rw [k0, k1, hi, lo] at t1 t2
  rw [sat_Tbinary f2, sat_Tunary f0, sat_Tunary f1]
  match c with
  | ⟨0, hc⟩ =>
    rw [if_pos (show ((⟨0, hc⟩ : Fin 2).val = 0) from rfl), ← t1]
    refine (concatenate_pair_apply_left (t := S2x2) (s₁ := S2x1) (s₂ := S2x1) (1 : Fin 2) _ _ concatenates_S2x1_S2x1_S2x2_d1 (ix2 r ⟨0, hc⟩) rfl (ix2 r (0 : Fin 1) : S2x1.Idx)
      (fun b => by match b with | ⟨0, _⟩ => rfl | ⟨1, _⟩ => rfl)).trans ?_
    exact broadcastInDim_apply _ _ _ _ (ix1 r) (fun a => by match a with | ⟨0, _⟩ => rfl)
  | ⟨1, hc⟩ =>
    rw [if_neg (show ¬ ((⟨1, hc⟩ : Fin 2).val = 0) from Nat.one_ne_zero), ← t2]
    refine (concatenate_pair_apply_right (t := S2x2) (s₁ := S2x1) (s₂ := S2x1) (1 : Fin 2) _ _ concatenates_S2x1_S2x1_S2x2_d1 (ix2 r ⟨1, hc⟩) rfl rfl (ix2 r (0 : Fin 1) : S2x1.Idx)
      (fun b hb => by match b with | ⟨0, _⟩ => rfl | ⟨1, _⟩ => exact absurd rfl hb) rfl).trans ?_
    exact broadcastInDim_apply _ _ _ _ (ix1 r) (fun a => by match a with | ⟨0, _⟩ => rfl)

end Split

/-! ## `_uniform`: 128 draws from one key -/

section Uniform

/-- A logical right shift by the literal 9 on the host is the bit-vector shift. -/
theorem rand_shrui9 (x : BitVec 32) : IntOp.shrui .host x 9#32 = x >>> 9 := by
  unfold IntOp.shrui; rw [if_pos (by decide)]; rfl

/-- The bits of draw `b`: the two threefry words of counter `(0, b)` under the key, xored, their top 23 bits as the
    fraction of a float in `[1, 2)`. -/
theorem uniform_bits (a0 : StableHlo.TRef sig ⟨S2, .i32⟩) (a1 a2 : StableHlo.TRef sig ⟨S_, .f32⟩) (φ : fn_uniform.Bufs)
    (W : Valuation τ sig (Elt F)) (h : ∀ op ∈ L_fn_uniform_body (F := F) a0 a1 a2 φ, Sat W op) (b : Fin 128) :
    rd W φ.v20 (ix1 b) =
      ((let p := Cert.Gibbs.Uniform.tf (rd W a0 (ix1 0)) (rd W a0 (ix1 1)) 0#32 (BitVec.ofNat 32 b.val); p.1 ^^^ p.2) >>> 9)
        ||| 0x3F800000#32 := by
  have h0 : (L_fn_uniform_body_s0 (F := F) a0 a1 a2 φ).Forall (Sat W) :=
    List.forall_iff_forall_mem.2 fun op hop => h op (List.mem_append_left _ hop)
  have htf : ∀ op ∈ L_fn_threefry2x32_0_body (F := F) φ.v5 φ.v7 φ.v14 φ.v13 φ.call0, Sat W op :=
    fun op hop => h op (List.mem_append_right _ (List.mem_append_left _ hop))
  have h1 : (L_fn_uniform_body_s1 (F := F) a0 a1 a2 φ).Forall (Sat W) :=
    List.forall_iff_forall_mem.2 fun op hop => h op (List.mem_append_right _ (List.mem_append_right _ hop))
  unfold L_fn_uniform_body_s0 at h0
  unfold L_fn_uniform_body_s1 at h1
  obtain ⟨e0, e1, e2, e3, e4, e5, e6, e7, e8, e9, e10, e11, e12, e13, e14, e15, e16⟩ := h0
  obtain ⟨f0, f1, f2, f3, f4, f5, f6, _⟩ := h1
  have k0 : rd W φ.v5 ix0 = rd W a0 (ix1 0) := by
    rw [sat_Treshape e5, sat_Tunary e4]; exact rand_word0 _
  have k1 : rd W φ.v7 ix0 = rd W a0 (ix1 1) := by
    rw [sat_Treshape e7, sat_Tunary e6]; exact rand_word1 _
  have hb : b.val < 2 ^ 32 := by have := b.isLt; omega
  have lo : rd W φ.v13 (ix1 b) = BitVec.ofNat 32 b.val := by
    rw [sat_Tunary e15, sat_Tbinary e11, sat_Tunary e10, sat_Tnullary e9, sat_Tnullary e8]
    exact rand_lo_word b.val hb
  have hi : rd W φ.v14 (ix1 b) = 0#32 := by
    rw [sat_Tunary e16, sat_Tbinary e14, sat_Tbinary e11, sat_Tunary e10, sat_Tnullary e9, sat_Tnullary e8, sat_Tunary e13, sat_Tnullary e12]
    exact rand_hi_word b.val hb
  obtain ⟨t1, t2⟩ := tf128_spec φ.v5 φ.v7 φ.v14 φ.v13 φ.call0 W htf (ix1 b)
  rw [k0, k1, hi, lo] at t1 t2
  rw [sat_Tbinary f6, sat_Tunary f5, sat_Tnullary f4, sat_Tbinary f3, sat_Tunary f2, sat_Tnullary f1, sat_Tbinary f0]
  show IntOp.ori (IntOp.shrui .host (IntOp.xori (rd W φ.call0.v171 (ix1 b)) (rd W φ.call0.v175 (ix1 b))) 9#32) 1065353216#32 = _
  rw [rand_shrui9, t1, t2]
  rfl

end Uniform

/-! ## `_uniform` at the ideal instance: the draw as an extended real -/

section UniformValue

/-- The value of draw `b` at the ideal instance, for the bounds `minval = 0`, `maxval = 1` the program passes: the float of the
    bits, minus one, scaled by `maxval - minval`, shifted by `minval`, and clamped below at `minval`. -/
theorem uniform_value (a0 : StableHlo.TRef sig ⟨S2, .i32⟩) (a1 a2 : StableHlo.TRef sig ⟨S_, .f32⟩) (φ : fn_uniform.Bufs)
    (W : Valuation τ sig (Elt Ideal)) (h : ∀ op ∈ L_fn_uniform_body (F := Ideal) a0 a1 a2 φ, Sat W op)
    (h0 : rd W a1 = constant (F := Ideal) S_ .f32 0x00000000#32) (h1 : rd W a2 = constant (F := Ideal) S_ .f32 0x3F800000#32) (b : Fin 128) :
    rd W φ.v30 (ix1 b) =
      (max 0 ((Ideal.ofBits .f32 (rd W φ.v20 (ix1 b)) - 1) * (Ideal.ofBits .f32 0x3F800000#32 - Ideal.ofBits .f32 0x00000000#32)
        + Ideal.ofBits .f32 0x00000000#32) : EReal) := by
  have h0' : (L_fn_uniform_body_s0 (F := Ideal) a0 a1 a2 φ).Forall (Sat W) :=
    List.forall_iff_forall_mem.2 fun op hop => h op (List.mem_append_left _ hop)
  have h1' : (L_fn_uniform_body_s1 (F := Ideal) a0 a1 a2 φ).Forall (Sat W) :=
    List.forall_iff_forall_mem.2 fun op hop => h op (List.mem_append_right _ (List.mem_append_right _ hop))
  unfold L_fn_uniform_body_s0 at h0'
  unfold L_fn_uniform_body_s1 at h1'
  obtain ⟨e0, e1, e2, e3, _⟩ := h0'
  obtain ⟨_, _, _, _, _, _, _, f7, f8, f9, f10, f11, f12, f13, f14, f15, f16, f17⟩ := h1'
  rw [sat_Tbinary f17, sat_Tunary f16, sat_Tbinary f15, sat_Tunary f14, sat_Tbinary f13, sat_Tunary f12, sat_Tbinary f11,
    sat_Tbinary f10, sat_Tunary f9, sat_Tnullary f8, sat_Tunary f7, sat_Tunary e3, sat_Tunary e2, sat_Tunary e1, sat_Tunary e0, h0, h1]
  show max (Ideal.ofBits .f32 0x00000000#32)
      ((Ideal.ofBits .f32 (rd W φ.v20 (ix1 b)) - Ideal.ofBits .f32 0x3F800000#32)
          * (Ideal.ofBits .f32 0x3F800000#32 - Ideal.ofBits .f32 0x00000000#32) + Ideal.ofBits .f32 0x00000000#32) = _
  rw [Ideal.ofBits_zero_f32, Ideal.ofBits_one_f32]

end UniformValue

end Cert.ReferenceIdeal.Hand

end
-- ==== Proof.Spec.lean ====
import Idealize.ShloMosaic.PureOps.Ideal
import Idealize.ShloMosaic.Lib.ValueIdx

noncomputable section

namespace Cert.Gibbs.Spec

open Idealize.ShloMosaic

/-- The probability with which a chain accepts flipping a coordinate that now holds `x` and has weight `θ`: the logistic
    function of the change `(1 - 2x)·θ` of the linear energy. -/
def accept (x θ : EReal) : EReal := Ideal.div 1 (1 + Ideal.exp (-((1 - 2 * x) * θ)))

/-- One coordinate after its step: flipped to `1 - x` when the uniform draw `u` falls below the acceptance probability. -/
def upd (x θ u : EReal) : EReal := if u < accept x θ then 1 - x else x

/-- The sampler's result: the first eight coordinates of every chain updated once, each from its own draw; the rest kept. -/
def G (x : Fin 128 → Fin 4096 → EReal) (θ : Fin 4096 → EReal) (U : Fin 128 → Fin 8 → EReal) : Fin 128 → Fin 4096 → EReal :=
  fun b j => if h : j.val < 8 then upd (x b j) (θ j) (U b ⟨j.val, h⟩) else x b j

end Cert.Gibbs.Spec

end
-- ==== Proof.Uniform.lean ====
import proofs.«213024_g80238579024365_cont_9to1c4b_497_7_alg».proof.KernelIdeal
import proofs.«213024_g80238579024365_cont_9to1c4b_497_7_alg».proof.Kernel
import proofs.«213024_g80238579024365_cont_9to1c4b_497_7_alg».proof.Proof.Threefry
import Idealize.ShloMosaic.PureOps.Ideal.Laws
import Mathlib

/-!
# The table of uniform draws is the threefry stream of key (0, 42)

The literal table of the program has 128 rows of 16 words.  Columns 8..15 hold the
pattern of 2.0.  Column `t < 8` of row `b` holds the float `f - 1` where `f ∈ [1,2)` is
the float whose fraction field is the top 23 bits of the 32 random bits that
threefry2x32 gives lane `b` under the subkey of step `t`.

Everything here is closed bit arithmetic, checked by evaluation, plus one lemma that
decodes a normal binary32 pattern as a real number.
-/

namespace Cert.Gibbs.Uniform

open Idealize.ShloMosaic

/-! ## The key chain and the draws (the block function `tf` is the imported scalar threefry2x32) -/

/-- the key before step t (keyAt 0 = (0#32, 42#32)) and the subkey used at step t:
    splitting a key runs threefry on the counters (0,0) and (0,1); lane 0 is the next key,
    lane 1 the subkey -/
def keyAt : Nat → BitVec 32 × BitVec 32
  | 0 => (0#32, 42#32)
  | t + 1 => let k := keyAt t; tf k.1 k.2 0#32 0#32

def subAt (t : Nat) : BitVec 32 × BitVec 32 :=
  let k := keyAt t; tf k.1 k.2 0#32 1#32

/-- the 32 random bits of lane b at step t:  a ^^^ c  where
    (a, c) = tf (subAt t).1 (subAt t).2 0#32 (BitVec.ofNat 32 b) -/
def rbits (t b : Nat) : BitVec 32 :=
  let s := subAt t
  let p := tf s.1 s.2 0#32 (BitVec.ofNat 32 b)
  p.1 ^^^ p.2

/-- the float pattern in [1,2) built from them -/
def upat (t b : Nat) : BitVec 32 := (rbits t b >>> 9) ||| 0x3F800000#32

/-! ## Decoding a binary32 pattern -/

/-- sign, exponent field and fraction field of a binary32 pattern -/
def sgn (w : BitVec 32) : Bool := (w.extractLsb' (8 + 23) 1 == 1#1)
def ex (w : BitVec 32) : Nat := (w.extractLsb' 23 8).toNat
def fr (w : BitVec 32) : Nat := (w.extractLsb' 0 23).toNat

theorem fr_lt (w : BitVec 32) : fr w < 2 ^ 23 := (w.extractLsb' 0 23).isLt

/-- a pattern with sign 0 and exponent field `0 < ex < 255` is the normal number
    `(2^23 + fr) * 2^(ex - 150)` -/
theorem ofBits_normal (w : BitVec 32) (hs : sgn w = false) (h0 : ex w ≠ 0) (h1 : ex w ≠ 255) :
    Ideal.ofBits .f32 w
      = ((((2 ^ 23 + fr w : ℕ) : ℝ) * (2 : ℝ) ^ ((ex w : ℤ) - 150) : ℝ) : EReal) := by
  unfold sgn at hs
  unfold ex at h0 h1 ⊢
  unfold fr
  simp only [Ideal.ofBits, Ideal.ieee]
  rw [if_neg (by simpa using h1), if_neg h0, hs]
  congr 1
  have hb : (((w.extractLsb' 23 8).toNat : ℤ) - (2 ^ (8 - 1) - 1) - ((23 : ℕ) : ℤ))
      = ((w.extractLsb' 23 8).toNat : ℤ) - 150 := by push_cast; ring
  rw [hb]
  simp

/-! ## The check of one entry, and its meaning -/

/-- `ok w w'`: `w` is a pattern of `1 + T/2^23` (sign 0, exponent field 127, fraction `T`) and `w'`
    is the pattern of `T/2^23`: zero when `T = 0`, otherwise the normal number with
    `2^23 + fr' = T * 2^(127 - ex')` -/
def ok (w w' : BitVec 32) : Bool :=
  !sgn w && ex w == 127 &&
    (if fr w = 0 then w' == 0#32
     else !sgn w' && decide (0 < ex w') && decide (ex w' ≤ 126)
            && (2 ^ 23 + fr w' == fr w * 2 ^ (127 - ex w')))

theorem ok_sound (w w' : BitVec 32) (h : ok w w' = true) :
    ∃ r : ℝ, 0 ≤ r ∧ r < 1 ∧ Ideal.ofBits .f32 w = ((1 + r : ℝ) : EReal) ∧
      Ideal.ofBits .f32 w' = ((r : ℝ) : EReal) := by
  unfold ok at h
  simp only [Bool.and_eq_true, Bool.not_eq_true', beq_iff_eq] at h
  obtain ⟨⟨hs, he⟩, h3⟩ := h
  have h2 : (2 : ℝ) ≠ 0 := two_ne_zero
  refine ⟨(fr w : ℝ) / 2 ^ 23, by positivity, ?_, ?_, ?_⟩
  · have := fr_lt w
    rw [div_lt_one (by positivity)]
    exact_mod_cast this
  · rw [ofBits_normal w hs (by omega) (by omega), he]
    congr 1
    have : (((127 : ℕ) : ℤ) - 150) = -23 := by norm_num
    rw [this, zpow_neg]
    push_cast
    field_simp
    norm_num
  · by_cases hT : fr w = 0
    · rw [if_pos hT] at h3
      have hw : w' = 0#32 := by simpa using h3
      subst hw
      rw [hT]
      simp
    · rw [if_neg hT] at h3
      simp only [Bool.and_eq_true, Bool.not_eq_true', decide_eq_true_eq, beq_iff_eq] at h3
      obtain ⟨⟨⟨hs', hp⟩, hle⟩, heq⟩ := h3
      rw [ofBits_normal w' hs' (by omega) (by omega)]
      congr 1
      rw [heq]
      push_cast
      have hz : ((2 : ℝ) ^ (127 - ex w') : ℝ) = (2 : ℝ) ^ ((127 : ℤ) - (ex w' : ℤ)) := by
        rw [← zpow_natCast, Nat.cast_sub (by omega)]
        norm_num
      rw [hz, mul_assoc, ← zpow_add₀ h2]
      have : ((127 : ℤ) - (ex w' : ℤ) + ((ex w' : ℤ) - 150)) = -23 := by ring
      rw [this, zpow_neg, div_eq_mul_inv]
      norm_num

/-! ## The table, entry by entry -/

/-- entry (b, t), t < 8, of the table against the threefry stream -/
def okRow (t b : Nat) : Bool := ok (upat t b) (Cert.KernelIdeal.lit0t (16 * b + t))

/-- all 1024 entries -/
def okAll : Bool := (List.range 8).all fun t => (List.range 128).all fun b => okRow t b

/-- the 1024 padding entries -/
def padAll : Bool := (List.range 128).all fun b => (List.range 8).all fun j =>
  Cert.KernelIdeal.lit0t (16 * b + (8 + j)) == 0x40000000#32

set_option maxRecDepth 100000 in
theorem padAll_true : padAll = true := by decide +kernel

set_option maxRecDepth 100000 in
theorem okAll_true : okAll = true := by decide +kernel

theorem ok_entry (b : Fin 128) (t : Fin 8) : okRow t.val b.val = true := by
  have h := okAll_true
  unfold okAll at h
  rw [List.all_eq_true] at h
  have h1 := h t.val (List.mem_range.mpr t.isLt)
  rw [List.all_eq_true] at h1
  exact h1 b.val (List.mem_range.mpr b.isLt)

theorem lit_index (b : Fin 128) (j : Fin 16) : 16 * b.val + j.val < 2048 := by
  have := b.isLt; have := j.isLt; omega

/-- columns 8..15 of the table are the pattern of 2.0 -/
theorem lit_pad (b : Fin 128) (j : Fin 16) (h : 8 ≤ j.val) :
    Cert.KernelIdeal.lit0 ⟨16 * b.val + j.val, lit_index b j⟩ = 0x40000000#32 := by
  have h0 := padAll_true
  unfold padAll at h0
  rw [List.all_eq_true] at h0
  have h1 := h0 b.val (List.mem_range.mpr b.isLt)
  rw [List.all_eq_true] at h1
  have h2 := h1 (j.val - 8) (List.mem_range.mpr (by have := j.isLt; omega))
  have e : 8 + (j.val - 8) = j.val := by omega
  rw [e] at h2
  exact beq_iff_eq.mp h2

/-- column t < 8: the table's entry is EXACTLY f32(upat) - 1 as a real number r in [0,1) -/
theorem lit_uniform (b : Fin 128) (t : Fin 8) : ∃ r : ℝ, 0 ≤ r ∧ r < 1 ∧
    Idealize.ShloMosaic.Ideal.ofBits .f32 (upat t.val b.val) = ((1 + r : ℝ) : EReal) ∧
    Idealize.ShloMosaic.Ideal.ofBits .f32
      (Cert.KernelIdeal.lit0 ⟨16 * b.val + t.val, lit_index b ⟨t.val, by omega⟩⟩) = ((r : ℝ) : EReal) :=
  ok_sound _ _ (ok_entry b t)

theorem ofBits_one : Idealize.ShloMosaic.Ideal.ofBits .f32 0x3F800000#32 = 1 := by
  simp [Ideal.ofBits, Ideal.ieee, -EReal.coe_mul]; norm_num

theorem ofBits_two : Idealize.ShloMosaic.Ideal.ofBits .f32 0x40000000#32 = 2 := by
  have h : Ideal.ofBits .f32 0x40000000#32 = ((2 : ℝ) : EReal) := by
    simp [Ideal.ofBits, Ideal.ieee, -EReal.coe_mul]; norm_num
  rw [h]
  rfl

/-! ## The word-level program's copy of the table holds the same words -/

/-- the two printed tables agree at every index -/
def sameAll : Bool :=
  (List.range 2048).all fun i => Cert.Kernel.lit0t i == Cert.KernelIdeal.lit0t i

set_option maxRecDepth 100000 in
theorem sameAll_true : sameAll = true := by decide +kernel

theorem lit_same (i : Fin 2048) : Cert.Kernel.lit0 i = Cert.KernelIdeal.lit0 i := by
  have h := sameAll_true
  unfold sameAll at h
  rw [List.all_eq_true] at h
  obtain ⟨n, hn⟩ := i
  exact beq_iff_eq.mp (h n (List.mem_range.mpr hn))

/-- columns 8..15 of the word-level table are the pattern of 2.0 -/
theorem lit_pad_word (b : Fin 128) (j : Fin 16) (h : 8 ≤ j.val) :
    Cert.Kernel.lit0 ⟨16 * b.val + j.val, lit_index b j⟩ = 0x40000000#32 := by
  rw [lit_same]
  exact lit_pad b j h

/-- column t < 8 of the word-level table -/
theorem lit_uniform_word (b : Fin 128) (t : Fin 8) : ∃ r : ℝ, 0 ≤ r ∧ r < 1 ∧
    Idealize.ShloMosaic.Ideal.ofBits .f32 (upat t.val b.val) = ((1 + r : ℝ) : EReal) ∧
    Idealize.ShloMosaic.Ideal.ofBits .f32
      (Cert.Kernel.lit0 ⟨16 * b.val + t.val, lit_index b ⟨t.val, by omega⟩⟩) = ((r : ℝ) : EReal) := by
  rw [lit_same]
  exact lit_uniform b t

end Cert.Gibbs.Uniform
-- ==== Proof.KernelValue.lean ====
import proofs.«213024_g80238579024365_cont_9to1c4b_497_7_alg».proof.Proof.Spec
import proofs.«213024_g80238579024365_cont_9to1c4b_497_7_alg».proof.Proof.ScIdealVal
import proofs.«213024_g80238579024365_cont_9to1c4b_497_7_alg».proof.Proof.Uniform
import Idealize.ShloMosaic.PureOps.Ideal.Laws
import Mathlib

/-!
# The kernel's result is the sampler's specification

At extended reals the lane update of the kernel,
`x + (if u < 1/(1 + exp((0 - (1 - 2x))·θ)) then 1 else 0)·(1 - 2x)`, is the specification's
`if u < accept x θ then 1 - x else x` whenever `x` and `θ` are real; a draw equal to 2 never
falls below an acceptance probability, which is at most 1.
-/

noncomputable section

namespace Cert.KernelIdeal.Lane

open Idealize.ShloMosaic

theorem two_coe : (2 : EReal) = ((2 : ℝ) : EReal) := rfl

/-- `1 - 2x` at a real `x` -/
theorem sgn_coe (a : ℝ) : (1 : EReal) - 2 * (a : EReal) = ((1 - 2 * a : ℝ) : EReal) := by
  rw [two_coe, ← EReal.coe_one, ← EReal.coe_mul, ← EReal.coe_sub]

theorem laneUpd_apply (x th u : FVec Ideal S16 .f32) (l : S16.Idx) (hx : ∃ r : ℝ, x l = (r : EReal))
    (hth : ∃ r : ℝ, th l = (r : EReal)) :
    Cert.KernelIdeal.Sc.laneUpd x th u l = Cert.Gibbs.Spec.upd (x l) (th l) (u l) := by
  obtain ⟨a, ha⟩ := hx
  obtain ⟨c, hc⟩ := hth
  have e1 : ((0 : EReal) - (1 - 2 * (a : EReal))) * (c : EReal) = -((1 - 2 * (a : EReal)) * (c : EReal)) := by
    rw [zero_sub, EReal.neg_mul]
  unfold Cert.KernelIdeal.Sc.laneUpd Cert.Gibbs.Spec.upd Cert.Gibbs.Spec.accept
  simp only [addf, mulf, subf, divf, Idealize.ShloMosaic.exp, select, cmpf, broadcast, Scalar.select,
    Ideal.addf_def, Ideal.mulf_def, Ideal.subf_def, Ideal.divf_def, Ideal.exp_def, Ideal.cmpf_def, Ideal.ofBits_def,
    Cert.Gibbs.Uniform.ofBits_one, Cert.Gibbs.Uniform.ofBits_two, Ideal.ofBits_zero_f32, Ideal.cmp, ha, hc, e1]
  by_cases h : u l < Ideal.div 1 (1 + Ideal.exp (-((1 - 2 * (a : EReal)) * (c : EReal))))
  · rw [if_pos h]
    simp only [h, decide_true, BitVec.ofBool_true, if_true, one_mul]
    rw [sgn_coe, ← EReal.coe_add, ← EReal.coe_one, ← EReal.coe_sub]
    congr 1
    ring
  · rw [if_neg h]
    simp only [h, decide_false, BitVec.ofBool_false]
    rw [if_neg (by decide), zero_mul, add_zero]

/-- a draw of 2 is never below the acceptance probability `1/(1 + exp(..)) ≤ 1`: the coordinate is kept -/
theorem upd_pad (x th : ℝ) : Cert.Gibbs.Spec.upd (x : EReal) (th : EReal) 2 = (x : EReal) := by
  have hpos : (0 : ℝ) < 1 + Real.exp (-((1 - 2 * x) * th)) := by positivity
  have hacc : Cert.Gibbs.Spec.accept (x : EReal) (th : EReal)
      = ((1 * (1 / (1 + Real.exp (-((1 - 2 * x) * th)))) : ℝ) : EReal) := by
    unfold Cert.Gibbs.Spec.accept
    rw [sgn_coe, ← EReal.coe_mul, ← EReal.coe_neg, Ideal.exp_coe, ← EReal.coe_one, ← EReal.coe_add,
      Ideal.div_coe hpos.ne', ← EReal.coe_mul]
  unfold Cert.Gibbs.Spec.upd
  rw [if_neg]
  rw [hacc, two_coe, EReal.coe_lt_coe_iff, not_lt, one_mul, div_le_iff₀ hpos]
  have := Real.exp_pos (-((1 - 2 * x) * th))
  linarith

theorem kout_eq_G (x : FVec Ideal S128x4096 .f32) (θ : FVec Ideal S4096 .f32)
    (hx : ∀ i, ∃ r : ℝ, x i = (r : EReal)) (hθ : ∀ i, ∃ r : ℝ, θ i = (r : EReal)) (b : Fin 128) (j : Fin 4096) :
    Cert.KernelIdeal.Sc.kout x θ (ValueIdx.ix2 b j)
      = Cert.Gibbs.Spec.G (fun b j => x (ValueIdx.ix2 b j)) (fun j => θ (ValueIdx.ix1 j))
          (fun b t => Idealize.ShloMosaic.Ideal.ofBits .f32 (Cert.KernelIdeal.lit0 ⟨16 * b.val + t.val, by have := b.isLt; have := t.isLt; omega⟩)) b j := by
  by_cases h16 : 16 ≤ j.val
  · rw [Cert.KernelIdeal.Sc.kout_hi x θ b j h16]
    unfold Cert.Gibbs.Spec.G
    rw [dif_neg (by omega)]
  · obtain ⟨jv, hjv⟩ := j
    have hl : jv < 16 := by simpa using h16
    refine (Cert.KernelIdeal.Sc.kout_lo x θ b ⟨jv, hl⟩).trans ?_
    rw [laneUpd_apply _ _ _ _ (hx _) (hθ _)]
    unfold Cert.Gibbs.Spec.G
    by_cases h8 : jv < 8
    · rw [dif_pos h8]
      rfl
    · rw [dif_neg h8]
      obtain ⟨a, ha⟩ := hx (ValueIdx.ix2 b ⟨jv, hjv⟩)
      obtain ⟨c, hc⟩ := hθ (ValueIdx.ix1 ⟨jv, hjv⟩)
      have hp := Cert.Gibbs.Uniform.lit_pad b ⟨jv, hl⟩ (by show 8 ≤ jv; omega)
      show Cert.Gibbs.Spec.upd (x (ValueIdx.ix2 b ⟨jv, hjv⟩)) (θ (ValueIdx.ix1 ⟨jv, hjv⟩))
          (Idealize.ShloMosaic.Ideal.ofBits .f32 (Cert.KernelIdeal.lit0 ⟨16 * b.val + jv, Cert.Gibbs.Uniform.lit_index b ⟨jv, hl⟩⟩))
        = x (ValueIdx.ix2 b ⟨jv, hjv⟩)
      rw [hp, Cert.Gibbs.Uniform.ofBits_two, ha, hc, upd_pad]

/-- the reference's draw `max 0 ((f - 1)·(1 - 0) + 0)` from the float `f ∈ [1,2)` is the table's entry -/
theorem uref_eq (b : Fin 128) (t : Fin 8) :
    max 0 ((Idealize.ShloMosaic.Ideal.ofBits .f32 (Cert.Gibbs.Uniform.upat t.val b.val) - 1)
          * (Idealize.ShloMosaic.Ideal.ofBits .f32 0x3F800000#32 - Idealize.ShloMosaic.Ideal.ofBits .f32 0x00000000#32)
        + Idealize.ShloMosaic.Ideal.ofBits .f32 0x00000000#32)
      = Idealize.ShloMosaic.Ideal.ofBits .f32 (Cert.KernelIdeal.lit0 ⟨16 * b.val + t.val, by have := b.isLt; have := t.isLt; omega⟩) := by
  obtain ⟨r, h0, _, hu, hl⟩ := Cert.Gibbs.Uniform.lit_uniform b t
  rw [hu, Cert.Gibbs.Uniform.ofBits_one, Ideal.ofBits_zero_f32, sub_zero, add_zero, mul_one, ← EReal.coe_one,
    ← EReal.coe_sub]
  have e : (1 + r - 1 : ℝ) = r := by ring
  rw [e, max_eq_right (by exact_mod_cast h0)]
  exact hl.symm

end Cert.KernelIdeal.Lane

end
-- ==== Proof.RefKeys.lean ====
import proofs.«213024_g80238579024365_cont_9to1c4b_497_7_alg».proof.Proof.RefPaths
import proofs.«213024_g80238579024365_cont_9to1c4b_497_7_alg».proof.Proof.RefRand
import proofs.«213024_g80238579024365_cont_9to1c4b_497_7_alg».proof.Proof.KernelValue
import Idealize.ShloMosaic.Lib.ValueLayout

/-!
# The reference's eight uniform draws are the kernel's table

The reference computes its random numbers in the program: a key (0, 42); before each of the eight steps the key is
split (threefry on the counters (0,0) and (0,1): row 0 is the next key, row 1 the step's subkey) and 128 uniform
floats are drawn from the subkey.  The split keys follow the scalar chain keyAt / subAt; the draw of lane b at
step t is the float whose pattern is upat t b, minus one, and that is entry 16 b + t of the kernel's table.
-/

set_option maxRecDepth 16384
set_option maxHeartbeats 4000000

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx
open Cert.Gibbs.Uniform (tf keyAt subAt rbits upat)

variable {F : FTy → Type} [FloatOps F]

/-! ## The key plumbing between the calls, over typed references -/

section Plumbing
variable {W : Valuation τ sig (Elt F)}

/-- Row `r` of a 2×2 array, sliced out and reshaped to a vector, reads at `c` the array's entry `(r, c)`. -/
theorem row_word {α : Type} (x : S2x2.Idx → α) (r : Fin 2) (hs : S2x2.Slices ![r.val, 0] S1x2) (hc : S1x2.ShapeCasts S2) (c : Fin 2) :
    shapeCast S2 (extractStridedSlice S1x2 ![r.val, 0] x hs) hc (ix1 c) = x (ix2 r c) := by
  refine (shapeCast_1a_a_apply _ hc c).trans ?_
  exact extractStridedSlice_apply _ _ _ _ _ (fun a => by
    match a with
    | ⟨0, _⟩ => rfl
    | ⟨1, _⟩ => exact (Nat.zero_add _).symm)

theorem rd_row {R : TRef sig ⟨S2x2, .i32⟩} {s : TRef sig ⟨S1x2, .i32⟩} {k : TRef sig ⟨S2, .i32⟩} (r : Fin 2)
    {hs : S2x2.Slices ![r.val, 0] S1x2} {hc : S1x2.ShapeCasts S2}
    (e0 : Sat W (TRef.unary (τ := τ) R s (extractStridedSlice S1x2 ![r.val, 0] · hs)))
    (e1 : Sat W (TRef.reshape (τ := τ) (Val := Elt F) s k rfl hc)) (c : Fin 2) : rd W k (ix1 c) = rd W R (ix2 r c) := by
  rw [sat_Treshape e1, sat_Tunary e0]; exact row_word _ r hs hc c

/-- Row 0 of a split of the key before step `t` is the key before step `t + 1`. -/
theorem next_key {K nk : TRef sig ⟨S2, .i32⟩} {R : TRef sig ⟨S2x2, .i32⟩} {s : TRef sig ⟨S1x2, .i32⟩} (t : Nat)
    {hs : S2x2.Slices ![(0 : Fin 2).val, 0] S1x2} {hc : S1x2.ShapeCasts S2}
    (hK : rd W K (ix1 0) = (keyAt t).1 ∧ rd W K (ix1 1) = (keyAt t).2)
    (hR : ∀ r c : Fin 2, rd W R (ix2 r c) =
      (if c.val = 0 then (tf (rd W K (ix1 0)) (rd W K (ix1 1)) 0#32 (BitVec.ofNat 32 r.val)).1
       else (tf (rd W K (ix1 0)) (rd W K (ix1 1)) 0#32 (BitVec.ofNat 32 r.val)).2))
    (e0 : Sat W (TRef.unary (τ := τ) R s (extractStridedSlice S1x2 ![(0 : Fin 2).val, 0] · hs)))
    (e1 : Sat W (TRef.reshape (τ := τ) (Val := Elt F) s nk rfl hc)) :
    rd W nk (ix1 0) = (keyAt (t + 1)).1 ∧ rd W nk (ix1 1) = (keyAt (t + 1)).2 := by
  constructor
  · rw [rd_row 0 e0 e1 0, hR 0 0, hK.1, hK.2]; rfl
  · rw [rd_row 0 e0 e1 1, hR 0 1, hK.1, hK.2]; rfl

/-- Row 1 of a split of the key before step `t` is the subkey of step `t`. -/
theorem sub_key {K sk : TRef sig ⟨S2, .i32⟩} {R : TRef sig ⟨S2x2, .i32⟩} {s : TRef sig ⟨S1x2, .i32⟩} (t : Nat)
    {hs : S2x2.Slices ![(1 : Fin 2).val, 0] S1x2} {hc : S1x2.ShapeCasts S2}
    (hK : rd W K (ix1 0) = (keyAt t).1 ∧ rd W K (ix1 1) = (keyAt t).2)
    (hR : ∀ r c : Fin 2, rd W R (ix2 r c) =
      (if c.val = 0 then (tf (rd W K (ix1 0)) (rd W K (ix1 1)) 0#32 (BitVec.ofNat 32 r.val)).1
       else (tf (rd W K (ix1 0)) (rd W K (ix1 1)) 0#32 (BitVec.ofNat 32 r.val)).2))
    (e0 : Sat W (TRef.unary (τ := τ) R s (extractStridedSlice S1x2 ![(1 : Fin 2).val, 0] · hs)))
    (e1 : Sat W (TRef.reshape (τ := τ) (Val := Elt F) s sk rfl hc)) :
    rd W sk (ix1 0) = (subAt t).1 ∧ rd W sk (ix1 1) = (subAt t).2 := by
  constructor
  · rw [rd_row 1 e0 e1 0, hR 1 0, hK.1, hK.2]; rfl
  · rw [rd_row 1 e0 e1 1, hR 1 1, hK.1, hK.2]; rfl

/-- The program's first key: the two words of the 64-bit seed 42, high word first. -/
theorem init_key {c c0 v0 v1 c1 v3 v4 : TRef sig ⟨S_, .i32⟩} {v2 v5 : TRef sig ⟨S1, .i32⟩} {v6 : TRef sig ⟨S2, .i32⟩}
    {hb hb' : S_.BroadcastsInDim S1 (![] : Fin 0 → Fin S1.rank)} {hcat : Shape.Concatenates [S1, S1] S2 0}
    (q0 : Sat W (TRef.nullary (τ := τ) c (constantI S_ 32 42#32)))
    (q1 : Sat W (TRef.nullary (τ := τ) c0 (constantI S_ 32 32#32)))
    (q2 : Sat W (TRef.binary (τ := τ) c c0 v0 Host.shrui))
    (q3 : Sat W (TRef.unary (τ := τ) v0 v1 id))
    (q4 : Sat W (TRef.unary (τ := τ) v1 v2 (broadcastInDim S1 ![] hb)))
    (q5 : Sat W (TRef.nullary (τ := τ) c1 (constantI S_ 32 4294967295#32)))
    (q6 : Sat W (TRef.binary (τ := τ) c c1 v3 andi))
    (q7 : Sat W (TRef.unary (τ := τ) v3 v4 id))
    (q8 : Sat W (TRef.unary (τ := τ) v4 v5 (broadcastInDim S1 ![] hb')))
    (q9 : Sat W (TRef.binary (τ := τ) v2 v5 v6 (fun a b => concatenate S2 0 [⟨S1, a⟩, ⟨S1, b⟩] hcat))) :
    rd W v6 (ix1 0) = (keyAt 0).1 ∧ rd W v6 (ix1 1) = (keyAt 0).2 := by
  constructor
  · rw [sat_Tbinary q9]
    refine (concatenate_pair_apply_left (t := S2) (s₁ := S1) (s₂ := S1) (0 : Fin 1) _ _ hcat (ix1 0) rfl (ix1 0 : S1.Idx)
      (fun b => by match b with | ⟨0, _⟩ => rfl)).trans ?_
    rw [sat_Tunary q4, broadcastInDim_scalar_apply, sat_Tunary q3, sat_Tbinary q2, sat_Tnullary q0, sat_Tnullary q1]
    show IntOp.shrui .host 42#32 32#32 = 0#32
    decide
  · rw [sat_Tbinary q9]
    refine (concatenate_pair_apply_right (t := S2) (s₁ := S1) (s₂ := S1) (0 : Fin 1) _ _ hcat (ix1 1) rfl rfl (ix1 0 : S1.Idx)
      (fun b hb => by match b with | ⟨0, _⟩ => exact absurd rfl hb) rfl).trans ?_
    rw [sat_Tunary q8, broadcastInDim_scalar_apply, sat_Tunary q7, sat_Tbinary q6, sat_Tnullary q0, sat_Tnullary q5]
    show IntOp.andi 42#32 4294967295#32 = 42#32
    decide

end Plumbing

/-! ## One step's draws, at the ideal instance -/

/-- The 128 draws of step `t`, made from the subkey of step `t` with the bounds 0 and 1, are column `t` of the table. -/
theorem draw_eq (a0 : TRef sig ⟨S2, .i32⟩) (a1 a2 : TRef sig ⟨S_, .f32⟩) (φ : fn_uniform.Bufs) (W : Valuation τ sig (Elt Ideal))
    (h : ∀ op ∈ L_fn_uniform_body (F := Ideal) a0 a1 a2 φ, Sat W op) (t : Fin 8)
    (hs : rd W a0 (ix1 0) = (subAt t.val).1 ∧ rd W a0 (ix1 1) = (subAt t.val).2)
    (h0 : Sat W (TRef.nullary (τ := τ) a1 (constant (F := Ideal) S_ .f32 0x00000000#32)))
    (h1 : Sat W (TRef.nullary (τ := τ) a2 (constant (F := Ideal) S_ .f32 0x3F800000#32))) (b : Fin 128) :
    rd W φ.v30 (ix1 b) = Idealize.ShloMosaic.Ideal.ofBits .f32
      (Cert.KernelIdeal.lit0 ⟨16 * b.val + t.val, by have := b.isLt; have := t.isLt; omega⟩) := by
  rw [uniform_value a0 a1 a2 φ W h (sat_Tnullary h0) (sat_Tnullary h1) b, uniform_bits a0 a1 a2 φ W h b, hs.1, hs.2]
  exact Cert.KernelIdeal.Lane.uref_eq b t

/-! ## The program's literal buffers of the key plumbing, as typed references -/

abbrev tr_c : TRef sig ⟨S_, .i32⟩ := .of main_c
abbrev tr_c_0 : TRef sig ⟨S_, .i32⟩ := .of main_c_0
abbrev tr_v0 : TRef sig ⟨S_, .i32⟩ := .of main_v0
abbrev tr_v1 : TRef sig ⟨S_, .i32⟩ := .of main_v1
abbrev tr_c_1 : TRef sig ⟨S_, .i32⟩ := .of main_c_1
abbrev tr_v3 : TRef sig ⟨S_, .i32⟩ := .of main_v3
abbrev tr_v4 : TRef sig ⟨S_, .i32⟩ := .of main_v4
abbrev tr_v2 : TRef sig ⟨S1, .i32⟩ := .of main_v2
abbrev tr_v5 : TRef sig ⟨S1, .i32⟩ := .of main_v5
abbrev tr_v22 : TRef sig ⟨S1x2, .i32⟩ := .of main_v22
abbrev tr_v24 : TRef sig ⟨S1x2, .i32⟩ := .of main_v24
abbrev tr_v59 : TRef sig ⟨S1x2, .i32⟩ := .of main_v59
abbrev tr_v61 : TRef sig ⟨S1x2, .i32⟩ := .of main_v61
abbrev tr_v96 : TRef sig ⟨S1x2, .i32⟩ := .of main_v96
abbrev tr_v98 : TRef sig ⟨S1x2, .i32⟩ := .of main_v98
abbrev tr_v133 : TRef sig ⟨S1x2, .i32⟩ := .of main_v133
abbrev tr_v135 : TRef sig ⟨S1x2, .i32⟩ := .of main_v135
abbrev tr_v170 : TRef sig ⟨S1x2, .i32⟩ := .of main_v170
abbrev tr_v172 : TRef sig ⟨S1x2, .i32⟩ := .of main_v172
abbrev tr_v207 : TRef sig ⟨S1x2, .i32⟩ := .of main_v207
abbrev tr_v209 : TRef sig ⟨S1x2, .i32⟩ := .of main_v209
abbrev tr_v244 : TRef sig ⟨S1x2, .i32⟩ := .of main_v244
abbrev tr_v246 : TRef sig ⟨S1x2, .i32⟩ := .of main_v246
abbrev tr_v283 : TRef sig ⟨S1x2, .i32⟩ := .of main_v283
abbrev tr_v6 : TRef sig ⟨S2, .i32⟩ := .of main_v6
abbrev tr_v23 : TRef sig ⟨S2, .i32⟩ := .of main_v23
abbrev tr_v25 : TRef sig ⟨S2, .i32⟩ := .of main_v25
abbrev tr_v60 : TRef sig ⟨S2, .i32⟩ := .of main_v60
abbrev tr_v62 : TRef sig ⟨S2, .i32⟩ := .of main_v62
abbrev tr_v97 : TRef sig ⟨S2, .i32⟩ := .of main_v97
abbrev tr_v99 : TRef sig ⟨S2, .i32⟩ := .of main_v99
abbrev tr_v134 : TRef sig ⟨S2, .i32⟩ := .of main_v134
abbrev tr_v136 : TRef sig ⟨S2, .i32⟩ := .of main_v136
abbrev tr_v171 : TRef sig ⟨S2, .i32⟩ := .of main_v171
abbrev tr_v173 : TRef sig ⟨S2, .i32⟩ := .of main_v173
abbrev tr_v208 : TRef sig ⟨S2, .i32⟩ := .of main_v208
abbrev tr_v210 : TRef sig ⟨S2, .i32⟩ := .of main_v210
abbrev tr_v245 : TRef sig ⟨S2, .i32⟩ := .of main_v245
abbrev tr_v247 : TRef sig ⟨S2, .i32⟩ := .of main_v247
abbrev tr_v284 : TRef sig ⟨S2, .i32⟩ := .of main_v284
abbrev tr_cst_6 : TRef sig ⟨S_, .f32⟩ := .of main_cst_6
abbrev tr_cst_7 : TRef sig ⟨S_, .f32⟩ := .of main_cst_7
abbrev tr_cst_16 : TRef sig ⟨S_, .f32⟩ := .of main_cst_16
abbrev tr_cst_17 : TRef sig ⟨S_, .f32⟩ := .of main_cst_17
abbrev tr_cst_26 : TRef sig ⟨S_, .f32⟩ := .of main_cst_26
abbrev tr_cst_27 : TRef sig ⟨S_, .f32⟩ := .of main_cst_27
abbrev tr_cst_36 : TRef sig ⟨S_, .f32⟩ := .of main_cst_36
abbrev tr_cst_37 : TRef sig ⟨S_, .f32⟩ := .of main_cst_37
abbrev tr_cst_46 : TRef sig ⟨S_, .f32⟩ := .of main_cst_46
abbrev tr_cst_47 : TRef sig ⟨S_, .f32⟩ := .of main_cst_47
abbrev tr_cst_56 : TRef sig ⟨S_, .f32⟩ := .of main_cst_56
abbrev tr_cst_57 : TRef sig ⟨S_, .f32⟩ := .of main_cst_57
abbrev tr_cst_66 : TRef sig ⟨S_, .f32⟩ := .of main_cst_66
abbrev tr_cst_67 : TRef sig ⟨S_, .f32⟩ := .of main_cst_67
abbrev tr_cst_76 : TRef sig ⟨S_, .f32⟩ := .of main_cst_76
abbrev tr_cst_77 : TRef sig ⟨S_, .f32⟩ := .of main_cst_77

/-! ## The eight steps -/

/-- At a valuation that satisfies every equation of the program, the draws of step t (the buffer the t-th call of
    the uniform function returns) are column t of the kernel's table, for t = 0, …, 7: the key chain is followed
    from the seed through the eight splits, and each step's draws are made from that step's subkey. -/
theorem uniform_at (W : Valuation τ sig (Elt Ideal)) (hsat : ∀ op ∈ L_main (F := Ideal), Sat W op) (b : Fin 128) :
    W (main_v26 : DevRef τ sig) (ix1 b) = Idealize.ShloMosaic.Ideal.ofBits .f32 (Cert.KernelIdeal.lit0 ⟨16 * b.val + 0, by have := b.isLt; omega⟩)
    ∧ W (main_v63 : DevRef τ sig) (ix1 b) = Idealize.ShloMosaic.Ideal.ofBits .f32 (Cert.KernelIdeal.lit0 ⟨16 * b.val + 1, by have := b.isLt; omega⟩)
    ∧ W (main_v100 : DevRef τ sig) (ix1 b) = Idealize.ShloMosaic.Ideal.ofBits .f32 (Cert.KernelIdeal.lit0 ⟨16 * b.val + 2, by have := b.isLt; omega⟩)
    ∧ W (main_v137 : DevRef τ sig) (ix1 b) = Idealize.ShloMosaic.Ideal.ofBits .f32 (Cert.KernelIdeal.lit0 ⟨16 * b.val + 3, by have := b.isLt; omega⟩)
    ∧ W (main_v174 : DevRef τ sig) (ix1 b) = Idealize.ShloMosaic.Ideal.ofBits .f32 (Cert.KernelIdeal.lit0 ⟨16 * b.val + 4, by have := b.isLt; omega⟩)
    ∧ W (main_v211 : DevRef τ sig) (ix1 b) = Idealize.ShloMosaic.Ideal.ofBits .f32 (Cert.KernelIdeal.lit0 ⟨16 * b.val + 5, by have := b.isLt; omega⟩)
    ∧ W (main_v248 : DevRef τ sig) (ix1 b) = Idealize.ShloMosaic.Ideal.ofBits .f32 (Cert.KernelIdeal.lit0 ⟨16 * b.val + 6, by have := b.isLt; omega⟩)
    ∧ W (main_v285 : DevRef τ sig) (ix1 b) = Idealize.ShloMosaic.Ideal.ofBits .f32 (Cert.KernelIdeal.lit0 ⟨16 * b.val + 7, by have := b.isLt; omega⟩) := by
  -- the equations of the literal operations between the calls
  have A := List.forall_iff_forall_mem.2 (fun op h => hsat op (sub_p0s0 op h) : ∀ op ∈ L_main_part0_s0 (F := Ideal), Sat W op)
  have B0 := List.forall_iff_forall_mem.2 (fun op h => hsat op (sub_p0s1 op h) : ∀ op ∈ L_main_part0_s1 (F := Ideal), Sat W op)
  have B1 := List.forall_iff_forall_mem.2 (fun op h => hsat op (sub_p1s1 op h) : ∀ op ∈ L_main_part1_s1 (F := Ideal), Sat W op)
  have B2 := List.forall_iff_forall_mem.2 (fun op h => hsat op (sub_p2s1 op h) : ∀ op ∈ L_main_part2_s1 (F := Ideal), Sat W op)
  have B3 := List.forall_iff_forall_mem.2 (fun op h => hsat op (sub_p2s3 op h) : ∀ op ∈ L_main_part2_s3 (F := Ideal), Sat W op)
  have B4 := List.forall_iff_forall_mem.2 (fun op h => hsat op (sub_p3s1 op h) : ∀ op ∈ L_main_part3_s1 (F := Ideal), Sat W op)
  have B5 := List.forall_iff_forall_mem.2 (fun op h => hsat op (sub_p4s1 op h) : ∀ op ∈ L_main_part4_s1 (F := Ideal), Sat W op)
  have B6 := List.forall_iff_forall_mem.2 (fun op h => hsat op (sub_p5s1 op h) : ∀ op ∈ L_main_part5_s1 (F := Ideal), Sat W op)
  have B7 := List.forall_iff_forall_mem.2 (fun op h => hsat op (sub_p6s0 op h) : ∀ op ∈ L_main_part6_s0 (F := Ideal), Sat W op)
  unfold L_main_part0_s0 at A
  unfold L_main_part0_s1 at B0
  unfold L_main_part1_s1 at B1
  unfold L_main_part2_s1 at B2
  unfold L_main_part2_s3 at B3
  unfold L_main_part3_s1 at B4
  unfold L_main_part4_s1 at B5
  unfold L_main_part5_s1 at B6
  unfold L_main_part6_s0 at B7
  obtain ⟨q0, q1, q2, q3, q4, q5, q6, q7, q8, q9, _⟩ := A
  obtain ⟨s0_0, s0_1, s0_2, s0_3, s0_4, s0_5⟩ := B0
  obtain ⟨s1_0, s1_1, s1_2, s1_3, s1_4, s1_5⟩ := B1
  obtain ⟨s2_0, s2_1, s2_2, s2_3, s2_4, s2_5⟩ := B2
  obtain ⟨s3_0, s3_1, s3_2, s3_3, s3_4, s3_5⟩ := B3
  obtain ⟨s4_0, s4_1, s4_2, s4_3, s4_4, s4_5⟩ := B4
  obtain ⟨s5_0, s5_1, s5_2, s5_3, s5_4, s5_5⟩ := B5
  obtain ⟨s6_0, s6_1, s6_2, s6_3, s6_4, s6_5⟩ := B6
  obtain ⟨_, s7_1, s7_2, s7_3, s7_4⟩ := B7
  replace s0_5 : Sat W _ := s0_5
  replace s1_5 : Sat W _ := s1_5
  replace s2_5 : Sat W _ := s2_5
  replace s3_5 : Sat W _ := s3_5
  replace s4_5 : Sat W _ := s4_5
  replace s5_5 : Sat W _ := s5_5
  replace s6_5 : Sat W _ := s6_5
  replace s7_4 : Sat W _ := s7_4
  -- the seed
  have K0 := init_key (hb := bcast_S_S1) (hb' := bcast_S_S1) (hcat := concatenates_S1_S1_S2_d0) (c := tr_c) (c0 := tr_c_0) (v0 := tr_v0) (v1 := tr_v1) (c1 := tr_c_1)
    (v3 := tr_v3) (v4 := tr_v4) (v2 := tr_v2) (v5 := tr_v5) (v6 := tr_v6) q0 q1 q2 q3 q4 q5 q6 q7 q8 q9
  -- step 0
  have S0 := split_spec (F := Ideal) tr_v6 main_call0 W (fun op h => hsat op (sub_call_main_call0 op h))
  have K1 := next_key (hs := slices_S2x2_S1x2_0_0) (hc := shapeCasts_S1x2_S2) (s := tr_v22) (nk := tr_v23) 0 K0 S0 s0_0 s0_1
  have Z0 := sub_key (hs := slices_S2x2_S1x2_1_0) (hc := shapeCasts_S1x2_S2) (s := tr_v24) (sk := tr_v25) 0 K0 S0 s0_2 s0_3
  have U0 := draw_eq tr_v25 tr_cst_6 tr_cst_7 main_call1 W
    (fun op h => hsat op (sub_call_main_call1 op h)) 0 Z0 s0_4 s0_5 b
  -- step 1
  have S1 := split1_spec (F := Ideal) tr_v23 main_call2 W (fun op h => hsat op (sub_call_main_call2 op h))
  have K2 := next_key (hs := slices_S2x2_S1x2_0_0) (hc := shapeCasts_S1x2_S2) (s := tr_v59) (nk := tr_v60) 1 K1 S1 s1_0 s1_1
  have Z1 := sub_key (hs := slices_S2x2_S1x2_1_0) (hc := shapeCasts_S1x2_S2) (s := tr_v61) (sk := tr_v62) 1 K1 S1 s1_2 s1_3
  have U1 := draw_eq tr_v62 tr_cst_16 tr_cst_17 main_call3 W
    (fun op h => hsat op (sub_call_main_call3 op h)) 1 Z1 s1_4 s1_5 b
  -- step 2
  have S2' := split1_spec (F := Ideal) tr_v60 main_call4 W (fun op h => hsat op (sub_call_main_call4 op h))
  have K3 := next_key (hs := slices_S2x2_S1x2_0_0) (hc := shapeCasts_S1x2_S2) (s := tr_v96) (nk := tr_v97) 2 K2 S2' s2_0 s2_1
  have Z2 := sub_key (hs := slices_S2x2_S1x2_1_0) (hc := shapeCasts_S1x2_S2) (s := tr_v98) (sk := tr_v99) 2 K2 S2' s2_2 s2_3
  have U2 := draw_eq tr_v99 tr_cst_26 tr_cst_27 main_call5 W
    (fun op h => hsat op (sub_call_main_call5 op h)) 2 Z2 s2_4 s2_5 b
  -- step 3
  have S3 := split1_spec (F := Ideal) tr_v97 main_call6 W (fun op h => hsat op (sub_call_main_call6 op h))
  have K4 := next_key (hs := slices_S2x2_S1x2_0_0) (hc := shapeCasts_S1x2_S2) (s := tr_v133) (nk := tr_v134) 3 K3 S3 s3_0 s3_1
  have Z3 := sub_key (hs := slices_S2x2_S1x2_1_0) (hc := shapeCasts_S1x2_S2) (s := tr_v135) (sk := tr_v136) 3 K3 S3 s3_2 s3_3
  have U3 := draw_eq tr_v136 tr_cst_36 tr_cst_37 main_call7 W
    (fun op h => hsat op (sub_call_main_call7 op h)) 3 Z3 s3_4 s3_5 b
  -- step 4
  have S4 := split1_spec (F := Ideal) tr_v134 main_call8 W (fun op h => hsat op (sub_call_main_call8 op h))
  have K5 := next_key (hs := slices_S2x2_S1x2_0_0) (hc := shapeCasts_S1x2_S2) (s := tr_v170) (nk := tr_v171) 4 K4 S4 s4_0 s4_1
  have Z4 := sub_key (hs := slices_S2x2_S1x2_1_0) (hc := shapeCasts_S1x2_S2) (s := tr_v172) (sk := tr_v173) 4 K4 S4 s4_2 s4_3
  have U4 := draw_eq tr_v173 tr_cst_46 tr_cst_47 main_call9 W
    (fun op h => hsat op (sub_call_main_call9 op h)) 4 Z4 s4_4 s4_5 b
  -- step 5
  have S5 := split1_spec (F := Ideal) tr_v171 main_call10 W (fun op h => hsat op (sub_call_main_call10 op h))
  have K6 := next_key (hs := slices_S2x2_S1x2_0_0) (hc := shapeCasts_S1x2_S2) (s := tr_v207) (nk := tr_v208) 5 K5 S5 s5_0 s5_1
  have Z5 := sub_key (hs := slices_S2x2_S1x2_1_0) (hc := shapeCasts_S1x2_S2) (s := tr_v209) (sk := tr_v210) 5 K5 S5 s5_2 s5_3
  have U5 := draw_eq tr_v210 tr_cst_56 tr_cst_57 main_call11 W
    (fun op h => hsat op (sub_call_main_call11 op h)) 5 Z5 s5_4 s5_5 b
  -- step 6
  have S6 := split1_spec (F := Ideal) tr_v208 main_call12 W (fun op h => hsat op (sub_call_main_call12 op h))
  have K7 := next_key (hs := slices_S2x2_S1x2_0_0) (hc := shapeCasts_S1x2_S2) (s := tr_v244) (nk := tr_v245) 6 K6 S6 s6_0 s6_1
  have Z6 := sub_key (hs := slices_S2x2_S1x2_1_0) (hc := shapeCasts_S1x2_S2) (s := tr_v246) (sk := tr_v247) 6 K6 S6 s6_2 s6_3
  have U6 := draw_eq tr_v247 tr_cst_66 tr_cst_67 main_call13 W
    (fun op h => hsat op (sub_call_main_call13 op h)) 6 Z6 s6_4 s6_5 b
  -- step 7 (its next key is not used)
  have S7 := split1_spec (F := Ideal) tr_v245 main_call14 W (fun op h => hsat op (sub_call_main_call14 op h))
  have Z7 := sub_key (hs := slices_S2x2_S1x2_1_0) (hc := shapeCasts_S1x2_S2) (s := tr_v283) (sk := tr_v284) 7 K7 S7 s7_1 s7_2
  have U7 := draw_eq tr_v284 tr_cst_76 tr_cst_77 main_call15 W
    (fun op h => hsat op (sub_call_main_call15 op h)) 7 Z7 s7_3 s7_4 b
  exact ⟨U0, U1, U2, U3, U4, U5, U6, U7⟩

end Cert.ReferenceIdeal.Hand

end
-- ==== Proof.RefStep.lean ====
import proofs.«213024_g80238579024365_cont_9to1c4b_497_7_alg».proof.Proof.RefStepDef
import proofs.«213024_g80238579024365_cont_9to1c4b_497_7_alg».proof.Proof.Spec
import Idealize.ShloMosaic.PureOps.Ideal.Laws
import Idealize.ShloMosaic.Lib.ValueIdx
import Idealize.ShloMosaic.Lib.ValueLayout
import Idealize.ShloMosaic.Lib.Pipeline.Value

/-!
# One Gibbs step of the reference, as a pure term, is one step of the specification

`stepTerm i s θ u` flips column `i` of the sample `s` in the chains that accept.  Read at the extended reals, with
every input finite:

* the scattered array is the indicator of column `i`;
* `sc`, the sample with that column replaced by `1 - s`, differs from `s` in that column alone, so the two
  matrix–vector products differ by the one term `(1 - 2 s(b,i)) θ_i`;
* its logistic is `Spec.accept`, the comparison with the draw gives `1` or `0`, and the mix
  `sc · a + s · (1 - a)` is `sc` where `a = 1` and `s` where `a = 0`.
-/

noncomputable section

namespace Cert.ReferenceIdeal.Step

open Cert.ReferenceIdeal Cert.ReferenceIdeal.Gen Idealize.ShloMosaic Idealize.ShloMosaic.ValueIdx

/-! ## The scatter read at an index -/

/-- A scatter whose body returns the update, of updates that all hold one value `c`: an element some update lands on holds `c`,
    every other element the operand's. -/
theorem scatter_set_const {α : Type} {s si u : Shape} {w : Nat} (d : ScatterDims s si u) (x : s.Idx → α) (idx : IVec si w)
    (upd : u.Idx → α) (c : α) (hupd : ∀ j, upd j = c) (i' : s.Idx) :
    Host.scatter d (fun _ b => b) x idx upd i' = if ∃ j : u.Idx, d.resultIdx? j idx = some i' then c else x i' := by
  classical
  unfold Host.scatter
  have key : ∀ (L : List (Fin u.numel)) (x : s.Idx → α),
      (L.foldl (fun r n =>
        match d.resultIdx? (u.rowMajor.symm n) idx with
        | some i => fun i' => if i' = i then (fun _ b => b) (r i) (upd (u.rowMajor.symm n)) else r i'
        | none => r) x) i'
      = if ∃ n ∈ L, d.resultIdx? (u.rowMajor.symm n) idx = some i' then c else x i' := by
    intro L
    induction L with
    | nil => intro x; simp
    | cons n L ih =>
      intro x
      rw [List.foldl_cons, ih]
      cases h : d.resultIdx? (u.rowMajor.symm n) idx with
      | none =>
        simp only [List.mem_cons, exists_eq_or_imp, h, reduceCtorEq, false_or]
      | some i =>
        simp only [List.mem_cons, exists_eq_or_imp, h, Option.some.injEq, hupd]
        by_cases hi : i = i'
        · subst hi; simp
        · have hi' : ¬ i' = i := fun e => hi e.symm
          simp [hi, hi']
  refine (key (List.finRange u.numel) x).trans ?_
  have hiff : (∃ n ∈ List.finRange u.numel, d.resultIdx? (u.rowMajor.symm n) idx = some i') ↔ ∃ j : u.Idx, d.resultIdx? j idx = some i' := by
    constructor
    · rintro ⟨n, -, hn⟩; exact ⟨_, hn⟩
    · rintro ⟨j, hj⟩; exact ⟨u.rowMajor j, List.mem_finRange _, by rw [Equiv.symm_apply_apply]; exact hj⟩
  simp only [hiff]

/-- The index array of the scatter holds the one word `i`. -/
theorem idx_apply (i : BitVec 32) (k : S1.Idx) : broadcastInDim S1 ![] bcast_S_S1 (constantI S_ 32 i) k = i := rfl

/-- With start index `t` on the column axis, update `b` lands on row `b`, column `t`. -/
theorem resultIdx_eq (i : BitVec 32) (t : Fin 4096) (hi : i.toInt = (t.val : Int)) (b : Fin 128) :
    scatter_S128x4096_S1_S128_0_1_1_0.resultIdx? (ix1 b) (broadcastInDim S1 ![] bcast_S_S1 (constantI S_ 32 i))
      = some (ix2 b t) := by
  have hs0 : scatter_S128x4096_S1_S128_0_1_1_0.start (ix1 b) (broadcastInDim S1 ![] bcast_S_S1 (constantI S_ 32 i)) (0 : Fin 2) = 0 := by
    unfold ScatterDims.start
    rw [dif_neg (by decide)]
  have hs1 : scatter_S128x4096_S1_S128_0_1_1_0.start (ix1 b) (broadcastInDim S1 ![] bcast_S_S1 (constantI S_ 32 i)) (1 : Fin 2) = (t.val : Int) := by
    unfold ScatterDims.start
    rw [dif_pos (by decide), idx_apply, hi]
  have hw0 : scatter_S128x4096_S1_S128_0_1_1_0.window (ix1 b : S128.Idx) (0 : Fin 2) = b.val := by
    unfold ScatterDims.window
    rw [dif_pos (by decide)]
    rfl
  have hw1 : scatter_S128x4096_S1_S128_0_1_1_0.window (ix1 b : S128.Idx) (1 : Fin 2) = 0 := by
    unfold ScatterDims.window
    rw [dif_neg (by decide)]
  unfold ScatterDims.resultIdx?
  have hb := b.isLt
  have ht := t.isLt
  rw [dif_pos (by
    intro a
    match a with
    | ⟨0, _⟩ => rw [show (⟨0, _⟩ : Fin 2) = 0 from rfl, hs0, hw0]; show (0 : Int) ≤ 0 + (b.val : Int) ∧ 0 + (b.val : Int) < 128; omega
    | ⟨1, _⟩ => rw [show (⟨1, _⟩ : Fin 2) = 1 from rfl, hs1, hw1]; show (0 : Int) ≤ (t.val : Int) + (0 : Nat) ∧ (t.val : Int) + (0 : Nat) < 4096; omega)]
  refine congrArg some ((eq_ix2 _).trans ?_)
  have e0 : ∀ (x : Int) (h : x.toNat < 128), x = (b.val : Int) → (⟨x.toNat, h⟩ : Fin 128) = b := by
    intro x h hx; apply Fin.ext; show x.toNat = b.val; omega
  have e1 : ∀ (x : Int) (h : x.toNat < 4096), x = (t.val : Int) → (⟨x.toNat, h⟩ : Fin 4096) = t := by
    intro x h hx; apply Fin.ext; show x.toNat = t.val; omega
  congr 1
  · exact e0 _ _ (by rw [hs0, hw0]; omega)
  · exact e1 _ _ (by rw [hs1, hw1]; omega)

/-! ## The pieces of the step -/

/-- The word of `1.0` denotes the extended real `1`. -/
theorem ofBits_one_f32 : Ideal.ofBits .f32 0x3F800000#32 = 1 := IdealRules.sign_bit.ideal_onePat .f32

/-- A small word read as a signed integer is itself. -/
theorem toInt_ofNat_small (t : Fin 8) : (BitVec.ofNat 32 t.val).toInt = (t.val : Int) := by
  revert t; decide

/-- The indicator of column `i`: ones scattered into column `i` of zeros. -/
def chgT (i : BitVec 32) : FVec Ideal S128x4096 .f32 :=
  Host.scatter scatter_S128x4096_S1_S128_0_1_1_0 (fun _ b => b)
    (broadcastInDim S128x4096 ![] bcast_S_S128x4096 (constant (F := Ideal) S_ .f32 0x00000000#32))
    (broadcastInDim S1 ![] bcast_S_S1 (constantI S_ 32 i))
    (broadcastInDim S128 ![] bcast_S_S128 (constant (F := Ideal) S_ .f32 0x3F800000#32))

theorem chgT_apply (i : BitVec 32) (t : Fin 4096) (hi : i.toInt = (t.val : Int)) (b : Fin 128) (j : Fin 4096) :
    chgT i (ix2 b j) = if j.val = t.val then 1 else 0 := by
  unfold chgT
  refine (scatter_set_const scatter_S128x4096_S1_S128_0_1_1_0 _ (broadcastInDim S1 ![] bcast_S_S1 (constantI S_ 32 i))
    (broadcastInDim S128 ![] bcast_S_S128 (constant (F := Ideal) S_ .f32 0x3F800000#32)) (Ideal.ofBits .f32 0x3F800000#32)
    (fun _ => rfl) (ix2 b j)).trans ?_
  have hiff : (∃ j' : S128.Idx, scatter_S128x4096_S1_S128_0_1_1_0.resultIdx? j' (broadcastInDim S1 ![] bcast_S_S1 (constantI S_ 32 i))
      = some (ix2 b j)) ↔ j.val = t.val := by
    constructor
    · rintro ⟨j', h⟩
      obtain ⟨b', rfl⟩ : ∃ b' : Fin 128, j' = ix1 b' := ⟨j' 0, eq_ix1 j'⟩
      rw [resultIdx_eq i t hi] at h
      have h2 := congrFun (Option.some.inj h) 1
      exact (congrArg Fin.val h2).symm
    · intro h
      refine ⟨ix1 b, ?_⟩
      rw [resultIdx_eq i t hi]
      have : t = j := Fin.ext h.symm
      rw [this]
  by_cases hj : j.val = t.val
  · rw [if_pos (hiff.2 hj), if_pos hj]; exact ofBits_one_f32
  · rw [if_neg (fun h => hj (hiff.1 h)), if_neg hj]; exact Ideal.ofBits_zero_f32

/-- The coercion of the reals into the extended reals commutes with finite sums. -/
theorem coe_finset_sum {ι : Type} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- The matrix–vector product read at a row: the sum over the columns. -/
theorem dot_apply (A : FVec Ideal S128x4096 .f32) (B : FVec Ideal S4096 .f32) (b : Fin 128) :
    Host.dotGeneral dot_S128x4096_S4096_S128_1_0_0_n_n_n none A B (ix1 b) = ∑ c : Fin 4096, A (ix2 b c) * B (ix1 c) := by
  show FloatOps.dotGeneral _ none _ A B (ix1 b) = _
  rw [Ideal.dotGeneral_apply, ← Equiv.sum_comp (contrEquiv1 dot_S128x4096_S4096_S128_1_0_0_n_n_n 4096 rfl rfl).symm]
  refine Finset.sum_congr rfl fun c _ => ?_
  have c2 := contrEquiv1_symm_val dot_S128x4096_S4096_S128_1_0_0_n_n_n 4096 rfl rfl c
  have l2 : dot_S128x4096_S4096_S128_1_0_0_n_n_n.lhsIdx (ix1 b) ((contrEquiv1 _ 4096 rfl rfl).symm c) = ix2 b c := by
    funext ax; apply Fin.ext
    match ax with
    | ⟨0, _⟩ => simp [DotDims.lhsIdx, dot_S128x4096_S4096_S128_1_0_0_n_n_n]; rfl
    | ⟨1, _⟩ => simp [DotDims.lhsIdx, dot_S128x4096_S4096_S128_1_0_0_n_n_n]; exact c2
  have r2 : dot_S128x4096_S4096_S128_1_0_0_n_n_n.rhsIdx (ix1 b) ((contrEquiv1 _ 4096 rfl rfl).symm c) = ix1 c := by
    funext ax; apply Fin.ext
    match ax with
    | ⟨0, _⟩ => simp [DotDims.rhsIdx, dot_S128x4096_S4096_S128_1_0_0_n_n_n]; exact c2
  rw [l2, r2]

/-- The sample with column `i` flipped. -/
def scT (i : BitVec 32) (s : FVec Ideal S128x4096 .f32) : FVec Ideal S128x4096 .f32 :=
  addf (mulf (subf (broadcastInDim S128x4096 ![] bcast_S_S128x4096 (constant (F := Ideal) S_ .f32 0x3F800000#32)) (chgT i)) s)
    (mulf (chgT i) (subf (broadcastInDim S128x4096 ![] bcast_S_S128x4096 (constant (F := Ideal) S_ .f32 0x3F800000#32)) s))

theorem scT_apply (i : BitVec 32) (t : Fin 4096) (hi : i.toInt = (t.val : Int)) (s : FVec Ideal S128x4096 .f32)
    (b : Fin 128) (j : Fin 4096) (r : ℝ) (hr : s (ix2 b j) = (r : EReal)) :
    scT i s (ix2 b j) = if j.val = t.val then ((1 - r : ℝ) : EReal) else (r : EReal) := by
  show (Ideal.ofBits .f32 0x3F800000#32 - chgT i (ix2 b j)) * s (ix2 b j)
      + chgT i (ix2 b j) * (Ideal.ofBits .f32 0x3F800000#32 - s (ix2 b j)) = _
  rw [chgT_apply i t hi, ofBits_one_f32, hr]
  by_cases hj : j.val = t.val
  · rw [if_pos hj, if_pos hj]
    have : ((1 : EReal) - 1) * (r : EReal) + 1 * (1 - (r : EReal)) = (((1 - 1) * r + 1 * (1 - r) : ℝ) : EReal) := by
      push_cast; rfl
    rw [this]; congr 1; ring
  · rw [if_neg hj, if_neg hj]
    have : ((1 : EReal) - 0) * (r : EReal) + 0 * (1 - (r : EReal)) = (((1 - 0) * r + 0 * (1 - r) : ℝ) : EReal) := by
      push_cast; rfl
    rw [this]; congr 1; ring

/-- The change of the linear energy under the flip. -/
def lpT (i : BitVec 32) (s : FVec Ideal S128x4096 .f32) (θ : FVec Ideal S4096 .f32) : FVec Ideal S128 .f32 :=
  subf (Host.dotGeneral dot_S128x4096_S4096_S128_1_0_0_n_n_n none (scT i s) θ)
    (Host.dotGeneral dot_S128x4096_S4096_S128_1_0_0_n_n_n none s θ)

theorem coe_two : ((2 : ℝ) : EReal) = 2 := rfl

/-- The two sums differ in the one term of the flipped column. -/
theorem lpT_apply (i : BitVec 32) (t : Fin 4096) (hi : i.toInt = (t.val : Int)) (s : FVec Ideal S128x4096 .f32)
    (θ : FVec Ideal S4096 .f32) (hs : ∀ j, ∃ r : ℝ, s j = (r : EReal)) (hθ : ∀ j, ∃ r : ℝ, θ j = (r : EReal)) (b : Fin 128) :
    lpT i s θ (ix1 b) = (1 - 2 * s (ix2 b t)) * θ (ix1 t) := by
  choose rs hrs using hs
  choose rθ hrθ using hθ
  show Host.dotGeneral dot_S128x4096_S4096_S128_1_0_0_n_n_n none (scT i s) θ (ix1 b)
      - Host.dotGeneral dot_S128x4096_S4096_S128_1_0_0_n_n_n none s θ (ix1 b) = _
  rw [dot_apply, dot_apply]
  have h1 : ∀ c : Fin 4096, scT i s (ix2 b c) * θ (ix1 c)
      = (((if c.val = t.val then 1 - rs (ix2 b c) else rs (ix2 b c)) * rθ (ix1 c) : ℝ) : EReal) := by
    intro c
    rw [scT_apply i t hi s b c _ (hrs _), hrθ, EReal.coe_mul]
    by_cases hc : c.val = t.val
    · rw [if_pos hc, if_pos hc]
    · rw [if_neg hc, if_neg hc]
  have h2 : ∀ c : Fin 4096, s (ix2 b c) * θ (ix1 c) = ((rs (ix2 b c) * rθ (ix1 c) : ℝ) : EReal) := by
    intro c; rw [hrs, hrθ, EReal.coe_mul]
  rw [Finset.sum_congr rfl (fun c _ => h1 c), Finset.sum_congr rfl (fun c _ => h2 c), ← coe_finset_sum, ← coe_finset_sum,
    ← EReal.coe_sub, ← Finset.sum_sub_distrib, Finset.sum_eq_single t]
  · rw [if_pos rfl, hrs (ix2 b t), hrθ (ix1 t), ← coe_two, ← EReal.coe_one, ← EReal.coe_mul, ← EReal.coe_sub, ← EReal.coe_mul]
    congr 1; ring
  · intro c _ hc
    have hc' : ¬ c.val = t.val := fun h => hc (Fin.ext h)
    rw [if_neg hc', sub_self]
  · intro h; exact absurd (Finset.mem_univ t) h

/-! The host's operations read at an index, at the ideal values. -/
section HostAt
variable {sh : Shape} {φ : FTy}
theorem hostDivf_apply (x y : FVec Ideal sh φ) (k : sh.Idx) : Host.divf x y k = Ideal.div (x k) (y k) := rfl
theorem hostExp_apply (x : FVec Ideal sh φ) (k : sh.Idx) : Host.exp x k = Ideal.exp (x k) := rfl
theorem hostNegf_apply (x : FVec Ideal sh φ) (k : sh.Idx) : Host.negf x k = -(x k) := rfl
theorem uitofp_apply {w : Nat} (x : IVec sh w) (k : sh.Idx) : (uitofp φ x : FVec Ideal sh φ) k = ((((x k).toNat : ℝ)) : EReal) := rfl
theorem cmp_olt (x y : EReal) : Ideal.cmp .olt x y = BitVec.ofBool (decide (x < y)) := rfl
end HostAt

theorem ones128_apply (k : S128.Idx) :
    broadcastInDim S128 ![] bcast_S_S128 (constant (F := Ideal) S_ .f32 0x3F800000#32) k = Ideal.ofBits .f32 0x3F800000#32 := rfl

/-- The acceptance probability as the program computes it. -/
def pT (i : BitVec 32) (s : FVec Ideal S128x4096 .f32) (θ : FVec Ideal S4096 .f32) : FVec Ideal S128 .f32 :=
  Host.divf (broadcastInDim S128 ![] bcast_S_S128 (constant (F := Ideal) S_ .f32 0x3F800000#32))
    (addf (broadcastInDim S128 ![] bcast_S_S128 (constant (F := Ideal) S_ .f32 0x3F800000#32)) (Host.exp (Host.negf (lpT i s θ))))

theorem pT_apply (i : BitVec 32) (t : Fin 4096) (hi : i.toInt = (t.val : Int)) (s : FVec Ideal S128x4096 .f32)
    (θ : FVec Ideal S4096 .f32) (hs : ∀ j, ∃ r : ℝ, s j = (r : EReal)) (hθ : ∀ j, ∃ r : ℝ, θ j = (r : EReal)) (b : Fin 128) :
    pT i s θ (ix1 b) = Cert.Gibbs.Spec.accept (s (ix2 b t)) (θ (ix1 t)) := by
  have h := lpT_apply i t hi s θ hs hθ b
  unfold pT Cert.Gibbs.Spec.accept
  rw [hostDivf_apply, addf_apply, hostExp_apply, hostNegf_apply, ones128_apply, h, ofBits_one_f32]

/-- The indicator of acceptance: `1` where the draw is below the probability, else `0`. -/
def aT (i : BitVec 32) (s : FVec Ideal S128x4096 .f32) (θ : FVec Ideal S4096 .f32) (u : FVec Ideal S128 .f32) : FVec Ideal S128 .f32 :=
  uitofp .f32 (cmpf .olt u (pT i s θ))

theorem aT_apply (i : BitVec 32) (s : FVec Ideal S128x4096 .f32) (θ : FVec Ideal S4096 .f32) (u : FVec Ideal S128 .f32) (b : Fin 128) :
    aT i s θ u (ix1 b) = if u (ix1 b) < pT i s θ (ix1 b) then 1 else 0 := by
  classical
  unfold aT
  rw [uitofp_apply, cmpf_apply, Ideal.cmpf_def, cmp_olt]
  generalize pT i s θ (ix1 b) = p
  generalize u (ix1 b) = x
  by_cases h : x < p
  · rw [if_pos h, decide_eq_true h]; simp
  · rw [if_neg h, decide_eq_false h]; simp

/-! ## The mix, and the step -/

/-- A column `[128, 1]` broadcast along the second axis reads its row's element. -/
theorem bcast_S128x1_apply {α : Type} (v : S128x1.Idx → α) (b : Fin 128) (j : Fin 4096) :
    broadcastInDim S128x4096 ![0, 1] bcast_S128x1_S128x4096_0_1 v (ix2 b j) = v (ix2 b (0 : Fin 1)) := by
  refine broadcastInDim_apply _ _ _ (ix2 b j) (ix2 b (0 : Fin 1)) ?_
  intro ax
  match ax with
  | ⟨0, _⟩ => rfl
  | ⟨1, _⟩ => rfl

/-- A vector `[128]` as a column `[128, 1]` reads the vector's element. -/
theorem bcast_S128_apply {α : Type} (a : S128.Idx → α) (b : Fin 128) :
    broadcastInDim S128x1 ![0] bcast_S128_S128x1_0 a (ix2 b (0 : Fin 1)) = a (ix1 b) := by
  refine broadcastInDim_apply _ _ _ (ix2 b (0 : Fin 1)) (ix1 b) ?_
  intro ax
  match ax with
  | ⟨0, _⟩ => rfl

theorem onesCol_apply (k : S128x1.Idx) :
    broadcastInDim S128x1 ![] bcast_S_S128x1 (constant (F := Ideal) S_ .f32 0x3F800000#32) k = Ideal.ofBits .f32 0x3F800000#32 := rfl

/-- The step in terms of its pieces. -/
theorem stepTerm_eq (i : BitVec 32) (s : FVec Ideal S128x4096 .f32) (θ : FVec Ideal S4096 .f32) (u : FVec Ideal S128 .f32) :
    stepTerm i s θ u
      = addf (mulf (scT i s) (broadcastInDim S128x4096 ![0, 1] bcast_S128x1_S128x4096_0_1
            (broadcastInDim S128x1 ![0] bcast_S128_S128x1_0 (aT i s θ u))))
          (mulf s (broadcastInDim S128x4096 ![0, 1] bcast_S128x1_S128x4096_0_1
            (subf (broadcastInDim S128x1 ![] bcast_S_S128x1 (constant (F := Ideal) S_ .f32 0x3F800000#32))
              (broadcastInDim S128x1 ![0] bcast_S128_S128x1_0 (aT i s θ u))))) := rfl

/-- The step at an element: the flipped sample where the chain accepts, the sample where it does not. -/
theorem stepTerm_apply (i : BitVec 32) (s : FVec Ideal S128x4096 .f32) (θ : FVec Ideal S4096 .f32) (u : FVec Ideal S128 .f32)
    (b : Fin 128) (j : Fin 4096) :
    stepTerm i s θ u (ix2 b j)
      = scT i s (ix2 b j) * aT i s θ u (ix1 b) + s (ix2 b j) * (1 - aT i s θ u (ix1 b)) := by
  rw [stepTerm_eq, addf_apply, mulf_apply, mulf_apply, bcast_S128x1_apply, bcast_S128x1_apply, subf_apply, bcast_S128_apply,
    onesCol_apply, ofBits_one_f32]

theorem one_sub_one : (1 : EReal) - 1 = 0 := by
  rw [← EReal.coe_one, ← EReal.coe_sub, sub_self, EReal.coe_zero]

theorem one_sub_zero : (1 : EReal) - 0 = 1 := by
  rw [← EReal.coe_one, ← EReal.coe_zero, ← EReal.coe_sub, sub_zero]

/-- One step of the program is one step of the specification on column `t`, and keeps every other column. -/
theorem step_spec (t : Fin 8) (s : FVec Ideal S128x4096 .f32) (θ : FVec Ideal S4096 .f32) (u : FVec Ideal S128 .f32)
    (hs : ∀ j, ∃ r : ℝ, s j = (r : EReal)) (hθ : ∀ j, ∃ r : ℝ, θ j = (r : EReal)) (hu : ∀ j, ∃ r : ℝ, u j = (r : EReal))
    (b : Fin 128) (j : Fin 4096) :
    stepTerm (BitVec.ofNat 32 t.val) s θ u (ix2 b j)
      = if j.val = t.val then Cert.Gibbs.Spec.upd (s (ix2 b j)) (θ (ix1 j)) (u (ix1 b)) else s (ix2 b j) := by
  have ht : t.val < 4096 := by have := t.isLt; omega
  have hi : (BitVec.ofNat 32 t.val).toInt = (((⟨t.val, ht⟩ : Fin 4096).val : Nat) : Int) := toInt_ofNat_small t
  obtain ⟨r, hr⟩ := hs (ix2 b j)
  rw [stepTerm_apply, scT_apply _ ⟨t.val, ht⟩ hi s b j r hr, aT_apply, pT_apply _ ⟨t.val, ht⟩ hi s θ hs hθ, hr]
  by_cases hj : j.val = t.val
  · have hjt : (⟨t.val, ht⟩ : Fin 4096) = j := Fin.ext hj.symm
    rw [hjt, if_pos hj, if_pos (rfl : j.val = j.val), hr]
    unfold Cert.Gibbs.Spec.upd
    by_cases hacc : u (ix1 b) < Cert.Gibbs.Spec.accept (r : EReal) (θ (ix1 j))
    · rw [if_pos hacc, if_pos hacc, mul_one, one_sub_one, mul_zero, add_zero, EReal.coe_sub, EReal.coe_one]
    · rw [if_neg hacc, if_neg hacc, mul_zero, zero_add, one_sub_zero, mul_one]
  · have hj' : ¬ j.val = (⟨t.val, ht⟩ : Fin 4096).val := hj
    rw [if_neg hj', if_neg hj]
    by_cases hacc : u (ix1 b) < Cert.Gibbs.Spec.accept (s (ix2 b ⟨t.val, ht⟩)) (θ (ix1 ⟨t.val, ht⟩))
    · rw [if_pos hacc, mul_one, one_sub_one, mul_zero, add_zero]
    · rw [if_neg hacc, mul_zero, zero_add, one_sub_zero, mul_one]

/-- Every element after a step is finite. -/
theorem step_finite (t : Fin 8) (s : FVec Ideal S128x4096 .f32) (θ : FVec Ideal S4096 .f32) (u : FVec Ideal S128 .f32)
    (hs : ∀ j, ∃ r : ℝ, s j = (r : EReal)) (hθ : ∀ j, ∃ r : ℝ, θ j = (r : EReal)) (hu : ∀ j, ∃ r : ℝ, u j = (r : EReal)) :
    ∀ j', ∃ r : ℝ, stepTerm (BitVec.ofNat 32 t.val) s θ u j' = (r : EReal) := by
  intro j'
  obtain ⟨b, j, rfl⟩ : ∃ (b : Fin 128) (j : Fin 4096), j' = ix2 b j := ⟨j' 0, j' 1, eq_ix2 j'⟩
  rw [step_spec t s θ u hs hθ hu b j]
  obtain ⟨r, hr⟩ := hs (ix2 b j)
  by_cases hj : j.val = t.val
  · rw [if_pos hj, hr]
    unfold Cert.Gibbs.Spec.upd
    by_cases hacc : u (ix1 b) < Cert.Gibbs.Spec.accept (r : EReal) (θ (ix1 j))
    · rw [if_pos hacc]; exact ⟨1 - r, by rw [EReal.coe_sub, EReal.coe_one]⟩
    · rw [if_neg hacc]; exact ⟨r, rfl⟩
  · rw [if_neg hj]; exact ⟨r, hr⟩

end Cert.ReferenceIdeal.Step

end
-- ==== Proof.RefCompose.lean ====
import proofs.«213024_g80238579024365_cont_9to1c4b_497_7_alg».proof.ReferenceIdeal
import proofs.«213024_g80238579024365_cont_9to1c4b_497_7_alg».proof.Proof.Spec
import proofs.«213024_g80238579024365_cont_9to1c4b_497_7_alg».proof.Proof.Uniform
import proofs.«213024_g80238579024365_cont_9to1c4b_497_7_alg».proof.Proof.RefStep
import Idealize.ShloMosaic.Lib.ValueIdx
import Mathlib

/-!
# Eight steps compose to the sampler's specification

Step `t` rewrites column `t` of the state, from column `t` of its input and the draws of step `t`, and
keeps every other column.  No earlier step touched column `t`, so after `k` steps the columns below
`k` hold the update of the initial state and the others still hold the initial state.
-/

noncomputable section

namespace Cert.ReferenceIdeal.Step

open Idealize.ShloMosaic

/-- the composition, over any step function with the two properties of one step -/
theorem compose8_of
    (step : BitVec 32 → FVec Ideal S128x4096 .f32 → FVec Ideal S4096 .f32 → FVec Ideal S128 .f32 → FVec Ideal S128x4096 .f32)
    (step_spec : ∀ (t : Fin 8) (s : FVec Ideal S128x4096 .f32) (θ : FVec Ideal S4096 .f32) (u : FVec Ideal S128 .f32),
      (∀ j, ∃ r : ℝ, s j = (r : EReal)) → (∀ j, ∃ r : ℝ, θ j = (r : EReal)) → (∀ j, ∃ r : ℝ, u j = (r : EReal)) →
      ∀ (b : Fin 128) (j : Fin 4096), step (BitVec.ofNat 32 t.val) s θ u (ValueIdx.ix2 b j)
        = if j.val = t.val then Cert.Gibbs.Spec.upd (s (ValueIdx.ix2 b j)) (θ (ValueIdx.ix1 j)) (u (ValueIdx.ix1 b))
          else s (ValueIdx.ix2 b j))
    (step_finite : ∀ (t : Fin 8) (s : FVec Ideal S128x4096 .f32) (θ : FVec Ideal S4096 .f32) (u : FVec Ideal S128 .f32),
      (∀ j, ∃ r : ℝ, s j = (r : EReal)) → (∀ j, ∃ r : ℝ, θ j = (r : EReal)) → (∀ j, ∃ r : ℝ, u j = (r : EReal)) →
      ∀ j', ∃ r : ℝ, step (BitVec.ofNat 32 t.val) s θ u j' = (r : EReal))
    (x : FVec Ideal S128x4096 .f32) (θ : FVec Ideal S4096 .f32)
    (hx : ∀ j, ∃ r : ℝ, x j = (r : EReal)) (hθ : ∀ j, ∃ r : ℝ, θ j = (r : EReal))
    (U : Fin 8 → FVec Ideal S128 .f32) (hU : ∀ t j, ∃ r : ℝ, U t j = (r : EReal))
    (s : Fin 9 → FVec Ideal S128x4096 .f32) (h0 : s 0 = x)
    (hstep : ∀ t : Fin 8, s ⟨t.val + 1, by omega⟩ = step (BitVec.ofNat 32 t.val) (s ⟨t.val, by omega⟩) θ (U t))
    (b : Fin 128) (j : Fin 4096) :
    s 8 (ValueIdx.ix2 b j)
      = Cert.Gibbs.Spec.G (fun b j => x (ValueIdx.ix2 b j)) (fun j => θ (ValueIdx.ix1 j)) (fun b t => U t (ValueIdx.ix1 b)) b j := by
  -- after k steps: every entry real; columns below k updated, the others untouched
  have inv : ∀ k : ℕ, ∀ hk : k ≤ 8,
      (∀ j', ∃ r : ℝ, s ⟨k, Nat.lt_succ_of_le hk⟩ j' = (r : EReal)) ∧
      ∀ (b : Fin 128) (j : Fin 4096),
        (∀ h : j.val < 8, j.val < k → s ⟨k, Nat.lt_succ_of_le hk⟩ (ValueIdx.ix2 b j)
            = Cert.Gibbs.Spec.upd (x (ValueIdx.ix2 b j)) (θ (ValueIdx.ix1 j)) (U ⟨j.val, h⟩ (ValueIdx.ix1 b))) ∧
        (k ≤ j.val → s ⟨k, Nat.lt_succ_of_le hk⟩ (ValueIdx.ix2 b j) = x (ValueIdx.ix2 b j)) := by
    intro k
    induction k with
    | zero =>
      intro hk
      have e : s ⟨0, Nat.lt_succ_of_le hk⟩ = x := h0
      rw [e]
      exact ⟨hx, fun b j => ⟨fun _ h => absurd h (Nat.not_lt_zero _), fun _ => rfl⟩⟩
    | succ k ih =>
      intro hk
      obtain ⟨hfin, hcol⟩ := ih (by omega)
      have e := hstep ⟨k, by omega⟩
      have e' : s ⟨k + 1, by omega⟩ = step (BitVec.ofNat 32 k) (s ⟨k, by omega⟩) θ (U ⟨k, by omega⟩) := e
      rw [e']
      refine ⟨step_finite ⟨k, by omega⟩ _ _ _ hfin hθ (hU _), fun b j => ?_⟩
      have hs := step_spec ⟨k, by omega⟩ _ _ _ hfin hθ (hU ⟨k, by omega⟩) b j
      rw [hs]
      obtain ⟨h1, h2⟩ := hcol b j
      refine ⟨fun h hlt => ?_, fun hle => ?_⟩
      · by_cases hjk : j.val = k
        · rw [if_pos hjk, h2 (by omega)]
          have ef : (⟨k, by omega⟩ : Fin 8) = ⟨j.val, h⟩ := Fin.ext hjk.symm
          rw [ef]
        · rw [if_neg hjk]
          exact h1 h (by omega)
      · rw [if_neg (by show ¬ j.val = k; omega)]
        exact h2 (by omega)
  obtain ⟨_, hcol⟩ := inv 8 (le_refl 8)
  obtain ⟨h1, h2⟩ := hcol b j
  unfold Cert.Gibbs.Spec.G
  by_cases h8 : j.val < 8
  · rw [dif_pos h8]
    exact h1 h8 h8
  · rw [dif_neg h8]
    exact h2 (by omega)

/-- eight steps of the reference compose to the sampler's specification -/
theorem compose8 (x : FVec Ideal S128x4096 .f32) (θ : FVec Ideal S4096 .f32)
    (hx : ∀ j, ∃ r : ℝ, x j = (r : EReal)) (hθ : ∀ j, ∃ r : ℝ, θ j = (r : EReal))
    (U : Fin 8 → FVec Ideal S128 .f32) (hU : ∀ t j, ∃ r : ℝ, U t j = (r : EReal))
    (s : Fin 9 → FVec Ideal S128x4096 .f32) (h0 : s 0 = x)
    (hstep : ∀ t : Fin 8, s ⟨t.val + 1, by omega⟩ = stepTerm (BitVec.ofNat 32 t.val) (s ⟨t.val, by omega⟩) θ (U t))
    (b : Fin 128) (j : Fin 4096) :
    s 8 (ValueIdx.ix2 b j)
      = Cert.Gibbs.Spec.G (fun b j => x (ValueIdx.ix2 b j)) (fun j => θ (ValueIdx.ix1 j)) (fun b t => U t (ValueIdx.ix1 b)) b j :=
  compose8_of stepTerm step_spec step_finite x θ hx hθ U hU s h0 hstep b j

/-- every entry of the table of draws is a real number: 2 in the padding columns, a number in [0,1) in the others -/
theorem table_finite (i : Fin 2048) :
    ∃ r : ℝ, Idealize.ShloMosaic.Ideal.ofBits .f32 (Cert.KernelIdeal.lit0 i) = (r : EReal) := by
  obtain ⟨n, hn⟩ := i
  have hb : n / 16 < 128 := by omega
  have hj : n % 16 < 16 := by omega
  have ei : (⟨n, hn⟩ : Fin 2048)
      = ⟨16 * (⟨n / 16, hb⟩ : Fin 128).val + (⟨n % 16, hj⟩ : Fin 16).val,
          Cert.Gibbs.Uniform.lit_index ⟨n / 16, hb⟩ ⟨n % 16, hj⟩⟩ := Fin.ext (by show n = 16 * (n / 16) + n % 16; omega)
  rw [ei]
  by_cases h8 : 8 ≤ n % 16
  · rw [Cert.Gibbs.Uniform.lit_pad ⟨n / 16, hb⟩ ⟨n % 16, hj⟩ h8, Cert.Gibbs.Uniform.ofBits_two]
    exact ⟨2, rfl⟩
  · obtain ⟨r, _, _, _, hl⟩ := Cert.Gibbs.Uniform.lit_uniform ⟨n / 16, hb⟩ ⟨n % 16, by omega⟩
    exact ⟨r, hl⟩

end Cert.ReferenceIdeal.Step

end
-- ==== Proof.RefValue.lean ====
import proofs.«213024_g80238579024365_cont_9to1c4b_497_7_alg».proof.Proof.RefSsa
import proofs.«213024_g80238579024365_cont_9to1c4b_497_7_alg».proof.Proof.RefPaths
import proofs.«213024_g80238579024365_cont_9to1c4b_497_7_alg».proof.Proof.RefGlue
import proofs.«213024_g80238579024365_cont_9to1c4b_497_7_alg».proof.Proof.RefKeys
import proofs.«213024_g80238579024365_cont_9to1c4b_497_7_alg».proof.Proof.RefCompose
import proofs.«213024_g80238579024365_cont_9to1c4b_497_7_alg».proof.Proof.RefArgs
import proofs.«213024_g80238579024365_cont_9to1c4b_497_7_alg».proof.Proof.KernelValue

set_option maxRecDepth 16384
set_option maxHeartbeats 4000000

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.ReferenceIdeal.Step

variable {F : FTy → Type} [FloatOps F]

/-- Entry `(b, t)` of the table of draws lies inside the table. -/
theorem lit_ix (b : Fin 128) (t : Fin 8) : 16 * b.val + t.val < 2048 := by have := b.isLt; have := t.isLt; omega

/-- Eight steps from the equations of a valuation: if each sample buffer is the step's term of the one before it, the weights and
    the step's draws, and the draws are the table's columns, the last sample is the specification of the first. -/
theorem ref_value_core (W : Valuation τ sig (Elt Ideal))
    (hx : ∀ j, ∃ r : ℝ, W (main_arg0 : DevRef τ sig) j = (r : EReal)) (hθ : ∀ j, ∃ r : ℝ, W (main_arg1 : DevRef τ sig) j = (r : EReal))
    (g0 : W (main_v43 : DevRef τ sig) = stepTerm 0#32 (W (main_arg0 : DevRef τ sig)) (W (main_arg1 : DevRef τ sig)) (W (main_v26 : DevRef τ sig)))
    (g1 : W (main_v80 : DevRef τ sig) = stepTerm 1#32 (W (main_v43 : DevRef τ sig)) (W (main_arg1 : DevRef τ sig)) (W (main_v63 : DevRef τ sig)))
    (g2 : W (main_v117 : DevRef τ sig) = stepTerm 2#32 (W (main_v80 : DevRef τ sig)) (W (main_arg1 : DevRef τ sig)) (W (main_v100 : DevRef τ sig)))
    (g3 : W (main_v154 : DevRef τ sig) = stepTerm 3#32 (W (main_v117 : DevRef τ sig)) (W (main_arg1 : DevRef τ sig)) (W (main_v137 : DevRef τ sig)))
    (g4 : W (main_v191 : DevRef τ sig) = stepTerm 4#32 (W (main_v154 : DevRef τ sig)) (W (main_arg1 : DevRef τ sig)) (W (main_v174 : DevRef τ sig)))
    (g5 : W (main_v228 : DevRef τ sig) = stepTerm 5#32 (W (main_v191 : DevRef τ sig)) (W (main_arg1 : DevRef τ sig)) (W (main_v211 : DevRef τ sig)))
    (g6 : W (main_v265 : DevRef τ sig) = stepTerm 6#32 (W (main_v228 : DevRef τ sig)) (W (main_arg1 : DevRef τ sig)) (W (main_v248 : DevRef τ sig)))
    (g7 : W (main_v302 : DevRef τ sig) = stepTerm 7#32 (W (main_v265 : DevRef τ sig)) (W (main_arg1 : DevRef τ sig)) (W (main_v285 : DevRef τ sig)))
    (hU : ∀ b : Fin 128,
      W (main_v26 : DevRef τ sig) (ValueIdx.ix1 b) = Idealize.ShloMosaic.Ideal.ofBits .f32 (Cert.KernelIdeal.lit0 ⟨16 * b.val + 0, by have := b.isLt; omega⟩)
      ∧ W (main_v63 : DevRef τ sig) (ValueIdx.ix1 b) = Idealize.ShloMosaic.Ideal.ofBits .f32 (Cert.KernelIdeal.lit0 ⟨16 * b.val + 1, by have := b.isLt; omega⟩)
      ∧ W (main_v100 : DevRef τ sig) (ValueIdx.ix1 b) = Idealize.ShloMosaic.Ideal.ofBits .f32 (Cert.KernelIdeal.lit0 ⟨16 * b.val + 2, by have := b.isLt; omega⟩)
      ∧ W (main_v137 : DevRef τ sig) (ValueIdx.ix1 b) = Idealize.ShloMosaic.Ideal.ofBits .f32 (Cert.KernelIdeal.lit0 ⟨16 * b.val + 3, by have := b.isLt; omega⟩)
      ∧ W (main_v174 : DevRef τ sig) (ValueIdx.ix1 b) = Idealize.ShloMosaic.Ideal.ofBits .f32 (Cert.KernelIdeal.lit0 ⟨16 * b.val + 4, by have := b.isLt; omega⟩)
      ∧ W (main_v211 : DevRef τ sig) (ValueIdx.ix1 b) = Idealize.ShloMosaic.Ideal.ofBits .f32 (Cert.KernelIdeal.lit0 ⟨16 * b.val + 5, by have := b.isLt; omega⟩)
      ∧ W (main_v248 : DevRef τ sig) (ValueIdx.ix1 b) = Idealize.ShloMosaic.Ideal.ofBits .f32 (Cert.KernelIdeal.lit0 ⟨16 * b.val + 6, by have := b.isLt; omega⟩)
      ∧ W (main_v285 : DevRef τ sig) (ValueIdx.ix1 b) = Idealize.ShloMosaic.Ideal.ofBits .f32 (Cert.KernelIdeal.lit0 ⟨16 * b.val + 7, by have := b.isLt; omega⟩))
    (b : Fin 128) (j : Fin 4096) :
    W (main_v302 : DevRef τ sig) (ValueIdx.ix2 b j)
      = Cert.Gibbs.Spec.G (fun b j => W (main_arg0 : DevRef τ sig) (ValueIdx.ix2 b j)) (fun j => W (main_arg1 : DevRef τ sig) (ValueIdx.ix1 j))
          (fun b t => Idealize.ShloMosaic.Ideal.ofBits .f32 (Cert.KernelIdeal.lit0 ⟨16 * b.val + t.val, by have := b.isLt; have := t.isLt; omega⟩)) b j := by
  -- the nine samples and the eight draws, as functions of the step
  let s : Fin 9 → FVec Ideal S128x4096 .f32 := fun k => match k with
    | ⟨0, _⟩ => W (main_arg0 : DevRef τ sig) | ⟨1, _⟩ => W (main_v43 : DevRef τ sig) | ⟨2, _⟩ => W (main_v80 : DevRef τ sig)
    | ⟨3, _⟩ => W (main_v117 : DevRef τ sig) | ⟨4, _⟩ => W (main_v154 : DevRef τ sig) | ⟨5, _⟩ => W (main_v191 : DevRef τ sig)
    | ⟨6, _⟩ => W (main_v228 : DevRef τ sig) | ⟨7, _⟩ => W (main_v265 : DevRef τ sig) | ⟨8, _⟩ => W (main_v302 : DevRef τ sig)
  let U : Fin 8 → FVec Ideal S128 .f32 := fun t => match t with
    | ⟨0, _⟩ => W (main_v26 : DevRef τ sig) | ⟨1, _⟩ => W (main_v63 : DevRef τ sig) | ⟨2, _⟩ => W (main_v100 : DevRef τ sig)
    | ⟨3, _⟩ => W (main_v137 : DevRef τ sig) | ⟨4, _⟩ => W (main_v174 : DevRef τ sig) | ⟨5, _⟩ => W (main_v211 : DevRef τ sig)
    | ⟨6, _⟩ => W (main_v248 : DevRef τ sig) | ⟨7, _⟩ => W (main_v285 : DevRef τ sig)
  have hUt : ∀ (t : Fin 8) (b : Fin 128), U t (ValueIdx.ix1 b)
      = Idealize.ShloMosaic.Ideal.ofBits .f32 (Cert.KernelIdeal.lit0 ⟨16 * b.val + t.val, lit_ix b t⟩) := fun t b =>
    match t with
    | ⟨0, _⟩ => (hU b).1
    | ⟨1, _⟩ => (hU b).2.1
    | ⟨2, _⟩ => (hU b).2.2.1
    | ⟨3, _⟩ => (hU b).2.2.2.1
    | ⟨4, _⟩ => (hU b).2.2.2.2.1
    | ⟨5, _⟩ => (hU b).2.2.2.2.2.1
    | ⟨6, _⟩ => (hU b).2.2.2.2.2.2.1
    | ⟨7, _⟩ => (hU b).2.2.2.2.2.2.2
  have hUfin : ∀ (t : Fin 8) (i : S128.Idx), ∃ r : ℝ, U t i = (r : EReal) := fun t i => by
    have e : U t i = Idealize.ShloMosaic.Ideal.ofBits .f32 (Cert.KernelIdeal.lit0 ⟨16 * (i 0).val + t.val, lit_ix (i 0) t⟩) :=
      (congrArg (U t) (ValueIdx.eq_ix1 i)).trans (hUt t (i 0))
    rw [e]; exact table_finite _
  have hstep : ∀ t : Fin 8, s ⟨t.val + 1, by omega⟩
      = stepTerm (BitVec.ofNat 32 t.val) (s ⟨t.val, by omega⟩) (W (main_arg1 : DevRef τ sig)) (U t) := fun t =>
    match t with
    | ⟨0, _⟩ => g0 | ⟨1, _⟩ => g1 | ⟨2, _⟩ => g2 | ⟨3, _⟩ => g3 | ⟨4, _⟩ => g4 | ⟨5, _⟩ => g5 | ⟨6, _⟩ => g6 | ⟨7, _⟩ => g7
  have key := compose8 (W (main_arg0 : DevRef τ sig)) (W (main_arg1 : DevRef τ sig)) hx hθ U hUfin s rfl hstep b j
  have eU : (fun (b : Fin 128) (t : Fin 8) => U t (ValueIdx.ix1 b))
      = fun b t => Idealize.ShloMosaic.Ideal.ofBits .f32 (Cert.KernelIdeal.lit0 ⟨16 * b.val + t.val, lit_ix b t⟩) :=
    funext fun b => funext fun t => hUt t b
  rw [eU] at key
  exact key

/-- The reference's result, at an index, is the specification of the two argument arrays and the table of draws: the fold of the
    program's operations satisfies every operation's equation; the equations of each step make the step's term; the eight
    draws are the table's columns; eight steps compose to the specification. -/
theorem ref_value (V : Valuation τ sig (Elt Ideal))
    (hx : ∀ j, ∃ r : ℝ, V (main_arg0 : DevRef τ sig) j = (r : EReal)) (hθ : ∀ j, ∃ r : ℝ, V (main_arg1 : DevRef τ sig) j = (r : EReal))
    (b : Fin 128) (j : Fin 4096) :
    after (L_main (F := Ideal)) V (main_v302 : DevRef τ sig) (ValueIdx.ix2 b j)
      = Cert.Gibbs.Spec.G (fun b j => V (main_arg0 : DevRef τ sig) (ValueIdx.ix2 b j)) (fun j => V (main_arg1 : DevRef τ sig) (ValueIdx.ix1 j))
          (fun b t => Idealize.ShloMosaic.Ideal.ofBits .f32 (Cert.KernelIdeal.lit0 ⟨16 * b.val + t.val, by have := b.isLt; have := t.isLt; omega⟩)) b j := by
  have hsat := sat_main (F := Ideal) V
  have hA0 := arg0_kept (F := Ideal) V
  have hA1 := arg1_kept (F := Ideal) V
  generalize after (L_main (F := Ideal)) V = W at hsat hA0 hA1 ⊢
  have seg : ∀ (s : List (HloOp τ sig (Elt Ideal))), (∀ op ∈ s, op ∈ L_main (F := Ideal)) → s.Forall (Sat W) :=
    fun s hs => List.forall_iff_forall_mem.2 fun op h => hsat op (hs op h)
  have g0 := glue_0 W (seg _ sub_p0s0) (seg _ sub_p0s2)
  have g1 := glue_1 W (seg _ sub_p0s2) (seg _ sub_p1s0) (seg _ sub_p1s2)
  have g2 := glue_2 W (seg _ sub_p1s2) (seg _ sub_p2s0) (seg _ sub_p2s2)
  have g3 := glue_3 W (seg _ sub_p2s2) (seg _ sub_p2s4) (seg _ sub_p3s0)
  have g4 := glue_4 W (seg _ sub_p3s0) (seg _ sub_p3s2) (seg _ sub_p4s0)
  have g5 := glue_5 W (seg _ sub_p4s0) (seg _ sub_p4s2)
  have g6 := glue_6 W (seg _ sub_p4s2) (seg _ sub_p5s0) (seg _ sub_p5s2)
  have g7 := glue_7 W (seg _ sub_p5s2) (seg _ sub_p6s1)
  have hx' : ∀ j, ∃ r : ℝ, W (main_arg0 : DevRef τ sig) j = (r : EReal) := by rw [hA0]; exact hx
  have hθ' : ∀ j, ∃ r : ℝ, W (main_arg1 : DevRef τ sig) j = (r : EReal) := by rw [hA1]; exact hθ
  have key := ref_value_core W hx' hθ' g0 g1 g2 g3 g4 g5 g6 g7 (fun b => uniform_at W hsat b) b j
  rw [hA0, hA1] at key
  exact key

end Cert.ReferenceIdeal.Hand

end
-- ==== Proof.Finite.lean ====
import proofs.«213024_g80238579024365_cont_9to1c4b_497_7_alg».proof.Proof.Gen.Pre_finite_inputs
import Idealize.ShloMosaic.Lib.ReduceAll
import Idealize.ShloMosaic.Lib.IdealHost
import Idealize.ShloMosaic.PureOps.Ideal.Laws

namespace Cert.Gibbs.Finite

open Idealize.ShloMosaic Cert.Pre_finite_inputs

/-- A rank-0 array has one index. -/
instance : Subsingleton S_.Idx := ⟨fun a b => funext fun d => d.elim0⟩

/-- The f32 pattern of +∞ is the extended reals' top. -/
theorem ofBits_inf : Ideal.ofBits .f32 0x7F800000#32 = (⊤ : EReal) := by
  simp [Ideal.ofBits, Ideal.ieee]

/-- An extended real whose absolute value `max x (-x)` is below +∞ is a real number: both `⊥` and `⊤` have absolute
    value `⊤`. -/
theorem real_of_abs_lt_top (x : EReal) (h : Ideal.cmp .olt (max x (-x)) (⊤ : EReal) = 1#1) : ∃ r : ℝ, x = (r : EReal) := by
  induction x using EReal.rec with
  | bot => simp [Ideal.cmp] at h
  | top => simp [Ideal.cmp] at h
  | coe r => exact ⟨r, rfl⟩

/-- The precondition `all(|x| < +∞) ∧ all(|θ| < +∞)` says every entry of both inputs is a real number. -/
theorem finite_of_pre (x : FVec Ideal Cert.Pre_finite_inputs.S128x4096 .f32) (θ : FVec Ideal Cert.Pre_finite_inputs.S4096 .f32)
    (h : Cert.Pre_finite_inputs.fn (F := Ideal) x θ = fun _ => 1#1) :
    (∀ j, ∃ r : ℝ, x j = (r : EReal)) ∧ (∀ j, ∃ r : ℝ, θ j = (r : EReal)) := by
  have h0 := congrFun h ValueIdx.ix0
  dsimp only [Cert.Pre_finite_inputs.fn] at h0
  obtain ⟨hx, hθ⟩ := IntOp.andi_eq_one.1 h0
  refine ⟨fun j => ?_, fun j => ?_⟩
  · have e := Host.reduce_andi_all _ _ _ _ _ hx j
    have e' : Ideal.cmp .olt (max (x j) (-(x j))) (Ideal.ofBits .f32 0x7F800000#32) = 1#1 := e
    rw [ofBits_inf] at e'
    exact real_of_abs_lt_top _ e'
  · have e := Host.reduce_andi_all _ _ _ _ _ hθ j
    have e' : Ideal.cmp .olt (max (θ j) (-(θ j))) (Ideal.ofBits .f32 0x7F800000#32) = 1#1 := e
    rw [ofBits_inf] at e'
    exact real_of_abs_lt_top _ e'

end Cert.Gibbs.Finite
-- ==== Proof.lean ====
/- The certificate's proof: the three frames, the (empty) idealization ledger, and the equivalence of the idealized kernel and the
   idealized reference at the ideal instance.
   The kernel: a SparseCore program whose 32 tiles each copy four rows of the sample into their own memory, update the first
   sixteen lanes of each row, and copy the rows out; its run is the SparseCore launch theorem over the tile's body. The reference: a
   straight line of host operations (eight steps of a per-coordinate Gibbs sampler, the uniform draws computed in the program by
   threefry); its run is the fold of the operations, which satisfies every operation's equation. Both results are the
   specification `Cert.Gibbs.Spec.G` of the two arguments and the table of draws: each of the first eight coordinates of every
   chain is flipped when its draw falls below the logistic acceptance probability. -/
import proofs.«213024_g80238579024365_cont_9to1c4b_497_7_alg».proof.Defs
import proofs.«213024_g80238579024365_cont_9to1c4b_497_7_alg».proof.Proof.Gen.Kernel
import proofs.«213024_g80238579024365_cont_9to1c4b_497_7_alg».proof.Proof.Gen.KernelIdeal
import proofs.«213024_g80238579024365_cont_9to1c4b_497_7_alg».proof.Proof.Gen.ReferenceIdeal
import proofs.«213024_g80238579024365_cont_9to1c4b_497_7_alg».proof.Proof.Gen.Pre_finite_inputs
import proofs.«213024_g80238579024365_cont_9to1c4b_497_7_alg».proof.Proof.ScBitsLaunch
import proofs.«213024_g80238579024365_cont_9to1c4b_497_7_alg».proof.Proof.ScIdealRun
import proofs.«213024_g80238579024365_cont_9to1c4b_497_7_alg».proof.Proof.RefArgs
import proofs.«213024_g80238579024365_cont_9to1c4b_497_7_alg».proof.Proof.RefValue
import proofs.«213024_g80238579024365_cont_9to1c4b_497_7_alg».proof.Proof.KernelValue
import proofs.«213024_g80238579024365_cont_9to1c4b_497_7_alg».proof.Proof.Finite
import Idealize.ShloMosaic.Adequacy
import Idealize.ShloMosaic.Init

noncomputable section

namespace Cert.Proof

open Idealize.ShloMosaic Idealize.SL.Sem

theorem frame_k : Cert.frame_Kernel := fun m g _ => Cert.Kernel.Sc.run_sc_frame (F := Bits) m g

theorem frame_ki : Cert.frame_KernelIdeal := fun m g _ => Cert.KernelIdeal.Sc.run_sc_frame (F := Ideal) m g

theorem frame_ri : Cert.frame_ReferenceIdeal := fun m g _ => Cert.ReferenceIdeal.Hand.frame (F := Ideal) m g

theorem preserves : Cert.preserves_Kernel_KernelIdeal := trivial

/-- Under the precondition both arguments are arrays of real numbers; the kernel's result array and the reference's are then
    the same specification of them, index by index. -/
theorem algebraic : Cert.algebraic_KernelIdeal_ReferenceIdeal := by
  intro m g m' g' hpre hagree
  refine ⟨fun c => Cert.KernelIdeal.Sc.kout (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    ?_, ?_⟩
  · exact Cert.KernelIdeal.Sc.run_sc (F := Ideal) m g
  refine (θ_run (Cert.ReferenceIdeal.defs (F := Ideal)) _ _).mono (fun r h c => ⟨?_, (h c Cert.ReferenceIdeal.main_arg0).trans (Cert.ReferenceIdeal.Hand.arg0_kept _),
    (h c Cert.ReferenceIdeal.main_arg1).trans (Cert.ReferenceIdeal.Hand.arg1_kept _)⟩) (Cert.ReferenceIdeal.Hand.run_main (F := Ideal) m' g')
  obtain ⟨hx, hθ⟩ := Cert.Gibbs.Finite.finite_of_pre _ _ (hpre c)
  rw [h c Cert.ReferenceIdeal.main_v302]
  funext idx
  obtain ⟨b, j, rfl⟩ : ∃ (b : Fin 128) (j : Fin 4096), idx = ValueIdx.ix2 b j := ⟨idx 0, idx 1, ValueIdx.eq_ix2 idx⟩
  -- the reference's launch contents at its two arguments are the kernel's arguments
  have E0 : StableHlo.launchContents m' c (Proc.devRef .tc Cert.ReferenceIdeal.main_arg0)
      = m ((c.tc : Thread Cert.KernelIdeal.nD Cert.KernelIdeal.τ).loc Cert.KernelIdeal.main_arg0) := (hagree c).1
  have E1 : StableHlo.launchContents m' c (Proc.devRef .tc Cert.ReferenceIdeal.main_arg1)
      = m ((c.tc : Thread Cert.KernelIdeal.nD Cert.KernelIdeal.τ).loc Cert.KernelIdeal.main_arg1) := (hagree c).2
  refine Eq.trans ?_ (Cert.KernelIdeal.Lane.kout_eq_G _ _ hx hθ b j).symm
  refine (Cert.ReferenceIdeal.Hand.ref_value (StableHlo.launchContents m' c) ?_ ?_ b j).trans ?_
  · intro i; rw [E0]; exact hx i
  · intro i; rw [E1]; exact hθ i
  · rw [E0, E1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
